-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x163842 : Shape := ⟨3, ![4, 128, 163842]⟩
abbrev S3x163840x2 : Shape := ⟨3, ![3, 163840, 2]⟩
abbrev S491520 : Shape := ⟨1, ![491520]⟩
abbrev S_ : Shape := ⟨0, ![]⟩

class Facts : Prop where
  bcast_S_S4x128x163842 : S_.BroadcastsInDim S4x128x163842 (![] : Fin 0 → Fin S4x128x163842.rank)
  reducesTo_S4x128x163842_S_d0_1_2 : S4x128x163842.ReducesTo [0, 1, 2] S_
  h_S_ : 0 < S_.numel
  bcast_S_S3x163840x2 : S_.BroadcastsInDim S3x163840x2 (![] : Fin 0 → Fin S3x163840x2.rank)
  reducesTo_S3x163840x2_S_d0_1_2 : S3x163840x2.ReducesTo [0, 1, 2] S_

variable [Facts]

def fn {F : FTy → Type} [FloatOps F] (main_arg0 : FVec F S4x128x163842 .f32) (main_arg1 : IVec S3x163840x2 32) (main_arg2 : IVec S491520 32) : IVec S_ 1 :=
  let main_v0 : FVec F S4x128x163842 .f32 := Host.absf main_arg0
  let main_cst : FVec F S_ .f32 := constant S_ .f32 0x7F800000#32
  let main_v1 : FVec F S4x128x163842 .f32 := broadcastInDim S4x128x163842 ![] bcast_S_S4x128x163842 main_cst
  let main_v2 : IVec S4x128x163842 1 := cmpf .olt main_v0 main_v1
  let main_c : IVec S_ 1 := constantI S_ 1 1#1
  let main_v3 : IVec S_ 1 := (fun x v => Host.reduce IntOp.andi x v reducesTo_S4x128x163842_S_d0_1_2 h_S_) main_v2 main_c
  let main_c_0 : IVec S_ 32 := constantI S_ 32 0#32
  let main_v4 : IVec S3x163840x2 32 := broadcastInDim S3x163840x2 ![] bcast_S_S3x163840x2 main_c_0
  let main_v5 : IVec S3x163840x2 1 := cmpi .sge main_arg1 main_v4
  let main_c_1 : IVec S_ 32 := constantI S_ 32 163842#32
  let main_v6 : IVec S3x163840x2 32 := broadcastInDim S3x163840x2 ![] bcast_S_S3x163840x2 main_c_1
  let main_v7 : IVec S3x163840x2 1 := cmpi .slt main_arg1 main_v6
  let main_v8 : IVec S3x163840x2 1 := andi main_v5 main_v7
  let main_c_2 : IVec S_ 1 := constantI S_ 1 1#1
  let main_v9 : IVec S_ 1 := (fun x v => Host.reduce IntOp.andi x v reducesTo_S3x163840x2_S_d0_1_2 h_S_) main_v8 main_c_2
  let main_v10 : IVec S_ 1 := andi main_v3 main_v9
  main_v10
-- ==== Kernel.lean ====
abbrev S4x128x163842 : Shape := ⟨3, ![4, 128, 163842]⟩
abbrev S3x163840x2 : Shape := ⟨3, ![3, 163840, 2]⟩
abbrev S491520 : Shape := ⟨1, ![491520]⟩
abbrev S4x32x163842 : Shape := ⟨3, ![4, 32, 163842]⟩
abbrev S163842x128 : Shape := ⟨2, ![163842, 128]⟩
abbrev S4x128x2048 : Shape := ⟨3, ![4, 128, 2048]⟩
abbrev S4x32x2048 : Shape := ⟨3, ![4, 32, 2048]⟩
abbrev S2048x128 : Shape := ⟨2, ![2048, 128]⟩
abbrev S128x2048 : Shape := ⟨2, ![128, 2048]⟩
abbrev S163842x1x128 : Shape := ⟨3, ![163842, 1, 128]⟩
abbrev S3x163840x1 : Shape := ⟨3, ![3, 163840, 1]⟩
abbrev S3x163840 : Shape := ⟨2, ![3, 163840]⟩
abbrev S_ : Shape := ⟨0, ![]⟩
abbrev S491520x1 : Shape := ⟨2, ![491520, 1]⟩
abbrev S32768 : Shape := ⟨1, ![32768]⟩
abbrev S32768x1x128 : Shape := ⟨3, ![32768, 1, 128]⟩
abbrev S1x1x128 : Shape := ⟨3, ![1, 1, 128]⟩
abbrev S1 : Shape := ⟨1, ![1]⟩
abbrev S32768x128 : Shape := ⟨2, ![32768, 128]⟩
abbrev S491520x128 : Shape := ⟨2, ![491520, 128]⟩
abbrev S4x32x491520 : Shape := ⟨3, ![4, 32, 491520]⟩
abbrev S4x32x655362 : Shape := ⟨3, ![4, 32, 655362]⟩

abbrev nBuf : Space → Nat
  | .hbm => 63
  | .vmem => 100
  | .smem => 30
  | _ => 0

abbrev bufTy : (tb : Table) → Fin (tcTables nBuf tb) → BufTy
  | .hbm, ⟨0, _⟩ => ⟨S4x128x163842, .f32⟩
  | .hbm, ⟨1, _⟩ => ⟨S3x163840x2, .i32⟩
  | .hbm, ⟨2, _⟩ => ⟨S491520, .i32⟩
  | .hbm, ⟨3, _⟩ => ⟨S4x32x163842, .f32⟩
  | .hbm, ⟨4, _⟩ => ⟨S163842x128, .f32⟩
  | .hbm, ⟨5, _⟩ => ⟨S163842x1x128, .f32⟩
  | .hbm, ⟨6, _⟩ => ⟨S3x163840x1, .i32⟩
  | .hbm, ⟨7, _⟩ => ⟨S3x163840, .i32⟩
  | .hbm, ⟨8, _⟩ => ⟨S491520, .i32⟩
  | .hbm, ⟨9, _⟩ => ⟨S3x163840x1, .i32⟩
  | .hbm, ⟨10, _⟩ => ⟨S3x163840, .i32⟩
  | .hbm, ⟨11, _⟩ => ⟨S491520, .i32⟩
  | .hbm, ⟨12, _⟩ => ⟨S_, .i32⟩
  | .hbm, ⟨13, _⟩ => ⟨S491520, .i32⟩
  | .hbm, ⟨14, _⟩ => ⟨S491520, .i1⟩
  | .hbm, ⟨15, _⟩ => ⟨S_, .i32⟩
  | .hbm, ⟨16, _⟩ => ⟨S491520, .i32⟩
  | .hbm, ⟨17, _⟩ => ⟨S491520, .i32⟩
  | .hbm, ⟨18, _⟩ => ⟨S491520, .i32⟩
  | .hbm, ⟨19, _⟩ => ⟨S491520x1, .i32⟩
  | .hbm, ⟨20, _⟩ => ⟨S491520, .i32⟩
  | .hbm, ⟨21, _⟩ => ⟨S_, .i32⟩
  | .hbm, ⟨22, _⟩ => ⟨S491520, .i32⟩
  | .hbm, ⟨23, _⟩ => ⟨S491520, .i1⟩
  | .hbm, ⟨24, _⟩ => ⟨S_, .i32⟩
  | .hbm, ⟨25, _⟩ => ⟨S491520, .i32⟩
  | .hbm, ⟨26, _⟩ => ⟨S491520, .i32⟩
  | .hbm, ⟨27, _⟩ => ⟨S491520, .i32⟩
  | .hbm, ⟨28, _⟩ => ⟨S491520x1, .i32⟩
  | .hbm, ⟨29, _⟩ => ⟨S491520, .i32⟩
  | .hbm, ⟨30, _⟩ => ⟨S32768x1x128, .f32⟩
  | .hbm, ⟨31, _⟩ => ⟨S32768x128, .f32⟩
  | .hbm, ⟨32, _⟩ => ⟨S32768x1x128, .f32⟩
  | .hbm, ⟨33, _⟩ => ⟨S32768x128, .f32⟩
  | .hbm, ⟨34, _⟩ => ⟨S32768x1x128, .f32⟩
  | .hbm, ⟨35, _⟩ => ⟨S32768x128, .f32⟩
  | .hbm, ⟨36, _⟩ => ⟨S32768x1x128, .f32⟩
  | .hbm, ⟨37, _⟩ => ⟨S32768x128, .f32⟩
  | .hbm, ⟨38, _⟩ => ⟨S32768x1x128, .f32⟩
  | .hbm, ⟨39, _⟩ => ⟨S32768x128, .f32⟩
  | .hbm, ⟨40, _⟩ => ⟨S32768x1x128, .f32⟩
  | .hbm, ⟨41, _⟩ => ⟨S32768x128, .f32⟩
  | .hbm, ⟨42, _⟩ => ⟨S32768x1x128, .f32⟩
  | .hbm, ⟨43, _⟩ => ⟨S32768x128, .f32⟩
  | .hbm, ⟨44, _⟩ => ⟨S32768x1x128, .f32⟩
  | .hbm, ⟨45, _⟩ => ⟨S32768x128, .f32⟩
  | .hbm, ⟨46, _⟩ => ⟨S32768x1x128, .f32⟩
  | .hbm, ⟨47, _⟩ => ⟨S32768x128, .f32⟩
  | .hbm, ⟨48, _⟩ => ⟨S32768x1x128, .f32⟩
  | .hbm, ⟨49, _⟩ => ⟨S32768x128, .f32⟩
  | .hbm, ⟨50, _⟩ => ⟨S32768x1x128, .f32⟩
  | .hbm, ⟨51, _⟩ => ⟨S32768x128, .f32⟩
  | .hbm, ⟨52, _⟩ => ⟨S32768x1x128, .f32⟩
  | .hbm, ⟨53, _⟩ => ⟨S32768x128, .f32⟩
  | .hbm, ⟨54, _⟩ => ⟨S32768x1x128, .f32⟩
  | .hbm, ⟨55, _⟩ => ⟨S32768x128, .f32⟩
  | .hbm, ⟨56, _⟩ => ⟨S32768x1x128, .f32⟩
  | .hbm, ⟨57, _⟩ => ⟨S32768x128, .f32⟩
  | .hbm, ⟨58, _⟩ => ⟨S32768x1x128, .f32⟩
  | .hbm, ⟨59, _⟩ => ⟨S32768x128, .f32⟩
  | .hbm, ⟨60, _⟩ => ⟨S491520x128, .f32⟩
  | .hbm, ⟨61, _⟩ => ⟨S4x32x491520, .f32⟩
  | .hbm, ⟨62, _⟩ => ⟨S4x32x655362, .f32⟩
  | .local _ .vmem, ⟨0, _⟩ => ⟨S4x128x2048, .f32⟩
  | .local _ .vmem, ⟨1, _⟩ => ⟨S4x128x2048, .f32⟩
  | .local _ .vmem, ⟨2, _⟩ => ⟨S4x32x2048, .f32⟩
  | .local _ .vmem, ⟨3, _⟩ => ⟨S4x32x2048, .f32⟩
  | .local _ .vmem, ⟨4, _⟩ => ⟨S2048x128, .f32⟩
  | .local _ .vmem, ⟨5, _⟩ => ⟨S2048x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S1x1x128, .f32⟩
  | .local _ .vmem, ⟨27, _⟩ => ⟨S1x1x128, .f32⟩
  | .local _ .vmem, ⟨28, _⟩ => ⟨S1x1x128, .f32⟩
  | .local _ .vmem, ⟨29, _⟩ => ⟨S1x1x128, .f32⟩
  | .local _ .vmem, ⟨30, _⟩ => ⟨S1x1x128, .f32⟩
  | .local _ .vmem, ⟨31, _⟩ => ⟨S1x1x128, .f32⟩
  | .local _ .vmem, ⟨32, _⟩ => ⟨S1x1x128, .f32⟩
  | .local _ .vmem, ⟨33, _⟩ => ⟨S1x1x128, .f32⟩
  | .local _ .vmem, ⟨34, _⟩ => ⟨S1x1x128, .f32⟩
  | .local _ .vmem, ⟨35, _⟩ => ⟨S1x1x128, .f32⟩
  | .local _ .vmem, ⟨36, _⟩ => ⟨S1x1x128, .f32⟩
  | .local _ .vmem, ⟨37, _⟩ => ⟨S1x1x128, .f32⟩
  | .local _ .vmem, ⟨38, _⟩ => ⟨S1x1x128, .f32⟩
  | .local _ .vmem, ⟨39, _⟩ => ⟨S1x1x128, .f32⟩
  | .local _ .vmem, ⟨40, _⟩ => ⟨S1x1x128, .f32⟩
  | .local _ .vmem, ⟨41, _⟩ => ⟨S1x1x128, .f32⟩
  | .local _ .vmem, ⟨42, _⟩ => ⟨S1x1x128, .f32⟩
  | .local _ .vmem, ⟨43, _⟩ => ⟨S1x1x128, .f32⟩
  | .local _ .vmem, ⟨44, _⟩ => ⟨S1x1x128, .f32⟩
  | .local _ .vmem, ⟨45, _⟩ => ⟨S1x1x128, .f32⟩
  | .local _ .vmem, ⟨46, _⟩ => ⟨S1x1x128, .f32⟩
  | .local _ .vmem, ⟨47, _⟩ => ⟨S1x1x128, .f32⟩
  | .local _ .vmem, ⟨48, _⟩ => ⟨S1x1x128, .f32⟩
  | .local _ .vmem, ⟨49, _⟩ => ⟨S1x1x128, .f32⟩
  | .local _ .vmem, ⟨50, _⟩ => ⟨S1x1x128, .f32⟩
  | .local _ .vmem, ⟨51, _⟩ => ⟨S1x1x128, .f32⟩
  | .local _ .vmem, ⟨52, _⟩ => ⟨S1x1x128, .f32⟩
  | .local _ .vmem, ⟨53, _⟩ => ⟨S1x1x128, .f32⟩
  | .local _ .vmem, ⟨54, _⟩ => ⟨S1x1x128, .f32⟩
  | .local _ .vmem, ⟨55, _⟩ => ⟨S1x1x128, .f32⟩
  | .local _ .vmem, ⟨56, _⟩ => ⟨S1x1x128, .f32⟩
  | .local _ .vmem, ⟨57, _⟩ => ⟨S1x1x128, .f32⟩
  | .local _ .vmem, ⟨58, _⟩ => ⟨S1x1x128, .f32⟩
  | .local _ .vmem, ⟨59, _⟩ => ⟨S1x1x128, .f32⟩
  | .local _ .vmem, ⟨60, _⟩ => ⟨S1x1x128, .f32⟩
  | .local _ .vmem, ⟨61, _⟩ => ⟨S1x1x128, .f32⟩
  | .local _ .vmem, ⟨62, _⟩ => ⟨S1x1x128, .f32⟩
  | .local _ .vmem, ⟨63, _⟩ => ⟨S1x1x128, .f32⟩
  | .local _ .vmem, ⟨64, _⟩ => ⟨S1x1x128, .f32⟩
  | .local _ .vmem, ⟨65, _⟩ => ⟨S1x1x128, .f32⟩
  | .local _ .vmem, ⟨66, _⟩ => ⟨S1x1x128, .f32⟩
  | .local _ .vmem, ⟨67, _⟩ => ⟨S1x1x128, .f32⟩
  | .local _ .vmem, ⟨68, _⟩ => ⟨S1x1x128, .f32⟩
  | .local _ .vmem, ⟨69, _⟩ => ⟨S1x1x128, .f32⟩
  | .local _ .vmem, ⟨70, _⟩ => ⟨S1x1x128, .f32⟩
  | .local _ .vmem, ⟨71, _⟩ => ⟨S1x1x128, .f32⟩
  | .local _ .vmem, ⟨72, _⟩ => ⟨S1x1x128, .f32⟩
  | .local _ .vmem, ⟨73, _⟩ => ⟨S1x1x128, .f32⟩
  | .local _ .vmem, ⟨74, _⟩ => ⟨S1x1x128, .f32⟩
  | .local _ .vmem, ⟨75, _⟩ => ⟨S1x1x128, .f32⟩
  | .local _ .vmem, ⟨76, _⟩ => ⟨S1x1x128, .f32⟩
  | .local _ .vmem, ⟨77, _⟩ => ⟨S1x1x128, .f32⟩
  | .local _ .vmem, ⟨78, _⟩ => ⟨S1x1x128, .f32⟩
  | .local _ .vmem, ⟨79, _⟩ => ⟨S1x1x128, .f32⟩
  | .local _ .vmem, ⟨80, _⟩ => ⟨S1x1x128, .f32⟩
  | .local _ .vmem, ⟨81, _⟩ => ⟨S1x1x128, .f32⟩
  | .local _ .vmem, ⟨82, _⟩ => ⟨S1x1x128, .f32⟩
  | .local _ .vmem, ⟨83, _⟩ => ⟨S1x1x128, .f32⟩
  | .local _ .vmem, ⟨84, _⟩ => ⟨S1x1x128, .f32⟩
  | .local _ .vmem, ⟨85, _⟩ => ⟨S1x1x128, .f32⟩
  | .local _ .vmem, ⟨86, _⟩ => ⟨S1x1x128, .f32⟩
  | .local _ .vmem, ⟨87, _⟩ => ⟨S1x1x128, .f32⟩
  | .local _ .vmem, ⟨88, _⟩ => ⟨S1x1x128, .f32⟩
  | .local _ .vmem, ⟨89, _⟩ => ⟨S1x1x128, .f32⟩
  | .local _ .vmem, ⟨90, _⟩ => ⟨S1x1x128, .f32⟩
  | .local _ .vmem, ⟨91, _⟩ => ⟨S1x1x128, .f32⟩
  | .local _ .vmem, ⟨92, _⟩ => ⟨S1x1x128, .f32⟩
  | .local _ .vmem, ⟨93, _⟩ => ⟨S1x1x128, .f32⟩
  | .local _ .vmem, ⟨94, _⟩ => ⟨S1x1x128, .f32⟩
  | .local _ .vmem, ⟨95, _⟩ => ⟨S1x1x128, .f32⟩
  | .local _ .vmem, ⟨96, _⟩ => ⟨S2048x128, .f32⟩
  | .local _ .vmem, ⟨97, _⟩ => ⟨S2048x128, .f32⟩
  | .local _ .vmem, ⟨98, _⟩ => ⟨S4x32x2048, .f32⟩
  | .local _ .vmem, ⟨99, _⟩ => ⟨S4x32x2048, .f32⟩
  | .local _ .smem, ⟨0, _⟩ => ⟨S32768, .i32⟩
  | .local _ .smem, ⟨1, _⟩ => ⟨S32768, .i32⟩
  | .local _ .smem, ⟨2, _⟩ => ⟨S32768, .i32⟩
  | .local _ .smem, ⟨3, _⟩ => ⟨S32768, .i32⟩
  | .local _ .smem, ⟨4, _⟩ => ⟨S32768, .i32⟩
  | .local _ .smem, ⟨5, _⟩ => ⟨S32768, .i32⟩
  | .local _ .smem, ⟨6, _⟩ => ⟨S32768, .i32⟩
  | .local _ .smem, ⟨7, _⟩ => ⟨S32768, .i32⟩
  | .local _ .smem, ⟨8, _⟩ => ⟨S32768, .i32⟩
  | .local _ .smem, ⟨9, _⟩ => ⟨S32768, .i32⟩
  | .local _ .smem, ⟨10, _⟩ => ⟨S32768, .i32⟩
  | .local _ .smem, ⟨11, _⟩ => ⟨S32768, .i32⟩
  | .local _ .smem, ⟨12, _⟩ => ⟨S32768, .i32⟩
  | .local _ .smem, ⟨13, _⟩ => ⟨S32768, .i32⟩
  | .local _ .smem, ⟨14, _⟩ => ⟨S32768, .i32⟩
  | .local _ .smem, ⟨15, _⟩ => ⟨S32768, .i32⟩
  | .local _ .smem, ⟨16, _⟩ => ⟨S32768, .i32⟩
  | .local _ .smem, ⟨17, _⟩ => ⟨S32768, .i32⟩
  | .local _ .smem, ⟨18, _⟩ => ⟨S32768, .i32⟩
  | .local _ .smem, ⟨19, _⟩ => ⟨S32768, .i32⟩
  | .local _ .smem, ⟨20, _⟩ => ⟨S32768, .i32⟩
  | .local _ .smem, ⟨21, _⟩ => ⟨S32768, .i32⟩
  | .local _ .smem, ⟨22, _⟩ => ⟨S32768, .i32⟩
  | .local _ .smem, ⟨23, _⟩ => ⟨S32768, .i32⟩
  | .local _ .smem, ⟨24, _⟩ => ⟨S32768, .i32⟩
  | .local _ .smem, ⟨25, _⟩ => ⟨S32768, .i32⟩
  | .local _ .smem, ⟨26, _⟩ => ⟨S32768, .i32⟩
  | .local _ .smem, ⟨27, _⟩ => ⟨S32768, .i32⟩
  | .local _ .smem, ⟨28, _⟩ => ⟨S32768, .i32⟩
  | .local _ .smem, ⟨29, _⟩ => ⟨S32768, .i32⟩
  | _, _ => ⟨S4x128x163842, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v24 : Ref sig .tc := ⟨.hbm, 30, rfl⟩
abbrev main_v25 : Ref sig .tc := ⟨.hbm, 31, rfl⟩
abbrev main_v28 : Ref sig .tc := ⟨.hbm, 32, rfl⟩
abbrev main_v29 : Ref sig .tc := ⟨.hbm, 33, rfl⟩
abbrev main_v32 : Ref sig .tc := ⟨.hbm, 34, rfl⟩
abbrev main_v33 : Ref sig .tc := ⟨.hbm, 35, rfl⟩
abbrev main_v36 : Ref sig .tc := ⟨.hbm, 36, rfl⟩
abbrev main_v37 : Ref sig .tc := ⟨.hbm, 37, rfl⟩
abbrev main_v40 : Ref sig .tc := ⟨.hbm, 38, rfl⟩
abbrev main_v41 : Ref sig .tc := ⟨.hbm, 39, rfl⟩
abbrev main_v44 : Ref sig .tc := ⟨.hbm, 40, rfl⟩
abbrev main_v45 : Ref sig .tc := ⟨.hbm, 41, rfl⟩
abbrev main_v48 : Ref sig .tc := ⟨.hbm, 42, rfl⟩
abbrev main_v49 : Ref sig .tc := ⟨.hbm, 43, rfl⟩
abbrev main_v52 : Ref sig .tc := ⟨.hbm, 44, rfl⟩
abbrev main_v53 : Ref sig .tc := ⟨.hbm, 45, rfl⟩
abbrev main_v56 : Ref sig .tc := ⟨.hbm, 46, rfl⟩
abbrev main_v57 : Ref sig .tc := ⟨.hbm, 47, rfl⟩
abbrev main_v60 : Ref sig .tc := ⟨.hbm, 48, rfl⟩
abbrev main_v61 : Ref sig .tc := ⟨.hbm, 49, rfl⟩
abbrev main_v64 : Ref sig .tc := ⟨.hbm, 50, rfl⟩
abbrev main_v65 : Ref sig .tc := ⟨.hbm, 51, rfl⟩
abbrev main_v68 : Ref sig .tc := ⟨.hbm, 52, rfl⟩
abbrev main_v69 : Ref sig .tc := ⟨.hbm, 53, rfl⟩
abbrev main_v72 : Ref sig .tc := ⟨.hbm, 54, rfl⟩
abbrev main_v73 : Ref sig .tc := ⟨.hbm, 55, rfl⟩
abbrev main_v76 : Ref sig .tc := ⟨.hbm, 56, rfl⟩
abbrev main_v77 : Ref sig .tc := ⟨.hbm, 57, rfl⟩
abbrev main_v80 : Ref sig .tc := ⟨.hbm, 58, rfl⟩
abbrev main_v81 : Ref sig .tc := ⟨.hbm, 59, rfl⟩
abbrev main_v82 : Ref sig .tc := ⟨.hbm, 60, rfl⟩
abbrev main_v83 : Ref sig .tc := ⟨.hbm, 61, rfl⟩
abbrev main_v84 : Ref sig .tc := ⟨.hbm, 62, rfl⟩
abbrev main_v22 : Ref sig .tc := ⟨.smem, 0, rfl⟩
abbrev main_v23 : Ref sig .tc := ⟨.smem, 1, rfl⟩
abbrev main_v26 : Ref sig .tc := ⟨.smem, 2, rfl⟩
abbrev main_v27 : Ref sig .tc := ⟨.smem, 3, rfl⟩
abbrev main_v30 : Ref sig .tc := ⟨.smem, 4, rfl⟩
abbrev main_v31 : Ref sig .tc := ⟨.smem, 5, rfl⟩
abbrev main_v34 : Ref sig .tc := ⟨.smem, 6, rfl⟩
abbrev main_v35 : Ref sig .tc := ⟨.smem, 7, rfl⟩
abbrev main_v38 : Ref sig .tc := ⟨.smem, 8, rfl⟩
abbrev main_v39 : Ref sig .tc := ⟨.smem, 9, rfl⟩
abbrev main_v42 : Ref sig .tc := ⟨.smem, 10, rfl⟩
abbrev main_v43 : Ref sig .tc := ⟨.smem, 11, rfl⟩
abbrev main_v46 : Ref sig .tc := ⟨.smem, 12, rfl⟩
abbrev main_v47 : Ref sig .tc := ⟨.smem, 13, rfl⟩
abbrev main_v50 : Ref sig .tc := ⟨.smem, 14, rfl⟩
abbrev main_v51 : Ref sig .tc := ⟨.smem, 15, rfl⟩
abbrev main_v54 : Ref sig .tc := ⟨.smem, 16, rfl⟩
abbrev main_v55 : Ref sig .tc := ⟨.smem, 17, rfl⟩
abbrev main_v58 : Ref sig .tc := ⟨.smem, 18, rfl⟩
abbrev main_v59 : Ref sig .tc := ⟨.smem, 19, rfl⟩
abbrev main_v62 : Ref sig .tc := ⟨.smem, 20, rfl⟩
abbrev main_v63 : Ref sig .tc := ⟨.smem, 21, rfl⟩
abbrev main_v66 : Ref sig .tc := ⟨.smem, 22, rfl⟩
abbrev main_v67 : Ref sig .tc := ⟨.smem, 23, rfl⟩
abbrev main_v70 : Ref sig .tc := ⟨.smem, 24, rfl⟩
abbrev main_v71 : Ref sig .tc := ⟨.smem, 25, rfl⟩
abbrev main_v74 : Ref sig .tc := ⟨.smem, 26, rfl⟩
abbrev main_v75 : Ref sig .tc := ⟨.smem, 27, rfl⟩
abbrev main_v78 : Ref sig .tc := ⟨.smem, 28, rfl⟩
abbrev main_v79 : Ref sig .tc := ⟨.smem, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg1_1 : Ref sig .tc := ⟨.vmem, 63, rfl⟩
abbrev cc10_stg2_0 : Ref sig .tc := ⟨.vmem, 64, rfl⟩
abbrev cc10_stg2_1 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg1_1 : Ref sig .tc := ⟨.vmem, 69, rfl⟩
abbrev cc11_stg2_0 : Ref sig .tc := ⟨.vmem, 70, rfl⟩
abbrev cc11_stg2_1 : Ref sig .tc := ⟨.vmem, 71, rfl⟩
abbrev cc12_stg0_0 : Ref sig .tc := ⟨.vmem, 72, rfl⟩
abbrev cc12_stg0_1 : Ref sig .tc := ⟨.vmem, 73, rfl⟩
abbrev cc12_stg1_0 : Ref sig .tc := ⟨.vmem, 74, rfl⟩
abbrev cc12_stg1_1 : Ref sig .tc := ⟨.vmem, 75, rfl⟩
abbrev cc12_stg2_0 : Ref sig .tc := ⟨.vmem, 76, rfl⟩
abbrev cc12_stg2_1 : Ref sig .tc := ⟨.vmem, 77, rfl⟩
abbrev cc13_stg0_0 : Ref sig .tc := ⟨.vmem, 78, rfl⟩
abbrev cc13_stg0_1 : Ref sig .tc := ⟨.vmem, 79, rfl⟩
abbrev cc13_stg1_0 : Ref sig .tc := ⟨.vmem, 80, rfl⟩
abbrev cc13_stg1_1 : Ref sig .tc := ⟨.vmem, 81, rfl⟩
abbrev cc13_stg2_0 : Ref sig .tc := ⟨.vmem, 82, rfl⟩
abbrev cc13_stg2_1 : Ref sig .tc := ⟨.vmem, 83, rfl⟩
abbrev cc14_stg0_0 : Ref sig .tc := ⟨.vmem, 84, rfl⟩
abbrev cc14_stg0_1 : Ref sig .tc := ⟨.vmem, 85, rfl⟩
abbrev cc14_stg1_0 : Ref sig .tc := ⟨.vmem, 86, rfl⟩
abbrev cc14_stg1_1 : Ref sig .tc := ⟨.vmem, 87, rfl⟩
abbrev cc14_stg2_0 : Ref sig .tc := ⟨.vmem, 88, rfl⟩
abbrev cc14_stg2_1 : Ref sig .tc := ⟨.vmem, 89, rfl⟩
abbrev cc15_stg0_0 : Ref sig .tc := ⟨.vmem, 90, rfl⟩
abbrev cc15_stg0_1 : Ref sig .tc := ⟨.vmem, 91, rfl⟩
abbrev cc15_stg1_0 : Ref sig .tc := ⟨.vmem, 92, rfl⟩
abbrev cc15_stg1_1 : Ref sig .tc := ⟨.vmem, 93, rfl⟩
abbrev cc15_stg2_0 : Ref sig .tc := ⟨.vmem, 94, rfl⟩
abbrev cc15_stg2_1 : Ref sig .tc := ⟨.vmem, 95, rfl⟩
abbrev cc16_stg0_0 : Ref sig .tc := ⟨.vmem, 96, rfl⟩
abbrev cc16_stg0_1 : Ref sig .tc := ⟨.vmem, 97, rfl⟩
abbrev cc16_stg1_0 : Ref sig .tc := ⟨.vmem, 98, rfl⟩
abbrev cc16_stg1_1 : Ref sig .tc := ⟨.vmem, 99, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59
abbrev cc10_sem0_0 : DmaSem sig := 60
abbrev cc10_sem0_1 : DmaSem sig := 61
abbrev cc10_sem1_0 : DmaSem sig := 62
abbrev cc10_sem1_1 : DmaSem sig := 63
abbrev cc10_sem2_0 : DmaSem sig := 64
abbrev cc10_sem2_1 : DmaSem sig := 65
abbrev cc11_sem0_0 : DmaSem sig := 66
abbrev cc11_sem0_1 : DmaSem sig := 67
abbrev cc11_sem1_0 : DmaSem sig := 68
abbrev cc11_sem1_1 : DmaSem sig := 69
abbrev cc11_sem2_0 : DmaSem sig := 70
abbrev cc11_sem2_1 : DmaSem sig := 71
abbrev cc12_sem0_0 : DmaSem sig := 72
abbrev cc12_sem0_1 : DmaSem sig := 73
abbrev cc12_sem1_0 : DmaSem sig := 74
abbrev cc12_sem1_1 : DmaSem sig := 75
abbrev cc12_sem2_0 : DmaSem sig := 76
abbrev cc12_sem2_1 : DmaSem sig := 77
abbrev cc13_sem0_0 : DmaSem sig := 78
abbrev cc13_sem0_1 : DmaSem sig := 79
abbrev cc13_sem1_0 : DmaSem sig := 80
abbrev cc13_sem1_1 : DmaSem sig := 81
abbrev cc13_sem2_0 : DmaSem sig := 82
abbrev cc13_sem2_1 : DmaSem sig := 83
abbrev cc14_sem0_0 : DmaSem sig := 84
abbrev cc14_sem0_1 : DmaSem sig := 85
abbrev cc14_sem1_0 : DmaSem sig := 86
abbrev cc14_sem1_1 : DmaSem sig := 87
abbrev cc14_sem2_0 : DmaSem sig := 88
abbrev cc14_sem2_1 : DmaSem sig := 89
abbrev cc15_sem0_0 : DmaSem sig := 90
abbrev cc15_sem0_1 : DmaSem sig := 91
abbrev cc15_sem1_0 : DmaSem sig := 92
abbrev cc15_sem1_1 : DmaSem sig := 93
abbrev cc15_sem2_0 : DmaSem sig := 94
abbrev cc15_sem2_1 : DmaSem sig := 95
abbrev cc16_sem0_0 : DmaSem sig := 96
abbrev cc16_sem0_1 : DmaSem sig := 97
abbrev cc16_sem1_0 : DmaSem sig := 98
abbrev cc16_sem1_1 : DmaSem sig := 99

abbrev nD : Nat := 1
abbrev τ : Topo := Topo.v7x

variable {F : FTy → Type} [FloatOps F]

abbrev grid0 : Pipeline.Grid := ⟨1, ![81], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32768], ![false]⟩

abbrev pre1 : Pipeline.Prefetch sig := ⟨2, ![main_v22.idx, main_v23.idx], fun | 0 => main_v22.names | 1 => main_v23.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S32768.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S32768.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32768], ![false]⟩

abbrev pre2 : Pipeline.Prefetch sig := ⟨2, ![main_v26.idx, main_v27.idx], fun | 0 => main_v26.names | 1 => main_v27.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S32768.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (k2_off1_inb : ∀ i : grid2.Coords, ∀ a, (k2_off1 i) a + S1.size a ≤ S32768.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32768], ![false]⟩

abbrev pre3 : Pipeline.Prefetch sig := ⟨2, ![main_v30.idx, main_v31.idx], fun | 0 => main_v30.names | 1 => main_v31.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S32768.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (k3_off1_inb : ∀ i : grid3.Coords, ∀ a, (k3_off1 i) a + S1.size a ≤ S32768.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![32768], ![false]⟩

abbrev pre4 : Pipeline.Prefetch sig := ⟨2, ![main_v34.idx, main_v35.idx], fun | 0 => main_v34.names | 1 => main_v35.names | ⟨_ + 2, h⟩ => absurd h (Nat.not_lt.2 (Nat.le_add_left _ _)), fun | 0 => rfl | 1 => rfl | ⟨_ + 2, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def cc4_transform_0 (k4_off1_inb : ∀ i : grid4.Coords, ∀ a, (k4_off1 i) a + S1.size a ≤ S32768.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_1 (k4_off1_inb : ∀ i : grid4.Coords, ∀ a, (k4_off1 i) a + S1.size a ≤ S32768.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![32768], ![false]⟩

abbrev pre5 : Pipeline.Prefetch sig := ⟨2, ![main_v38.idx, main_v39.idx], fun | 0 => main_v38.names | 1 => main_v39.names | ⟨_ + 2, h⟩ => absurd h (Nat.not_lt.2 (Nat.le_add_left _ _)), fun | 0 => rfl | 1 => rfl | ⟨_ + 2, h⟩ => absurd h (Nat.not_lt.2 (Nat.le_add_left _ _))⟩

def k5_off1 (i : grid5.Coords) : Fin 1 → Nat :=
  let arg0 : BitVec 32 := BitVec.ofNat 32 (i 0).val
  let v0 : Index := Scalar.indexCast arg0
  ![v0.toNat]
def cc5_transform_0 (k5_off1_inb : ∀ i : grid5.Coords, ∀ a, (k5_off1 i) a + S1.size a ≤ S32768.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_1 (k5_off1_inb : ∀ i : grid5.Coords, ∀ a, (k5_off1 i) a + S1.size a ≤ S32768.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x1x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![32768], ![false]⟩

abbrev pre6 : Pipeline.Prefetch sig := ⟨2, ![main_v42.idx, main_v43.idx], fun | 0 => main_v42.names | 1 => main_v43.names | ⟨_ + 2, h⟩ => absurd h (Nat.not_lt.2 (Nat.le_add_left _ _)), fun | 0 => rfl | 1 => rfl | ⟨_ + 2, h⟩ => absurd h (Nat.not_lt.2 (Nat.le_add_left _ _))⟩

def k6_off1 (i : grid6.Coords) : Fin 1 → Nat :=
  let arg0 : BitVec 32 := BitVec.ofNat 32 (i 0).val
  let v0 : Index := Scalar.indexCast arg0
  ![v0.toNat]
def cc6_transform_0 (k6_off1_inb : ∀ i : grid6.Coords, ∀ a, (k6_off1 i) a + S1.size a ≤ S32768.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_1 (k6_off1_inb : ∀ i : grid6.Coords, ∀ a, (k6_off1 i) a + S1.size a ≤ S32768.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x1x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![32768], ![false]⟩

abbrev pre7 : Pipeline.Prefetch sig := ⟨2, ![main_v46.idx, main_v47.idx], fun | 0 => main_v46.names | 1 => main_v47.names | ⟨_ + 2, h⟩ => absurd h (Nat.not_lt.2 (Nat.le_add_left _ _)), fun | 0 => rfl | 1 => rfl | ⟨_ + 2, h⟩ => absurd h (Nat.not_lt.2 (Nat.le_add_left _ _))⟩

def k7_off1 (i : grid7.Coords) : Fin 1 → Nat :=
  let arg0 : BitVec 32 := BitVec.ofNat 32 (i 0).val
  let v0 : Index := Scalar.indexCast arg0
  ![v0.toNat]
def cc7_transform_0 (k7_off1_inb : ∀ i : grid7.Coords, ∀ a, (k7_off1 i) a + S1.size a ≤ S32768.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_1 (k7_off1_inb : ∀ i : grid7.Coords, ∀ a, (k7_off1 i) a + S1.size a ≤ S32768.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x1x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![32768], ![false]⟩

abbrev pre8 : Pipeline.Prefetch sig := ⟨2, ![main_v50.idx, main_v51.idx], fun | 0 => main_v50.names | 1 => main_v51.names | ⟨_ + 2, h⟩ => absurd h (Nat.not_lt.2 (Nat.le_add_left _ _)), fun | 0 => rfl | 1 => rfl | ⟨_ + 2, h⟩ => absurd h (Nat.not_lt.2 (Nat.le_add_left _ _))⟩

def k8_off1 (i : grid8.Coords) : Fin 1 → Nat :=
  let arg0 : BitVec 32 := BitVec.ofNat 32 (i 0).val
  let v0 : Index := Scalar.indexCast arg0
  ![v0.toNat]
def cc8_transform_0 (k8_off1_inb : ∀ i : grid8.Coords, ∀ a, (k8_off1 i) a + S1.size a ≤ S32768.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_1 (k8_off1_inb : ∀ i : grid8.Coords, ∀ a, (k8_off1 i) a + S1.size a ≤ S32768.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x1x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x1x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x1x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![32768], ![false]⟩

abbrev pre9 : Pipeline.Prefetch sig := ⟨2, ![main_v54.idx, main_v55.idx], fun | 0 => main_v54.names | 1 => main_v55.names | ⟨_ + 2, h⟩ => absurd h (Nat.not_lt.2 (Nat.le_add_left _ _)), fun | 0 => rfl | 1 => rfl | ⟨_ + 2, h⟩ => absurd h (Nat.not_lt.2 (Nat.le_add_left _ _))⟩

def k9_off1 (i : grid9.Coords) : Fin 1 → Nat :=
  let arg0 : BitVec 32 := BitVec.ofNat 32 (i 0).val
  let v0 : Index := Scalar.indexCast arg0
  ![v0.toNat]
def cc9_transform_0 (k9_off1_inb : ∀ i : grid9.Coords, ∀ a, (k9_off1 i) a + S1.size a ≤ S32768.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_1 (k9_off1_inb : ∀ i : grid9.Coords, ∀ a, (k9_off1 i) a + S1.size a ≤ S32768.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_2 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x1x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x1x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1x1x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![32768], ![false]⟩

abbrev pre10 : Pipeline.Prefetch sig := ⟨2, ![main_v58.idx, main_v59.idx], fun | 0 => main_v58.names | 1 => main_v59.names | ⟨_ + 2, h⟩ => absurd h (Nat.not_lt.2 (Nat.le_add_left _ _)), fun | 0 => rfl | 1 => rfl | ⟨_ + 2, h⟩ => absurd h (Nat.not_lt.2 (Nat.le_add_left _ _))⟩

def k10_off1 (i : grid10.Coords) : Fin 1 → Nat :=
  let arg0 : BitVec 32 := BitVec.ofNat 32 (i 0).val
  let v0 : Index := Scalar.indexCast arg0
  ![v0.toNat]
def cc10_transform_0 (k10_off1_inb : ∀ i : grid10.Coords, ∀ a, (k10_off1 i) a + S1.size a ≤ S32768.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_1 (k10_off1_inb : ∀ i : grid10.Coords, ∀ a, (k10_off1 i) a + S1.size a ≤ S32768.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_2 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x1x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x1x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S1x1x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![32768], ![false]⟩

abbrev pre11 : Pipeline.Prefetch sig := ⟨2, ![main_v62.idx, main_v63.idx], fun | 0 => main_v62.names | 1 => main_v63.names | ⟨_ + 2, h⟩ => absurd h (Nat.not_lt.2 (Nat.le_add_left _ _)), fun | 0 => rfl | 1 => rfl | ⟨_ + 2, h⟩ => absurd h (Nat.not_lt.2 (Nat.le_add_left _ _))⟩

def k11_off1 (i : grid11.Coords) : Fin 1 → Nat :=
  let arg0 : BitVec 32 := BitVec.ofNat 32 (i 0).val
  let v0 : Index := Scalar.indexCast arg0
  ![v0.toNat]
def cc11_transform_0 (k11_off1_inb : ∀ i : grid11.Coords, ∀ a, (k11_off1 i) a + S1.size a ≤ S32768.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_1 (k11_off1_inb : ∀ i : grid11.Coords, ∀ a, (k11_off1 i) a + S1.size a ≤ S32768.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_2 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x1x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1x1x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S1x1x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![32768], ![false]⟩

abbrev pre12 : Pipeline.Prefetch sig := ⟨2, ![main_v66.idx, main_v67.idx], fun | 0 => main_v66.names | 1 => main_v67.names | ⟨_ + 2, h⟩ => absurd h (Nat.not_lt.2 (Nat.le_add_left _ _)), fun | 0 => rfl | 1 => rfl | ⟨_ + 2, h⟩ => absurd h (Nat.not_lt.2 (Nat.le_add_left _ _))⟩

def k12_off1 (i : grid12.Coords) : Fin 1 → Nat :=
  let arg0 : BitVec 32 := BitVec.ofNat 32 (i 0).val
  let v0 : Index := Scalar.indexCast arg0
  ![v0.toNat]
def cc12_transform_0 (k12_off1_inb : ∀ i : grid12.Coords, ∀ a, (k12_off1 i) a + S1.size a ≤ S32768.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_1 (k12_off1_inb : ∀ i : grid12.Coords, ∀ a, (k12_off1 i) a + S1.size a ≤ S32768.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_2 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S1x1x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1x1x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S1x1x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![32768], ![false]⟩

abbrev pre13 : Pipeline.Prefetch sig := ⟨2, ![main_v70.idx, main_v71.idx], fun | 0 => main_v70.names | 1 => main_v71.names | ⟨_ + 2, h⟩ => absurd h (Nat.not_lt.2 (Nat.le_add_left _ _)), fun | 0 => rfl | 1 => rfl | ⟨_ + 2, h⟩ => absurd h (Nat.not_lt.2 (Nat.le_add_left _ _))⟩

def k13_off1 (i : grid13.Coords) : Fin 1 → Nat :=
  let arg0 : BitVec 32 := BitVec.ofNat 32 (i 0).val
  let v0 : Index := Scalar.indexCast arg0
  ![v0.toNat]
def cc13_transform_0 (k13_off1_inb : ∀ i : grid13.Coords, ∀ a, (k13_off1 i) a + S1.size a ≤ S32768.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_1 (k13_off1_inb : ∀ i : grid13.Coords, ∀ a, (k13_off1 i) a + S1.size a ≤ S32768.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_2 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S1x1x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1x1x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S1x1x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![32768], ![false]⟩

abbrev pre14 : Pipeline.Prefetch sig := ⟨2, ![main_v74.idx, main_v75.idx], fun | 0 => main_v74.names | 1 => main_v75.names | ⟨_ + 2, h⟩ => absurd h (Nat.not_lt.2 (Nat.le_add_left _ _)), fun | 0 => rfl | 1 => rfl | ⟨_ + 2, h⟩ => absurd h (Nat.not_lt.2 (Nat.le_add_left _ _))⟩

def k14_off1 (i : grid14.Coords) : Fin 1 → Nat :=
  let arg0 : BitVec 32 := BitVec.ofNat 32 (i 0).val
  let v0 : Index := Scalar.indexCast arg0
  ![v0.toNat]
def cc14_transform_0 (k14_off1_inb : ∀ i : grid14.Coords, ∀ a, (k14_off1 i) a + S1.size a ≤ S32768.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_1 (k14_off1_inb : ∀ i : grid14.Coords, ∀ a, (k14_off1 i) a + S1.size a ≤ S32768.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_2 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage14_0 : Fin 2 → Memref sig .tc .vmem S1x1x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S1x1x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S1x1x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![32768], ![false]⟩

abbrev pre15 : Pipeline.Prefetch sig := ⟨2, ![main_v78.idx, main_v79.idx], fun | 0 => main_v78.names | 1 => main_v79.names | ⟨_ + 2, h⟩ => absurd h (Nat.not_lt.2 (Nat.le_add_left _ _)), fun | 0 => rfl | 1 => rfl | ⟨_ + 2, h⟩ => absurd h (Nat.not_lt.2 (Nat.le_add_left _ _))⟩

def k15_off1 (i : grid15.Coords) : Fin 1 → Nat :=
  let arg0 : BitVec 32 := BitVec.ofNat 32 (i 0).val
  let v0 : Index := Scalar.indexCast arg0
  ![v0.toNat]
def cc15_transform_0 (k15_off1_inb : ∀ i : grid15.Coords, ∀ a, (k15_off1 i) a + S1.size a ≤ S32768.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_1 (k15_off1_inb : ∀ i : grid15.Coords, ∀ a, (k15_off1 i) a + S1.size a ≤ S32768.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_2 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S1x1x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S1x1x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S1x1x128 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![240], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage16_0 : Fin 2 → Memref sig .tc .vmem S2048x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S4x32x2048 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

class Facts₀ : Prop where
  inb_S4x128x2048_S4x32x2048_0_0_0 : ∀ a, (![0, 0, 0] : Fin 3 → Nat) a + S4x32x2048.size a ≤ S4x128x2048.size a
  h_S4x32x2048 : 0 < S4x32x2048.numel
  inb_S4x128x2048_S4x32x2048_0_32_0 : ∀ a, (![0, 32, 0] : Fin 3 → Nat) a + S4x32x2048.size a ≤ S4x128x2048.size a
  inb_S4x128x2048_S4x32x2048_0_64_0 : ∀ a, (![0, 64, 0] : Fin 3 → Nat) a + S4x32x2048.size a ≤ S4x128x2048.size a
  inb_S4x128x2048_S4x32x2048_0_96_0 : ∀ a, (![0, 96, 0] : Fin 3 → Nat) a + S4x32x2048.size a ≤ S4x128x2048.size a
  inb_S4x32x2048_S4x32x2048_0_0_0 : ∀ a, (![0, 0, 0] : Fin 3 → Nat) a + S4x32x2048.size a ≤ S4x32x2048.size a
  shapeCasts_S4x32x2048_S128x2048 : S4x32x2048.ShapeCasts S128x2048
  transposes_S128x2048_p1_0_S2048x128 : S128x2048.Transposes [1, 0] S2048x128
  inb_S2048x128_S2048x128_0_0 : ∀ a, (![0, 0] : Fin 2 → Nat) a + S2048x128.size a ≤ S2048x128.size a
  h_S2048x128 : 0 < S2048x128.numel
  shapeCasts_S163842x128_S163842x1x128 : S163842x128.ShapeCasts S163842x1x128
  slices_S3x163840x2_S3x163840x1_0_0_0 : S3x163840x2.Slices ![0, 0, 0] S3x163840x1
  shapeCasts_S3x163840x1_S3x163840 : S3x163840x1.ShapeCasts S3x163840
  shapeCasts_S3x163840_S491520 : S3x163840.ShapeCasts S491520
  slices_S3x163840x2_S3x163840x1_0_0_1 : S3x163840x2.Slices ![0, 0, 1] S3x163840x1
  bcast_S_S491520 : S_.BroadcastsInDim S491520 (![] : Fin 0 → Fin S491520.rank)
  bcast_S491520_S491520x1_0 : S491520.BroadcastsInDim S491520x1 (![0] : Fin 1 → Fin S491520x1.rank)
  slices_S491520_S32768_0 : S491520.Slices ![0] S32768
  numel1_S1 : S1.numel = 1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S32768x1x128_S32768x128 : S32768x1x128.ShapeCasts S32768x128
  slices_S491520_S32768_32768 : S491520.Slices ![32768] S32768
  slices_S491520_S32768_65536 : S491520.Slices ![65536] S32768
  slices_S491520_S32768_98304 : S491520.Slices ![98304] S32768
  slices_S491520_S32768_131072 : S491520.Slices ![131072] S32768
  slices_S491520_S32768_163840 : S491520.Slices ![163840] S32768
  slices_S491520_S32768_196608 : S491520.Slices ![196608] S32768
  slices_S491520_S32768_229376 : S491520.Slices ![229376] S32768
  slices_S491520_S32768_262144 : S491520.Slices ![262144] S32768
  slices_S491520_S32768_294912 : S491520.Slices ![294912] S32768
  slices_S491520_S32768_327680 : S491520.Slices ![327680] S32768
  slices_S491520_S32768_360448 : S491520.Slices ![360448] S32768
  slices_S491520_S32768_393216 : S491520.Slices ![393216] S32768
  slices_S491520_S32768_425984 : S491520.Slices ![425984] S32768
  slices_S491520_S32768_458752 : S491520.Slices ![458752] S32768
  concatenates_S32768x128_S32768x128_S32768x128_S32768x128_S32768x128_S32768x128_S32768x128_S32768x128_S32768x128_S32768x128_S32768x128_S32768x128_S32768x128_S32768x128_S32768x128_S491520x128_d0 : Shape.Concatenates [S32768x128, S32768x128, S32768x128, S32768x128, S32768x128, S32768x128, S32768x128, S32768x128, S32768x128, S32768x128, S32768x128, S32768x128, S32768x128, S32768x128, S32768x128] S491520x128 0
  shapeCasts_S2048x128_S2048x128 : S2048x128.ShapeCasts S2048x128
  transposes_S2048x128_p1_0_S128x2048 : S2048x128.Transposes [1, 0] S128x2048
  shapeCasts_S128x2048_S4x32x2048 : S128x2048.ShapeCasts S4x32x2048
  concatenates_S4x32x163842_S4x32x491520_S4x32x655362_d2 : Shape.Concatenates [S4x32x163842, S4x32x491520] S4x32x655362 2
  gather_S491520_S491520x1_S491520_n_0_n_n_0_1_1_wf : GatherDims.WF S491520 S491520x1 S491520 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4x128x2048.size a < S4x128x163842.size a
  hwx0_0 : ∀ i : grid0.Coords, EltTy.bits .f32 = 32 ∨ (Rect.unit (s := S4x128x163842) (fun a => cc0_transform_0 i a * S4x128x2048.size a) (fun a => (Pipeline.Clip.of (cc0_transform_0 i a) (S4x128x2048.size a) (S4x128x163842.size a)).extent (S4x128x2048.size a)) fun a => Pipeline.Clip.inb (Pipeline.Clip.ok_of (hstart0_0 i a))).WholeWords (EltTy.packing .f32)
  hwxs0_0 : ∀ i : grid0.Coords, EltTy.bits .f32 = 32 ∨ (Rect.unit (s := S4x128x2048) (fun _ => 0) (fun a => (Pipeline.Clip.of (cc0_transform_0 i a) (S4x128x2048.size a) (S4x128x163842.size a)).extent (S4x128x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4x32x2048.size a < S4x32x163842.size a
  hwx0_1 : ∀ i : grid0.Coords, EltTy.bits .f32 = 32 ∨ (Rect.unit (s := S4x32x163842) (fun a => cc0_transform_1 i a * S4x32x2048.size a) (fun a => (Pipeline.Clip.of (cc0_transform_1 i a) (S4x32x2048.size a) (S4x32x163842.size a)).extent (S4x32x2048.size a)) fun a => Pipeline.Clip.inb (Pipeline.Clip.ok_of (hstart0_1 i a))).WholeWords (EltTy.packing .f32)
  hwxs0_1 : ∀ i : grid0.Coords, EltTy.bits .f32 = 32 ∨ (Rect.unit (s := S4x32x2048) (fun _ => 0) (fun a => (Pipeline.Clip.of (cc0_transform_1 i a) (S4x32x2048.size a) (S4x32x163842.size a)).extent (S4x32x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x128.size a < S163842x128.size a
  hwx0_2 : ∀ i : grid0.Coords, EltTy.bits .f32 = 32 ∨ (Rect.unit (s := S163842x128) (fun a => cc0_transform_2 i a * S2048x128.size a) (fun a => (Pipeline.Clip.of (cc0_transform_2 i a) (S2048x128.size a) (S163842x128.size a)).extent (S2048x128.size a)) fun a => Pipeline.Clip.inb (Pipeline.Clip.ok_of (hstart0_2 i a))).WholeWords (EltTy.packing .f32)
  hwxs0_2 : ∀ i : grid0.Coords, EltTy.bits .f32 = 32 ∨ (Rect.unit (s := S2048x128) (fun _ => 0) (fun a => (Pipeline.Clip.of (cc0_transform_2 i a) (S2048x128.size a) (S163842x128.size a)).extent (S2048x128.size a)) fun a => (Nat.zero_add _).trans_le (Pipeline.Clip.extent_le (Pipeline.Clip.ok_of (hstart0_2 i a)))).WholeWords (EltTy.packing .f32)
  hrank1 : 0 < grid1.rank
  k1_off1_inb : ∀ i : grid1.Coords, ∀ a, (k1_off1 i) a + S1.size a ≤ S32768.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S32768x1x128.size a
  hwx1_2 : ∀ i : grid1.Coords, EltTy.bits .f32 = 32 ∨ (Rect.block (s := S32768x1x128) S1x1x128.size (cc1_transform_2 i) (hinb1_2 i)).WholeWords (EltTy.packing .f32)
  hrank2 : 0 < grid2.rank
  k2_off1_inb : ∀ i : grid2.Coords, ∀ a, (k2_off1 i) a + S1.size a ≤ S32768.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ {F : FTy → Type} [FloatOps F] (pf : pre2.Contents (Elt F)) (i i' : grid2.Coords), (∀ a, reads2_1 a = true → i a = i' a) → cc2_transform_1 k2_off1_inb numel1_S1 pf i = cc2_transform_1 k2_off1_inb numel1_S1 pf i'
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x128.size a ≤ S32768x1x128.size a
  hwx2_2 : ∀ i : grid2.Coords, EltTy.bits .f32 = 32 ∨ (Rect.block (s := S32768x1x128) S1x1x128.size (cc2_transform_2 i) (hinb2_2 i)).WholeWords (EltTy.packing .f32)
  hrank3 : 0 < grid3.rank
  k3_off1_inb : ∀ i : grid3.Coords, ∀ a, (k3_off1 i) a + S1.size a ≤ S32768.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ {F : FTy → Type} [FloatOps F] (pf : pre3.Contents (Elt F)) (i i' : grid3.Coords), (∀ a, reads3_1 a = true → i a = i' a) → cc3_transform_1 k3_off1_inb numel1_S1 pf i = cc3_transform_1 k3_off1_inb numel1_S1 pf i'
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x128.size a ≤ S32768x1x128.size a
  hwx3_2 : ∀ i : grid3.Coords, EltTy.bits .f32 = 32 ∨ (Rect.block (s := S32768x1x128) S1x1x128.size (cc3_transform_2 i) (hinb3_2 i)).WholeWords (EltTy.packing .f32)
  hrank4 : 0 < grid4.rank
  k4_off1_inb : ∀ i : grid4.Coords, ∀ a, (k4_off1 i) a + S1.size a ≤ S32768.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ {F : FTy → Type} [FloatOps F] (pf : pre4.Contents (Elt F)) (i i' : grid4.Coords), (∀ a, reads4_1 a = true → i a = i' a) → cc4_transform_1 k4_off1_inb numel1_S1 pf i = cc4_transform_1 k4_off1_inb numel1_S1 pf i'
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x128.size a ≤ S32768x1x128.size a
  hwx4_2 : ∀ i : grid4.Coords, EltTy.bits .f32 = 32 ∨ (Rect.block (s := S32768x1x128) S1x1x128.size (cc4_transform_2 i) (hinb4_2 i)).WholeWords (EltTy.packing .f32)
  hrank5 : 0 < grid5.rank
  k5_off1_inb : ∀ i : grid5.Coords, ∀ a, (k5_off1 i) a + S1.size a ≤ S32768.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ {F : FTy → Type} [FloatOps F] (pf : pre5.Contents (Elt F)) (i i' : grid5.Coords), (∀ a, reads5_1 a = true → i a = i' a) → cc5_transform_1 k5_off1_inb numel1_S1 pf i = cc5_transform_1 k5_off1_inb numel1_S1 pf i'
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1x128.size a ≤ S32768x1x128.size a
  hwx5_2 : ∀ i : grid5.Coords, EltTy.bits .f32 = 32 ∨ (Rect.block (s := S32768x1x128) S1x1x128.size (cc5_transform_2 i) (hinb5_2 i)).WholeWords (EltTy.packing .f32)
  hrank6 : 0 < grid6.rank
  k6_off1_inb : ∀ i : grid6.Coords, ∀ a, (k6_off1 i) a + S1.size a ≤ S32768.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ {F : FTy → Type} [FloatOps F] (pf : pre6.Contents (Elt F)) (i i' : grid6.Coords), (∀ a, reads6_1 a = true → i a = i' a) → cc6_transform_1 k6_off1_inb numel1_S1 pf i = cc6_transform_1 k6_off1_inb numel1_S1 pf i'
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x1x128.size a ≤ S32768x1x128.size a
  hwx6_2 : ∀ i : grid6.Coords, EltTy.bits .f32 = 32 ∨ (Rect.block (s := S32768x1x128) S1x1x128.size (cc6_transform_2 i) (hinb6_2 i)).WholeWords (EltTy.packing .f32)
  hrank7 : 0 < grid7.rank
  k7_off1_inb : ∀ i : grid7.Coords, ∀ a, (k7_off1 i) a + S1.size a ≤ S32768.size a
  hstage7_0 : ∀ j, (stage7_0 j).IsWhole
  nbuf7_0 : grid7.bufCount reads7_0 false = 2
  hreads7_0 : ∀ {F : FTy → Type} [FloatOps F] (pf : pre7.Contents (Elt F)) (i i' : grid7.Coords), (∀ a, reads7_0 a = true → i a = i' a) → cc7_transform_0 k7_off1_inb numel1_S1 pf i = cc7_transform_0 k7_off1_inb numel1_S1 pf i'
  hstage7_1 : ∀ j, (stage7_1 j).IsWhole
  nbuf7_1 : grid7.bufCount reads7_1 false = 2
  hreads7_1 : ∀ {F : FTy → Type} [FloatOps F] (pf : pre7.Contents (Elt F)) (i i' : grid7.Coords), (∀ a, reads7_1 a = true → i a = i' a) → cc7_transform_1 k7_off1_inb numel1_S1 pf i = cc7_transform_1 k7_off1_inb numel1_S1 pf i'
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x1x128.size a ≤ S32768x1x128.size a
  hwx7_2 : ∀ i : grid7.Coords, EltTy.bits .f32 = 32 ∨ (Rect.block (s := S32768x1x128) S1x1x128.size (cc7_transform_2 i) (hinb7_2 i)).WholeWords (EltTy.packing .f32)
  hrank8 : 0 < grid8.rank
  k8_off1_inb : ∀ i : grid8.Coords, ∀ a, (k8_off1 i) a + S1.size a ≤ S32768.size a
  hstage8_0 : ∀ j, (stage8_0 j).IsWhole
  nbuf8_0 : grid8.bufCount reads8_0 false = 2
  hreads8_0 : ∀ {F : FTy → Type} [FloatOps F] (pf : pre8.Contents (Elt F)) (i i' : grid8.Coords), (∀ a, reads8_0 a = true → i a = i' a) → cc8_transform_0 k8_off1_inb numel1_S1 pf i = cc8_transform_0 k8_off1_inb numel1_S1 pf i'
  hstage8_1 : ∀ j, (stage8_1 j).IsWhole
  nbuf8_1 : grid8.bufCount reads8_1 false = 2
  hreads8_1 : ∀ {F : FTy → Type} [FloatOps F] (pf : pre8.Contents (Elt F)) (i i' : grid8.Coords), (∀ a, reads8_1 a = true → i a = i' a) → cc8_transform_1 k8_off1_inb numel1_S1 pf i = cc8_transform_1 k8_off1_inb numel1_S1 pf i'
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x1x128.size a ≤ S32768x1x128.size a
  hwx8_2 : ∀ i : grid8.Coords, EltTy.bits .f32 = 32 ∨ (Rect.block (s := S32768x1x128) S1x1x128.size (cc8_transform_2 i) (hinb8_2 i)).WholeWords (EltTy.packing .f32)
  hrank9 : 0 < grid9.rank
  k9_off1_inb : ∀ i : grid9.Coords, ∀ a, (k9_off1 i) a + S1.size a ≤ S32768.size a
  hstage9_0 : ∀ j, (stage9_0 j).IsWhole
  nbuf9_0 : grid9.bufCount reads9_0 false = 2
  hreads9_0 : ∀ {F : FTy → Type} [FloatOps F] (pf : pre9.Contents (Elt F)) (i i' : grid9.Coords), (∀ a, reads9_0 a = true → i a = i' a) → cc9_transform_0 k9_off1_inb numel1_S1 pf i = cc9_transform_0 k9_off1_inb numel1_S1 pf i'
  hstage9_1 : ∀ j, (stage9_1 j).IsWhole
  nbuf9_1 : grid9.bufCount reads9_1 false = 2
  hreads9_1 : ∀ {F : FTy → Type} [FloatOps F] (pf : pre9.Contents (Elt F)) (i i' : grid9.Coords), (∀ a, reads9_1 a = true → i a = i' a) → cc9_transform_1 k9_off1_inb numel1_S1 pf i = cc9_transform_1 k9_off1_inb numel1_S1 pf i'
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1x1x128.size a ≤ S32768x1x128.size a
  hwx9_2 : ∀ i : grid9.Coords, EltTy.bits .f32 = 32 ∨ (Rect.block (s := S32768x1x128) S1x1x128.size (cc9_transform_2 i) (hinb9_2 i)).WholeWords (EltTy.packing .f32)
  hrank10 : 0 < grid10.rank
  k10_off1_inb : ∀ i : grid10.Coords, ∀ a, (k10_off1 i) a + S1.size a ≤ S32768.size a
  hstage10_0 : ∀ j, (stage10_0 j).IsWhole
  nbuf10_0 : grid10.bufCount reads10_0 false = 2
  hreads10_0 : ∀ {F : FTy → Type} [FloatOps F] (pf : pre10.Contents (Elt F)) (i i' : grid10.Coords), (∀ a, reads10_0 a = true → i a = i' a) → cc10_transform_0 k10_off1_inb numel1_S1 pf i = cc10_transform_0 k10_off1_inb numel1_S1 pf i'
  hstage10_1 : ∀ j, (stage10_1 j).IsWhole
  nbuf10_1 : grid10.bufCount reads10_1 false = 2
  hreads10_1 : ∀ {F : FTy → Type} [FloatOps F] (pf : pre10.Contents (Elt F)) (i i' : grid10.Coords), (∀ a, reads10_1 a = true → i a = i' a) → cc10_transform_1 k10_off1_inb numel1_S1 pf i = cc10_transform_1 k10_off1_inb numel1_S1 pf i'
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1x1x128.size a ≤ S32768x1x128.size a
  hwx10_2 : ∀ i : grid10.Coords, EltTy.bits .f32 = 32 ∨ (Rect.block (s := S32768x1x128) S1x1x128.size (cc10_transform_2 i) (hinb10_2 i)).WholeWords (EltTy.packing .f32)
  hrank11 : 0 < grid11.rank
  k11_off1_inb : ∀ i : grid11.Coords, ∀ a, (k11_off1 i) a + S1.size a ≤ S32768.size a
  hstage11_0 : ∀ j, (stage11_0 j).IsWhole
  nbuf11_0 : grid11.bufCount reads11_0 false = 2
  hreads11_0 : ∀ {F : FTy → Type} [FloatOps F] (pf : pre11.Contents (Elt F)) (i i' : grid11.Coords), (∀ a, reads11_0 a = true → i a = i' a) → cc11_transform_0 k11_off1_inb numel1_S1 pf i = cc11_transform_0 k11_off1_inb numel1_S1 pf i'
  hstage11_1 : ∀ j, (stage11_1 j).IsWhole
  nbuf11_1 : grid11.bufCount reads11_1 false = 2
  hreads11_1 : ∀ {F : FTy → Type} [FloatOps F] (pf : pre11.Contents (Elt F)) (i i' : grid11.Coords), (∀ a, reads11_1 a = true → i a = i' a) → cc11_transform_1 k11_off1_inb numel1_S1 pf i = cc11_transform_1 k11_off1_inb numel1_S1 pf i'
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1x1x128.size a ≤ S32768x1x128.size a
  hwx11_2 : ∀ i : grid11.Coords, EltTy.bits .f32 = 32 ∨ (Rect.block (s := S32768x1x128) S1x1x128.size (cc11_transform_2 i) (hinb11_2 i)).WholeWords (EltTy.packing .f32)
  hrank12 : 0 < grid12.rank
  k12_off1_inb : ∀ i : grid12.Coords, ∀ a, (k12_off1 i) a + S1.size a ≤ S32768.size a
  hstage12_0 : ∀ j, (stage12_0 j).IsWhole
  nbuf12_0 : grid12.bufCount reads12_0 false = 2
  hreads12_0 : ∀ {F : FTy → Type} [FloatOps F] (pf : pre12.Contents (Elt F)) (i i' : grid12.Coords), (∀ a, reads12_0 a = true → i a = i' a) → cc12_transform_0 k12_off1_inb numel1_S1 pf i = cc12_transform_0 k12_off1_inb numel1_S1 pf i'
  hstage12_1 : ∀ j, (stage12_1 j).IsWhole
  nbuf12_1 : grid12.bufCount reads12_1 false = 2
  hreads12_1 : ∀ {F : FTy → Type} [FloatOps F] (pf : pre12.Contents (Elt F)) (i i' : grid12.Coords), (∀ a, reads12_1 a = true → i a = i' a) → cc12_transform_1 k12_off1_inb numel1_S1 pf i = cc12_transform_1 k12_off1_inb numel1_S1 pf i'
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1x1x128.size a ≤ S32768x1x128.size a
  hwx12_2 : ∀ i : grid12.Coords, EltTy.bits .f32 = 32 ∨ (Rect.block (s := S32768x1x128) S1x1x128.size (cc12_transform_2 i) (hinb12_2 i)).WholeWords (EltTy.packing .f32)
  hrank13 : 0 < grid13.rank
  k13_off1_inb : ∀ i : grid13.Coords, ∀ a, (k13_off1 i) a + S1.size a ≤ S32768.size a
  hstage13_0 : ∀ j, (stage13_0 j).IsWhole
  nbuf13_0 : grid13.bufCount reads13_0 false = 2
  hreads13_0 : ∀ {F : FTy → Type} [FloatOps F] (pf : pre13.Contents (Elt F)) (i i' : grid13.Coords), (∀ a, reads13_0 a = true → i a = i' a) → cc13_transform_0 k13_off1_inb numel1_S1 pf i = cc13_transform_0 k13_off1_inb numel1_S1 pf i'
  hstage13_1 : ∀ j, (stage13_1 j).IsWhole
  nbuf13_1 : grid13.bufCount reads13_1 false = 2
  hreads13_1 : ∀ {F : FTy → Type} [FloatOps F] (pf : pre13.Contents (Elt F)) (i i' : grid13.Coords), (∀ a, reads13_1 a = true → i a = i' a) → cc13_transform_1 k13_off1_inb numel1_S1 pf i = cc13_transform_1 k13_off1_inb numel1_S1 pf i'
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S1x1x128.size a ≤ S32768x1x128.size a
  hwx13_2 : ∀ i : grid13.Coords, EltTy.bits .f32 = 32 ∨ (Rect.block (s := S32768x1x128) S1x1x128.size (cc13_transform_2 i) (hinb13_2 i)).WholeWords (EltTy.packing .f32)
  hrank14 : 0 < grid14.rank
  k14_off1_inb : ∀ i : grid14.Coords, ∀ a, (k14_off1 i) a + S1.size a ≤ S32768.size a
  hstage14_0 : ∀ j, (stage14_0 j).IsWhole
  nbuf14_0 : grid14.bufCount reads14_0 false = 2
  hreads14_0 : ∀ {F : FTy → Type} [FloatOps F] (pf : pre14.Contents (Elt F)) (i i' : grid14.Coords), (∀ a, reads14_0 a = true → i a = i' a) → cc14_transform_0 k14_off1_inb numel1_S1 pf i = cc14_transform_0 k14_off1_inb numel1_S1 pf i'
  hstage14_1 : ∀ j, (stage14_1 j).IsWhole
  nbuf14_1 : grid14.bufCount reads14_1 false = 2
  hreads14_1 : ∀ {F : FTy → Type} [FloatOps F] (pf : pre14.Contents (Elt F)) (i i' : grid14.Coords), (∀ a, reads14_1 a = true → i a = i' a) → cc14_transform_1 k14_off1_inb numel1_S1 pf i = cc14_transform_1 k14_off1_inb numel1_S1 pf i'
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S1x1x128.size a ≤ S32768x1x128.size a
  hwx14_2 : ∀ i : grid14.Coords, EltTy.bits .f32 = 32 ∨ (Rect.block (s := S32768x1x128) S1x1x128.size (cc14_transform_2 i) (hinb14_2 i)).WholeWords (EltTy.packing .f32)
  hrank15 : 0 < grid15.rank
  k15_off1_inb : ∀ i : grid15.Coords, ∀ a, (k15_off1 i) a + S1.size a ≤ S32768.size a
  hstage15_0 : ∀ j, (stage15_0 j).IsWhole
  nbuf15_0 : grid15.bufCount reads15_0 false = 2
  hreads15_0 : ∀ {F : FTy → Type} [FloatOps F] (pf : pre15.Contents (Elt F)) (i i' : grid15.Coords), (∀ a, reads15_0 a = true → i a = i' a) → cc15_transform_0 k15_off1_inb numel1_S1 pf i = cc15_transform_0 k15_off1_inb numel1_S1 pf i'
  hstage15_1 : ∀ j, (stage15_1 j).IsWhole
  nbuf15_1 : grid15.bufCount reads15_1 false = 2
  hreads15_1 : ∀ {F : FTy → Type} [FloatOps F] (pf : pre15.Contents (Elt F)) (i i' : grid15.Coords), (∀ a, reads15_1 a = true → i a = i' a) → cc15_transform_1 k15_off1_inb numel1_S1 pf i = cc15_transform_1 k15_off1_inb numel1_S1 pf i'
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S1x1x128.size a ≤ S32768x1x128.size a
  hwx15_2 : ∀ i : grid15.Coords, EltTy.bits .f32 = 32 ∨ (Rect.block (s := S32768x1x128) S1x1x128.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2048x128.size a ≤ S491520x128.size a
  hwx16_0 : ∀ i : grid16.Coords, EltTy.bits .f32 = 32 ∨ (Rect.block (s := S491520x128) S2048x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S4x32x2048.size a ≤ S4x32x491520.size a
  hwx16_1 : ∀ i : grid16.Coords, EltTy.bits .f32 = 32 ∨ (Rect.block (s := S4x32x491520) S4x32x2048.size (cc16_transform_1 i) (hinb16_1 i)).WholeWords (EltTy.packing .f32)

variable [Facts₀]

def gather_S491520_S491520x1_S491520_n_0_n_n_0_1_1 : GatherDims S491520 S491520x1 S491520 where
  offsetDims := []
  collapsedSliceDims := [0]
  operandBatchingDims := []
  startIndicesBatchingDims := []
  startIndexMap := [0]
  indexVectorDim := 1
  sliceSizes := ![1]
  wf := gather_S491520_S491520x1_S491520_n_0_n_n_0_1_1_wf

abbrev win0_0 : Pipeline.Window sig grid0 :=
  Pipeline.Window.ofSpecClip (Memref.whole main_arg0) S4x128x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0_0) S4x32x2048.size cc0_transform_1 reads0_1 true false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0_1) S2048x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v1) S1x1x128.size reads1_0 false false 2 stage1_0 sem1_0 nbuf1_0 hstage1_0

abbrev spec1_1 : Pipeline.WinSpec sig grid1.rank :=
  Pipeline.WinSpec.ofSpec (Memref.whole main_v1) S1x1x128.size reads1_1 false false 2 stage1_1 sem1_1 nbuf1_1 hstage1_1

abbrev spec1_2 : Pipeline.WinSpec sig grid1.rank :=
  Pipeline.WinSpec.ofSpec (Memref.whole main_v24) S1x1x128.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 k1_off1_inb numel1_S1 pf | 1 => cc1_transform_1 k1_off1_inb numel1_S1 pf | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 | ⟨_ + 3, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x128.size a ≤ S163842x1x128.size a), EltTy.bits .f32 = 32 ∨ (Rect.block (s := S163842x1x128) S1x1x128.size (cc1_transform_0 k1_off1_inb numel1_S1 pf i) h).WholeWords (EltTy.packing .f32)) ∧
  (∀ i : grid1.Coords, ∃ h : (∀ a, (cc1_transform_1 k1_off1_inb numel1_S1 pf i a + 1) * S1x1x128.size a ≤ S163842x1x128.size a), EltTy.bits .f32 = 32 ∨ (Rect.block (s := S163842x1x128) S1x1x128.size (cc1_transform_1 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2 i).elim fun h _ => h a | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2 i).elim fun _ h => h | 2 => hwx1_2 | ⟨_ + 3, h⟩ => absurd h (Nat.not_lt.2 (Nat.le_add_left _ _))
abbrev spec2_0 : Pipeline.WinSpec sig grid2.rank :=
  Pipeline.WinSpec.ofSpec (Memref.whole main_v1) S1x1x128.size reads2_0 false false 2 stage2_0 sem2_0 nbuf2_0 hstage2_0

abbrev spec2_1 : Pipeline.WinSpec sig grid2.rank :=
  Pipeline.WinSpec.ofSpec (Memref.whole main_v1) S1x1x128.size reads2_1 false false 2 stage2_1 sem2_1 nbuf2_1 hstage2_1

abbrev spec2_2 : Pipeline.WinSpec sig grid2.rank :=
  Pipeline.WinSpec.ofSpec (Memref.whole main_v28) S1x1x128.size reads2_2 true false 2 stage2_2 sem2_2 nbuf2_2 hstage2_2

abbrev spec2 : Fin 3 → Pipeline.WinSpec sig grid2.rank := fun | 0 => spec2_0 | 1 => spec2_1 | 2 => spec2_2 | ⟨_ + 3, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | ⟨_ + 3, h⟩ => absurd h (Nat.not_lt.2 (Nat.le_add_left _ _))
abbrev ix2 (pf : pre2.Contents (Elt F)) : (w : Fin 3) → grid2.Coords → Fin (spec2 w).shape.rank → Nat := fun | 0 => cc2_transform_0 k2_off1_inb numel1_S1 pf | 1 => cc2_transform_1 k2_off1_inb numel1_S1 pf | 2 => cc2_transform_2 | ⟨_ + 3, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 pf | 2 => hreads2_2 | ⟨_ + 3, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x128.size a ≤ S163842x1x128.size a), EltTy.bits .f32 = 32 ∨ (Rect.block (s := S163842x1x128) S1x1x128.size (cc2_transform_0 k2_off1_inb numel1_S1 pf i) h).WholeWords (EltTy.packing .f32)) ∧
  (∀ i : grid2.Coords, ∃ h : (∀ a, (cc2_transform_1 k2_off1_inb numel1_S1 pf i a + 1) * S1x1x128.size a ≤ S163842x1x128.size a), EltTy.bits .f32 = 32 ∨ (Rect.block (s := S163842x1x128) S1x1x128.size (cc2_transform_1 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok.1 i).elim fun h _ => h a | 1 => fun i a => (hok.2 i).elim fun h _ => h a | 2 => hinb2_2 | ⟨_ + 3, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok.1 i).elim fun _ h => h | 1 => fun i => (hok.2 i).elim fun _ h => h | 2 => hwx2_2 | ⟨_ + 3, h⟩ => absurd h (Nat.not_lt.2 (Nat.le_add_left _ _))
abbrev spec3_0 : Pipeline.WinSpec sig grid3.rank :=
  Pipeline.WinSpec.ofSpec (Memref.whole main_v1) S1x1x128.size reads3_0 false false 2 stage3_0 sem3_0 nbuf3_0 hstage3_0

abbrev spec3_1 : Pipeline.WinSpec sig grid3.rank :=
  Pipeline.WinSpec.ofSpec (Memref.whole main_v1) S1x1x128.size reads3_1 false false 2 stage3_1 sem3_1 nbuf3_1 hstage3_1

abbrev spec3_2 : Pipeline.WinSpec sig grid3.rank :=
  Pipeline.WinSpec.ofSpec (Memref.whole main_v32) S1x1x128.size reads3_2 true false 2 stage3_2 sem3_2 nbuf3_2 hstage3_2

abbrev spec3 : Fin 3 → Pipeline.WinSpec sig grid3.rank := fun | 0 => spec3_0 | 1 => spec3_1 | 2 => spec3_2 | ⟨_ + 3, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | ⟨_ + 3, h⟩ => absurd h (Nat.not_lt.2 (Nat.le_add_left _ _))
abbrev ix3 (pf : pre3.Contents (Elt F)) : (w : Fin 3) → grid3.Coords → Fin (spec3 w).shape.rank → Nat := fun | 0 => cc3_transform_0 k3_off1_inb numel1_S1 pf | 1 => cc3_transform_1 k3_off1_inb numel1_S1 pf | 2 => cc3_transform_2 | ⟨_ + 3, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 pf | 2 => hreads3_2 | ⟨_ + 3, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x128.size a ≤ S163842x1x128.size a), EltTy.bits .f32 = 32 ∨ (Rect.block (s := S163842x1x128) S1x1x128.size (cc3_transform_0 k3_off1_inb numel1_S1 pf i) h).WholeWords (EltTy.packing .f32)) ∧
  (∀ i : grid3.Coords, ∃ h : (∀ a, (cc3_transform_1 k3_off1_inb numel1_S1 pf i a + 1) * S1x1x128.size a ≤ S163842x1x128.size a), EltTy.bits .f32 = 32 ∨ (Rect.block (s := S163842x1x128) S1x1x128.size (cc3_transform_1 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok.1 i).elim fun h _ => h a | 1 => fun i a => (hok.2 i).elim fun h _ => h a | 2 => hinb3_2 | ⟨_ + 3, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok.1 i).elim fun _ h => h | 1 => fun i => (hok.2 i).elim fun _ h => h | 2 => hwx3_2 | ⟨_ + 3, h⟩ => absurd h (Nat.not_lt.2 (Nat.le_add_left _ _))
abbrev spec4_0 : Pipeline.WinSpec sig grid4.rank :=
  Pipeline.WinSpec.ofSpec (Memref.whole main_v1) S1x1x128.size reads4_0 false false 2 stage4_0 sem4_0 nbuf4_0 hstage4_0

abbrev spec4_1 : Pipeline.WinSpec sig grid4.rank :=
  Pipeline.WinSpec.ofSpec (Memref.whole main_v1) S1x1x128.size reads4_1 false false 2 stage4_1 sem4_1 nbuf4_1 hstage4_1

abbrev spec4_2 : Pipeline.WinSpec sig grid4.rank :=
  Pipeline.WinSpec.ofSpec (Memref.whole main_v36) S1x1x128.size reads4_2 true false 2 stage4_2 sem4_2 nbuf4_2 hstage4_2

abbrev spec4 : Fin 3 → Pipeline.WinSpec sig grid4.rank := fun | 0 => spec4_0 | 1 => spec4_1 | 2 => spec4_2 | ⟨_ + 3, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | ⟨_ + 3, h⟩ => absurd h (Nat.not_lt.2 (Nat.le_add_left _ _))
abbrev ix4 (pf : pre4.Contents (Elt F)) : (w : Fin 3) → grid4.Coords → Fin (spec4 w).shape.rank → Nat := fun | 0 => cc4_transform_0 k4_off1_inb numel1_S1 pf | 1 => cc4_transform_1 k4_off1_inb numel1_S1 pf | 2 => cc4_transform_2 | ⟨_ + 3, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 pf | 2 => hreads4_2 | ⟨_ + 3, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x128.size a ≤ S163842x1x128.size a), EltTy.bits .f32 = 32 ∨ (Rect.block (s := S163842x1x128) S1x1x128.size (cc4_transform_0 k4_off1_inb numel1_S1 pf i) h).WholeWords (EltTy.packing .f32)) ∧
  (∀ i : grid4.Coords, ∃ h : (∀ a, (cc4_transform_1 k4_off1_inb numel1_S1 pf i a + 1) * S1x1x128.size a ≤ S163842x1x128.size a), EltTy.bits .f32 = 32 ∨ (Rect.block (s := S163842x1x128) S1x1x128.size (cc4_transform_1 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok.1 i).elim fun h _ => h a | 1 => fun i a => (hok.2 i).elim fun h _ => h a | 2 => hinb4_2 | ⟨_ + 3, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok.1 i).elim fun _ h => h | 1 => fun i => (hok.2 i).elim fun _ h => h | 2 => hwx4_2 | ⟨_ + 3, h⟩ => absurd h (Nat.not_lt.2 (Nat.le_add_left _ _))
abbrev spec5_0 : Pipeline.WinSpec sig grid5.rank :=
  Pipeline.WinSpec.ofSpec (Memref.whole main_v1) S1x1x128.size reads5_0 false false 2 stage5_0 sem5_0 nbuf5_0 hstage5_0

abbrev spec5_1 : Pipeline.WinSpec sig grid5.rank :=
  Pipeline.WinSpec.ofSpec (Memref.whole main_v1) S1x1x128.size reads5_1 false false 2 stage5_1 sem5_1 nbuf5_1 hstage5_1

abbrev spec5_2 : Pipeline.WinSpec sig grid5.rank :=
  Pipeline.WinSpec.ofSpec (Memref.whole main_v40) S1x1x128.size reads5_2 true false 2 stage5_2 sem5_2 nbuf5_2 hstage5_2

abbrev spec5 : Fin 3 → Pipeline.WinSpec sig grid5.rank := fun | 0 => spec5_0 | 1 => spec5_1 | 2 => spec5_2 | ⟨_ + 3, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | ⟨_ + 3, h⟩ => absurd h (Nat.not_lt.2 (Nat.le_add_left _ _))
abbrev ix5 (pf : pre5.Contents (Elt F)) : (w : Fin 3) → grid5.Coords → Fin (spec5 w).shape.rank → Nat := fun | 0 => cc5_transform_0 k5_off1_inb numel1_S1 pf | 1 => cc5_transform_1 k5_off1_inb numel1_S1 pf | 2 => cc5_transform_2 | ⟨_ + 3, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 pf | 2 => hreads5_2 | ⟨_ + 3, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x1x128.size a ≤ S163842x1x128.size a), EltTy.bits .f32 = 32 ∨ (Rect.block (s := S163842x1x128) S1x1x128.size (cc5_transform_0 k5_off1_inb numel1_S1 pf i) h).WholeWords (EltTy.packing .f32)) ∧
  (∀ i : grid5.Coords, ∃ h : (∀ a, (cc5_transform_1 k5_off1_inb numel1_S1 pf i a + 1) * S1x1x128.size a ≤ S163842x1x128.size a), EltTy.bits .f32 = 32 ∨ (Rect.block (s := S163842x1x128) S1x1x128.size (cc5_transform_1 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok.1 i).elim fun h _ => h a | 1 => fun i a => (hok.2 i).elim fun h _ => h a | 2 => hinb5_2 | ⟨_ + 3, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok.1 i).elim fun _ h => h | 1 => fun i => (hok.2 i).elim fun _ h => h | 2 => hwx5_2 | ⟨_ + 3, h⟩ => absurd h (Nat.not_lt.2 (Nat.le_add_left _ _))
abbrev spec6_0 : Pipeline.WinSpec sig grid6.rank :=
  Pipeline.WinSpec.ofSpec (Memref.whole main_v1) S1x1x128.size reads6_0 false false 2 stage6_0 sem6_0 nbuf6_0 hstage6_0

abbrev spec6_1 : Pipeline.WinSpec sig grid6.rank :=
  Pipeline.WinSpec.ofSpec (Memref.whole main_v1) S1x1x128.size reads6_1 false false 2 stage6_1 sem6_1 nbuf6_1 hstage6_1

abbrev spec6_2 : Pipeline.WinSpec sig grid6.rank :=
  Pipeline.WinSpec.ofSpec (Memref.whole main_v44) S1x1x128.size reads6_2 true false 2 stage6_2 sem6_2 nbuf6_2 hstage6_2

abbrev spec6 : Fin 3 → Pipeline.WinSpec sig grid6.rank := fun | 0 => spec6_0 | 1 => spec6_1 | 2 => spec6_2 | ⟨_ + 3, h⟩ => absurd h (Nat.not_lt.2 (Nat.le_add_left _ _))
theorem hcount6 : ∀ w, grid6.bufCount (spec6 w).reads (spec6 w).sync = (spec6 w).nbuf := fun | 0 => nbuf6_0 | 1 => nbuf6_1 | 2 => nbuf6_2 | ⟨_ + 3, h⟩ => absurd h (Nat.not_lt.2 (Nat.le_add_left _ _))
abbrev ix6 (pf : pre6.Contents (Elt F)) : (w : Fin 3) → grid6.Coords → Fin (spec6 w).shape.rank → Nat := fun | 0 => cc6_transform_0 k6_off1_inb numel1_S1 pf | 1 => cc6_transform_1 k6_off1_inb numel1_S1 pf | 2 => cc6_transform_2 | ⟨_ + 3, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 pf | 2 => hreads6_2 | ⟨_ + 3, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x128.size a ≤ S163842x1x128.size a), EltTy.bits .f32 = 32 ∨ (Rect.block (s := S163842x1x128) S1x1x128.size (cc6_transform_0 k6_off1_inb numel1_S1 pf i) h).WholeWords (EltTy.packing .f32)) ∧
  (∀ i : grid6.Coords, ∃ h : (∀ a, (cc6_transform_1 k6_off1_inb numel1_S1 pf i a + 1) * S1x1x128.size a ≤ S163842x1x128.size a), EltTy.bits .f32 = 32 ∨ (Rect.block (s := S163842x1x128) S1x1x128.size (cc6_transform_1 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok.1 i).elim fun h _ => h a | 1 => fun i a => (hok.2 i).elim fun h _ => h a | 2 => hinb6_2 | ⟨_ + 3, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok.1 i).elim fun _ h => h | 1 => fun i => (hok.2 i).elim fun _ h => h | 2 => hwx6_2 | ⟨_ + 3, h⟩ => absurd h (Nat.not_lt.2 (Nat.le_add_left _ _))
abbrev spec7_0 : Pipeline.WinSpec sig grid7.rank :=
  Pipeline.WinSpec.ofSpec (Memref.whole main_v1) S1x1x128.size reads7_0 false false 2 stage7_0 sem7_0 nbuf7_0 hstage7_0

abbrev spec7_1 : Pipeline.WinSpec sig grid7.rank :=
  Pipeline.WinSpec.ofSpec (Memref.whole main_v1) S1x1x128.size reads7_1 false false 2 stage7_1 sem7_1 nbuf7_1 hstage7_1

abbrev spec7_2 : Pipeline.WinSpec sig grid7.rank :=
  Pipeline.WinSpec.ofSpec (Memref.whole main_v48) S1x1x128.size reads7_2 true false 2 stage7_2 sem7_2 nbuf7_2 hstage7_2

abbrev spec7 : Fin 3 → Pipeline.WinSpec sig grid7.rank := fun | 0 => spec7_0 | 1 => spec7_1 | 2 => spec7_2 | ⟨_ + 3, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | ⟨_ + 3, h⟩ => absurd h (Nat.not_lt.2 (Nat.le_add_left _ _))
abbrev ix7 (pf : pre7.Contents (Elt F)) : (w : Fin 3) → grid7.Coords → Fin (spec7 w).shape.rank → Nat := fun | 0 => cc7_transform_0 k7_off1_inb numel1_S1 pf | 1 => cc7_transform_1 k7_off1_inb numel1_S1 pf | 2 => cc7_transform_2 | ⟨_ + 3, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 pf | 1 => hreads7_1 pf | 2 => hreads7_2 | ⟨_ + 3, h⟩ => absurd h (Nat.not_lt.2 (Nat.le_add_left _ _))
def ok7 (pf : pre7.Contents (Elt F)) : Prop :=
  (∀ i : grid7.Coords, ∃ h : (∀ a, (cc7_transform_0 k7_off1_inb numel1_S1 pf i a + 1) * S1x1x128.size a ≤ S163842x1x128.size a), EltTy.bits .f32 = 32 ∨ (Rect.block (s := S163842x1x128) S1x1x128.size (cc7_transform_0 k7_off1_inb numel1_S1 pf i) h).WholeWords (EltTy.packing .f32)) ∧
  (∀ i : grid7.Coords, ∃ h : (∀ a, (cc7_transform_1 k7_off1_inb numel1_S1 pf i a + 1) * S1x1x128.size a ≤ S163842x1x128.size a), EltTy.bits .f32 = 32 ∨ (Rect.block (s := S163842x1x128) S1x1x128.size (cc7_transform_1 k7_off1_inb numel1_S1 pf i) h).WholeWords (EltTy.packing .f32))
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun pf hok => fun | 0 => fun i a => (hok.1 i).elim fun h _ => h a | 1 => fun i a => (hok.2 i).elim fun h _ => h a | 2 => hinb7_2 | ⟨_ + 3, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun pf hok => fun | 0 => fun i => (hok.1 i).elim fun _ h => h | 1 => fun i => (hok.2 i).elim fun _ h => h | 2 => hwx7_2 | ⟨_ + 3, h⟩ => absurd h (Nat.not_lt.2 (Nat.le_add_left _ _))
abbrev spec8_0 : Pipeline.WinSpec sig grid8.rank :=
  Pipeline.WinSpec.ofSpec (Memref.whole main_v1) S1x1x128.size reads8_0 false false 2 stage8_0 sem8_0 nbuf8_0 hstage8_0

abbrev spec8_1 : Pipeline.WinSpec sig grid8.rank :=
  Pipeline.WinSpec.ofSpec (Memref.whole main_v1) S1x1x128.size reads8_1 false false 2 stage8_1 sem8_1 nbuf8_1 hstage8_1

abbrev spec8_2 : Pipeline.WinSpec sig grid8.rank :=
  Pipeline.WinSpec.ofSpec (Memref.whole main_v52) S1x1x128.size reads8_2 true false 2 stage8_2 sem8_2 nbuf8_2 hstage8_2

abbrev spec8 : Fin 3 → Pipeline.WinSpec sig grid8.rank := fun | 0 => spec8_0 | 1 => spec8_1 | 2 => spec8_2 | ⟨_ + 3, h⟩ => absurd h (Nat.not_lt.2 (Nat.le_add_left _ _))
theorem hcount8 : ∀ w, grid8.bufCount (spec8 w).reads (spec8 w).sync = (spec8 w).nbuf := fun | 0 => nbuf8_0 | 1 => nbuf8_1 | 2 => nbuf8_2 | ⟨_ + 3, h⟩ => absurd h (Nat.not_lt.2 (Nat.le_add_left _ _))
abbrev ix8 (pf : pre8.Contents (Elt F)) : (w : Fin 3) → grid8.Coords → Fin (spec8 w).shape.rank → Nat := fun | 0 => cc8_transform_0 k8_off1_inb numel1_S1 pf | 1 => cc8_transform_1 k8_off1_inb numel1_S1 pf | 2 => cc8_transform_2 | ⟨_ + 3, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 pf | 1 => hreads8_1 pf | 2 => hreads8_2 | ⟨_ + 3, h⟩ => absurd h (Nat.not_lt.2 (Nat.le_add_left _ _))
def ok8 (pf : pre8.Contents (Elt F)) : Prop :=
  (∀ i : grid8.Coords, ∃ h : (∀ a, (cc8_transform_0 k8_off1_inb numel1_S1 pf i a + 1) * S1x1x128.size a ≤ S163842x1x128.size a), EltTy.bits .f32 = 32 ∨ (Rect.block (s := S163842x1x128) S1x1x128.size (cc8_transform_0 k8_off1_inb numel1_S1 pf i) h).WholeWords (EltTy.packing .f32)) ∧
  (∀ i : grid8.Coords, ∃ h : (∀ a, (cc8_transform_1 k8_off1_inb numel1_S1 pf i a + 1) * S1x1x128.size a ≤ S163842x1x128.size a), EltTy.bits .f32 = 32 ∨ (Rect.block (s := S163842x1x128) S1x1x128.size (cc8_transform_1 k8_off1_inb numel1_S1 pf i) h).WholeWords (EltTy.packing .f32))
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun pf hok => fun | 0 => fun i a => (hok.1 i).elim fun h _ => h a | 1 => fun i a => (hok.2 i).elim fun h _ => h a | 2 => hinb8_2 | ⟨_ + 3, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun pf hok => fun | 0 => fun i => (hok.1 i).elim fun _ h => h | 1 => fun i => (hok.2 i).elim fun _ h => h | 2 => hwx8_2 | ⟨_ + 3, h⟩ => absurd h (Nat.not_lt.2 (Nat.le_add_left _ _))
abbrev spec9_0 : Pipeline.WinSpec sig grid9.rank :=
  Pipeline.WinSpec.ofSpec (Memref.whole main_v1) S1x1x128.size reads9_0 false false 2 stage9_0 sem9_0 nbuf9_0 hstage9_0

abbrev spec9_1 : Pipeline.WinSpec sig grid9.rank :=
  Pipeline.WinSpec.ofSpec (Memref.whole main_v1) S1x1x128.size reads9_1 false false 2 stage9_1 sem9_1 nbuf9_1 hstage9_1

abbrev spec9_2 : Pipeline.WinSpec sig grid9.rank :=
  Pipeline.WinSpec.ofSpec (Memref.whole main_v56) S1x1x128.size reads9_2 true false 2 stage9_2 sem9_2 nbuf9_2 hstage9_2

abbrev spec9 : Fin 3 → Pipeline.WinSpec sig grid9.rank := fun | 0 => spec9_0 | 1 => spec9_1 | 2 => spec9_2 | ⟨_ + 3, h⟩ => absurd h (Nat.not_lt.2 (Nat.le_add_left _ _))
theorem hcount9 : ∀ w, grid9.bufCount (spec9 w).reads (spec9 w).sync = (spec9 w).nbuf := fun | 0 => nbuf9_0 | 1 => nbuf9_1 | 2 => nbuf9_2 | ⟨_ + 3, h⟩ => absurd h (Nat.not_lt.2 (Nat.le_add_left _ _))
abbrev ix9 (pf : pre9.Contents (Elt F)) : (w : Fin 3) → grid9.Coords → Fin (spec9 w).shape.rank → Nat := fun | 0 => cc9_transform_0 k9_off1_inb numel1_S1 pf | 1 => cc9_transform_1 k9_off1_inb numel1_S1 pf | 2 => cc9_transform_2 | ⟨_ + 3, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 pf | 1 => hreads9_1 pf | 2 => hreads9_2 | ⟨_ + 3, h⟩ => absurd h (Nat.not_lt.2 (Nat.le_add_left _ _))
def ok9 (pf : pre9.Contents (Elt F)) : Prop :=
  (∀ i : grid9.Coords, ∃ h : (∀ a, (cc9_transform_0 k9_off1_inb numel1_S1 pf i a + 1) * S1x1x128.size a ≤ S163842x1x128.size a), EltTy.bits .f32 = 32 ∨ (Rect.block (s := S163842x1x128) S1x1x128.size (cc9_transform_0 k9_off1_inb numel1_S1 pf i) h).WholeWords (EltTy.packing .f32)) ∧
  (∀ i : grid9.Coords, ∃ h : (∀ a, (cc9_transform_1 k9_off1_inb numel1_S1 pf i a + 1) * S1x1x128.size a ≤ S163842x1x128.size a), EltTy.bits .f32 = 32 ∨ (Rect.block (s := S163842x1x128) S1x1x128.size (cc9_transform_1 k9_off1_inb numel1_S1 pf i) h).WholeWords (EltTy.packing .f32))
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun pf hok => fun | 0 => fun i a => (hok.1 i).elim fun h _ => h a | 1 => fun i a => (hok.2 i).elim fun h _ => h a | 2 => hinb9_2 | ⟨_ + 3, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun pf hok => fun | 0 => fun i => (hok.1 i).elim fun _ h => h | 1 => fun i => (hok.2 i).elim fun _ h => h | 2 => hwx9_2 | ⟨_ + 3, h⟩ => absurd h (Nat.not_lt.2 (Nat.le_add_left _ _))
abbrev spec10_0 : Pipeline.WinSpec sig grid10.rank :=
  Pipeline.WinSpec.ofSpec (Memref.whole main_v1) S1x1x128.size reads10_0 false false 2 stage10_0 sem10_0 nbuf10_0 hstage10_0

abbrev spec10_1 : Pipeline.WinSpec sig grid10.rank :=
  Pipeline.WinSpec.ofSpec (Memref.whole main_v1) S1x1x128.size reads10_1 false false 2 stage10_1 sem10_1 nbuf10_1 hstage10_1

abbrev spec10_2 : Pipeline.WinSpec sig grid10.rank :=
  Pipeline.WinSpec.ofSpec (Memref.whole main_v60) S1x1x128.size reads10_2 true false 2 stage10_2 sem10_2 nbuf10_2 hstage10_2

abbrev spec10 : Fin 3 → Pipeline.WinSpec sig grid10.rank := fun | 0 => spec10_0 | 1 => spec10_1 | 2 => spec10_2 | ⟨_ + 3, h⟩ => absurd h (Nat.not_lt.2 (Nat.le_add_left _ _))
theorem hcount10 : ∀ w, grid10.bufCount (spec10 w).reads (spec10 w).sync = (spec10 w).nbuf := fun | 0 => nbuf10_0 | 1 => nbuf10_1 | 2 => nbuf10_2 | ⟨_ + 3, h⟩ => absurd h (Nat.not_lt.2 (Nat.le_add_left _ _))
abbrev ix10 (pf : pre10.Contents (Elt F)) : (w : Fin 3) → grid10.Coords → Fin (spec10 w).shape.rank → Nat := fun | 0 => cc10_transform_0 k10_off1_inb numel1_S1 pf | 1 => cc10_transform_1 k10_off1_inb numel1_S1 pf | 2 => cc10_transform_2 | ⟨_ + 3, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 pf | 1 => hreads10_1 pf | 2 => hreads10_2 | ⟨_ + 3, h⟩ => absurd h (Nat.not_lt.2 (Nat.le_add_left _ _))
def ok10 (pf : pre10.Contents (Elt F)) : Prop :=
  (∀ i : grid10.Coords, ∃ h : (∀ a, (cc10_transform_0 k10_off1_inb numel1_S1 pf i a + 1) * S1x1x128.size a ≤ S163842x1x128.size a), EltTy.bits .f32 = 32 ∨ (Rect.block (s := S163842x1x128) S1x1x128.size (cc10_transform_0 k10_off1_inb numel1_S1 pf i) h).WholeWords (EltTy.packing .f32)) ∧
  (∀ i : grid10.Coords, ∃ h : (∀ a, (cc10_transform_1 k10_off1_inb numel1_S1 pf i a + 1) * S1x1x128.size a ≤ S163842x1x128.size a), EltTy.bits .f32 = 32 ∨ (Rect.block (s := S163842x1x128) S1x1x128.size (cc10_transform_1 k10_off1_inb numel1_S1 pf i) h).WholeWords (EltTy.packing .f32))
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun pf hok => fun | 0 => fun i a => (hok.1 i).elim fun h _ => h a | 1 => fun i a => (hok.2 i).elim fun h _ => h a | 2 => hinb10_2 | ⟨_ + 3, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun pf hok => fun | 0 => fun i => (hok.1 i).elim fun _ h => h | 1 => fun i => (hok.2 i).elim fun _ h => h | 2 => hwx10_2 | ⟨_ + 3, h⟩ => absurd h (Nat.not_lt.2 (Nat.le_add_left _ _))
abbrev spec11_0 : Pipeline.WinSpec sig grid11.rank :=
  Pipeline.WinSpec.ofSpec (Memref.whole main_v1) S1x1x128.size reads11_0 false false 2 stage11_0 sem11_0 nbuf11_0 hstage11_0

abbrev spec11_1 : Pipeline.WinSpec sig grid11.rank :=
  Pipeline.WinSpec.ofSpec (Memref.whole main_v1) S1x1x128.size reads11_1 false false 2 stage11_1 sem11_1 nbuf11_1 hstage11_1

abbrev spec11_2 : Pipeline.WinSpec sig grid11.rank :=
  Pipeline.WinSpec.ofSpec (Memref.whole main_v64) S1x1x128.size reads11_2 true false 2 stage11_2 sem11_2 nbuf11_2 hstage11_2

abbrev spec11 : Fin 3 → Pipeline.WinSpec sig grid11.rank := fun | 0 => spec11_0 | 1 => spec11_1 | 2 => spec11_2 | ⟨_ + 3, h⟩ => absurd h (Nat.not_lt.2 (Nat.le_add_left _ _))
theorem hcount11 : ∀ w, grid11.bufCount (spec11 w).reads (spec11 w).sync = (spec11 w).nbuf := fun | 0 => nbuf11_0 | 1 => nbuf11_1 | 2 => nbuf11_2 | ⟨_ + 3, h⟩ => absurd h (Nat.not_lt.2 (Nat.le_add_left _ _))
abbrev ix11 (pf : pre11.Contents (Elt F)) : (w : Fin 3) → grid11.Coords → Fin (spec11 w).shape.rank → Nat := fun | 0 => cc11_transform_0 k11_off1_inb numel1_S1 pf | 1 => cc11_transform_1 k11_off1_inb numel1_S1 pf | 2 => cc11_transform_2 | ⟨_ + 3, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 pf | 1 => hreads11_1 pf | 2 => hreads11_2 | ⟨_ + 3, h⟩ => absurd h (Nat.not_lt.2 (Nat.le_add_left _ _))
def ok11 (pf : pre11.Contents (Elt F)) : Prop :=
  (∀ i : grid11.Coords, ∃ h : (∀ a, (cc11_transform_0 k11_off1_inb numel1_S1 pf i a + 1) * S1x1x128.size a ≤ S163842x1x128.size a), EltTy.bits .f32 = 32 ∨ (Rect.block (s := S163842x1x128) S1x1x128.size (cc11_transform_0 k11_off1_inb numel1_S1 pf i) h).WholeWords (EltTy.packing .f32)) ∧
  (∀ i : grid11.Coords, ∃ h : (∀ a, (cc11_transform_1 k11_off1_inb numel1_S1 pf i a + 1) * S1x1x128.size a ≤ S163842x1x128.size a), EltTy.bits .f32 = 32 ∨ (Rect.block (s := S163842x1x128) S1x1x128.size (cc11_transform_1 k11_off1_inb numel1_S1 pf i) h).WholeWords (EltTy.packing .f32))
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun pf hok => fun | 0 => fun i a => (hok.1 i).elim fun h _ => h a | 1 => fun i a => (hok.2 i).elim fun h _ => h a | 2 => hinb11_2 | ⟨_ + 3, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun pf hok => fun | 0 => fun i => (hok.1 i).elim fun _ h => h | 1 => fun i => (hok.2 i).elim fun _ h => h | 2 => hwx11_2 | ⟨_ + 3, h⟩ => absurd h (Nat.not_lt.2 (Nat.le_add_left _ _))
abbrev spec12_0 : Pipeline.WinSpec sig grid12.rank :=
  Pipeline.WinSpec.ofSpec (Memref.whole main_v1) S1x1x128.size reads12_0 false false 2 stage12_0 sem12_0 nbuf12_0 hstage12_0

abbrev spec12_1 : Pipeline.WinSpec sig grid12.rank :=
  Pipeline.WinSpec.ofSpec (Memref.whole main_v1) S1x1x128.size reads12_1 false false 2 stage12_1 sem12_1 nbuf12_1 hstage12_1

abbrev spec12_2 : Pipeline.WinSpec sig grid12.rank :=
  Pipeline.WinSpec.ofSpec (Memref.whole main_v68) S1x1x128.size reads12_2 true false 2 stage12_2 sem12_2 nbuf12_2 hstage12_2

abbrev spec12 : Fin 3 → Pipeline.WinSpec sig grid12.rank := fun | 0 => spec12_0 | 1 => spec12_1 | 2 => spec12_2 | ⟨_ + 3, h⟩ => absurd h (Nat.not_lt.2 (Nat.le_add_left _ _))
theorem hcount12 : ∀ w, grid12.bufCount (spec12 w).reads (spec12 w).sync = (spec12 w).nbuf := fun | 0 => nbuf12_0 | 1 => nbuf12_1 | 2 => nbuf12_2 | ⟨_ + 3, h⟩ => absurd h (Nat.not_lt.2 (Nat.le_add_left _ _))
abbrev ix12 (pf : pre12.Contents (Elt F)) : (w : Fin 3) → grid12.Coords → Fin (spec12 w).shape.rank → Nat := fun | 0 => cc12_transform_0 k12_off1_inb numel1_S1 pf | 1 => cc12_transform_1 k12_off1_inb numel1_S1 pf | 2 => cc12_transform_2 | ⟨_ + 3, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 pf | 1 => hreads12_1 pf | 2 => hreads12_2 | ⟨_ + 3, h⟩ => absurd h (Nat.not_lt.2 (Nat.le_add_left _ _))
def ok12 (pf : pre12.Contents (Elt F)) : Prop :=
  (∀ i : grid12.Coords, ∃ h : (∀ a, (cc12_transform_0 k12_off1_inb numel1_S1 pf i a + 1) * S1x1x128.size a ≤ S163842x1x128.size a), EltTy.bits .f32 = 32 ∨ (Rect.block (s := S163842x1x128) S1x1x128.size (cc12_transform_0 k12_off1_inb numel1_S1 pf i) h).WholeWords (EltTy.packing .f32)) ∧
  (∀ i : grid12.Coords, ∃ h : (∀ a, (cc12_transform_1 k12_off1_inb numel1_S1 pf i a + 1) * S1x1x128.size a ≤ S163842x1x128.size a), EltTy.bits .f32 = 32 ∨ (Rect.block (s := S163842x1x128) S1x1x128.size (cc12_transform_1 k12_off1_inb numel1_S1 pf i) h).WholeWords (EltTy.packing .f32))
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun pf hok => fun | 0 => fun i a => (hok.1 i).elim fun h _ => h a | 1 => fun i a => (hok.2 i).elim fun h _ => h a | 2 => hinb12_2 | ⟨_ + 3, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun pf hok => fun | 0 => fun i => (hok.1 i).elim fun _ h => h | 1 => fun i => (hok.2 i).elim fun _ h => h | 2 => hwx12_2 | ⟨_ + 3, h⟩ => absurd h (Nat.not_lt.2 (Nat.le_add_left _ _))
abbrev spec13_0 : Pipeline.WinSpec sig grid13.rank :=
  Pipeline.WinSpec.ofSpec (Memref.whole main_v1) S1x1x128.size reads13_0 false false 2 stage13_0 sem13_0 nbuf13_0 hstage13_0

abbrev spec13_1 : Pipeline.WinSpec sig grid13.rank :=
  Pipeline.WinSpec.ofSpec (Memref.whole main_v1) S1x1x128.size reads13_1 false false 2 stage13_1 sem13_1 nbuf13_1 hstage13_1

abbrev spec13_2 : Pipeline.WinSpec sig grid13.rank :=
  Pipeline.WinSpec.ofSpec (Memref.whole main_v72) S1x1x128.size reads13_2 true false 2 stage13_2 sem13_2 nbuf13_2 hstage13_2

abbrev spec13 : Fin 3 → Pipeline.WinSpec sig grid13.rank := fun | 0 => spec13_0 | 1 => spec13_1 | 2 => spec13_2 | ⟨_ + 3, h⟩ => absurd h (Nat.not_lt.2 (Nat.le_add_left _ _))
theorem hcount13 : ∀ w, grid13.bufCount (spec13 w).reads (spec13 w).sync = (spec13 w).nbuf := fun | 0 => nbuf13_0 | 1 => nbuf13_1 | 2 => nbuf13_2 | ⟨_ + 3, h⟩ => absurd h (Nat.not_lt.2 (Nat.le_add_left _ _))
abbrev ix13 (pf : pre13.Contents (Elt F)) : (w : Fin 3) → grid13.Coords → Fin (spec13 w).shape.rank → Nat := fun | 0 => cc13_transform_0 k13_off1_inb numel1_S1 pf | 1 => cc13_transform_1 k13_off1_inb numel1_S1 pf | 2 => cc13_transform_2 | ⟨_ + 3, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 pf | 1 => hreads13_1 pf | 2 => hreads13_2 | ⟨_ + 3, h⟩ => absurd h (Nat.not_lt.2 (Nat.le_add_left _ _))
def ok13 (pf : pre13.Contents (Elt F)) : Prop :=
  (∀ i : grid13.Coords, ∃ h : (∀ a, (cc13_transform_0 k13_off1_inb numel1_S1 pf i a + 1) * S1x1x128.size a ≤ S163842x1x128.size a), EltTy.bits .f32 = 32 ∨ (Rect.block (s := S163842x1x128) S1x1x128.size (cc13_transform_0 k13_off1_inb numel1_S1 pf i) h).WholeWords (EltTy.packing .f32)) ∧
  (∀ i : grid13.Coords, ∃ h : (∀ a, (cc13_transform_1 k13_off1_inb numel1_S1 pf i a + 1) * S1x1x128.size a ≤ S163842x1x128.size a), EltTy.bits .f32 = 32 ∨ (Rect.block (s := S163842x1x128) S1x1x128.size (cc13_transform_1 k13_off1_inb numel1_S1 pf i) h).WholeWords (EltTy.packing .f32))
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun pf hok => fun | 0 => fun i a => (hok.1 i).elim fun h _ => h a | 1 => fun i a => (hok.2 i).elim fun h _ => h a | 2 => hinb13_2 | ⟨_ + 3, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun pf hok => fun | 0 => fun i => (hok.1 i).elim fun _ h => h | 1 => fun i => (hok.2 i).elim fun _ h => h | 2 => hwx13_2 | ⟨_ + 3, h⟩ => absurd h (Nat.not_lt.2 (Nat.le_add_left _ _))
abbrev spec14_0 : Pipeline.WinSpec sig grid14.rank :=
  Pipeline.WinSpec.ofSpec (Memref.whole main_v1) S1x1x128.size reads14_0 false false 2 stage14_0 sem14_0 nbuf14_0 hstage14_0

abbrev spec14_1 : Pipeline.WinSpec sig grid14.rank :=
  Pipeline.WinSpec.ofSpec (Memref.whole main_v1) S1x1x128.size reads14_1 false false 2 stage14_1 sem14_1 nbuf14_1 hstage14_1

abbrev spec14_2 : Pipeline.WinSpec sig grid14.rank :=
  Pipeline.WinSpec.ofSpec (Memref.whole main_v76) S1x1x128.size reads14_2 true false 2 stage14_2 sem14_2 nbuf14_2 hstage14_2

abbrev spec14 : Fin 3 → Pipeline.WinSpec sig grid14.rank := fun | 0 => spec14_0 | 1 => spec14_1 | 2 => spec14_2 | ⟨_ + 3, h⟩ => absurd h (Nat.not_lt.2 (Nat.le_add_left _ _))
theorem hcount14 : ∀ w, grid14.bufCount (spec14 w).reads (spec14 w).sync = (spec14 w).nbuf := fun | 0 => nbuf14_0 | 1 => nbuf14_1 | 2 => nbuf14_2 | ⟨_ + 3, h⟩ => absurd h (Nat.not_lt.2 (Nat.le_add_left _ _))
abbrev ix14 (pf : pre14.Contents (Elt F)) : (w : Fin 3) → grid14.Coords → Fin (spec14 w).shape.rank → Nat := fun | 0 => cc14_transform_0 k14_off1_inb numel1_S1 pf | 1 => cc14_transform_1 k14_off1_inb numel1_S1 pf | 2 => cc14_transform_2 | ⟨_ + 3, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 pf | 1 => hreads14_1 pf | 2 => hreads14_2 | ⟨_ + 3, h⟩ => absurd h (Nat.not_lt.2 (Nat.le_add_left _ _))
def ok14 (pf : pre14.Contents (Elt F)) : Prop :=
  (∀ i : grid14.Coords, ∃ h : (∀ a, (cc14_transform_0 k14_off1_inb numel1_S1 pf i a + 1) * S1x1x128.size a ≤ S163842x1x128.size a), EltTy.bits .f32 = 32 ∨ (Rect.block (s := S163842x1x128) S1x1x128.size (cc14_transform_0 k14_off1_inb numel1_S1 pf i) h).WholeWords (EltTy.packing .f32)) ∧
  (∀ i : grid14.Coords, ∃ h : (∀ a, (cc14_transform_1 k14_off1_inb numel1_S1 pf i a + 1) * S1x1x128.size a ≤ S163842x1x128.size a), EltTy.bits .f32 = 32 ∨ (Rect.block (s := S163842x1x128) S1x1x128.size (cc14_transform_1 k14_off1_inb numel1_S1 pf i) h).WholeWords (EltTy.packing .f32))
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun pf hok => fun | 0 => fun i a => (hok.1 i).elim fun h _ => h a | 1 => fun i a => (hok.2 i).elim fun h _ => h a | 2 => hinb14_2 | ⟨_ + 3, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun pf hok => fun | 0 => fun i => (hok.1 i).elim fun _ h => h | 1 => fun i => (hok.2 i).elim fun _ h => h | 2 => hwx14_2 | ⟨_ + 3, h⟩ => absurd h (Nat.not_lt.2 (Nat.le_add_left _ _))
abbrev spec15_0 : Pipeline.WinSpec sig grid15.rank :=
  Pipeline.WinSpec.ofSpec (Memref.whole main_v1) S1x1x128.size reads15_0 false false 2 stage15_0 sem15_0 nbuf15_0 hstage15_0

abbrev spec15_1 : Pipeline.WinSpec sig grid15.rank :=
  Pipeline.WinSpec.ofSpec (Memref.whole main_v1) S1x1x128.size reads15_1 false false 2 stage15_1 sem15_1 nbuf15_1 hstage15_1

abbrev spec15_2 : Pipeline.WinSpec sig grid15.rank :=
  Pipeline.WinSpec.ofSpec (Memref.whole main_v80) S1x1x128.size reads15_2 true false 2 stage15_2 sem15_2 nbuf15_2 hstage15_2

abbrev spec15 : Fin 3 → Pipeline.WinSpec sig grid15.rank := fun | 0 => spec15_0 | 1 => spec15_1 | 2 => spec15_2 | ⟨_ + 3, h⟩ => absurd h (Nat.not_lt.2 (Nat.le_add_left _ _))
theorem hcount15 : ∀ w, grid15.bufCount (spec15 w).reads (spec15 w).sync = (spec15 w).nbuf := fun | 0 => nbuf15_0 | 1 => nbuf15_1 | 2 => nbuf15_2 | ⟨_ + 3, h⟩ => absurd h (Nat.not_lt.2 (Nat.le_add_left _ _))
abbrev ix15 (pf : pre15.Contents (Elt F)) : (w : Fin 3) → grid15.Coords → Fin (spec15 w).shape.rank → Nat := fun | 0 => cc15_transform_0 k15_off1_inb numel1_S1 pf | 1 => cc15_transform_1 k15_off1_inb numel1_S1 pf | 2 => cc15_transform_2 | ⟨_ + 3, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 pf | 1 => hreads15_1 pf | 2 => hreads15_2 | ⟨_ + 3, h⟩ => absurd h (Nat.not_lt.2 (Nat.le_add_left _ _))
def ok15 (pf : pre15.Contents (Elt F)) : Prop :=
  (∀ i : grid15.Coords, ∃ h : (∀ a, (cc15_transform_0 k15_off1_inb numel1_S1 pf i a + 1) * S1x1x128.size a ≤ S163842x1x128.size a), EltTy.bits .f32 = 32 ∨ (Rect.block (s := S163842x1x128) S1x1x128.size (cc15_transform_0 k15_off1_inb numel1_S1 pf i) h).WholeWords (EltTy.packing .f32)) ∧
  (∀ i : grid15.Coords, ∃ h : (∀ a, (cc15_transform_1 k15_off1_inb numel1_S1 pf i a + 1) * S1x1x128.size a ≤ S163842x1x128.size a), EltTy.bits .f32 = 32 ∨ (Rect.block (s := S163842x1x128) S1x1x128.size (cc15_transform_1 k15_off1_inb numel1_S1 pf i) h).WholeWords (EltTy.packing .f32))
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun pf hok => fun | 0 => fun i a => (hok.1 i).elim fun h _ => h a | 1 => fun i a => (hok.2 i).elim fun h _ => h a | 2 => hinb15_2 | ⟨_ + 3, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun pf hok => fun | 0 => fun i => (hok.1 i).elim fun _ h => h | 1 => fun i => (hok.2 i).elim fun _ h => h | 2 => hwx15_2 | ⟨_ + 3, h⟩ => absurd h (Nat.not_lt.2 (Nat.le_add_left _ _))
abbrev win16_0 : Pipeline.Window sig grid16 :=
  Pipeline.Window.ofSpec (Memref.whole main_v82) S2048x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v83) S4x32x2048.size cc16_transform_1 reads16_1 true false 2 stage16_1 sem16_1
    hrank16 hreads16_1 hinb16_1 nbuf16_1 (Memref.isWhole_whole _) hwx16_1 hstage16_1

abbrev win16 : Fin 2 → Pipeline.Window sig grid16 := fun | 0 => win16_0 | 1 => win16_1 | ⟨_ + 2, h⟩ => absurd h (Nat.not_lt.2 (Nat.le_add_left _ _))
abbrev spec16 : Fin 2 → Pipeline.WinSpec sig grid16.rank := fun w => (win16 w).toWinSpec

class Facts : Prop extends Facts₀ where
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole
  harr11 : ∀ w, (spec11 w).arr.IsWhole
  harr12 : ∀ w, (spec12 w).arr.IsWhole
  harr13 : ∀ w, (spec13 w).arr.IsWhole
  harr14 : ∀ w, (spec14 w).arr.IsWhole
  harr15 : ∀ w, (spec15 w).arr.IsWhole

variable [Facts]
-- ==== ReferenceIdeal.lean ====
abbrev S4x128x163842 : Shape := ⟨3, ![4, 128, 163842]⟩
abbrev S3x163840x2 : Shape := ⟨3, ![3, 163840, 2]⟩
abbrev S491520 : Shape := ⟨1, ![491520]⟩
abbrev S4x32x163842 : Shape := ⟨3, ![4, 32, 163842]⟩
abbrev S_ : Shape := ⟨0, ![]⟩
abbrev S3x163840x1 : Shape := ⟨3, ![3, 163840, 1]⟩
abbrev S3x163840 : Shape := ⟨2, ![3, 163840]⟩
abbrev S4x32x3x163840 : Shape := ⟨4, ![4, 32, 3, 163840]⟩
abbrev S4x32x491520 : Shape := ⟨3, ![4, 32, 491520]⟩
abbrev S491520x1 : Shape := ⟨2, ![491520, 1]⟩
abbrev S4x32x655362 : Shape := ⟨3, ![4, 32, 655362]⟩

abbrev nBuf : Space → Nat
  | .hbm => 52
  | .vmem => 0
  | .smem => 0
  | _ => 0

abbrev bufTy : (tb : Table) → Fin (tcTables nBuf tb) → BufTy
  | .hbm, ⟨0, _⟩ => ⟨S4x128x163842, .f32⟩
  | .hbm, ⟨1, _⟩ => ⟨S3x163840x2, .i32⟩
  | .hbm, ⟨2, _⟩ => ⟨S491520, .i32⟩
  | .hbm, ⟨3, _⟩ => ⟨S4x32x163842, .f32⟩
  | .hbm, ⟨4, _⟩ => ⟨S4x32x163842, .f32⟩
  | .hbm, ⟨5, _⟩ => ⟨S4x32x163842, .f32⟩
  | .hbm, ⟨6, _⟩ => ⟨S_, .f32⟩
  | .hbm, ⟨7, _⟩ => ⟨S4x32x163842, .f32⟩
  | .hbm, ⟨8, _⟩ => ⟨S4x32x163842, .f32⟩
  | .hbm, ⟨9, _⟩ => ⟨S4x32x163842, .f32⟩
  | .hbm, ⟨10, _⟩ => ⟨S4x32x163842, .f32⟩
  | .hbm, ⟨11, _⟩ => ⟨S4x32x163842, .f32⟩
  | .hbm, ⟨12, _⟩ => ⟨S_, .f32⟩
  | .hbm, ⟨13, _⟩ => ⟨S4x32x163842, .f32⟩
  | .hbm, ⟨14, _⟩ => ⟨S4x32x163842, .f32⟩
  | .hbm, ⟨15, _⟩ => ⟨S_, .f32⟩
  | .hbm, ⟨16, _⟩ => ⟨S4x32x163842, .f32⟩
  | .hbm, ⟨17, _⟩ => ⟨S4x32x163842, .f32⟩
  | .hbm, ⟨18, _⟩ => ⟨S3x163840x1, .i32⟩
  | .hbm, ⟨19, _⟩ => ⟨S3x163840, .i32⟩
  | .hbm, ⟨20, _⟩ => ⟨S3x163840x1, .i32⟩
  | .hbm, ⟨21, _⟩ => ⟨S3x163840, .i32⟩
  | .hbm, ⟨22, _⟩ => ⟨S_, .i32⟩
  | .hbm, ⟨23, _⟩ => ⟨S3x163840, .i32⟩
  | .hbm, ⟨24, _⟩ => ⟨S3x163840, .i1⟩
  | .hbm, ⟨25, _⟩ => ⟨S_, .i32⟩
  | .hbm, ⟨26, _⟩ => ⟨S3x163840, .i32⟩
  | .hbm, ⟨27, _⟩ => ⟨S3x163840, .i32⟩
  | .hbm, ⟨28, _⟩ => ⟨S3x163840, .i32⟩
  | .hbm, ⟨29, _⟩ => ⟨S3x163840x1, .i32⟩
  | .hbm, ⟨30, _⟩ => ⟨S4x32x3x163840, .f32⟩
  | .hbm, ⟨31, _⟩ => ⟨S_, .i32⟩
  | .hbm, ⟨32, _⟩ => ⟨S3x163840, .i32⟩
  | .hbm, ⟨33, _⟩ => ⟨S3x163840, .i1⟩
  | .hbm, ⟨34, _⟩ => ⟨S_, .i32⟩
  | .hbm, ⟨35, _⟩ => ⟨S3x163840, .i32⟩
  | .hbm, ⟨36, _⟩ => ⟨S3x163840, .i32⟩
  | .hbm, ⟨37, _⟩ => ⟨S3x163840, .i32⟩
  | .hbm, ⟨38, _⟩ => ⟨S3x163840x1, .i32⟩
  | .hbm, ⟨39, _⟩ => ⟨S4x32x3x163840, .f32⟩
  | .hbm, ⟨40, _⟩ => ⟨S4x32x3x163840, .f32⟩
  | .hbm, ⟨41, _⟩ => ⟨S4x32x491520, .f32⟩
  | .hbm, ⟨42, _⟩ => ⟨S_, .i32⟩
  | .hbm, ⟨43, _⟩ => ⟨S491520, .i32⟩
  | .hbm, ⟨44, _⟩ => ⟨S491520, .i1⟩
  | .hbm, ⟨45, _⟩ => ⟨S_, .i32⟩
  | .hbm, ⟨46, _⟩ => ⟨S491520, .i32⟩
  | .hbm, ⟨47, _⟩ => ⟨S491520, .i32⟩
  | .hbm, ⟨48, _⟩ => ⟨S491520, .i32⟩
  | .hbm, ⟨49, _⟩ => ⟨S491520x1, .i32⟩
  | .hbm, ⟨50, _⟩ => ⟨S4x32x491520, .f32⟩
  | .hbm, ⟨51, _⟩ => ⟨S4x32x655362, .f32⟩
  | _, _ => ⟨S4x128x163842, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_c_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  slices_S4x128x163842_S4x32x163842_0_0_0 : S4x128x163842.Slices ![0, 0, 0] S4x32x163842
  slices_S4x128x163842_S4x32x163842_0_32_0 : S4x128x163842.Slices ![0, 32, 0] S4x32x163842
  bcast_S_S4x32x163842 : S_.BroadcastsInDim S4x32x163842 (![] : Fin 0 → Fin S4x32x163842.rank)
  slices_S4x128x163842_S4x32x163842_0_64_0 : S4x128x163842.Slices ![0, 64, 0] S4x32x163842
  slices_S4x128x163842_S4x32x163842_0_96_0 : S4x128x163842.Slices ![0, 96, 0] S4x32x163842
  slices_S3x163840x2_S3x163840x1_0_0_0 : S3x163840x2.Slices ![0, 0, 0] S3x163840x1
  shapeCasts_S3x163840x1_S3x163840 : S3x163840x1.ShapeCasts S3x163840
  slices_S3x163840x2_S3x163840x1_0_0_1 : S3x163840x2.Slices ![0, 0, 1] S3x163840x1
  bcast_S_S3x163840 : S_.BroadcastsInDim S3x163840 (![] : Fin 0 → Fin S3x163840.rank)
  bcast_S3x163840_S3x163840x1_0_1 : S3x163840.BroadcastsInDim S3x163840x1 (![0, 1] : Fin 2 → Fin S3x163840x1.rank)
  shapeCasts_S4x32x3x163840_S4x32x491520 : S4x32x3x163840.ShapeCasts S4x32x491520
  bcast_S_S491520 : S_.BroadcastsInDim S491520 (![] : Fin 0 → Fin S491520.rank)
  bcast_S491520_S491520x1_0 : S491520.BroadcastsInDim S491520x1 (![0] : Fin 1 → Fin S491520x1.rank)
  concatenates_S4x32x163842_S4x32x491520_S4x32x655362_d2 : Shape.Concatenates [S4x32x163842, S4x32x491520] S4x32x655362 2
  gather_S4x32x163842_S3x163840x1_S4x32x3x163840_01_2_n_n_2_2_4321_wf : GatherDims.WF S4x32x163842 S3x163840x1 S4x32x3x163840 [0, 1] [2] [] [2] [] 2 ![4, 32, 1]
  gather_S4x32x491520_S491520x1_S4x32x491520_01_2_n_n_2_1_4321_wf : GatherDims.WF S4x32x491520 S491520x1 S4x32x491520 [0, 1] [2] [] [2] [] 1 ![4, 32, 1]

variable [Facts₀]

def gather_S4x32x163842_S3x163840x1_S4x32x3x163840_01_2_n_n_2_2_4321 : GatherDims S4x32x163842 S3x163840x1 S4x32x3x163840 where
  offsetDims := [0, 1]
  collapsedSliceDims := [2]
  operandBatchingDims := []
  startIndicesBatchingDims := []
  startIndexMap := [2]
  indexVectorDim := 2
  sliceSizes := ![4, 32, 1]
  wf := gather_S4x32x163842_S3x163840x1_S4x32x3x163840_01_2_n_n_2_2_4321_wf
def gather_S4x32x491520_S491520x1_S4x32x491520_01_2_n_n_2_1_4321 : GatherDims S4x32x491520 S491520x1 S4x32x491520 where
  offsetDims := [0, 1]
  collapsedSliceDims := [2]
  operandBatchingDims := []
  startIndicesBatchingDims := []
  startIndexMap := [2]
  indexVectorDim := 1
  sliceSizes := ![4, 32, 1]
  wf := gather_S4x32x491520_S491520x1_S4x32x491520_01_2_n_n_2_1_4321_wf

class Facts : Prop extends Facts₀ where

variable [Facts]
-- ==== Proof.PreRange.lean ====
/-
  The precondition decoded at the index array.  The printed predicate is the conjunction of two reductions by
  `and` over all axes: the first says every entry of the float input is finite, the second says every entry w of
  the index array satisfies (0 ≤ w) ∧ (w < 163842), both comparisons signed.  A reduction by `and` into a result of
  one index that is 1 had a 1 at every operand index, and a signed comparison that is 1 is the corresponding
  inequality between the words read as integers; so every entry of the index array, read signed, lies in
  [0, 163842).
-/
import proofs.«175043_j76819785056407_2_alg».proof.Pre_finite_inputs
import proofs.«175043_j76819785056407_2_alg».proof.Proof.Gen.Pre_finite_inputs
import Idealize.ShloMosaic.Lib.ReduceAll

noncomputable section

namespace Cert.Proof.PreRange

open Idealize.ShloMosaic

/-- The rank-0 shape has one index. -/
instance : Subsingleton Cert.Pre_finite_inputs.S_.Idx := ⟨fun a b => funext fun d => d.elim0⟩

/-- Every entry of the index array, read signed, lies in [0, 163842). -/
theorem idx_range {F : FTy → Type} [FloatOps F] [Cert.Pre_finite_inputs.Facts]
    (x : FVec F Cert.Pre_finite_inputs.S4x128x163842 .f32) (a1 : IVec Cert.Pre_finite_inputs.S3x163840x2 32)
    (a2 : IVec Cert.Pre_finite_inputs.S491520 32)
    (h : Cert.Pre_finite_inputs.fn (F := F) x a1 a2 = fun _ => 1#1) :
    ∀ i, 0 ≤ (a1 i).toInt ∧ (a1 i).toInt < 163842 := by
  intro i
  -- the result at its one index
  have e := congrFun h (fun d => d.elim0)
  dsimp only [Cert.Pre_finite_inputs.fn] at e
  -- the second conjunct: the reduction over the index array's comparisons
  have e2 := (IntOp.andi_eq_one.1 e).2
  -- every element of the reduced array is 1
  have e3 := Host.reduce_andi_all _ _ _ _ _ e2 i
  -- the element is (a1 i ≥ 0) ∧ (a1 i < 163842), signed
  obtain ⟨hge, hlt⟩ := IntOp.andi_eq_one.1 e3
  have hge' : (0#32 : BitVec 32).toInt ≤ (a1 i).toInt := IntOp.cmpi_sge.1 hge
  have hlt' : (a1 i).toInt < (163842#32 : BitVec 32).toInt := IntOp.cmpi_slt.1 hlt
  have z0 : (0#32 : BitVec 32).toInt = 0 := by decide
  have z1 : (163842#32 : BitVec 32).toInt = 163842 := by decide
  rw [z0] at hge'
  rw [z1] at hlt'
  exact ⟨hge', hlt'⟩

end Cert.Proof.PreRange

end
-- ==== Proof.Spec.lean ====
/- The specification both programs are compared with: the result array as ONE function of the three argument arrays, index by
   index, on the extended reals.  Along the last axis the first 163842 positions hold the average of the first two channel
   quarters; position 163842 + j holds the sum of two gathered vertices of the quarter-scaled sum of the last two channel
   quarters, the two vertices being the two endpoints of edge number u(j), where u(j) is the j-th word of the reorder table.
   Every index word is read the way an indexing gather reads it: a negative word is first raised by the extent, then the
   result is clamped into the extent. -/
import Idealize.ShloMosaic.PureOps.Ideal
import Idealize.ShloMosaic.Lib.ValueIdx

noncomputable section

namespace Cert.Spec

open Idealize.ShloMosaic Idealize.ShloMosaic.ValueIdx

abbrev SX : Shape := ⟨3, ![4, 128, 163842]⟩
abbrev SI1 : Shape := ⟨3, ![3, 163840, 2]⟩
abbrev SU : Shape := ⟨1, ![491520]⟩
abbrev SO : Shape := ⟨3, ![4, 32, 655362]⟩

/-- The binary literal one half. -/
def half : EReal := Ideal.ofBits .f32 0x3F000000#32

/-- An index word as an indexing gather along an axis of extent `n` reads it: raised by `n` when negative, then clamped into `[0, n - 1]`. -/
def wrapClamp (n : Nat) (v : BitVec 32) : Nat :=
  min (Scalar.select (IntOp.cmpi .slt v 0#32) (IntOp.addi v (BitVec.ofNat 32 n)) v).toInt.toNat (n - 1)

theorem wrapClamp_lt (n : Nat) (hn : 0 < n) (v : BitVec 32) : wrapClamp n v < n := by
  unfold wrapClamp; omega

/-- The quarter-scaled sum of the last two channel quarters, at batch `b`, channel `ch`, vertex `v`. -/
def inp (x : SX.Idx → EReal) (b : Fin 4) (ch : Fin 32) (v : Fin 163842) : EReal :=
  ((x (ix3 b (⟨64 + ch.val, by omega⟩ : Fin 128) v) + x (ix3 b (⟨96 + ch.val, by omega⟩ : Fin 128) v)) * half) * half

/-- Endpoint `e` of edge number `k` (edges numbered group-major), as a vertex. -/
def vsrc (a1 : IVec SI1 32) (e : Fin 2) (k : Fin 491520) : Fin 163842 :=
  ⟨wrapClamp 163842 (a1 (ix3 (⟨k.val / 163840, by omega⟩ : Fin 3) (⟨k.val % 163840, by omega⟩ : Fin 163840) e)), wrapClamp_lt _ (by decide) _⟩

/-- The edge number the reorder table names at output position `j`. -/
def usrc (a2 : IVec SU 32) (j : Fin 491520) : Fin 491520 :=
  ⟨wrapClamp 491520 (a2 (ix1 j)), wrapClamp_lt _ (by decide) _⟩

/-- The result array as a function of the three argument arrays. -/
def G (x : SX.Idx → EReal) (a1 : IVec SI1 32) (a2 : IVec SU 32) : SO.Idx → EReal := fun i =>
  have h0 : (i 0).val < 4 := (i 0).isLt
  have h1 : (i 1).val < 32 := (i 1).isLt
  have h2 : (i 2).val < 655362 := (i 2).isLt
  if h : (i 2).val < 163842 then
    (x (ix3 (⟨(i 0).val, h0⟩ : Fin 4) (⟨(i 1).val, by omega⟩ : Fin 128) (⟨(i 2).val, h⟩ : Fin 163842))
      + x (ix3 (⟨(i 0).val, h0⟩ : Fin 4) (⟨32 + (i 1).val, by omega⟩ : Fin 128) (⟨(i 2).val, h⟩ : Fin 163842))) * half
  else
    inp x ⟨(i 0).val, h0⟩ ⟨(i 1).val, h1⟩ (vsrc a1 0 (usrc a2 ⟨(i 2).val - 163842, by omega⟩))
      + inp x ⟨(i 0).val, h0⟩ ⟨(i 1).val, h1⟩ (vsrc a1 1 (usrc a2 ⟨(i 2).val - 163842, by omega⟩))

end Cert.Spec

end
-- ==== Proof.RefValue.lean ====
/-
  The reference's result, index by index, is the specification's function G of the three arguments.  Along the last axis
  the result is the concatenation of two pieces.  The first piece is elementwise: the sum of the first two channel
  quarters times one half.  The second piece is a gather along the last axis of a reshaped sum of two gathers of the
  twice-halved sum of the last two channel quarters; each gather takes one element along its gathered axis, at a start
  index that is an index word raised by the extent when negative (the printed select) and then read signed and clamped
  into the extent (the gather's own clamp): the specification's reading of an index word.
-/
import proofs.«175043_j76819785056407_2_alg».proof.Proof.Gen.ReferenceIdeal.Run
import proofs.«175043_j76819785056407_2_alg».proof.Proof.Gen.ReferenceIdeal.Read
import proofs.«175043_j76819785056407_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-! ## The two gathers read at an index -/

/-- A start index as a gather reads it along an axis of extent n from which it takes one element: read signed and
    clamped into [0, n - 1]. -/
def clampIdx (n : Nat) (hn : 0 < n) {w : Nat} (v : BitVec w) : Fin n := ⟨min v.toInt.toNat (n - 1), by omega⟩

/-- The vertex gather at result index (b, c, g, e): the operand at (b, c, v), v the start index at (g, e, 0) read
    signed and clamped into [0, 163841]. -/
theorem gatherV_apply {α : Type} {w : Nat} (x : S4x32x163842.Idx → α) (idx : IVec S3x163840x1 w)
    (b : Fin 4) (c : Fin 32) (g : Fin 3) (e : Fin 163840) :
    Host.gather gather_S4x32x163842_S3x163840x1_S4x32x3x163840_01_2_n_n_2_2_4321 x idx (ix4 b c g e)
      = x (ix3 b c (clampIdx 163842 (by decide) (idx (ix3 g e (0 : Fin 1))))) := by
  unfold Host.gather
  refine congrArg x ?_
  funext a
  refine Fin.ext ?_
  match a with
  | ⟨0, _⟩ =>
    show GatherDims.start _ (ix4 b c g e) idx 0 + GatherDims.batchCoord _ (ix4 b c g e) 0 + GatherDims.offCoord _ (ix4 b c g e) 0 = b.val
    rw [GatherDims.batchCoord_eq_zero _ _ _ List.not_mem_nil]
    unfold GatherDims.start
    rw [dif_neg (by decide)]
    unfold GatherDims.offCoord
    rw [dif_pos (by decide), Nat.zero_add]
    rfl
  | ⟨1, _⟩ =>
    show GatherDims.start _ (ix4 b c g e) idx 1 + GatherDims.batchCoord _ (ix4 b c g e) 1 + GatherDims.offCoord _ (ix4 b c g e) 1 = c.val
    rw [GatherDims.batchCoord_eq_zero _ _ _ List.not_mem_nil]
    unfold GatherDims.start
    rw [dif_neg (by decide)]
    unfold GatherDims.offCoord
    rw [dif_pos (by decide), Nat.zero_add]
    rfl
  | ⟨2, _⟩ =>
    show GatherDims.start _ (ix4 b c g e) idx 2 + GatherDims.batchCoord _ (ix4 b c g e) 2 + GatherDims.offCoord _ (ix4 b c g e) 2
      = min (idx (ix3 g e (0 : Fin 1))).toInt.toNat (163842 - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (gather_S4x32x163842_S3x163840x1_S4x32x3x163840_01_2_n_n_2_2_4321).startIndexMap from List.mem_singleton.mpr rfl)]
    have hsi : (gather_S4x32x163842_S3x163840x1_S4x32x3x163840_01_2_n_n_2_2_4321).siIdx (ix4 b c g e)
        ⟨List.idxOf (2 : Fin 3) (gather_S4x32x163842_S3x163840x1_S4x32x3x163840_01_2_n_n_2_2_4321).startIndexMap,
          List.idxOf_lt_length_iff.2 (List.mem_singleton.mpr rfl)⟩ = ix3 g e (0 : Fin 1) := by
      funext b'; refine Fin.ext ?_
      match b' with
      | ⟨0, _⟩ => rfl
      | ⟨1, _⟩ => rfl
      | ⟨2, _⟩ => rfl
    rw [hsi]
    rfl

/-- The reorder gather at result index (b, c, p): the operand at (b, c, u), u the start index at (p, 0) read signed and
    clamped into [0, 491519]. -/
theorem gatherU_apply {α : Type} {w : Nat} (x : S4x32x491520.Idx → α) (idx : IVec S491520x1 w)
    (b : Fin 4) (c : Fin 32) (p : Fin 491520) :
    Host.gather gather_S4x32x491520_S491520x1_S4x32x491520_01_2_n_n_2_1_4321 x idx (ix3 b c p)
      = x (ix3 b c (clampIdx 491520 (by decide) (idx (ix2 p (0 : Fin 1))))) := by
  unfold Host.gather
  refine congrArg x ?_
  funext a
  refine Fin.ext ?_
  match a with
  | ⟨0, _⟩ =>
    show GatherDims.start _ (ix3 b c p) idx 0 + GatherDims.batchCoord _ (ix3 b c p) 0 + GatherDims.offCoord _ (ix3 b c p) 0 = b.val
    rw [GatherDims.batchCoord_eq_zero _ _ _ List.not_mem_nil]
    unfold GatherDims.start
    rw [dif_neg (by decide)]
    unfold GatherDims.offCoord
    rw [dif_pos (by decide), Nat.zero_add]
    rfl
  | ⟨1, _⟩ =>
    show GatherDims.start _ (ix3 b c p) idx 1 + GatherDims.batchCoord _ (ix3 b c p) 1 + GatherDims.offCoord _ (ix3 b c p) 1 = c.val
    rw [GatherDims.batchCoord_eq_zero _ _ _ List.not_mem_nil]
    unfold GatherDims.start
    rw [dif_neg (by decide)]
    unfold GatherDims.offCoord
    rw [dif_pos (by decide), Nat.zero_add]
    rfl
  | ⟨2, _⟩ =>
    show GatherDims.start _ (ix3 b c p) idx 2 + GatherDims.batchCoord _ (ix3 b c p) 2 + GatherDims.offCoord _ (ix3 b c p) 2
      = min (idx (ix2 p (0 : Fin 1))).toInt.toNat (491520 - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (gather_S4x32x491520_S491520x1_S4x32x491520_01_2_n_n_2_1_4321).startIndexMap from List.mem_singleton.mpr rfl)]
    have hsi : (gather_S4x32x491520_S491520x1_S4x32x491520_01_2_n_n_2_1_4321).siIdx (ix3 b c p)
        ⟨List.idxOf (2 : Fin 3) (gather_S4x32x491520_S491520x1_S4x32x491520_01_2_n_n_2_1_4321).startIndexMap,
          List.idxOf_lt_length_iff.2 (List.mem_singleton.mpr rfl)⟩ = ix2 p (0 : Fin 1) := by
      funext b'; refine Fin.ext ?_
      match b' with
      | ⟨0, _⟩ => rfl
      | ⟨1, _⟩ => rfl
    rw [hsi]
    rfl

/-! ## The start indices: an index word raised by the extent when negative -/

/-- The word the first vertex gather reads at (g, e, 0): endpoint 0 of edge (g, e), raised by 163842 when negative. -/
theorem v21_apply (a1 : IVec S3x163840x2 32) (g : Fin 3) (e : Fin 163840) :
    val_main_v21 (F := Ideal) a1 (ix3 g e (0 : Fin 1))
      = Scalar.select (IntOp.cmpi .slt (a1 (ix3 g e (0 : Fin 2))) 0#32) (IntOp.addi (a1 (ix3 g e (0 : Fin 2))) 163842#32)
          (a1 (ix3 g e (0 : Fin 2))) := by
  have e13 : idx_main_v12 (idx_main_v13 (idx_main_v21 (ix3 g e (0 : Fin 1)))) = ix3 g e (0 : Fin 2) := by
    funext a; refine Fin.ext ?_
    have hg := g.isLt; have he := e.isLt
    match a with
    | ⟨0, _⟩ => show (g.val * 163840 + e.val) / 163840 = g.val; omega
    | ⟨1, _⟩ => show (g.val * 163840 + e.val) / 1 % 163840 = e.val; omega
    | ⟨2, _⟩ => rfl
  rw [val_main_v21_apply, val_main_v20_apply, val_main_v17_apply, val_main_v19_apply, val_main_v13_apply, val_main_v12_apply,
    val_main_v16_apply, val_main_c_apply, val_main_v18_apply, val_main_c_2_apply, e13]

/-- The word the second vertex gather reads at (g, e, 0): endpoint 1 of edge (g, e), raised by 163842 when negative. -/
theorem v28_apply (a1 : IVec S3x163840x2 32) (g : Fin 3) (e : Fin 163840) :
    val_main_v28 (F := Ideal) a1 (ix3 g e (0 : Fin 1))
      = Scalar.select (IntOp.cmpi .slt (a1 (ix3 g e (1 : Fin 2))) 0#32) (IntOp.addi (a1 (ix3 g e (1 : Fin 2))) 163842#32)
          (a1 (ix3 g e (1 : Fin 2))) := by
  have e15 : idx_main_v14 (idx_main_v15 (idx_main_v28 (ix3 g e (0 : Fin 1)))) = ix3 g e (1 : Fin 2) := by
    funext a; refine Fin.ext ?_
    have hg := g.isLt; have he := e.isLt
    match a with
    | ⟨0, _⟩ => show (g.val * 163840 + e.val) / 163840 = g.val; omega
    | ⟨1, _⟩ => show (g.val * 163840 + e.val) / 1 % 163840 = e.val; omega
    | ⟨2, _⟩ => rfl
  rw [val_main_v28_apply, val_main_v27_apply, val_main_v24_apply, val_main_v26_apply, val_main_v15_apply, val_main_v14_apply,
    val_main_v23_apply, val_main_c_3_apply, val_main_v25_apply, val_main_c_4_apply, e15]

/-- The word the reorder gather reads at (p, 0): word p of the reorder table, raised by 491520 when negative. -/
theorem v37_apply (a2 : IVec S491520 32) (p : Fin 491520) :
    val_main_v37 (F := Ideal) a2 (ix2 p (0 : Fin 1))
      = Scalar.select (IntOp.cmpi .slt (a2 (ix1 p)) 0#32) (IntOp.addi (a2 (ix1 p)) 491520#32) (a2 (ix1 p)) := by
  have e37 : idx_main_v37 (ix2 p (0 : Fin 1)) = ix1 p := by
    funext a; refine Fin.ext ?_
    match a with
    | ⟨0, _⟩ => rfl
  rw [val_main_v37_apply, val_main_v36_apply, val_main_v33_apply, val_main_v35_apply, val_main_v32_apply, val_main_c_5_apply,
    val_main_v34_apply, val_main_c_6_apply, e37]

/-! ## The float stages read at an index -/

/-- The gathered array at (b, c, v): the specification's twice-halved sum of the last two channel quarters. -/
theorem v11_apply (x : FVec Ideal S4x128x163842 .f32) (b : Fin 4) (c : Fin 32) (v : Fin 163842) :
    val_main_v11 (F := Ideal) x (ix3 b c v) = Cert.Spec.inp x b c v := by
  have e5 : idx_main_v5 (ix3 b c v) = ix3 b (⟨64 + c.val, by omega⟩ : Fin 128) v := by
    funext a; refine Fin.ext ?_
    match a with
    | ⟨0, _⟩ => rfl
    | ⟨1, _⟩ => rfl
    | ⟨2, _⟩ => rfl
  have e6 : idx_main_v6 (ix3 b c v) = ix3 b (⟨96 + c.val, by omega⟩ : Fin 128) v := by
    funext a; refine Fin.ext ?_
    match a with
    | ⟨0, _⟩ => rfl
    | ⟨1, _⟩ => rfl
    | ⟨2, _⟩ => rfl
  rw [val_main_v11_apply, val_main_v9_apply, val_main_v7_apply, val_main_v5_apply, val_main_v6_apply, val_main_v8_apply,
    val_main_cst_0_apply, val_main_v10_apply, val_main_cst_1_apply, e5, e6]
  rfl

/-- The first piece at (b, c, v): the sum of the first two channel quarters, halved. -/
theorem v4_apply (x : FVec Ideal S4x128x163842 .f32) (b : Fin 4) (c : Fin 32) (v : Fin 163842) :
    val_main_v4 (F := Ideal) x (ix3 b c v)
      = (x (ix3 b (⟨c.val, by omega⟩ : Fin 128) v) + x (ix3 b (⟨32 + c.val, by omega⟩ : Fin 128) v)) * Cert.Spec.half := by
  have e0 : idx_main_v0 (ix3 b c v) = ix3 b (⟨c.val, by omega⟩ : Fin 128) v := by
    funext a; refine Fin.ext ?_
    match a with
    | ⟨0, _⟩ => rfl
    | ⟨1, _⟩ => rfl
    | ⟨2, _⟩ => rfl
  have e1 : idx_main_v1 (ix3 b c v) = ix3 b (⟨32 + c.val, by omega⟩ : Fin 128) v := by
    funext a; refine Fin.ext ?_
    match a with
    | ⟨0, _⟩ => rfl
    | ⟨1, _⟩ => rfl
    | ⟨2, _⟩ => rfl
  rw [val_main_v4_apply, val_main_v2_apply, val_main_v0_apply, val_main_v1_apply, val_main_v3_apply, val_main_cst_apply, e0, e1]
  rfl

/-- The reshaped sum of the two vertex gathers at (b, c, q): the two gathers at (b, c, q / 163840, q % 163840). -/
theorem v31_apply (x : FVec Ideal S4x128x163842 .f32) (a1 : IVec S3x163840x2 32) (b : Fin 4) (c : Fin 32) (q : Fin 491520) :
    val_main_v31 (F := Ideal) x a1 (ix3 b c q)
      = val_main_v22 (F := Ideal) x a1 (ix4 b c (⟨q.val / 163840, by omega⟩ : Fin 3) (⟨q.val % 163840, by omega⟩ : Fin 163840))
        + val_main_v29 (F := Ideal) x a1 (ix4 b c (⟨q.val / 163840, by omega⟩ : Fin 3) (⟨q.val % 163840, by omega⟩ : Fin 163840)) := by
  have e31 : idx_main_v31 (ix3 b c q)
      = ix4 b c (⟨q.val / 163840, by omega⟩ : Fin 3) (⟨q.val % 163840, by omega⟩ : Fin 163840) := by
    funext a; refine Fin.ext ?_
    have hb := b.isLt; have hc := c.isLt; have hq := q.isLt
    match a with
    | ⟨0, _⟩ => show ((b.val * 32 + c.val) * 491520 + q.val) / 15728640 = b.val; omega
    | ⟨1, _⟩ => show ((b.val * 32 + c.val) * 491520 + q.val) / 491520 % 32 = c.val; omega
    | ⟨2, _⟩ => show ((b.val * 32 + c.val) * 491520 + q.val) / 163840 % 3 = q.val / 163840; omega
    | ⟨3, _⟩ => show ((b.val * 32 + c.val) * 491520 + q.val) % 163840 = q.val % 163840; omega
  rw [val_main_v31_apply, val_main_v30_apply, e31]
  rfl

/-! ## The specification's reading of an index word is the gather's -/

/-- Endpoint e of edge k, as the specification reads it, is the gather's clamp of the raised word. -/
theorem vsrc_eq (a1 : IVec S3x163840x2 32) (e : Fin 2) (k : Fin 491520) :
    clampIdx 163842 (by decide)
        (Scalar.select (IntOp.cmpi .slt (a1 (ix3 (⟨k.val / 163840, by omega⟩ : Fin 3) (⟨k.val % 163840, by omega⟩ : Fin 163840) e)) 0#32)
          (IntOp.addi (a1 (ix3 (⟨k.val / 163840, by omega⟩ : Fin 3) (⟨k.val % 163840, by omega⟩ : Fin 163840) e)) 163842#32)
          (a1 (ix3 (⟨k.val / 163840, by omega⟩ : Fin 3) (⟨k.val % 163840, by omega⟩ : Fin 163840) e)))
      = Cert.Spec.vsrc a1 e k := rfl

/-- The edge number at output position p, as the specification reads it, is the gather's clamp of the raised word. -/
theorem usrc_eq (a2 : IVec S491520 32) (p : Fin 491520) :
    clampIdx 491520 (by decide)
        (Scalar.select (IntOp.cmpi .slt (a2 (ix1 p)) 0#32) (IntOp.addi (a2 (ix1 p)) 491520#32) (a2 (ix1 p)))
      = Cert.Spec.usrc a2 p := rfl

/-! ## The second piece -/

/-- The second piece at (b, c, p): the sum of the two gathered vertices of edge u(p). -/
theorem v38_apply (x : FVec Ideal S4x128x163842 .f32) (a1 : IVec S3x163840x2 32) (a2 : IVec S491520 32)
    (b : Fin 4) (c : Fin 32) (p : Fin 491520) :
    val_main_v38 (F := Ideal) x a1 a2 (ix3 b c p)
      = Cert.Spec.inp x b c (Cert.Spec.vsrc a1 0 (Cert.Spec.usrc a2 p))
        + Cert.Spec.inp x b c (Cert.Spec.vsrc a1 1 (Cert.Spec.usrc a2 p)) := by
  unfold val_main_v38
  rw [gatherU_apply, v37_apply, usrc_eq, v31_apply]
  unfold val_main_v22 val_main_v29
  rw [gatherV_apply, gatherV_apply, v21_apply, v28_apply, vsrc_eq, vsrc_eq, v11_apply, v11_apply]

/-! ## The specification on each side of the joint -/

/-- Before the joint the specification is the halved sum of the first two channel quarters. -/
theorem G_lt (x : FVec Ideal S4x128x163842 .f32) (a1 : IVec S3x163840x2 32) (a2 : IVec S491520 32)
    (b : Fin 4) (c : Fin 32) (k : Fin 655362) (h : k.val < 163842) :
    Cert.Spec.G x a1 a2 (ix3 b c k)
      = (x (ix3 b (⟨c.val, by omega⟩ : Fin 128) (⟨k.val, h⟩ : Fin 163842))
          + x (ix3 b (⟨32 + c.val, by omega⟩ : Fin 128) (⟨k.val, h⟩ : Fin 163842))) * Cert.Spec.half := by
  unfold Cert.Spec.G
  exact dif_pos h

/-- From the joint on the specification is the sum of the two gathered vertices of the edge the reorder table names. -/
theorem G_ge (x : FVec Ideal S4x128x163842 .f32) (a1 : IVec S3x163840x2 32) (a2 : IVec S491520 32)
    (b : Fin 4) (c : Fin 32) (k : Fin 655362) (h : ¬ k.val < 163842) :
    Cert.Spec.G x a1 a2 (ix3 b c k)
      = Cert.Spec.inp x b c (Cert.Spec.vsrc a1 0 (Cert.Spec.usrc a2 (⟨k.val - 163842, by omega⟩ : Fin 491520)))
        + Cert.Spec.inp x b c (Cert.Spec.vsrc a1 1 (Cert.Spec.usrc a2 (⟨k.val - 163842, by omega⟩ : Fin 491520))) := by
  unfold Cert.Spec.G
  exact dif_neg h

/-! ## The concatenation, piece by piece -/

/-- The first 163842 positions of the last axis. -/
theorem ref_eq_G_first (x : FVec Ideal S4x128x163842 .f32) (a1 : IVec S3x163840x2 32) (a2 : IVec S491520 32)
    (b : Fin 4) (c : Fin 32) (k : Fin 655362) (h : k.val < 163842) :
    val_main_v39 (F := Ideal) x a1 a2 (ix3 b c k) = Cert.Spec.G x a1 a2 (ix3 b c k) := by
  unfold val_main_v39
  rw [concatenate_pair_apply_left (t := S4x32x655362) (s₁ := S4x32x163842) (s₂ := S4x32x491520) (2 : Fin 3)
    (val_main_v4 (F := Ideal) x) (val_main_v38 (F := Ideal) x a1 a2)
    concatenates_S4x32x163842_S4x32x491520_S4x32x655362_d2 (ix3 b c k) rfl
    (ix3 b c (⟨k.val, h⟩ : Fin 163842)) (fun a => by
      match a with
      | ⟨0, _⟩ => rfl
      | ⟨1, _⟩ => rfl
      | ⟨2, _⟩ => rfl)]
  rw [v4_apply, G_lt x a1 a2 b c k h]

/-- The remaining 491520 positions of the last axis. -/
theorem ref_eq_G_rest (x : FVec Ideal S4x128x163842 .f32) (a1 : IVec S3x163840x2 32) (a2 : IVec S491520 32)
    (b : Fin 4) (c : Fin 32) (k : Fin 655362) (h : ¬ k.val < 163842) :
    val_main_v39 (F := Ideal) x a1 a2 (ix3 b c k) = Cert.Spec.G x a1 a2 (ix3 b c k) := by
  unfold val_main_v39
  rw [concatenate_pair_apply_right (t := S4x32x655362) (s₁ := S4x32x163842) (s₂ := S4x32x491520) (2 : Fin 3)
    (val_main_v4 (F := Ideal) x) (val_main_v38 (F := Ideal) x a1 a2)
    concatenates_S4x32x163842_S4x32x491520_S4x32x655362_d2 (ix3 b c k) rfl rfl
    (ix3 b c (⟨k.val - 163842, by omega⟩ : Fin 491520)) (fun a => by
      match a with
      | ⟨0, _⟩ => exact fun _ => rfl
      | ⟨1, _⟩ => exact fun _ => rfl
      | ⟨2, _⟩ => exact fun hne => absurd rfl hne)
    (by show (k.val - 163842) + 163842 = k.val; omega)]
  rw [v38_apply, G_ge x a1 a2 b c k h]

/-! ## The reference is the specification -/

/-- The reference's last stage, as a function of the three arguments, is the specification's G. -/
theorem ref_eq_G (x : FVec Ideal S4x128x163842 .f32) (a1 : IVec S3x163840x2 32) (a2 : IVec S491520 32) :
    Cert.ReferenceIdeal.Read.val_main_v39 (F := Ideal) x a1 a2 = Cert.Spec.G x a1 a2 := by
  funext i
  obtain ⟨b, c, k, rfl⟩ : ∃ (b : Fin 4) (c : Fin 32) (k : Fin 655362), i = ix3 b c k := ⟨i 0, i 1, i 2, eq_ix3 i⟩
  by_cases h : k.val < 163842
  · exact ref_eq_G_first x a1 a2 b c k h
  · exact ref_eq_G_rest x a1 a2 b c k h

end Cert.ReferenceIdeal.RefValue

end
-- ==== Proof.Kernel.RunCond.lean ====
/- The run of the seventeen-region program with its result buffer read off the last valuation: the statement of the
   conditional frame extended by one conjunct for the result. The valuations between the items, the host segments and the
   segment list are those of the conditional-frame module; the final state is read against the last valuation at every
   unscoped buffer, so the result's conjunct is read exactly as the arguments' are. -/
import proofs.«175043_j76819785056407_2_alg».proof.Proof.Kernel.RegionsP

set_option maxRecDepth 65536

noncomputable section

namespace Cert.Kernel.GenP

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The conditional run with the result named: under the same hypotheses as the conditional frame (one segment record per
    region, entered from and left at the valuations between the items), every weakly fair execution of @main terminates and the
    final memory holds, beside each argument as launched, the result buffer at the last valuation's contents — the last host
    operation's value over what the regions left. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 17) → (pcfgs (F := F) p).Adm)
    (pdats : (p : Fin 17) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 18 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE17 : ∀ c : Dev nD, E 17 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V8 m outs c) ∗ E 4 c) ⊢ R4.pre c)
    (hpost4 : ∀ c : Dev nD, R4.post c ⊢ iprop(StableHlo.held (c : Thread nD τ) (Pipeline.ucRefs τ sig) (V9 m outs c) ∗ E 5 c))
    (R5 : RegionSeg (pcfgs (F := F)) a pdats ι defs₀ 𝒱₀ L lv 5)
    (hpre5 : ∀ c : Dev nD, iprop(StableHlo.held (c : Thread nD τ) (Pipeline.ucRefs τ sig) (V10 m outs c) ∗ E 5 c) ⊢ R5.pre c)
    (hpost5 : ∀ c : Dev nD, R5.post c ⊢ iprop(StableHlo.held (c : Thread nD τ) (Pipeline.ucRefs τ sig) (V11 m outs c) ∗ E 6 c))
    (R6 : RegionSeg (pcfgs (F := F)) a pdats ι defs₀ 𝒱₀ L lv 6)
    (hpre6 : ∀ c : Dev nD, iprop(StableHlo.held (c : Thread nD τ) (Pipeline.ucRefs τ sig) (V12 m outs c) ∗ E 6 c) ⊢ R6.pre c)
    (hpost6 : ∀ c : Dev nD, R6.post c ⊢ iprop(StableHlo.held (c : Thread nD τ) (Pipeline.ucRefs τ sig) (V13 m outs c) ∗ E 7 c))
    (R7 : RegionSeg (pcfgs (F := F)) a pdats ι defs₀ 𝒱₀ L lv 7)
    (hpre7 : ∀ c : Dev nD, iprop(StableHlo.held (c : Thread nD τ) (Pipeline.ucRefs τ sig) (V14 m outs c) ∗ E 7 c) ⊢ R7.pre c)
    (hpost7 : ∀ c : Dev nD, R7.post c ⊢ iprop(StableHlo.held (c : Thread nD τ) (Pipeline.ucRefs τ sig) (V15 m outs c) ∗ E 8 c))
    (R8 : RegionSeg (pcfgs (F := F)) a pdats ι defs₀ 𝒱₀ L lv 8)
    (hpre8 : ∀ c : Dev nD, iprop(StableHlo.held (c : Thread nD τ) (Pipeline.ucRefs τ sig) (V16 m outs c) ∗ E 8 c) ⊢ R8.pre c)
    (hpost8 : ∀ c : Dev nD, R8.post c ⊢ iprop(StableHlo.held (c : Thread nD τ) (Pipeline.ucRefs τ sig) (V17 m outs c) ∗ E 9 c))
    (R9 : RegionSeg (pcfgs (F := F)) a pdats ι defs₀ 𝒱₀ L lv 9)
    (hpre9 : ∀ c : Dev nD, iprop(StableHlo.held (c : Thread nD τ) (Pipeline.ucRefs τ sig) (V18 m outs c) ∗ E 9 c) ⊢ R9.pre c)
    (hpost9 : ∀ c : Dev nD, R9.post c ⊢ iprop(StableHlo.held (c : Thread nD τ) (Pipeline.ucRefs τ sig) (V19 m outs c) ∗ E 10 c))
    (R10 : RegionSeg (pcfgs (F := F)) a pdats ι defs₀ 𝒱₀ L lv 10)
    (hpre10 : ∀ c : Dev nD, iprop(StableHlo.held (c : Thread nD τ) (Pipeline.ucRefs τ sig) (V20 m outs c) ∗ E 10 c) ⊢ R10.pre c)
    (hpost10 : ∀ c : Dev nD, R10.post c ⊢ iprop(StableHlo.held (c : Thread nD τ) (Pipeline.ucRefs τ sig) (V21 m outs c) ∗ E 11 c))
    (R11 : RegionSeg (pcfgs (F := F)) a pdats ι defs₀ 𝒱₀ L lv 11)
    (hpre11 : ∀ c : Dev nD, iprop(StableHlo.held (c : Thread nD τ) (Pipeline.ucRefs τ sig) (V22 m outs c) ∗ E 11 c) ⊢ R11.pre c)
    (hpost11 : ∀ c : Dev nD, R11.post c ⊢ iprop(StableHlo.held (c : Thread nD τ) (Pipeline.ucRefs τ sig) (V23 m outs c) ∗ E 12 c))
    (R12 : RegionSeg (pcfgs (F := F)) a pdats ι defs₀ 𝒱₀ L lv 12)
    (hpre12 : ∀ c : Dev nD, iprop(StableHlo.held (c : Thread nD τ) (Pipeline.ucRefs τ sig) (V24 m outs c) ∗ E 12 c) ⊢ R12.pre c)
    (hpost12 : ∀ c : Dev nD, R12.post c ⊢ iprop(StableHlo.held (c : Thread nD τ) (Pipeline.ucRefs τ sig) (V25 m outs c) ∗ E 13 c))
    (R13 : RegionSeg (pcfgs (F := F)) a pdats ι defs₀ 𝒱₀ L lv 13)
    (hpre13 : ∀ c : Dev nD, iprop(StableHlo.held (c : Thread nD τ) (Pipeline.ucRefs τ sig) (V26 m outs c) ∗ E 13 c) ⊢ R13.pre c)
    (hpost13 : ∀ c : Dev nD, R13.post c ⊢ iprop(StableHlo.held (c : Thread nD τ) (Pipeline.ucRefs τ sig) (V27 m outs c) ∗ E 14 c))
    (R14 : RegionSeg (pcfgs (F := F)) a pdats ι defs₀ 𝒱₀ L lv 14)
    (hpre14 : ∀ c : Dev nD, iprop(StableHlo.held (c : Thread nD τ) (Pipeline.ucRefs τ sig) (V28 m outs c) ∗ E 14 c) ⊢ R14.pre c)
    (hpost14 : ∀ c : Dev nD, R14.post c ⊢ iprop(StableHlo.held (c : Thread nD τ) (Pipeline.ucRefs τ sig) (V29 m outs c) ∗ E 15 c))
    (R15 : RegionSeg (pcfgs (F := F)) a pdats ι defs₀ 𝒱₀ L lv 15)
    (hpre15 : ∀ c : Dev nD, iprop(StableHlo.held (c : Thread nD τ) (Pipeline.ucRefs τ sig) (V30 m outs c) ∗ E 15 c) ⊢ R15.pre c)
    (hpost15 : ∀ c : Dev nD, R15.post c ⊢ iprop(StableHlo.held (c : Thread nD τ) (Pipeline.ucRefs τ sig) (V31 m outs c) ∗ E 16 c))
    (R16 : RegionSeg (pcfgs (F := F)) a pdats ι defs₀ 𝒱₀ L lv 16)
    (hpre16 : ∀ c : Dev nD, iprop(StableHlo.held (c : Thread nD τ) (Pipeline.ucRefs τ sig) (V32 m outs c) ∗ E 16 c) ⊢ R16.pre c)
    (hpost16 : ∀ c : Dev nD, R16.post c ⊢ iprop(StableHlo.held (c : Thread nD τ) (Pipeline.ucRefs τ sig) (V33 m outs c) ∗ E 17 c)) :
    θ_run defs (onTc (τ := τ) (main (F := F))) ⟨m, fun _ => 0, ρ⟩ (fun r => ∀ c : Dev nD,
      r.2.mem ((c.tc : Thread nD τ).loc main_v84) = V34 m outs c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) a pdats ι (cellOf_inj a) EP defs₀ 𝒱₀ L lv m ρ main
    (segs m outs 𝒱₀ L lv E ι a pdats R0 R1 R2 R3 R4 R5 R6 R7 R8 R9 R10 R11 R12 R13 R14 R15 R16)
    (fun c Q => by
      rewrite [main_chain c, Seg.run_eq_chain,
        show (segs m outs 𝒱₀ L lv E ι a pdats R0 R1 R2 R3 R4 R5 R6 R7 R8 R9 R10 R11 R12 R13 R14 R15 R16 c).map Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V34 m outs c))
    (hch := fun c => ⟨hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, hpre14 c, hpost14 c, hpre15 c, hpost15 c, hpre16 c, hpost16 c, sep_mono .rfl (hE17 c)⟩)
    (hinit := ?_) (QY := fun c s => s.mem ((c.tc : Thread nD τ).loc main_v84) = V34 m outs c main_v84 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V34 m outs c) s') $$ [Hh HSI]
    · isplitl [Hh] <;> iassumption
    icases Hr with ⟨%h, HSI⟩
    imodintro
    isplitr
    · ipureintro
      exact ⟨h (Proc.devRef .tc main_v84) (Finset.mem_filter.mpr ⟨StableHlo.devRef_mem_tcRefs main_v84, by decide⟩),
        (h (Proc.devRef .tc main_arg0) (Finset.mem_filter.mpr ⟨StableHlo.devRef_mem_tcRefs main_arg0, by decide⟩)).trans (V34_main_arg0 m outs c),
        (h (Proc.devRef .tc main_arg1) (Finset.mem_filter.mpr ⟨StableHlo.devRef_mem_tcRefs main_arg1, by decide⟩)).trans (V34_main_arg1 m outs c),
        (h (Proc.devRef .tc main_arg2) (Finset.mem_filter.mpr ⟨StableHlo.devRef_mem_tcRefs main_arg2, by decide⟩)).trans (V34_main_arg2 m outs c)⟩
    · iexact HSI

end Cert.Kernel.GenP

end
-- ==== Proof.Kernel.R0.lean ====
/- The first region of the program: its proof data and body obligation. -/
import proofs.«175043_j76819785056407_2_alg».proof.Proof.Gen.Kernel.Launch
import proofs.«175043_j76819785056407_2_alg».proof.Proof.Gen.Kernel.Skeleton
import proofs.«175043_j76819785056407_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The averaging region (custom_call 0): each grid point reads a 4×128×2048 block of the input, cut at the array's end on
    its long axis, and writes two blocks: the half-sum of its channel slices 0‥31 and 32‥63, laid as 4×32×2048, and the
    quarter-sum of its channel slices 64‥95 and 96‥127, re-laid as 128×2048 and transposed to 2048×128. Stated at the
    contents `V` the region is entered from. -/

/-- The four channel slices of the input block the body loads, and the two whole output blocks it stores. -/
abbrev r0_a : Rect S4x128x2048 := Rect.unit (s := S4x128x2048) ![0, 0, 0] S4x32x2048.size inb_S4x128x2048_S4x32x2048_0_0_0
abbrev r0_b : Rect S4x128x2048 := Rect.unit (s := S4x128x2048) ![0, 32, 0] S4x32x2048.size inb_S4x128x2048_S4x32x2048_0_32_0
abbrev r0_c : Rect S4x128x2048 := Rect.unit (s := S4x128x2048) ![0, 64, 0] S4x32x2048.size inb_S4x128x2048_S4x32x2048_0_64_0
abbrev r0_d : Rect S4x128x2048 := Rect.unit (s := S4x128x2048) ![0, 96, 0] S4x32x2048.size inb_S4x128x2048_S4x32x2048_0_96_0
abbrev r0_o1 : Rect S4x32x2048 := Rect.unit (s := S4x32x2048) ![0, 0, 0] S4x32x2048.size inb_S4x32x2048_S4x32x2048_0_0_0
abbrev r0_o2 : Rect S2048x128 := Rect.unit (s := S2048x128) ![0, 0] S2048x128.size inb_S2048x128_S2048x128_0_0

/-- The first output block after the body, from the whole input block `X`. -/
def out0_1 (X : Vec F S4x128x2048 .f32) : Vec F S4x32x2048 .f32 :=
  View.canon [⟨r0_o1, k0_pay1 (View.ld X r0_a) (View.ld X r0_b)⟩]
/-- The second. -/
def out0_2 (X : Vec F S4x128x2048 .f32) : Vec F S2048x128 .f32 :=
  View.canon [⟨r0_o2, k0_pay2 (View.ld X r0_c) (View.ld X r0_d)⟩]

theorem cover0_1 (p0 : Vec F S4x32x2048 .f32) (y : S4x32x2048.Idx) :
    ∃ pc ∈ ([⟨r0_o1, p0⟩] : List (View.Piece (Elt F) S4x32x2048 .f32)), y ∈ pc.1.set :=
  View.cover_of_tiled [⟨r0_o1, p0⟩] S4x32x2048.size (by rfl) y
theorem cover0_2 (p0 : Vec F S2048x128 .f32) (y : S2048x128.Idx) :
    ∃ pc ∈ ([⟨r0_o2, p0⟩] : List (View.Piece (Elt F) S2048x128 .f32)), y ∈ pc.1.set :=
  View.cover_of_tiled [⟨r0_o2, p0⟩] S2048x128.size (by rfl) y

set_option maxHeartbeats 1000000 in
/-- The body on whole staging memrefs: the input stays; the outputs end at the two payloads of its slices. -/
theorem sound_kernel0 (c : Dev nD) (E : Set ℕ) (i : grid0.Coords)
    (arg1 : Memref sig .tc .vmem S4x128x2048 .f32) (harg1 : arg1.IsWhole) (arg2 : Memref sig .tc .vmem S4x32x2048 .f32) (harg2 : arg2.IsWhole)
    (arg3 : Memref sig .tc .vmem S2048x128 .f32) (harg3 : arg3.IsWhole)
    (X : Vec F S4x128x2048 .f32) (K : PUnit → sProp 𝕄) :
    iprop(owns (c : Thread nD τ) arg1 fullShare X ∗ (∃ d, owns (c : Thread nD τ) arg2 fullShare d) ∗ (∃ d, owns (c : Thread nD τ) arg3 fullShare d)
        ∗ (iprop(owns (c : Thread nD τ) arg1 fullShare X ∗ owns (c : Thread nD τ) arg2 fullShare (out0_1 X)
            ∗ owns (c : Thread nD τ) arg3 fullShare (out0_2 X)) -∗ K ⟨⟩))
      ⊢ wp frame (wpE (defs₀ (F := F)) Variants.none c none) E (cc0__kernel_a i arg1 harg1 arg2 harg2 arg3 harg3) K := by
  simp only [cc0__kernel_a_eq_skeleton]; unfold cc0__kernel_a_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The two payloads read at an index -/

/-- The first payload at an index: half the sum of the two operands there. -/
theorem pay1_apply (v0 v1 : Vec F S4x32x2048 .f32) (j : S4x32x2048.Idx) :
    k0_pay1 v0 v1 j = FloatOps.mulf (FloatOps.addf (v0 j) (v1 j)) (Scalar.ofBits .f32 0x3F000000#32) := rfl

/-- Where the second payload reads its operands from: output row `n`, column `q` comes from batch `q / 32`, channel
    `q % 32`, position `n` (the 4×32×2048 operand re-laid as 128×2048 and transposed). -/
def src0_2 (y : S2048x128.Idx) : S4x32x2048.Idx :=
  ValueIdx.ix3 (⟨(y 1).val / 32, by have := (y 1).isLt; show _ < 4; change (y 1).val < 128 at this; omega⟩ : Fin 4)
    (⟨(y 1).val % 32, Nat.mod_lt _ (by decide)⟩ : Fin 32) (⟨(y 0).val, (y 0).isLt⟩ : Fin 2048)

/-- The second payload at an index: a quarter of the sum of the two operands at the source index. -/
theorem pay2_apply (v2 v3 : Vec F S4x32x2048 .f32) (y : S2048x128.Idx) :
    k0_pay2 v2 v3 y = FloatOps.mulf (FloatOps.addf (v2 (src0_2 y)) (v3 (src0_2 y))) (Scalar.ofBits .f32 0x3E800000#32) := by
  unfold k0_pay2
  rw [transpose_apply [1, 0] _ transposes_S128x2048_p1_0_S2048x128 y
      (ValueIdx.ix2 (⟨(y 1).val, (y 1).isLt⟩ : Fin 128) (⟨(y 0).val, (y 0).isLt⟩ : Fin 2048))
      (fun b => match b with | ⟨0, _⟩ => rfl | ⟨1, _⟩ => rfl)]
  rw [shapeCast_apply _ shapeCasts_S4x32x2048_S128x2048 _ (src0_2 y) (by
    rw [Shape.rowMajor_val_three, Shape.rowMajor_val_two]
    show ((y 1).val / 32 * 32 + (y 1).val % 32) * 2048 + (y 0).val = (y 1).val * 2048 + (y 0).val
    rw [Nat.div_add_mod' (y 1).val 32])]
  rfl

/-! ## The two output blocks read at an index -/

theorem hz0_3 : (![0, 0, 0] : Fin 3 → Nat) = fun _ => 0 := funext fun a => by fin_cases a <;> rfl
theorem hz0_2 : (![0, 0] : Fin 2 → Nat) = fun _ => 0 := funext fun a => by fin_cases a <;> rfl

theorem out0_1_apply (X : Vec F S4x128x2048 .f32) (y : S4x32x2048.Idx) :
    out0_1 X y = FloatOps.mulf (FloatOps.addf (X (r0_a.emb y)) (X (r0_b.emb y))) (Scalar.ofBits .f32 0x3F000000#32) := by
  unfold out0_1; rw [View.canon_unit_zero hz0_3]; rfl

theorem out0_2_apply (X : Vec F S4x128x2048 .f32) (y : S2048x128.Idx) :
    out0_2 X y = FloatOps.mulf (FloatOps.addf (X (r0_c.emb (src0_2 y))) (X (r0_d.emb (src0_2 y)))) (Scalar.ofBits .f32 0x3E800000#32) := by
  unfold out0_2; rw [View.canon_unit_zero hz0_2, pay2_apply]; rfl

/-! ## What the three transfers move

All three windows are cut at the array's end on their long axis only — the input's and the first output's axis 2, the second
output's axis 0 —, and alike: at every grid point the three cuts leave the same number of positions. -/

theorem xs0_0_0 (i : grid0.Coords) : win0_0.xsize i 0 = 4 := rfl
theorem xs0_0_1 (i : grid0.Coords) : win0_0.xsize i 1 = 128 := rfl
theorem xs0_1_0 (i : grid0.Coords) : win0_1.xsize i 0 = 4 := rfl
theorem xs0_1_1 (i : grid0.Coords) : win0_1.xsize i 1 = 32 := rfl
theorem xs0_1_2 (i : grid0.Coords) : win0_1.xsize i 2 = win0_0.xsize i 2 := rfl
theorem xs0_2_0 (i : grid0.Coords) : win0_2.xsize i 0 = win0_0.xsize i 2 := rfl
theorem xs0_2_1 (i : grid0.Coords) : win0_2.xsize i 1 = 128 := rfl

/-- Where a transfer moves the block, what the filled block holds does not depend on the filler. -/
theorem fill_eq_of_moved {G : Pipeline.Grid} (w : Window sig G) {α : Type} (i : G.Coords) (d d' : w.block.Idx → α)
    (g : (w.xblock i).Idx → α) {k : w.block.Idx} (h : w.moved i k = true) : w.fill i d g k = w.fill i d' g k := by
  unfold Window.fill; rw [dif_pos h, dif_pos h]

/-- An index the first output's transfer moves reads the input, through either of its two slices, where the input's
    transfer moved it: the slices keep the long axis's position. -/
theorem moved0_a (i : grid0.Coords) (j : (win0_1.xblock i).Idx) : win0_0.moved i (r0_a.emb (win0_1.xinj i j)) = true :=
  (win0_0.moved_iff i _).mpr (show ∀ a : Fin 3, _ from fun a => match a with
    | ⟨0, _⟩ => by have h : (j 0).val < 4 := (j 0).isLt; show 0 + 1 * (j 0).val < 4; omega
    | ⟨1, _⟩ => by have h : (j 1).val < 32 := (j 1).isLt; show 0 + 1 * (j 1).val < 128; omega
    | ⟨2, _⟩ => by have h : (j 2).val < win0_0.xsize i 2 := (j 2).isLt; show 0 + 1 * (j 2).val < win0_0.xsize i 2; omega)
theorem moved0_b (i : grid0.Coords) (j : (win0_1.xblock i).Idx) : win0_0.moved i (r0_b.emb (win0_1.xinj i j)) = true :=
  (win0_0.moved_iff i _).mpr (show ∀ a : Fin 3, _ from fun a => match a with
    | ⟨0, _⟩ => by have h : (j 0).val < 4 := (j 0).isLt; show 0 + 1 * (j 0).val < 4; omega
    | ⟨1, _⟩ => by have h : (j 1).val < 32 := (j 1).isLt; show 32 + 1 * (j 1).val < 128; omega
    | ⟨2, _⟩ => by have h : (j 2).val < win0_0.xsize i 2 := (j 2).isLt; show 0 + 1 * (j 2).val < win0_0.xsize i 2; omega)
/-- An index the second output's transfer moves likewise: its row is the long axis's position. -/
theorem moved0_c (i : grid0.Coords) (j : (win0_2.xblock i).Idx) : win0_0.moved i (r0_c.emb (src0_2 (win0_2.xinj i j))) = true :=
  (win0_0.moved_iff i _).mpr (show ∀ a : Fin 3, _ from fun a => match a with
    | ⟨0, _⟩ => by have h : (j 1).val < 128 := (j 1).isLt; show 0 + 1 * ((j 1).val / 32) < 4; omega
    | ⟨1, _⟩ => by have h : (j 1).val < 128 := (j 1).isLt; show 64 + 1 * ((j 1).val % 32) < 128; omega
    | ⟨2, _⟩ => by have h : (j 0).val < win0_0.xsize i 2 := (j 0).isLt; show 0 + 1 * (j 0).val < win0_0.xsize i 2; omega)
theorem moved0_d (i : grid0.Coords) (j : (win0_2.xblock i).Idx) : win0_0.moved i (r0_d.emb (src0_2 (win0_2.xinj i j))) = true :=
  (win0_0.moved_iff i _).mpr (show ∀ a : Fin 3, _ from fun a => match a with
    | ⟨0, _⟩ => by have h : (j 1).val < 128 := (j 1).isLt; show 0 + 1 * ((j 1).val / 32) < 4; omega
    | ⟨1, _⟩ => by have h : (j 1).val < 128 := (j 1).isLt; show 96 + 1 * ((j 1).val % 32) < 128; omega
    | ⟨2, _⟩ => by have h : (j 0).val < win0_0.xsize i 2 := (j 0).isLt; show 0 + 1 * (j 0).val < win0_0.xsize i 2; omega)

/-- So the part of each output block its transfer moves is a function of the part of the input block the fetch moved:
    whatever filled the input block past the array's end does not reach it. -/
theorem cut0_1 (i : grid0.Coords) (d d' : S4x128x2048.Idx → Elt F .f32) (g : (win0_0.xblock i).Idx → Elt F .f32) :
    win0_1.cut i (out0_1 (win0_0.fill i d g)) = win0_1.cut i (out0_1 (win0_0.fill i d' g)) := by
  funext j
  have ea := fill_eq_of_moved win0_0 i d d' g (moved0_a i j)
  have eb := fill_eq_of_moved win0_0 i d d' g (moved0_b i j)
  show out0_1 _ (win0_1.xinj i j) = out0_1 _ (win0_1.xinj i j)
  rw [out0_1_apply, out0_1_apply, ea, eb]
theorem cut0_2 (i : grid0.Coords) (d d' : S4x128x2048.Idx → Elt F .f32) (g : (win0_0.xblock i).Idx → Elt F .f32) :
    win0_2.cut i (out0_2 (win0_0.fill i d g)) = win0_2.cut i (out0_2 (win0_0.fill i d' g)) := by
  funext j
  have ec := fill_eq_of_moved win0_0 i d d' g (moved0_c i j)
  have ed := fill_eq_of_moved win0_0 i d d' g (moved0_d i j)
  show out0_2 _ (win0_2.xinj i j) = out0_2 _ (win0_2.xinj i j)
  rw [out0_2_apply, out0_2_apply, ec, ed]

section
variable (V : (c : Dev nD) → (b : Ref sig .tc) → Buf (Elt F) ((c : Thread nD τ).loc b))

/-- Window `w`'s block at point `t`, its part inside the array, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole input block as the proof names it after the body at point `t`: the block's part inside the array, and past the
    array's end the zero word — a choice nothing reads: every window is loose, and the outputs' moved parts do not depend
    on it (`cut0_1`, `cut0_2`). -/
def xin0 (c : Dev nD) (t : Fin cfg0.N) : Vec F S4x128x2048 .f32 :=
  win0_0.fill (grid0.coords t) (fun _ => Scalar.ofBits .f32 0#32) (iblk0 V c 0 t)

/-- The region's proof data on core `c`: the arrays as the region finds them; after the body the input's buffer at its
    block and the two outputs' at the two payloads of it (each stated, by the loose obligation, on the part its transfer
    moves); the invariant carries the scoped rest; full shares; nothing owed. -/
def dat0 (c : Dev nD) : Dat τ (Elt F) Unit ℕ (UR sig nD τ) ℕ cfg0 c where
  A w := V c (Pipeline.arrRef spec0 w)
  after w t := match w with
    | ⟨0, _⟩ => xin0 V c t
    | ⟨1, _⟩ => out0_1 (xin0 V c t)
    | ⟨2, _⟩ => out0_2 (xin0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = xin0 V c t := by dsimp only [dat0]
theorem after0_1 (c : Dev nD) (t : Fin cfg0.N) : (dat0 V c).after 1 t = out0_1 (xin0 V c t) := by dsimp only [dat0]
theorem after0_2 (c : Dev nD) (t : Fin cfg0.N) : (dat0 V c).after 2 t = out0_2 (xin0 V c t) := by dsimp only [dat0]

/-- What the body finds: the input's buffer just fetched — its block on the part inside the array, `d` elsewhere —, -/
theorem before0_0 (c : Dev nD) (t : Fin cfg0.N) (d) :
    (dat0 V c).before 0 t d = win0_0.fill (grid0.coords t) d (iblk0 V c 0 t) := by
  rw [Dat.before_fetched _ 0 t (fetch0_0 t)]; rfl
/-- and each output's buffer at contents nothing names: it was written back at the point before. -/
theorem before0_1 (c : Dev nD) (t : Fin cfg0.N) (d) : (dat0 V c).before 1 t d = d :=
  Dat.before_out_reset _ 1 rfl t (by
    by_cases h0 : t.val = 0
    · exact .inl h0
    · exact .inr ⟨h0, flush0_1 _⟩) d
theorem before0_2 (c : Dev nD) (t : Fin cfg0.N) (d) : (dat0 V c).before 2 t d = d :=
  Dat.before_out_reset _ 2 rfl t (by
    by_cases h0 : t.val = 0
    · exact .inl h0
    · exact .inr ⟨h0, flush0_2 _⟩) d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- Each buffer handed back stated on the part its window's transfer moves. -/
def bodyPost0 (c : Dev nD) (t : Fin cfg0.N) : sProp 𝕄 :=
  iprop((dat0 V c).Φ t.succ ∗ (dat0 V c).owesAt () t.succ
    ∗ (∃ d, owns (c : Thread nD τ) (st0_0 t) fullShare
        (win0_0.fill (grid0.coords t) d (win0_0.cut (grid0.coords t) ((dat0 V c).after 0 t))))
    ∗ (∃ d, owns (c : Thread nD τ) (st0_1 t) fullShare
        (win0_1.fill (grid0.coords t) d (win0_1.cut (grid0.coords t) ((dat0 V c).after 1 t))))
    ∗ (∃ d, owns (c : Thread nD τ) (st0_2 t) fullShare
        (win0_2.fill (grid0.coords t) d (win0_2.cut (grid0.coords t) ((dat0 V c).after 2 t)))))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (win0_0.fill (grid0.coords t) d0 (iblk0 V c 0 t)) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  -- each buffer holds what the body really left, which on the moved part is what the data names: filling the
  -- data's moved part into what is there changes nothing
  isplitl [H0]
  · iexists win0_0.fill (grid0.coords t) d0 (iblk0 V c 0 t)
    rw [win0_0.fill_congr_cut (grid0.coords t)
      (show win0_0.cut (grid0.coords t) (win0_0.fill (grid0.coords t) d0 (iblk0 V c 0 t)) = win0_0.cut (grid0.coords t) (xin0 V c t) by
        unfold xin0; rw [win0_0.cut_fill, win0_0.cut_fill])]
    iexact H0
  isplitl [H1]
  · iexists out0_1 (win0_0.fill (grid0.coords t) d0 (iblk0 V c 0 t))
    rw [win0_1.fill_congr_cut (grid0.coords t)
      (show win0_1.cut (grid0.coords t) (out0_1 (win0_0.fill (grid0.coords t) d0 (iblk0 V c 0 t))) = win0_1.cut (grid0.coords t) (out0_1 (xin0 V c t)) from
        cut0_1 _ _ _ _)]
    iexact H1
  · iexists out0_2 (win0_0.fill (grid0.coords t) d0 (iblk0 V c 0 t))
    rw [win0_2.fill_congr_cut (grid0.coords t)
      (show win0_2.cut (grid0.coords t) (out0_2 (win0_0.fill (grid0.coords t) d0 (iblk0 V c 0 t))) = win0_2.cut (grid0.coords t) (out0_2 (xin0 V c t)) from
        cut0_2 _ _ _ _)]
    iexact H2

/-- The library's loose body obligation: no point is idle and every window is loose, so each buffer is handed back stated
    on the part its transfer moves. -/
theorem body_obligation0 (c : Dev nD) :
    Pipeline.BodyObligationLoose (dat0 (F := F) V c) (defs₀ (F := F)) Variants.none () Set.univ := fun t => by
  rw [bigSep_W0, bigSep_W0]
  exact sound_body0 V c t
end

end Cert.Kernel.GenP

end
-- ==== Proof.Kernel.R16.lean ====
/- The last region of the program: its proof data and body obligation. -/
import proofs.«175043_j76819785056407_2_alg».proof.Proof.Gen.Kernel.Launch
import proofs.«175043_j76819785056407_2_alg».proof.Proof.Gen.Kernel.Skeleton
import proofs.«175043_j76819785056407_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The transposing region (custom_call 16): each grid point reads a 2048×128 block of gathered rows and writes it
    transposed and re-laid as 4×32×2048. Stated at the contents `V` the region is entered from. -/

section
variable (V : (c : Dev nD) → (b : Ref sig .tc) → Buf (Elt F) ((c : Thread nD τ).loc b))

/-- Window `w`'s block at point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
end

abbrev r16_in : Rect S2048x128 := Rect.unit (s := S2048x128) ![0, 0] S2048x128.size inb_S2048x128_S2048x128_0_0
abbrev r16_out : Rect S4x32x2048 := Rect.unit (s := S4x32x2048) ![0, 0, 0] S4x32x2048.size inb_S4x32x2048_S4x32x2048_0_0_0

/-- The output block after the body: the input block transposed and re-laid. -/
def out16_1 (x0 : Vec F S2048x128 .f32) : Vec F S4x32x2048 .f32 :=
  View.canon [⟨r16_out, k16_pay1 (View.ld x0 r16_in)⟩]

theorem cover16_1 (p0 : Vec F S4x32x2048 .f32) (y : S4x32x2048.Idx) :
    ∃ pc ∈ ([⟨r16_out, p0⟩] : List (View.Piece (Elt F) S4x32x2048 .f32)), y ∈ pc.1.set :=
  View.cover_of_tiled [⟨r16_out, p0⟩] S4x32x2048.size (by rfl) y

set_option maxHeartbeats 1000000 in
theorem sound_kernel16 (c : Dev nD) (E : Set ℕ) (i : grid16.Coords)
    (arg1 : Memref sig .tc .vmem S2048x128 .f32) (harg1 : arg1.IsWhole) (arg2 : Memref sig .tc .vmem S4x32x2048 .f32) (harg2 : arg2.IsWhole)
    (x0 : Vec F S2048x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out16_1 x0)) -∗ K ⟨⟩))
      ⊢ wp frame (wpE (defs₀ (F := F)) Variants.none c none) E (cc16__kernel_c i arg1 harg1 arg2 harg2) K := by
  simp only [cc16__kernel_c_eq_skeleton]; unfold cc16__kernel_c_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover16_1 _)

section
variable (V : (c : Dev nD) → (b : Ref sig .tc) → Buf (Elt F) ((c : Thread nD τ).loc b))

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => out16_1 (iblk16 V c 0 t)
  Φ _ := Pipeline.ΦA spec16 c
  q _ := fullShare
  owed _ := 0

theorem A_eq16 (c : Dev nD) (w : Fin cfg16.W) : (dat16 V c).A w = V c (Pipeline.arrRef spec16 w) := by
  dsimp only [dat16]
theorem after16_0 (c : Dev nD) (t : Fin cfg16.N) : (dat16 V c).after 0 t = iblk16 V c 0 t := by dsimp only [dat16]
theorem after16_1 (c : Dev nD) (t : Fin cfg16.N) : (dat16 V c).after 1 t = out16_1 (iblk16 V c 0 t) := by dsimp only [dat16]
theorem before16_0 (c : Dev nD) (t : Fin cfg16.N) (d) : (dat16 V c).before 0 t d = iblk16 V c 0 t :=
  before16_0_of V (dat16 V c) (A_eq16 V c 0) (after16_0 V c) t d

def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d)))

def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0]
  rw [show (dat16 V c).Φ t.succ = (dat16 V c).Φ t.castSucc from rfl,
    show (dat16 V c).owesAt () t.succ = (dat16 V c).owesAt () t.castSucc from rfl,
    after16_0, after16_1]
  iintro ⟨HΦ, Ho, ⟨%d0, H0⟩, ⟨%d1, H1⟩⟩
  iapply (sound_kernel16 c Set.univ _ _ _ _ _ (iblk16 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation16 (c : Dev nD) : BodyObligation (dat16 (F := F) V c) (defs₀ (F := F)) Variants.none () Set.univ := fun t => by
  rw [bigSep_W16, bigSep_W16]
  exact sound_body16 V c t
end

end Cert.Kernel.GenP

end
-- ==== Proof.Kernel.Common.lean ====
/- What the region modules of the program share: the thread state that rides beside the buffers through every item, and a
   valuation read at the TensorCore's references. -/
import proofs.«175043_j76819785056407_2_alg».proof.Proof.Gen.Kernel.Launch
import proofs.«175043_j76819785056407_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What rides beside the buffers through every item: the core's generator register at some state and its tallies, at nothing owed. -/
abbrev Rr (c : Dev nD) : sProp 𝕄 := iprop((∃ r, prngReg c r) ∗ ∃ W, owes (c : Thread nD τ) (0 : CellTallies nD τ sig Unit) W)

/-- A valuation of the buffers read at the TensorCore's references. -/
abbrev VW (W : Dev nD → Valuation τ sig (Elt F)) : (c : Dev nD) → (b : Ref sig .tc) → Buf (Elt F) ((c : Thread nD τ).loc b) := fun c b => W c b

end Cert.Kernel.GenP

end
-- ==== Proof.Kernel.RB1.lean ====
/- A row-gather region of the program: the region's proof data, its body obligation and its entry and exit. -/
import proofs.«175043_j76819785056407_2_alg».proof.Proof.Gen.Kernel.Launch
import proofs.«175043_j76819785056407_2_alg».proof.Proof.Gen.Kernel.Skeleton
import proofs.«175043_j76819785056407_2_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 1): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl1 : pre1.Contents (Elt F) := fun j => V (0 : Dev nD) (pre1.ref j)
theorem V_pre1 (c : Dev nD) (j : Fin 2) : V c (pre1.ref j) = tbl1 V j := by
  obtain rfl : c = 0 := Subsingleton.elim _ _; rfl
/-- Every table-indexed block lies inside the gathered array. -/
abbrev Ok1 : Prop := ok1 (F := F) (tbl1 V)
abbrev adm1 (hO : Ok1 V) : (pcfg1 (F := F)).Adm := ⟨tbl1 V, hO⟩
abbrev cfgM1 (hO : Ok1 V) : Pipeline.Cfg sig Λ₀ := cfg1 (adm1 V hO)

/-- Window `w`'s block at point `t`, read off its array as the region finds it. -/
def iblk1 (hO : Ok1 V) (c : Dev nD) (w : Fin (cfgM1 V hO).W) (t : Fin (cfgM1 V hO).N) :
    (((cfgM1 V hO).win w).xblock ((cfgM1 V hO).grid.coords t)).Idx → Elt F ((cfgM1 V hO).win w).elt :=
  (((cfgM1 V hO).win w).blk t).view.read (Elt F) (V c (Pipeline.arrRef spec1 w))

theorem before1_0_of (hO : Ok1 V) {c : Dev nD} (dat : Dat τ (Elt F) Unit ℕ (UR sig nD τ) ℕ (cfgM1 V hO) c) (hA : dat.A 0 = V c (Pipeline.arrRef spec1 0))
    (hafter : ∀ t, dat.after 0 t = iblk1 V hO c 0 t) (t : Fin (cfgM1 V hO).N) (d) : dat.before 0 t d = iblk1 V hO c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hO : Ok1 V) {c : Dev nD} (dat : Dat τ (Elt F) Unit ℕ (UR sig nD τ) ℕ (cfgM1 V hO) c) (hA : dat.A 1 = V c (Pipeline.arrRef spec1 1))
    (hafter : ∀ t, dat.after 1 t = iblk1 V hO c 1 t) (t : Fin (cfgM1 V hO).N) (d) : dat.before 1 t d = iblk1 V hO c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-- The body's one rectangle: the whole 1×1×128 block. -/
abbrev r1_0 : Rect S1x1x128 := Rect.unit (s := S1x1x128) ![0, 0, 0] S1x1x128.size inb_S1x1x128_S1x1x128_0_0_0

/-- The output block after the body: the sum of the two gathered rows. -/
def out1_2 (x0 x1 : Vec F S1x1x128 .f32) : Vec F S1x1x128 .f32 :=
  View.canon [⟨r1_0, k1_pay1 (View.ld x0 r1_0) (View.ld x1 r1_0)⟩]

theorem cover1_2 (p0 : Vec F S1x1x128 .f32) (y : S1x1x128.Idx) :
    ∃ pc ∈ ([⟨r1_0, p0⟩] : List (View.Piece (Elt F) S1x1x128 .f32)), y ∈ pc.1.set :=
  View.cover_of_tiled [⟨r1_0, p0⟩] S1x1x128.size (by rfl) y

set_option maxHeartbeats 1000000 in
/-- The body on whole staging memrefs: the two inputs stay, the output ends at the sum; the tables are not touched. -/
theorem sound_kernel1 (c : Dev nD) (E : Set ℕ) (i : grid1.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out1_2 x0 x1)) -∗ K ⟨⟩))
      ⊢ wp frame (wpE (defs₀ (F := F)) Variants.none c none) E (cc1__kernel_b i a1 ha1 a2 ha2 arg3 harg3 arg4 harg4 arg5 harg5) K := by
  simp only [cc1__kernel_b_eq_skeleton]; unfold cc1__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

section
variable (V : (c : Dev nD) → (b : Ref sig .tc) → Buf (Elt F) ((c : Thread nD τ).loc b))

/-- Each window's current staging memref at point `t`, and its wholeness. -/
abbrev ms1_0 (hO : Ok1 V) (t : Fin (cfgM1 V hO).N) : Memref sig .tc .vmem S1x1x128 .f32 := spec1_0.stage ((cfgM1 V hO).slots t 0)
abbrev hs1_0 (hO : Ok1 V) (t : Fin (cfgM1 V hO).N) : (ms1_0 V hO t).IsWhole := hstage1_0 (((cfgM1 V hO).slots t 0).cast nbuf1_0)
abbrev ms1_1 (hO : Ok1 V) (t : Fin (cfgM1 V hO).N) : Memref sig .tc .vmem S1x1x128 .f32 := spec1_1.stage ((cfgM1 V hO).slots t 1)
abbrev hs1_1 (hO : Ok1 V) (t : Fin (cfgM1 V hO).N) : (ms1_1 V hO t).IsWhole := hstage1_1 (((cfgM1 V hO).slots t 1).cast nbuf1_1)
abbrev ms1_2 (hO : Ok1 V) (t : Fin (cfgM1 V hO).N) : Memref sig .tc .vmem S1x1x128 .f32 := spec1_2.stage ((cfgM1 V hO).slots t 2)
abbrev hs1_2 (hO : Ok1 V) (t : Fin (cfgM1 V hO).N) : (ms1_2 V hO t).IsWhole := hstage1_2 (((cfgM1 V hO).slots t 2).cast nbuf1_2)

/-- The kernel body as the pipeline calls it at point `t`: the point, the two tables whole, the three current staging memrefs. -/
abbrev bodyAt1 (a : (pcfg1 (F := F)).Adm) (t : Fin (cfg1 a).N) : Prog (TpuEff nD τ sig (Elt F) Λ₀ .tc) PUnit :=
  cc1__kernel_b (grid1.coords t) (Memref.whole main_v22) (Memref.isWhole_whole _) (Memref.whole main_v23) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))

/-- The region's proof data on core `c`: the arrays as the region finds them; after the body each input's buffer at its
    block and the output's at the sum of the two input blocks; the invariant carries the scoped rest, the generator register
    and the two tables, whole; the gathered array, read by both input windows, is held half and half; nothing owed. -/
def dat1 (hO : Ok1 V) (c : Dev nD) : Dat τ (Elt F) Unit ℕ (UR sig nD τ) ℕ (cfgM1 V hO) c where
  A w := V c (Pipeline.arrRef spec1 w)
  after w t := match w with
    | ⟨0, _⟩ => iblk1 V hO c 0 t
    | ⟨1, _⟩ => iblk1 V hO c 1 t
    | ⟨2, _⟩ => out1_2 (iblk1 V hO c 0 t) (iblk1 V hO c 1 t)
  Φ _ := iprop(Pipeline.ΦA spec1 c ∗ (Pipeline.prefHeld pre1 c (fun _ => fullShare) (tbl1 V) : sProp 𝕄))
  q w := match w with
    | ⟨0, _⟩ => fullShare.left
    | ⟨1, _⟩ => fullShare.right
    | ⟨2, _⟩ => fullShare
  owed _ := 0

theorem A_eq1 (hO : Ok1 V) (c : Dev nD) (w : Fin (cfgM1 V hO).W) : (dat1 V hO c).A w = V c (Pipeline.arrRef spec1 w) := by
  dsimp only [dat1]

theorem after1_0 (hO : Ok1 V) (c : Dev nD) (t : Fin (cfgM1 V hO).N) : (dat1 V hO c).after 0 t = iblk1 V hO c 0 t := by dsimp only [dat1]; try rfl
theorem after1_1 (hO : Ok1 V) (c : Dev nD) (t : Fin (cfgM1 V hO).N) : (dat1 V hO c).after 1 t = iblk1 V hO c 1 t := by dsimp only [dat1]; try rfl
theorem after1_2 (hO : Ok1 V) (c : Dev nD) (t : Fin (cfgM1 V hO).N) : (dat1 V hO c).after 2 t = out1_2 (iblk1 V hO c 0 t) (iblk1 V hO c 1 t) := by dsimp only [dat1]; try rfl

theorem before1_0 (hO : Ok1 V) (c : Dev nD) (t : Fin (cfgM1 V hO).N) (d) : (dat1 V hO c).before 0 t d = iblk1 V hO c 0 t :=
  before1_0_of V hO (dat1 V hO c) (A_eq1 V hO c 0) (after1_0 V hO c) t d
theorem before1_1 (hO : Ok1 V) (c : Dev nD) (t : Fin (cfgM1 V hO).N) (d) : (dat1 V hO c).before 1 t d = iblk1 V hO c 1 t :=
  before1_1_of V hO (dat1 V hO c) (A_eq1 V hO c 1) (after1_1 V hO c) t d

def bodyPre1 (hO : Ok1 V) (c : Dev nD) (t : Fin (cfgM1 V hO).N) : sProp 𝕄 :=
  iprop((dat1 V hO c).Φ t.castSucc ∗ (dat1 V hO c).owesAt () t.castSucc
    ∗ (∃ d, owns (c : Thread nD τ) (ms1_0 V hO t) fullShare ((dat1 V hO c).before 0 t d))
    ∗ (∃ d, owns (c : Thread nD τ) (ms1_1 V hO t) fullShare ((dat1 V hO c).before 1 t d))
    ∗ (∃ d, owns (c : Thread nD τ) (ms1_2 V hO t) fullShare ((dat1 V hO c).before 2 t d)))

def bodyPost1 (hO : Ok1 V) (c : Dev nD) (t : Fin (cfgM1 V hO).N) : sProp 𝕄 :=
  iprop((dat1 V hO c).Φ t.succ ∗ (dat1 V hO c).owesAt () t.succ
    ∗ owns (c : Thread nD τ) (ms1_0 V hO t) fullShare ((dat1 V hO c).after 0 t)
    ∗ owns (c : Thread nD τ) (ms1_1 V hO t) fullShare ((dat1 V hO c).after 1 t)
    ∗ owns (c : Thread nD τ) (ms1_2 V hO t) fullShare ((dat1 V hO c).after 2 t))

/-- The body at any point: the two input buffers hold their blocks, the body adds them into the output buffer; the
    invariant and the tallies pass through untouched. -/
theorem sound_body1 (hO : Ok1 V) (c : Dev nD) (t : Fin (cfgM1 V hO).N) :
    bodyPre1 V hO c t ⊢ wp frame (wpE (defs₀ (F := F)) Variants.none c none) Set.univ (bodyAt1 (adm1 V hO) t) (fun _ => bodyPost1 V hO c t) := by
  unfold bodyPre1 bodyPost1 bodyAt1
  simp only [before1_0, before1_1]
  rw [show (dat1 V hO c).Φ t.succ = (dat1 V hO c).Φ t.castSucc from rfl,
    show (dat1 V hO c).owesAt () t.succ = (dat1 V hO c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ _ _ _ _ (iblk1 V hO c 0 t) (iblk1 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (hO : Ok1 V) (c : Dev nD) : BodyObligation (dat1 (F := F) V hO c) (defs₀ (F := F)) Variants.none () Set.univ := fun t => by
  rw [bigSep_W1, bigSep_W1]
  exact sound_body1 V hO c t
end

section
variable (V : (c : Dev nD) → (b : Ref sig .tc) → Buf (Elt F) ((c : Thread nD τ).loc b))

/-- The region's three arrays as points-to facts: the gathered array, read by both input windows, half and half; the output array whole. -/
theorem arrays1_eq (hO : Ok1 V) (c : Dev nD)
    (G : (w : Fin (cfgM1 V hO).W) → Buf (Elt F) (((cfgM1 V hO).win w).arr.view.loc (c : Thread nD τ))) :
    ((dat1 V hO c).arrays G : sProp 𝕄)
      = iprop((((c : Thread nD τ).loc main_v1) ↦{fullShare.left} G 0) ∗ (((c : Thread nD τ).loc main_v1) ↦{fullShare.right} G 1)
          ∗ (((c : Thread nD τ).loc main_v24) ↦{fullShare} G 2)) := by
  unfold Dat.arrays
  rw [bigSep_W1, (arr_whole1 0).set_eq_univ, (arr_whole1 2).set_eq_univ]
  rfl
end

/-- The two distinct buffers behind the region's three windows. -/
theorem arrImage1 : Finset.univ.image (Pipeline.arrRef spec1) = insert main_v1 {main_v24} := by decide

section
variable (W : Dev nD → Valuation τ sig (Elt F))

theorem arrBufs1_eq (c : Dev nD) (V : (b : Ref sig .tc) → Buf (Elt F) ((c : Thread nD τ).loc b)) :
    (Pipeline.arrBufs spec1 c V : sProp 𝕄)
      = iprop((((c : Thread nD τ).loc main_v1) ↦{fullShare} V main_v1) ∗ (((c : Thread nD τ).loc main_v24) ↦{fullShare} V main_v24)) := by
  unfold Pipeline.arrBufs
  rw [arrImage1, bigSep_insert (by decide), bigSep_singleton]
  rfl

/-- ENTRY: every unscoped buffer held at `W` gives the region its arrays (the gathered array split in two halves), its two
    tables whole, the tallies, the generator register and the rest of the unscoped buffers. -/
theorem entry1 (hO : Ok1 (VW W)) (c : Dev nD) :
    iprop(StableHlo.held (c : Thread nD τ) (Pipeline.ucRefs τ sig) (W c) ∗ Rr (F := F) c)
      ⊢ |={Set.univ}=> iprop((dat1 (VW W) hO c).arrays ((dat1 (VW W) hO c).arrAt · 0)
          ∗ Pipeline.prefHeld pre1 c (fun _ => fullShare) (tbl1 (VW W))
          ∗ (dat1 (VW W) hO c).owesAt () 0 ∗ (∃ r, prngReg c r)
          ∗ (Pipeline.unscopedRestP pre1 spec1 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM1 (VW W) hO) () winFacts₀1.arr_unscoped c (VW W c)]
  rw [show (Pipeline.arrBufs (cfgM1 (VW W) hO).spec c (VW W c) : sProp 𝕄) = Pipeline.arrBufs spec1 c (VW W c) from rfl,
    arrBufs1_eq, arrays1_eq]
  rw [show (Pipeline.unscopedRest (cfgM1 (VW W) hO).spec c (VW W c) : sProp 𝕄) = Pipeline.unscopedRest spec1 c (VW W c) from rfl,
    Pipeline.unscopedRest_split preFacts1 c (VW W c)]
  rw [show (fun k => VW W c (pre1.ref k)) = tbl1 (VW W) from funext fun k => V_pre1 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest1_update (c : Dev nD) (X : Buf (Elt F) ((c : Thread nD τ).loc main_v24)) :
    (Pipeline.unscopedRest spec1 c (fun b => Function.update (W c) main_v24 X b) : sProp 𝕄) = Pipeline.unscopedRest spec1 c (VW W c) := by
  unfold Pipeline.unscopedRest
  exact bigSep_congr fun b hb => by
    have hne : b ≠ main_v24 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit1 (hO : Ok1 (VW W)) (c : Dev nD) (X : Buf (Elt F) ((c : Thread nD τ).loc main_v24))
    (hX : (dat1 (VW W) hO c).arrAt 2 (cfgM1 (VW W) hO).N = X) :
    iprop((dat1 (VW W) hO c).arrays ((dat1 (VW W) hO c).arrAt · (cfgM1 (VW W) hO).N)
        ∗ (dat1 (VW W) hO c).owesAt () (Fin.last (cfgM1 (VW W) hO).N)
        ∗ iprop((∃ r, prngReg c r) ∗ Pipeline.prefHeld pre1 c (fun _ => fullShare) (tbl1 (VW W)))
        ∗ (Pipeline.unscopedRestP pre1 spec1 c (VW W c) : sProp 𝕄))
      ⊢ |={Set.univ}=> iprop(StableHlo.held (c : Thread nD τ) (Pipeline.ucRefs τ sig) (Function.update (W c) main_v24 X) ∗ Rr (F := F) c) := by
  rw [← Pipeline.unscopedBufs_held (Ix := Unit) (Name := ℕ) (U := UR sig nD τ) (Lvl := ℕ) c (Function.update (W c) main_v24 X)]
  rw [Pipeline.unscopedBufs_split₀ (fun _ : Unit => cfgM1 (VW W) hO) () winFacts₀1.arr_unscoped c _]
  rw [show ∀ V', (Pipeline.arrBufs (cfgM1 (VW W) hO).spec c V' : sProp 𝕄) = Pipeline.arrBufs spec1 c V' from fun _ => rfl,
    show ∀ V', (Pipeline.unscopedRest (cfgM1 (VW W) hO).spec c V' : sProp 𝕄) = Pipeline.unscopedRest spec1 c V' from fun _ => rfl,
    rest1_update W c X, Pipeline.unscopedRest_split preFacts1 c (VW W c), arrBufs1_eq]
  rw [show (fun k => VW W c (pre1.ref k)) = tbl1 (VW W) from funext fun k => V_pre1 (VW W) c k]
  rw [Function.update_of_ne (StableHlo.devRef_ne_of_ne (by decide : (main_v1 : Ref sig .tc) ≠ main_v24)), Function.update_self]
  rw [arrays1_eq, hX,
    show (dat1 (VW W) hO c).arrAt 0 (cfgM1 (VW W) hO).N = W c main_v1 from (dat1 (VW W) hO c).arrAt_in 0 rfl _,
    show (dat1 (VW W) hO c).arrAt 1 (cfgM1 (VW W) hO).N = W c main_v1 from (dat1 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.Kernel.GenP

end
-- ==== Proof.Kernel.RB2.lean ====
/- A row-gather region of the program: the region's proof data, its body obligation and its entry and exit. -/
import proofs.«175043_j76819785056407_2_alg».proof.Proof.Gen.Kernel.Launch
import proofs.«175043_j76819785056407_2_alg».proof.Proof.Gen.Kernel.Skeleton
import proofs.«175043_j76819785056407_2_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 2): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl2 : pre2.Contents (Elt F) := fun j => V (0 : Dev nD) (pre2.ref j)
theorem V_pre2 (c : Dev nD) (j : Fin 2) : V c (pre2.ref j) = tbl2 V j := by
  obtain rfl : c = 0 := Subsingleton.elim _ _; rfl
/-- Every table-indexed block lies inside the gathered array. -/
abbrev Ok2 : Prop := ok2 (F := F) (tbl2 V)
abbrev adm2 (hO : Ok2 V) : (pcfg2 (F := F)).Adm := ⟨tbl2 V, hO⟩
abbrev cfgM2 (hO : Ok2 V) : Pipeline.Cfg sig Λ₀ := cfg2 (adm2 V hO)

/-- Window `w`'s block at point `t`, read off its array as the region finds it. -/
def iblk2 (hO : Ok2 V) (c : Dev nD) (w : Fin (cfgM2 V hO).W) (t : Fin (cfgM2 V hO).N) :
    (((cfgM2 V hO).win w).xblock ((cfgM2 V hO).grid.coords t)).Idx → Elt F ((cfgM2 V hO).win w).elt :=
  (((cfgM2 V hO).win w).blk t).view.read (Elt F) (V c (Pipeline.arrRef spec2 w))

theorem before2_0_of (hO : Ok2 V) {c : Dev nD} (dat : Dat τ (Elt F) Unit ℕ (UR sig nD τ) ℕ (cfgM2 V hO) c) (hA : dat.A 0 = V c (Pipeline.arrRef spec2 0))
    (hafter : ∀ t, dat.after 0 t = iblk2 V hO c 0 t) (t : Fin (cfgM2 V hO).N) (d) : dat.before 0 t d = iblk2 V hO c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of (hO : Ok2 V) {c : Dev nD} (dat : Dat τ (Elt F) Unit ℕ (UR sig nD τ) ℕ (cfgM2 V hO) c) (hA : dat.A 1 = V c (Pipeline.arrRef spec2 1))
    (hafter : ∀ t, dat.after 1 t = iblk2 V hO c 1 t) (t : Fin (cfgM2 V hO).N) (d) : dat.before 1 t d = iblk2 V hO c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-- The body's one rectangle: the whole 1×1×128 block. -/
abbrev r2_0 : Rect S1x1x128 := Rect.unit (s := S1x1x128) ![0, 0, 0] S1x1x128.size inb_S1x1x128_S1x1x128_0_0_0

/-- The output block after the body: the sum of the two gathered rows. -/
def out2_2 (x0 x1 : Vec F S1x1x128 .f32) : Vec F S1x1x128 .f32 :=
  View.canon [⟨r2_0, k2_pay1 (View.ld x0 r2_0) (View.ld x1 r2_0)⟩]

theorem cover2_2 (p0 : Vec F S1x1x128 .f32) (y : S1x1x128.Idx) :
    ∃ pc ∈ ([⟨r2_0, p0⟩] : List (View.Piece (Elt F) S1x1x128 .f32)), y ∈ pc.1.set :=
  View.cover_of_tiled [⟨r2_0, p0⟩] S1x1x128.size (by rfl) y

set_option maxHeartbeats 1000000 in
/-- The body on whole staging memrefs: the two inputs stay, the output ends at the sum; the tables are not touched. -/
theorem sound_kernel2 (c : Dev nD) (E : Set ℕ) (i : grid2.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out2_2 x0 x1)) -∗ K ⟨⟩))
      ⊢ wp frame (wpE (defs₀ (F := F)) Variants.none c none) E (cc2__kernel_b i a1 ha1 a2 ha2 arg3 harg3 arg4 harg4 arg5 harg5) K := by
  simp only [cc2__kernel_b_eq_skeleton]; unfold cc2__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

section
variable (V : (c : Dev nD) → (b : Ref sig .tc) → Buf (Elt F) ((c : Thread nD τ).loc b))

/-- Each window's current staging memref at point `t`, and its wholeness. -/
abbrev ms2_0 (hO : Ok2 V) (t : Fin (cfgM2 V hO).N) : Memref sig .tc .vmem S1x1x128 .f32 := spec2_0.stage ((cfgM2 V hO).slots t 0)
abbrev hs2_0 (hO : Ok2 V) (t : Fin (cfgM2 V hO).N) : (ms2_0 V hO t).IsWhole := hstage2_0 (((cfgM2 V hO).slots t 0).cast nbuf2_0)
abbrev ms2_1 (hO : Ok2 V) (t : Fin (cfgM2 V hO).N) : Memref sig .tc .vmem S1x1x128 .f32 := spec2_1.stage ((cfgM2 V hO).slots t 1)
abbrev hs2_1 (hO : Ok2 V) (t : Fin (cfgM2 V hO).N) : (ms2_1 V hO t).IsWhole := hstage2_1 (((cfgM2 V hO).slots t 1).cast nbuf2_1)
abbrev ms2_2 (hO : Ok2 V) (t : Fin (cfgM2 V hO).N) : Memref sig .tc .vmem S1x1x128 .f32 := spec2_2.stage ((cfgM2 V hO).slots t 2)
abbrev hs2_2 (hO : Ok2 V) (t : Fin (cfgM2 V hO).N) : (ms2_2 V hO t).IsWhole := hstage2_2 (((cfgM2 V hO).slots t 2).cast nbuf2_2)

/-- The kernel body as the pipeline calls it at point `t`: the point, the two tables whole, the three current staging memrefs. -/
abbrev bodyAt2 (a : (pcfg2 (F := F)).Adm) (t : Fin (cfg2 a).N) : Prog (TpuEff nD τ sig (Elt F) Λ₀ .tc) PUnit :=
  cc2__kernel_b (grid2.coords t) (Memref.whole main_v26) (Memref.isWhole_whole _) (Memref.whole main_v27) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (spec2_2.stage ((cfg2 a).slots t 2)) (hstage2_2 (((cfg2 a).slots t 2).cast nbuf2_2))

/-- The region's proof data on core `c`: the arrays as the region finds them; after the body each input's buffer at its
    block and the output's at the sum of the two input blocks; the invariant carries the scoped rest, the generator register
    and the two tables, whole; the gathered array, read by both input windows, is held half and half; nothing owed. -/
def dat2 (hO : Ok2 V) (c : Dev nD) : Dat τ (Elt F) Unit ℕ (UR sig nD τ) ℕ (cfgM2 V hO) c where
  A w := V c (Pipeline.arrRef spec2 w)
  after w t := match w with
    | ⟨0, _⟩ => iblk2 V hO c 0 t
    | ⟨1, _⟩ => iblk2 V hO c 1 t
    | ⟨2, _⟩ => out2_2 (iblk2 V hO c 0 t) (iblk2 V hO c 1 t)
  Φ _ := iprop(Pipeline.ΦA spec2 c ∗ (Pipeline.prefHeld pre2 c (fun _ => fullShare) (tbl2 V) : sProp 𝕄))
  q w := match w with
    | ⟨0, _⟩ => fullShare.left
    | ⟨1, _⟩ => fullShare.right
    | ⟨2, _⟩ => fullShare
  owed _ := 0

theorem A_eq2 (hO : Ok2 V) (c : Dev nD) (w : Fin (cfgM2 V hO).W) : (dat2 V hO c).A w = V c (Pipeline.arrRef spec2 w) := by
  dsimp only [dat2]

theorem after2_0 (hO : Ok2 V) (c : Dev nD) (t : Fin (cfgM2 V hO).N) : (dat2 V hO c).after 0 t = iblk2 V hO c 0 t := by dsimp only [dat2]; try rfl
theorem after2_1 (hO : Ok2 V) (c : Dev nD) (t : Fin (cfgM2 V hO).N) : (dat2 V hO c).after 1 t = iblk2 V hO c 1 t := by dsimp only [dat2]; try rfl
theorem after2_2 (hO : Ok2 V) (c : Dev nD) (t : Fin (cfgM2 V hO).N) : (dat2 V hO c).after 2 t = out2_2 (iblk2 V hO c 0 t) (iblk2 V hO c 1 t) := by dsimp only [dat2]; try rfl

theorem before2_0 (hO : Ok2 V) (c : Dev nD) (t : Fin (cfgM2 V hO).N) (d) : (dat2 V hO c).before 0 t d = iblk2 V hO c 0 t :=
  before2_0_of V hO (dat2 V hO c) (A_eq2 V hO c 0) (after2_0 V hO c) t d
theorem before2_1 (hO : Ok2 V) (c : Dev nD) (t : Fin (cfgM2 V hO).N) (d) : (dat2 V hO c).before 1 t d = iblk2 V hO c 1 t :=
  before2_1_of V hO (dat2 V hO c) (A_eq2 V hO c 1) (after2_1 V hO c) t d

def bodyPre2 (hO : Ok2 V) (c : Dev nD) (t : Fin (cfgM2 V hO).N) : sProp 𝕄 :=
  iprop((dat2 V hO c).Φ t.castSucc ∗ (dat2 V hO c).owesAt () t.castSucc
    ∗ (∃ d, owns (c : Thread nD τ) (ms2_0 V hO t) fullShare ((dat2 V hO c).before 0 t d))
    ∗ (∃ d, owns (c : Thread nD τ) (ms2_1 V hO t) fullShare ((dat2 V hO c).before 1 t d))
    ∗ (∃ d, owns (c : Thread nD τ) (ms2_2 V hO t) fullShare ((dat2 V hO c).before 2 t d)))

def bodyPost2 (hO : Ok2 V) (c : Dev nD) (t : Fin (cfgM2 V hO).N) : sProp 𝕄 :=
  iprop((dat2 V hO c).Φ t.succ ∗ (dat2 V hO c).owesAt () t.succ
    ∗ owns (c : Thread nD τ) (ms2_0 V hO t) fullShare ((dat2 V hO c).after 0 t)
    ∗ owns (c : Thread nD τ) (ms2_1 V hO t) fullShare ((dat2 V hO c).after 1 t)
    ∗ owns (c : Thread nD τ) (ms2_2 V hO t) fullShare ((dat2 V hO c).after 2 t))

/-- The body at any point: the two input buffers hold their blocks, the body adds them into the output buffer; the
    invariant and the tallies pass through untouched. -/
theorem sound_body2 (hO : Ok2 V) (c : Dev nD) (t : Fin (cfgM2 V hO).N) :
    bodyPre2 V hO c t ⊢ wp frame (wpE (defs₀ (F := F)) Variants.none c none) Set.univ (bodyAt2 (adm2 V hO) t) (fun _ => bodyPost2 V hO c t) := by
  unfold bodyPre2 bodyPost2 bodyAt2
  simp only [before2_0, before2_1]
  rw [show (dat2 V hO c).Φ t.succ = (dat2 V hO c).Φ t.castSucc from rfl,
    show (dat2 V hO c).owesAt () t.succ = (dat2 V hO c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ _ _ _ _ (iblk2 V hO c 0 t) (iblk2 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (hO : Ok2 V) (c : Dev nD) : BodyObligation (dat2 (F := F) V hO c) (defs₀ (F := F)) Variants.none () Set.univ := fun t => by
  rw [bigSep_W2, bigSep_W2]
  exact sound_body2 V hO c t
end

section
variable (V : (c : Dev nD) → (b : Ref sig .tc) → Buf (Elt F) ((c : Thread nD τ).loc b))

/-- The region's three arrays as points-to facts: the gathered array, read by both input windows, half and half; the output array whole. -/
theorem arrays2_eq (hO : Ok2 V) (c : Dev nD)
    (G : (w : Fin (cfgM2 V hO).W) → Buf (Elt F) (((cfgM2 V hO).win w).arr.view.loc (c : Thread nD τ))) :
    ((dat2 V hO c).arrays G : sProp 𝕄)
      = iprop((((c : Thread nD τ).loc main_v1) ↦{fullShare.left} G 0) ∗ (((c : Thread nD τ).loc main_v1) ↦{fullShare.right} G 1)
          ∗ (((c : Thread nD τ).loc main_v28) ↦{fullShare} G 2)) := by
  unfold Dat.arrays
  rw [bigSep_W2, (arr_whole2 0).set_eq_univ, (arr_whole2 2).set_eq_univ]
  rfl
end

/-- The two distinct buffers behind the region's three windows. -/
theorem arrImage2 : Finset.univ.image (Pipeline.arrRef spec2) = insert main_v1 {main_v28} := by decide

section
variable (W : Dev nD → Valuation τ sig (Elt F))

theorem arrBufs2_eq (c : Dev nD) (V : (b : Ref sig .tc) → Buf (Elt F) ((c : Thread nD τ).loc b)) :
    (Pipeline.arrBufs spec2 c V : sProp 𝕄)
      = iprop((((c : Thread nD τ).loc main_v1) ↦{fullShare} V main_v1) ∗ (((c : Thread nD τ).loc main_v28) ↦{fullShare} V main_v28)) := by
  unfold Pipeline.arrBufs
  rw [arrImage2, bigSep_insert (by decide), bigSep_singleton]
  rfl

/-- ENTRY: every unscoped buffer held at `W` gives the region its arrays (the gathered array split in two halves), its two
    tables whole, the tallies, the generator register and the rest of the unscoped buffers. -/
theorem entry2 (hO : Ok2 (VW W)) (c : Dev nD) :
    iprop(StableHlo.held (c : Thread nD τ) (Pipeline.ucRefs τ sig) (W c) ∗ Rr (F := F) c)
      ⊢ |={Set.univ}=> iprop((dat2 (VW W) hO c).arrays ((dat2 (VW W) hO c).arrAt · 0)
          ∗ Pipeline.prefHeld pre2 c (fun _ => fullShare) (tbl2 (VW W))
          ∗ (dat2 (VW W) hO c).owesAt () 0 ∗ (∃ r, prngReg c r)
          ∗ (Pipeline.unscopedRestP pre2 spec2 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM2 (VW W) hO) () winFacts₀2.arr_unscoped c (VW W c)]
  rw [show (Pipeline.arrBufs (cfgM2 (VW W) hO).spec c (VW W c) : sProp 𝕄) = Pipeline.arrBufs spec2 c (VW W c) from rfl,
    arrBufs2_eq, arrays2_eq]
  rw [show (Pipeline.unscopedRest (cfgM2 (VW W) hO).spec c (VW W c) : sProp 𝕄) = Pipeline.unscopedRest spec2 c (VW W c) from rfl,
    Pipeline.unscopedRest_split preFacts2 c (VW W c)]
  rw [show (fun k => VW W c (pre2.ref k)) = tbl2 (VW W) from funext fun k => V_pre2 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest2_update (c : Dev nD) (X : Buf (Elt F) ((c : Thread nD τ).loc main_v28)) :
    (Pipeline.unscopedRest spec2 c (fun b => Function.update (W c) main_v28 X b) : sProp 𝕄) = Pipeline.unscopedRest spec2 c (VW W c) := by
  unfold Pipeline.unscopedRest
  exact bigSep_congr fun b hb => by
    have hne : b ≠ main_v28 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit2 (hO : Ok2 (VW W)) (c : Dev nD) (X : Buf (Elt F) ((c : Thread nD τ).loc main_v28))
    (hX : (dat2 (VW W) hO c).arrAt 2 (cfgM2 (VW W) hO).N = X) :
    iprop((dat2 (VW W) hO c).arrays ((dat2 (VW W) hO c).arrAt · (cfgM2 (VW W) hO).N)
        ∗ (dat2 (VW W) hO c).owesAt () (Fin.last (cfgM2 (VW W) hO).N)
        ∗ iprop((∃ r, prngReg c r) ∗ Pipeline.prefHeld pre2 c (fun _ => fullShare) (tbl2 (VW W)))
        ∗ (Pipeline.unscopedRestP pre2 spec2 c (VW W c) : sProp 𝕄))
      ⊢ |={Set.univ}=> iprop(StableHlo.held (c : Thread nD τ) (Pipeline.ucRefs τ sig) (Function.update (W c) main_v28 X) ∗ Rr (F := F) c) := by
  rw [← Pipeline.unscopedBufs_held (Ix := Unit) (Name := ℕ) (U := UR sig nD τ) (Lvl := ℕ) c (Function.update (W c) main_v28 X)]
  rw [Pipeline.unscopedBufs_split₀ (fun _ : Unit => cfgM2 (VW W) hO) () winFacts₀2.arr_unscoped c _]
  rw [show ∀ V', (Pipeline.arrBufs (cfgM2 (VW W) hO).spec c V' : sProp 𝕄) = Pipeline.arrBufs spec2 c V' from fun _ => rfl,
    show ∀ V', (Pipeline.unscopedRest (cfgM2 (VW W) hO).spec c V' : sProp 𝕄) = Pipeline.unscopedRest spec2 c V' from fun _ => rfl,
    rest2_update W c X, Pipeline.unscopedRest_split preFacts2 c (VW W c), arrBufs2_eq]
  rw [show (fun k => VW W c (pre2.ref k)) = tbl2 (VW W) from funext fun k => V_pre2 (VW W) c k]
  rw [Function.update_of_ne (StableHlo.devRef_ne_of_ne (by decide : (main_v1 : Ref sig .tc) ≠ main_v28)), Function.update_self]
  rw [arrays2_eq, hX,
    show (dat2 (VW W) hO c).arrAt 0 (cfgM2 (VW W) hO).N = W c main_v1 from (dat2 (VW W) hO c).arrAt_in 0 rfl _,
    show (dat2 (VW W) hO c).arrAt 1 (cfgM2 (VW W) hO).N = W c main_v1 from (dat2 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.Kernel.GenP

end
-- ==== Proof.Kernel.RB3.lean ====
/- A row-gather region of the program: the region's proof data, its body obligation and its entry and exit. -/
import proofs.«175043_j76819785056407_2_alg».proof.Proof.Gen.Kernel.Launch
import proofs.«175043_j76819785056407_2_alg».proof.Proof.Gen.Kernel.Skeleton
import proofs.«175043_j76819785056407_2_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 3): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl3 : pre3.Contents (Elt F) := fun j => V (0 : Dev nD) (pre3.ref j)
theorem V_pre3 (c : Dev nD) (j : Fin 2) : V c (pre3.ref j) = tbl3 V j := by
  obtain rfl : c = 0 := Subsingleton.elim _ _; rfl
/-- Every table-indexed block lies inside the gathered array. -/
abbrev Ok3 : Prop := ok3 (F := F) (tbl3 V)
abbrev adm3 (hO : Ok3 V) : (pcfg3 (F := F)).Adm := ⟨tbl3 V, hO⟩
abbrev cfgM3 (hO : Ok3 V) : Pipeline.Cfg sig Λ₀ := cfg3 (adm3 V hO)

/-- Window `w`'s block at point `t`, read off its array as the region finds it. -/
def iblk3 (hO : Ok3 V) (c : Dev nD) (w : Fin (cfgM3 V hO).W) (t : Fin (cfgM3 V hO).N) :
    (((cfgM3 V hO).win w).xblock ((cfgM3 V hO).grid.coords t)).Idx → Elt F ((cfgM3 V hO).win w).elt :=
  (((cfgM3 V hO).win w).blk t).view.read (Elt F) (V c (Pipeline.arrRef spec3 w))

theorem before3_0_of (hO : Ok3 V) {c : Dev nD} (dat : Dat τ (Elt F) Unit ℕ (UR sig nD τ) ℕ (cfgM3 V hO) c) (hA : dat.A 0 = V c (Pipeline.arrRef spec3 0))
    (hafter : ∀ t, dat.after 0 t = iblk3 V hO c 0 t) (t : Fin (cfgM3 V hO).N) (d) : dat.before 0 t d = iblk3 V hO c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of (hO : Ok3 V) {c : Dev nD} (dat : Dat τ (Elt F) Unit ℕ (UR sig nD τ) ℕ (cfgM3 V hO) c) (hA : dat.A 1 = V c (Pipeline.arrRef spec3 1))
    (hafter : ∀ t, dat.after 1 t = iblk3 V hO c 1 t) (t : Fin (cfgM3 V hO).N) (d) : dat.before 1 t d = iblk3 V hO c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
end

/-- The body's one rectangle: the whole 1×1×128 block. -/
abbrev r3_0 : Rect S1x1x128 := Rect.unit (s := S1x1x128) ![0, 0, 0] S1x1x128.size inb_S1x1x128_S1x1x128_0_0_0

/-- The output block after the body: the sum of the two gathered rows. -/
def out3_2 (x0 x1 : Vec F S1x1x128 .f32) : Vec F S1x1x128 .f32 :=
  View.canon [⟨r3_0, k3_pay1 (View.ld x0 r3_0) (View.ld x1 r3_0)⟩]

theorem cover3_2 (p0 : Vec F S1x1x128 .f32) (y : S1x1x128.Idx) :
    ∃ pc ∈ ([⟨r3_0, p0⟩] : List (View.Piece (Elt F) S1x1x128 .f32)), y ∈ pc.1.set :=
  View.cover_of_tiled [⟨r3_0, p0⟩] S1x1x128.size (by rfl) y

set_option maxHeartbeats 1000000 in
/-- The body on whole staging memrefs: the two inputs stay, the output ends at the sum; the tables are not touched. -/
theorem sound_kernel3 (c : Dev nD) (E : Set ℕ) (i : grid3.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out3_2 x0 x1)) -∗ K ⟨⟩))
      ⊢ wp frame (wpE (defs₀ (F := F)) Variants.none c none) E (cc3__kernel_b i a1 ha1 a2 ha2 arg3 harg3 arg4 harg4 arg5 harg5) K := by
  simp only [cc3__kernel_b_eq_skeleton]; unfold cc3__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

section
variable (V : (c : Dev nD) → (b : Ref sig .tc) → Buf (Elt F) ((c : Thread nD τ).loc b))

/-- Each window's current staging memref at point `t`, and its wholeness. -/
abbrev ms3_0 (hO : Ok3 V) (t : Fin (cfgM3 V hO).N) : Memref sig .tc .vmem S1x1x128 .f32 := spec3_0.stage ((cfgM3 V hO).slots t 0)
abbrev hs3_0 (hO : Ok3 V) (t : Fin (cfgM3 V hO).N) : (ms3_0 V hO t).IsWhole := hstage3_0 (((cfgM3 V hO).slots t 0).cast nbuf3_0)
abbrev ms3_1 (hO : Ok3 V) (t : Fin (cfgM3 V hO).N) : Memref sig .tc .vmem S1x1x128 .f32 := spec3_1.stage ((cfgM3 V hO).slots t 1)
abbrev hs3_1 (hO : Ok3 V) (t : Fin (cfgM3 V hO).N) : (ms3_1 V hO t).IsWhole := hstage3_1 (((cfgM3 V hO).slots t 1).cast nbuf3_1)
abbrev ms3_2 (hO : Ok3 V) (t : Fin (cfgM3 V hO).N) : Memref sig .tc .vmem S1x1x128 .f32 := spec3_2.stage ((cfgM3 V hO).slots t 2)
abbrev hs3_2 (hO : Ok3 V) (t : Fin (cfgM3 V hO).N) : (ms3_2 V hO t).IsWhole := hstage3_2 (((cfgM3 V hO).slots t 2).cast nbuf3_2)

/-- The kernel body as the pipeline calls it at point `t`: the point, the two tables whole, the three current staging memrefs. -/
abbrev bodyAt3 (a : (pcfg3 (F := F)).Adm) (t : Fin (cfg3 a).N) : Prog (TpuEff nD τ sig (Elt F) Λ₀ .tc) PUnit :=
  cc3__kernel_b (grid3.coords t) (Memref.whole main_v30) (Memref.isWhole_whole _) (Memref.whole main_v31) (Memref.isWhole_whole _)
    (spec3_0.stage ((cfg3 a).slots t 0)) (hstage3_0 (((cfg3 a).slots t 0).cast nbuf3_0))
    (spec3_1.stage ((cfg3 a).slots t 1)) (hstage3_1 (((cfg3 a).slots t 1).cast nbuf3_1))
    (spec3_2.stage ((cfg3 a).slots t 2)) (hstage3_2 (((cfg3 a).slots t 2).cast nbuf3_2))

/-- The region's proof data on core `c`: the arrays as the region finds them; after the body each input's buffer at its
    block and the output's at the sum of the two input blocks; the invariant carries the scoped rest, the generator register
    and the two tables, whole; the gathered array, read by both input windows, is held half and half; nothing owed. -/
def dat3 (hO : Ok3 V) (c : Dev nD) : Dat τ (Elt F) Unit ℕ (UR sig nD τ) ℕ (cfgM3 V hO) c where
  A w := V c (Pipeline.arrRef spec3 w)
  after w t := match w with
    | ⟨0, _⟩ => iblk3 V hO c 0 t
    | ⟨1, _⟩ => iblk3 V hO c 1 t
    | ⟨2, _⟩ => out3_2 (iblk3 V hO c 0 t) (iblk3 V hO c 1 t)
  Φ _ := iprop(Pipeline.ΦA spec3 c ∗ (Pipeline.prefHeld pre3 c (fun _ => fullShare) (tbl3 V) : sProp 𝕄))
  q w := match w with
    | ⟨0, _⟩ => fullShare.left
    | ⟨1, _⟩ => fullShare.right
    | ⟨2, _⟩ => fullShare
  owed _ := 0

theorem A_eq3 (hO : Ok3 V) (c : Dev nD) (w : Fin (cfgM3 V hO).W) : (dat3 V hO c).A w = V c (Pipeline.arrRef spec3 w) := by
  dsimp only [dat3]

theorem after3_0 (hO : Ok3 V) (c : Dev nD) (t : Fin (cfgM3 V hO).N) : (dat3 V hO c).after 0 t = iblk3 V hO c 0 t := by dsimp only [dat3]; try rfl
theorem after3_1 (hO : Ok3 V) (c : Dev nD) (t : Fin (cfgM3 V hO).N) : (dat3 V hO c).after 1 t = iblk3 V hO c 1 t := by dsimp only [dat3]; try rfl
theorem after3_2 (hO : Ok3 V) (c : Dev nD) (t : Fin (cfgM3 V hO).N) : (dat3 V hO c).after 2 t = out3_2 (iblk3 V hO c 0 t) (iblk3 V hO c 1 t) := by dsimp only [dat3]; try rfl

theorem before3_0 (hO : Ok3 V) (c : Dev nD) (t : Fin (cfgM3 V hO).N) (d) : (dat3 V hO c).before 0 t d = iblk3 V hO c 0 t :=
  before3_0_of V hO (dat3 V hO c) (A_eq3 V hO c 0) (after3_0 V hO c) t d
theorem before3_1 (hO : Ok3 V) (c : Dev nD) (t : Fin (cfgM3 V hO).N) (d) : (dat3 V hO c).before 1 t d = iblk3 V hO c 1 t :=
  before3_1_of V hO (dat3 V hO c) (A_eq3 V hO c 1) (after3_1 V hO c) t d

def bodyPre3 (hO : Ok3 V) (c : Dev nD) (t : Fin (cfgM3 V hO).N) : sProp 𝕄 :=
  iprop((dat3 V hO c).Φ t.castSucc ∗ (dat3 V hO c).owesAt () t.castSucc
    ∗ (∃ d, owns (c : Thread nD τ) (ms3_0 V hO t) fullShare ((dat3 V hO c).before 0 t d))
    ∗ (∃ d, owns (c : Thread nD τ) (ms3_1 V hO t) fullShare ((dat3 V hO c).before 1 t d))
    ∗ (∃ d, owns (c : Thread nD τ) (ms3_2 V hO t) fullShare ((dat3 V hO c).before 2 t d)))

def bodyPost3 (hO : Ok3 V) (c : Dev nD) (t : Fin (cfgM3 V hO).N) : sProp 𝕄 :=
  iprop((dat3 V hO c).Φ t.succ ∗ (dat3 V hO c).owesAt () t.succ
    ∗ owns (c : Thread nD τ) (ms3_0 V hO t) fullShare ((dat3 V hO c).after 0 t)
    ∗ owns (c : Thread nD τ) (ms3_1 V hO t) fullShare ((dat3 V hO c).after 1 t)
    ∗ owns (c : Thread nD τ) (ms3_2 V hO t) fullShare ((dat3 V hO c).after 2 t))

/-- The body at any point: the two input buffers hold their blocks, the body adds them into the output buffer; the
    invariant and the tallies pass through untouched. -/
theorem sound_body3 (hO : Ok3 V) (c : Dev nD) (t : Fin (cfgM3 V hO).N) :
    bodyPre3 V hO c t ⊢ wp frame (wpE (defs₀ (F := F)) Variants.none c none) Set.univ (bodyAt3 (adm3 V hO) t) (fun _ => bodyPost3 V hO c t) := by
  unfold bodyPre3 bodyPost3 bodyAt3
  simp only [before3_0, before3_1]
  rw [show (dat3 V hO c).Φ t.succ = (dat3 V hO c).Φ t.castSucc from rfl,
    show (dat3 V hO c).owesAt () t.succ = (dat3 V hO c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ _ _ _ _ (iblk3 V hO c 0 t) (iblk3 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (hO : Ok3 V) (c : Dev nD) : BodyObligation (dat3 (F := F) V hO c) (defs₀ (F := F)) Variants.none () Set.univ := fun t => by
  rw [bigSep_W3, bigSep_W3]
  exact sound_body3 V hO c t
end

section
variable (V : (c : Dev nD) → (b : Ref sig .tc) → Buf (Elt F) ((c : Thread nD τ).loc b))

/-- The region's three arrays as points-to facts: the gathered array, read by both input windows, half and half; the output array whole. -/
theorem arrays3_eq (hO : Ok3 V) (c : Dev nD)
    (G : (w : Fin (cfgM3 V hO).W) → Buf (Elt F) (((cfgM3 V hO).win w).arr.view.loc (c : Thread nD τ))) :
    ((dat3 V hO c).arrays G : sProp 𝕄)
      = iprop((((c : Thread nD τ).loc main_v1) ↦{fullShare.left} G 0) ∗ (((c : Thread nD τ).loc main_v1) ↦{fullShare.right} G 1)
          ∗ (((c : Thread nD τ).loc main_v32) ↦{fullShare} G 2)) := by
  unfold Dat.arrays
  rw [bigSep_W3, (arr_whole3 0).set_eq_univ, (arr_whole3 2).set_eq_univ]
  rfl
end

/-- The two distinct buffers behind the region's three windows. -/
theorem arrImage3 : Finset.univ.image (Pipeline.arrRef spec3) = insert main_v1 {main_v32} := by decide

section
variable (W : Dev nD → Valuation τ sig (Elt F))

theorem arrBufs3_eq (c : Dev nD) (V : (b : Ref sig .tc) → Buf (Elt F) ((c : Thread nD τ).loc b)) :
    (Pipeline.arrBufs spec3 c V : sProp 𝕄)
      = iprop((((c : Thread nD τ).loc main_v1) ↦{fullShare} V main_v1) ∗ (((c : Thread nD τ).loc main_v32) ↦{fullShare} V main_v32)) := by
  unfold Pipeline.arrBufs
  rw [arrImage3, bigSep_insert (by decide), bigSep_singleton]
  rfl

/-- ENTRY: every unscoped buffer held at `W` gives the region its arrays (the gathered array split in two halves), its two
    tables whole, the tallies, the generator register and the rest of the unscoped buffers. -/
theorem entry3 (hO : Ok3 (VW W)) (c : Dev nD) :
    iprop(StableHlo.held (c : Thread nD τ) (Pipeline.ucRefs τ sig) (W c) ∗ Rr (F := F) c)
      ⊢ |={Set.univ}=> iprop((dat3 (VW W) hO c).arrays ((dat3 (VW W) hO c).arrAt · 0)
          ∗ Pipeline.prefHeld pre3 c (fun _ => fullShare) (tbl3 (VW W))
          ∗ (dat3 (VW W) hO c).owesAt () 0 ∗ (∃ r, prngReg c r)
          ∗ (Pipeline.unscopedRestP pre3 spec3 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM3 (VW W) hO) () winFacts₀3.arr_unscoped c (VW W c)]
  rw [show (Pipeline.arrBufs (cfgM3 (VW W) hO).spec c (VW W c) : sProp 𝕄) = Pipeline.arrBufs spec3 c (VW W c) from rfl,
    arrBufs3_eq, arrays3_eq]
  rw [show (Pipeline.unscopedRest (cfgM3 (VW W) hO).spec c (VW W c) : sProp 𝕄) = Pipeline.unscopedRest spec3 c (VW W c) from rfl,
    Pipeline.unscopedRest_split preFacts3 c (VW W c)]
  rw [show (fun k => VW W c (pre3.ref k)) = tbl3 (VW W) from funext fun k => V_pre3 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest3_update (c : Dev nD) (X : Buf (Elt F) ((c : Thread nD τ).loc main_v32)) :
    (Pipeline.unscopedRest spec3 c (fun b => Function.update (W c) main_v32 X b) : sProp 𝕄) = Pipeline.unscopedRest spec3 c (VW W c) := by
  unfold Pipeline.unscopedRest
  exact bigSep_congr fun b hb => by
    have hne : b ≠ main_v32 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit3 (hO : Ok3 (VW W)) (c : Dev nD) (X : Buf (Elt F) ((c : Thread nD τ).loc main_v32))
    (hX : (dat3 (VW W) hO c).arrAt 2 (cfgM3 (VW W) hO).N = X) :
    iprop((dat3 (VW W) hO c).arrays ((dat3 (VW W) hO c).arrAt · (cfgM3 (VW W) hO).N)
        ∗ (dat3 (VW W) hO c).owesAt () (Fin.last (cfgM3 (VW W) hO).N)
        ∗ iprop((∃ r, prngReg c r) ∗ Pipeline.prefHeld pre3 c (fun _ => fullShare) (tbl3 (VW W)))
        ∗ (Pipeline.unscopedRestP pre3 spec3 c (VW W c) : sProp 𝕄))
      ⊢ |={Set.univ}=> iprop(StableHlo.held (c : Thread nD τ) (Pipeline.ucRefs τ sig) (Function.update (W c) main_v32 X) ∗ Rr (F := F) c) := by
  rw [← Pipeline.unscopedBufs_held (Ix := Unit) (Name := ℕ) (U := UR sig nD τ) (Lvl := ℕ) c (Function.update (W c) main_v32 X)]
  rw [Pipeline.unscopedBufs_split₀ (fun _ : Unit => cfgM3 (VW W) hO) () winFacts₀3.arr_unscoped c _]
  rw [show ∀ V', (Pipeline.arrBufs (cfgM3 (VW W) hO).spec c V' : sProp 𝕄) = Pipeline.arrBufs spec3 c V' from fun _ => rfl,
    show ∀ V', (Pipeline.unscopedRest (cfgM3 (VW W) hO).spec c V' : sProp 𝕄) = Pipeline.unscopedRest spec3 c V' from fun _ => rfl,
    rest3_update W c X, Pipeline.unscopedRest_split preFacts3 c (VW W c), arrBufs3_eq]
  rw [show (fun k => VW W c (pre3.ref k)) = tbl3 (VW W) from funext fun k => V_pre3 (VW W) c k]
  rw [Function.update_of_ne (StableHlo.devRef_ne_of_ne (by decide : (main_v1 : Ref sig .tc) ≠ main_v32)), Function.update_self]
  rw [arrays3_eq, hX,
    show (dat3 (VW W) hO c).arrAt 0 (cfgM3 (VW W) hO).N = W c main_v1 from (dat3 (VW W) hO c).arrAt_in 0 rfl _,
    show (dat3 (VW W) hO c).arrAt 1 (cfgM3 (VW W) hO).N = W c main_v1 from (dat3 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.Kernel.GenP

end
-- ==== Proof.Kernel.RB4.lean ====
/- A row-gather region of the program: the region's proof data, its body obligation and its entry and exit. -/
import proofs.«175043_j76819785056407_2_alg».proof.Proof.Gen.Kernel.Launch
import proofs.«175043_j76819785056407_2_alg».proof.Proof.Gen.Kernel.Skeleton
import proofs.«175043_j76819785056407_2_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 4): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl4 : pre4.Contents (Elt F) := fun j => V (0 : Dev nD) (pre4.ref j)
theorem V_pre4 (c : Dev nD) (j : Fin 2) : V c (pre4.ref j) = tbl4 V j := by
  obtain rfl : c = 0 := Subsingleton.elim _ _; rfl
/-- Every table-indexed block lies inside the gathered array. -/
abbrev Ok4 : Prop := ok4 (F := F) (tbl4 V)
abbrev adm4 (hO : Ok4 V) : (pcfg4 (F := F)).Adm := ⟨tbl4 V, hO⟩
abbrev cfgM4 (hO : Ok4 V) : Pipeline.Cfg sig Λ₀ := cfg4 (adm4 V hO)

/-- Window `w`'s block at point `t`, read off its array as the region finds it. -/
def iblk4 (hO : Ok4 V) (c : Dev nD) (w : Fin (cfgM4 V hO).W) (t : Fin (cfgM4 V hO).N) :
    (((cfgM4 V hO).win w).xblock ((cfgM4 V hO).grid.coords t)).Idx → Elt F ((cfgM4 V hO).win w).elt :=
  (((cfgM4 V hO).win w).blk t).view.read (Elt F) (V c (Pipeline.arrRef spec4 w))

theorem before4_0_of (hO : Ok4 V) {c : Dev nD} (dat : Dat τ (Elt F) Unit ℕ (UR sig nD τ) ℕ (cfgM4 V hO) c) (hA : dat.A 0 = V c (Pipeline.arrRef spec4 0))
    (hafter : ∀ t, dat.after 0 t = iblk4 V hO c 0 t) (t : Fin (cfgM4 V hO).N) (d) : dat.before 0 t d = iblk4 V hO c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of (hO : Ok4 V) {c : Dev nD} (dat : Dat τ (Elt F) Unit ℕ (UR sig nD τ) ℕ (cfgM4 V hO) c) (hA : dat.A 1 = V c (Pipeline.arrRef spec4 1))
    (hafter : ∀ t, dat.after 1 t = iblk4 V hO c 1 t) (t : Fin (cfgM4 V hO).N) (d) : dat.before 1 t d = iblk4 V hO c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
end

/-- The body's one rectangle: the whole 1×1×128 block. -/
abbrev r4_0 : Rect S1x1x128 := Rect.unit (s := S1x1x128) ![0, 0, 0] S1x1x128.size inb_S1x1x128_S1x1x128_0_0_0

/-- The output block after the body: the sum of the two gathered rows. -/
def out4_2 (x0 x1 : Vec F S1x1x128 .f32) : Vec F S1x1x128 .f32 :=
  View.canon [⟨r4_0, k4_pay1 (View.ld x0 r4_0) (View.ld x1 r4_0)⟩]

theorem cover4_2 (p0 : Vec F S1x1x128 .f32) (y : S1x1x128.Idx) :
    ∃ pc ∈ ([⟨r4_0, p0⟩] : List (View.Piece (Elt F) S1x1x128 .f32)), y ∈ pc.1.set :=
  View.cover_of_tiled [⟨r4_0, p0⟩] S1x1x128.size (by rfl) y

set_option maxHeartbeats 1000000 in
/-- The body on whole staging memrefs: the two inputs stay, the output ends at the sum; the tables are not touched. -/
theorem sound_kernel4 (c : Dev nD) (E : Set ℕ) (i : grid4.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out4_2 x0 x1)) -∗ K ⟨⟩))
      ⊢ wp frame (wpE (defs₀ (F := F)) Variants.none c none) E (cc4__kernel_b i a1 ha1 a2 ha2 arg3 harg3 arg4 harg4 arg5 harg5) K := by
  simp only [cc4__kernel_b_eq_skeleton]; unfold cc4__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

section
variable (V : (c : Dev nD) → (b : Ref sig .tc) → Buf (Elt F) ((c : Thread nD τ).loc b))

/-- Each window's current staging memref at point `t`, and its wholeness. -/
abbrev ms4_0 (hO : Ok4 V) (t : Fin (cfgM4 V hO).N) : Memref sig .tc .vmem S1x1x128 .f32 := spec4_0.stage ((cfgM4 V hO).slots t 0)
abbrev hs4_0 (hO : Ok4 V) (t : Fin (cfgM4 V hO).N) : (ms4_0 V hO t).IsWhole := hstage4_0 (((cfgM4 V hO).slots t 0).cast nbuf4_0)
abbrev ms4_1 (hO : Ok4 V) (t : Fin (cfgM4 V hO).N) : Memref sig .tc .vmem S1x1x128 .f32 := spec4_1.stage ((cfgM4 V hO).slots t 1)
abbrev hs4_1 (hO : Ok4 V) (t : Fin (cfgM4 V hO).N) : (ms4_1 V hO t).IsWhole := hstage4_1 (((cfgM4 V hO).slots t 1).cast nbuf4_1)
abbrev ms4_2 (hO : Ok4 V) (t : Fin (cfgM4 V hO).N) : Memref sig .tc .vmem S1x1x128 .f32 := spec4_2.stage ((cfgM4 V hO).slots t 2)
abbrev hs4_2 (hO : Ok4 V) (t : Fin (cfgM4 V hO).N) : (ms4_2 V hO t).IsWhole := hstage4_2 (((cfgM4 V hO).slots t 2).cast nbuf4_2)

/-- The kernel body as the pipeline calls it at point `t`: the point, the two tables whole, the three current staging memrefs. -/
abbrev bodyAt4 (a : (pcfg4 (F := F)).Adm) (t : Fin (cfg4 a).N) : Prog (TpuEff nD τ sig (Elt F) Λ₀ .tc) PUnit :=
  cc4__kernel_b (grid4.coords t) (Memref.whole main_v34) (Memref.isWhole_whole _) (Memref.whole main_v35) (Memref.isWhole_whole _)
    (spec4_0.stage ((cfg4 a).slots t 0)) (hstage4_0 (((cfg4 a).slots t 0).cast nbuf4_0))
    (spec4_1.stage ((cfg4 a).slots t 1)) (hstage4_1 (((cfg4 a).slots t 1).cast nbuf4_1))
    (spec4_2.stage ((cfg4 a).slots t 2)) (hstage4_2 (((cfg4 a).slots t 2).cast nbuf4_2))

/-- The region's proof data on core `c`: the arrays as the region finds them; after the body each input's buffer at its
    block and the output's at the sum of the two input blocks; the invariant carries the scoped rest, the generator register
    and the two tables, whole; the gathered array, read by both input windows, is held half and half; nothing owed. -/
def dat4 (hO : Ok4 V) (c : Dev nD) : Dat τ (Elt F) Unit ℕ (UR sig nD τ) ℕ (cfgM4 V hO) c where
  A w := V c (Pipeline.arrRef spec4 w)
  after w t := match w with
    | ⟨0, _⟩ => iblk4 V hO c 0 t
    | ⟨1, _⟩ => iblk4 V hO c 1 t
    | ⟨2, _⟩ => out4_2 (iblk4 V hO c 0 t) (iblk4 V hO c 1 t)
  Φ _ := iprop(Pipeline.ΦA spec4 c ∗ (Pipeline.prefHeld pre4 c (fun _ => fullShare) (tbl4 V) : sProp 𝕄))
  q w := match w with
    | ⟨0, _⟩ => fullShare.left
    | ⟨1, _⟩ => fullShare.right
    | ⟨2, _⟩ => fullShare
  owed _ := 0

theorem A_eq4 (hO : Ok4 V) (c : Dev nD) (w : Fin (cfgM4 V hO).W) : (dat4 V hO c).A w = V c (Pipeline.arrRef spec4 w) := by
  dsimp only [dat4]

theorem after4_0 (hO : Ok4 V) (c : Dev nD) (t : Fin (cfgM4 V hO).N) : (dat4 V hO c).after 0 t = iblk4 V hO c 0 t := by dsimp only [dat4]; try rfl
theorem after4_1 (hO : Ok4 V) (c : Dev nD) (t : Fin (cfgM4 V hO).N) : (dat4 V hO c).after 1 t = iblk4 V hO c 1 t := by dsimp only [dat4]; try rfl
theorem after4_2 (hO : Ok4 V) (c : Dev nD) (t : Fin (cfgM4 V hO).N) : (dat4 V hO c).after 2 t = out4_2 (iblk4 V hO c 0 t) (iblk4 V hO c 1 t) := by dsimp only [dat4]; try rfl

theorem before4_0 (hO : Ok4 V) (c : Dev nD) (t : Fin (cfgM4 V hO).N) (d) : (dat4 V hO c).before 0 t d = iblk4 V hO c 0 t :=
  before4_0_of V hO (dat4 V hO c) (A_eq4 V hO c 0) (after4_0 V hO c) t d
theorem before4_1 (hO : Ok4 V) (c : Dev nD) (t : Fin (cfgM4 V hO).N) (d) : (dat4 V hO c).before 1 t d = iblk4 V hO c 1 t :=
  before4_1_of V hO (dat4 V hO c) (A_eq4 V hO c 1) (after4_1 V hO c) t d

def bodyPre4 (hO : Ok4 V) (c : Dev nD) (t : Fin (cfgM4 V hO).N) : sProp 𝕄 :=
  iprop((dat4 V hO c).Φ t.castSucc ∗ (dat4 V hO c).owesAt () t.castSucc
    ∗ (∃ d, owns (c : Thread nD τ) (ms4_0 V hO t) fullShare ((dat4 V hO c).before 0 t d))
    ∗ (∃ d, owns (c : Thread nD τ) (ms4_1 V hO t) fullShare ((dat4 V hO c).before 1 t d))
    ∗ (∃ d, owns (c : Thread nD τ) (ms4_2 V hO t) fullShare ((dat4 V hO c).before 2 t d)))

def bodyPost4 (hO : Ok4 V) (c : Dev nD) (t : Fin (cfgM4 V hO).N) : sProp 𝕄 :=
  iprop((dat4 V hO c).Φ t.succ ∗ (dat4 V hO c).owesAt () t.succ
    ∗ owns (c : Thread nD τ) (ms4_0 V hO t) fullShare ((dat4 V hO c).after 0 t)
    ∗ owns (c : Thread nD τ) (ms4_1 V hO t) fullShare ((dat4 V hO c).after 1 t)
    ∗ owns (c : Thread nD τ) (ms4_2 V hO t) fullShare ((dat4 V hO c).after 2 t))

/-- The body at any point: the two input buffers hold their blocks, the body adds them into the output buffer; the
    invariant and the tallies pass through untouched. -/
theorem sound_body4 (hO : Ok4 V) (c : Dev nD) (t : Fin (cfgM4 V hO).N) :
    bodyPre4 V hO c t ⊢ wp frame (wpE (defs₀ (F := F)) Variants.none c none) Set.univ (bodyAt4 (adm4 V hO) t) (fun _ => bodyPost4 V hO c t) := by
  unfold bodyPre4 bodyPost4 bodyAt4
  simp only [before4_0, before4_1]
  rw [show (dat4 V hO c).Φ t.succ = (dat4 V hO c).Φ t.castSucc from rfl,
    show (dat4 V hO c).owesAt () t.succ = (dat4 V hO c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ _ _ _ _ (iblk4 V hO c 0 t) (iblk4 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (hO : Ok4 V) (c : Dev nD) : BodyObligation (dat4 (F := F) V hO c) (defs₀ (F := F)) Variants.none () Set.univ := fun t => by
  rw [bigSep_W4, bigSep_W4]
  exact sound_body4 V hO c t
end

section
variable (V : (c : Dev nD) → (b : Ref sig .tc) → Buf (Elt F) ((c : Thread nD τ).loc b))

/-- The region's three arrays as points-to facts: the gathered array, read by both input windows, half and half; the output array whole. -/
theorem arrays4_eq (hO : Ok4 V) (c : Dev nD)
    (G : (w : Fin (cfgM4 V hO).W) → Buf (Elt F) (((cfgM4 V hO).win w).arr.view.loc (c : Thread nD τ))) :
    ((dat4 V hO c).arrays G : sProp 𝕄)
      = iprop((((c : Thread nD τ).loc main_v1) ↦{fullShare.left} G 0) ∗ (((c : Thread nD τ).loc main_v1) ↦{fullShare.right} G 1)
          ∗ (((c : Thread nD τ).loc main_v36) ↦{fullShare} G 2)) := by
  unfold Dat.arrays
  rw [bigSep_W4, (arr_whole4 0).set_eq_univ, (arr_whole4 2).set_eq_univ]
  rfl
end

/-- The two distinct buffers behind the region's three windows. -/
theorem arrImage4 : Finset.univ.image (Pipeline.arrRef spec4) = insert main_v1 {main_v36} := by decide

section
variable (W : Dev nD → Valuation τ sig (Elt F))

theorem arrBufs4_eq (c : Dev nD) (V : (b : Ref sig .tc) → Buf (Elt F) ((c : Thread nD τ).loc b)) :
    (Pipeline.arrBufs spec4 c V : sProp 𝕄)
      = iprop((((c : Thread nD τ).loc main_v1) ↦{fullShare} V main_v1) ∗ (((c : Thread nD τ).loc main_v36) ↦{fullShare} V main_v36)) := by
  unfold Pipeline.arrBufs
  rw [arrImage4, bigSep_insert (by decide), bigSep_singleton]
  rfl

/-- ENTRY: every unscoped buffer held at `W` gives the region its arrays (the gathered array split in two halves), its two
    tables whole, the tallies, the generator register and the rest of the unscoped buffers. -/
theorem entry4 (hO : Ok4 (VW W)) (c : Dev nD) :
    iprop(StableHlo.held (c : Thread nD τ) (Pipeline.ucRefs τ sig) (W c) ∗ Rr (F := F) c)
      ⊢ |={Set.univ}=> iprop((dat4 (VW W) hO c).arrays ((dat4 (VW W) hO c).arrAt · 0)
          ∗ Pipeline.prefHeld pre4 c (fun _ => fullShare) (tbl4 (VW W))
          ∗ (dat4 (VW W) hO c).owesAt () 0 ∗ (∃ r, prngReg c r)
          ∗ (Pipeline.unscopedRestP pre4 spec4 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM4 (VW W) hO) () winFacts₀4.arr_unscoped c (VW W c)]
  rw [show (Pipeline.arrBufs (cfgM4 (VW W) hO).spec c (VW W c) : sProp 𝕄) = Pipeline.arrBufs spec4 c (VW W c) from rfl,
    arrBufs4_eq, arrays4_eq]
  rw [show (Pipeline.unscopedRest (cfgM4 (VW W) hO).spec c (VW W c) : sProp 𝕄) = Pipeline.unscopedRest spec4 c (VW W c) from rfl,
    Pipeline.unscopedRest_split preFacts4 c (VW W c)]
  rw [show (fun k => VW W c (pre4.ref k)) = tbl4 (VW W) from funext fun k => V_pre4 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest4_update (c : Dev nD) (X : Buf (Elt F) ((c : Thread nD τ).loc main_v36)) :
    (Pipeline.unscopedRest spec4 c (fun b => Function.update (W c) main_v36 X b) : sProp 𝕄) = Pipeline.unscopedRest spec4 c (VW W c) := by
  unfold Pipeline.unscopedRest
  exact bigSep_congr fun b hb => by
    have hne : b ≠ main_v36 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit4 (hO : Ok4 (VW W)) (c : Dev nD) (X : Buf (Elt F) ((c : Thread nD τ).loc main_v36))
    (hX : (dat4 (VW W) hO c).arrAt 2 (cfgM4 (VW W) hO).N = X) :
    iprop((dat4 (VW W) hO c).arrays ((dat4 (VW W) hO c).arrAt · (cfgM4 (VW W) hO).N)
        ∗ (dat4 (VW W) hO c).owesAt () (Fin.last (cfgM4 (VW W) hO).N)
        ∗ iprop((∃ r, prngReg c r) ∗ Pipeline.prefHeld pre4 c (fun _ => fullShare) (tbl4 (VW W)))
        ∗ (Pipeline.unscopedRestP pre4 spec4 c (VW W c) : sProp 𝕄))
      ⊢ |={Set.univ}=> iprop(StableHlo.held (c : Thread nD τ) (Pipeline.ucRefs τ sig) (Function.update (W c) main_v36 X) ∗ Rr (F := F) c) := by
  rw [← Pipeline.unscopedBufs_held (Ix := Unit) (Name := ℕ) (U := UR sig nD τ) (Lvl := ℕ) c (Function.update (W c) main_v36 X)]
  rw [Pipeline.unscopedBufs_split₀ (fun _ : Unit => cfgM4 (VW W) hO) () winFacts₀4.arr_unscoped c _]
  rw [show ∀ V', (Pipeline.arrBufs (cfgM4 (VW W) hO).spec c V' : sProp 𝕄) = Pipeline.arrBufs spec4 c V' from fun _ => rfl,
    show ∀ V', (Pipeline.unscopedRest (cfgM4 (VW W) hO).spec c V' : sProp 𝕄) = Pipeline.unscopedRest spec4 c V' from fun _ => rfl,
    rest4_update W c X, Pipeline.unscopedRest_split preFacts4 c (VW W c), arrBufs4_eq]
  rw [show (fun k => VW W c (pre4.ref k)) = tbl4 (VW W) from funext fun k => V_pre4 (VW W) c k]
  rw [Function.update_of_ne (StableHlo.devRef_ne_of_ne (by decide : (main_v1 : Ref sig .tc) ≠ main_v36)), Function.update_self]
  rw [arrays4_eq, hX,
    show (dat4 (VW W) hO c).arrAt 0 (cfgM4 (VW W) hO).N = W c main_v1 from (dat4 (VW W) hO c).arrAt_in 0 rfl _,
    show (dat4 (VW W) hO c).arrAt 1 (cfgM4 (VW W) hO).N = W c main_v1 from (dat4 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.Kernel.GenP

end
-- ==== Proof.Kernel.RB5.lean ====
/- A row-gather region of the program: the region's proof data, its body obligation and its entry and exit. -/
import proofs.«175043_j76819785056407_2_alg».proof.Proof.Gen.Kernel.Launch
import proofs.«175043_j76819785056407_2_alg».proof.Proof.Gen.Kernel.Skeleton
import proofs.«175043_j76819785056407_2_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 5): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl5 : pre5.Contents (Elt F) := fun j => V (0 : Dev nD) (pre5.ref j)
theorem V_pre5 (c : Dev nD) (j : Fin 2) : V c (pre5.ref j) = tbl5 V j := by
  obtain rfl : c = 0 := Subsingleton.elim _ _; rfl
/-- Every table-indexed block lies inside the gathered array. -/
abbrev Ok5 : Prop := ok5 (F := F) (tbl5 V)
abbrev adm5 (hO : Ok5 V) : (pcfg5 (F := F)).Adm := ⟨tbl5 V, hO⟩
abbrev cfgM5 (hO : Ok5 V) : Pipeline.Cfg sig Λ₀ := cfg5 (adm5 V hO)

/-- Window `w`'s block at point `t`, read off its array as the region finds it. -/
def iblk5 (hO : Ok5 V) (c : Dev nD) (w : Fin (cfgM5 V hO).W) (t : Fin (cfgM5 V hO).N) :
    (((cfgM5 V hO).win w).xblock ((cfgM5 V hO).grid.coords t)).Idx → Elt F ((cfgM5 V hO).win w).elt :=
  (((cfgM5 V hO).win w).blk t).view.read (Elt F) (V c (Pipeline.arrRef spec5 w))

theorem before5_0_of (hO : Ok5 V) {c : Dev nD} (dat : Dat τ (Elt F) Unit ℕ (UR sig nD τ) ℕ (cfgM5 V hO) c) (hA : dat.A 0 = V c (Pipeline.arrRef spec5 0))
    (hafter : ∀ t, dat.after 0 t = iblk5 V hO c 0 t) (t : Fin (cfgM5 V hO).N) (d) : dat.before 0 t d = iblk5 V hO c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of (hO : Ok5 V) {c : Dev nD} (dat : Dat τ (Elt F) Unit ℕ (UR sig nD τ) ℕ (cfgM5 V hO) c) (hA : dat.A 1 = V c (Pipeline.arrRef spec5 1))
    (hafter : ∀ t, dat.after 1 t = iblk5 V hO c 1 t) (t : Fin (cfgM5 V hO).N) (d) : dat.before 1 t d = iblk5 V hO c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
end

/-- The body's one rectangle: the whole 1×1×128 block. -/
abbrev r5_0 : Rect S1x1x128 := Rect.unit (s := S1x1x128) ![0, 0, 0] S1x1x128.size inb_S1x1x128_S1x1x128_0_0_0

/-- The output block after the body: the sum of the two gathered rows. -/
def out5_2 (x0 x1 : Vec F S1x1x128 .f32) : Vec F S1x1x128 .f32 :=
  View.canon [⟨r5_0, k5_pay1 (View.ld x0 r5_0) (View.ld x1 r5_0)⟩]

theorem cover5_2 (p0 : Vec F S1x1x128 .f32) (y : S1x1x128.Idx) :
    ∃ pc ∈ ([⟨r5_0, p0⟩] : List (View.Piece (Elt F) S1x1x128 .f32)), y ∈ pc.1.set :=
  View.cover_of_tiled [⟨r5_0, p0⟩] S1x1x128.size (by rfl) y

set_option maxHeartbeats 1000000 in
/-- The body on whole staging memrefs: the two inputs stay, the output ends at the sum; the tables are not touched. -/
theorem sound_kernel5 (c : Dev nD) (E : Set ℕ) (i : grid5.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out5_2 x0 x1)) -∗ K ⟨⟩))
      ⊢ wp frame (wpE (defs₀ (F := F)) Variants.none c none) E (cc5__kernel_b i a1 ha1 a2 ha2 arg3 harg3 arg4 harg4 arg5 harg5) K := by
  simp only [cc5__kernel_b_eq_skeleton]; unfold cc5__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

section
variable (V : (c : Dev nD) → (b : Ref sig .tc) → Buf (Elt F) ((c : Thread nD τ).loc b))

/-- Each window's current staging memref at point `t`, and its wholeness. -/
abbrev ms5_0 (hO : Ok5 V) (t : Fin (cfgM5 V hO).N) : Memref sig .tc .vmem S1x1x128 .f32 := spec5_0.stage ((cfgM5 V hO).slots t 0)
abbrev hs5_0 (hO : Ok5 V) (t : Fin (cfgM5 V hO).N) : (ms5_0 V hO t).IsWhole := hstage5_0 (((cfgM5 V hO).slots t 0).cast nbuf5_0)
abbrev ms5_1 (hO : Ok5 V) (t : Fin (cfgM5 V hO).N) : Memref sig .tc .vmem S1x1x128 .f32 := spec5_1.stage ((cfgM5 V hO).slots t 1)
abbrev hs5_1 (hO : Ok5 V) (t : Fin (cfgM5 V hO).N) : (ms5_1 V hO t).IsWhole := hstage5_1 (((cfgM5 V hO).slots t 1).cast nbuf5_1)
abbrev ms5_2 (hO : Ok5 V) (t : Fin (cfgM5 V hO).N) : Memref sig .tc .vmem S1x1x128 .f32 := spec5_2.stage ((cfgM5 V hO).slots t 2)
abbrev hs5_2 (hO : Ok5 V) (t : Fin (cfgM5 V hO).N) : (ms5_2 V hO t).IsWhole := hstage5_2 (((cfgM5 V hO).slots t 2).cast nbuf5_2)

/-- The kernel body as the pipeline calls it at point `t`: the point, the two tables whole, the three current staging memrefs. -/
abbrev bodyAt5 (a : (pcfg5 (F := F)).Adm) (t : Fin (cfg5 a).N) : Prog (TpuEff nD τ sig (Elt F) Λ₀ .tc) PUnit :=
  cc5__kernel_b (grid5.coords t) (Memref.whole main_v38) (Memref.isWhole_whole _) (Memref.whole main_v39) (Memref.isWhole_whole _)
    (spec5_0.stage ((cfg5 a).slots t 0)) (hstage5_0 (((cfg5 a).slots t 0).cast nbuf5_0))
    (spec5_1.stage ((cfg5 a).slots t 1)) (hstage5_1 (((cfg5 a).slots t 1).cast nbuf5_1))
    (spec5_2.stage ((cfg5 a).slots t 2)) (hstage5_2 (((cfg5 a).slots t 2).cast nbuf5_2))

/-- The region's proof data on core `c`: the arrays as the region finds them; after the body each input's buffer at its
    block and the output's at the sum of the two input blocks; the invariant carries the scoped rest, the generator register
    and the two tables, whole; the gathered array, read by both input windows, is held half and half; nothing owed. -/
def dat5 (hO : Ok5 V) (c : Dev nD) : Dat τ (Elt F) Unit ℕ (UR sig nD τ) ℕ (cfgM5 V hO) c where
  A w := V c (Pipeline.arrRef spec5 w)
  after w t := match w with
    | ⟨0, _⟩ => iblk5 V hO c 0 t
    | ⟨1, _⟩ => iblk5 V hO c 1 t
    | ⟨2, _⟩ => out5_2 (iblk5 V hO c 0 t) (iblk5 V hO c 1 t)
  Φ _ := iprop(Pipeline.ΦA spec5 c ∗ (Pipeline.prefHeld pre5 c (fun _ => fullShare) (tbl5 V) : sProp 𝕄))
  q w := match w with
    | ⟨0, _⟩ => fullShare.left
    | ⟨1, _⟩ => fullShare.right
    | ⟨2, _⟩ => fullShare
  owed _ := 0

theorem A_eq5 (hO : Ok5 V) (c : Dev nD) (w : Fin (cfgM5 V hO).W) : (dat5 V hO c).A w = V c (Pipeline.arrRef spec5 w) := by
  dsimp only [dat5]

theorem after5_0 (hO : Ok5 V) (c : Dev nD) (t : Fin (cfgM5 V hO).N) : (dat5 V hO c).after 0 t = iblk5 V hO c 0 t := by dsimp only [dat5]; try rfl
theorem after5_1 (hO : Ok5 V) (c : Dev nD) (t : Fin (cfgM5 V hO).N) : (dat5 V hO c).after 1 t = iblk5 V hO c 1 t := by dsimp only [dat5]; try rfl
theorem after5_2 (hO : Ok5 V) (c : Dev nD) (t : Fin (cfgM5 V hO).N) : (dat5 V hO c).after 2 t = out5_2 (iblk5 V hO c 0 t) (iblk5 V hO c 1 t) := by dsimp only [dat5]; try rfl

theorem before5_0 (hO : Ok5 V) (c : Dev nD) (t : Fin (cfgM5 V hO).N) (d) : (dat5 V hO c).before 0 t d = iblk5 V hO c 0 t :=
  before5_0_of V hO (dat5 V hO c) (A_eq5 V hO c 0) (after5_0 V hO c) t d
theorem before5_1 (hO : Ok5 V) (c : Dev nD) (t : Fin (cfgM5 V hO).N) (d) : (dat5 V hO c).before 1 t d = iblk5 V hO c 1 t :=
  before5_1_of V hO (dat5 V hO c) (A_eq5 V hO c 1) (after5_1 V hO c) t d

def bodyPre5 (hO : Ok5 V) (c : Dev nD) (t : Fin (cfgM5 V hO).N) : sProp 𝕄 :=
  iprop((dat5 V hO c).Φ t.castSucc ∗ (dat5 V hO c).owesAt () t.castSucc
    ∗ (∃ d, owns (c : Thread nD τ) (ms5_0 V hO t) fullShare ((dat5 V hO c).before 0 t d))
    ∗ (∃ d, owns (c : Thread nD τ) (ms5_1 V hO t) fullShare ((dat5 V hO c).before 1 t d))
    ∗ (∃ d, owns (c : Thread nD τ) (ms5_2 V hO t) fullShare ((dat5 V hO c).before 2 t d)))

def bodyPost5 (hO : Ok5 V) (c : Dev nD) (t : Fin (cfgM5 V hO).N) : sProp 𝕄 :=
  iprop((dat5 V hO c).Φ t.succ ∗ (dat5 V hO c).owesAt () t.succ
    ∗ owns (c : Thread nD τ) (ms5_0 V hO t) fullShare ((dat5 V hO c).after 0 t)
    ∗ owns (c : Thread nD τ) (ms5_1 V hO t) fullShare ((dat5 V hO c).after 1 t)
    ∗ owns (c : Thread nD τ) (ms5_2 V hO t) fullShare ((dat5 V hO c).after 2 t))

/-- The body at any point: the two input buffers hold their blocks, the body adds them into the output buffer; the
    invariant and the tallies pass through untouched. -/
theorem sound_body5 (hO : Ok5 V) (c : Dev nD) (t : Fin (cfgM5 V hO).N) :
    bodyPre5 V hO c t ⊢ wp frame (wpE (defs₀ (F := F)) Variants.none c none) Set.univ (bodyAt5 (adm5 V hO) t) (fun _ => bodyPost5 V hO c t) := by
  unfold bodyPre5 bodyPost5 bodyAt5
  simp only [before5_0, before5_1]
  rw [show (dat5 V hO c).Φ t.succ = (dat5 V hO c).Φ t.castSucc from rfl,
    show (dat5 V hO c).owesAt () t.succ = (dat5 V hO c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ _ _ _ _ (iblk5 V hO c 0 t) (iblk5 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (hO : Ok5 V) (c : Dev nD) : BodyObligation (dat5 (F := F) V hO c) (defs₀ (F := F)) Variants.none () Set.univ := fun t => by
  rw [bigSep_W5, bigSep_W5]
  exact sound_body5 V hO c t
end

section
variable (V : (c : Dev nD) → (b : Ref sig .tc) → Buf (Elt F) ((c : Thread nD τ).loc b))

/-- The region's three arrays as points-to facts: the gathered array, read by both input windows, half and half; the output array whole. -/
theorem arrays5_eq (hO : Ok5 V) (c : Dev nD)
    (G : (w : Fin (cfgM5 V hO).W) → Buf (Elt F) (((cfgM5 V hO).win w).arr.view.loc (c : Thread nD τ))) :
    ((dat5 V hO c).arrays G : sProp 𝕄)
      = iprop((((c : Thread nD τ).loc main_v1) ↦{fullShare.left} G 0) ∗ (((c : Thread nD τ).loc main_v1) ↦{fullShare.right} G 1)
          ∗ (((c : Thread nD τ).loc main_v40) ↦{fullShare} G 2)) := by
  unfold Dat.arrays
  rw [bigSep_W5, (arr_whole5 0).set_eq_univ, (arr_whole5 2).set_eq_univ]
  rfl
end

/-- The two distinct buffers behind the region's three windows. -/
theorem arrImage5 : Finset.univ.image (Pipeline.arrRef spec5) = insert main_v1 {main_v40} := by decide

section
variable (W : Dev nD → Valuation τ sig (Elt F))

theorem arrBufs5_eq (c : Dev nD) (V : (b : Ref sig .tc) → Buf (Elt F) ((c : Thread nD τ).loc b)) :
    (Pipeline.arrBufs spec5 c V : sProp 𝕄)
      = iprop((((c : Thread nD τ).loc main_v1) ↦{fullShare} V main_v1) ∗ (((c : Thread nD τ).loc main_v40) ↦{fullShare} V main_v40)) := by
  unfold Pipeline.arrBufs
  rw [arrImage5, bigSep_insert (by decide), bigSep_singleton]
  rfl

/-- ENTRY: every unscoped buffer held at `W` gives the region its arrays (the gathered array split in two halves), its two
    tables whole, the tallies, the generator register and the rest of the unscoped buffers. -/
theorem entry5 (hO : Ok5 (VW W)) (c : Dev nD) :
    iprop(StableHlo.held (c : Thread nD τ) (Pipeline.ucRefs τ sig) (W c) ∗ Rr (F := F) c)
      ⊢ |={Set.univ}=> iprop((dat5 (VW W) hO c).arrays ((dat5 (VW W) hO c).arrAt · 0)
          ∗ Pipeline.prefHeld pre5 c (fun _ => fullShare) (tbl5 (VW W))
          ∗ (dat5 (VW W) hO c).owesAt () 0 ∗ (∃ r, prngReg c r)
          ∗ (Pipeline.unscopedRestP pre5 spec5 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM5 (VW W) hO) () winFacts₀5.arr_unscoped c (VW W c)]
  rw [show (Pipeline.arrBufs (cfgM5 (VW W) hO).spec c (VW W c) : sProp 𝕄) = Pipeline.arrBufs spec5 c (VW W c) from rfl,
    arrBufs5_eq, arrays5_eq]
  rw [show (Pipeline.unscopedRest (cfgM5 (VW W) hO).spec c (VW W c) : sProp 𝕄) = Pipeline.unscopedRest spec5 c (VW W c) from rfl,
    Pipeline.unscopedRest_split preFacts5 c (VW W c)]
  rw [show (fun k => VW W c (pre5.ref k)) = tbl5 (VW W) from funext fun k => V_pre5 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest5_update (c : Dev nD) (X : Buf (Elt F) ((c : Thread nD τ).loc main_v40)) :
    (Pipeline.unscopedRest spec5 c (fun b => Function.update (W c) main_v40 X b) : sProp 𝕄) = Pipeline.unscopedRest spec5 c (VW W c) := by
  unfold Pipeline.unscopedRest
  exact bigSep_congr fun b hb => by
    have hne : b ≠ main_v40 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit5 (hO : Ok5 (VW W)) (c : Dev nD) (X : Buf (Elt F) ((c : Thread nD τ).loc main_v40))
    (hX : (dat5 (VW W) hO c).arrAt 2 (cfgM5 (VW W) hO).N = X) :
    iprop((dat5 (VW W) hO c).arrays ((dat5 (VW W) hO c).arrAt · (cfgM5 (VW W) hO).N)
        ∗ (dat5 (VW W) hO c).owesAt () (Fin.last (cfgM5 (VW W) hO).N)
        ∗ iprop((∃ r, prngReg c r) ∗ Pipeline.prefHeld pre5 c (fun _ => fullShare) (tbl5 (VW W)))
        ∗ (Pipeline.unscopedRestP pre5 spec5 c (VW W c) : sProp 𝕄))
      ⊢ |={Set.univ}=> iprop(StableHlo.held (c : Thread nD τ) (Pipeline.ucRefs τ sig) (Function.update (W c) main_v40 X) ∗ Rr (F := F) c) := by
  rw [← Pipeline.unscopedBufs_held (Ix := Unit) (Name := ℕ) (U := UR sig nD τ) (Lvl := ℕ) c (Function.update (W c) main_v40 X)]
  rw [Pipeline.unscopedBufs_split₀ (fun _ : Unit => cfgM5 (VW W) hO) () winFacts₀5.arr_unscoped c _]
  rw [show ∀ V', (Pipeline.arrBufs (cfgM5 (VW W) hO).spec c V' : sProp 𝕄) = Pipeline.arrBufs spec5 c V' from fun _ => rfl,
    show ∀ V', (Pipeline.unscopedRest (cfgM5 (VW W) hO).spec c V' : sProp 𝕄) = Pipeline.unscopedRest spec5 c V' from fun _ => rfl,
    rest5_update W c X, Pipeline.unscopedRest_split preFacts5 c (VW W c), arrBufs5_eq]
  rw [show (fun k => VW W c (pre5.ref k)) = tbl5 (VW W) from funext fun k => V_pre5 (VW W) c k]
  rw [Function.update_of_ne (StableHlo.devRef_ne_of_ne (by decide : (main_v1 : Ref sig .tc) ≠ main_v40)), Function.update_self]
  rw [arrays5_eq, hX,
    show (dat5 (VW W) hO c).arrAt 0 (cfgM5 (VW W) hO).N = W c main_v1 from (dat5 (VW W) hO c).arrAt_in 0 rfl _,
    show (dat5 (VW W) hO c).arrAt 1 (cfgM5 (VW W) hO).N = W c main_v1 from (dat5 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.Kernel.GenP

end
-- ==== Proof.Kernel.RB6.lean ====
/- A row-gather region of the program: the region's proof data, its body obligation and its entry and exit. -/
import proofs.«175043_j76819785056407_2_alg».proof.Proof.Gen.Kernel.Launch
import proofs.«175043_j76819785056407_2_alg».proof.Proof.Gen.Kernel.Skeleton
import proofs.«175043_j76819785056407_2_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 6): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl6 : pre6.Contents (Elt F) := fun j => V (0 : Dev nD) (pre6.ref j)
theorem V_pre6 (c : Dev nD) (j : Fin 2) : V c (pre6.ref j) = tbl6 V j := by
  obtain rfl : c = 0 := Subsingleton.elim _ _; rfl
/-- Every table-indexed block lies inside the gathered array. -/
abbrev Ok6 : Prop := ok6 (F := F) (tbl6 V)
abbrev adm6 (hO : Ok6 V) : (pcfg6 (F := F)).Adm := ⟨tbl6 V, hO⟩
abbrev cfgM6 (hO : Ok6 V) : Pipeline.Cfg sig Λ₀ := cfg6 (adm6 V hO)

/-- Window `w`'s block at point `t`, read off its array as the region finds it. -/
def iblk6 (hO : Ok6 V) (c : Dev nD) (w : Fin (cfgM6 V hO).W) (t : Fin (cfgM6 V hO).N) :
    (((cfgM6 V hO).win w).xblock ((cfgM6 V hO).grid.coords t)).Idx → Elt F ((cfgM6 V hO).win w).elt :=
  (((cfgM6 V hO).win w).blk t).view.read (Elt F) (V c (Pipeline.arrRef spec6 w))

theorem before6_0_of (hO : Ok6 V) {c : Dev nD} (dat : Dat τ (Elt F) Unit ℕ (UR sig nD τ) ℕ (cfgM6 V hO) c) (hA : dat.A 0 = V c (Pipeline.arrRef spec6 0))
    (hafter : ∀ t, dat.after 0 t = iblk6 V hO c 0 t) (t : Fin (cfgM6 V hO).N) (d) : dat.before 0 t d = iblk6 V hO c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of (hO : Ok6 V) {c : Dev nD} (dat : Dat τ (Elt F) Unit ℕ (UR sig nD τ) ℕ (cfgM6 V hO) c) (hA : dat.A 1 = V c (Pipeline.arrRef spec6 1))
    (hafter : ∀ t, dat.after 1 t = iblk6 V hO c 1 t) (t : Fin (cfgM6 V hO).N) (d) : dat.before 1 t d = iblk6 V hO c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
end

/-- The body's one rectangle: the whole 1×1×128 block. -/
abbrev r6_0 : Rect S1x1x128 := Rect.unit (s := S1x1x128) ![0, 0, 0] S1x1x128.size inb_S1x1x128_S1x1x128_0_0_0

/-- The output block after the body: the sum of the two gathered rows. -/
def out6_2 (x0 x1 : Vec F S1x1x128 .f32) : Vec F S1x1x128 .f32 :=
  View.canon [⟨r6_0, k6_pay1 (View.ld x0 r6_0) (View.ld x1 r6_0)⟩]

theorem cover6_2 (p0 : Vec F S1x1x128 .f32) (y : S1x1x128.Idx) :
    ∃ pc ∈ ([⟨r6_0, p0⟩] : List (View.Piece (Elt F) S1x1x128 .f32)), y ∈ pc.1.set :=
  View.cover_of_tiled [⟨r6_0, p0⟩] S1x1x128.size (by rfl) y

set_option maxHeartbeats 1000000 in
/-- The body on whole staging memrefs: the two inputs stay, the output ends at the sum; the tables are not touched. -/
theorem sound_kernel6 (c : Dev nD) (E : Set ℕ) (i : grid6.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out6_2 x0 x1)) -∗ K ⟨⟩))
      ⊢ wp frame (wpE (defs₀ (F := F)) Variants.none c none) E (cc6__kernel_b i a1 ha1 a2 ha2 arg3 harg3 arg4 harg4 arg5 harg5) K := by
  simp only [cc6__kernel_b_eq_skeleton]; unfold cc6__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

section
variable (V : (c : Dev nD) → (b : Ref sig .tc) → Buf (Elt F) ((c : Thread nD τ).loc b))

/-- Each window's current staging memref at point `t`, and its wholeness. -/
abbrev ms6_0 (hO : Ok6 V) (t : Fin (cfgM6 V hO).N) : Memref sig .tc .vmem S1x1x128 .f32 := spec6_0.stage ((cfgM6 V hO).slots t 0)
abbrev hs6_0 (hO : Ok6 V) (t : Fin (cfgM6 V hO).N) : (ms6_0 V hO t).IsWhole := hstage6_0 (((cfgM6 V hO).slots t 0).cast nbuf6_0)
abbrev ms6_1 (hO : Ok6 V) (t : Fin (cfgM6 V hO).N) : Memref sig .tc .vmem S1x1x128 .f32 := spec6_1.stage ((cfgM6 V hO).slots t 1)
abbrev hs6_1 (hO : Ok6 V) (t : Fin (cfgM6 V hO).N) : (ms6_1 V hO t).IsWhole := hstage6_1 (((cfgM6 V hO).slots t 1).cast nbuf6_1)
abbrev ms6_2 (hO : Ok6 V) (t : Fin (cfgM6 V hO).N) : Memref sig .tc .vmem S1x1x128 .f32 := spec6_2.stage ((cfgM6 V hO).slots t 2)
abbrev hs6_2 (hO : Ok6 V) (t : Fin (cfgM6 V hO).N) : (ms6_2 V hO t).IsWhole := hstage6_2 (((cfgM6 V hO).slots t 2).cast nbuf6_2)

/-- The kernel body as the pipeline calls it at point `t`: the point, the two tables whole, the three current staging memrefs. -/
abbrev bodyAt6 (a : (pcfg6 (F := F)).Adm) (t : Fin (cfg6 a).N) : Prog (TpuEff nD τ sig (Elt F) Λ₀ .tc) PUnit :=
  cc6__kernel_b (grid6.coords t) (Memref.whole main_v42) (Memref.isWhole_whole _) (Memref.whole main_v43) (Memref.isWhole_whole _)
    (spec6_0.stage ((cfg6 a).slots t 0)) (hstage6_0 (((cfg6 a).slots t 0).cast nbuf6_0))
    (spec6_1.stage ((cfg6 a).slots t 1)) (hstage6_1 (((cfg6 a).slots t 1).cast nbuf6_1))
    (spec6_2.stage ((cfg6 a).slots t 2)) (hstage6_2 (((cfg6 a).slots t 2).cast nbuf6_2))

/-- The region's proof data on core `c`: the arrays as the region finds them; after the body each input's buffer at its
    block and the output's at the sum of the two input blocks; the invariant carries the scoped rest, the generator register
    and the two tables, whole; the gathered array, read by both input windows, is held half and half; nothing owed. -/
def dat6 (hO : Ok6 V) (c : Dev nD) : Dat τ (Elt F) Unit ℕ (UR sig nD τ) ℕ (cfgM6 V hO) c where
  A w := V c (Pipeline.arrRef spec6 w)
  after w t := match w with
    | ⟨0, _⟩ => iblk6 V hO c 0 t
    | ⟨1, _⟩ => iblk6 V hO c 1 t
    | ⟨2, _⟩ => out6_2 (iblk6 V hO c 0 t) (iblk6 V hO c 1 t)
  Φ _ := iprop(Pipeline.ΦA spec6 c ∗ (Pipeline.prefHeld pre6 c (fun _ => fullShare) (tbl6 V) : sProp 𝕄))
  q w := match w with
    | ⟨0, _⟩ => fullShare.left
    | ⟨1, _⟩ => fullShare.right
    | ⟨2, _⟩ => fullShare
  owed _ := 0

theorem A_eq6 (hO : Ok6 V) (c : Dev nD) (w : Fin (cfgM6 V hO).W) : (dat6 V hO c).A w = V c (Pipeline.arrRef spec6 w) := by
  dsimp only [dat6]

theorem after6_0 (hO : Ok6 V) (c : Dev nD) (t : Fin (cfgM6 V hO).N) : (dat6 V hO c).after 0 t = iblk6 V hO c 0 t := by dsimp only [dat6]; try rfl
theorem after6_1 (hO : Ok6 V) (c : Dev nD) (t : Fin (cfgM6 V hO).N) : (dat6 V hO c).after 1 t = iblk6 V hO c 1 t := by dsimp only [dat6]; try rfl
theorem after6_2 (hO : Ok6 V) (c : Dev nD) (t : Fin (cfgM6 V hO).N) : (dat6 V hO c).after 2 t = out6_2 (iblk6 V hO c 0 t) (iblk6 V hO c 1 t) := by dsimp only [dat6]; try rfl

theorem before6_0 (hO : Ok6 V) (c : Dev nD) (t : Fin (cfgM6 V hO).N) (d) : (dat6 V hO c).before 0 t d = iblk6 V hO c 0 t :=
  before6_0_of V hO (dat6 V hO c) (A_eq6 V hO c 0) (after6_0 V hO c) t d
theorem before6_1 (hO : Ok6 V) (c : Dev nD) (t : Fin (cfgM6 V hO).N) (d) : (dat6 V hO c).before 1 t d = iblk6 V hO c 1 t :=
  before6_1_of V hO (dat6 V hO c) (A_eq6 V hO c 1) (after6_1 V hO c) t d

def bodyPre6 (hO : Ok6 V) (c : Dev nD) (t : Fin (cfgM6 V hO).N) : sProp 𝕄 :=
  iprop((dat6 V hO c).Φ t.castSucc ∗ (dat6 V hO c).owesAt () t.castSucc
    ∗ (∃ d, owns (c : Thread nD τ) (ms6_0 V hO t) fullShare ((dat6 V hO c).before 0 t d))
    ∗ (∃ d, owns (c : Thread nD τ) (ms6_1 V hO t) fullShare ((dat6 V hO c).before 1 t d))
    ∗ (∃ d, owns (c : Thread nD τ) (ms6_2 V hO t) fullShare ((dat6 V hO c).before 2 t d)))

def bodyPost6 (hO : Ok6 V) (c : Dev nD) (t : Fin (cfgM6 V hO).N) : sProp 𝕄 :=
  iprop((dat6 V hO c).Φ t.succ ∗ (dat6 V hO c).owesAt () t.succ
    ∗ owns (c : Thread nD τ) (ms6_0 V hO t) fullShare ((dat6 V hO c).after 0 t)
    ∗ owns (c : Thread nD τ) (ms6_1 V hO t) fullShare ((dat6 V hO c).after 1 t)
    ∗ owns (c : Thread nD τ) (ms6_2 V hO t) fullShare ((dat6 V hO c).after 2 t))

/-- The body at any point: the two input buffers hold their blocks, the body adds them into the output buffer; the
    invariant and the tallies pass through untouched. -/
theorem sound_body6 (hO : Ok6 V) (c : Dev nD) (t : Fin (cfgM6 V hO).N) :
    bodyPre6 V hO c t ⊢ wp frame (wpE (defs₀ (F := F)) Variants.none c none) Set.univ (bodyAt6 (adm6 V hO) t) (fun _ => bodyPost6 V hO c t) := by
  unfold bodyPre6 bodyPost6 bodyAt6
  simp only [before6_0, before6_1]
  rw [show (dat6 V hO c).Φ t.succ = (dat6 V hO c).Φ t.castSucc from rfl,
    show (dat6 V hO c).owesAt () t.succ = (dat6 V hO c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ _ _ _ _ (iblk6 V hO c 0 t) (iblk6 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (hO : Ok6 V) (c : Dev nD) : BodyObligation (dat6 (F := F) V hO c) (defs₀ (F := F)) Variants.none () Set.univ := fun t => by
  rw [bigSep_W6, bigSep_W6]
  exact sound_body6 V hO c t
end

section
variable (V : (c : Dev nD) → (b : Ref sig .tc) → Buf (Elt F) ((c : Thread nD τ).loc b))

/-- The region's three arrays as points-to facts: the gathered array, read by both input windows, half and half; the output array whole. -/
theorem arrays6_eq (hO : Ok6 V) (c : Dev nD)
    (G : (w : Fin (cfgM6 V hO).W) → Buf (Elt F) (((cfgM6 V hO).win w).arr.view.loc (c : Thread nD τ))) :
    ((dat6 V hO c).arrays G : sProp 𝕄)
      = iprop((((c : Thread nD τ).loc main_v1) ↦{fullShare.left} G 0) ∗ (((c : Thread nD τ).loc main_v1) ↦{fullShare.right} G 1)
          ∗ (((c : Thread nD τ).loc main_v44) ↦{fullShare} G 2)) := by
  unfold Dat.arrays
  rw [bigSep_W6, (arr_whole6 0).set_eq_univ, (arr_whole6 2).set_eq_univ]
  rfl
end

/-- The two distinct buffers behind the region's three windows. -/
theorem arrImage6 : Finset.univ.image (Pipeline.arrRef spec6) = insert main_v1 {main_v44} := by decide

section
variable (W : Dev nD → Valuation τ sig (Elt F))

theorem arrBufs6_eq (c : Dev nD) (V : (b : Ref sig .tc) → Buf (Elt F) ((c : Thread nD τ).loc b)) :
    (Pipeline.arrBufs spec6 c V : sProp 𝕄)
      = iprop((((c : Thread nD τ).loc main_v1) ↦{fullShare} V main_v1) ∗ (((c : Thread nD τ).loc main_v44) ↦{fullShare} V main_v44)) := by
  unfold Pipeline.arrBufs
  rw [arrImage6, bigSep_insert (by decide), bigSep_singleton]
  rfl

/-- ENTRY: every unscoped buffer held at `W` gives the region its arrays (the gathered array split in two halves), its two
    tables whole, the tallies, the generator register and the rest of the unscoped buffers. -/
theorem entry6 (hO : Ok6 (VW W)) (c : Dev nD) :
    iprop(StableHlo.held (c : Thread nD τ) (Pipeline.ucRefs τ sig) (W c) ∗ Rr (F := F) c)
      ⊢ |={Set.univ}=> iprop((dat6 (VW W) hO c).arrays ((dat6 (VW W) hO c).arrAt · 0)
          ∗ Pipeline.prefHeld pre6 c (fun _ => fullShare) (tbl6 (VW W))
          ∗ (dat6 (VW W) hO c).owesAt () 0 ∗ (∃ r, prngReg c r)
          ∗ (Pipeline.unscopedRestP pre6 spec6 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM6 (VW W) hO) () winFacts₀6.arr_unscoped c (VW W c)]
  rw [show (Pipeline.arrBufs (cfgM6 (VW W) hO).spec c (VW W c) : sProp 𝕄) = Pipeline.arrBufs spec6 c (VW W c) from rfl,
    arrBufs6_eq, arrays6_eq]
  rw [show (Pipeline.unscopedRest (cfgM6 (VW W) hO).spec c (VW W c) : sProp 𝕄) = Pipeline.unscopedRest spec6 c (VW W c) from rfl,
    Pipeline.unscopedRest_split preFacts6 c (VW W c)]
  rw [show (fun k => VW W c (pre6.ref k)) = tbl6 (VW W) from funext fun k => V_pre6 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest6_update (c : Dev nD) (X : Buf (Elt F) ((c : Thread nD τ).loc main_v44)) :
    (Pipeline.unscopedRest spec6 c (fun b => Function.update (W c) main_v44 X b) : sProp 𝕄) = Pipeline.unscopedRest spec6 c (VW W c) := by
  unfold Pipeline.unscopedRest
  exact bigSep_congr fun b hb => by
    have hne : b ≠ main_v44 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit6 (hO : Ok6 (VW W)) (c : Dev nD) (X : Buf (Elt F) ((c : Thread nD τ).loc main_v44))
    (hX : (dat6 (VW W) hO c).arrAt 2 (cfgM6 (VW W) hO).N = X) :
    iprop((dat6 (VW W) hO c).arrays ((dat6 (VW W) hO c).arrAt · (cfgM6 (VW W) hO).N)
        ∗ (dat6 (VW W) hO c).owesAt () (Fin.last (cfgM6 (VW W) hO).N)
        ∗ iprop((∃ r, prngReg c r) ∗ Pipeline.prefHeld pre6 c (fun _ => fullShare) (tbl6 (VW W)))
        ∗ (Pipeline.unscopedRestP pre6 spec6 c (VW W c) : sProp 𝕄))
      ⊢ |={Set.univ}=> iprop(StableHlo.held (c : Thread nD τ) (Pipeline.ucRefs τ sig) (Function.update (W c) main_v44 X) ∗ Rr (F := F) c) := by
  rw [← Pipeline.unscopedBufs_held (Ix := Unit) (Name := ℕ) (U := UR sig nD τ) (Lvl := ℕ) c (Function.update (W c) main_v44 X)]
  rw [Pipeline.unscopedBufs_split₀ (fun _ : Unit => cfgM6 (VW W) hO) () winFacts₀6.arr_unscoped c _]
  rw [show ∀ V', (Pipeline.arrBufs (cfgM6 (VW W) hO).spec c V' : sProp 𝕄) = Pipeline.arrBufs spec6 c V' from fun _ => rfl,
    show ∀ V', (Pipeline.unscopedRest (cfgM6 (VW W) hO).spec c V' : sProp 𝕄) = Pipeline.unscopedRest spec6 c V' from fun _ => rfl,
    rest6_update W c X, Pipeline.unscopedRest_split preFacts6 c (VW W c), arrBufs6_eq]
  rw [show (fun k => VW W c (pre6.ref k)) = tbl6 (VW W) from funext fun k => V_pre6 (VW W) c k]
  rw [Function.update_of_ne (StableHlo.devRef_ne_of_ne (by decide : (main_v1 : Ref sig .tc) ≠ main_v44)), Function.update_self]
  rw [arrays6_eq, hX,
    show (dat6 (VW W) hO c).arrAt 0 (cfgM6 (VW W) hO).N = W c main_v1 from (dat6 (VW W) hO c).arrAt_in 0 rfl _,
    show (dat6 (VW W) hO c).arrAt 1 (cfgM6 (VW W) hO).N = W c main_v1 from (dat6 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.Kernel.GenP

end
-- ==== Proof.Kernel.RB7.lean ====
/- A row-gather region of the program: the region's proof data, its body obligation and its entry and exit. -/
import proofs.«175043_j76819785056407_2_alg».proof.Proof.Gen.Kernel.Launch
import proofs.«175043_j76819785056407_2_alg».proof.Proof.Gen.Kernel.Skeleton
import proofs.«175043_j76819785056407_2_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 7): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl7 : pre7.Contents (Elt F) := fun j => V (0 : Dev nD) (pre7.ref j)
theorem V_pre7 (c : Dev nD) (j : Fin 2) : V c (pre7.ref j) = tbl7 V j := by
  obtain rfl : c = 0 := Subsingleton.elim _ _; rfl
/-- Every table-indexed block lies inside the gathered array. -/
abbrev Ok7 : Prop := ok7 (F := F) (tbl7 V)
abbrev adm7 (hO : Ok7 V) : (pcfg7 (F := F)).Adm := ⟨tbl7 V, hO⟩
abbrev cfgM7 (hO : Ok7 V) : Pipeline.Cfg sig Λ₀ := cfg7 (adm7 V hO)

/-- Window `w`'s block at point `t`, read off its array as the region finds it. -/
def iblk7 (hO : Ok7 V) (c : Dev nD) (w : Fin (cfgM7 V hO).W) (t : Fin (cfgM7 V hO).N) :
    (((cfgM7 V hO).win w).xblock ((cfgM7 V hO).grid.coords t)).Idx → Elt F ((cfgM7 V hO).win w).elt :=
  (((cfgM7 V hO).win w).blk t).view.read (Elt F) (V c (Pipeline.arrRef spec7 w))

theorem before7_0_of (hO : Ok7 V) {c : Dev nD} (dat : Dat τ (Elt F) Unit ℕ (UR sig nD τ) ℕ (cfgM7 V hO) c) (hA : dat.A 0 = V c (Pipeline.arrRef spec7 0))
    (hafter : ∀ t, dat.after 0 t = iblk7 V hO c 0 t) (t : Fin (cfgM7 V hO).N) (d) : dat.before 0 t d = iblk7 V hO c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of (hO : Ok7 V) {c : Dev nD} (dat : Dat τ (Elt F) Unit ℕ (UR sig nD τ) ℕ (cfgM7 V hO) c) (hA : dat.A 1 = V c (Pipeline.arrRef spec7 1))
    (hafter : ∀ t, dat.after 1 t = iblk7 V hO c 1 t) (t : Fin (cfgM7 V hO).N) (d) : dat.before 1 t d = iblk7 V hO c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
end

/-- The body's one rectangle: the whole 1×1×128 block. -/
abbrev r7_0 : Rect S1x1x128 := Rect.unit (s := S1x1x128) ![0, 0, 0] S1x1x128.size inb_S1x1x128_S1x1x128_0_0_0

/-- The output block after the body: the sum of the two gathered rows. -/
def out7_2 (x0 x1 : Vec F S1x1x128 .f32) : Vec F S1x1x128 .f32 :=
  View.canon [⟨r7_0, k7_pay1 (View.ld x0 r7_0) (View.ld x1 r7_0)⟩]

theorem cover7_2 (p0 : Vec F S1x1x128 .f32) (y : S1x1x128.Idx) :
    ∃ pc ∈ ([⟨r7_0, p0⟩] : List (View.Piece (Elt F) S1x1x128 .f32)), y ∈ pc.1.set :=
  View.cover_of_tiled [⟨r7_0, p0⟩] S1x1x128.size (by rfl) y

set_option maxHeartbeats 1000000 in
/-- The body on whole staging memrefs: the two inputs stay, the output ends at the sum; the tables are not touched. -/
theorem sound_kernel7 (c : Dev nD) (E : Set ℕ) (i : grid7.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out7_2 x0 x1)) -∗ K ⟨⟩))
      ⊢ wp frame (wpE (defs₀ (F := F)) Variants.none c none) E (cc7__kernel_b i a1 ha1 a2 ha2 arg3 harg3 arg4 harg4 arg5 harg5) K := by
  simp only [cc7__kernel_b_eq_skeleton]; unfold cc7__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

section
variable (V : (c : Dev nD) → (b : Ref sig .tc) → Buf (Elt F) ((c : Thread nD τ).loc b))

/-- Each window's current staging memref at point `t`, and its wholeness. -/
abbrev ms7_0 (hO : Ok7 V) (t : Fin (cfgM7 V hO).N) : Memref sig .tc .vmem S1x1x128 .f32 := spec7_0.stage ((cfgM7 V hO).slots t 0)
abbrev hs7_0 (hO : Ok7 V) (t : Fin (cfgM7 V hO).N) : (ms7_0 V hO t).IsWhole := hstage7_0 (((cfgM7 V hO).slots t 0).cast nbuf7_0)
abbrev ms7_1 (hO : Ok7 V) (t : Fin (cfgM7 V hO).N) : Memref sig .tc .vmem S1x1x128 .f32 := spec7_1.stage ((cfgM7 V hO).slots t 1)
abbrev hs7_1 (hO : Ok7 V) (t : Fin (cfgM7 V hO).N) : (ms7_1 V hO t).IsWhole := hstage7_1 (((cfgM7 V hO).slots t 1).cast nbuf7_1)
abbrev ms7_2 (hO : Ok7 V) (t : Fin (cfgM7 V hO).N) : Memref sig .tc .vmem S1x1x128 .f32 := spec7_2.stage ((cfgM7 V hO).slots t 2)
abbrev hs7_2 (hO : Ok7 V) (t : Fin (cfgM7 V hO).N) : (ms7_2 V hO t).IsWhole := hstage7_2 (((cfgM7 V hO).slots t 2).cast nbuf7_2)

/-- The kernel body as the pipeline calls it at point `t`: the point, the two tables whole, the three current staging memrefs. -/
abbrev bodyAt7 (a : (pcfg7 (F := F)).Adm) (t : Fin (cfg7 a).N) : Prog (TpuEff nD τ sig (Elt F) Λ₀ .tc) PUnit :=
  cc7__kernel_b (grid7.coords t) (Memref.whole main_v46) (Memref.isWhole_whole _) (Memref.whole main_v47) (Memref.isWhole_whole _)
    (spec7_0.stage ((cfg7 a).slots t 0)) (hstage7_0 (((cfg7 a).slots t 0).cast nbuf7_0))
    (spec7_1.stage ((cfg7 a).slots t 1)) (hstage7_1 (((cfg7 a).slots t 1).cast nbuf7_1))
    (spec7_2.stage ((cfg7 a).slots t 2)) (hstage7_2 (((cfg7 a).slots t 2).cast nbuf7_2))

/-- The region's proof data on core `c`: the arrays as the region finds them; after the body each input's buffer at its
    block and the output's at the sum of the two input blocks; the invariant carries the scoped rest, the generator register
    and the two tables, whole; the gathered array, read by both input windows, is held half and half; nothing owed. -/
def dat7 (hO : Ok7 V) (c : Dev nD) : Dat τ (Elt F) Unit ℕ (UR sig nD τ) ℕ (cfgM7 V hO) c where
  A w := V c (Pipeline.arrRef spec7 w)
  after w t := match w with
    | ⟨0, _⟩ => iblk7 V hO c 0 t
    | ⟨1, _⟩ => iblk7 V hO c 1 t
    | ⟨2, _⟩ => out7_2 (iblk7 V hO c 0 t) (iblk7 V hO c 1 t)
  Φ _ := iprop(Pipeline.ΦA spec7 c ∗ (Pipeline.prefHeld pre7 c (fun _ => fullShare) (tbl7 V) : sProp 𝕄))
  q w := match w with
    | ⟨0, _⟩ => fullShare.left
    | ⟨1, _⟩ => fullShare.right
    | ⟨2, _⟩ => fullShare
  owed _ := 0

theorem A_eq7 (hO : Ok7 V) (c : Dev nD) (w : Fin (cfgM7 V hO).W) : (dat7 V hO c).A w = V c (Pipeline.arrRef spec7 w) := by
  dsimp only [dat7]

theorem after7_0 (hO : Ok7 V) (c : Dev nD) (t : Fin (cfgM7 V hO).N) : (dat7 V hO c).after 0 t = iblk7 V hO c 0 t := by dsimp only [dat7]; try rfl
theorem after7_1 (hO : Ok7 V) (c : Dev nD) (t : Fin (cfgM7 V hO).N) : (dat7 V hO c).after 1 t = iblk7 V hO c 1 t := by dsimp only [dat7]; try rfl
theorem after7_2 (hO : Ok7 V) (c : Dev nD) (t : Fin (cfgM7 V hO).N) : (dat7 V hO c).after 2 t = out7_2 (iblk7 V hO c 0 t) (iblk7 V hO c 1 t) := by dsimp only [dat7]; try rfl

theorem before7_0 (hO : Ok7 V) (c : Dev nD) (t : Fin (cfgM7 V hO).N) (d) : (dat7 V hO c).before 0 t d = iblk7 V hO c 0 t :=
  before7_0_of V hO (dat7 V hO c) (A_eq7 V hO c 0) (after7_0 V hO c) t d
theorem before7_1 (hO : Ok7 V) (c : Dev nD) (t : Fin (cfgM7 V hO).N) (d) : (dat7 V hO c).before 1 t d = iblk7 V hO c 1 t :=
  before7_1_of V hO (dat7 V hO c) (A_eq7 V hO c 1) (after7_1 V hO c) t d

def bodyPre7 (hO : Ok7 V) (c : Dev nD) (t : Fin (cfgM7 V hO).N) : sProp 𝕄 :=
  iprop((dat7 V hO c).Φ t.castSucc ∗ (dat7 V hO c).owesAt () t.castSucc
    ∗ (∃ d, owns (c : Thread nD τ) (ms7_0 V hO t) fullShare ((dat7 V hO c).before 0 t d))
    ∗ (∃ d, owns (c : Thread nD τ) (ms7_1 V hO t) fullShare ((dat7 V hO c).before 1 t d))
    ∗ (∃ d, owns (c : Thread nD τ) (ms7_2 V hO t) fullShare ((dat7 V hO c).before 2 t d)))

def bodyPost7 (hO : Ok7 V) (c : Dev nD) (t : Fin (cfgM7 V hO).N) : sProp 𝕄 :=
  iprop((dat7 V hO c).Φ t.succ ∗ (dat7 V hO c).owesAt () t.succ
    ∗ owns (c : Thread nD τ) (ms7_0 V hO t) fullShare ((dat7 V hO c).after 0 t)
    ∗ owns (c : Thread nD τ) (ms7_1 V hO t) fullShare ((dat7 V hO c).after 1 t)
    ∗ owns (c : Thread nD τ) (ms7_2 V hO t) fullShare ((dat7 V hO c).after 2 t))

/-- The body at any point: the two input buffers hold their blocks, the body adds them into the output buffer; the
    invariant and the tallies pass through untouched. -/
theorem sound_body7 (hO : Ok7 V) (c : Dev nD) (t : Fin (cfgM7 V hO).N) :
    bodyPre7 V hO c t ⊢ wp frame (wpE (defs₀ (F := F)) Variants.none c none) Set.univ (bodyAt7 (adm7 V hO) t) (fun _ => bodyPost7 V hO c t) := by
  unfold bodyPre7 bodyPost7 bodyAt7
  simp only [before7_0, before7_1]
  rw [show (dat7 V hO c).Φ t.succ = (dat7 V hO c).Φ t.castSucc from rfl,
    show (dat7 V hO c).owesAt () t.succ = (dat7 V hO c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ _ _ _ _ (iblk7 V hO c 0 t) (iblk7 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (hO : Ok7 V) (c : Dev nD) : BodyObligation (dat7 (F := F) V hO c) (defs₀ (F := F)) Variants.none () Set.univ := fun t => by
  rw [bigSep_W7, bigSep_W7]
  exact sound_body7 V hO c t
end

section
variable (V : (c : Dev nD) → (b : Ref sig .tc) → Buf (Elt F) ((c : Thread nD τ).loc b))

/-- The region's three arrays as points-to facts: the gathered array, read by both input windows, half and half; the output array whole. -/
theorem arrays7_eq (hO : Ok7 V) (c : Dev nD)
    (G : (w : Fin (cfgM7 V hO).W) → Buf (Elt F) (((cfgM7 V hO).win w).arr.view.loc (c : Thread nD τ))) :
    ((dat7 V hO c).arrays G : sProp 𝕄)
      = iprop((((c : Thread nD τ).loc main_v1) ↦{fullShare.left} G 0) ∗ (((c : Thread nD τ).loc main_v1) ↦{fullShare.right} G 1)
          ∗ (((c : Thread nD τ).loc main_v48) ↦{fullShare} G 2)) := by
  unfold Dat.arrays
  rw [bigSep_W7, (arr_whole7 0).set_eq_univ, (arr_whole7 2).set_eq_univ]
  rfl
end

/-- The two distinct buffers behind the region's three windows. -/
theorem arrImage7 : Finset.univ.image (Pipeline.arrRef spec7) = insert main_v1 {main_v48} := by decide

section
variable (W : Dev nD → Valuation τ sig (Elt F))

theorem arrBufs7_eq (c : Dev nD) (V : (b : Ref sig .tc) → Buf (Elt F) ((c : Thread nD τ).loc b)) :
    (Pipeline.arrBufs spec7 c V : sProp 𝕄)
      = iprop((((c : Thread nD τ).loc main_v1) ↦{fullShare} V main_v1) ∗ (((c : Thread nD τ).loc main_v48) ↦{fullShare} V main_v48)) := by
  unfold Pipeline.arrBufs
  rw [arrImage7, bigSep_insert (by decide), bigSep_singleton]
  rfl

/-- ENTRY: every unscoped buffer held at `W` gives the region its arrays (the gathered array split in two halves), its two
    tables whole, the tallies, the generator register and the rest of the unscoped buffers. -/
theorem entry7 (hO : Ok7 (VW W)) (c : Dev nD) :
    iprop(StableHlo.held (c : Thread nD τ) (Pipeline.ucRefs τ sig) (W c) ∗ Rr (F := F) c)
      ⊢ |={Set.univ}=> iprop((dat7 (VW W) hO c).arrays ((dat7 (VW W) hO c).arrAt · 0)
          ∗ Pipeline.prefHeld pre7 c (fun _ => fullShare) (tbl7 (VW W))
          ∗ (dat7 (VW W) hO c).owesAt () 0 ∗ (∃ r, prngReg c r)
          ∗ (Pipeline.unscopedRestP pre7 spec7 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM7 (VW W) hO) () winFacts₀7.arr_unscoped c (VW W c)]
  rw [show (Pipeline.arrBufs (cfgM7 (VW W) hO).spec c (VW W c) : sProp 𝕄) = Pipeline.arrBufs spec7 c (VW W c) from rfl,
    arrBufs7_eq, arrays7_eq]
  rw [show (Pipeline.unscopedRest (cfgM7 (VW W) hO).spec c (VW W c) : sProp 𝕄) = Pipeline.unscopedRest spec7 c (VW W c) from rfl,
    Pipeline.unscopedRest_split preFacts7 c (VW W c)]
  rw [show (fun k => VW W c (pre7.ref k)) = tbl7 (VW W) from funext fun k => V_pre7 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest7_update (c : Dev nD) (X : Buf (Elt F) ((c : Thread nD τ).loc main_v48)) :
    (Pipeline.unscopedRest spec7 c (fun b => Function.update (W c) main_v48 X b) : sProp 𝕄) = Pipeline.unscopedRest spec7 c (VW W c) := by
  unfold Pipeline.unscopedRest
  exact bigSep_congr fun b hb => by
    have hne : b ≠ main_v48 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit7 (hO : Ok7 (VW W)) (c : Dev nD) (X : Buf (Elt F) ((c : Thread nD τ).loc main_v48))
    (hX : (dat7 (VW W) hO c).arrAt 2 (cfgM7 (VW W) hO).N = X) :
    iprop((dat7 (VW W) hO c).arrays ((dat7 (VW W) hO c).arrAt · (cfgM7 (VW W) hO).N)
        ∗ (dat7 (VW W) hO c).owesAt () (Fin.last (cfgM7 (VW W) hO).N)
        ∗ iprop((∃ r, prngReg c r) ∗ Pipeline.prefHeld pre7 c (fun _ => fullShare) (tbl7 (VW W)))
        ∗ (Pipeline.unscopedRestP pre7 spec7 c (VW W c) : sProp 𝕄))
      ⊢ |={Set.univ}=> iprop(StableHlo.held (c : Thread nD τ) (Pipeline.ucRefs τ sig) (Function.update (W c) main_v48 X) ∗ Rr (F := F) c) := by
  rw [← Pipeline.unscopedBufs_held (Ix := Unit) (Name := ℕ) (U := UR sig nD τ) (Lvl := ℕ) c (Function.update (W c) main_v48 X)]
  rw [Pipeline.unscopedBufs_split₀ (fun _ : Unit => cfgM7 (VW W) hO) () winFacts₀7.arr_unscoped c _]
  rw [show ∀ V', (Pipeline.arrBufs (cfgM7 (VW W) hO).spec c V' : sProp 𝕄) = Pipeline.arrBufs spec7 c V' from fun _ => rfl,
    show ∀ V', (Pipeline.unscopedRest (cfgM7 (VW W) hO).spec c V' : sProp 𝕄) = Pipeline.unscopedRest spec7 c V' from fun _ => rfl,
    rest7_update W c X, Pipeline.unscopedRest_split preFacts7 c (VW W c), arrBufs7_eq]
  rw [show (fun k => VW W c (pre7.ref k)) = tbl7 (VW W) from funext fun k => V_pre7 (VW W) c k]
  rw [Function.update_of_ne (StableHlo.devRef_ne_of_ne (by decide : (main_v1 : Ref sig .tc) ≠ main_v48)), Function.update_self]
  rw [arrays7_eq, hX,
    show (dat7 (VW W) hO c).arrAt 0 (cfgM7 (VW W) hO).N = W c main_v1 from (dat7 (VW W) hO c).arrAt_in 0 rfl _,
    show (dat7 (VW W) hO c).arrAt 1 (cfgM7 (VW W) hO).N = W c main_v1 from (dat7 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.Kernel.GenP

end
-- ==== Proof.Kernel.RB8.lean ====
/- A row-gather region of the program: the region's proof data, its body obligation and its entry and exit. -/
import proofs.«175043_j76819785056407_2_alg».proof.Proof.Gen.Kernel.Launch
import proofs.«175043_j76819785056407_2_alg».proof.Proof.Gen.Kernel.Skeleton
import proofs.«175043_j76819785056407_2_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 8): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl8 : pre8.Contents (Elt F) := fun j => V (0 : Dev nD) (pre8.ref j)
theorem V_pre8 (c : Dev nD) (j : Fin 2) : V c (pre8.ref j) = tbl8 V j := by
  obtain rfl : c = 0 := Subsingleton.elim _ _; rfl
/-- Every table-indexed block lies inside the gathered array. -/
abbrev Ok8 : Prop := ok8 (F := F) (tbl8 V)
abbrev adm8 (hO : Ok8 V) : (pcfg8 (F := F)).Adm := ⟨tbl8 V, hO⟩
abbrev cfgM8 (hO : Ok8 V) : Pipeline.Cfg sig Λ₀ := cfg8 (adm8 V hO)

/-- Window `w`'s block at point `t`, read off its array as the region finds it. -/
def iblk8 (hO : Ok8 V) (c : Dev nD) (w : Fin (cfgM8 V hO).W) (t : Fin (cfgM8 V hO).N) :
    (((cfgM8 V hO).win w).xblock ((cfgM8 V hO).grid.coords t)).Idx → Elt F ((cfgM8 V hO).win w).elt :=
  (((cfgM8 V hO).win w).blk t).view.read (Elt F) (V c (Pipeline.arrRef spec8 w))

theorem before8_0_of (hO : Ok8 V) {c : Dev nD} (dat : Dat τ (Elt F) Unit ℕ (UR sig nD τ) ℕ (cfgM8 V hO) c) (hA : dat.A 0 = V c (Pipeline.arrRef spec8 0))
    (hafter : ∀ t, dat.after 0 t = iblk8 V hO c 0 t) (t : Fin (cfgM8 V hO).N) (d) : dat.before 0 t d = iblk8 V hO c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of (hO : Ok8 V) {c : Dev nD} (dat : Dat τ (Elt F) Unit ℕ (UR sig nD τ) ℕ (cfgM8 V hO) c) (hA : dat.A 1 = V c (Pipeline.arrRef spec8 1))
    (hafter : ∀ t, dat.after 1 t = iblk8 V hO c 1 t) (t : Fin (cfgM8 V hO).N) (d) : dat.before 1 t d = iblk8 V hO c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
end

/-- The body's one rectangle: the whole 1×1×128 block. -/
abbrev r8_0 : Rect S1x1x128 := Rect.unit (s := S1x1x128) ![0, 0, 0] S1x1x128.size inb_S1x1x128_S1x1x128_0_0_0

/-- The output block after the body: the sum of the two gathered rows. -/
def out8_2 (x0 x1 : Vec F S1x1x128 .f32) : Vec F S1x1x128 .f32 :=
  View.canon [⟨r8_0, k8_pay1 (View.ld x0 r8_0) (View.ld x1 r8_0)⟩]

theorem cover8_2 (p0 : Vec F S1x1x128 .f32) (y : S1x1x128.Idx) :
    ∃ pc ∈ ([⟨r8_0, p0⟩] : List (View.Piece (Elt F) S1x1x128 .f32)), y ∈ pc.1.set :=
  View.cover_of_tiled [⟨r8_0, p0⟩] S1x1x128.size (by rfl) y

set_option maxHeartbeats 1000000 in
/-- The body on whole staging memrefs: the two inputs stay, the output ends at the sum; the tables are not touched. -/
theorem sound_kernel8 (c : Dev nD) (E : Set ℕ) (i : grid8.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out8_2 x0 x1)) -∗ K ⟨⟩))
      ⊢ wp frame (wpE (defs₀ (F := F)) Variants.none c none) E (cc8__kernel_b i a1 ha1 a2 ha2 arg3 harg3 arg4 harg4 arg5 harg5) K := by
  simp only [cc8__kernel_b_eq_skeleton]; unfold cc8__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

section
variable (V : (c : Dev nD) → (b : Ref sig .tc) → Buf (Elt F) ((c : Thread nD τ).loc b))

/-- Each window's current staging memref at point `t`, and its wholeness. -/
abbrev ms8_0 (hO : Ok8 V) (t : Fin (cfgM8 V hO).N) : Memref sig .tc .vmem S1x1x128 .f32 := spec8_0.stage ((cfgM8 V hO).slots t 0)
abbrev hs8_0 (hO : Ok8 V) (t : Fin (cfgM8 V hO).N) : (ms8_0 V hO t).IsWhole := hstage8_0 (((cfgM8 V hO).slots t 0).cast nbuf8_0)
abbrev ms8_1 (hO : Ok8 V) (t : Fin (cfgM8 V hO).N) : Memref sig .tc .vmem S1x1x128 .f32 := spec8_1.stage ((cfgM8 V hO).slots t 1)
abbrev hs8_1 (hO : Ok8 V) (t : Fin (cfgM8 V hO).N) : (ms8_1 V hO t).IsWhole := hstage8_1 (((cfgM8 V hO).slots t 1).cast nbuf8_1)
abbrev ms8_2 (hO : Ok8 V) (t : Fin (cfgM8 V hO).N) : Memref sig .tc .vmem S1x1x128 .f32 := spec8_2.stage ((cfgM8 V hO).slots t 2)
abbrev hs8_2 (hO : Ok8 V) (t : Fin (cfgM8 V hO).N) : (ms8_2 V hO t).IsWhole := hstage8_2 (((cfgM8 V hO).slots t 2).cast nbuf8_2)

/-- The kernel body as the pipeline calls it at point `t`: the point, the two tables whole, the three current staging memrefs. -/
abbrev bodyAt8 (a : (pcfg8 (F := F)).Adm) (t : Fin (cfg8 a).N) : Prog (TpuEff nD τ sig (Elt F) Λ₀ .tc) PUnit :=
  cc8__kernel_b (grid8.coords t) (Memref.whole main_v50) (Memref.isWhole_whole _) (Memref.whole main_v51) (Memref.isWhole_whole _)
    (spec8_0.stage ((cfg8 a).slots t 0)) (hstage8_0 (((cfg8 a).slots t 0).cast nbuf8_0))
    (spec8_1.stage ((cfg8 a).slots t 1)) (hstage8_1 (((cfg8 a).slots t 1).cast nbuf8_1))
    (spec8_2.stage ((cfg8 a).slots t 2)) (hstage8_2 (((cfg8 a).slots t 2).cast nbuf8_2))

/-- The region's proof data on core `c`: the arrays as the region finds them; after the body each input's buffer at its
    block and the output's at the sum of the two input blocks; the invariant carries the scoped rest, the generator register
    and the two tables, whole; the gathered array, read by both input windows, is held half and half; nothing owed. -/
def dat8 (hO : Ok8 V) (c : Dev nD) : Dat τ (Elt F) Unit ℕ (UR sig nD τ) ℕ (cfgM8 V hO) c where
  A w := V c (Pipeline.arrRef spec8 w)
  after w t := match w with
    | ⟨0, _⟩ => iblk8 V hO c 0 t
    | ⟨1, _⟩ => iblk8 V hO c 1 t
    | ⟨2, _⟩ => out8_2 (iblk8 V hO c 0 t) (iblk8 V hO c 1 t)
  Φ _ := iprop(Pipeline.ΦA spec8 c ∗ (Pipeline.prefHeld pre8 c (fun _ => fullShare) (tbl8 V) : sProp 𝕄))
  q w := match w with
    | ⟨0, _⟩ => fullShare.left
    | ⟨1, _⟩ => fullShare.right
    | ⟨2, _⟩ => fullShare
  owed _ := 0

theorem A_eq8 (hO : Ok8 V) (c : Dev nD) (w : Fin (cfgM8 V hO).W) : (dat8 V hO c).A w = V c (Pipeline.arrRef spec8 w) := by
  dsimp only [dat8]

theorem after8_0 (hO : Ok8 V) (c : Dev nD) (t : Fin (cfgM8 V hO).N) : (dat8 V hO c).after 0 t = iblk8 V hO c 0 t := by dsimp only [dat8]; try rfl
theorem after8_1 (hO : Ok8 V) (c : Dev nD) (t : Fin (cfgM8 V hO).N) : (dat8 V hO c).after 1 t = iblk8 V hO c 1 t := by dsimp only [dat8]; try rfl
theorem after8_2 (hO : Ok8 V) (c : Dev nD) (t : Fin (cfgM8 V hO).N) : (dat8 V hO c).after 2 t = out8_2 (iblk8 V hO c 0 t) (iblk8 V hO c 1 t) := by dsimp only [dat8]; try rfl

theorem before8_0 (hO : Ok8 V) (c : Dev nD) (t : Fin (cfgM8 V hO).N) (d) : (dat8 V hO c).before 0 t d = iblk8 V hO c 0 t :=
  before8_0_of V hO (dat8 V hO c) (A_eq8 V hO c 0) (after8_0 V hO c) t d
theorem before8_1 (hO : Ok8 V) (c : Dev nD) (t : Fin (cfgM8 V hO).N) (d) : (dat8 V hO c).before 1 t d = iblk8 V hO c 1 t :=
  before8_1_of V hO (dat8 V hO c) (A_eq8 V hO c 1) (after8_1 V hO c) t d

def bodyPre8 (hO : Ok8 V) (c : Dev nD) (t : Fin (cfgM8 V hO).N) : sProp 𝕄 :=
  iprop((dat8 V hO c).Φ t.castSucc ∗ (dat8 V hO c).owesAt () t.castSucc
    ∗ (∃ d, owns (c : Thread nD τ) (ms8_0 V hO t) fullShare ((dat8 V hO c).before 0 t d))
    ∗ (∃ d, owns (c : Thread nD τ) (ms8_1 V hO t) fullShare ((dat8 V hO c).before 1 t d))
    ∗ (∃ d, owns (c : Thread nD τ) (ms8_2 V hO t) fullShare ((dat8 V hO c).before 2 t d)))

def bodyPost8 (hO : Ok8 V) (c : Dev nD) (t : Fin (cfgM8 V hO).N) : sProp 𝕄 :=
  iprop((dat8 V hO c).Φ t.succ ∗ (dat8 V hO c).owesAt () t.succ
    ∗ owns (c : Thread nD τ) (ms8_0 V hO t) fullShare ((dat8 V hO c).after 0 t)
    ∗ owns (c : Thread nD τ) (ms8_1 V hO t) fullShare ((dat8 V hO c).after 1 t)
    ∗ owns (c : Thread nD τ) (ms8_2 V hO t) fullShare ((dat8 V hO c).after 2 t))

/-- The body at any point: the two input buffers hold their blocks, the body adds them into the output buffer; the
    invariant and the tallies pass through untouched. -/
theorem sound_body8 (hO : Ok8 V) (c : Dev nD) (t : Fin (cfgM8 V hO).N) :
    bodyPre8 V hO c t ⊢ wp frame (wpE (defs₀ (F := F)) Variants.none c none) Set.univ (bodyAt8 (adm8 V hO) t) (fun _ => bodyPost8 V hO c t) := by
  unfold bodyPre8 bodyPost8 bodyAt8
  simp only [before8_0, before8_1]
  rw [show (dat8 V hO c).Φ t.succ = (dat8 V hO c).Φ t.castSucc from rfl,
    show (dat8 V hO c).owesAt () t.succ = (dat8 V hO c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ _ _ _ _ (iblk8 V hO c 0 t) (iblk8 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation8 (hO : Ok8 V) (c : Dev nD) : BodyObligation (dat8 (F := F) V hO c) (defs₀ (F := F)) Variants.none () Set.univ := fun t => by
  rw [bigSep_W8, bigSep_W8]
  exact sound_body8 V hO c t
end

section
variable (V : (c : Dev nD) → (b : Ref sig .tc) → Buf (Elt F) ((c : Thread nD τ).loc b))

/-- The region's three arrays as points-to facts: the gathered array, read by both input windows, half and half; the output array whole. -/
theorem arrays8_eq (hO : Ok8 V) (c : Dev nD)
    (G : (w : Fin (cfgM8 V hO).W) → Buf (Elt F) (((cfgM8 V hO).win w).arr.view.loc (c : Thread nD τ))) :
    ((dat8 V hO c).arrays G : sProp 𝕄)
      = iprop((((c : Thread nD τ).loc main_v1) ↦{fullShare.left} G 0) ∗ (((c : Thread nD τ).loc main_v1) ↦{fullShare.right} G 1)
          ∗ (((c : Thread nD τ).loc main_v52) ↦{fullShare} G 2)) := by
  unfold Dat.arrays
  rw [bigSep_W8, (arr_whole8 0).set_eq_univ, (arr_whole8 2).set_eq_univ]
  rfl
end

/-- The two distinct buffers behind the region's three windows. -/
theorem arrImage8 : Finset.univ.image (Pipeline.arrRef spec8) = insert main_v1 {main_v52} := by decide

section
variable (W : Dev nD → Valuation τ sig (Elt F))

theorem arrBufs8_eq (c : Dev nD) (V : (b : Ref sig .tc) → Buf (Elt F) ((c : Thread nD τ).loc b)) :
    (Pipeline.arrBufs spec8 c V : sProp 𝕄)
      = iprop((((c : Thread nD τ).loc main_v1) ↦{fullShare} V main_v1) ∗ (((c : Thread nD τ).loc main_v52) ↦{fullShare} V main_v52)) := by
  unfold Pipeline.arrBufs
  rw [arrImage8, bigSep_insert (by decide), bigSep_singleton]
  rfl

/-- ENTRY: every unscoped buffer held at `W` gives the region its arrays (the gathered array split in two halves), its two
    tables whole, the tallies, the generator register and the rest of the unscoped buffers. -/
theorem entry8 (hO : Ok8 (VW W)) (c : Dev nD) :
    iprop(StableHlo.held (c : Thread nD τ) (Pipeline.ucRefs τ sig) (W c) ∗ Rr (F := F) c)
      ⊢ |={Set.univ}=> iprop((dat8 (VW W) hO c).arrays ((dat8 (VW W) hO c).arrAt · 0)
          ∗ Pipeline.prefHeld pre8 c (fun _ => fullShare) (tbl8 (VW W))
          ∗ (dat8 (VW W) hO c).owesAt () 0 ∗ (∃ r, prngReg c r)
          ∗ (Pipeline.unscopedRestP pre8 spec8 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM8 (VW W) hO) () winFacts₀8.arr_unscoped c (VW W c)]
  rw [show (Pipeline.arrBufs (cfgM8 (VW W) hO).spec c (VW W c) : sProp 𝕄) = Pipeline.arrBufs spec8 c (VW W c) from rfl,
    arrBufs8_eq, arrays8_eq]
  rw [show (Pipeline.unscopedRest (cfgM8 (VW W) hO).spec c (VW W c) : sProp 𝕄) = Pipeline.unscopedRest spec8 c (VW W c) from rfl,
    Pipeline.unscopedRest_split preFacts8 c (VW W c)]
  rw [show (fun k => VW W c (pre8.ref k)) = tbl8 (VW W) from funext fun k => V_pre8 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest8_update (c : Dev nD) (X : Buf (Elt F) ((c : Thread nD τ).loc main_v52)) :
    (Pipeline.unscopedRest spec8 c (fun b => Function.update (W c) main_v52 X b) : sProp 𝕄) = Pipeline.unscopedRest spec8 c (VW W c) := by
  unfold Pipeline.unscopedRest
  exact bigSep_congr fun b hb => by
    have hne : b ≠ main_v52 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit8 (hO : Ok8 (VW W)) (c : Dev nD) (X : Buf (Elt F) ((c : Thread nD τ).loc main_v52))
    (hX : (dat8 (VW W) hO c).arrAt 2 (cfgM8 (VW W) hO).N = X) :
    iprop((dat8 (VW W) hO c).arrays ((dat8 (VW W) hO c).arrAt · (cfgM8 (VW W) hO).N)
        ∗ (dat8 (VW W) hO c).owesAt () (Fin.last (cfgM8 (VW W) hO).N)
        ∗ iprop((∃ r, prngReg c r) ∗ Pipeline.prefHeld pre8 c (fun _ => fullShare) (tbl8 (VW W)))
        ∗ (Pipeline.unscopedRestP pre8 spec8 c (VW W c) : sProp 𝕄))
      ⊢ |={Set.univ}=> iprop(StableHlo.held (c : Thread nD τ) (Pipeline.ucRefs τ sig) (Function.update (W c) main_v52 X) ∗ Rr (F := F) c) := by
  rw [← Pipeline.unscopedBufs_held (Ix := Unit) (Name := ℕ) (U := UR sig nD τ) (Lvl := ℕ) c (Function.update (W c) main_v52 X)]
  rw [Pipeline.unscopedBufs_split₀ (fun _ : Unit => cfgM8 (VW W) hO) () winFacts₀8.arr_unscoped c _]
  rw [show ∀ V', (Pipeline.arrBufs (cfgM8 (VW W) hO).spec c V' : sProp 𝕄) = Pipeline.arrBufs spec8 c V' from fun _ => rfl,
    show ∀ V', (Pipeline.unscopedRest (cfgM8 (VW W) hO).spec c V' : sProp 𝕄) = Pipeline.unscopedRest spec8 c V' from fun _ => rfl,
    rest8_update W c X, Pipeline.unscopedRest_split preFacts8 c (VW W c), arrBufs8_eq]
  rw [show (fun k => VW W c (pre8.ref k)) = tbl8 (VW W) from funext fun k => V_pre8 (VW W) c k]
  rw [Function.update_of_ne (StableHlo.devRef_ne_of_ne (by decide : (main_v1 : Ref sig .tc) ≠ main_v52)), Function.update_self]
  rw [arrays8_eq, hX,
    show (dat8 (VW W) hO c).arrAt 0 (cfgM8 (VW W) hO).N = W c main_v1 from (dat8 (VW W) hO c).arrAt_in 0 rfl _,
    show (dat8 (VW W) hO c).arrAt 1 (cfgM8 (VW W) hO).N = W c main_v1 from (dat8 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.Kernel.GenP

end
-- ==== Proof.Kernel.RB9.lean ====
/- A row-gather region of the program: the region's proof data, its body obligation and its entry and exit. -/
import proofs.«175043_j76819785056407_2_alg».proof.Proof.Gen.Kernel.Launch
import proofs.«175043_j76819785056407_2_alg».proof.Proof.Gen.Kernel.Skeleton
import proofs.«175043_j76819785056407_2_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 9): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl9 : pre9.Contents (Elt F) := fun j => V (0 : Dev nD) (pre9.ref j)
theorem V_pre9 (c : Dev nD) (j : Fin 2) : V c (pre9.ref j) = tbl9 V j := by
  obtain rfl : c = 0 := Subsingleton.elim _ _; rfl
/-- Every table-indexed block lies inside the gathered array. -/
abbrev Ok9 : Prop := ok9 (F := F) (tbl9 V)
abbrev adm9 (hO : Ok9 V) : (pcfg9 (F := F)).Adm := ⟨tbl9 V, hO⟩
abbrev cfgM9 (hO : Ok9 V) : Pipeline.Cfg sig Λ₀ := cfg9 (adm9 V hO)

/-- Window `w`'s block at point `t`, read off its array as the region finds it. -/
def iblk9 (hO : Ok9 V) (c : Dev nD) (w : Fin (cfgM9 V hO).W) (t : Fin (cfgM9 V hO).N) :
    (((cfgM9 V hO).win w).xblock ((cfgM9 V hO).grid.coords t)).Idx → Elt F ((cfgM9 V hO).win w).elt :=
  (((cfgM9 V hO).win w).blk t).view.read (Elt F) (V c (Pipeline.arrRef spec9 w))

theorem before9_0_of (hO : Ok9 V) {c : Dev nD} (dat : Dat τ (Elt F) Unit ℕ (UR sig nD τ) ℕ (cfgM9 V hO) c) (hA : dat.A 0 = V c (Pipeline.arrRef spec9 0))
    (hafter : ∀ t, dat.after 0 t = iblk9 V hO c 0 t) (t : Fin (cfgM9 V hO).N) (d) : dat.before 0 t d = iblk9 V hO c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of (hO : Ok9 V) {c : Dev nD} (dat : Dat τ (Elt F) Unit ℕ (UR sig nD τ) ℕ (cfgM9 V hO) c) (hA : dat.A 1 = V c (Pipeline.arrRef spec9 1))
    (hafter : ∀ t, dat.after 1 t = iblk9 V hO c 1 t) (t : Fin (cfgM9 V hO).N) (d) : dat.before 1 t d = iblk9 V hO c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
end

/-- The body's one rectangle: the whole 1×1×128 block. -/
abbrev r9_0 : Rect S1x1x128 := Rect.unit (s := S1x1x128) ![0, 0, 0] S1x1x128.size inb_S1x1x128_S1x1x128_0_0_0

/-- The output block after the body: the sum of the two gathered rows. -/
def out9_2 (x0 x1 : Vec F S1x1x128 .f32) : Vec F S1x1x128 .f32 :=
  View.canon [⟨r9_0, k9_pay1 (View.ld x0 r9_0) (View.ld x1 r9_0)⟩]

theorem cover9_2 (p0 : Vec F S1x1x128 .f32) (y : S1x1x128.Idx) :
    ∃ pc ∈ ([⟨r9_0, p0⟩] : List (View.Piece (Elt F) S1x1x128 .f32)), y ∈ pc.1.set :=
  View.cover_of_tiled [⟨r9_0, p0⟩] S1x1x128.size (by rfl) y

set_option maxHeartbeats 1000000 in
/-- The body on whole staging memrefs: the two inputs stay, the output ends at the sum; the tables are not touched. -/
theorem sound_kernel9 (c : Dev nD) (E : Set ℕ) (i : grid9.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out9_2 x0 x1)) -∗ K ⟨⟩))
      ⊢ wp frame (wpE (defs₀ (F := F)) Variants.none c none) E (cc9__kernel_b i a1 ha1 a2 ha2 arg3 harg3 arg4 harg4 arg5 harg5) K := by
  simp only [cc9__kernel_b_eq_skeleton]; unfold cc9__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

section
variable (V : (c : Dev nD) → (b : Ref sig .tc) → Buf (Elt F) ((c : Thread nD τ).loc b))

/-- Each window's current staging memref at point `t`, and its wholeness. -/
abbrev ms9_0 (hO : Ok9 V) (t : Fin (cfgM9 V hO).N) : Memref sig .tc .vmem S1x1x128 .f32 := spec9_0.stage ((cfgM9 V hO).slots t 0)
abbrev hs9_0 (hO : Ok9 V) (t : Fin (cfgM9 V hO).N) : (ms9_0 V hO t).IsWhole := hstage9_0 (((cfgM9 V hO).slots t 0).cast nbuf9_0)
abbrev ms9_1 (hO : Ok9 V) (t : Fin (cfgM9 V hO).N) : Memref sig .tc .vmem S1x1x128 .f32 := spec9_1.stage ((cfgM9 V hO).slots t 1)
abbrev hs9_1 (hO : Ok9 V) (t : Fin (cfgM9 V hO).N) : (ms9_1 V hO t).IsWhole := hstage9_1 (((cfgM9 V hO).slots t 1).cast nbuf9_1)
abbrev ms9_2 (hO : Ok9 V) (t : Fin (cfgM9 V hO).N) : Memref sig .tc .vmem S1x1x128 .f32 := spec9_2.stage ((cfgM9 V hO).slots t 2)
abbrev hs9_2 (hO : Ok9 V) (t : Fin (cfgM9 V hO).N) : (ms9_2 V hO t).IsWhole := hstage9_2 (((cfgM9 V hO).slots t 2).cast nbuf9_2)

/-- The kernel body as the pipeline calls it at point `t`: the point, the two tables whole, the three current staging memrefs. -/
abbrev bodyAt9 (a : (pcfg9 (F := F)).Adm) (t : Fin (cfg9 a).N) : Prog (TpuEff nD τ sig (Elt F) Λ₀ .tc) PUnit :=
  cc9__kernel_b (grid9.coords t) (Memref.whole main_v54) (Memref.isWhole_whole _) (Memref.whole main_v55) (Memref.isWhole_whole _)
    (spec9_0.stage ((cfg9 a).slots t 0)) (hstage9_0 (((cfg9 a).slots t 0).cast nbuf9_0))
    (spec9_1.stage ((cfg9 a).slots t 1)) (hstage9_1 (((cfg9 a).slots t 1).cast nbuf9_1))
    (spec9_2.stage ((cfg9 a).slots t 2)) (hstage9_2 (((cfg9 a).slots t 2).cast nbuf9_2))

/-- The region's proof data on core `c`: the arrays as the region finds them; after the body each input's buffer at its
    block and the output's at the sum of the two input blocks; the invariant carries the scoped rest, the generator register
    and the two tables, whole; the gathered array, read by both input windows, is held half and half; nothing owed. -/
def dat9 (hO : Ok9 V) (c : Dev nD) : Dat τ (Elt F) Unit ℕ (UR sig nD τ) ℕ (cfgM9 V hO) c where
  A w := V c (Pipeline.arrRef spec9 w)
  after w t := match w with
    | ⟨0, _⟩ => iblk9 V hO c 0 t
    | ⟨1, _⟩ => iblk9 V hO c 1 t
    | ⟨2, _⟩ => out9_2 (iblk9 V hO c 0 t) (iblk9 V hO c 1 t)
  Φ _ := iprop(Pipeline.ΦA spec9 c ∗ (Pipeline.prefHeld pre9 c (fun _ => fullShare) (tbl9 V) : sProp 𝕄))
  q w := match w with
    | ⟨0, _⟩ => fullShare.left
    | ⟨1, _⟩ => fullShare.right
    | ⟨2, _⟩ => fullShare
  owed _ := 0

theorem A_eq9 (hO : Ok9 V) (c : Dev nD) (w : Fin (cfgM9 V hO).W) : (dat9 V hO c).A w = V c (Pipeline.arrRef spec9 w) := by
  dsimp only [dat9]

theorem after9_0 (hO : Ok9 V) (c : Dev nD) (t : Fin (cfgM9 V hO).N) : (dat9 V hO c).after 0 t = iblk9 V hO c 0 t := by dsimp only [dat9]; try rfl
theorem after9_1 (hO : Ok9 V) (c : Dev nD) (t : Fin (cfgM9 V hO).N) : (dat9 V hO c).after 1 t = iblk9 V hO c 1 t := by dsimp only [dat9]; try rfl
theorem after9_2 (hO : Ok9 V) (c : Dev nD) (t : Fin (cfgM9 V hO).N) : (dat9 V hO c).after 2 t = out9_2 (iblk9 V hO c 0 t) (iblk9 V hO c 1 t) := by dsimp only [dat9]; try rfl

theorem before9_0 (hO : Ok9 V) (c : Dev nD) (t : Fin (cfgM9 V hO).N) (d) : (dat9 V hO c).before 0 t d = iblk9 V hO c 0 t :=
  before9_0_of V hO (dat9 V hO c) (A_eq9 V hO c 0) (after9_0 V hO c) t d
theorem before9_1 (hO : Ok9 V) (c : Dev nD) (t : Fin (cfgM9 V hO).N) (d) : (dat9 V hO c).before 1 t d = iblk9 V hO c 1 t :=
  before9_1_of V hO (dat9 V hO c) (A_eq9 V hO c 1) (after9_1 V hO c) t d

def bodyPre9 (hO : Ok9 V) (c : Dev nD) (t : Fin (cfgM9 V hO).N) : sProp 𝕄 :=
  iprop((dat9 V hO c).Φ t.castSucc ∗ (dat9 V hO c).owesAt () t.castSucc
    ∗ (∃ d, owns (c : Thread nD τ) (ms9_0 V hO t) fullShare ((dat9 V hO c).before 0 t d))
    ∗ (∃ d, owns (c : Thread nD τ) (ms9_1 V hO t) fullShare ((dat9 V hO c).before 1 t d))
    ∗ (∃ d, owns (c : Thread nD τ) (ms9_2 V hO t) fullShare ((dat9 V hO c).before 2 t d)))

def bodyPost9 (hO : Ok9 V) (c : Dev nD) (t : Fin (cfgM9 V hO).N) : sProp 𝕄 :=
  iprop((dat9 V hO c).Φ t.succ ∗ (dat9 V hO c).owesAt () t.succ
    ∗ owns (c : Thread nD τ) (ms9_0 V hO t) fullShare ((dat9 V hO c).after 0 t)
    ∗ owns (c : Thread nD τ) (ms9_1 V hO t) fullShare ((dat9 V hO c).after 1 t)
    ∗ owns (c : Thread nD τ) (ms9_2 V hO t) fullShare ((dat9 V hO c).after 2 t))

/-- The body at any point: the two input buffers hold their blocks, the body adds them into the output buffer; the
    invariant and the tallies pass through untouched. -/
theorem sound_body9 (hO : Ok9 V) (c : Dev nD) (t : Fin (cfgM9 V hO).N) :
    bodyPre9 V hO c t ⊢ wp frame (wpE (defs₀ (F := F)) Variants.none c none) Set.univ (bodyAt9 (adm9 V hO) t) (fun _ => bodyPost9 V hO c t) := by
  unfold bodyPre9 bodyPost9 bodyAt9
  simp only [before9_0, before9_1]
  rw [show (dat9 V hO c).Φ t.succ = (dat9 V hO c).Φ t.castSucc from rfl,
    show (dat9 V hO c).owesAt () t.succ = (dat9 V hO c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ _ _ _ _ (iblk9 V hO c 0 t) (iblk9 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (hO : Ok9 V) (c : Dev nD) : BodyObligation (dat9 (F := F) V hO c) (defs₀ (F := F)) Variants.none () Set.univ := fun t => by
  rw [bigSep_W9, bigSep_W9]
  exact sound_body9 V hO c t
end

section
variable (V : (c : Dev nD) → (b : Ref sig .tc) → Buf (Elt F) ((c : Thread nD τ).loc b))

/-- The region's three arrays as points-to facts: the gathered array, read by both input windows, half and half; the output array whole. -/
theorem arrays9_eq (hO : Ok9 V) (c : Dev nD)
    (G : (w : Fin (cfgM9 V hO).W) → Buf (Elt F) (((cfgM9 V hO).win w).arr.view.loc (c : Thread nD τ))) :
    ((dat9 V hO c).arrays G : sProp 𝕄)
      = iprop((((c : Thread nD τ).loc main_v1) ↦{fullShare.left} G 0) ∗ (((c : Thread nD τ).loc main_v1) ↦{fullShare.right} G 1)
          ∗ (((c : Thread nD τ).loc main_v56) ↦{fullShare} G 2)) := by
  unfold Dat.arrays
  rw [bigSep_W9, (arr_whole9 0).set_eq_univ, (arr_whole9 2).set_eq_univ]
  rfl
end

/-- The two distinct buffers behind the region's three windows. -/
theorem arrImage9 : Finset.univ.image (Pipeline.arrRef spec9) = insert main_v1 {main_v56} := by decide

section
variable (W : Dev nD → Valuation τ sig (Elt F))

theorem arrBufs9_eq (c : Dev nD) (V : (b : Ref sig .tc) → Buf (Elt F) ((c : Thread nD τ).loc b)) :
    (Pipeline.arrBufs spec9 c V : sProp 𝕄)
      = iprop((((c : Thread nD τ).loc main_v1) ↦{fullShare} V main_v1) ∗ (((c : Thread nD τ).loc main_v56) ↦{fullShare} V main_v56)) := by
  unfold Pipeline.arrBufs
  rw [arrImage9, bigSep_insert (by decide), bigSep_singleton]
  rfl

/-- ENTRY: every unscoped buffer held at `W` gives the region its arrays (the gathered array split in two halves), its two
    tables whole, the tallies, the generator register and the rest of the unscoped buffers. -/
theorem entry9 (hO : Ok9 (VW W)) (c : Dev nD) :
    iprop(StableHlo.held (c : Thread nD τ) (Pipeline.ucRefs τ sig) (W c) ∗ Rr (F := F) c)
      ⊢ |={Set.univ}=> iprop((dat9 (VW W) hO c).arrays ((dat9 (VW W) hO c).arrAt · 0)
          ∗ Pipeline.prefHeld pre9 c (fun _ => fullShare) (tbl9 (VW W))
          ∗ (dat9 (VW W) hO c).owesAt () 0 ∗ (∃ r, prngReg c r)
          ∗ (Pipeline.unscopedRestP pre9 spec9 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM9 (VW W) hO) () winFacts₀9.arr_unscoped c (VW W c)]
  rw [show (Pipeline.arrBufs (cfgM9 (VW W) hO).spec c (VW W c) : sProp 𝕄) = Pipeline.arrBufs spec9 c (VW W c) from rfl,
    arrBufs9_eq, arrays9_eq]
  rw [show (Pipeline.unscopedRest (cfgM9 (VW W) hO).spec c (VW W c) : sProp 𝕄) = Pipeline.unscopedRest spec9 c (VW W c) from rfl,
    Pipeline.unscopedRest_split preFacts9 c (VW W c)]
  rw [show (fun k => VW W c (pre9.ref k)) = tbl9 (VW W) from funext fun k => V_pre9 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest9_update (c : Dev nD) (X : Buf (Elt F) ((c : Thread nD τ).loc main_v56)) :
    (Pipeline.unscopedRest spec9 c (fun b => Function.update (W c) main_v56 X b) : sProp 𝕄) = Pipeline.unscopedRest spec9 c (VW W c) := by
  unfold Pipeline.unscopedRest
  exact bigSep_congr fun b hb => by
    have hne : b ≠ main_v56 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit9 (hO : Ok9 (VW W)) (c : Dev nD) (X : Buf (Elt F) ((c : Thread nD τ).loc main_v56))
    (hX : (dat9 (VW W) hO c).arrAt 2 (cfgM9 (VW W) hO).N = X) :
    iprop((dat9 (VW W) hO c).arrays ((dat9 (VW W) hO c).arrAt · (cfgM9 (VW W) hO).N)
        ∗ (dat9 (VW W) hO c).owesAt () (Fin.last (cfgM9 (VW W) hO).N)
        ∗ iprop((∃ r, prngReg c r) ∗ Pipeline.prefHeld pre9 c (fun _ => fullShare) (tbl9 (VW W)))
        ∗ (Pipeline.unscopedRestP pre9 spec9 c (VW W c) : sProp 𝕄))
      ⊢ |={Set.univ}=> iprop(StableHlo.held (c : Thread nD τ) (Pipeline.ucRefs τ sig) (Function.update (W c) main_v56 X) ∗ Rr (F := F) c) := by
  rw [← Pipeline.unscopedBufs_held (Ix := Unit) (Name := ℕ) (U := UR sig nD τ) (Lvl := ℕ) c (Function.update (W c) main_v56 X)]
  rw [Pipeline.unscopedBufs_split₀ (fun _ : Unit => cfgM9 (VW W) hO) () winFacts₀9.arr_unscoped c _]
  rw [show ∀ V', (Pipeline.arrBufs (cfgM9 (VW W) hO).spec c V' : sProp 𝕄) = Pipeline.arrBufs spec9 c V' from fun _ => rfl,
    show ∀ V', (Pipeline.unscopedRest (cfgM9 (VW W) hO).spec c V' : sProp 𝕄) = Pipeline.unscopedRest spec9 c V' from fun _ => rfl,
    rest9_update W c X, Pipeline.unscopedRest_split preFacts9 c (VW W c), arrBufs9_eq]
  rw [show (fun k => VW W c (pre9.ref k)) = tbl9 (VW W) from funext fun k => V_pre9 (VW W) c k]
  rw [Function.update_of_ne (StableHlo.devRef_ne_of_ne (by decide : (main_v1 : Ref sig .tc) ≠ main_v56)), Function.update_self]
  rw [arrays9_eq, hX,
    show (dat9 (VW W) hO c).arrAt 0 (cfgM9 (VW W) hO).N = W c main_v1 from (dat9 (VW W) hO c).arrAt_in 0 rfl _,
    show (dat9 (VW W) hO c).arrAt 1 (cfgM9 (VW W) hO).N = W c main_v1 from (dat9 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.Kernel.GenP

end
-- ==== Proof.Kernel.RB10.lean ====
/- A row-gather region of the program: the region's proof data, its body obligation and its entry and exit. -/
import proofs.«175043_j76819785056407_2_alg».proof.Proof.Gen.Kernel.Launch
import proofs.«175043_j76819785056407_2_alg».proof.Proof.Gen.Kernel.Skeleton
import proofs.«175043_j76819785056407_2_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 10): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl10 : pre10.Contents (Elt F) := fun j => V (0 : Dev nD) (pre10.ref j)
theorem V_pre10 (c : Dev nD) (j : Fin 2) : V c (pre10.ref j) = tbl10 V j := by
  obtain rfl : c = 0 := Subsingleton.elim _ _; rfl
/-- Every table-indexed block lies inside the gathered array. -/
abbrev Ok10 : Prop := ok10 (F := F) (tbl10 V)
abbrev adm10 (hO : Ok10 V) : (pcfg10 (F := F)).Adm := ⟨tbl10 V, hO⟩
abbrev cfgM10 (hO : Ok10 V) : Pipeline.Cfg sig Λ₀ := cfg10 (adm10 V hO)

/-- Window `w`'s block at point `t`, read off its array as the region finds it. -/
def iblk10 (hO : Ok10 V) (c : Dev nD) (w : Fin (cfgM10 V hO).W) (t : Fin (cfgM10 V hO).N) :
    (((cfgM10 V hO).win w).xblock ((cfgM10 V hO).grid.coords t)).Idx → Elt F ((cfgM10 V hO).win w).elt :=
  (((cfgM10 V hO).win w).blk t).view.read (Elt F) (V c (Pipeline.arrRef spec10 w))

theorem before10_0_of (hO : Ok10 V) {c : Dev nD} (dat : Dat τ (Elt F) Unit ℕ (UR sig nD τ) ℕ (cfgM10 V hO) c) (hA : dat.A 0 = V c (Pipeline.arrRef spec10 0))
    (hafter : ∀ t, dat.after 0 t = iblk10 V hO c 0 t) (t : Fin (cfgM10 V hO).N) (d) : dat.before 0 t d = iblk10 V hO c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of (hO : Ok10 V) {c : Dev nD} (dat : Dat τ (Elt F) Unit ℕ (UR sig nD τ) ℕ (cfgM10 V hO) c) (hA : dat.A 1 = V c (Pipeline.arrRef spec10 1))
    (hafter : ∀ t, dat.after 1 t = iblk10 V hO c 1 t) (t : Fin (cfgM10 V hO).N) (d) : dat.before 1 t d = iblk10 V hO c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
end

/-- The body's one rectangle: the whole 1×1×128 block. -/
abbrev r10_0 : Rect S1x1x128 := Rect.unit (s := S1x1x128) ![0, 0, 0] S1x1x128.size inb_S1x1x128_S1x1x128_0_0_0

/-- The output block after the body: the sum of the two gathered rows. -/
def out10_2 (x0 x1 : Vec F S1x1x128 .f32) : Vec F S1x1x128 .f32 :=
  View.canon [⟨r10_0, k10_pay1 (View.ld x0 r10_0) (View.ld x1 r10_0)⟩]

theorem cover10_2 (p0 : Vec F S1x1x128 .f32) (y : S1x1x128.Idx) :
    ∃ pc ∈ ([⟨r10_0, p0⟩] : List (View.Piece (Elt F) S1x1x128 .f32)), y ∈ pc.1.set :=
  View.cover_of_tiled [⟨r10_0, p0⟩] S1x1x128.size (by rfl) y

set_option maxHeartbeats 1000000 in
/-- The body on whole staging memrefs: the two inputs stay, the output ends at the sum; the tables are not touched. -/
theorem sound_kernel10 (c : Dev nD) (E : Set ℕ) (i : grid10.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out10_2 x0 x1)) -∗ K ⟨⟩))
      ⊢ wp frame (wpE (defs₀ (F := F)) Variants.none c none) E (cc10__kernel_b i a1 ha1 a2 ha2 arg3 harg3 arg4 harg4 arg5 harg5) K := by
  simp only [cc10__kernel_b_eq_skeleton]; unfold cc10__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

section
variable (V : (c : Dev nD) → (b : Ref sig .tc) → Buf (Elt F) ((c : Thread nD τ).loc b))

/-- Each window's current staging memref at point `t`, and its wholeness. -/
abbrev ms10_0 (hO : Ok10 V) (t : Fin (cfgM10 V hO).N) : Memref sig .tc .vmem S1x1x128 .f32 := spec10_0.stage ((cfgM10 V hO).slots t 0)
abbrev hs10_0 (hO : Ok10 V) (t : Fin (cfgM10 V hO).N) : (ms10_0 V hO t).IsWhole := hstage10_0 (((cfgM10 V hO).slots t 0).cast nbuf10_0)
abbrev ms10_1 (hO : Ok10 V) (t : Fin (cfgM10 V hO).N) : Memref sig .tc .vmem S1x1x128 .f32 := spec10_1.stage ((cfgM10 V hO).slots t 1)
abbrev hs10_1 (hO : Ok10 V) (t : Fin (cfgM10 V hO).N) : (ms10_1 V hO t).IsWhole := hstage10_1 (((cfgM10 V hO).slots t 1).cast nbuf10_1)
abbrev ms10_2 (hO : Ok10 V) (t : Fin (cfgM10 V hO).N) : Memref sig .tc .vmem S1x1x128 .f32 := spec10_2.stage ((cfgM10 V hO).slots t 2)
abbrev hs10_2 (hO : Ok10 V) (t : Fin (cfgM10 V hO).N) : (ms10_2 V hO t).IsWhole := hstage10_2 (((cfgM10 V hO).slots t 2).cast nbuf10_2)

/-- The kernel body as the pipeline calls it at point `t`: the point, the two tables whole, the three current staging memrefs. -/
abbrev bodyAt10 (a : (pcfg10 (F := F)).Adm) (t : Fin (cfg10 a).N) : Prog (TpuEff nD τ sig (Elt F) Λ₀ .tc) PUnit :=
  cc10__kernel_b (grid10.coords t) (Memref.whole main_v58) (Memref.isWhole_whole _) (Memref.whole main_v59) (Memref.isWhole_whole _)
    (spec10_0.stage ((cfg10 a).slots t 0)) (hstage10_0 (((cfg10 a).slots t 0).cast nbuf10_0))
    (spec10_1.stage ((cfg10 a).slots t 1)) (hstage10_1 (((cfg10 a).slots t 1).cast nbuf10_1))
    (spec10_2.stage ((cfg10 a).slots t 2)) (hstage10_2 (((cfg10 a).slots t 2).cast nbuf10_2))

/-- The region's proof data on core `c`: the arrays as the region finds them; after the body each input's buffer at its
    block and the output's at the sum of the two input blocks; the invariant carries the scoped rest, the generator register
    and the two tables, whole; the gathered array, read by both input windows, is held half and half; nothing owed. -/
def dat10 (hO : Ok10 V) (c : Dev nD) : Dat τ (Elt F) Unit ℕ (UR sig nD τ) ℕ (cfgM10 V hO) c where
  A w := V c (Pipeline.arrRef spec10 w)
  after w t := match w with
    | ⟨0, _⟩ => iblk10 V hO c 0 t
    | ⟨1, _⟩ => iblk10 V hO c 1 t
    | ⟨2, _⟩ => out10_2 (iblk10 V hO c 0 t) (iblk10 V hO c 1 t)
  Φ _ := iprop(Pipeline.ΦA spec10 c ∗ (Pipeline.prefHeld pre10 c (fun _ => fullShare) (tbl10 V) : sProp 𝕄))
  q w := match w with
    | ⟨0, _⟩ => fullShare.left
    | ⟨1, _⟩ => fullShare.right
    | ⟨2, _⟩ => fullShare
  owed _ := 0

theorem A_eq10 (hO : Ok10 V) (c : Dev nD) (w : Fin (cfgM10 V hO).W) : (dat10 V hO c).A w = V c (Pipeline.arrRef spec10 w) := by
  dsimp only [dat10]

theorem after10_0 (hO : Ok10 V) (c : Dev nD) (t : Fin (cfgM10 V hO).N) : (dat10 V hO c).after 0 t = iblk10 V hO c 0 t := by dsimp only [dat10]; try rfl
theorem after10_1 (hO : Ok10 V) (c : Dev nD) (t : Fin (cfgM10 V hO).N) : (dat10 V hO c).after 1 t = iblk10 V hO c 1 t := by dsimp only [dat10]; try rfl
theorem after10_2 (hO : Ok10 V) (c : Dev nD) (t : Fin (cfgM10 V hO).N) : (dat10 V hO c).after 2 t = out10_2 (iblk10 V hO c 0 t) (iblk10 V hO c 1 t) := by dsimp only [dat10]; try rfl

theorem before10_0 (hO : Ok10 V) (c : Dev nD) (t : Fin (cfgM10 V hO).N) (d) : (dat10 V hO c).before 0 t d = iblk10 V hO c 0 t :=
  before10_0_of V hO (dat10 V hO c) (A_eq10 V hO c 0) (after10_0 V hO c) t d
theorem before10_1 (hO : Ok10 V) (c : Dev nD) (t : Fin (cfgM10 V hO).N) (d) : (dat10 V hO c).before 1 t d = iblk10 V hO c 1 t :=
  before10_1_of V hO (dat10 V hO c) (A_eq10 V hO c 1) (after10_1 V hO c) t d

def bodyPre10 (hO : Ok10 V) (c : Dev nD) (t : Fin (cfgM10 V hO).N) : sProp 𝕄 :=
  iprop((dat10 V hO c).Φ t.castSucc ∗ (dat10 V hO c).owesAt () t.castSucc
    ∗ (∃ d, owns (c : Thread nD τ) (ms10_0 V hO t) fullShare ((dat10 V hO c).before 0 t d))
    ∗ (∃ d, owns (c : Thread nD τ) (ms10_1 V hO t) fullShare ((dat10 V hO c).before 1 t d))
    ∗ (∃ d, owns (c : Thread nD τ) (ms10_2 V hO t) fullShare ((dat10 V hO c).before 2 t d)))

def bodyPost10 (hO : Ok10 V) (c : Dev nD) (t : Fin (cfgM10 V hO).N) : sProp 𝕄 :=
  iprop((dat10 V hO c).Φ t.succ ∗ (dat10 V hO c).owesAt () t.succ
    ∗ owns (c : Thread nD τ) (ms10_0 V hO t) fullShare ((dat10 V hO c).after 0 t)
    ∗ owns (c : Thread nD τ) (ms10_1 V hO t) fullShare ((dat10 V hO c).after 1 t)
    ∗ owns (c : Thread nD τ) (ms10_2 V hO t) fullShare ((dat10 V hO c).after 2 t))

/-- The body at any point: the two input buffers hold their blocks, the body adds them into the output buffer; the
    invariant and the tallies pass through untouched. -/
theorem sound_body10 (hO : Ok10 V) (c : Dev nD) (t : Fin (cfgM10 V hO).N) :
    bodyPre10 V hO c t ⊢ wp frame (wpE (defs₀ (F := F)) Variants.none c none) Set.univ (bodyAt10 (adm10 V hO) t) (fun _ => bodyPost10 V hO c t) := by
  unfold bodyPre10 bodyPost10 bodyAt10
  simp only [before10_0, before10_1]
  rw [show (dat10 V hO c).Φ t.succ = (dat10 V hO c).Φ t.castSucc from rfl,
    show (dat10 V hO c).owesAt () t.succ = (dat10 V hO c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ _ _ _ _ (iblk10 V hO c 0 t) (iblk10 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (hO : Ok10 V) (c : Dev nD) : BodyObligation (dat10 (F := F) V hO c) (defs₀ (F := F)) Variants.none () Set.univ := fun t => by
  rw [bigSep_W10, bigSep_W10]
  exact sound_body10 V hO c t
end

section
variable (V : (c : Dev nD) → (b : Ref sig .tc) → Buf (Elt F) ((c : Thread nD τ).loc b))

/-- The region's three arrays as points-to facts: the gathered array, read by both input windows, half and half; the output array whole. -/
theorem arrays10_eq (hO : Ok10 V) (c : Dev nD)
    (G : (w : Fin (cfgM10 V hO).W) → Buf (Elt F) (((cfgM10 V hO).win w).arr.view.loc (c : Thread nD τ))) :
    ((dat10 V hO c).arrays G : sProp 𝕄)
      = iprop((((c : Thread nD τ).loc main_v1) ↦{fullShare.left} G 0) ∗ (((c : Thread nD τ).loc main_v1) ↦{fullShare.right} G 1)
          ∗ (((c : Thread nD τ).loc main_v60) ↦{fullShare} G 2)) := by
  unfold Dat.arrays
  rw [bigSep_W10, (arr_whole10 0).set_eq_univ, (arr_whole10 2).set_eq_univ]
  rfl
end

/-- The two distinct buffers behind the region's three windows. -/
theorem arrImage10 : Finset.univ.image (Pipeline.arrRef spec10) = insert main_v1 {main_v60} := by decide

section
variable (W : Dev nD → Valuation τ sig (Elt F))

theorem arrBufs10_eq (c : Dev nD) (V : (b : Ref sig .tc) → Buf (Elt F) ((c : Thread nD τ).loc b)) :
    (Pipeline.arrBufs spec10 c V : sProp 𝕄)
      = iprop((((c : Thread nD τ).loc main_v1) ↦{fullShare} V main_v1) ∗ (((c : Thread nD τ).loc main_v60) ↦{fullShare} V main_v60)) := by
  unfold Pipeline.arrBufs
  rw [arrImage10, bigSep_insert (by decide), bigSep_singleton]
  rfl

/-- ENTRY: every unscoped buffer held at `W` gives the region its arrays (the gathered array split in two halves), its two
    tables whole, the tallies, the generator register and the rest of the unscoped buffers. -/
theorem entry10 (hO : Ok10 (VW W)) (c : Dev nD) :
    iprop(StableHlo.held (c : Thread nD τ) (Pipeline.ucRefs τ sig) (W c) ∗ Rr (F := F) c)
      ⊢ |={Set.univ}=> iprop((dat10 (VW W) hO c).arrays ((dat10 (VW W) hO c).arrAt · 0)
          ∗ Pipeline.prefHeld pre10 c (fun _ => fullShare) (tbl10 (VW W))
          ∗ (dat10 (VW W) hO c).owesAt () 0 ∗ (∃ r, prngReg c r)
          ∗ (Pipeline.unscopedRestP pre10 spec10 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM10 (VW W) hO) () winFacts₀10.arr_unscoped c (VW W c)]
  rw [show (Pipeline.arrBufs (cfgM10 (VW W) hO).spec c (VW W c) : sProp 𝕄) = Pipeline.arrBufs spec10 c (VW W c) from rfl,
    arrBufs10_eq, arrays10_eq]
  rw [show (Pipeline.unscopedRest (cfgM10 (VW W) hO).spec c (VW W c) : sProp 𝕄) = Pipeline.unscopedRest spec10 c (VW W c) from rfl,
    Pipeline.unscopedRest_split preFacts10 c (VW W c)]
  rw [show (fun k => VW W c (pre10.ref k)) = tbl10 (VW W) from funext fun k => V_pre10 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest10_update (c : Dev nD) (X : Buf (Elt F) ((c : Thread nD τ).loc main_v60)) :
    (Pipeline.unscopedRest spec10 c (fun b => Function.update (W c) main_v60 X b) : sProp 𝕄) = Pipeline.unscopedRest spec10 c (VW W c) := by
  unfold Pipeline.unscopedRest
  exact bigSep_congr fun b hb => by
    have hne : b ≠ main_v60 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit10 (hO : Ok10 (VW W)) (c : Dev nD) (X : Buf (Elt F) ((c : Thread nD τ).loc main_v60))
    (hX : (dat10 (VW W) hO c).arrAt 2 (cfgM10 (VW W) hO).N = X) :
    iprop((dat10 (VW W) hO c).arrays ((dat10 (VW W) hO c).arrAt · (cfgM10 (VW W) hO).N)
        ∗ (dat10 (VW W) hO c).owesAt () (Fin.last (cfgM10 (VW W) hO).N)
        ∗ iprop((∃ r, prngReg c r) ∗ Pipeline.prefHeld pre10 c (fun _ => fullShare) (tbl10 (VW W)))
        ∗ (Pipeline.unscopedRestP pre10 spec10 c (VW W c) : sProp 𝕄))
      ⊢ |={Set.univ}=> iprop(StableHlo.held (c : Thread nD τ) (Pipeline.ucRefs τ sig) (Function.update (W c) main_v60 X) ∗ Rr (F := F) c) := by
  rw [← Pipeline.unscopedBufs_held (Ix := Unit) (Name := ℕ) (U := UR sig nD τ) (Lvl := ℕ) c (Function.update (W c) main_v60 X)]
  rw [Pipeline.unscopedBufs_split₀ (fun _ : Unit => cfgM10 (VW W) hO) () winFacts₀10.arr_unscoped c _]
  rw [show ∀ V', (Pipeline.arrBufs (cfgM10 (VW W) hO).spec c V' : sProp 𝕄) = Pipeline.arrBufs spec10 c V' from fun _ => rfl,
    show ∀ V', (Pipeline.unscopedRest (cfgM10 (VW W) hO).spec c V' : sProp 𝕄) = Pipeline.unscopedRest spec10 c V' from fun _ => rfl,
    rest10_update W c X, Pipeline.unscopedRest_split preFacts10 c (VW W c), arrBufs10_eq]
  rw [show (fun k => VW W c (pre10.ref k)) = tbl10 (VW W) from funext fun k => V_pre10 (VW W) c k]
  rw [Function.update_of_ne (StableHlo.devRef_ne_of_ne (by decide : (main_v1 : Ref sig .tc) ≠ main_v60)), Function.update_self]
  rw [arrays10_eq, hX,
    show (dat10 (VW W) hO c).arrAt 0 (cfgM10 (VW W) hO).N = W c main_v1 from (dat10 (VW W) hO c).arrAt_in 0 rfl _,
    show (dat10 (VW W) hO c).arrAt 1 (cfgM10 (VW W) hO).N = W c main_v1 from (dat10 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.Kernel.GenP

end
-- ==== Proof.Kernel.RB11.lean ====
/- A row-gather region of the program: the region's proof data, its body obligation and its entry and exit. -/
import proofs.«175043_j76819785056407_2_alg».proof.Proof.Gen.Kernel.Launch
import proofs.«175043_j76819785056407_2_alg».proof.Proof.Gen.Kernel.Skeleton
import proofs.«175043_j76819785056407_2_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 11): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl11 : pre11.Contents (Elt F) := fun j => V (0 : Dev nD) (pre11.ref j)
theorem V_pre11 (c : Dev nD) (j : Fin 2) : V c (pre11.ref j) = tbl11 V j := by
  obtain rfl : c = 0 := Subsingleton.elim _ _; rfl
/-- Every table-indexed block lies inside the gathered array. -/
abbrev Ok11 : Prop := ok11 (F := F) (tbl11 V)
abbrev adm11 (hO : Ok11 V) : (pcfg11 (F := F)).Adm := ⟨tbl11 V, hO⟩
abbrev cfgM11 (hO : Ok11 V) : Pipeline.Cfg sig Λ₀ := cfg11 (adm11 V hO)

/-- Window `w`'s block at point `t`, read off its array as the region finds it. -/
def iblk11 (hO : Ok11 V) (c : Dev nD) (w : Fin (cfgM11 V hO).W) (t : Fin (cfgM11 V hO).N) :
    (((cfgM11 V hO).win w).xblock ((cfgM11 V hO).grid.coords t)).Idx → Elt F ((cfgM11 V hO).win w).elt :=
  (((cfgM11 V hO).win w).blk t).view.read (Elt F) (V c (Pipeline.arrRef spec11 w))

theorem before11_0_of (hO : Ok11 V) {c : Dev nD} (dat : Dat τ (Elt F) Unit ℕ (UR sig nD τ) ℕ (cfgM11 V hO) c) (hA : dat.A 0 = V c (Pipeline.arrRef spec11 0))
    (hafter : ∀ t, dat.after 0 t = iblk11 V hO c 0 t) (t : Fin (cfgM11 V hO).N) (d) : dat.before 0 t d = iblk11 V hO c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of (hO : Ok11 V) {c : Dev nD} (dat : Dat τ (Elt F) Unit ℕ (UR sig nD τ) ℕ (cfgM11 V hO) c) (hA : dat.A 1 = V c (Pipeline.arrRef spec11 1))
    (hafter : ∀ t, dat.after 1 t = iblk11 V hO c 1 t) (t : Fin (cfgM11 V hO).N) (d) : dat.before 1 t d = iblk11 V hO c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
end

/-- The body's one rectangle: the whole 1×1×128 block. -/
abbrev r11_0 : Rect S1x1x128 := Rect.unit (s := S1x1x128) ![0, 0, 0] S1x1x128.size inb_S1x1x128_S1x1x128_0_0_0

/-- The output block after the body: the sum of the two gathered rows. -/
def out11_2 (x0 x1 : Vec F S1x1x128 .f32) : Vec F S1x1x128 .f32 :=
  View.canon [⟨r11_0, k11_pay1 (View.ld x0 r11_0) (View.ld x1 r11_0)⟩]

theorem cover11_2 (p0 : Vec F S1x1x128 .f32) (y : S1x1x128.Idx) :
    ∃ pc ∈ ([⟨r11_0, p0⟩] : List (View.Piece (Elt F) S1x1x128 .f32)), y ∈ pc.1.set :=
  View.cover_of_tiled [⟨r11_0, p0⟩] S1x1x128.size (by rfl) y

set_option maxHeartbeats 1000000 in
/-- The body on whole staging memrefs: the two inputs stay, the output ends at the sum; the tables are not touched. -/
theorem sound_kernel11 (c : Dev nD) (E : Set ℕ) (i : grid11.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out11_2 x0 x1)) -∗ K ⟨⟩))
      ⊢ wp frame (wpE (defs₀ (F := F)) Variants.none c none) E (cc11__kernel_b i a1 ha1 a2 ha2 arg3 harg3 arg4 harg4 arg5 harg5) K := by
  simp only [cc11__kernel_b_eq_skeleton]; unfold cc11__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

section
variable (V : (c : Dev nD) → (b : Ref sig .tc) → Buf (Elt F) ((c : Thread nD τ).loc b))

/-- Each window's current staging memref at point `t`, and its wholeness. -/
abbrev ms11_0 (hO : Ok11 V) (t : Fin (cfgM11 V hO).N) : Memref sig .tc .vmem S1x1x128 .f32 := spec11_0.stage ((cfgM11 V hO).slots t 0)
abbrev hs11_0 (hO : Ok11 V) (t : Fin (cfgM11 V hO).N) : (ms11_0 V hO t).IsWhole := hstage11_0 (((cfgM11 V hO).slots t 0).cast nbuf11_0)
abbrev ms11_1 (hO : Ok11 V) (t : Fin (cfgM11 V hO).N) : Memref sig .tc .vmem S1x1x128 .f32 := spec11_1.stage ((cfgM11 V hO).slots t 1)
abbrev hs11_1 (hO : Ok11 V) (t : Fin (cfgM11 V hO).N) : (ms11_1 V hO t).IsWhole := hstage11_1 (((cfgM11 V hO).slots t 1).cast nbuf11_1)
abbrev ms11_2 (hO : Ok11 V) (t : Fin (cfgM11 V hO).N) : Memref sig .tc .vmem S1x1x128 .f32 := spec11_2.stage ((cfgM11 V hO).slots t 2)
abbrev hs11_2 (hO : Ok11 V) (t : Fin (cfgM11 V hO).N) : (ms11_2 V hO t).IsWhole := hstage11_2 (((cfgM11 V hO).slots t 2).cast nbuf11_2)

/-- The kernel body as the pipeline calls it at point `t`: the point, the two tables whole, the three current staging memrefs. -/
abbrev bodyAt11 (a : (pcfg11 (F := F)).Adm) (t : Fin (cfg11 a).N) : Prog (TpuEff nD τ sig (Elt F) Λ₀ .tc) PUnit :=
  cc11__kernel_b (grid11.coords t) (Memref.whole main_v62) (Memref.isWhole_whole _) (Memref.whole main_v63) (Memref.isWhole_whole _)
    (spec11_0.stage ((cfg11 a).slots t 0)) (hstage11_0 (((cfg11 a).slots t 0).cast nbuf11_0))
    (spec11_1.stage ((cfg11 a).slots t 1)) (hstage11_1 (((cfg11 a).slots t 1).cast nbuf11_1))
    (spec11_2.stage ((cfg11 a).slots t 2)) (hstage11_2 (((cfg11 a).slots t 2).cast nbuf11_2))

/-- The region's proof data on core `c`: the arrays as the region finds them; after the body each input's buffer at its
    block and the output's at the sum of the two input blocks; the invariant carries the scoped rest, the generator register
    and the two tables, whole; the gathered array, read by both input windows, is held half and half; nothing owed. -/
def dat11 (hO : Ok11 V) (c : Dev nD) : Dat τ (Elt F) Unit ℕ (UR sig nD τ) ℕ (cfgM11 V hO) c where
  A w := V c (Pipeline.arrRef spec11 w)
  after w t := match w with
    | ⟨0, _⟩ => iblk11 V hO c 0 t
    | ⟨1, _⟩ => iblk11 V hO c 1 t
    | ⟨2, _⟩ => out11_2 (iblk11 V hO c 0 t) (iblk11 V hO c 1 t)
  Φ _ := iprop(Pipeline.ΦA spec11 c ∗ (Pipeline.prefHeld pre11 c (fun _ => fullShare) (tbl11 V) : sProp 𝕄))
  q w := match w with
    | ⟨0, _⟩ => fullShare.left
    | ⟨1, _⟩ => fullShare.right
    | ⟨2, _⟩ => fullShare
  owed _ := 0

theorem A_eq11 (hO : Ok11 V) (c : Dev nD) (w : Fin (cfgM11 V hO).W) : (dat11 V hO c).A w = V c (Pipeline.arrRef spec11 w) := by
  dsimp only [dat11]

theorem after11_0 (hO : Ok11 V) (c : Dev nD) (t : Fin (cfgM11 V hO).N) : (dat11 V hO c).after 0 t = iblk11 V hO c 0 t := by dsimp only [dat11]; try rfl
theorem after11_1 (hO : Ok11 V) (c : Dev nD) (t : Fin (cfgM11 V hO).N) : (dat11 V hO c).after 1 t = iblk11 V hO c 1 t := by dsimp only [dat11]; try rfl
theorem after11_2 (hO : Ok11 V) (c : Dev nD) (t : Fin (cfgM11 V hO).N) : (dat11 V hO c).after 2 t = out11_2 (iblk11 V hO c 0 t) (iblk11 V hO c 1 t) := by dsimp only [dat11]; try rfl

theorem before11_0 (hO : Ok11 V) (c : Dev nD) (t : Fin (cfgM11 V hO).N) (d) : (dat11 V hO c).before 0 t d = iblk11 V hO c 0 t :=
  before11_0_of V hO (dat11 V hO c) (A_eq11 V hO c 0) (after11_0 V hO c) t d
theorem before11_1 (hO : Ok11 V) (c : Dev nD) (t : Fin (cfgM11 V hO).N) (d) : (dat11 V hO c).before 1 t d = iblk11 V hO c 1 t :=
  before11_1_of V hO (dat11 V hO c) (A_eq11 V hO c 1) (after11_1 V hO c) t d

def bodyPre11 (hO : Ok11 V) (c : Dev nD) (t : Fin (cfgM11 V hO).N) : sProp 𝕄 :=
  iprop((dat11 V hO c).Φ t.castSucc ∗ (dat11 V hO c).owesAt () t.castSucc
    ∗ (∃ d, owns (c : Thread nD τ) (ms11_0 V hO t) fullShare ((dat11 V hO c).before 0 t d))
    ∗ (∃ d, owns (c : Thread nD τ) (ms11_1 V hO t) fullShare ((dat11 V hO c).before 1 t d))
    ∗ (∃ d, owns (c : Thread nD τ) (ms11_2 V hO t) fullShare ((dat11 V hO c).before 2 t d)))

def bodyPost11 (hO : Ok11 V) (c : Dev nD) (t : Fin (cfgM11 V hO).N) : sProp 𝕄 :=
  iprop((dat11 V hO c).Φ t.succ ∗ (dat11 V hO c).owesAt () t.succ
    ∗ owns (c : Thread nD τ) (ms11_0 V hO t) fullShare ((dat11 V hO c).after 0 t)
    ∗ owns (c : Thread nD τ) (ms11_1 V hO t) fullShare ((dat11 V hO c).after 1 t)
    ∗ owns (c : Thread nD τ) (ms11_2 V hO t) fullShare ((dat11 V hO c).after 2 t))

/-- The body at any point: the two input buffers hold their blocks, the body adds them into the output buffer; the
    invariant and the tallies pass through untouched. -/
theorem sound_body11 (hO : Ok11 V) (c : Dev nD) (t : Fin (cfgM11 V hO).N) :
    bodyPre11 V hO c t ⊢ wp frame (wpE (defs₀ (F := F)) Variants.none c none) Set.univ (bodyAt11 (adm11 V hO) t) (fun _ => bodyPost11 V hO c t) := by
  unfold bodyPre11 bodyPost11 bodyAt11
  simp only [before11_0, before11_1]
  rw [show (dat11 V hO c).Φ t.succ = (dat11 V hO c).Φ t.castSucc from rfl,
    show (dat11 V hO c).owesAt () t.succ = (dat11 V hO c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ _ _ _ _ (iblk11 V hO c 0 t) (iblk11 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation11 (hO : Ok11 V) (c : Dev nD) : BodyObligation (dat11 (F := F) V hO c) (defs₀ (F := F)) Variants.none () Set.univ := fun t => by
  rw [bigSep_W11, bigSep_W11]
  exact sound_body11 V hO c t
end

section
variable (V : (c : Dev nD) → (b : Ref sig .tc) → Buf (Elt F) ((c : Thread nD τ).loc b))

/-- The region's three arrays as points-to facts: the gathered array, read by both input windows, half and half; the output array whole. -/
theorem arrays11_eq (hO : Ok11 V) (c : Dev nD)
    (G : (w : Fin (cfgM11 V hO).W) → Buf (Elt F) (((cfgM11 V hO).win w).arr.view.loc (c : Thread nD τ))) :
    ((dat11 V hO c).arrays G : sProp 𝕄)
      = iprop((((c : Thread nD τ).loc main_v1) ↦{fullShare.left} G 0) ∗ (((c : Thread nD τ).loc main_v1) ↦{fullShare.right} G 1)
          ∗ (((c : Thread nD τ).loc main_v64) ↦{fullShare} G 2)) := by
  unfold Dat.arrays
  rw [bigSep_W11, (arr_whole11 0).set_eq_univ, (arr_whole11 2).set_eq_univ]
  rfl
end

/-- The two distinct buffers behind the region's three windows. -/
theorem arrImage11 : Finset.univ.image (Pipeline.arrRef spec11) = insert main_v1 {main_v64} := by decide

section
variable (W : Dev nD → Valuation τ sig (Elt F))

theorem arrBufs11_eq (c : Dev nD) (V : (b : Ref sig .tc) → Buf (Elt F) ((c : Thread nD τ).loc b)) :
    (Pipeline.arrBufs spec11 c V : sProp 𝕄)
      = iprop((((c : Thread nD τ).loc main_v1) ↦{fullShare} V main_v1) ∗ (((c : Thread nD τ).loc main_v64) ↦{fullShare} V main_v64)) := by
  unfold Pipeline.arrBufs
  rw [arrImage11, bigSep_insert (by decide), bigSep_singleton]
  rfl

/-- ENTRY: every unscoped buffer held at `W` gives the region its arrays (the gathered array split in two halves), its two
    tables whole, the tallies, the generator register and the rest of the unscoped buffers. -/
theorem entry11 (hO : Ok11 (VW W)) (c : Dev nD) :
    iprop(StableHlo.held (c : Thread nD τ) (Pipeline.ucRefs τ sig) (W c) ∗ Rr (F := F) c)
      ⊢ |={Set.univ}=> iprop((dat11 (VW W) hO c).arrays ((dat11 (VW W) hO c).arrAt · 0)
          ∗ Pipeline.prefHeld pre11 c (fun _ => fullShare) (tbl11 (VW W))
          ∗ (dat11 (VW W) hO c).owesAt () 0 ∗ (∃ r, prngReg c r)
          ∗ (Pipeline.unscopedRestP pre11 spec11 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM11 (VW W) hO) () winFacts₀11.arr_unscoped c (VW W c)]
  rw [show (Pipeline.arrBufs (cfgM11 (VW W) hO).spec c (VW W c) : sProp 𝕄) = Pipeline.arrBufs spec11 c (VW W c) from rfl,
    arrBufs11_eq, arrays11_eq]
  rw [show (Pipeline.unscopedRest (cfgM11 (VW W) hO).spec c (VW W c) : sProp 𝕄) = Pipeline.unscopedRest spec11 c (VW W c) from rfl,
    Pipeline.unscopedRest_split preFacts11 c (VW W c)]
  rw [show (fun k => VW W c (pre11.ref k)) = tbl11 (VW W) from funext fun k => V_pre11 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest11_update (c : Dev nD) (X : Buf (Elt F) ((c : Thread nD τ).loc main_v64)) :
    (Pipeline.unscopedRest spec11 c (fun b => Function.update (W c) main_v64 X b) : sProp 𝕄) = Pipeline.unscopedRest spec11 c (VW W c) := by
  unfold Pipeline.unscopedRest
  exact bigSep_congr fun b hb => by
    have hne : b ≠ main_v64 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit11 (hO : Ok11 (VW W)) (c : Dev nD) (X : Buf (Elt F) ((c : Thread nD τ).loc main_v64))
    (hX : (dat11 (VW W) hO c).arrAt 2 (cfgM11 (VW W) hO).N = X) :
    iprop((dat11 (VW W) hO c).arrays ((dat11 (VW W) hO c).arrAt · (cfgM11 (VW W) hO).N)
        ∗ (dat11 (VW W) hO c).owesAt () (Fin.last (cfgM11 (VW W) hO).N)
        ∗ iprop((∃ r, prngReg c r) ∗ Pipeline.prefHeld pre11 c (fun _ => fullShare) (tbl11 (VW W)))
        ∗ (Pipeline.unscopedRestP pre11 spec11 c (VW W c) : sProp 𝕄))
      ⊢ |={Set.univ}=> iprop(StableHlo.held (c : Thread nD τ) (Pipeline.ucRefs τ sig) (Function.update (W c) main_v64 X) ∗ Rr (F := F) c) := by
  rw [← Pipeline.unscopedBufs_held (Ix := Unit) (Name := ℕ) (U := UR sig nD τ) (Lvl := ℕ) c (Function.update (W c) main_v64 X)]
  rw [Pipeline.unscopedBufs_split₀ (fun _ : Unit => cfgM11 (VW W) hO) () winFacts₀11.arr_unscoped c _]
  rw [show ∀ V', (Pipeline.arrBufs (cfgM11 (VW W) hO).spec c V' : sProp 𝕄) = Pipeline.arrBufs spec11 c V' from fun _ => rfl,
    show ∀ V', (Pipeline.unscopedRest (cfgM11 (VW W) hO).spec c V' : sProp 𝕄) = Pipeline.unscopedRest spec11 c V' from fun _ => rfl,
    rest11_update W c X, Pipeline.unscopedRest_split preFacts11 c (VW W c), arrBufs11_eq]
  rw [show (fun k => VW W c (pre11.ref k)) = tbl11 (VW W) from funext fun k => V_pre11 (VW W) c k]
  rw [Function.update_of_ne (StableHlo.devRef_ne_of_ne (by decide : (main_v1 : Ref sig .tc) ≠ main_v64)), Function.update_self]
  rw [arrays11_eq, hX,
    show (dat11 (VW W) hO c).arrAt 0 (cfgM11 (VW W) hO).N = W c main_v1 from (dat11 (VW W) hO c).arrAt_in 0 rfl _,
    show (dat11 (VW W) hO c).arrAt 1 (cfgM11 (VW W) hO).N = W c main_v1 from (dat11 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.Kernel.GenP

end
-- ==== Proof.Kernel.RB12.lean ====
/- A row-gather region of the program: the region's proof data, its body obligation and its entry and exit. -/
import proofs.«175043_j76819785056407_2_alg».proof.Proof.Gen.Kernel.Launch
import proofs.«175043_j76819785056407_2_alg».proof.Proof.Gen.Kernel.Skeleton
import proofs.«175043_j76819785056407_2_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 12): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl12 : pre12.Contents (Elt F) := fun j => V (0 : Dev nD) (pre12.ref j)
theorem V_pre12 (c : Dev nD) (j : Fin 2) : V c (pre12.ref j) = tbl12 V j := by
  obtain rfl : c = 0 := Subsingleton.elim _ _; rfl
/-- Every table-indexed block lies inside the gathered array. -/
abbrev Ok12 : Prop := ok12 (F := F) (tbl12 V)
abbrev adm12 (hO : Ok12 V) : (pcfg12 (F := F)).Adm := ⟨tbl12 V, hO⟩
abbrev cfgM12 (hO : Ok12 V) : Pipeline.Cfg sig Λ₀ := cfg12 (adm12 V hO)

/-- Window `w`'s block at point `t`, read off its array as the region finds it. -/
def iblk12 (hO : Ok12 V) (c : Dev nD) (w : Fin (cfgM12 V hO).W) (t : Fin (cfgM12 V hO).N) :
    (((cfgM12 V hO).win w).xblock ((cfgM12 V hO).grid.coords t)).Idx → Elt F ((cfgM12 V hO).win w).elt :=
  (((cfgM12 V hO).win w).blk t).view.read (Elt F) (V c (Pipeline.arrRef spec12 w))

theorem before12_0_of (hO : Ok12 V) {c : Dev nD} (dat : Dat τ (Elt F) Unit ℕ (UR sig nD τ) ℕ (cfgM12 V hO) c) (hA : dat.A 0 = V c (Pipeline.arrRef spec12 0))
    (hafter : ∀ t, dat.after 0 t = iblk12 V hO c 0 t) (t : Fin (cfgM12 V hO).N) (d) : dat.before 0 t d = iblk12 V hO c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of (hO : Ok12 V) {c : Dev nD} (dat : Dat τ (Elt F) Unit ℕ (UR sig nD τ) ℕ (cfgM12 V hO) c) (hA : dat.A 1 = V c (Pipeline.arrRef spec12 1))
    (hafter : ∀ t, dat.after 1 t = iblk12 V hO c 1 t) (t : Fin (cfgM12 V hO).N) (d) : dat.before 1 t d = iblk12 V hO c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
end

/-- The body's one rectangle: the whole 1×1×128 block. -/
abbrev r12_0 : Rect S1x1x128 := Rect.unit (s := S1x1x128) ![0, 0, 0] S1x1x128.size inb_S1x1x128_S1x1x128_0_0_0

/-- The output block after the body: the sum of the two gathered rows. -/
def out12_2 (x0 x1 : Vec F S1x1x128 .f32) : Vec F S1x1x128 .f32 :=
  View.canon [⟨r12_0, k12_pay1 (View.ld x0 r12_0) (View.ld x1 r12_0)⟩]

theorem cover12_2 (p0 : Vec F S1x1x128 .f32) (y : S1x1x128.Idx) :
    ∃ pc ∈ ([⟨r12_0, p0⟩] : List (View.Piece (Elt F) S1x1x128 .f32)), y ∈ pc.1.set :=
  View.cover_of_tiled [⟨r12_0, p0⟩] S1x1x128.size (by rfl) y

set_option maxHeartbeats 1000000 in
/-- The body on whole staging memrefs: the two inputs stay, the output ends at the sum; the tables are not touched. -/
theorem sound_kernel12 (c : Dev nD) (E : Set ℕ) (i : grid12.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out12_2 x0 x1)) -∗ K ⟨⟩))
      ⊢ wp frame (wpE (defs₀ (F := F)) Variants.none c none) E (cc12__kernel_b i a1 ha1 a2 ha2 arg3 harg3 arg4 harg4 arg5 harg5) K := by
  simp only [cc12__kernel_b_eq_skeleton]; unfold cc12__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

section
variable (V : (c : Dev nD) → (b : Ref sig .tc) → Buf (Elt F) ((c : Thread nD τ).loc b))

/-- Each window's current staging memref at point `t`, and its wholeness. -/
abbrev ms12_0 (hO : Ok12 V) (t : Fin (cfgM12 V hO).N) : Memref sig .tc .vmem S1x1x128 .f32 := spec12_0.stage ((cfgM12 V hO).slots t 0)
abbrev hs12_0 (hO : Ok12 V) (t : Fin (cfgM12 V hO).N) : (ms12_0 V hO t).IsWhole := hstage12_0 (((cfgM12 V hO).slots t 0).cast nbuf12_0)
abbrev ms12_1 (hO : Ok12 V) (t : Fin (cfgM12 V hO).N) : Memref sig .tc .vmem S1x1x128 .f32 := spec12_1.stage ((cfgM12 V hO).slots t 1)
abbrev hs12_1 (hO : Ok12 V) (t : Fin (cfgM12 V hO).N) : (ms12_1 V hO t).IsWhole := hstage12_1 (((cfgM12 V hO).slots t 1).cast nbuf12_1)
abbrev ms12_2 (hO : Ok12 V) (t : Fin (cfgM12 V hO).N) : Memref sig .tc .vmem S1x1x128 .f32 := spec12_2.stage ((cfgM12 V hO).slots t 2)
abbrev hs12_2 (hO : Ok12 V) (t : Fin (cfgM12 V hO).N) : (ms12_2 V hO t).IsWhole := hstage12_2 (((cfgM12 V hO).slots t 2).cast nbuf12_2)

/-- The kernel body as the pipeline calls it at point `t`: the point, the two tables whole, the three current staging memrefs. -/
abbrev bodyAt12 (a : (pcfg12 (F := F)).Adm) (t : Fin (cfg12 a).N) : Prog (TpuEff nD τ sig (Elt F) Λ₀ .tc) PUnit :=
  cc12__kernel_b (grid12.coords t) (Memref.whole main_v66) (Memref.isWhole_whole _) (Memref.whole main_v67) (Memref.isWhole_whole _)
    (spec12_0.stage ((cfg12 a).slots t 0)) (hstage12_0 (((cfg12 a).slots t 0).cast nbuf12_0))
    (spec12_1.stage ((cfg12 a).slots t 1)) (hstage12_1 (((cfg12 a).slots t 1).cast nbuf12_1))
    (spec12_2.stage ((cfg12 a).slots t 2)) (hstage12_2 (((cfg12 a).slots t 2).cast nbuf12_2))

/-- The region's proof data on core `c`: the arrays as the region finds them; after the body each input's buffer at its
    block and the output's at the sum of the two input blocks; the invariant carries the scoped rest, the generator register
    and the two tables, whole; the gathered array, read by both input windows, is held half and half; nothing owed. -/
def dat12 (hO : Ok12 V) (c : Dev nD) : Dat τ (Elt F) Unit ℕ (UR sig nD τ) ℕ (cfgM12 V hO) c where
  A w := V c (Pipeline.arrRef spec12 w)
  after w t := match w with
    | ⟨0, _⟩ => iblk12 V hO c 0 t
    | ⟨1, _⟩ => iblk12 V hO c 1 t
    | ⟨2, _⟩ => out12_2 (iblk12 V hO c 0 t) (iblk12 V hO c 1 t)
  Φ _ := iprop(Pipeline.ΦA spec12 c ∗ (Pipeline.prefHeld pre12 c (fun _ => fullShare) (tbl12 V) : sProp 𝕄))
  q w := match w with
    | ⟨0, _⟩ => fullShare.left
    | ⟨1, _⟩ => fullShare.right
    | ⟨2, _⟩ => fullShare
  owed _ := 0

theorem A_eq12 (hO : Ok12 V) (c : Dev nD) (w : Fin (cfgM12 V hO).W) : (dat12 V hO c).A w = V c (Pipeline.arrRef spec12 w) := by
  dsimp only [dat12]

theorem after12_0 (hO : Ok12 V) (c : Dev nD) (t : Fin (cfgM12 V hO).N) : (dat12 V hO c).after 0 t = iblk12 V hO c 0 t := by dsimp only [dat12]; try rfl
theorem after12_1 (hO : Ok12 V) (c : Dev nD) (t : Fin (cfgM12 V hO).N) : (dat12 V hO c).after 1 t = iblk12 V hO c 1 t := by dsimp only [dat12]; try rfl
theorem after12_2 (hO : Ok12 V) (c : Dev nD) (t : Fin (cfgM12 V hO).N) : (dat12 V hO c).after 2 t = out12_2 (iblk12 V hO c 0 t) (iblk12 V hO c 1 t) := by dsimp only [dat12]; try rfl

theorem before12_0 (hO : Ok12 V) (c : Dev nD) (t : Fin (cfgM12 V hO).N) (d) : (dat12 V hO c).before 0 t d = iblk12 V hO c 0 t :=
  before12_0_of V hO (dat12 V hO c) (A_eq12 V hO c 0) (after12_0 V hO c) t d
theorem before12_1 (hO : Ok12 V) (c : Dev nD) (t : Fin (cfgM12 V hO).N) (d) : (dat12 V hO c).before 1 t d = iblk12 V hO c 1 t :=
  before12_1_of V hO (dat12 V hO c) (A_eq12 V hO c 1) (after12_1 V hO c) t d

def bodyPre12 (hO : Ok12 V) (c : Dev nD) (t : Fin (cfgM12 V hO).N) : sProp 𝕄 :=
  iprop((dat12 V hO c).Φ t.castSucc ∗ (dat12 V hO c).owesAt () t.castSucc
    ∗ (∃ d, owns (c : Thread nD τ) (ms12_0 V hO t) fullShare ((dat12 V hO c).before 0 t d))
    ∗ (∃ d, owns (c : Thread nD τ) (ms12_1 V hO t) fullShare ((dat12 V hO c).before 1 t d))
    ∗ (∃ d, owns (c : Thread nD τ) (ms12_2 V hO t) fullShare ((dat12 V hO c).before 2 t d)))

def bodyPost12 (hO : Ok12 V) (c : Dev nD) (t : Fin (cfgM12 V hO).N) : sProp 𝕄 :=
  iprop((dat12 V hO c).Φ t.succ ∗ (dat12 V hO c).owesAt () t.succ
    ∗ owns (c : Thread nD τ) (ms12_0 V hO t) fullShare ((dat12 V hO c).after 0 t)
    ∗ owns (c : Thread nD τ) (ms12_1 V hO t) fullShare ((dat12 V hO c).after 1 t)
    ∗ owns (c : Thread nD τ) (ms12_2 V hO t) fullShare ((dat12 V hO c).after 2 t))

/-- The body at any point: the two input buffers hold their blocks, the body adds them into the output buffer; the
    invariant and the tallies pass through untouched. -/
theorem sound_body12 (hO : Ok12 V) (c : Dev nD) (t : Fin (cfgM12 V hO).N) :
    bodyPre12 V hO c t ⊢ wp frame (wpE (defs₀ (F := F)) Variants.none c none) Set.univ (bodyAt12 (adm12 V hO) t) (fun _ => bodyPost12 V hO c t) := by
  unfold bodyPre12 bodyPost12 bodyAt12
  simp only [before12_0, before12_1]
  rw [show (dat12 V hO c).Φ t.succ = (dat12 V hO c).Φ t.castSucc from rfl,
    show (dat12 V hO c).owesAt () t.succ = (dat12 V hO c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ _ _ _ _ (iblk12 V hO c 0 t) (iblk12 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation12 (hO : Ok12 V) (c : Dev nD) : BodyObligation (dat12 (F := F) V hO c) (defs₀ (F := F)) Variants.none () Set.univ := fun t => by
  rw [bigSep_W12, bigSep_W12]
  exact sound_body12 V hO c t
end

section
variable (V : (c : Dev nD) → (b : Ref sig .tc) → Buf (Elt F) ((c : Thread nD τ).loc b))

/-- The region's three arrays as points-to facts: the gathered array, read by both input windows, half and half; the output array whole. -/
theorem arrays12_eq (hO : Ok12 V) (c : Dev nD)
    (G : (w : Fin (cfgM12 V hO).W) → Buf (Elt F) (((cfgM12 V hO).win w).arr.view.loc (c : Thread nD τ))) :
    ((dat12 V hO c).arrays G : sProp 𝕄)
      = iprop((((c : Thread nD τ).loc main_v1) ↦{fullShare.left} G 0) ∗ (((c : Thread nD τ).loc main_v1) ↦{fullShare.right} G 1)
          ∗ (((c : Thread nD τ).loc main_v68) ↦{fullShare} G 2)) := by
  unfold Dat.arrays
  rw [bigSep_W12, (arr_whole12 0).set_eq_univ, (arr_whole12 2).set_eq_univ]
  rfl
end

/-- The two distinct buffers behind the region's three windows. -/
theorem arrImage12 : Finset.univ.image (Pipeline.arrRef spec12) = insert main_v1 {main_v68} := by decide

section
variable (W : Dev nD → Valuation τ sig (Elt F))

theorem arrBufs12_eq (c : Dev nD) (V : (b : Ref sig .tc) → Buf (Elt F) ((c : Thread nD τ).loc b)) :
    (Pipeline.arrBufs spec12 c V : sProp 𝕄)
      = iprop((((c : Thread nD τ).loc main_v1) ↦{fullShare} V main_v1) ∗ (((c : Thread nD τ).loc main_v68) ↦{fullShare} V main_v68)) := by
  unfold Pipeline.arrBufs
  rw [arrImage12, bigSep_insert (by decide), bigSep_singleton]
  rfl

/-- ENTRY: every unscoped buffer held at `W` gives the region its arrays (the gathered array split in two halves), its two
    tables whole, the tallies, the generator register and the rest of the unscoped buffers. -/
theorem entry12 (hO : Ok12 (VW W)) (c : Dev nD) :
    iprop(StableHlo.held (c : Thread nD τ) (Pipeline.ucRefs τ sig) (W c) ∗ Rr (F := F) c)
      ⊢ |={Set.univ}=> iprop((dat12 (VW W) hO c).arrays ((dat12 (VW W) hO c).arrAt · 0)
          ∗ Pipeline.prefHeld pre12 c (fun _ => fullShare) (tbl12 (VW W))
          ∗ (dat12 (VW W) hO c).owesAt () 0 ∗ (∃ r, prngReg c r)
          ∗ (Pipeline.unscopedRestP pre12 spec12 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM12 (VW W) hO) () winFacts₀12.arr_unscoped c (VW W c)]
  rw [show (Pipeline.arrBufs (cfgM12 (VW W) hO).spec c (VW W c) : sProp 𝕄) = Pipeline.arrBufs spec12 c (VW W c) from rfl,
    arrBufs12_eq, arrays12_eq]
  rw [show (Pipeline.unscopedRest (cfgM12 (VW W) hO).spec c (VW W c) : sProp 𝕄) = Pipeline.unscopedRest spec12 c (VW W c) from rfl,
    Pipeline.unscopedRest_split preFacts12 c (VW W c)]
  rw [show (fun k => VW W c (pre12.ref k)) = tbl12 (VW W) from funext fun k => V_pre12 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest12_update (c : Dev nD) (X : Buf (Elt F) ((c : Thread nD τ).loc main_v68)) :
    (Pipeline.unscopedRest spec12 c (fun b => Function.update (W c) main_v68 X b) : sProp 𝕄) = Pipeline.unscopedRest spec12 c (VW W c) := by
  unfold Pipeline.unscopedRest
  exact bigSep_congr fun b hb => by
    have hne : b ≠ main_v68 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit12 (hO : Ok12 (VW W)) (c : Dev nD) (X : Buf (Elt F) ((c : Thread nD τ).loc main_v68))
    (hX : (dat12 (VW W) hO c).arrAt 2 (cfgM12 (VW W) hO).N = X) :
    iprop((dat12 (VW W) hO c).arrays ((dat12 (VW W) hO c).arrAt · (cfgM12 (VW W) hO).N)
        ∗ (dat12 (VW W) hO c).owesAt () (Fin.last (cfgM12 (VW W) hO).N)
        ∗ iprop((∃ r, prngReg c r) ∗ Pipeline.prefHeld pre12 c (fun _ => fullShare) (tbl12 (VW W)))
        ∗ (Pipeline.unscopedRestP pre12 spec12 c (VW W c) : sProp 𝕄))
      ⊢ |={Set.univ}=> iprop(StableHlo.held (c : Thread nD τ) (Pipeline.ucRefs τ sig) (Function.update (W c) main_v68 X) ∗ Rr (F := F) c) := by
  rw [← Pipeline.unscopedBufs_held (Ix := Unit) (Name := ℕ) (U := UR sig nD τ) (Lvl := ℕ) c (Function.update (W c) main_v68 X)]
  rw [Pipeline.unscopedBufs_split₀ (fun _ : Unit => cfgM12 (VW W) hO) () winFacts₀12.arr_unscoped c _]
  rw [show ∀ V', (Pipeline.arrBufs (cfgM12 (VW W) hO).spec c V' : sProp 𝕄) = Pipeline.arrBufs spec12 c V' from fun _ => rfl,
    show ∀ V', (Pipeline.unscopedRest (cfgM12 (VW W) hO).spec c V' : sProp 𝕄) = Pipeline.unscopedRest spec12 c V' from fun _ => rfl,
    rest12_update W c X, Pipeline.unscopedRest_split preFacts12 c (VW W c), arrBufs12_eq]
  rw [show (fun k => VW W c (pre12.ref k)) = tbl12 (VW W) from funext fun k => V_pre12 (VW W) c k]
  rw [Function.update_of_ne (StableHlo.devRef_ne_of_ne (by decide : (main_v1 : Ref sig .tc) ≠ main_v68)), Function.update_self]
  rw [arrays12_eq, hX,
    show (dat12 (VW W) hO c).arrAt 0 (cfgM12 (VW W) hO).N = W c main_v1 from (dat12 (VW W) hO c).arrAt_in 0 rfl _,
    show (dat12 (VW W) hO c).arrAt 1 (cfgM12 (VW W) hO).N = W c main_v1 from (dat12 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.Kernel.GenP

end
-- ==== Proof.Kernel.RB13.lean ====
/- A row-gather region of the program: the region's proof data, its body obligation and its entry and exit. -/
import proofs.«175043_j76819785056407_2_alg».proof.Proof.Gen.Kernel.Launch
import proofs.«175043_j76819785056407_2_alg».proof.Proof.Gen.Kernel.Skeleton
import proofs.«175043_j76819785056407_2_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 13): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl13 : pre13.Contents (Elt F) := fun j => V (0 : Dev nD) (pre13.ref j)
theorem V_pre13 (c : Dev nD) (j : Fin 2) : V c (pre13.ref j) = tbl13 V j := by
  obtain rfl : c = 0 := Subsingleton.elim _ _; rfl
/-- Every table-indexed block lies inside the gathered array. -/
abbrev Ok13 : Prop := ok13 (F := F) (tbl13 V)
abbrev adm13 (hO : Ok13 V) : (pcfg13 (F := F)).Adm := ⟨tbl13 V, hO⟩
abbrev cfgM13 (hO : Ok13 V) : Pipeline.Cfg sig Λ₀ := cfg13 (adm13 V hO)

/-- Window `w`'s block at point `t`, read off its array as the region finds it. -/
def iblk13 (hO : Ok13 V) (c : Dev nD) (w : Fin (cfgM13 V hO).W) (t : Fin (cfgM13 V hO).N) :
    (((cfgM13 V hO).win w).xblock ((cfgM13 V hO).grid.coords t)).Idx → Elt F ((cfgM13 V hO).win w).elt :=
  (((cfgM13 V hO).win w).blk t).view.read (Elt F) (V c (Pipeline.arrRef spec13 w))

theorem before13_0_of (hO : Ok13 V) {c : Dev nD} (dat : Dat τ (Elt F) Unit ℕ (UR sig nD τ) ℕ (cfgM13 V hO) c) (hA : dat.A 0 = V c (Pipeline.arrRef spec13 0))
    (hafter : ∀ t, dat.after 0 t = iblk13 V hO c 0 t) (t : Fin (cfgM13 V hO).N) (d) : dat.before 0 t d = iblk13 V hO c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of (hO : Ok13 V) {c : Dev nD} (dat : Dat τ (Elt F) Unit ℕ (UR sig nD τ) ℕ (cfgM13 V hO) c) (hA : dat.A 1 = V c (Pipeline.arrRef spec13 1))
    (hafter : ∀ t, dat.after 1 t = iblk13 V hO c 1 t) (t : Fin (cfgM13 V hO).N) (d) : dat.before 1 t d = iblk13 V hO c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
end

/-- The body's one rectangle: the whole 1×1×128 block. -/
abbrev r13_0 : Rect S1x1x128 := Rect.unit (s := S1x1x128) ![0, 0, 0] S1x1x128.size inb_S1x1x128_S1x1x128_0_0_0

/-- The output block after the body: the sum of the two gathered rows. -/
def out13_2 (x0 x1 : Vec F S1x1x128 .f32) : Vec F S1x1x128 .f32 :=
  View.canon [⟨r13_0, k13_pay1 (View.ld x0 r13_0) (View.ld x1 r13_0)⟩]

theorem cover13_2 (p0 : Vec F S1x1x128 .f32) (y : S1x1x128.Idx) :
    ∃ pc ∈ ([⟨r13_0, p0⟩] : List (View.Piece (Elt F) S1x1x128 .f32)), y ∈ pc.1.set :=
  View.cover_of_tiled [⟨r13_0, p0⟩] S1x1x128.size (by rfl) y

set_option maxHeartbeats 1000000 in
/-- The body on whole staging memrefs: the two inputs stay, the output ends at the sum; the tables are not touched. -/
theorem sound_kernel13 (c : Dev nD) (E : Set ℕ) (i : grid13.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out13_2 x0 x1)) -∗ K ⟨⟩))
      ⊢ wp frame (wpE (defs₀ (F := F)) Variants.none c none) E (cc13__kernel_b i a1 ha1 a2 ha2 arg3 harg3 arg4 harg4 arg5 harg5) K := by
  simp only [cc13__kernel_b_eq_skeleton]; unfold cc13__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

section
variable (V : (c : Dev nD) → (b : Ref sig .tc) → Buf (Elt F) ((c : Thread nD τ).loc b))

/-- Each window's current staging memref at point `t`, and its wholeness. -/
abbrev ms13_0 (hO : Ok13 V) (t : Fin (cfgM13 V hO).N) : Memref sig .tc .vmem S1x1x128 .f32 := spec13_0.stage ((cfgM13 V hO).slots t 0)
abbrev hs13_0 (hO : Ok13 V) (t : Fin (cfgM13 V hO).N) : (ms13_0 V hO t).IsWhole := hstage13_0 (((cfgM13 V hO).slots t 0).cast nbuf13_0)
abbrev ms13_1 (hO : Ok13 V) (t : Fin (cfgM13 V hO).N) : Memref sig .tc .vmem S1x1x128 .f32 := spec13_1.stage ((cfgM13 V hO).slots t 1)
abbrev hs13_1 (hO : Ok13 V) (t : Fin (cfgM13 V hO).N) : (ms13_1 V hO t).IsWhole := hstage13_1 (((cfgM13 V hO).slots t 1).cast nbuf13_1)
abbrev ms13_2 (hO : Ok13 V) (t : Fin (cfgM13 V hO).N) : Memref sig .tc .vmem S1x1x128 .f32 := spec13_2.stage ((cfgM13 V hO).slots t 2)
abbrev hs13_2 (hO : Ok13 V) (t : Fin (cfgM13 V hO).N) : (ms13_2 V hO t).IsWhole := hstage13_2 (((cfgM13 V hO).slots t 2).cast nbuf13_2)

/-- The kernel body as the pipeline calls it at point `t`: the point, the two tables whole, the three current staging memrefs. -/
abbrev bodyAt13 (a : (pcfg13 (F := F)).Adm) (t : Fin (cfg13 a).N) : Prog (TpuEff nD τ sig (Elt F) Λ₀ .tc) PUnit :=
  cc13__kernel_b (grid13.coords t) (Memref.whole main_v70) (Memref.isWhole_whole _) (Memref.whole main_v71) (Memref.isWhole_whole _)
    (spec13_0.stage ((cfg13 a).slots t 0)) (hstage13_0 (((cfg13 a).slots t 0).cast nbuf13_0))
    (spec13_1.stage ((cfg13 a).slots t 1)) (hstage13_1 (((cfg13 a).slots t 1).cast nbuf13_1))
    (spec13_2.stage ((cfg13 a).slots t 2)) (hstage13_2 (((cfg13 a).slots t 2).cast nbuf13_2))

/-- The region's proof data on core `c`: the arrays as the region finds them; after the body each input's buffer at its
    block and the output's at the sum of the two input blocks; the invariant carries the scoped rest, the generator register
    and the two tables, whole; the gathered array, read by both input windows, is held half and half; nothing owed. -/
def dat13 (hO : Ok13 V) (c : Dev nD) : Dat τ (Elt F) Unit ℕ (UR sig nD τ) ℕ (cfgM13 V hO) c where
  A w := V c (Pipeline.arrRef spec13 w)
  after w t := match w with
    | ⟨0, _⟩ => iblk13 V hO c 0 t
    | ⟨1, _⟩ => iblk13 V hO c 1 t
    | ⟨2, _⟩ => out13_2 (iblk13 V hO c 0 t) (iblk13 V hO c 1 t)
  Φ _ := iprop(Pipeline.ΦA spec13 c ∗ (Pipeline.prefHeld pre13 c (fun _ => fullShare) (tbl13 V) : sProp 𝕄))
  q w := match w with
    | ⟨0, _⟩ => fullShare.left
    | ⟨1, _⟩ => fullShare.right
    | ⟨2, _⟩ => fullShare
  owed _ := 0

theorem A_eq13 (hO : Ok13 V) (c : Dev nD) (w : Fin (cfgM13 V hO).W) : (dat13 V hO c).A w = V c (Pipeline.arrRef spec13 w) := by
  dsimp only [dat13]

theorem after13_0 (hO : Ok13 V) (c : Dev nD) (t : Fin (cfgM13 V hO).N) : (dat13 V hO c).after 0 t = iblk13 V hO c 0 t := by dsimp only [dat13]; try rfl
theorem after13_1 (hO : Ok13 V) (c : Dev nD) (t : Fin (cfgM13 V hO).N) : (dat13 V hO c).after 1 t = iblk13 V hO c 1 t := by dsimp only [dat13]; try rfl
theorem after13_2 (hO : Ok13 V) (c : Dev nD) (t : Fin (cfgM13 V hO).N) : (dat13 V hO c).after 2 t = out13_2 (iblk13 V hO c 0 t) (iblk13 V hO c 1 t) := by dsimp only [dat13]; try rfl

theorem before13_0 (hO : Ok13 V) (c : Dev nD) (t : Fin (cfgM13 V hO).N) (d) : (dat13 V hO c).before 0 t d = iblk13 V hO c 0 t :=
  before13_0_of V hO (dat13 V hO c) (A_eq13 V hO c 0) (after13_0 V hO c) t d
theorem before13_1 (hO : Ok13 V) (c : Dev nD) (t : Fin (cfgM13 V hO).N) (d) : (dat13 V hO c).before 1 t d = iblk13 V hO c 1 t :=
  before13_1_of V hO (dat13 V hO c) (A_eq13 V hO c 1) (after13_1 V hO c) t d

def bodyPre13 (hO : Ok13 V) (c : Dev nD) (t : Fin (cfgM13 V hO).N) : sProp 𝕄 :=
  iprop((dat13 V hO c).Φ t.castSucc ∗ (dat13 V hO c).owesAt () t.castSucc
    ∗ (∃ d, owns (c : Thread nD τ) (ms13_0 V hO t) fullShare ((dat13 V hO c).before 0 t d))
    ∗ (∃ d, owns (c : Thread nD τ) (ms13_1 V hO t) fullShare ((dat13 V hO c).before 1 t d))
    ∗ (∃ d, owns (c : Thread nD τ) (ms13_2 V hO t) fullShare ((dat13 V hO c).before 2 t d)))

def bodyPost13 (hO : Ok13 V) (c : Dev nD) (t : Fin (cfgM13 V hO).N) : sProp 𝕄 :=
  iprop((dat13 V hO c).Φ t.succ ∗ (dat13 V hO c).owesAt () t.succ
    ∗ owns (c : Thread nD τ) (ms13_0 V hO t) fullShare ((dat13 V hO c).after 0 t)
    ∗ owns (c : Thread nD τ) (ms13_1 V hO t) fullShare ((dat13 V hO c).after 1 t)
    ∗ owns (c : Thread nD τ) (ms13_2 V hO t) fullShare ((dat13 V hO c).after 2 t))

/-- The body at any point: the two input buffers hold their blocks, the body adds them into the output buffer; the
    invariant and the tallies pass through untouched. -/
theorem sound_body13 (hO : Ok13 V) (c : Dev nD) (t : Fin (cfgM13 V hO).N) :
    bodyPre13 V hO c t ⊢ wp frame (wpE (defs₀ (F := F)) Variants.none c none) Set.univ (bodyAt13 (adm13 V hO) t) (fun _ => bodyPost13 V hO c t) := by
  unfold bodyPre13 bodyPost13 bodyAt13
  simp only [before13_0, before13_1]
  rw [show (dat13 V hO c).Φ t.succ = (dat13 V hO c).Φ t.castSucc from rfl,
    show (dat13 V hO c).owesAt () t.succ = (dat13 V hO c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ _ _ _ _ (iblk13 V hO c 0 t) (iblk13 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation13 (hO : Ok13 V) (c : Dev nD) : BodyObligation (dat13 (F := F) V hO c) (defs₀ (F := F)) Variants.none () Set.univ := fun t => by
  rw [bigSep_W13, bigSep_W13]
  exact sound_body13 V hO c t
end

section
variable (V : (c : Dev nD) → (b : Ref sig .tc) → Buf (Elt F) ((c : Thread nD τ).loc b))

/-- The region's three arrays as points-to facts: the gathered array, read by both input windows, half and half; the output array whole. -/
theorem arrays13_eq (hO : Ok13 V) (c : Dev nD)
    (G : (w : Fin (cfgM13 V hO).W) → Buf (Elt F) (((cfgM13 V hO).win w).arr.view.loc (c : Thread nD τ))) :
    ((dat13 V hO c).arrays G : sProp 𝕄)
      = iprop((((c : Thread nD τ).loc main_v1) ↦{fullShare.left} G 0) ∗ (((c : Thread nD τ).loc main_v1) ↦{fullShare.right} G 1)
          ∗ (((c : Thread nD τ).loc main_v72) ↦{fullShare} G 2)) := by
  unfold Dat.arrays
  rw [bigSep_W13, (arr_whole13 0).set_eq_univ, (arr_whole13 2).set_eq_univ]
  rfl
end

/-- The two distinct buffers behind the region's three windows. -/
theorem arrImage13 : Finset.univ.image (Pipeline.arrRef spec13) = insert main_v1 {main_v72} := by decide

section
variable (W : Dev nD → Valuation τ sig (Elt F))

theorem arrBufs13_eq (c : Dev nD) (V : (b : Ref sig .tc) → Buf (Elt F) ((c : Thread nD τ).loc b)) :
    (Pipeline.arrBufs spec13 c V : sProp 𝕄)
      = iprop((((c : Thread nD τ).loc main_v1) ↦{fullShare} V main_v1) ∗ (((c : Thread nD τ).loc main_v72) ↦{fullShare} V main_v72)) := by
  unfold Pipeline.arrBufs
  rw [arrImage13, bigSep_insert (by decide), bigSep_singleton]
  rfl

/-- ENTRY: every unscoped buffer held at `W` gives the region its arrays (the gathered array split in two halves), its two
    tables whole, the tallies, the generator register and the rest of the unscoped buffers. -/
theorem entry13 (hO : Ok13 (VW W)) (c : Dev nD) :
    iprop(StableHlo.held (c : Thread nD τ) (Pipeline.ucRefs τ sig) (W c) ∗ Rr (F := F) c)
      ⊢ |={Set.univ}=> iprop((dat13 (VW W) hO c).arrays ((dat13 (VW W) hO c).arrAt · 0)
          ∗ Pipeline.prefHeld pre13 c (fun _ => fullShare) (tbl13 (VW W))
          ∗ (dat13 (VW W) hO c).owesAt () 0 ∗ (∃ r, prngReg c r)
          ∗ (Pipeline.unscopedRestP pre13 spec13 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM13 (VW W) hO) () winFacts₀13.arr_unscoped c (VW W c)]
  rw [show (Pipeline.arrBufs (cfgM13 (VW W) hO).spec c (VW W c) : sProp 𝕄) = Pipeline.arrBufs spec13 c (VW W c) from rfl,
    arrBufs13_eq, arrays13_eq]
  rw [show (Pipeline.unscopedRest (cfgM13 (VW W) hO).spec c (VW W c) : sProp 𝕄) = Pipeline.unscopedRest spec13 c (VW W c) from rfl,
    Pipeline.unscopedRest_split preFacts13 c (VW W c)]
  rw [show (fun k => VW W c (pre13.ref k)) = tbl13 (VW W) from funext fun k => V_pre13 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest13_update (c : Dev nD) (X : Buf (Elt F) ((c : Thread nD τ).loc main_v72)) :
    (Pipeline.unscopedRest spec13 c (fun b => Function.update (W c) main_v72 X b) : sProp 𝕄) = Pipeline.unscopedRest spec13 c (VW W c) := by
  unfold Pipeline.unscopedRest
  exact bigSep_congr fun b hb => by
    have hne : b ≠ main_v72 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit13 (hO : Ok13 (VW W)) (c : Dev nD) (X : Buf (Elt F) ((c : Thread nD τ).loc main_v72))
    (hX : (dat13 (VW W) hO c).arrAt 2 (cfgM13 (VW W) hO).N = X) :
    iprop((dat13 (VW W) hO c).arrays ((dat13 (VW W) hO c).arrAt · (cfgM13 (VW W) hO).N)
        ∗ (dat13 (VW W) hO c).owesAt () (Fin.last (cfgM13 (VW W) hO).N)
        ∗ iprop((∃ r, prngReg c r) ∗ Pipeline.prefHeld pre13 c (fun _ => fullShare) (tbl13 (VW W)))
        ∗ (Pipeline.unscopedRestP pre13 spec13 c (VW W c) : sProp 𝕄))
      ⊢ |={Set.univ}=> iprop(StableHlo.held (c : Thread nD τ) (Pipeline.ucRefs τ sig) (Function.update (W c) main_v72 X) ∗ Rr (F := F) c) := by
  rw [← Pipeline.unscopedBufs_held (Ix := Unit) (Name := ℕ) (U := UR sig nD τ) (Lvl := ℕ) c (Function.update (W c) main_v72 X)]
  rw [Pipeline.unscopedBufs_split₀ (fun _ : Unit => cfgM13 (VW W) hO) () winFacts₀13.arr_unscoped c _]
  rw [show ∀ V', (Pipeline.arrBufs (cfgM13 (VW W) hO).spec c V' : sProp 𝕄) = Pipeline.arrBufs spec13 c V' from fun _ => rfl,
    show ∀ V', (Pipeline.unscopedRest (cfgM13 (VW W) hO).spec c V' : sProp 𝕄) = Pipeline.unscopedRest spec13 c V' from fun _ => rfl,
    rest13_update W c X, Pipeline.unscopedRest_split preFacts13 c (VW W c), arrBufs13_eq]
  rw [show (fun k => VW W c (pre13.ref k)) = tbl13 (VW W) from funext fun k => V_pre13 (VW W) c k]
  rw [Function.update_of_ne (StableHlo.devRef_ne_of_ne (by decide : (main_v1 : Ref sig .tc) ≠ main_v72)), Function.update_self]
  rw [arrays13_eq, hX,
    show (dat13 (VW W) hO c).arrAt 0 (cfgM13 (VW W) hO).N = W c main_v1 from (dat13 (VW W) hO c).arrAt_in 0 rfl _,
    show (dat13 (VW W) hO c).arrAt 1 (cfgM13 (VW W) hO).N = W c main_v1 from (dat13 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.Kernel.GenP

end
-- ==== Proof.Kernel.RB14.lean ====
/- A row-gather region of the program: the region's proof data, its body obligation and its entry and exit. -/
import proofs.«175043_j76819785056407_2_alg».proof.Proof.Gen.Kernel.Launch
import proofs.«175043_j76819785056407_2_alg».proof.Proof.Gen.Kernel.Skeleton
import proofs.«175043_j76819785056407_2_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 14): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl14 : pre14.Contents (Elt F) := fun j => V (0 : Dev nD) (pre14.ref j)
theorem V_pre14 (c : Dev nD) (j : Fin 2) : V c (pre14.ref j) = tbl14 V j := by
  obtain rfl : c = 0 := Subsingleton.elim _ _; rfl
/-- Every table-indexed block lies inside the gathered array. -/
abbrev Ok14 : Prop := ok14 (F := F) (tbl14 V)
abbrev adm14 (hO : Ok14 V) : (pcfg14 (F := F)).Adm := ⟨tbl14 V, hO⟩
abbrev cfgM14 (hO : Ok14 V) : Pipeline.Cfg sig Λ₀ := cfg14 (adm14 V hO)

/-- Window `w`'s block at point `t`, read off its array as the region finds it. -/
def iblk14 (hO : Ok14 V) (c : Dev nD) (w : Fin (cfgM14 V hO).W) (t : Fin (cfgM14 V hO).N) :
    (((cfgM14 V hO).win w).xblock ((cfgM14 V hO).grid.coords t)).Idx → Elt F ((cfgM14 V hO).win w).elt :=
  (((cfgM14 V hO).win w).blk t).view.read (Elt F) (V c (Pipeline.arrRef spec14 w))

theorem before14_0_of (hO : Ok14 V) {c : Dev nD} (dat : Dat τ (Elt F) Unit ℕ (UR sig nD τ) ℕ (cfgM14 V hO) c) (hA : dat.A 0 = V c (Pipeline.arrRef spec14 0))
    (hafter : ∀ t, dat.after 0 t = iblk14 V hO c 0 t) (t : Fin (cfgM14 V hO).N) (d) : dat.before 0 t d = iblk14 V hO c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of (hO : Ok14 V) {c : Dev nD} (dat : Dat τ (Elt F) Unit ℕ (UR sig nD τ) ℕ (cfgM14 V hO) c) (hA : dat.A 1 = V c (Pipeline.arrRef spec14 1))
    (hafter : ∀ t, dat.after 1 t = iblk14 V hO c 1 t) (t : Fin (cfgM14 V hO).N) (d) : dat.before 1 t d = iblk14 V hO c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
end

/-- The body's one rectangle: the whole 1×1×128 block. -/
abbrev r14_0 : Rect S1x1x128 := Rect.unit (s := S1x1x128) ![0, 0, 0] S1x1x128.size inb_S1x1x128_S1x1x128_0_0_0

/-- The output block after the body: the sum of the two gathered rows. -/
def out14_2 (x0 x1 : Vec F S1x1x128 .f32) : Vec F S1x1x128 .f32 :=
  View.canon [⟨r14_0, k14_pay1 (View.ld x0 r14_0) (View.ld x1 r14_0)⟩]

theorem cover14_2 (p0 : Vec F S1x1x128 .f32) (y : S1x1x128.Idx) :
    ∃ pc ∈ ([⟨r14_0, p0⟩] : List (View.Piece (Elt F) S1x1x128 .f32)), y ∈ pc.1.set :=
  View.cover_of_tiled [⟨r14_0, p0⟩] S1x1x128.size (by rfl) y

set_option maxHeartbeats 1000000 in
/-- The body on whole staging memrefs: the two inputs stay, the output ends at the sum; the tables are not touched. -/
theorem sound_kernel14 (c : Dev nD) (E : Set ℕ) (i : grid14.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out14_2 x0 x1)) -∗ K ⟨⟩))
      ⊢ wp frame (wpE (defs₀ (F := F)) Variants.none c none) E (cc14__kernel_b i a1 ha1 a2 ha2 arg3 harg3 arg4 harg4 arg5 harg5) K := by
  simp only [cc14__kernel_b_eq_skeleton]; unfold cc14__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

section
variable (V : (c : Dev nD) → (b : Ref sig .tc) → Buf (Elt F) ((c : Thread nD τ).loc b))

/-- Each window's current staging memref at point `t`, and its wholeness. -/
abbrev ms14_0 (hO : Ok14 V) (t : Fin (cfgM14 V hO).N) : Memref sig .tc .vmem S1x1x128 .f32 := spec14_0.stage ((cfgM14 V hO).slots t 0)
abbrev hs14_0 (hO : Ok14 V) (t : Fin (cfgM14 V hO).N) : (ms14_0 V hO t).IsWhole := hstage14_0 (((cfgM14 V hO).slots t 0).cast nbuf14_0)
abbrev ms14_1 (hO : Ok14 V) (t : Fin (cfgM14 V hO).N) : Memref sig .tc .vmem S1x1x128 .f32 := spec14_1.stage ((cfgM14 V hO).slots t 1)
abbrev hs14_1 (hO : Ok14 V) (t : Fin (cfgM14 V hO).N) : (ms14_1 V hO t).IsWhole := hstage14_1 (((cfgM14 V hO).slots t 1).cast nbuf14_1)
abbrev ms14_2 (hO : Ok14 V) (t : Fin (cfgM14 V hO).N) : Memref sig .tc .vmem S1x1x128 .f32 := spec14_2.stage ((cfgM14 V hO).slots t 2)
abbrev hs14_2 (hO : Ok14 V) (t : Fin (cfgM14 V hO).N) : (ms14_2 V hO t).IsWhole := hstage14_2 (((cfgM14 V hO).slots t 2).cast nbuf14_2)

/-- The kernel body as the pipeline calls it at point `t`: the point, the two tables whole, the three current staging memrefs. -/
abbrev bodyAt14 (a : (pcfg14 (F := F)).Adm) (t : Fin (cfg14 a).N) : Prog (TpuEff nD τ sig (Elt F) Λ₀ .tc) PUnit :=
  cc14__kernel_b (grid14.coords t) (Memref.whole main_v74) (Memref.isWhole_whole _) (Memref.whole main_v75) (Memref.isWhole_whole _)
    (spec14_0.stage ((cfg14 a).slots t 0)) (hstage14_0 (((cfg14 a).slots t 0).cast nbuf14_0))
    (spec14_1.stage ((cfg14 a).slots t 1)) (hstage14_1 (((cfg14 a).slots t 1).cast nbuf14_1))
    (spec14_2.stage ((cfg14 a).slots t 2)) (hstage14_2 (((cfg14 a).slots t 2).cast nbuf14_2))

/-- The region's proof data on core `c`: the arrays as the region finds them; after the body each input's buffer at its
    block and the output's at the sum of the two input blocks; the invariant carries the scoped rest, the generator register
    and the two tables, whole; the gathered array, read by both input windows, is held half and half; nothing owed. -/
def dat14 (hO : Ok14 V) (c : Dev nD) : Dat τ (Elt F) Unit ℕ (UR sig nD τ) ℕ (cfgM14 V hO) c where
  A w := V c (Pipeline.arrRef spec14 w)
  after w t := match w with
    | ⟨0, _⟩ => iblk14 V hO c 0 t
    | ⟨1, _⟩ => iblk14 V hO c 1 t
    | ⟨2, _⟩ => out14_2 (iblk14 V hO c 0 t) (iblk14 V hO c 1 t)
  Φ _ := iprop(Pipeline.ΦA spec14 c ∗ (Pipeline.prefHeld pre14 c (fun _ => fullShare) (tbl14 V) : sProp 𝕄))
  q w := match w with
    | ⟨0, _⟩ => fullShare.left
    | ⟨1, _⟩ => fullShare.right
    | ⟨2, _⟩ => fullShare
  owed _ := 0

theorem A_eq14 (hO : Ok14 V) (c : Dev nD) (w : Fin (cfgM14 V hO).W) : (dat14 V hO c).A w = V c (Pipeline.arrRef spec14 w) := by
  dsimp only [dat14]

theorem after14_0 (hO : Ok14 V) (c : Dev nD) (t : Fin (cfgM14 V hO).N) : (dat14 V hO c).after 0 t = iblk14 V hO c 0 t := by dsimp only [dat14]; try rfl
theorem after14_1 (hO : Ok14 V) (c : Dev nD) (t : Fin (cfgM14 V hO).N) : (dat14 V hO c).after 1 t = iblk14 V hO c 1 t := by dsimp only [dat14]; try rfl
theorem after14_2 (hO : Ok14 V) (c : Dev nD) (t : Fin (cfgM14 V hO).N) : (dat14 V hO c).after 2 t = out14_2 (iblk14 V hO c 0 t) (iblk14 V hO c 1 t) := by dsimp only [dat14]; try rfl

theorem before14_0 (hO : Ok14 V) (c : Dev nD) (t : Fin (cfgM14 V hO).N) (d) : (dat14 V hO c).before 0 t d = iblk14 V hO c 0 t :=
  before14_0_of V hO (dat14 V hO c) (A_eq14 V hO c 0) (after14_0 V hO c) t d
theorem before14_1 (hO : Ok14 V) (c : Dev nD) (t : Fin (cfgM14 V hO).N) (d) : (dat14 V hO c).before 1 t d = iblk14 V hO c 1 t :=
  before14_1_of V hO (dat14 V hO c) (A_eq14 V hO c 1) (after14_1 V hO c) t d

def bodyPre14 (hO : Ok14 V) (c : Dev nD) (t : Fin (cfgM14 V hO).N) : sProp 𝕄 :=
  iprop((dat14 V hO c).Φ t.castSucc ∗ (dat14 V hO c).owesAt () t.castSucc
    ∗ (∃ d, owns (c : Thread nD τ) (ms14_0 V hO t) fullShare ((dat14 V hO c).before 0 t d))
    ∗ (∃ d, owns (c : Thread nD τ) (ms14_1 V hO t) fullShare ((dat14 V hO c).before 1 t d))
    ∗ (∃ d, owns (c : Thread nD τ) (ms14_2 V hO t) fullShare ((dat14 V hO c).before 2 t d)))

def bodyPost14 (hO : Ok14 V) (c : Dev nD) (t : Fin (cfgM14 V hO).N) : sProp 𝕄 :=
  iprop((dat14 V hO c).Φ t.succ ∗ (dat14 V hO c).owesAt () t.succ
    ∗ owns (c : Thread nD τ) (ms14_0 V hO t) fullShare ((dat14 V hO c).after 0 t)
    ∗ owns (c : Thread nD τ) (ms14_1 V hO t) fullShare ((dat14 V hO c).after 1 t)
    ∗ owns (c : Thread nD τ) (ms14_2 V hO t) fullShare ((dat14 V hO c).after 2 t))

/-- The body at any point: the two input buffers hold their blocks, the body adds them into the output buffer; the
    invariant and the tallies pass through untouched. -/
theorem sound_body14 (hO : Ok14 V) (c : Dev nD) (t : Fin (cfgM14 V hO).N) :
    bodyPre14 V hO c t ⊢ wp frame (wpE (defs₀ (F := F)) Variants.none c none) Set.univ (bodyAt14 (adm14 V hO) t) (fun _ => bodyPost14 V hO c t) := by
  unfold bodyPre14 bodyPost14 bodyAt14
  simp only [before14_0, before14_1]
  rw [show (dat14 V hO c).Φ t.succ = (dat14 V hO c).Φ t.castSucc from rfl,
    show (dat14 V hO c).owesAt () t.succ = (dat14 V hO c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ _ _ _ _ (iblk14 V hO c 0 t) (iblk14 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation14 (hO : Ok14 V) (c : Dev nD) : BodyObligation (dat14 (F := F) V hO c) (defs₀ (F := F)) Variants.none () Set.univ := fun t => by
  rw [bigSep_W14, bigSep_W14]
  exact sound_body14 V hO c t
end

section
variable (V : (c : Dev nD) → (b : Ref sig .tc) → Buf (Elt F) ((c : Thread nD τ).loc b))

/-- The region's three arrays as points-to facts: the gathered array, read by both input windows, half and half; the output array whole. -/
theorem arrays14_eq (hO : Ok14 V) (c : Dev nD)
    (G : (w : Fin (cfgM14 V hO).W) → Buf (Elt F) (((cfgM14 V hO).win w).arr.view.loc (c : Thread nD τ))) :
    ((dat14 V hO c).arrays G : sProp 𝕄)
      = iprop((((c : Thread nD τ).loc main_v1) ↦{fullShare.left} G 0) ∗ (((c : Thread nD τ).loc main_v1) ↦{fullShare.right} G 1)
          ∗ (((c : Thread nD τ).loc main_v76) ↦{fullShare} G 2)) := by
  unfold Dat.arrays
  rw [bigSep_W14, (arr_whole14 0).set_eq_univ, (arr_whole14 2).set_eq_univ]
  rfl
end

/-- The two distinct buffers behind the region's three windows. -/
theorem arrImage14 : Finset.univ.image (Pipeline.arrRef spec14) = insert main_v1 {main_v76} := by decide

section
variable (W : Dev nD → Valuation τ sig (Elt F))

theorem arrBufs14_eq (c : Dev nD) (V : (b : Ref sig .tc) → Buf (Elt F) ((c : Thread nD τ).loc b)) :
    (Pipeline.arrBufs spec14 c V : sProp 𝕄)
      = iprop((((c : Thread nD τ).loc main_v1) ↦{fullShare} V main_v1) ∗ (((c : Thread nD τ).loc main_v76) ↦{fullShare} V main_v76)) := by
  unfold Pipeline.arrBufs
  rw [arrImage14, bigSep_insert (by decide), bigSep_singleton]
  rfl

/-- ENTRY: every unscoped buffer held at `W` gives the region its arrays (the gathered array split in two halves), its two
    tables whole, the tallies, the generator register and the rest of the unscoped buffers. -/
theorem entry14 (hO : Ok14 (VW W)) (c : Dev nD) :
    iprop(StableHlo.held (c : Thread nD τ) (Pipeline.ucRefs τ sig) (W c) ∗ Rr (F := F) c)
      ⊢ |={Set.univ}=> iprop((dat14 (VW W) hO c).arrays ((dat14 (VW W) hO c).arrAt · 0)
          ∗ Pipeline.prefHeld pre14 c (fun _ => fullShare) (tbl14 (VW W))
          ∗ (dat14 (VW W) hO c).owesAt () 0 ∗ (∃ r, prngReg c r)
          ∗ (Pipeline.unscopedRestP pre14 spec14 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM14 (VW W) hO) () winFacts₀14.arr_unscoped c (VW W c)]
  rw [show (Pipeline.arrBufs (cfgM14 (VW W) hO).spec c (VW W c) : sProp 𝕄) = Pipeline.arrBufs spec14 c (VW W c) from rfl,
    arrBufs14_eq, arrays14_eq]
  rw [show (Pipeline.unscopedRest (cfgM14 (VW W) hO).spec c (VW W c) : sProp 𝕄) = Pipeline.unscopedRest spec14 c (VW W c) from rfl,
    Pipeline.unscopedRest_split preFacts14 c (VW W c)]
  rw [show (fun k => VW W c (pre14.ref k)) = tbl14 (VW W) from funext fun k => V_pre14 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest14_update (c : Dev nD) (X : Buf (Elt F) ((c : Thread nD τ).loc main_v76)) :
    (Pipeline.unscopedRest spec14 c (fun b => Function.update (W c) main_v76 X b) : sProp 𝕄) = Pipeline.unscopedRest spec14 c (VW W c) := by
  unfold Pipeline.unscopedRest
  exact bigSep_congr fun b hb => by
    have hne : b ≠ main_v76 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit14 (hO : Ok14 (VW W)) (c : Dev nD) (X : Buf (Elt F) ((c : Thread nD τ).loc main_v76))
    (hX : (dat14 (VW W) hO c).arrAt 2 (cfgM14 (VW W) hO).N = X) :
    iprop((dat14 (VW W) hO c).arrays ((dat14 (VW W) hO c).arrAt · (cfgM14 (VW W) hO).N)
        ∗ (dat14 (VW W) hO c).owesAt () (Fin.last (cfgM14 (VW W) hO).N)
        ∗ iprop((∃ r, prngReg c r) ∗ Pipeline.prefHeld pre14 c (fun _ => fullShare) (tbl14 (VW W)))
        ∗ (Pipeline.unscopedRestP pre14 spec14 c (VW W c) : sProp 𝕄))
      ⊢ |={Set.univ}=> iprop(StableHlo.held (c : Thread nD τ) (Pipeline.ucRefs τ sig) (Function.update (W c) main_v76 X) ∗ Rr (F := F) c) := by
  rw [← Pipeline.unscopedBufs_held (Ix := Unit) (Name := ℕ) (U := UR sig nD τ) (Lvl := ℕ) c (Function.update (W c) main_v76 X)]
  rw [Pipeline.unscopedBufs_split₀ (fun _ : Unit => cfgM14 (VW W) hO) () winFacts₀14.arr_unscoped c _]
  rw [show ∀ V', (Pipeline.arrBufs (cfgM14 (VW W) hO).spec c V' : sProp 𝕄) = Pipeline.arrBufs spec14 c V' from fun _ => rfl,
    show ∀ V', (Pipeline.unscopedRest (cfgM14 (VW W) hO).spec c V' : sProp 𝕄) = Pipeline.unscopedRest spec14 c V' from fun _ => rfl,
    rest14_update W c X, Pipeline.unscopedRest_split preFacts14 c (VW W c), arrBufs14_eq]
  rw [show (fun k => VW W c (pre14.ref k)) = tbl14 (VW W) from funext fun k => V_pre14 (VW W) c k]
  rw [Function.update_of_ne (StableHlo.devRef_ne_of_ne (by decide : (main_v1 : Ref sig .tc) ≠ main_v76)), Function.update_self]
  rw [arrays14_eq, hX,
    show (dat14 (VW W) hO c).arrAt 0 (cfgM14 (VW W) hO).N = W c main_v1 from (dat14 (VW W) hO c).arrAt_in 0 rfl _,
    show (dat14 (VW W) hO c).arrAt 1 (cfgM14 (VW W) hO).N = W c main_v1 from (dat14 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.Kernel.GenP

end
-- ==== Proof.Kernel.RB15.lean ====
/- A row-gather region of the program: the region's proof data, its body obligation and its entry and exit. -/
import proofs.«175043_j76819785056407_2_alg».proof.Proof.Gen.Kernel.Launch
import proofs.«175043_j76819785056407_2_alg».proof.Proof.Gen.Kernel.Skeleton
import proofs.«175043_j76819785056407_2_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 15): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl15 : pre15.Contents (Elt F) := fun j => V (0 : Dev nD) (pre15.ref j)
theorem V_pre15 (c : Dev nD) (j : Fin 2) : V c (pre15.ref j) = tbl15 V j := by
  obtain rfl : c = 0 := Subsingleton.elim _ _; rfl
/-- Every table-indexed block lies inside the gathered array. -/
abbrev Ok15 : Prop := ok15 (F := F) (tbl15 V)
abbrev adm15 (hO : Ok15 V) : (pcfg15 (F := F)).Adm := ⟨tbl15 V, hO⟩
abbrev cfgM15 (hO : Ok15 V) : Pipeline.Cfg sig Λ₀ := cfg15 (adm15 V hO)

/-- Window `w`'s block at point `t`, read off its array as the region finds it. -/
def iblk15 (hO : Ok15 V) (c : Dev nD) (w : Fin (cfgM15 V hO).W) (t : Fin (cfgM15 V hO).N) :
    (((cfgM15 V hO).win w).xblock ((cfgM15 V hO).grid.coords t)).Idx → Elt F ((cfgM15 V hO).win w).elt :=
  (((cfgM15 V hO).win w).blk t).view.read (Elt F) (V c (Pipeline.arrRef spec15 w))

theorem before15_0_of (hO : Ok15 V) {c : Dev nD} (dat : Dat τ (Elt F) Unit ℕ (UR sig nD τ) ℕ (cfgM15 V hO) c) (hA : dat.A 0 = V c (Pipeline.arrRef spec15 0))
    (hafter : ∀ t, dat.after 0 t = iblk15 V hO c 0 t) (t : Fin (cfgM15 V hO).N) (d) : dat.before 0 t d = iblk15 V hO c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of (hO : Ok15 V) {c : Dev nD} (dat : Dat τ (Elt F) Unit ℕ (UR sig nD τ) ℕ (cfgM15 V hO) c) (hA : dat.A 1 = V c (Pipeline.arrRef spec15 1))
    (hafter : ∀ t, dat.after 1 t = iblk15 V hO c 1 t) (t : Fin (cfgM15 V hO).N) (d) : dat.before 1 t d = iblk15 V hO c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
end

/-- The body's one rectangle: the whole 1×1×128 block. -/
abbrev r15_0 : Rect S1x1x128 := Rect.unit (s := S1x1x128) ![0, 0, 0] S1x1x128.size inb_S1x1x128_S1x1x128_0_0_0

/-- The output block after the body: the sum of the two gathered rows. -/
def out15_2 (x0 x1 : Vec F S1x1x128 .f32) : Vec F S1x1x128 .f32 :=
  View.canon [⟨r15_0, k15_pay1 (View.ld x0 r15_0) (View.ld x1 r15_0)⟩]

theorem cover15_2 (p0 : Vec F S1x1x128 .f32) (y : S1x1x128.Idx) :
    ∃ pc ∈ ([⟨r15_0, p0⟩] : List (View.Piece (Elt F) S1x1x128 .f32)), y ∈ pc.1.set :=
  View.cover_of_tiled [⟨r15_0, p0⟩] S1x1x128.size (by rfl) y

set_option maxHeartbeats 1000000 in
/-- The body on whole staging memrefs: the two inputs stay, the output ends at the sum; the tables are not touched. -/
theorem sound_kernel15 (c : Dev nD) (E : Set ℕ) (i : grid15.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out15_2 x0 x1)) -∗ K ⟨⟩))
      ⊢ wp frame (wpE (defs₀ (F := F)) Variants.none c none) E (cc15__kernel_b i a1 ha1 a2 ha2 arg3 harg3 arg4 harg4 arg5 harg5) K := by
  simp only [cc15__kernel_b_eq_skeleton]; unfold cc15__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover15_2 _)

section
variable (V : (c : Dev nD) → (b : Ref sig .tc) → Buf (Elt F) ((c : Thread nD τ).loc b))

/-- Each window's current staging memref at point `t`, and its wholeness. -/
abbrev ms15_0 (hO : Ok15 V) (t : Fin (cfgM15 V hO).N) : Memref sig .tc .vmem S1x1x128 .f32 := spec15_0.stage ((cfgM15 V hO).slots t 0)
abbrev hs15_0 (hO : Ok15 V) (t : Fin (cfgM15 V hO).N) : (ms15_0 V hO t).IsWhole := hstage15_0 (((cfgM15 V hO).slots t 0).cast nbuf15_0)
abbrev ms15_1 (hO : Ok15 V) (t : Fin (cfgM15 V hO).N) : Memref sig .tc .vmem S1x1x128 .f32 := spec15_1.stage ((cfgM15 V hO).slots t 1)
abbrev hs15_1 (hO : Ok15 V) (t : Fin (cfgM15 V hO).N) : (ms15_1 V hO t).IsWhole := hstage15_1 (((cfgM15 V hO).slots t 1).cast nbuf15_1)
abbrev ms15_2 (hO : Ok15 V) (t : Fin (cfgM15 V hO).N) : Memref sig .tc .vmem S1x1x128 .f32 := spec15_2.stage ((cfgM15 V hO).slots t 2)
abbrev hs15_2 (hO : Ok15 V) (t : Fin (cfgM15 V hO).N) : (ms15_2 V hO t).IsWhole := hstage15_2 (((cfgM15 V hO).slots t 2).cast nbuf15_2)

/-- The kernel body as the pipeline calls it at point `t`: the point, the two tables whole, the three current staging memrefs. -/
abbrev bodyAt15 (a : (pcfg15 (F := F)).Adm) (t : Fin (cfg15 a).N) : Prog (TpuEff nD τ sig (Elt F) Λ₀ .tc) PUnit :=
  cc15__kernel_b (grid15.coords t) (Memref.whole main_v78) (Memref.isWhole_whole _) (Memref.whole main_v79) (Memref.isWhole_whole _)
    (spec15_0.stage ((cfg15 a).slots t 0)) (hstage15_0 (((cfg15 a).slots t 0).cast nbuf15_0))
    (spec15_1.stage ((cfg15 a).slots t 1)) (hstage15_1 (((cfg15 a).slots t 1).cast nbuf15_1))
    (spec15_2.stage ((cfg15 a).slots t 2)) (hstage15_2 (((cfg15 a).slots t 2).cast nbuf15_2))

/-- The region's proof data on core `c`: the arrays as the region finds them; after the body each input's buffer at its
    block and the output's at the sum of the two input blocks; the invariant carries the scoped rest, the generator register
    and the two tables, whole; the gathered array, read by both input windows, is held half and half; nothing owed. -/
def dat15 (hO : Ok15 V) (c : Dev nD) : Dat τ (Elt F) Unit ℕ (UR sig nD τ) ℕ (cfgM15 V hO) c where
  A w := V c (Pipeline.arrRef spec15 w)
  after w t := match w with
    | ⟨0, _⟩ => iblk15 V hO c 0 t
    | ⟨1, _⟩ => iblk15 V hO c 1 t
    | ⟨2, _⟩ => out15_2 (iblk15 V hO c 0 t) (iblk15 V hO c 1 t)
  Φ _ := iprop(Pipeline.ΦA spec15 c ∗ (Pipeline.prefHeld pre15 c (fun _ => fullShare) (tbl15 V) : sProp 𝕄))
  q w := match w with
    | ⟨0, _⟩ => fullShare.left
    | ⟨1, _⟩ => fullShare.right
    | ⟨2, _⟩ => fullShare
  owed _ := 0

theorem A_eq15 (hO : Ok15 V) (c : Dev nD) (w : Fin (cfgM15 V hO).W) : (dat15 V hO c).A w = V c (Pipeline.arrRef spec15 w) := by
  dsimp only [dat15]

theorem after15_0 (hO : Ok15 V) (c : Dev nD) (t : Fin (cfgM15 V hO).N) : (dat15 V hO c).after 0 t = iblk15 V hO c 0 t := by dsimp only [dat15]; try rfl
theorem after15_1 (hO : Ok15 V) (c : Dev nD) (t : Fin (cfgM15 V hO).N) : (dat15 V hO c).after 1 t = iblk15 V hO c 1 t := by dsimp only [dat15]; try rfl
theorem after15_2 (hO : Ok15 V) (c : Dev nD) (t : Fin (cfgM15 V hO).N) : (dat15 V hO c).after 2 t = out15_2 (iblk15 V hO c 0 t) (iblk15 V hO c 1 t) := by dsimp only [dat15]; try rfl

theorem before15_0 (hO : Ok15 V) (c : Dev nD) (t : Fin (cfgM15 V hO).N) (d) : (dat15 V hO c).before 0 t d = iblk15 V hO c 0 t :=
  before15_0_of V hO (dat15 V hO c) (A_eq15 V hO c 0) (after15_0 V hO c) t d
theorem before15_1 (hO : Ok15 V) (c : Dev nD) (t : Fin (cfgM15 V hO).N) (d) : (dat15 V hO c).before 1 t d = iblk15 V hO c 1 t :=
  before15_1_of V hO (dat15 V hO c) (A_eq15 V hO c 1) (after15_1 V hO c) t d

def bodyPre15 (hO : Ok15 V) (c : Dev nD) (t : Fin (cfgM15 V hO).N) : sProp 𝕄 :=
  iprop((dat15 V hO c).Φ t.castSucc ∗ (dat15 V hO c).owesAt () t.castSucc
    ∗ (∃ d, owns (c : Thread nD τ) (ms15_0 V hO t) fullShare ((dat15 V hO c).before 0 t d))
    ∗ (∃ d, owns (c : Thread nD τ) (ms15_1 V hO t) fullShare ((dat15 V hO c).before 1 t d))
    ∗ (∃ d, owns (c : Thread nD τ) (ms15_2 V hO t) fullShare ((dat15 V hO c).before 2 t d)))

def bodyPost15 (hO : Ok15 V) (c : Dev nD) (t : Fin (cfgM15 V hO).N) : sProp 𝕄 :=
  iprop((dat15 V hO c).Φ t.succ ∗ (dat15 V hO c).owesAt () t.succ
    ∗ owns (c : Thread nD τ) (ms15_0 V hO t) fullShare ((dat15 V hO c).after 0 t)
    ∗ owns (c : Thread nD τ) (ms15_1 V hO t) fullShare ((dat15 V hO c).after 1 t)
    ∗ owns (c : Thread nD τ) (ms15_2 V hO t) fullShare ((dat15 V hO c).after 2 t))

/-- The body at any point: the two input buffers hold their blocks, the body adds them into the output buffer; the
    invariant and the tallies pass through untouched. -/
theorem sound_body15 (hO : Ok15 V) (c : Dev nD) (t : Fin (cfgM15 V hO).N) :
    bodyPre15 V hO c t ⊢ wp frame (wpE (defs₀ (F := F)) Variants.none c none) Set.univ (bodyAt15 (adm15 V hO) t) (fun _ => bodyPost15 V hO c t) := by
  unfold bodyPre15 bodyPost15 bodyAt15
  simp only [before15_0, before15_1]
  rw [show (dat15 V hO c).Φ t.succ = (dat15 V hO c).Φ t.castSucc from rfl,
    show (dat15 V hO c).owesAt () t.succ = (dat15 V hO c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ _ _ _ _ _ (iblk15 V hO c 0 t) (iblk15 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation15 (hO : Ok15 V) (c : Dev nD) : BodyObligation (dat15 (F := F) V hO c) (defs₀ (F := F)) Variants.none () Set.univ := fun t => by
  rw [bigSep_W15, bigSep_W15]
  exact sound_body15 V hO c t
end

section
variable (V : (c : Dev nD) → (b : Ref sig .tc) → Buf (Elt F) ((c : Thread nD τ).loc b))

/-- The region's three arrays as points-to facts: the gathered array, read by both input windows, half and half; the output array whole. -/
theorem arrays15_eq (hO : Ok15 V) (c : Dev nD)
    (G : (w : Fin (cfgM15 V hO).W) → Buf (Elt F) (((cfgM15 V hO).win w).arr.view.loc (c : Thread nD τ))) :
    ((dat15 V hO c).arrays G : sProp 𝕄)
      = iprop((((c : Thread nD τ).loc main_v1) ↦{fullShare.left} G 0) ∗ (((c : Thread nD τ).loc main_v1) ↦{fullShare.right} G 1)
          ∗ (((c : Thread nD τ).loc main_v80) ↦{fullShare} G 2)) := by
  unfold Dat.arrays
  rw [bigSep_W15, (arr_whole15 0).set_eq_univ, (arr_whole15 2).set_eq_univ]
  rfl
end

/-- The two distinct buffers behind the region's three windows. -/
theorem arrImage15 : Finset.univ.image (Pipeline.arrRef spec15) = insert main_v1 {main_v80} := by decide

section
variable (W : Dev nD → Valuation τ sig (Elt F))

theorem arrBufs15_eq (c : Dev nD) (V : (b : Ref sig .tc) → Buf (Elt F) ((c : Thread nD τ).loc b)) :
    (Pipeline.arrBufs spec15 c V : sProp 𝕄)
      = iprop((((c : Thread nD τ).loc main_v1) ↦{fullShare} V main_v1) ∗ (((c : Thread nD τ).loc main_v80) ↦{fullShare} V main_v80)) := by
  unfold Pipeline.arrBufs
  rw [arrImage15, bigSep_insert (by decide), bigSep_singleton]
  rfl

/-- ENTRY: every unscoped buffer held at `W` gives the region its arrays (the gathered array split in two halves), its two
    tables whole, the tallies, the generator register and the rest of the unscoped buffers. -/
theorem entry15 (hO : Ok15 (VW W)) (c : Dev nD) :
    iprop(StableHlo.held (c : Thread nD τ) (Pipeline.ucRefs τ sig) (W c) ∗ Rr (F := F) c)
      ⊢ |={Set.univ}=> iprop((dat15 (VW W) hO c).arrays ((dat15 (VW W) hO c).arrAt · 0)
          ∗ Pipeline.prefHeld pre15 c (fun _ => fullShare) (tbl15 (VW W))
          ∗ (dat15 (VW W) hO c).owesAt () 0 ∗ (∃ r, prngReg c r)
          ∗ (Pipeline.unscopedRestP pre15 spec15 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM15 (VW W) hO) () winFacts₀15.arr_unscoped c (VW W c)]
  rw [show (Pipeline.arrBufs (cfgM15 (VW W) hO).spec c (VW W c) : sProp 𝕄) = Pipeline.arrBufs spec15 c (VW W c) from rfl,
    arrBufs15_eq, arrays15_eq]
  rw [show (Pipeline.unscopedRest (cfgM15 (VW W) hO).spec c (VW W c) : sProp 𝕄) = Pipeline.unscopedRest spec15 c (VW W c) from rfl,
    Pipeline.unscopedRest_split preFacts15 c (VW W c)]
  rw [show (fun k => VW W c (pre15.ref k)) = tbl15 (VW W) from funext fun k => V_pre15 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest15_update (c : Dev nD) (X : Buf (Elt F) ((c : Thread nD τ).loc main_v80)) :
    (Pipeline.unscopedRest spec15 c (fun b => Function.update (W c) main_v80 X b) : sProp 𝕄) = Pipeline.unscopedRest spec15 c (VW W c) := by
  unfold Pipeline.unscopedRest
  exact bigSep_congr fun b hb => by
    have hne : b ≠ main_v80 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit15 (hO : Ok15 (VW W)) (c : Dev nD) (X : Buf (Elt F) ((c : Thread nD τ).loc main_v80))
    (hX : (dat15 (VW W) hO c).arrAt 2 (cfgM15 (VW W) hO).N = X) :
    iprop((dat15 (VW W) hO c).arrays ((dat15 (VW W) hO c).arrAt · (cfgM15 (VW W) hO).N)
        ∗ (dat15 (VW W) hO c).owesAt () (Fin.last (cfgM15 (VW W) hO).N)
        ∗ iprop((∃ r, prngReg c r) ∗ Pipeline.prefHeld pre15 c (fun _ => fullShare) (tbl15 (VW W)))
        ∗ (Pipeline.unscopedRestP pre15 spec15 c (VW W c) : sProp 𝕄))
      ⊢ |={Set.univ}=> iprop(StableHlo.held (c : Thread nD τ) (Pipeline.ucRefs τ sig) (Function.update (W c) main_v80 X) ∗ Rr (F := F) c) := by
  rw [← Pipeline.unscopedBufs_held (Ix := Unit) (Name := ℕ) (U := UR sig nD τ) (Lvl := ℕ) c (Function.update (W c) main_v80 X)]
  rw [Pipeline.unscopedBufs_split₀ (fun _ : Unit => cfgM15 (VW W) hO) () winFacts₀15.arr_unscoped c _]
  rw [show ∀ V', (Pipeline.arrBufs (cfgM15 (VW W) hO).spec c V' : sProp 𝕄) = Pipeline.arrBufs spec15 c V' from fun _ => rfl,
    show ∀ V', (Pipeline.unscopedRest (cfgM15 (VW W) hO).spec c V' : sProp 𝕄) = Pipeline.unscopedRest spec15 c V' from fun _ => rfl,
    rest15_update W c X, Pipeline.unscopedRest_split preFacts15 c (VW W c), arrBufs15_eq]
  rw [show (fun k => VW W c (pre15.ref k)) = tbl15 (VW W) from funext fun k => V_pre15 (VW W) c k]
  rw [Function.update_of_ne (StableHlo.devRef_ne_of_ne (by decide : (main_v1 : Ref sig .tc) ≠ main_v80)), Function.update_self]
  rw [arrays15_eq, hX,
    show (dat15 (VW W) hO c).arrAt 0 (cfgM15 (VW W) hO).N = W c main_v1 from (dat15 (VW W) hO c).arrAt_in 0 rfl _,
    show (dat15 (VW W) hO c).arrAt 1 (cfgM15 (VW W) hO).N = W c main_v1 from (dat15 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.Kernel.GenP

end
-- ==== Proof.Kernel.Run.lean ====
/- The frame of the seventeen-region program: the contents of the buffers between the items as one chain from the launch
   memory, every region's proof data at its entry contents, a segment record per region, and the run. -/
import proofs.«175043_j76819785056407_2_alg».proof.Proof.Kernel.RunCond
import proofs.«175043_j76819785056407_2_alg».proof.Proof.Kernel.R0
import proofs.«175043_j76819785056407_2_alg».proof.Proof.Kernel.R16
import proofs.«175043_j76819785056407_2_alg».proof.Proof.Kernel.RB1
import proofs.«175043_j76819785056407_2_alg».proof.Proof.Kernel.RB2
import proofs.«175043_j76819785056407_2_alg».proof.Proof.Kernel.RB3
import proofs.«175043_j76819785056407_2_alg».proof.Proof.Kernel.RB4
import proofs.«175043_j76819785056407_2_alg».proof.Proof.Kernel.RB5
import proofs.«175043_j76819785056407_2_alg».proof.Proof.Kernel.RB6
import proofs.«175043_j76819785056407_2_alg».proof.Proof.Kernel.RB7
import proofs.«175043_j76819785056407_2_alg».proof.Proof.Kernel.RB8
import proofs.«175043_j76819785056407_2_alg».proof.Proof.Kernel.RB9
import proofs.«175043_j76819785056407_2_alg».proof.Proof.Kernel.RB10
import proofs.«175043_j76819785056407_2_alg».proof.Proof.Kernel.RB11
import proofs.«175043_j76819785056407_2_alg».proof.Proof.Kernel.RB12
import proofs.«175043_j76819785056407_2_alg».proof.Proof.Kernel.RB13
import proofs.«175043_j76819785056407_2_alg».proof.Proof.Kernel.RB14
import proofs.«175043_j76819785056407_2_alg».proof.Proof.Kernel.RB15
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- At launch. -/
def W0 (c : Dev nD) : Valuation τ sig (Elt F) := fun b => m (c, b)
/-- After region 0: its two output arrays at what its write-backs leave. -/
def W1 (c : Dev nD) : Valuation τ sig (Elt F) :=
  Function.update (Function.update (W0 m c) main_v0_0 ((dat0 (VW (W0 m)) c).arrAt 1 cfg0.N)) main_v0_1 ((dat0 (VW (W0 m)) c).arrAt 2 cfg0.N)
/-- After the first host stretch. -/
def W2 (c : Dev nD) : Valuation τ sig (Elt F) := StableHlo.after hostOps1 (W1 m c)
open Classical in
/-- After region 1: its output array at what its write-backs leave (when its tables are admissible; else unchanged). -/
def W3 (c : Dev nD) : Valuation τ sig (Elt F) :=
  if h : Ok1 (VW (W2 m)) then Function.update (W2 m c) main_v24 ((dat1 (VW (W2 m)) h c).arrAt 2 (cfgM1 (VW (W2 m)) h).N) else W2 m c
def W4 (c : Dev nD) : Valuation τ sig (Elt F) := StableHlo.after hostOps2 (W3 m c)
open Classical in
/-- After region 2: its output array at what its write-backs leave (when its tables are admissible; else unchanged). -/
def W5 (c : Dev nD) : Valuation τ sig (Elt F) :=
  if h : Ok2 (VW (W4 m)) then Function.update (W4 m c) main_v28 ((dat2 (VW (W4 m)) h c).arrAt 2 (cfgM2 (VW (W4 m)) h).N) else W4 m c
def W6 (c : Dev nD) : Valuation τ sig (Elt F) := StableHlo.after hostOps3 (W5 m c)
open Classical in
/-- After region 3: its output array at what its write-backs leave (when its tables are admissible; else unchanged). -/
def W7 (c : Dev nD) : Valuation τ sig (Elt F) :=
  if h : Ok3 (VW (W6 m)) then Function.update (W6 m c) main_v32 ((dat3 (VW (W6 m)) h c).arrAt 2 (cfgM3 (VW (W6 m)) h).N) else W6 m c
def W8 (c : Dev nD) : Valuation τ sig (Elt F) := StableHlo.after hostOps4 (W7 m c)
open Classical in
/-- After region 4: its output array at what its write-backs leave (when its tables are admissible; else unchanged). -/
def W9 (c : Dev nD) : Valuation τ sig (Elt F) :=
  if h : Ok4 (VW (W8 m)) then Function.update (W8 m c) main_v36 ((dat4 (VW (W8 m)) h c).arrAt 2 (cfgM4 (VW (W8 m)) h).N) else W8 m c
def W10 (c : Dev nD) : Valuation τ sig (Elt F) := StableHlo.after hostOps5 (W9 m c)
open Classical in
/-- After region 5: its output array at what its write-backs leave (when its tables are admissible; else unchanged). -/
def W11 (c : Dev nD) : Valuation τ sig (Elt F) :=
  if h : Ok5 (VW (W10 m)) then Function.update (W10 m c) main_v40 ((dat5 (VW (W10 m)) h c).arrAt 2 (cfgM5 (VW (W10 m)) h).N) else W10 m c
def W12 (c : Dev nD) : Valuation τ sig (Elt F) := StableHlo.after hostOps6 (W11 m c)
open Classical in
/-- After region 6: its output array at what its write-backs leave (when its tables are admissible; else unchanged). -/
def W13 (c : Dev nD) : Valuation τ sig (Elt F) :=
  if h : Ok6 (VW (W12 m)) then Function.update (W12 m c) main_v44 ((dat6 (VW (W12 m)) h c).arrAt 2 (cfgM6 (VW (W12 m)) h).N) else W12 m c
def W14 (c : Dev nD) : Valuation τ sig (Elt F) := StableHlo.after hostOps7 (W13 m c)
open Classical in
/-- After region 7: its output array at what its write-backs leave (when its tables are admissible; else unchanged). -/
def W15 (c : Dev nD) : Valuation τ sig (Elt F) :=
  if h : Ok7 (VW (W14 m)) then Function.update (W14 m c) main_v48 ((dat7 (VW (W14 m)) h c).arrAt 2 (cfgM7 (VW (W14 m)) h).N) else W14 m c
def W16 (c : Dev nD) : Valuation τ sig (Elt F) := StableHlo.after hostOps8 (W15 m c)
open Classical in
/-- After region 8: its output array at what its write-backs leave (when its tables are admissible; else unchanged). -/
def W17 (c : Dev nD) : Valuation τ sig (Elt F) :=
  if h : Ok8 (VW (W16 m)) then Function.update (W16 m c) main_v52 ((dat8 (VW (W16 m)) h c).arrAt 2 (cfgM8 (VW (W16 m)) h).N) else W16 m c
def W18 (c : Dev nD) : Valuation τ sig (Elt F) := StableHlo.after hostOps9 (W17 m c)
open Classical in
/-- After region 9: its output array at what its write-backs leave (when its tables are admissible; else unchanged). -/
def W19 (c : Dev nD) : Valuation τ sig (Elt F) :=
  if h : Ok9 (VW (W18 m)) then Function.update (W18 m c) main_v56 ((dat9 (VW (W18 m)) h c).arrAt 2 (cfgM9 (VW (W18 m)) h).N) else W18 m c
def W20 (c : Dev nD) : Valuation τ sig (Elt F) := StableHlo.after hostOps10 (W19 m c)
open Classical in
/-- After region 10: its output array at what its write-backs leave (when its tables are admissible; else unchanged). -/
def W21 (c : Dev nD) : Valuation τ sig (Elt F) :=
  if h : Ok10 (VW (W20 m)) then Function.update (W20 m c) main_v60 ((dat10 (VW (W20 m)) h c).arrAt 2 (cfgM10 (VW (W20 m)) h).N) else W20 m c
def W22 (c : Dev nD) : Valuation τ sig (Elt F) := StableHlo.after hostOps11 (W21 m c)
open Classical in
/-- After region 11: its output array at what its write-backs leave (when its tables are admissible; else unchanged). -/
def W23 (c : Dev nD) : Valuation τ sig (Elt F) :=
  if h : Ok11 (VW (W22 m)) then Function.update (W22 m c) main_v64 ((dat11 (VW (W22 m)) h c).arrAt 2 (cfgM11 (VW (W22 m)) h).N) else W22 m c
def W24 (c : Dev nD) : Valuation τ sig (Elt F) := StableHlo.after hostOps12 (W23 m c)
open Classical in
/-- After region 12: its output array at what its write-backs leave (when its tables are admissible; else unchanged). -/
def W25 (c : Dev nD) : Valuation τ sig (Elt F) :=
  if h : Ok12 (VW (W24 m)) then Function.update (W24 m c) main_v68 ((dat12 (VW (W24 m)) h c).arrAt 2 (cfgM12 (VW (W24 m)) h).N) else W24 m c
def W26 (c : Dev nD) : Valuation τ sig (Elt F) := StableHlo.after hostOps13 (W25 m c)
open Classical in
/-- After region 13: its output array at what its write-backs leave (when its tables are admissible; else unchanged). -/
def W27 (c : Dev nD) : Valuation τ sig (Elt F) :=
  if h : Ok13 (VW (W26 m)) then Function.update (W26 m c) main_v72 ((dat13 (VW (W26 m)) h c).arrAt 2 (cfgM13 (VW (W26 m)) h).N) else W26 m c
def W28 (c : Dev nD) : Valuation τ sig (Elt F) := StableHlo.after hostOps14 (W27 m c)
open Classical in
/-- After region 14: its output array at what its write-backs leave (when its tables are admissible; else unchanged). -/
def W29 (c : Dev nD) : Valuation τ sig (Elt F) :=
  if h : Ok14 (VW (W28 m)) then Function.update (W28 m c) main_v76 ((dat14 (VW (W28 m)) h c).arrAt 2 (cfgM14 (VW (W28 m)) h).N) else W28 m c
def W30 (c : Dev nD) : Valuation τ sig (Elt F) := StableHlo.after hostOps15 (W29 m c)
open Classical in
/-- After region 15: its output array at what its write-backs leave (when its tables are admissible; else unchanged). -/
def W31 (c : Dev nD) : Valuation τ sig (Elt F) :=
  if h : Ok15 (VW (W30 m)) then Function.update (W30 m c) main_v80 ((dat15 (VW (W30 m)) h c).arrAt 2 (cfgM15 (VW (W30 m)) h).N) else W30 m c
def W32 (c : Dev nD) : Valuation τ sig (Elt F) := StableHlo.after hostOps16 (W31 m c)
/-- After region 16: its output array at what its write-backs leave. -/
def W33 (c : Dev nD) : Valuation τ sig (Elt F) := Function.update (W32 m c) main_v83 ((dat16 (VW (W32 m)) c).arrAt 1 cfg16.N)
def W34 (c : Dev nD) : Valuation τ sig (Elt F) := StableHlo.after hostOps17 (W33 m c)

/-- What each region leaves, as the family the conditional frame is stated over: the chain's contents after the region. -/
def outsF : Outs (F := F) := fun J r c => match J with
  | 1 => W1 m c r
  | 3 => W3 m c r
  | 5 => W5 m c r
  | 7 => W7 m c r
  | 9 => W9 m c r
  | 11 => W11 m c r
  | 13 => W13 m c r
  | 15 => W15 m c r
  | 17 => W17 m c r
  | 19 => W19 m c r
  | 21 => W21 m c r
  | 23 => W23 m c r
  | 25 => W25 m c r
  | 27 => W27 m c r
  | 29 => W29 m c r
  | 31 => W31 m c r
  | 33 => W33 m c r
  | _ => W0 m c r

theorem update_get_self {ι : Type} [DecidableEq ι] {β : ι → Type} (f : (i : ι) → β i) (a : ι) (X : β a) :
    Function.update f a (Function.update f a X a) = Function.update f a X := by rw [Function.update_self]

/-! ### The conditional frame's valuations are the chain -/

theorem V0_eq (c : Dev nD) : V0 m c = W0 m c := rfl
theorem V1_eq (c : Dev nD) : V1 m (outsF m) c = W1 m c := by
  show Function.update (Function.update (W0 m c) main_v0_0 (W1 m c main_v0_0)) main_v0_1 (W1 m c main_v0_1) = W1 m c
  unfold W1
  rw [Function.update_self, Function.update_of_ne (StableHlo.devRef_ne_of_ne (by decide : (main_v0_0 : Ref sig .tc) ≠ main_v0_1)), Function.update_self]
theorem V2_eq (c : Dev nD) : V2 m (outsF m) c = W2 m c := by
  show StableHlo.after hostOps1 (V1 m (outsF m) c) = _; rw [V1_eq]; rfl
theorem W3_pos (hO : Ok1 (VW (W2 m))) (c : Dev nD) :
    W3 m c = Function.update (W2 m c) main_v24 ((dat1 (VW (W2 m)) hO c).arrAt 2 (cfgM1 (VW (W2 m)) hO).N) := by
  unfold W3; rw [dif_pos hO]
theorem V3_eq (c : Dev nD) : V3 m (outsF m) c = W3 m c := by
  show Function.update (V2 m (outsF m) c) main_v24 (W3 m c main_v24) = W3 m c
  rw [V2_eq]
  unfold W3
  split
  · exact update_get_self _ _ _
  · exact Function.update_eq_self _ _
theorem V4_eq (c : Dev nD) : V4 m (outsF m) c = W4 m c := by
  show StableHlo.after hostOps2 (V3 m (outsF m) c) = _; rw [V3_eq]; rfl
theorem W5_pos (hO : Ok2 (VW (W4 m))) (c : Dev nD) :
    W5 m c = Function.update (W4 m c) main_v28 ((dat2 (VW (W4 m)) hO c).arrAt 2 (cfgM2 (VW (W4 m)) hO).N) := by
  unfold W5; rw [dif_pos hO]
theorem V5_eq (c : Dev nD) : V5 m (outsF m) c = W5 m c := by
  show Function.update (V4 m (outsF m) c) main_v28 (W5 m c main_v28) = W5 m c
  rw [V4_eq]
  unfold W5
  split
  · exact update_get_self _ _ _
  · exact Function.update_eq_self _ _
theorem V6_eq (c : Dev nD) : V6 m (outsF m) c = W6 m c := by
  show StableHlo.after hostOps3 (V5 m (outsF m) c) = _; rw [V5_eq]; rfl
theorem W7_pos (hO : Ok3 (VW (W6 m))) (c : Dev nD) :
    W7 m c = Function.update (W6 m c) main_v32 ((dat3 (VW (W6 m)) hO c).arrAt 2 (cfgM3 (VW (W6 m)) hO).N) := by
  unfold W7; rw [dif_pos hO]
theorem V7_eq (c : Dev nD) : V7 m (outsF m) c = W7 m c := by
  show Function.update (V6 m (outsF m) c) main_v32 (W7 m c main_v32) = W7 m c
  rw [V6_eq]
  unfold W7
  split
  · exact update_get_self _ _ _
  · exact Function.update_eq_self _ _
theorem V8_eq (c : Dev nD) : V8 m (outsF m) c = W8 m c := by
  show StableHlo.after hostOps4 (V7 m (outsF m) c) = _; rw [V7_eq]; rfl
theorem W9_pos (hO : Ok4 (VW (W8 m))) (c : Dev nD) :
    W9 m c = Function.update (W8 m c) main_v36 ((dat4 (VW (W8 m)) hO c).arrAt 2 (cfgM4 (VW (W8 m)) hO).N) := by
  unfold W9; rw [dif_pos hO]
theorem V9_eq (c : Dev nD) : V9 m (outsF m) c = W9 m c := by
  show Function.update (V8 m (outsF m) c) main_v36 (W9 m c main_v36) = W9 m c
  rw [V8_eq]
  unfold W9
  split
  · exact update_get_self _ _ _
  · exact Function.update_eq_self _ _
theorem V10_eq (c : Dev nD) : V10 m (outsF m) c = W10 m c := by
  show StableHlo.after hostOps5 (V9 m (outsF m) c) = _; rw [V9_eq]; rfl
theorem W11_pos (hO : Ok5 (VW (W10 m))) (c : Dev nD) :
    W11 m c = Function.update (W10 m c) main_v40 ((dat5 (VW (W10 m)) hO c).arrAt 2 (cfgM5 (VW (W10 m)) hO).N) := by
  unfold W11; rw [dif_pos hO]
theorem V11_eq (c : Dev nD) : V11 m (outsF m) c = W11 m c := by
  show Function.update (V10 m (outsF m) c) main_v40 (W11 m c main_v40) = W11 m c
  rw [V10_eq]
  unfold W11
  split
  · exact update_get_self _ _ _
  · exact Function.update_eq_self _ _
theorem V12_eq (c : Dev nD) : V12 m (outsF m) c = W12 m c := by
  show StableHlo.after hostOps6 (V11 m (outsF m) c) = _; rw [V11_eq]; rfl
theorem W13_pos (hO : Ok6 (VW (W12 m))) (c : Dev nD) :
    W13 m c = Function.update (W12 m c) main_v44 ((dat6 (VW (W12 m)) hO c).arrAt 2 (cfgM6 (VW (W12 m)) hO).N) := by
  unfold W13; rw [dif_pos hO]
theorem V13_eq (c : Dev nD) : V13 m (outsF m) c = W13 m c := by
  show Function.update (V12 m (outsF m) c) main_v44 (W13 m c main_v44) = W13 m c
  rw [V12_eq]
  unfold W13
  split
  · exact update_get_self _ _ _
  · exact Function.update_eq_self _ _
theorem V14_eq (c : Dev nD) : V14 m (outsF m) c = W14 m c := by
  show StableHlo.after hostOps7 (V13 m (outsF m) c) = _; rw [V13_eq]; rfl
theorem W15_pos (hO : Ok7 (VW (W14 m))) (c : Dev nD) :
    W15 m c = Function.update (W14 m c) main_v48 ((dat7 (VW (W14 m)) hO c).arrAt 2 (cfgM7 (VW (W14 m)) hO).N) := by
  unfold W15; rw [dif_pos hO]
theorem V15_eq (c : Dev nD) : V15 m (outsF m) c = W15 m c := by
  show Function.update (V14 m (outsF m) c) main_v48 (W15 m c main_v48) = W15 m c
  rw [V14_eq]
  unfold W15
  split
  · exact update_get_self _ _ _
  · exact Function.update_eq_self _ _
theorem V16_eq (c : Dev nD) : V16 m (outsF m) c = W16 m c := by
  show StableHlo.after hostOps8 (V15 m (outsF m) c) = _; rw [V15_eq]; rfl
theorem W17_pos (hO : Ok8 (VW (W16 m))) (c : Dev nD) :
    W17 m c = Function.update (W16 m c) main_v52 ((dat8 (VW (W16 m)) hO c).arrAt 2 (cfgM8 (VW (W16 m)) hO).N) := by
  unfold W17; rw [dif_pos hO]
theorem V17_eq (c : Dev nD) : V17 m (outsF m) c = W17 m c := by
  show Function.update (V16 m (outsF m) c) main_v52 (W17 m c main_v52) = W17 m c
  rw [V16_eq]
  unfold W17
  split
  · exact update_get_self _ _ _
  · exact Function.update_eq_self _ _
theorem V18_eq (c : Dev nD) : V18 m (outsF m) c = W18 m c := by
  show StableHlo.after hostOps9 (V17 m (outsF m) c) = _; rw [V17_eq]; rfl
theorem W19_pos (hO : Ok9 (VW (W18 m))) (c : Dev nD) :
    W19 m c = Function.update (W18 m c) main_v56 ((dat9 (VW (W18 m)) hO c).arrAt 2 (cfgM9 (VW (W18 m)) hO).N) := by
  unfold W19; rw [dif_pos hO]
theorem V19_eq (c : Dev nD) : V19 m (outsF m) c = W19 m c := by
  show Function.update (V18 m (outsF m) c) main_v56 (W19 m c main_v56) = W19 m c
  rw [V18_eq]
  unfold W19
  split
  · exact update_get_self _ _ _
  · exact Function.update_eq_self _ _
theorem V20_eq (c : Dev nD) : V20 m (outsF m) c = W20 m c := by
  show StableHlo.after hostOps10 (V19 m (outsF m) c) = _; rw [V19_eq]; rfl
theorem W21_pos (hO : Ok10 (VW (W20 m))) (c : Dev nD) :
    W21 m c = Function.update (W20 m c) main_v60 ((dat10 (VW (W20 m)) hO c).arrAt 2 (cfgM10 (VW (W20 m)) hO).N) := by
  unfold W21; rw [dif_pos hO]
theorem V21_eq (c : Dev nD) : V21 m (outsF m) c = W21 m c := by
  show Function.update (V20 m (outsF m) c) main_v60 (W21 m c main_v60) = W21 m c
  rw [V20_eq]
  unfold W21
  split
  · exact update_get_self _ _ _
  · exact Function.update_eq_self _ _
theorem V22_eq (c : Dev nD) : V22 m (outsF m) c = W22 m c := by
  show StableHlo.after hostOps11 (V21 m (outsF m) c) = _; rw [V21_eq]; rfl
theorem W23_pos (hO : Ok11 (VW (W22 m))) (c : Dev nD) :
    W23 m c = Function.update (W22 m c) main_v64 ((dat11 (VW (W22 m)) hO c).arrAt 2 (cfgM11 (VW (W22 m)) hO).N) := by
  unfold W23; rw [dif_pos hO]
theorem V23_eq (c : Dev nD) : V23 m (outsF m) c = W23 m c := by
  show Function.update (V22 m (outsF m) c) main_v64 (W23 m c main_v64) = W23 m c
  rw [V22_eq]
  unfold W23
  split
  · exact update_get_self _ _ _
  · exact Function.update_eq_self _ _
theorem V24_eq (c : Dev nD) : V24 m (outsF m) c = W24 m c := by
  show StableHlo.after hostOps12 (V23 m (outsF m) c) = _; rw [V23_eq]; rfl
theorem W25_pos (hO : Ok12 (VW (W24 m))) (c : Dev nD) :
    W25 m c = Function.update (W24 m c) main_v68 ((dat12 (VW (W24 m)) hO c).arrAt 2 (cfgM12 (VW (W24 m)) hO).N) := by
  unfold W25; rw [dif_pos hO]
theorem V25_eq (c : Dev nD) : V25 m (outsF m) c = W25 m c := by
  show Function.update (V24 m (outsF m) c) main_v68 (W25 m c main_v68) = W25 m c
  rw [V24_eq]
  unfold W25
  split
  · exact update_get_self _ _ _
  · exact Function.update_eq_self _ _
theorem V26_eq (c : Dev nD) : V26 m (outsF m) c = W26 m c := by
  show StableHlo.after hostOps13 (V25 m (outsF m) c) = _; rw [V25_eq]; rfl
theorem W27_pos (hO : Ok13 (VW (W26 m))) (c : Dev nD) :
    W27 m c = Function.update (W26 m c) main_v72 ((dat13 (VW (W26 m)) hO c).arrAt 2 (cfgM13 (VW (W26 m)) hO).N) := by
  unfold W27; rw [dif_pos hO]
theorem V27_eq (c : Dev nD) : V27 m (outsF m) c = W27 m c := by
  show Function.update (V26 m (outsF m) c) main_v72 (W27 m c main_v72) = W27 m c
  rw [V26_eq]
  unfold W27
  split
  · exact update_get_self _ _ _
  · exact Function.update_eq_self _ _
theorem V28_eq (c : Dev nD) : V28 m (outsF m) c = W28 m c := by
  show StableHlo.after hostOps14 (V27 m (outsF m) c) = _; rw [V27_eq]; rfl
theorem W29_pos (hO : Ok14 (VW (W28 m))) (c : Dev nD) :
    W29 m c = Function.update (W28 m c) main_v76 ((dat14 (VW (W28 m)) hO c).arrAt 2 (cfgM14 (VW (W28 m)) hO).N) := by
  unfold W29; rw [dif_pos hO]
theorem V29_eq (c : Dev nD) : V29 m (outsF m) c = W29 m c := by
  show Function.update (V28 m (outsF m) c) main_v76 (W29 m c main_v76) = W29 m c
  rw [V28_eq]
  unfold W29
  split
  · exact update_get_self _ _ _
  · exact Function.update_eq_self _ _
theorem V30_eq (c : Dev nD) : V30 m (outsF m) c = W30 m c := by
  show StableHlo.after hostOps15 (V29 m (outsF m) c) = _; rw [V29_eq]; rfl
theorem W31_pos (hO : Ok15 (VW (W30 m))) (c : Dev nD) :
    W31 m c = Function.update (W30 m c) main_v80 ((dat15 (VW (W30 m)) hO c).arrAt 2 (cfgM15 (VW (W30 m)) hO).N) := by
  unfold W31; rw [dif_pos hO]
theorem V31_eq (c : Dev nD) : V31 m (outsF m) c = W31 m c := by
  show Function.update (V30 m (outsF m) c) main_v80 (W31 m c main_v80) = W31 m c
  rw [V30_eq]
  unfold W31
  split
  · exact update_get_self _ _ _
  · exact Function.update_eq_self _ _
theorem V32_eq (c : Dev nD) : V32 m (outsF m) c = W32 m c := by
  show StableHlo.after hostOps16 (V31 m (outsF m) c) = _; rw [V31_eq]; rfl
theorem V33_eq (c : Dev nD) : V33 m (outsF m) c = W33 m c := by
  show Function.update (V32 m (outsF m) c) main_v83 (W33 m c main_v83) = W33 m c
  rw [V32_eq]; unfold W33; rw [Function.update_self]
theorem V34_eq (c : Dev nD) : V34 m (outsF m) c = W34 m c := by
  show StableHlo.after hostOps17 (V33 m (outsF m) c) = _; rw [V33_eq]; rfl

/-! ## The proof data family and the regions as segments -/

abbrev Lz : GSem nD τ sig → Finset Unit := fun _ => ∅
abbrev lvz : GSem nD τ sig → Unit → ℕ := fun _ _ => 0

section Regs
variable (hO1 : Ok1 (VW (W2 m))) (hO2 : Ok2 (VW (W4 m))) (hO3 : Ok3 (VW (W6 m))) (hO4 : Ok4 (VW (W8 m))) (hO5 : Ok5 (VW (W10 m))) (hO6 : Ok6 (VW (W12 m))) (hO7 : Ok7 (VW (W14 m))) (hO8 : Ok8 (VW (W16 m))) (hO9 : Ok9 (VW (W18 m))) (hO10 : Ok10 (VW (W20 m))) (hO11 : Ok11 (VW (W22 m))) (hO12 : Ok12 (VW (W24 m))) (hO13 : Ok13 (VW (W26 m))) (hO14 : Ok14 (VW (W28 m))) (hO15 : Ok15 (VW (W30 m)))

/-- The tables' admissible contents, region by region: each row-gather region's two tables as the chain has them at its entry. -/
def admF : (p : Fin 17) → (pcfgs (F := F) p).Adm
  | ⟨0, _⟩ => cfg0.toPCfg_adm
  | ⟨1, _⟩ => adm1 (VW (W2 m)) hO1
  | ⟨2, _⟩ => adm2 (VW (W4 m)) hO2
  | ⟨3, _⟩ => adm3 (VW (W6 m)) hO3
  | ⟨4, _⟩ => adm4 (VW (W8 m)) hO4
  | ⟨5, _⟩ => adm5 (VW (W10 m)) hO5
  | ⟨6, _⟩ => adm6 (VW (W12 m)) hO6
  | ⟨7, _⟩ => adm7 (VW (W14 m)) hO7
  | ⟨8, _⟩ => adm8 (VW (W16 m)) hO8
  | ⟨9, _⟩ => adm9 (VW (W18 m)) hO9
  | ⟨10, _⟩ => adm10 (VW (W20 m)) hO10
  | ⟨11, _⟩ => adm11 (VW (W22 m)) hO11
  | ⟨12, _⟩ => adm12 (VW (W24 m)) hO12
  | ⟨13, _⟩ => adm13 (VW (W26 m)) hO13
  | ⟨14, _⟩ => adm14 (VW (W28 m)) hO14
  | ⟨15, _⟩ => adm15 (VW (W30 m)) hO15
  | ⟨16, _⟩ => cfg16.toPCfg_adm
  | ⟨_ + 17, h⟩ => absurd h (Nat.not_lt.2 (Nat.le_add_left _ _))

/-- Every pipeline's proof data, each at its region's entry contents. -/
def pdats : (p : Fin 17) → (c : Dev nD) → Dat τ (Elt F) Unit ℕ (UR sig nD τ) ℕ (Pipeline.pin (pcfgs (F := F)) (admF m hO1 hO2 hO3 hO4 hO5 hO6 hO7 hO8 hO9 hO10 hO11 hO12 hO13 hO14 hO15) p) c
  | ⟨0, _⟩ => fun c => dat0 (VW (W0 m)) c
  | ⟨1, _⟩ => fun c => dat1 (VW (W2 m)) hO1 c
  | ⟨2, _⟩ => fun c => dat2 (VW (W4 m)) hO2 c
  | ⟨3, _⟩ => fun c => dat3 (VW (W6 m)) hO3 c
  | ⟨4, _⟩ => fun c => dat4 (VW (W8 m)) hO4 c
  | ⟨5, _⟩ => fun c => dat5 (VW (W10 m)) hO5 c
  | ⟨6, _⟩ => fun c => dat6 (VW (W12 m)) hO6 c
  | ⟨7, _⟩ => fun c => dat7 (VW (W14 m)) hO7 c
  | ⟨8, _⟩ => fun c => dat8 (VW (W16 m)) hO8 c
  | ⟨9, _⟩ => fun c => dat9 (VW (W18 m)) hO9 c
  | ⟨10, _⟩ => fun c => dat10 (VW (W20 m)) hO10 c
  | ⟨11, _⟩ => fun c => dat11 (VW (W22 m)) hO11 c
  | ⟨12, _⟩ => fun c => dat12 (VW (W24 m)) hO12 c
  | ⟨13, _⟩ => fun c => dat13 (VW (W26 m)) hO13 c
  | ⟨14, _⟩ => fun c => dat14 (VW (W28 m)) hO14 c
  | ⟨15, _⟩ => fun c => dat15 (VW (W30 m)) hO15 c
  | ⟨16, _⟩ => fun c => dat16 (VW (W32 m)) c
  | ⟨_ + 17, h⟩ => absurd h (Nat.not_lt.2 (Nat.le_add_left _ _))

/-! ### Region 0 -/

theorem hF0 (c : Dev nD) (w : Fin cfg0.W) : (dat0 (VW (W0 m)) c).arrAt w cfg0.N = VW (W1 m) c (Pipeline.arrRef spec0 w) :=
  match w with
  | 0 => by
    rw [(dat0 (VW (W0 m)) c).arrAt_in 0 rfl _]
    show W0 m c main_arg0 = W1 m c main_arg0
    unfold W1
    rw [Function.update_of_ne (StableHlo.devRef_ne_of_ne (by decide : (main_arg0 : Ref sig .tc) ≠ main_v0_1)),
      Function.update_of_ne (StableHlo.devRef_ne_of_ne (by decide : (main_arg0 : Ref sig .tc) ≠ main_v0_0))]
  | 1 => by
    show _ = W1 m c main_v0_0
    unfold W1
    rw [Function.update_of_ne (StableHlo.devRef_ne_of_ne (by decide : (main_v0_0 : Ref sig .tc) ≠ main_v0_1)), Function.update_self]
  | 2 => by
    show _ = W1 m c main_v0_1
    unfold W1
    rw [Function.update_self]
  | ⟨_ + 3, h⟩ => absurd h (Nat.not_lt.2 (Nat.le_add_left _ _))

theorem hrest0 (c : Dev nD) : ∀ b, b ∉ Finset.univ.image (Pipeline.arrRef spec0) → VW (W1 m) c b = VW (W0 m) c b := fun b hb => by
  have h1 : b ≠ main_v0_0 := fun e => hb (Finset.mem_image.mpr ⟨1, Finset.mem_univ _, e.symm⟩)
  have h2 : b ≠ main_v0_1 := fun e => hb (Finset.mem_image.mpr ⟨2, Finset.mem_univ _, e.symm⟩)
  show W1 m c b = W0 m c b
  unfold W1
  rw [Function.update_of_ne (StableHlo.devRef_ne_of_ne h2), Function.update_of_ne (StableHlo.devRef_ne_of_ne h1)]

set_option backward.isDefEq.respectTransparency.types false in
/-- Region 0 over the thread state: entered from every unscoped buffer at the launch contents, left at the contents updated at
    its two output arrays. -/
def reg0 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 0 where
  win := (launch0 (F := F)).win.to₀
  block_pos := (launch0 (F := F)).block_pos
  stage_whole := (launch0 (F := F)).stage_whole
  K := PEmpty
  osem k := k.elim
  ho := Pipeline.OwnSemFacts.none _
  hbody c := body_obligation0 (VW (W0 m)) c
  hwaits := Pipeline.hwaits_of_owed_zero _ _ _ _ Lz lvz 0 fun _ _ => rfl
  pre c := iprop(StableHlo.held (c : Thread nD τ) (Pipeline.ucRefs τ sig) (W0 m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest (Ix := Unit) (Name := ℕ) (U := UR sig nD τ) (Lvl := ℕ) spec0 c (VW (W0 m) c)
  hentry c := by
    rw [Pipeline.ownSems0_none]
    have hsplit := Pipeline.arrays_of_unscopedBufs (p := 0) (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) (launch0 (F := F)).win (launch0 (F := F)).arr_whole c
      ((pdats m hO1 hO2 hO3 hO4 hO5 hO6 hO7 hO8 hO9 hO10 hO11 hO12 hO13 hO14 hO15 0 c).share_full fun _ => rfl) (VW (W0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [show (pdats m hO1 hO2 hO3 hO4 hO5 hO6 hO7 hO8 hO9 hO10 hO11 hO12 hO13 hO14 hO15 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hO1 hO2 hO3 hO4 hO5 hO6 hO7 hO8 hO9 hO10 hO11 hO12 hO13 hO14 hO15 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (admF m hO1 hO2 hO3 hO4 hO5 hO6 hO7 hO8 hO9 hO10 hO11 hO12 hO13 hO14 hO15) (Ix := Unit) (Name := ℕ) (U := UR sig nD τ) (Lvl := ℕ)
      (launch0 (F := F)).win (launch0 (F := F)).arr_whole c (pdats m hO1 hO2 hO3 hO4 hO5 hO6 hO7 hO8 hO9 hO10 hO11 hO12 hO13 hO14 hO15) ((pdats m hO1 hO2 hO3 hO4 hO5 hO6 hO7 hO8 hO9 hO10 hO11 hO12 hO13 hO14 hO15 0 c).share_full fun _ => rfl)
      (VW (W0 m) c) (VW (W1 m) c) ((pdats m hO1 hO2 hO3 hO4 hO5 hO6 hO7 hO8 hO9 hO10 hO11 hO12 hO13 hO14 hO15 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W', -, HO⟩; iexists W'; iexact HO

set_option backward.isDefEq.respectTransparency.types false in
/-- Region 1 over the thread state: entered from every unscoped buffer at the chain's contents before it, left at the
    contents updated at its output array. -/
def reg1 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 1 where
  win := winFacts₀1
  block_pos := block_pos1
  stage_whole := stage_whole1
  K := PEmpty
  osem k := k.elim
  ho := Pipeline.OwnSemFacts.none _
  hbody c := (body_obligation1 (VW (W2 m)) hO1 c).loose
  hwaits := Pipeline.hwaits_of_owed_zero _ _ _ _ Lz lvz 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop((∃ r, prngReg c r) ∗ Pipeline.prefHeld pre1 c (fun _ => fullShare) (tbl1 (VW (W2 m))))
  Z c := Pipeline.unscopedRestP pre1 spec1 c (VW (W2 m) c)
  hentry c := by
    rw [Pipeline.ownSems0_none]
    iintro ⟨Hpre, -, -⟩
    iapply (entry1 (W2 m) hO1 c)
    iexact Hpre
  hin c := by
    rw [show (pdats m hO1 hO2 hO3 hO4 hO5 hO6 hO7 hO8 hO9 hO10 hO11 hO12 hO13 hO14 hO15 1 c).Φ 0 = iprop(Pipeline.ΦA spec1 c ∗ (Pipeline.prefHeld pre1 c (fun _ => fullShare) (tbl1 (VW (W2 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 1 c).Φ (Fin.last _) = iprop(Pipeline.ΦA spec1 c ∗ (Pipeline.prefHeld pre1 c (fun _ => fullShare) (tbl1 (VW (W2 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W3_pos m hO1 c]
    exact exit1 (W2 m) hO1 c _ rfl

set_option backward.isDefEq.respectTransparency.types false in
/-- Region 2 over the thread state: entered from every unscoped buffer at the chain's contents before it, left at the
    contents updated at its output array. -/
def reg2 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 2 where
  win := winFacts₀2
  block_pos := block_pos2
  stage_whole := stage_whole2
  K := PEmpty
  osem k := k.elim
  ho := Pipeline.OwnSemFacts.none _
  hbody c := (body_obligation2 (VW (W4 m)) hO2 c).loose
  hwaits := Pipeline.hwaits_of_owed_zero _ _ _ _ Lz lvz 2 fun _ _ => rfl
  pre c := iprop(StableHlo.held (c : Thread nD τ) (Pipeline.ucRefs τ sig) (W4 m c) ∗ Rr c)
  post c := iprop(StableHlo.held (c : Thread nD τ) (Pipeline.ucRefs τ sig) (W5 m c) ∗ Rr c)
  X c := iprop(∃ r, prngReg c r)
  Y c := iprop((∃ r, prngReg c r) ∗ Pipeline.prefHeld pre2 c (fun _ => fullShare) (tbl2 (VW (W4 m))))
  Z c := Pipeline.unscopedRestP pre2 spec2 c (VW (W4 m) c)
  hentry c := by
    rw [Pipeline.ownSems0_none]
    iintro ⟨Hpre, -, -⟩
    iapply (entry2 (W4 m) hO2 c)
    iexact Hpre
  hin c := by
    rw [show (pdats m hO1 hO2 hO3 hO4 hO5 hO6 hO7 hO8 hO9 hO10 hO11 hO12 hO13 hO14 hO15 2 c).Φ 0 = iprop(Pipeline.ΦA spec2 c ∗ (Pipeline.prefHeld pre2 c (fun _ => fullShare) (tbl2 (VW (W4 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 2 c).Φ (Fin.last _) = iprop(Pipeline.ΦA spec2 c ∗ (Pipeline.prefHeld pre2 c (fun _ => fullShare) (tbl2 (VW (W4 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W5_pos m hO2 c]
    exact exit2 (W4 m) hO2 c _ rfl

set_option backward.isDefEq.respectTransparency.types false in
/-- Region 3 over the thread state: entered from every unscoped buffer at the chain's contents before it, left at the
    contents updated at its output array. -/
def reg3 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 3 where
  win := winFacts₀3
  block_pos := block_pos3
  stage_whole := stage_whole3
  K := PEmpty
  osem k := k.elim
  ho := Pipeline.OwnSemFacts.none _
  hbody c := (body_obligation3 (VW (W6 m)) hO3 c).loose
  hwaits := Pipeline.hwaits_of_owed_zero _ _ _ _ Lz lvz 3 fun _ _ => rfl
  pre c := iprop(StableHlo.held (c : Thread nD τ) (Pipeline.ucRefs τ sig) (W6 m c) ∗ Rr c)
  post c := iprop(StableHlo.held (c : Thread nD τ) (Pipeline.ucRefs τ sig) (W7 m c) ∗ Rr c)
  X c := iprop(∃ r, prngReg c r)
  Y c := iprop((∃ r, prngReg c r) ∗ Pipeline.prefHeld pre3 c (fun _ => fullShare) (tbl3 (VW (W6 m))))
  Z c := Pipeline.unscopedRestP pre3 spec3 c (VW (W6 m) c)
  hentry c := by
    rw [Pipeline.ownSems0_none]
    iintro ⟨Hpre, -, -⟩
    iapply (entry3 (W6 m) hO3 c)
    iexact Hpre
  hin c := by
    rw [show (pdats m hO1 hO2 hO3 hO4 hO5 hO6 hO7 hO8 hO9 hO10 hO11 hO12 hO13 hO14 hO15 3 c).Φ 0 = iprop(Pipeline.ΦA spec3 c ∗ (Pipeline.prefHeld pre3 c (fun _ => fullShare) (tbl3 (VW (W6 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 3 c).Φ (Fin.last _) = iprop(Pipeline.ΦA spec3 c ∗ (Pipeline.prefHeld pre3 c (fun _ => fullShare) (tbl3 (VW (W6 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W7_pos m hO3 c]
    exact exit3 (W6 m) hO3 c _ rfl

set_option backward.isDefEq.respectTransparency.types false in
/-- Region 4 over the thread state: entered from every unscoped buffer at the chain's contents before it, left at the
    contents updated at its output array. -/
def reg4 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 4 where
  win := winFacts₀4
  block_pos := block_pos4
  stage_whole := stage_whole4
  K := PEmpty
  osem k := k.elim
  ho := Pipeline.OwnSemFacts.none _
  hbody c := (body_obligation4 (VW (W8 m)) hO4 c).loose
  hwaits := Pipeline.hwaits_of_owed_zero _ _ _ _ Lz lvz 4 fun _ _ => rfl
  pre c := iprop(StableHlo.held (c : Thread nD τ) (Pipeline.ucRefs τ sig) (W8 m c) ∗ Rr c)
  post c := iprop(StableHlo.held (c : Thread nD τ) (Pipeline.ucRefs τ sig) (W9 m c) ∗ Rr c)
  X c := iprop(∃ r, prngReg c r)
  Y c := iprop((∃ r, prngReg c r) ∗ Pipeline.prefHeld pre4 c (fun _ => fullShare) (tbl4 (VW (W8 m))))
  Z c := Pipeline.unscopedRestP pre4 spec4 c (VW (W8 m) c)
  hentry c := by
    rw [Pipeline.ownSems0_none]
    iintro ⟨Hpre, -, -⟩
    iapply (entry4 (W8 m) hO4 c)
    iexact Hpre
  hin c := by
    rw [show (pdats m hO1 hO2 hO3 hO4 hO5 hO6 hO7 hO8 hO9 hO10 hO11 hO12 hO13 hO14 hO15 4 c).Φ 0 = iprop(Pipeline.ΦA spec4 c ∗ (Pipeline.prefHeld pre4 c (fun _ => fullShare) (tbl4 (VW (W8 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 4 c).Φ (Fin.last _) = iprop(Pipeline.ΦA spec4 c ∗ (Pipeline.prefHeld pre4 c (fun _ => fullShare) (tbl4 (VW (W8 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W9_pos m hO4 c]
    exact exit4 (W8 m) hO4 c _ rfl

set_option backward.isDefEq.respectTransparency.types false in
/-- Region 5 over the thread state: entered from every unscoped buffer at the chain's contents before it, left at the
    contents updated at its output array. -/
def reg5 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 5 where
  win := winFacts₀5
  block_pos := block_pos5
  stage_whole := stage_whole5
  K := PEmpty
  osem k := k.elim
  ho := Pipeline.OwnSemFacts.none _
  hbody c := (body_obligation5 (VW (W10 m)) hO5 c).loose
  hwaits := Pipeline.hwaits_of_owed_zero _ _ _ _ Lz lvz 5 fun _ _ => rfl
  pre c := iprop(StableHlo.held (c : Thread nD τ) (Pipeline.ucRefs τ sig) (W10 m c) ∗ Rr c)
  post c := iprop(StableHlo.held (c : Thread nD τ) (Pipeline.ucRefs τ sig) (W11 m c) ∗ Rr c)
  X c := iprop(∃ r, prngReg c r)
  Y c := iprop((∃ r, prngReg c r) ∗ Pipeline.prefHeld pre5 c (fun _ => fullShare) (tbl5 (VW (W10 m))))
  Z c := Pipeline.unscopedRestP pre5 spec5 c (VW (W10 m) c)
  hentry c := by
    rw [Pipeline.ownSems0_none]
    iintro ⟨Hpre, -, -⟩
    iapply (entry5 (W10 m) hO5 c)
    iexact Hpre
  hin c := by
    rw [show (pdats m hO1 hO2 hO3 hO4 hO5 hO6 hO7 hO8 hO9 hO10 hO11 hO12 hO13 hO14 hO15 5 c).Φ 0 = iprop(Pipeline.ΦA spec5 c ∗ (Pipeline.prefHeld pre5 c (fun _ => fullShare) (tbl5 (VW (W10 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 5 c).Φ (Fin.last _) = iprop(Pipeline.ΦA spec5 c ∗ (Pipeline.prefHeld pre5 c (fun _ => fullShare) (tbl5 (VW (W10 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W11_pos m hO5 c]
    exact exit5 (W10 m) hO5 c _ rfl

set_option backward.isDefEq.respectTransparency.types false in
/-- Region 6 over the thread state: entered from every unscoped buffer at the chain's contents before it, left at the
    contents updated at its output array. -/
def reg6 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 6 where
  win := winFacts₀6
  block_pos := block_pos6
  stage_whole := stage_whole6
  K := PEmpty
  osem k := k.elim
  ho := Pipeline.OwnSemFacts.none _
  hbody c := (body_obligation6 (VW (W12 m)) hO6 c).loose
  hwaits := Pipeline.hwaits_of_owed_zero _ _ _ _ Lz lvz 6 fun _ _ => rfl
  pre c := iprop(StableHlo.held (c : Thread nD τ) (Pipeline.ucRefs τ sig) (W12 m c) ∗ Rr c)
  post c := iprop(StableHlo.held (c : Thread nD τ) (Pipeline.ucRefs τ sig) (W13 m c) ∗ Rr c)
  X c := iprop(∃ r, prngReg c r)
  Y c := iprop((∃ r, prngReg c r) ∗ Pipeline.prefHeld pre6 c (fun _ => fullShare) (tbl6 (VW (W12 m))))
  Z c := Pipeline.unscopedRestP pre6 spec6 c (VW (W12 m) c)
  hentry c := by
    rw [Pipeline.ownSems0_none]
    iintro ⟨Hpre, -, -⟩
    iapply (entry6 (W12 m) hO6 c)
    iexact Hpre
  hin c := by
    rw [show (pdats m hO1 hO2 hO3 hO4 hO5 hO6 hO7 hO8 hO9 hO10 hO11 hO12 hO13 hO14 hO15 6 c).Φ 0 = iprop(Pipeline.ΦA spec6 c ∗ (Pipeline.prefHeld pre6 c (fun _ => fullShare) (tbl6 (VW (W12 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 6 c).Φ (Fin.last _) = iprop(Pipeline.ΦA spec6 c ∗ (Pipeline.prefHeld pre6 c (fun _ => fullShare) (tbl6 (VW (W12 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W13_pos m hO6 c]
    exact exit6 (W12 m) hO6 c _ rfl

set_option backward.isDefEq.respectTransparency.types false in
/-- Region 7 over the thread state: entered from every unscoped buffer at the chain's contents before it, left at the
    contents updated at its output array. -/
def reg7 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 7 where
  win := winFacts₀7
  block_pos := block_pos7
  stage_whole := stage_whole7
  K := PEmpty
  osem k := k.elim
  ho := Pipeline.OwnSemFacts.none _
  hbody c := (body_obligation7 (VW (W14 m)) hO7 c).loose
  hwaits := Pipeline.hwaits_of_owed_zero _ _ _ _ Lz lvz 7 fun _ _ => rfl
  pre c := iprop(StableHlo.held (c : Thread nD τ) (Pipeline.ucRefs τ sig) (W14 m c) ∗ Rr c)
  post c := iprop(StableHlo.held (c : Thread nD τ) (Pipeline.ucRefs τ sig) (W15 m c) ∗ Rr c)
  X c := iprop(∃ r, prngReg c r)
  Y c := iprop((∃ r, prngReg c r) ∗ Pipeline.prefHeld pre7 c (fun _ => fullShare) (tbl7 (VW (W14 m))))
  Z c := Pipeline.unscopedRestP pre7 spec7 c (VW (W14 m) c)
  hentry c := by
    rw [Pipeline.ownSems0_none]
    iintro ⟨Hpre, -, -⟩
    iapply (entry7 (W14 m) hO7 c)
    iexact Hpre
  hin c := by
    rw [show (pdats m hO1 hO2 hO3 hO4 hO5 hO6 hO7 hO8 hO9 hO10 hO11 hO12 hO13 hO14 hO15 7 c).Φ 0 = iprop(Pipeline.ΦA spec7 c ∗ (Pipeline.prefHeld pre7 c (fun _ => fullShare) (tbl7 (VW (W14 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 7 c).Φ (Fin.last _) = iprop(Pipeline.ΦA spec7 c ∗ (Pipeline.prefHeld pre7 c (fun _ => fullShare) (tbl7 (VW (W14 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W15_pos m hO7 c]
    exact exit7 (W14 m) hO7 c _ rfl

set_option backward.isDefEq.respectTransparency.types false in
/-- Region 8 over the thread state: entered from every unscoped buffer at the chain's contents before it, left at the
    contents updated at its output array. -/
def reg8 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 8 where
  win := winFacts₀8
  block_pos := block_pos8
  stage_whole := stage_whole8
  K := PEmpty
  osem k := k.elim
  ho := Pipeline.OwnSemFacts.none _
  hbody c := (body_obligation8 (VW (W16 m)) hO8 c).loose
  hwaits := Pipeline.hwaits_of_owed_zero _ _ _ _ Lz lvz 8 fun _ _ => rfl
  pre c := iprop(StableHlo.held (c : Thread nD τ) (Pipeline.ucRefs τ sig) (W16 m c) ∗ Rr c)
  post c := iprop(StableHlo.held (c : Thread nD τ) (Pipeline.ucRefs τ sig) (W17 m c) ∗ Rr c)
  X c := iprop(∃ r, prngReg c r)
  Y c := iprop((∃ r, prngReg c r) ∗ Pipeline.prefHeld pre8 c (fun _ => fullShare) (tbl8 (VW (W16 m))))
  Z c := Pipeline.unscopedRestP pre8 spec8 c (VW (W16 m) c)
  hentry c := by
    rw [Pipeline.ownSems0_none]
    iintro ⟨Hpre, -, -⟩
    iapply (entry8 (W16 m) hO8 c)
    iexact Hpre
  hin c := by
    rw [show (pdats m hO1 hO2 hO3 hO4 hO5 hO6 hO7 hO8 hO9 hO10 hO11 hO12 hO13 hO14 hO15 8 c).Φ 0 = iprop(Pipeline.ΦA spec8 c ∗ (Pipeline.prefHeld pre8 c (fun _ => fullShare) (tbl8 (VW (W16 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 8 c).Φ (Fin.last _) = iprop(Pipeline.ΦA spec8 c ∗ (Pipeline.prefHeld pre8 c (fun _ => fullShare) (tbl8 (VW (W16 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W17_pos m hO8 c]
    exact exit8 (W16 m) hO8 c _ rfl

set_option backward.isDefEq.respectTransparency.types false in
/-- Region 9 over the thread state: entered from every unscoped buffer at the chain's contents before it, left at the
    contents updated at its output array. -/
def reg9 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 9 where
  win := winFacts₀9
  block_pos := block_pos9
  stage_whole := stage_whole9
  K := PEmpty
  osem k := k.elim
  ho := Pipeline.OwnSemFacts.none _
  hbody c := (body_obligation9 (VW (W18 m)) hO9 c).loose
  hwaits := Pipeline.hwaits_of_owed_zero _ _ _ _ Lz lvz 9 fun _ _ => rfl
  pre c := iprop(StableHlo.held (c : Thread nD τ) (Pipeline.ucRefs τ sig) (W18 m c) ∗ Rr c)
  post c := iprop(StableHlo.held (c : Thread nD τ) (Pipeline.ucRefs τ sig) (W19 m c) ∗ Rr c)
  X c := iprop(∃ r, prngReg c r)
  Y c := iprop((∃ r, prngReg c r) ∗ Pipeline.prefHeld pre9 c (fun _ => fullShare) (tbl9 (VW (W18 m))))
  Z c := Pipeline.unscopedRestP pre9 spec9 c (VW (W18 m) c)
  hentry c := by
    rw [Pipeline.ownSems0_none]
    iintro ⟨Hpre, -, -⟩
    iapply (entry9 (W18 m) hO9 c)
    iexact Hpre
  hin c := by
    rw [show (pdats m hO1 hO2 hO3 hO4 hO5 hO6 hO7 hO8 hO9 hO10 hO11 hO12 hO13 hO14 hO15 9 c).Φ 0 = iprop(Pipeline.ΦA spec9 c ∗ (Pipeline.prefHeld pre9 c (fun _ => fullShare) (tbl9 (VW (W18 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 9 c).Φ (Fin.last _) = iprop(Pipeline.ΦA spec9 c ∗ (Pipeline.prefHeld pre9 c (fun _ => fullShare) (tbl9 (VW (W18 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W19_pos m hO9 c]
    exact exit9 (W18 m) hO9 c _ rfl

set_option backward.isDefEq.respectTransparency.types false in
/-- Region 10 over the thread state: entered from every unscoped buffer at the chain's contents before it, left at the
    contents updated at its output array. -/
def reg10 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 10 where
  win := winFacts₀10
  block_pos := block_pos10
  stage_whole := stage_whole10
  K := PEmpty
  osem k := k.elim
  ho := Pipeline.OwnSemFacts.none _
  hbody c := (body_obligation10 (VW (W20 m)) hO10 c).loose
  hwaits := Pipeline.hwaits_of_owed_zero _ _ _ _ Lz lvz 10 fun _ _ => rfl
  pre c := iprop(StableHlo.held (c : Thread nD τ) (Pipeline.ucRefs τ sig) (W20 m c) ∗ Rr c)
  post c := iprop(StableHlo.held (c : Thread nD τ) (Pipeline.ucRefs τ sig) (W21 m c) ∗ Rr c)
  X c := iprop(∃ r, prngReg c r)
  Y c := iprop((∃ r, prngReg c r) ∗ Pipeline.prefHeld pre10 c (fun _ => fullShare) (tbl10 (VW (W20 m))))
  Z c := Pipeline.unscopedRestP pre10 spec10 c (VW (W20 m) c)
  hentry c := by
    rw [Pipeline.ownSems0_none]
    iintro ⟨Hpre, -, -⟩
    iapply (entry10 (W20 m) hO10 c)
    iexact Hpre
  hin c := by
    rw [show (pdats m hO1 hO2 hO3 hO4 hO5 hO6 hO7 hO8 hO9 hO10 hO11 hO12 hO13 hO14 hO15 10 c).Φ 0 = iprop(Pipeline.ΦA spec10 c ∗ (Pipeline.prefHeld pre10 c (fun _ => fullShare) (tbl10 (VW (W20 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 10 c).Φ (Fin.last _) = iprop(Pipeline.ΦA spec10 c ∗ (Pipeline.prefHeld pre10 c (fun _ => fullShare) (tbl10 (VW (W20 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W21_pos m hO10 c]
    exact exit10 (W20 m) hO10 c _ rfl

set_option backward.isDefEq.respectTransparency.types false in
/-- Region 11 over the thread state: entered from every unscoped buffer at the chain's contents before it, left at the
    contents updated at its output array. -/
def reg11 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 11 where
  win := winFacts₀11
  block_pos := block_pos11
  stage_whole := stage_whole11
  K := PEmpty
  osem k := k.elim
  ho := Pipeline.OwnSemFacts.none _
  hbody c := (body_obligation11 (VW (W22 m)) hO11 c).loose
  hwaits := Pipeline.hwaits_of_owed_zero _ _ _ _ Lz lvz 11 fun _ _ => rfl
  pre c := iprop(StableHlo.held (c : Thread nD τ) (Pipeline.ucRefs τ sig) (W22 m c) ∗ Rr c)
  post c := iprop(StableHlo.held (c : Thread nD τ) (Pipeline.ucRefs τ sig) (W23 m c) ∗ Rr c)
  X c := iprop(∃ r, prngReg c r)
  Y c := iprop((∃ r, prngReg c r) ∗ Pipeline.prefHeld pre11 c (fun _ => fullShare) (tbl11 (VW (W22 m))))
  Z c := Pipeline.unscopedRestP pre11 spec11 c (VW (W22 m) c)
  hentry c := by
    rw [Pipeline.ownSems0_none]
    iintro ⟨Hpre, -, -⟩
    iapply (entry11 (W22 m) hO11 c)
    iexact Hpre
  hin c := by
    rw [show (pdats m hO1 hO2 hO3 hO4 hO5 hO6 hO7 hO8 hO9 hO10 hO11 hO12 hO13 hO14 hO15 11 c).Φ 0 = iprop(Pipeline.ΦA spec11 c ∗ (Pipeline.prefHeld pre11 c (fun _ => fullShare) (tbl11 (VW (W22 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 11 c).Φ (Fin.last _) = iprop(Pipeline.ΦA spec11 c ∗ (Pipeline.prefHeld pre11 c (fun _ => fullShare) (tbl11 (VW (W22 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W23_pos m hO11 c]
    exact exit11 (W22 m) hO11 c _ rfl

set_option backward.isDefEq.respectTransparency.types false in
/-- Region 12 over the thread state: entered from every unscoped buffer at the chain's contents before it, left at the
    contents updated at its output array. -/
def reg12 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 12 where
  win := winFacts₀12
  block_pos := block_pos12
  stage_whole := stage_whole12
  K := PEmpty
  osem k := k.elim
  ho := Pipeline.OwnSemFacts.none _
  hbody c := (body_obligation12 (VW (W24 m)) hO12 c).loose
  hwaits := Pipeline.hwaits_of_owed_zero _ _ _ _ Lz lvz 12 fun _ _ => rfl
  pre c := iprop(StableHlo.held (c : Thread nD τ) (Pipeline.ucRefs τ sig) (W24 m c) ∗ Rr c)
  post c := iprop(StableHlo.held (c : Thread nD τ) (Pipeline.ucRefs τ sig) (W25 m c) ∗ Rr c)
  X c := iprop(∃ r, prngReg c r)
  Y c := iprop((∃ r, prngReg c r) ∗ Pipeline.prefHeld pre12 c (fun _ => fullShare) (tbl12 (VW (W24 m))))
  Z c := Pipeline.unscopedRestP pre12 spec12 c (VW (W24 m) c)
  hentry c := by
    rw [Pipeline.ownSems0_none]
    iintro ⟨Hpre, -, -⟩
    iapply (entry12 (W24 m) hO12 c)
    iexact Hpre
  hin c := by
    rw [show (pdats m hO1 hO2 hO3 hO4 hO5 hO6 hO7 hO8 hO9 hO10 hO11 hO12 hO13 hO14 hO15 12 c).Φ 0 = iprop(Pipeline.ΦA spec12 c ∗ (Pipeline.prefHeld pre12 c (fun _ => fullShare) (tbl12 (VW (W24 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 12 c).Φ (Fin.last _) = iprop(Pipeline.ΦA spec12 c ∗ (Pipeline.prefHeld pre12 c (fun _ => fullShare) (tbl12 (VW (W24 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W25_pos m hO12 c]
    exact exit12 (W24 m) hO12 c _ rfl

set_option backward.isDefEq.respectTransparency.types false in
/-- Region 13 over the thread state: entered from every unscoped buffer at the chain's contents before it, left at the
    contents updated at its output array. -/
def reg13 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 13 where
  win := winFacts₀13
  block_pos := block_pos13
  stage_whole := stage_whole13
  K := PEmpty
  osem k := k.elim
  ho := Pipeline.OwnSemFacts.none _
  hbody c := (body_obligation13 (VW (W26 m)) hO13 c).loose
  hwaits := Pipeline.hwaits_of_owed_zero _ _ _ _ Lz lvz 13 fun _ _ => rfl
  pre c := iprop(StableHlo.held (c : Thread nD τ) (Pipeline.ucRefs τ sig) (W26 m c) ∗ Rr c)
  post c := iprop(StableHlo.held (c : Thread nD τ) (Pipeline.ucRefs τ sig) (W27 m c) ∗ Rr c)
  X c := iprop(∃ r, prngReg c r)
  Y c := iprop((∃ r, prngReg c r) ∗ Pipeline.prefHeld pre13 c (fun _ => fullShare) (tbl13 (VW (W26 m))))
  Z c := Pipeline.unscopedRestP pre13 spec13 c (VW (W26 m) c)
  hentry c := by
    rw [Pipeline.ownSems0_none]
    iintro ⟨Hpre, -, -⟩
    iapply (entry13 (W26 m) hO13 c)
    iexact Hpre
  hin c := by
    rw [show (pdats m hO1 hO2 hO3 hO4 hO5 hO6 hO7 hO8 hO9 hO10 hO11 hO12 hO13 hO14 hO15 13 c).Φ 0 = iprop(Pipeline.ΦA spec13 c ∗ (Pipeline.prefHeld pre13 c (fun _ => fullShare) (tbl13 (VW (W26 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 13 c).Φ (Fin.last _) = iprop(Pipeline.ΦA spec13 c ∗ (Pipeline.prefHeld pre13 c (fun _ => fullShare) (tbl13 (VW (W26 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W27_pos m hO13 c]
    exact exit13 (W26 m) hO13 c _ rfl

set_option backward.isDefEq.respectTransparency.types false in
/-- Region 14 over the thread state: entered from every unscoped buffer at the chain's contents before it, left at the
    contents updated at its output array. -/
def reg14 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 14 where
  win := winFacts₀14
  block_pos := block_pos14
  stage_whole := stage_whole14
  K := PEmpty
  osem k := k.elim
  ho := Pipeline.OwnSemFacts.none _
  hbody c := (body_obligation14 (VW (W28 m)) hO14 c).loose
  hwaits := Pipeline.hwaits_of_owed_zero _ _ _ _ Lz lvz 14 fun _ _ => rfl
  pre c := iprop(StableHlo.held (c : Thread nD τ) (Pipeline.ucRefs τ sig) (W28 m c) ∗ Rr c)
  post c := iprop(StableHlo.held (c : Thread nD τ) (Pipeline.ucRefs τ sig) (W29 m c) ∗ Rr c)
  X c := iprop(∃ r, prngReg c r)
  Y c := iprop((∃ r, prngReg c r) ∗ Pipeline.prefHeld pre14 c (fun _ => fullShare) (tbl14 (VW (W28 m))))
  Z c := Pipeline.unscopedRestP pre14 spec14 c (VW (W28 m) c)
  hentry c := by
    rw [Pipeline.ownSems0_none]
    iintro ⟨Hpre, -, -⟩
    iapply (entry14 (W28 m) hO14 c)
    iexact Hpre
  hin c := by
    rw [show (pdats m hO1 hO2 hO3 hO4 hO5 hO6 hO7 hO8 hO9 hO10 hO11 hO12 hO13 hO14 hO15 14 c).Φ 0 = iprop(Pipeline.ΦA spec14 c ∗ (Pipeline.prefHeld pre14 c (fun _ => fullShare) (tbl14 (VW (W28 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 14 c).Φ (Fin.last _) = iprop(Pipeline.ΦA spec14 c ∗ (Pipeline.prefHeld pre14 c (fun _ => fullShare) (tbl14 (VW (W28 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W29_pos m hO14 c]
    exact exit14 (W28 m) hO14 c _ rfl

set_option backward.isDefEq.respectTransparency.types false in
/-- Region 15 over the thread state: entered from every unscoped buffer at the chain's contents before it, left at the
    contents updated at its output array. -/
def reg15 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 15 where
  win := winFacts₀15
  block_pos := block_pos15
  stage_whole := stage_whole15
  K := PEmpty
  osem k := k.elim
  ho := Pipeline.OwnSemFacts.none _
  hbody c := (body_obligation15 (VW (W30 m)) hO15 c).loose
  hwaits := Pipeline.hwaits_of_owed_zero _ _ _ _ Lz lvz 15 fun _ _ => rfl
  pre c := iprop(StableHlo.held (c : Thread nD τ) (Pipeline.ucRefs τ sig) (W30 m c) ∗ Rr c)
  post c := iprop(StableHlo.held (c : Thread nD τ) (Pipeline.ucRefs τ sig) (W31 m c) ∗ Rr c)
  X c := iprop(∃ r, prngReg c r)
  Y c := iprop((∃ r, prngReg c r) ∗ Pipeline.prefHeld pre15 c (fun _ => fullShare) (tbl15 (VW (W30 m))))
  Z c := Pipeline.unscopedRestP pre15 spec15 c (VW (W30 m) c)
  hentry c := by
    rw [Pipeline.ownSems0_none]
    iintro ⟨Hpre, -, -⟩
    iapply (entry15 (W30 m) hO15 c)
    iexact Hpre
  hin c := by
    rw [show (pdats m hO1 hO2 hO3 hO4 hO5 hO6 hO7 hO8 hO9 hO10 hO11 hO12 hO13 hO14 hO15 15 c).Φ 0 = iprop(Pipeline.ΦA spec15 c ∗ (Pipeline.prefHeld pre15 c (fun _ => fullShare) (tbl15 (VW (W30 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 15 c).Φ (Fin.last _) = iprop(Pipeline.ΦA spec15 c ∗ (Pipeline.prefHeld pre15 c (fun _ => fullShare) (tbl15 (VW (W30 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W31_pos m hO15 c]
    exact exit15 (W30 m) hO15 c _ rfl

/-! ### Region 16 -/

theorem hF16 (c : Dev nD) (w : Fin cfg16.W) : (dat16 (VW (W32 m)) c).arrAt w cfg16.N = VW (W33 m) c (Pipeline.arrRef spec16 w) :=
  match w with
  | 0 => by
    rw [(dat16 (VW (W32 m)) c).arrAt_in 0 rfl _]
    show W32 m c main_v82 = W33 m c main_v82
    unfold W33
    rw [Function.update_of_ne (StableHlo.devRef_ne_of_ne (by decide : (main_v82 : Ref sig .tc) ≠ main_v83))]
  | 1 => by
    show _ = W33 m c main_v83
    unfold W33
    rw [Function.update_self]
  | ⟨_ + 2, h⟩ => absurd h (Nat.not_lt.2 (Nat.le_add_left _ _))

theorem hrest16 (c : Dev nD) : ∀ b, b ∉ Finset.univ.image (Pipeline.arrRef spec16) → VW (W33 m) c b = VW (W32 m) c b := fun b hb => by
  have h1 : b ≠ main_v83 := fun e => hb (Finset.mem_image.mpr ⟨1, Finset.mem_univ _, e.symm⟩)
  show W33 m c b = W32 m c b
  unfold W33
  rw [Function.update_of_ne (StableHlo.devRef_ne_of_ne h1)]

set_option backward.isDefEq.respectTransparency.types false in
/-- Region 16 over the thread state. -/
def reg16 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 16 where
  win := (launch16 (F := F)).win.to₀
  block_pos := (launch16 (F := F)).block_pos
  stage_whole := (launch16 (F := F)).stage_whole
  K := PEmpty
  osem k := k.elim
  ho := Pipeline.OwnSemFacts.none _
  hbody c := (body_obligation16 (VW (W32 m)) c).loose
  hwaits := Pipeline.hwaits_of_owed_zero _ _ _ _ Lz lvz 16 fun _ _ => rfl
  pre c := iprop(StableHlo.held (c : Thread nD τ) (Pipeline.ucRefs τ sig) (W32 m c) ∗ Rr c)
  post c := iprop(StableHlo.held (c : Thread nD τ) (Pipeline.ucRefs τ sig) (W33 m c) ∗ Rr c)
  X c := iprop(∃ r, prngReg c r)
  Y c := iprop(∃ r, prngReg c r)
  Z c := Pipeline.unscopedRest (Ix := Unit) (Name := ℕ) (U := UR sig nD τ) (Lvl := ℕ) spec16 c (VW (W32 m) c)
  hentry c := by
    rw [Pipeline.ownSems0_none]
    have hsplit := Pipeline.arrays_of_unscopedBufs (p := 16) (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) (launch16 (F := F)).win (launch16 (F := F)).arr_whole c
      ((pdats m hO1 hO2 hO3 hO4 hO5 hO6 hO7 hO8 hO9 hO10 hO11 hO12 hO13 hO14 hO15 16 c).share_full fun _ => rfl) (VW (W32 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [show (pdats m hO1 hO2 hO3 hO4 hO5 hO6 hO7 hO8 hO9 hO10 hO11 hO12 hO13 hO14 hO15 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m hO1 hO2 hO3 hO4 hO5 hO6 hO7 hO8 hO9 hO10 hO11 hO12 hO13 hO14 hO15 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) (admF m hO1 hO2 hO3 hO4 hO5 hO6 hO7 hO8 hO9 hO10 hO11 hO12 hO13 hO14 hO15) (Ix := Unit) (Name := ℕ) (U := UR sig nD τ) (Lvl := ℕ)
      (launch16 (F := F)).win (launch16 (F := F)).arr_whole c (pdats m hO1 hO2 hO3 hO4 hO5 hO6 hO7 hO8 hO9 hO10 hO11 hO12 hO13 hO14 hO15) ((pdats m hO1 hO2 hO3 hO4 hO5 hO6 hO7 hO8 hO9 hO10 hO11 hO12 hO13 hO14 hO15 16 c).share_full fun _ => rfl)
      (VW (W32 m) c) (VW (W33 m) c) ((pdats m hO1 hO2 hO3 hO4 hO5 hO6 hO7 hO8 hO9 hO10 hO11 hO12 hO13 hO14 hO15 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W', -, HO⟩; iexists W'; iexact HO

/-! ## The run -/

include hO1 hO2 hO3 hO4 hO5 hO6 hO7 hO8 hO9 hO10 hO11 hO12 hO13 hO14 hO15 in
/-- The launch's ghost state: the staging cells' rounds of every pipeline at its admissible tables. -/
def u0F : UR sig nD τ :=
  initOf (Pipeline.cells (Pipeline.pin (pcfgs (F := F)) (admF m hO1 hO2 hO3 hO4 hO5 hO6 hO7 hO8 hO9 hO10 hO11 hO12 hO13 hO14 hO15)) (cellOf_inj (admF m hO1 hO2 hO3 hO4 hO5 hO6 hO7 hO8 hO9 hO10 hO11 hO12 hO13 hO14 hO15)))
    (Pipeline.launchToks (Pipeline.pin (pcfgs (F := F)) (admF m hO1 hO2 hO3 hO4 hO5 hO6 hO7 hO8 hO9 hO10 hO11 hO12 hO13 hO14 hO15)) (cellOf_inj (admF m hO1 hO2 hO3 hO4 hO5 hO6 hO7 hO8 hO9 hO10 hO11 hO12 hO13 hO14 hO15)))

include hO1 hO2 hO3 hO4 hO5 hO6 hO7 hO8 hO9 hO10 hO11 hO12 hO13 hO14 hO15 in
set_option backward.isDefEq.respectTransparency.types false in
/-- THE RUN: under the fifteen admissibility facts, every weakly fair execution of @main from memory `m` with zero counters
    terminates without a fault; the final memory holds the result buffer at the chain's last contents and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v84) = W34 m c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have h := run_cond m (emb₁ : Emb (UR sig nD τ) 𝕄) () Variants.none Lz lvz (fun _ _ => rfl) ρ (outsF m) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15)
    (fun _ => 0) (fun _ => iprop(emp)) (u0F m hO1 hO2 hO3 hO4 hO5 hO6 hO7 hO8 hO9 hO10 hO11 hO12 hO13 hO14 hO15)
    (by
      iintro Hu; imodintro
      isplitl [Hu]
      · iapply (show (ownU (u0F m hO1 hO2 hO3 hO4 hO5 hO6 hO7 hO8 hO9 hO10 hO11 hO12 hO13 hO14 hO15) : sProp 𝕄) ⊢ BI.own (emb₁ (u0F m hO1 hO2 hO3 hO4 hO5 hO6 hO7 hO8 hO9 hO10 hO11 hO12 hO13 hO14 hO15)) from .rfl)
        iexact Hu
      iapply (show (BI.emp : sProp 𝕄) ⊢ bigSep Finset.univ (fun _ : Dev nD => (BI.emp : sProp 𝕄)) from by rw [BI.bigSep_emp_const])
      iempintro)
    (fun _ c => Rr c)
    (Pipeline.initEach Lz lvz fun c => by
      iintro ⟨⟨-, HO, -, Hp, -⟩, -⟩
      imodintro
      isplitl [Hp]; · iexists _; iexact Hp
      iexists ∅; iexact HO)
    (fun c => by iintro ⟨-, HO⟩; iexact HO)
    (reg0 m hO1 hO2 hO3 hO4 hO5 hO6 hO7 hO8 hO9 hO10 hO11 hO12 hO13 hO14 hO15) (fun c => by rw [V0_eq]; exact .rfl) (fun c => by rw [V1_eq]; exact .rfl)
    (reg1 m hO1 hO2 hO3 hO4 hO5 hO6 hO7 hO8 hO9 hO10 hO11 hO12 hO13 hO14 hO15) (fun c => by rw [V2_eq]; exact .rfl) (fun c => by rw [V3_eq]; exact .rfl)
    (reg2 m hO1 hO2 hO3 hO4 hO5 hO6 hO7 hO8 hO9 hO10 hO11 hO12 hO13 hO14 hO15) (fun c => by rw [V4_eq]; exact .rfl) (fun c => by rw [V5_eq]; exact .rfl)
    (reg3 m hO1 hO2 hO3 hO4 hO5 hO6 hO7 hO8 hO9 hO10 hO11 hO12 hO13 hO14 hO15) (fun c => by rw [V6_eq]; exact .rfl) (fun c => by rw [V7_eq]; exact .rfl)
    (reg4 m hO1 hO2 hO3 hO4 hO5 hO6 hO7 hO8 hO9 hO10 hO11 hO12 hO13 hO14 hO15) (fun c => by rw [V8_eq]; exact .rfl) (fun c => by rw [V9_eq]; exact .rfl)
    (reg5 m hO1 hO2 hO3 hO4 hO5 hO6 hO7 hO8 hO9 hO10 hO11 hO12 hO13 hO14 hO15) (fun c => by rw [V10_eq]; exact .rfl) (fun c => by rw [V11_eq]; exact .rfl)
    (reg6 m hO1 hO2 hO3 hO4 hO5 hO6 hO7 hO8 hO9 hO10 hO11 hO12 hO13 hO14 hO15) (fun c => by rw [V12_eq]; exact .rfl) (fun c => by rw [V13_eq]; exact .rfl)
    (reg7 m hO1 hO2 hO3 hO4 hO5 hO6 hO7 hO8 hO9 hO10 hO11 hO12 hO13 hO14 hO15) (fun c => by rw [V14_eq]; exact .rfl) (fun c => by rw [V15_eq]; exact .rfl)
    (reg8 m hO1 hO2 hO3 hO4 hO5 hO6 hO7 hO8 hO9 hO10 hO11 hO12 hO13 hO14 hO15) (fun c => by rw [V16_eq]; exact .rfl) (fun c => by rw [V17_eq]; exact .rfl)
    (reg9 m hO1 hO2 hO3 hO4 hO5 hO6 hO7 hO8 hO9 hO10 hO11 hO12 hO13 hO14 hO15) (fun c => by rw [V18_eq]; exact .rfl) (fun c => by rw [V19_eq]; exact .rfl)
    (reg10 m hO1 hO2 hO3 hO4 hO5 hO6 hO7 hO8 hO9 hO10 hO11 hO12 hO13 hO14 hO15) (fun c => by rw [V20_eq]; exact .rfl) (fun c => by rw [V21_eq]; exact .rfl)
    (reg11 m hO1 hO2 hO3 hO4 hO5 hO6 hO7 hO8 hO9 hO10 hO11 hO12 hO13 hO14 hO15) (fun c => by rw [V22_eq]; exact .rfl) (fun c => by rw [V23_eq]; exact .rfl)
    (reg12 m hO1 hO2 hO3 hO4 hO5 hO6 hO7 hO8 hO9 hO10 hO11 hO12 hO13 hO14 hO15) (fun c => by rw [V24_eq]; exact .rfl) (fun c => by rw [V25_eq]; exact .rfl)
    (reg13 m hO1 hO2 hO3 hO4 hO5 hO6 hO7 hO8 hO9 hO10 hO11 hO12 hO13 hO14 hO15) (fun c => by rw [V26_eq]; exact .rfl) (fun c => by rw [V27_eq]; exact .rfl)
    (reg14 m hO1 hO2 hO3 hO4 hO5 hO6 hO7 hO8 hO9 hO10 hO11 hO12 hO13 hO14 hO15) (fun c => by rw [V28_eq]; exact .rfl) (fun c => by rw [V29_eq]; exact .rfl)
    (reg15 m hO1 hO2 hO3 hO4 hO5 hO6 hO7 hO8 hO9 hO10 hO11 hO12 hO13 hO14 hO15) (fun c => by rw [V30_eq]; exact .rfl) (fun c => by rw [V31_eq]; exact .rfl)
    (reg16 m hO1 hO2 hO3 hO4 hO5 hO6 hO7 hO8 hO9 hO10 hO11 hO12 hO13 hO14 hO15) (fun c => by rw [V32_eq]; exact .rfl) (fun c => by rw [V33_eq]; exact .rfl)
  refine (θ_run defs _ _).mono (fun r hr c => ?_) h
  have h2 := hr c
  rw [V34_eq] at h2
  exact h2

end Regs

end Cert.Kernel.GenP

end
-- ==== Proof.Kernel.Keep.lean ====
/- Buffers that no later item writes keep their contents along the chain of valuations. -/
import proofs.«175043_j76819785056407_2_alg».proof.Proof.Kernel.Run

set_option maxRecDepth 65536

noncomputable section

namespace Cert.Kernel.GenP

open Cert.Kernel Cert.Kernel.Gen
open Idealize.ShloMosaic Idealize.ShloMosaic.TcCoe Idealize.SL.Sem

variable {F : FTy → Type} [FloatOps F]
variable (m : (ℓ : Loc nD τ sig) → Buf (Elt F) ℓ)

theorem keep_v0_0 (c : Dev nD) : W33 m c main_v0_0 = W1 m c main_v0_0 :=
  (show W33 m c main_v0_0 = W32 m c main_v0_0 from by rw [← V33_eq, ← V32_eq]; exact V33_of m (outsF m) c main_v0_0 (by decide)).trans
    ((show W32 m c main_v0_0 = W31 m c main_v0_0 from by rw [← V32_eq, ← V31_eq]; exact V32_of m (outsF m) c main_v0_0 (by decide)).trans
    ((show W31 m c main_v0_0 = W30 m c main_v0_0 from by rw [← V31_eq, ← V30_eq]; exact V31_of m (outsF m) c main_v0_0 (by decide)).trans
    ((show W30 m c main_v0_0 = W29 m c main_v0_0 from by rw [← V30_eq, ← V29_eq]; exact V30_of m (outsF m) c main_v0_0 (by decide)).trans
    ((show W29 m c main_v0_0 = W28 m c main_v0_0 from by rw [← V29_eq, ← V28_eq]; exact V29_of m (outsF m) c main_v0_0 (by decide)).trans
    ((show W28 m c main_v0_0 = W27 m c main_v0_0 from by rw [← V28_eq, ← V27_eq]; exact V28_of m (outsF m) c main_v0_0 (by decide)).trans
    ((show W27 m c main_v0_0 = W26 m c main_v0_0 from by rw [← V27_eq, ← V26_eq]; exact V27_of m (outsF m) c main_v0_0 (by decide)).trans
    ((show W26 m c main_v0_0 = W25 m c main_v0_0 from by rw [← V26_eq, ← V25_eq]; exact V26_of m (outsF m) c main_v0_0 (by decide)).trans
    ((show W25 m c main_v0_0 = W24 m c main_v0_0 from by rw [← V25_eq, ← V24_eq]; exact V25_of m (outsF m) c main_v0_0 (by decide)).trans
    ((show W24 m c main_v0_0 = W23 m c main_v0_0 from by rw [← V24_eq, ← V23_eq]; exact V24_of m (outsF m) c main_v0_0 (by decide)).trans
    ((show W23 m c main_v0_0 = W22 m c main_v0_0 from by rw [← V23_eq, ← V22_eq]; exact V23_of m (outsF m) c main_v0_0 (by decide)).trans
    ((show W22 m c main_v0_0 = W21 m c main_v0_0 from by rw [← V22_eq, ← V21_eq]; exact V22_of m (outsF m) c main_v0_0 (by decide)).trans
    ((show W21 m c main_v0_0 = W20 m c main_v0_0 from by rw [← V21_eq, ← V20_eq]; exact V21_of m (outsF m) c main_v0_0 (by decide)).trans
    ((show W20 m c main_v0_0 = W19 m c main_v0_0 from by rw [← V20_eq, ← V19_eq]; exact V20_of m (outsF m) c main_v0_0 (by decide)).trans
    ((show W19 m c main_v0_0 = W18 m c main_v0_0 from by rw [← V19_eq, ← V18_eq]; exact V19_of m (outsF m) c main_v0_0 (by decide)).trans
    ((show W18 m c main_v0_0 = W17 m c main_v0_0 from by rw [← V18_eq, ← V17_eq]; exact V18_of m (outsF m) c main_v0_0 (by decide)).trans
    ((show W17 m c main_v0_0 = W16 m c main_v0_0 from by rw [← V17_eq, ← V16_eq]; exact V17_of m (outsF m) c main_v0_0 (by decide)).trans
    ((show W16 m c main_v0_0 = W15 m c main_v0_0 from by rw [← V16_eq, ← V15_eq]; exact V16_of m (outsF m) c main_v0_0 (by decide)).trans
    ((show W15 m c main_v0_0 = W14 m c main_v0_0 from by rw [← V15_eq, ← V14_eq]; exact V15_of m (outsF m) c main_v0_0 (by decide)).trans
    ((show W14 m c main_v0_0 = W13 m c main_v0_0 from by rw [← V14_eq, ← V13_eq]; exact V14_of m (outsF m) c main_v0_0 (by decide)).trans
    ((show W13 m c main_v0_0 = W12 m c main_v0_0 from by rw [← V13_eq, ← V12_eq]; exact V13_of m (outsF m) c main_v0_0 (by decide)).trans
    ((show W12 m c main_v0_0 = W11 m c main_v0_0 from by rw [← V12_eq, ← V11_eq]; exact V12_of m (outsF m) c main_v0_0 (by decide)).trans
    ((show W11 m c main_v0_0 = W10 m c main_v0_0 from by rw [← V11_eq, ← V10_eq]; exact V11_of m (outsF m) c main_v0_0 (by decide)).trans
    ((show W10 m c main_v0_0 = W9 m c main_v0_0 from by rw [← V10_eq, ← V9_eq]; exact V10_of m (outsF m) c main_v0_0 (by decide)).trans
    ((show W9 m c main_v0_0 = W8 m c main_v0_0 from by rw [← V9_eq, ← V8_eq]; exact V9_of m (outsF m) c main_v0_0 (by decide)).trans
    ((show W8 m c main_v0_0 = W7 m c main_v0_0 from by rw [← V8_eq, ← V7_eq]; exact V8_of m (outsF m) c main_v0_0 (by decide)).trans
    ((show W7 m c main_v0_0 = W6 m c main_v0_0 from by rw [← V7_eq, ← V6_eq]; exact V7_of m (outsF m) c main_v0_0 (by decide)).trans
    ((show W6 m c main_v0_0 = W5 m c main_v0_0 from by rw [← V6_eq, ← V5_eq]; exact V6_of m (outsF m) c main_v0_0 (by decide)).trans
    ((show W5 m c main_v0_0 = W4 m c main_v0_0 from by rw [← V5_eq, ← V4_eq]; exact V5_of m (outsF m) c main_v0_0 (by decide)).trans
    ((show W4 m c main_v0_0 = W3 m c main_v0_0 from by rw [← V4_eq, ← V3_eq]; exact V4_of m (outsF m) c main_v0_0 (by decide)).trans
    ((show W3 m c main_v0_0 = W2 m c main_v0_0 from by rw [← V3_eq, ← V2_eq]; exact V3_of m (outsF m) c main_v0_0 (by decide)).trans
    ((show W2 m c main_v0_0 = W1 m c main_v0_0 from by rw [← V2_eq, ← V1_eq]; exact V2_of m (outsF m) c main_v0_0 (by decide)))))))))))))))))))))))))))))))))

theorem keep_r_1 (c : Dev nD) : W31 m c main_v25 = W4 m c main_v25 :=
  (show W31 m c main_v25 = W30 m c main_v25 from by rw [← V31_eq, ← V30_eq]; exact V31_of m (outsF m) c main_v25 (by decide)).trans
    ((show W30 m c main_v25 = W29 m c main_v25 from by rw [← V30_eq, ← V29_eq]; exact V30_of m (outsF m) c main_v25 (by decide)).trans
    ((show W29 m c main_v25 = W28 m c main_v25 from by rw [← V29_eq, ← V28_eq]; exact V29_of m (outsF m) c main_v25 (by decide)).trans
    ((show W28 m c main_v25 = W27 m c main_v25 from by rw [← V28_eq, ← V27_eq]; exact V28_of m (outsF m) c main_v25 (by decide)).trans
    ((show W27 m c main_v25 = W26 m c main_v25 from by rw [← V27_eq, ← V26_eq]; exact V27_of m (outsF m) c main_v25 (by decide)).trans
    ((show W26 m c main_v25 = W25 m c main_v25 from by rw [← V26_eq, ← V25_eq]; exact V26_of m (outsF m) c main_v25 (by decide)).trans
    ((show W25 m c main_v25 = W24 m c main_v25 from by rw [← V25_eq, ← V24_eq]; exact V25_of m (outsF m) c main_v25 (by decide)).trans
    ((show W24 m c main_v25 = W23 m c main_v25 from by rw [← V24_eq, ← V23_eq]; exact V24_of m (outsF m) c main_v25 (by decide)).trans
    ((show W23 m c main_v25 = W22 m c main_v25 from by rw [← V23_eq, ← V22_eq]; exact V23_of m (outsF m) c main_v25 (by decide)).trans
    ((show W22 m c main_v25 = W21 m c main_v25 from by rw [← V22_eq, ← V21_eq]; exact V22_of m (outsF m) c main_v25 (by decide)).trans
    ((show W21 m c main_v25 = W20 m c main_v25 from by rw [← V21_eq, ← V20_eq]; exact V21_of m (outsF m) c main_v25 (by decide)).trans
    ((show W20 m c main_v25 = W19 m c main_v25 from by rw [← V20_eq, ← V19_eq]; exact V20_of m (outsF m) c main_v25 (by decide)).trans
    ((show W19 m c main_v25 = W18 m c main_v25 from by rw [← V19_eq, ← V18_eq]; exact V19_of m (outsF m) c main_v25 (by decide)).trans
    ((show W18 m c main_v25 = W17 m c main_v25 from by rw [← V18_eq, ← V17_eq]; exact V18_of m (outsF m) c main_v25 (by decide)).trans
    ((show W17 m c main_v25 = W16 m c main_v25 from by rw [← V17_eq, ← V16_eq]; exact V17_of m (outsF m) c main_v25 (by decide)).trans
    ((show W16 m c main_v25 = W15 m c main_v25 from by rw [← V16_eq, ← V15_eq]; exact V16_of m (outsF m) c main_v25 (by decide)).trans
    ((show W15 m c main_v25 = W14 m c main_v25 from by rw [← V15_eq, ← V14_eq]; exact V15_of m (outsF m) c main_v25 (by decide)).trans
    ((show W14 m c main_v25 = W13 m c main_v25 from by rw [← V14_eq, ← V13_eq]; exact V14_of m (outsF m) c main_v25 (by decide)).trans
    ((show W13 m c main_v25 = W12 m c main_v25 from by rw [← V13_eq, ← V12_eq]; exact V13_of m (outsF m) c main_v25 (by decide)).trans
    ((show W12 m c main_v25 = W11 m c main_v25 from by rw [← V12_eq, ← V11_eq]; exact V12_of m (outsF m) c main_v25 (by decide)).trans
    ((show W11 m c main_v25 = W10 m c main_v25 from by rw [← V11_eq, ← V10_eq]; exact V11_of m (outsF m) c main_v25 (by decide)).trans
    ((show W10 m c main_v25 = W9 m c main_v25 from by rw [← V10_eq, ← V9_eq]; exact V10_of m (outsF m) c main_v25 (by decide)).trans
    ((show W9 m c main_v25 = W8 m c main_v25 from by rw [← V9_eq, ← V8_eq]; exact V9_of m (outsF m) c main_v25 (by decide)).trans
    ((show W8 m c main_v25 = W7 m c main_v25 from by rw [← V8_eq, ← V7_eq]; exact V8_of m (outsF m) c main_v25 (by decide)).trans
    ((show W7 m c main_v25 = W6 m c main_v25 from by rw [← V7_eq, ← V6_eq]; exact V7_of m (outsF m) c main_v25 (by decide)).trans
    ((show W6 m c main_v25 = W5 m c main_v25 from by rw [← V6_eq, ← V5_eq]; exact V6_of m (outsF m) c main_v25 (by decide)).trans
    ((show W5 m c main_v25 = W4 m c main_v25 from by rw [← V5_eq, ← V4_eq]; exact V5_of m (outsF m) c main_v25 (by decide))))))))))))))))))))))))))))

theorem keep_v1_2 (c : Dev nD) : W4 m c main_v1 = W2 m c main_v1 :=
  (show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))

theorem keep_v14_2 (c : Dev nD) : W3 m c main_v14 = W2 m c main_v14 :=
  (show W3 m c main_v14 = W2 m c main_v14 from by rw [← V3_eq, ← V2_eq]; exact V3_of m (outsF m) c main_v14 (by decide))

theorem keep_v21_2 (c : Dev nD) : W3 m c main_v21 = W2 m c main_v21 :=
  (show W3 m c main_v21 = W2 m c main_v21 from by rw [← V3_eq, ← V2_eq]; exact V3_of m (outsF m) c main_v21 (by decide))

theorem keep_r_2 (c : Dev nD) : W31 m c main_v29 = W6 m c main_v29 :=
  (show W31 m c main_v29 = W30 m c main_v29 from by rw [← V31_eq, ← V30_eq]; exact V31_of m (outsF m) c main_v29 (by decide)).trans
    ((show W30 m c main_v29 = W29 m c main_v29 from by rw [← V30_eq, ← V29_eq]; exact V30_of m (outsF m) c main_v29 (by decide)).trans
    ((show W29 m c main_v29 = W28 m c main_v29 from by rw [← V29_eq, ← V28_eq]; exact V29_of m (outsF m) c main_v29 (by decide)).trans
    ((show W28 m c main_v29 = W27 m c main_v29 from by rw [← V28_eq, ← V27_eq]; exact V28_of m (outsF m) c main_v29 (by decide)).trans
    ((show W27 m c main_v29 = W26 m c main_v29 from by rw [← V27_eq, ← V26_eq]; exact V27_of m (outsF m) c main_v29 (by decide)).trans
    ((show W26 m c main_v29 = W25 m c main_v29 from by rw [← V26_eq, ← V25_eq]; exact V26_of m (outsF m) c main_v29 (by decide)).trans
    ((show W25 m c main_v29 = W24 m c main_v29 from by rw [← V25_eq, ← V24_eq]; exact V25_of m (outsF m) c main_v29 (by decide)).trans
    ((show W24 m c main_v29 = W23 m c main_v29 from by rw [← V24_eq, ← V23_eq]; exact V24_of m (outsF m) c main_v29 (by decide)).trans
    ((show W23 m c main_v29 = W22 m c main_v29 from by rw [← V23_eq, ← V22_eq]; exact V23_of m (outsF m) c main_v29 (by decide)).trans
    ((show W22 m c main_v29 = W21 m c main_v29 from by rw [← V22_eq, ← V21_eq]; exact V22_of m (outsF m) c main_v29 (by decide)).trans
    ((show W21 m c main_v29 = W20 m c main_v29 from by rw [← V21_eq, ← V20_eq]; exact V21_of m (outsF m) c main_v29 (by decide)).trans
    ((show W20 m c main_v29 = W19 m c main_v29 from by rw [← V20_eq, ← V19_eq]; exact V20_of m (outsF m) c main_v29 (by decide)).trans
    ((show W19 m c main_v29 = W18 m c main_v29 from by rw [← V19_eq, ← V18_eq]; exact V19_of m (outsF m) c main_v29 (by decide)).trans
    ((show W18 m c main_v29 = W17 m c main_v29 from by rw [← V18_eq, ← V17_eq]; exact V18_of m (outsF m) c main_v29 (by decide)).trans
    ((show W17 m c main_v29 = W16 m c main_v29 from by rw [← V17_eq, ← V16_eq]; exact V17_of m (outsF m) c main_v29 (by decide)).trans
    ((show W16 m c main_v29 = W15 m c main_v29 from by rw [← V16_eq, ← V15_eq]; exact V16_of m (outsF m) c main_v29 (by decide)).trans
    ((show W15 m c main_v29 = W14 m c main_v29 from by rw [← V15_eq, ← V14_eq]; exact V15_of m (outsF m) c main_v29 (by decide)).trans
    ((show W14 m c main_v29 = W13 m c main_v29 from by rw [← V14_eq, ← V13_eq]; exact V14_of m (outsF m) c main_v29 (by decide)).trans
    ((show W13 m c main_v29 = W12 m c main_v29 from by rw [← V13_eq, ← V12_eq]; exact V13_of m (outsF m) c main_v29 (by decide)).trans
    ((show W12 m c main_v29 = W11 m c main_v29 from by rw [← V12_eq, ← V11_eq]; exact V12_of m (outsF m) c main_v29 (by decide)).trans
    ((show W11 m c main_v29 = W10 m c main_v29 from by rw [← V11_eq, ← V10_eq]; exact V11_of m (outsF m) c main_v29 (by decide)).trans
    ((show W10 m c main_v29 = W9 m c main_v29 from by rw [← V10_eq, ← V9_eq]; exact V10_of m (outsF m) c main_v29 (by decide)).trans
    ((show W9 m c main_v29 = W8 m c main_v29 from by rw [← V9_eq, ← V8_eq]; exact V9_of m (outsF m) c main_v29 (by decide)).trans
    ((show W8 m c main_v29 = W7 m c main_v29 from by rw [← V8_eq, ← V7_eq]; exact V8_of m (outsF m) c main_v29 (by decide)).trans
    ((show W7 m c main_v29 = W6 m c main_v29 from by rw [← V7_eq, ← V6_eq]; exact V7_of m (outsF m) c main_v29 (by decide))))))))))))))))))))))))))

theorem keep_v1_3 (c : Dev nD) : W6 m c main_v1 = W2 m c main_v1 :=
  (show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))

theorem keep_v14_3 (c : Dev nD) : W5 m c main_v14 = W2 m c main_v14 :=
  (show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))

theorem keep_v21_3 (c : Dev nD) : W5 m c main_v21 = W2 m c main_v21 :=
  (show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))

theorem keep_r_3 (c : Dev nD) : W31 m c main_v33 = W8 m c main_v33 :=
  (show W31 m c main_v33 = W30 m c main_v33 from by rw [← V31_eq, ← V30_eq]; exact V31_of m (outsF m) c main_v33 (by decide)).trans
    ((show W30 m c main_v33 = W29 m c main_v33 from by rw [← V30_eq, ← V29_eq]; exact V30_of m (outsF m) c main_v33 (by decide)).trans
    ((show W29 m c main_v33 = W28 m c main_v33 from by rw [← V29_eq, ← V28_eq]; exact V29_of m (outsF m) c main_v33 (by decide)).trans
    ((show W28 m c main_v33 = W27 m c main_v33 from by rw [← V28_eq, ← V27_eq]; exact V28_of m (outsF m) c main_v33 (by decide)).trans
    ((show W27 m c main_v33 = W26 m c main_v33 from by rw [← V27_eq, ← V26_eq]; exact V27_of m (outsF m) c main_v33 (by decide)).trans
    ((show W26 m c main_v33 = W25 m c main_v33 from by rw [← V26_eq, ← V25_eq]; exact V26_of m (outsF m) c main_v33 (by decide)).trans
    ((show W25 m c main_v33 = W24 m c main_v33 from by rw [← V25_eq, ← V24_eq]; exact V25_of m (outsF m) c main_v33 (by decide)).trans
    ((show W24 m c main_v33 = W23 m c main_v33 from by rw [← V24_eq, ← V23_eq]; exact V24_of m (outsF m) c main_v33 (by decide)).trans
    ((show W23 m c main_v33 = W22 m c main_v33 from by rw [← V23_eq, ← V22_eq]; exact V23_of m (outsF m) c main_v33 (by decide)).trans
    ((show W22 m c main_v33 = W21 m c main_v33 from by rw [← V22_eq, ← V21_eq]; exact V22_of m (outsF m) c main_v33 (by decide)).trans
    ((show W21 m c main_v33 = W20 m c main_v33 from by rw [← V21_eq, ← V20_eq]; exact V21_of m (outsF m) c main_v33 (by decide)).trans
    ((show W20 m c main_v33 = W19 m c main_v33 from by rw [← V20_eq, ← V19_eq]; exact V20_of m (outsF m) c main_v33 (by decide)).trans
    ((show W19 m c main_v33 = W18 m c main_v33 from by rw [← V19_eq, ← V18_eq]; exact V19_of m (outsF m) c main_v33 (by decide)).trans
    ((show W18 m c main_v33 = W17 m c main_v33 from by rw [← V18_eq, ← V17_eq]; exact V18_of m (outsF m) c main_v33 (by decide)).trans
    ((show W17 m c main_v33 = W16 m c main_v33 from by rw [← V17_eq, ← V16_eq]; exact V17_of m (outsF m) c main_v33 (by decide)).trans
    ((show W16 m c main_v33 = W15 m c main_v33 from by rw [← V16_eq, ← V15_eq]; exact V16_of m (outsF m) c main_v33 (by decide)).trans
    ((show W15 m c main_v33 = W14 m c main_v33 from by rw [← V15_eq, ← V14_eq]; exact V15_of m (outsF m) c main_v33 (by decide)).trans
    ((show W14 m c main_v33 = W13 m c main_v33 from by rw [← V14_eq, ← V13_eq]; exact V14_of m (outsF m) c main_v33 (by decide)).trans
    ((show W13 m c main_v33 = W12 m c main_v33 from by rw [← V13_eq, ← V12_eq]; exact V13_of m (outsF m) c main_v33 (by decide)).trans
    ((show W12 m c main_v33 = W11 m c main_v33 from by rw [← V12_eq, ← V11_eq]; exact V12_of m (outsF m) c main_v33 (by decide)).trans
    ((show W11 m c main_v33 = W10 m c main_v33 from by rw [← V11_eq, ← V10_eq]; exact V11_of m (outsF m) c main_v33 (by decide)).trans
    ((show W10 m c main_v33 = W9 m c main_v33 from by rw [← V10_eq, ← V9_eq]; exact V10_of m (outsF m) c main_v33 (by decide)).trans
    ((show W9 m c main_v33 = W8 m c main_v33 from by rw [← V9_eq, ← V8_eq]; exact V9_of m (outsF m) c main_v33 (by decide))))))))))))))))))))))))

theorem keep_v1_4 (c : Dev nD) : W8 m c main_v1 = W2 m c main_v1 :=
  (show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))

theorem keep_v14_4 (c : Dev nD) : W7 m c main_v14 = W2 m c main_v14 :=
  (show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))

theorem keep_v21_4 (c : Dev nD) : W7 m c main_v21 = W2 m c main_v21 :=
  (show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))

theorem keep_r_4 (c : Dev nD) : W31 m c main_v37 = W10 m c main_v37 :=
  (show W31 m c main_v37 = W30 m c main_v37 from by rw [← V31_eq, ← V30_eq]; exact V31_of m (outsF m) c main_v37 (by decide)).trans
    ((show W30 m c main_v37 = W29 m c main_v37 from by rw [← V30_eq, ← V29_eq]; exact V30_of m (outsF m) c main_v37 (by decide)).trans
    ((show W29 m c main_v37 = W28 m c main_v37 from by rw [← V29_eq, ← V28_eq]; exact V29_of m (outsF m) c main_v37 (by decide)).trans
    ((show W28 m c main_v37 = W27 m c main_v37 from by rw [← V28_eq, ← V27_eq]; exact V28_of m (outsF m) c main_v37 (by decide)).trans
    ((show W27 m c main_v37 = W26 m c main_v37 from by rw [← V27_eq, ← V26_eq]; exact V27_of m (outsF m) c main_v37 (by decide)).trans
    ((show W26 m c main_v37 = W25 m c main_v37 from by rw [← V26_eq, ← V25_eq]; exact V26_of m (outsF m) c main_v37 (by decide)).trans
    ((show W25 m c main_v37 = W24 m c main_v37 from by rw [← V25_eq, ← V24_eq]; exact V25_of m (outsF m) c main_v37 (by decide)).trans
    ((show W24 m c main_v37 = W23 m c main_v37 from by rw [← V24_eq, ← V23_eq]; exact V24_of m (outsF m) c main_v37 (by decide)).trans
    ((show W23 m c main_v37 = W22 m c main_v37 from by rw [← V23_eq, ← V22_eq]; exact V23_of m (outsF m) c main_v37 (by decide)).trans
    ((show W22 m c main_v37 = W21 m c main_v37 from by rw [← V22_eq, ← V21_eq]; exact V22_of m (outsF m) c main_v37 (by decide)).trans
    ((show W21 m c main_v37 = W20 m c main_v37 from by rw [← V21_eq, ← V20_eq]; exact V21_of m (outsF m) c main_v37 (by decide)).trans
    ((show W20 m c main_v37 = W19 m c main_v37 from by rw [← V20_eq, ← V19_eq]; exact V20_of m (outsF m) c main_v37 (by decide)).trans
    ((show W19 m c main_v37 = W18 m c main_v37 from by rw [← V19_eq, ← V18_eq]; exact V19_of m (outsF m) c main_v37 (by decide)).trans
    ((show W18 m c main_v37 = W17 m c main_v37 from by rw [← V18_eq, ← V17_eq]; exact V18_of m (outsF m) c main_v37 (by decide)).trans
    ((show W17 m c main_v37 = W16 m c main_v37 from by rw [← V17_eq, ← V16_eq]; exact V17_of m (outsF m) c main_v37 (by decide)).trans
    ((show W16 m c main_v37 = W15 m c main_v37 from by rw [← V16_eq, ← V15_eq]; exact V16_of m (outsF m) c main_v37 (by decide)).trans
    ((show W15 m c main_v37 = W14 m c main_v37 from by rw [← V15_eq, ← V14_eq]; exact V15_of m (outsF m) c main_v37 (by decide)).trans
    ((show W14 m c main_v37 = W13 m c main_v37 from by rw [← V14_eq, ← V13_eq]; exact V14_of m (outsF m) c main_v37 (by decide)).trans
    ((show W13 m c main_v37 = W12 m c main_v37 from by rw [← V13_eq, ← V12_eq]; exact V13_of m (outsF m) c main_v37 (by decide)).trans
    ((show W12 m c main_v37 = W11 m c main_v37 from by rw [← V12_eq, ← V11_eq]; exact V12_of m (outsF m) c main_v37 (by decide)).trans
    ((show W11 m c main_v37 = W10 m c main_v37 from by rw [← V11_eq, ← V10_eq]; exact V11_of m (outsF m) c main_v37 (by decide))))))))))))))))))))))

theorem keep_v1_5 (c : Dev nD) : W10 m c main_v1 = W2 m c main_v1 :=
  (show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))

theorem keep_v14_5 (c : Dev nD) : W9 m c main_v14 = W2 m c main_v14 :=
  (show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))

theorem keep_v21_5 (c : Dev nD) : W9 m c main_v21 = W2 m c main_v21 :=
  (show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))

theorem keep_r_5 (c : Dev nD) : W31 m c main_v41 = W12 m c main_v41 :=
  (show W31 m c main_v41 = W30 m c main_v41 from by rw [← V31_eq, ← V30_eq]; exact V31_of m (outsF m) c main_v41 (by decide)).trans
    ((show W30 m c main_v41 = W29 m c main_v41 from by rw [← V30_eq, ← V29_eq]; exact V30_of m (outsF m) c main_v41 (by decide)).trans
    ((show W29 m c main_v41 = W28 m c main_v41 from by rw [← V29_eq, ← V28_eq]; exact V29_of m (outsF m) c main_v41 (by decide)).trans
    ((show W28 m c main_v41 = W27 m c main_v41 from by rw [← V28_eq, ← V27_eq]; exact V28_of m (outsF m) c main_v41 (by decide)).trans
    ((show W27 m c main_v41 = W26 m c main_v41 from by rw [← V27_eq, ← V26_eq]; exact V27_of m (outsF m) c main_v41 (by decide)).trans
    ((show W26 m c main_v41 = W25 m c main_v41 from by rw [← V26_eq, ← V25_eq]; exact V26_of m (outsF m) c main_v41 (by decide)).trans
    ((show W25 m c main_v41 = W24 m c main_v41 from by rw [← V25_eq, ← V24_eq]; exact V25_of m (outsF m) c main_v41 (by decide)).trans
    ((show W24 m c main_v41 = W23 m c main_v41 from by rw [← V24_eq, ← V23_eq]; exact V24_of m (outsF m) c main_v41 (by decide)).trans
    ((show W23 m c main_v41 = W22 m c main_v41 from by rw [← V23_eq, ← V22_eq]; exact V23_of m (outsF m) c main_v41 (by decide)).trans
    ((show W22 m c main_v41 = W21 m c main_v41 from by rw [← V22_eq, ← V21_eq]; exact V22_of m (outsF m) c main_v41 (by decide)).trans
    ((show W21 m c main_v41 = W20 m c main_v41 from by rw [← V21_eq, ← V20_eq]; exact V21_of m (outsF m) c main_v41 (by decide)).trans
    ((show W20 m c main_v41 = W19 m c main_v41 from by rw [← V20_eq, ← V19_eq]; exact V20_of m (outsF m) c main_v41 (by decide)).trans
    ((show W19 m c main_v41 = W18 m c main_v41 from by rw [← V19_eq, ← V18_eq]; exact V19_of m (outsF m) c main_v41 (by decide)).trans
    ((show W18 m c main_v41 = W17 m c main_v41 from by rw [← V18_eq, ← V17_eq]; exact V18_of m (outsF m) c main_v41 (by decide)).trans
    ((show W17 m c main_v41 = W16 m c main_v41 from by rw [← V17_eq, ← V16_eq]; exact V17_of m (outsF m) c main_v41 (by decide)).trans
    ((show W16 m c main_v41 = W15 m c main_v41 from by rw [← V16_eq, ← V15_eq]; exact V16_of m (outsF m) c main_v41 (by decide)).trans
    ((show W15 m c main_v41 = W14 m c main_v41 from by rw [← V15_eq, ← V14_eq]; exact V15_of m (outsF m) c main_v41 (by decide)).trans
    ((show W14 m c main_v41 = W13 m c main_v41 from by rw [← V14_eq, ← V13_eq]; exact V14_of m (outsF m) c main_v41 (by decide)).trans
    ((show W13 m c main_v41 = W12 m c main_v41 from by rw [← V13_eq, ← V12_eq]; exact V13_of m (outsF m) c main_v41 (by decide))))))))))))))))))))

theorem keep_v1_6 (c : Dev nD) : W12 m c main_v1 = W2 m c main_v1 :=
  (show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))

theorem keep_v14_6 (c : Dev nD) : W11 m c main_v14 = W2 m c main_v14 :=
  (show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))

theorem keep_v21_6 (c : Dev nD) : W11 m c main_v21 = W2 m c main_v21 :=
  (show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))

theorem keep_r_6 (c : Dev nD) : W31 m c main_v45 = W14 m c main_v45 :=
  (show W31 m c main_v45 = W30 m c main_v45 from by rw [← V31_eq, ← V30_eq]; exact V31_of m (outsF m) c main_v45 (by decide)).trans
    ((show W30 m c main_v45 = W29 m c main_v45 from by rw [← V30_eq, ← V29_eq]; exact V30_of m (outsF m) c main_v45 (by decide)).trans
    ((show W29 m c main_v45 = W28 m c main_v45 from by rw [← V29_eq, ← V28_eq]; exact V29_of m (outsF m) c main_v45 (by decide)).trans
    ((show W28 m c main_v45 = W27 m c main_v45 from by rw [← V28_eq, ← V27_eq]; exact V28_of m (outsF m) c main_v45 (by decide)).trans
    ((show W27 m c main_v45 = W26 m c main_v45 from by rw [← V27_eq, ← V26_eq]; exact V27_of m (outsF m) c main_v45 (by decide)).trans
    ((show W26 m c main_v45 = W25 m c main_v45 from by rw [← V26_eq, ← V25_eq]; exact V26_of m (outsF m) c main_v45 (by decide)).trans
    ((show W25 m c main_v45 = W24 m c main_v45 from by rw [← V25_eq, ← V24_eq]; exact V25_of m (outsF m) c main_v45 (by decide)).trans
    ((show W24 m c main_v45 = W23 m c main_v45 from by rw [← V24_eq, ← V23_eq]; exact V24_of m (outsF m) c main_v45 (by decide)).trans
    ((show W23 m c main_v45 = W22 m c main_v45 from by rw [← V23_eq, ← V22_eq]; exact V23_of m (outsF m) c main_v45 (by decide)).trans
    ((show W22 m c main_v45 = W21 m c main_v45 from by rw [← V22_eq, ← V21_eq]; exact V22_of m (outsF m) c main_v45 (by decide)).trans
    ((show W21 m c main_v45 = W20 m c main_v45 from by rw [← V21_eq, ← V20_eq]; exact V21_of m (outsF m) c main_v45 (by decide)).trans
    ((show W20 m c main_v45 = W19 m c main_v45 from by rw [← V20_eq, ← V19_eq]; exact V20_of m (outsF m) c main_v45 (by decide)).trans
    ((show W19 m c main_v45 = W18 m c main_v45 from by rw [← V19_eq, ← V18_eq]; exact V19_of m (outsF m) c main_v45 (by decide)).trans
    ((show W18 m c main_v45 = W17 m c main_v45 from by rw [← V18_eq, ← V17_eq]; exact V18_of m (outsF m) c main_v45 (by decide)).trans
    ((show W17 m c main_v45 = W16 m c main_v45 from by rw [← V17_eq, ← V16_eq]; exact V17_of m (outsF m) c main_v45 (by decide)).trans
    ((show W16 m c main_v45 = W15 m c main_v45 from by rw [← V16_eq, ← V15_eq]; exact V16_of m (outsF m) c main_v45 (by decide)).trans
    ((show W15 m c main_v45 = W14 m c main_v45 from by rw [← V15_eq, ← V14_eq]; exact V15_of m (outsF m) c main_v45 (by decide))))))))))))))))))

theorem keep_v1_7 (c : Dev nD) : W14 m c main_v1 = W2 m c main_v1 :=
  (show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))

theorem keep_v14_7 (c : Dev nD) : W13 m c main_v14 = W2 m c main_v14 :=
  (show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))

theorem keep_v21_7 (c : Dev nD) : W13 m c main_v21 = W2 m c main_v21 :=
  (show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))

theorem keep_r_7 (c : Dev nD) : W31 m c main_v49 = W16 m c main_v49 :=
  (show W31 m c main_v49 = W30 m c main_v49 from by rw [← V31_eq, ← V30_eq]; exact V31_of m (outsF m) c main_v49 (by decide)).trans
    ((show W30 m c main_v49 = W29 m c main_v49 from by rw [← V30_eq, ← V29_eq]; exact V30_of m (outsF m) c main_v49 (by decide)).trans
    ((show W29 m c main_v49 = W28 m c main_v49 from by rw [← V29_eq, ← V28_eq]; exact V29_of m (outsF m) c main_v49 (by decide)).trans
    ((show W28 m c main_v49 = W27 m c main_v49 from by rw [← V28_eq, ← V27_eq]; exact V28_of m (outsF m) c main_v49 (by decide)).trans
    ((show W27 m c main_v49 = W26 m c main_v49 from by rw [← V27_eq, ← V26_eq]; exact V27_of m (outsF m) c main_v49 (by decide)).trans
    ((show W26 m c main_v49 = W25 m c main_v49 from by rw [← V26_eq, ← V25_eq]; exact V26_of m (outsF m) c main_v49 (by decide)).trans
    ((show W25 m c main_v49 = W24 m c main_v49 from by rw [← V25_eq, ← V24_eq]; exact V25_of m (outsF m) c main_v49 (by decide)).trans
    ((show W24 m c main_v49 = W23 m c main_v49 from by rw [← V24_eq, ← V23_eq]; exact V24_of m (outsF m) c main_v49 (by decide)).trans
    ((show W23 m c main_v49 = W22 m c main_v49 from by rw [← V23_eq, ← V22_eq]; exact V23_of m (outsF m) c main_v49 (by decide)).trans
    ((show W22 m c main_v49 = W21 m c main_v49 from by rw [← V22_eq, ← V21_eq]; exact V22_of m (outsF m) c main_v49 (by decide)).trans
    ((show W21 m c main_v49 = W20 m c main_v49 from by rw [← V21_eq, ← V20_eq]; exact V21_of m (outsF m) c main_v49 (by decide)).trans
    ((show W20 m c main_v49 = W19 m c main_v49 from by rw [← V20_eq, ← V19_eq]; exact V20_of m (outsF m) c main_v49 (by decide)).trans
    ((show W19 m c main_v49 = W18 m c main_v49 from by rw [← V19_eq, ← V18_eq]; exact V19_of m (outsF m) c main_v49 (by decide)).trans
    ((show W18 m c main_v49 = W17 m c main_v49 from by rw [← V18_eq, ← V17_eq]; exact V18_of m (outsF m) c main_v49 (by decide)).trans
    ((show W17 m c main_v49 = W16 m c main_v49 from by rw [← V17_eq, ← V16_eq]; exact V17_of m (outsF m) c main_v49 (by decide))))))))))))))))

theorem keep_v1_8 (c : Dev nD) : W16 m c main_v1 = W2 m c main_v1 :=
  (show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))

theorem keep_v14_8 (c : Dev nD) : W15 m c main_v14 = W2 m c main_v14 :=
  (show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))

theorem keep_v21_8 (c : Dev nD) : W15 m c main_v21 = W2 m c main_v21 :=
  (show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))

theorem keep_r_8 (c : Dev nD) : W31 m c main_v53 = W18 m c main_v53 :=
  (show W31 m c main_v53 = W30 m c main_v53 from by rw [← V31_eq, ← V30_eq]; exact V31_of m (outsF m) c main_v53 (by decide)).trans
    ((show W30 m c main_v53 = W29 m c main_v53 from by rw [← V30_eq, ← V29_eq]; exact V30_of m (outsF m) c main_v53 (by decide)).trans
    ((show W29 m c main_v53 = W28 m c main_v53 from by rw [← V29_eq, ← V28_eq]; exact V29_of m (outsF m) c main_v53 (by decide)).trans
    ((show W28 m c main_v53 = W27 m c main_v53 from by rw [← V28_eq, ← V27_eq]; exact V28_of m (outsF m) c main_v53 (by decide)).trans
    ((show W27 m c main_v53 = W26 m c main_v53 from by rw [← V27_eq, ← V26_eq]; exact V27_of m (outsF m) c main_v53 (by decide)).trans
    ((show W26 m c main_v53 = W25 m c main_v53 from by rw [← V26_eq, ← V25_eq]; exact V26_of m (outsF m) c main_v53 (by decide)).trans
    ((show W25 m c main_v53 = W24 m c main_v53 from by rw [← V25_eq, ← V24_eq]; exact V25_of m (outsF m) c main_v53 (by decide)).trans
    ((show W24 m c main_v53 = W23 m c main_v53 from by rw [← V24_eq, ← V23_eq]; exact V24_of m (outsF m) c main_v53 (by decide)).trans
    ((show W23 m c main_v53 = W22 m c main_v53 from by rw [← V23_eq, ← V22_eq]; exact V23_of m (outsF m) c main_v53 (by decide)).trans
    ((show W22 m c main_v53 = W21 m c main_v53 from by rw [← V22_eq, ← V21_eq]; exact V22_of m (outsF m) c main_v53 (by decide)).trans
    ((show W21 m c main_v53 = W20 m c main_v53 from by rw [← V21_eq, ← V20_eq]; exact V21_of m (outsF m) c main_v53 (by decide)).trans
    ((show W20 m c main_v53 = W19 m c main_v53 from by rw [← V20_eq, ← V19_eq]; exact V20_of m (outsF m) c main_v53 (by decide)).trans
    ((show W19 m c main_v53 = W18 m c main_v53 from by rw [← V19_eq, ← V18_eq]; exact V19_of m (outsF m) c main_v53 (by decide))))))))))))))

theorem keep_v1_9 (c : Dev nD) : W18 m c main_v1 = W2 m c main_v1 :=
  (show W18 m c main_v1 = W17 m c main_v1 from by rw [← V18_eq, ← V17_eq]; exact V18_of m (outsF m) c main_v1 (by decide)).trans
    ((show W17 m c main_v1 = W16 m c main_v1 from by rw [← V17_eq, ← V16_eq]; exact V17_of m (outsF m) c main_v1 (by decide)).trans
    ((show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))))

theorem keep_v14_9 (c : Dev nD) : W17 m c main_v14 = W2 m c main_v14 :=
  (show W17 m c main_v14 = W16 m c main_v14 from by rw [← V17_eq, ← V16_eq]; exact V17_of m (outsF m) c main_v14 (by decide)).trans
    ((show W16 m c main_v14 = W15 m c main_v14 from by rw [← V16_eq, ← V15_eq]; exact V16_of m (outsF m) c main_v14 (by decide)).trans
    ((show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))))

theorem keep_v21_9 (c : Dev nD) : W17 m c main_v21 = W2 m c main_v21 :=
  (show W17 m c main_v21 = W16 m c main_v21 from by rw [← V17_eq, ← V16_eq]; exact V17_of m (outsF m) c main_v21 (by decide)).trans
    ((show W16 m c main_v21 = W15 m c main_v21 from by rw [← V16_eq, ← V15_eq]; exact V16_of m (outsF m) c main_v21 (by decide)).trans
    ((show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))))

theorem keep_r_9 (c : Dev nD) : W31 m c main_v57 = W20 m c main_v57 :=
  (show W31 m c main_v57 = W30 m c main_v57 from by rw [← V31_eq, ← V30_eq]; exact V31_of m (outsF m) c main_v57 (by decide)).trans
    ((show W30 m c main_v57 = W29 m c main_v57 from by rw [← V30_eq, ← V29_eq]; exact V30_of m (outsF m) c main_v57 (by decide)).trans
    ((show W29 m c main_v57 = W28 m c main_v57 from by rw [← V29_eq, ← V28_eq]; exact V29_of m (outsF m) c main_v57 (by decide)).trans
    ((show W28 m c main_v57 = W27 m c main_v57 from by rw [← V28_eq, ← V27_eq]; exact V28_of m (outsF m) c main_v57 (by decide)).trans
    ((show W27 m c main_v57 = W26 m c main_v57 from by rw [← V27_eq, ← V26_eq]; exact V27_of m (outsF m) c main_v57 (by decide)).trans
    ((show W26 m c main_v57 = W25 m c main_v57 from by rw [← V26_eq, ← V25_eq]; exact V26_of m (outsF m) c main_v57 (by decide)).trans
    ((show W25 m c main_v57 = W24 m c main_v57 from by rw [← V25_eq, ← V24_eq]; exact V25_of m (outsF m) c main_v57 (by decide)).trans
    ((show W24 m c main_v57 = W23 m c main_v57 from by rw [← V24_eq, ← V23_eq]; exact V24_of m (outsF m) c main_v57 (by decide)).trans
    ((show W23 m c main_v57 = W22 m c main_v57 from by rw [← V23_eq, ← V22_eq]; exact V23_of m (outsF m) c main_v57 (by decide)).trans
    ((show W22 m c main_v57 = W21 m c main_v57 from by rw [← V22_eq, ← V21_eq]; exact V22_of m (outsF m) c main_v57 (by decide)).trans
    ((show W21 m c main_v57 = W20 m c main_v57 from by rw [← V21_eq, ← V20_eq]; exact V21_of m (outsF m) c main_v57 (by decide))))))))))))

theorem keep_v1_10 (c : Dev nD) : W20 m c main_v1 = W2 m c main_v1 :=
  (show W20 m c main_v1 = W19 m c main_v1 from by rw [← V20_eq, ← V19_eq]; exact V20_of m (outsF m) c main_v1 (by decide)).trans
    ((show W19 m c main_v1 = W18 m c main_v1 from by rw [← V19_eq, ← V18_eq]; exact V19_of m (outsF m) c main_v1 (by decide)).trans
    ((show W18 m c main_v1 = W17 m c main_v1 from by rw [← V18_eq, ← V17_eq]; exact V18_of m (outsF m) c main_v1 (by decide)).trans
    ((show W17 m c main_v1 = W16 m c main_v1 from by rw [← V17_eq, ← V16_eq]; exact V17_of m (outsF m) c main_v1 (by decide)).trans
    ((show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))))))

theorem keep_v14_10 (c : Dev nD) : W19 m c main_v14 = W2 m c main_v14 :=
  (show W19 m c main_v14 = W18 m c main_v14 from by rw [← V19_eq, ← V18_eq]; exact V19_of m (outsF m) c main_v14 (by decide)).trans
    ((show W18 m c main_v14 = W17 m c main_v14 from by rw [← V18_eq, ← V17_eq]; exact V18_of m (outsF m) c main_v14 (by decide)).trans
    ((show W17 m c main_v14 = W16 m c main_v14 from by rw [← V17_eq, ← V16_eq]; exact V17_of m (outsF m) c main_v14 (by decide)).trans
    ((show W16 m c main_v14 = W15 m c main_v14 from by rw [← V16_eq, ← V15_eq]; exact V16_of m (outsF m) c main_v14 (by decide)).trans
    ((show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))))))

theorem keep_v21_10 (c : Dev nD) : W19 m c main_v21 = W2 m c main_v21 :=
  (show W19 m c main_v21 = W18 m c main_v21 from by rw [← V19_eq, ← V18_eq]; exact V19_of m (outsF m) c main_v21 (by decide)).trans
    ((show W18 m c main_v21 = W17 m c main_v21 from by rw [← V18_eq, ← V17_eq]; exact V18_of m (outsF m) c main_v21 (by decide)).trans
    ((show W17 m c main_v21 = W16 m c main_v21 from by rw [← V17_eq, ← V16_eq]; exact V17_of m (outsF m) c main_v21 (by decide)).trans
    ((show W16 m c main_v21 = W15 m c main_v21 from by rw [← V16_eq, ← V15_eq]; exact V16_of m (outsF m) c main_v21 (by decide)).trans
    ((show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))))))

theorem keep_r_10 (c : Dev nD) : W31 m c main_v61 = W22 m c main_v61 :=
  (show W31 m c main_v61 = W30 m c main_v61 from by rw [← V31_eq, ← V30_eq]; exact V31_of m (outsF m) c main_v61 (by decide)).trans
    ((show W30 m c main_v61 = W29 m c main_v61 from by rw [← V30_eq, ← V29_eq]; exact V30_of m (outsF m) c main_v61 (by decide)).trans
    ((show W29 m c main_v61 = W28 m c main_v61 from by rw [← V29_eq, ← V28_eq]; exact V29_of m (outsF m) c main_v61 (by decide)).trans
    ((show W28 m c main_v61 = W27 m c main_v61 from by rw [← V28_eq, ← V27_eq]; exact V28_of m (outsF m) c main_v61 (by decide)).trans
    ((show W27 m c main_v61 = W26 m c main_v61 from by rw [← V27_eq, ← V26_eq]; exact V27_of m (outsF m) c main_v61 (by decide)).trans
    ((show W26 m c main_v61 = W25 m c main_v61 from by rw [← V26_eq, ← V25_eq]; exact V26_of m (outsF m) c main_v61 (by decide)).trans
    ((show W25 m c main_v61 = W24 m c main_v61 from by rw [← V25_eq, ← V24_eq]; exact V25_of m (outsF m) c main_v61 (by decide)).trans
    ((show W24 m c main_v61 = W23 m c main_v61 from by rw [← V24_eq, ← V23_eq]; exact V24_of m (outsF m) c main_v61 (by decide)).trans
    ((show W23 m c main_v61 = W22 m c main_v61 from by rw [← V23_eq, ← V22_eq]; exact V23_of m (outsF m) c main_v61 (by decide))))))))))

theorem keep_v1_11 (c : Dev nD) : W22 m c main_v1 = W2 m c main_v1 :=
  (show W22 m c main_v1 = W21 m c main_v1 from by rw [← V22_eq, ← V21_eq]; exact V22_of m (outsF m) c main_v1 (by decide)).trans
    ((show W21 m c main_v1 = W20 m c main_v1 from by rw [← V21_eq, ← V20_eq]; exact V21_of m (outsF m) c main_v1 (by decide)).trans
    ((show W20 m c main_v1 = W19 m c main_v1 from by rw [← V20_eq, ← V19_eq]; exact V20_of m (outsF m) c main_v1 (by decide)).trans
    ((show W19 m c main_v1 = W18 m c main_v1 from by rw [← V19_eq, ← V18_eq]; exact V19_of m (outsF m) c main_v1 (by decide)).trans
    ((show W18 m c main_v1 = W17 m c main_v1 from by rw [← V18_eq, ← V17_eq]; exact V18_of m (outsF m) c main_v1 (by decide)).trans
    ((show W17 m c main_v1 = W16 m c main_v1 from by rw [← V17_eq, ← V16_eq]; exact V17_of m (outsF m) c main_v1 (by decide)).trans
    ((show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))))))))

theorem keep_v14_11 (c : Dev nD) : W21 m c main_v14 = W2 m c main_v14 :=
  (show W21 m c main_v14 = W20 m c main_v14 from by rw [← V21_eq, ← V20_eq]; exact V21_of m (outsF m) c main_v14 (by decide)).trans
    ((show W20 m c main_v14 = W19 m c main_v14 from by rw [← V20_eq, ← V19_eq]; exact V20_of m (outsF m) c main_v14 (by decide)).trans
    ((show W19 m c main_v14 = W18 m c main_v14 from by rw [← V19_eq, ← V18_eq]; exact V19_of m (outsF m) c main_v14 (by decide)).trans
    ((show W18 m c main_v14 = W17 m c main_v14 from by rw [← V18_eq, ← V17_eq]; exact V18_of m (outsF m) c main_v14 (by decide)).trans
    ((show W17 m c main_v14 = W16 m c main_v14 from by rw [← V17_eq, ← V16_eq]; exact V17_of m (outsF m) c main_v14 (by decide)).trans
    ((show W16 m c main_v14 = W15 m c main_v14 from by rw [← V16_eq, ← V15_eq]; exact V16_of m (outsF m) c main_v14 (by decide)).trans
    ((show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))))))))

theorem keep_v21_11 (c : Dev nD) : W21 m c main_v21 = W2 m c main_v21 :=
  (show W21 m c main_v21 = W20 m c main_v21 from by rw [← V21_eq, ← V20_eq]; exact V21_of m (outsF m) c main_v21 (by decide)).trans
    ((show W20 m c main_v21 = W19 m c main_v21 from by rw [← V20_eq, ← V19_eq]; exact V20_of m (outsF m) c main_v21 (by decide)).trans
    ((show W19 m c main_v21 = W18 m c main_v21 from by rw [← V19_eq, ← V18_eq]; exact V19_of m (outsF m) c main_v21 (by decide)).trans
    ((show W18 m c main_v21 = W17 m c main_v21 from by rw [← V18_eq, ← V17_eq]; exact V18_of m (outsF m) c main_v21 (by decide)).trans
    ((show W17 m c main_v21 = W16 m c main_v21 from by rw [← V17_eq, ← V16_eq]; exact V17_of m (outsF m) c main_v21 (by decide)).trans
    ((show W16 m c main_v21 = W15 m c main_v21 from by rw [← V16_eq, ← V15_eq]; exact V16_of m (outsF m) c main_v21 (by decide)).trans
    ((show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))))))))

theorem keep_r_11 (c : Dev nD) : W31 m c main_v65 = W24 m c main_v65 :=
  (show W31 m c main_v65 = W30 m c main_v65 from by rw [← V31_eq, ← V30_eq]; exact V31_of m (outsF m) c main_v65 (by decide)).trans
    ((show W30 m c main_v65 = W29 m c main_v65 from by rw [← V30_eq, ← V29_eq]; exact V30_of m (outsF m) c main_v65 (by decide)).trans
    ((show W29 m c main_v65 = W28 m c main_v65 from by rw [← V29_eq, ← V28_eq]; exact V29_of m (outsF m) c main_v65 (by decide)).trans
    ((show W28 m c main_v65 = W27 m c main_v65 from by rw [← V28_eq, ← V27_eq]; exact V28_of m (outsF m) c main_v65 (by decide)).trans
    ((show W27 m c main_v65 = W26 m c main_v65 from by rw [← V27_eq, ← V26_eq]; exact V27_of m (outsF m) c main_v65 (by decide)).trans
    ((show W26 m c main_v65 = W25 m c main_v65 from by rw [← V26_eq, ← V25_eq]; exact V26_of m (outsF m) c main_v65 (by decide)).trans
    ((show W25 m c main_v65 = W24 m c main_v65 from by rw [← V25_eq, ← V24_eq]; exact V25_of m (outsF m) c main_v65 (by decide))))))))

theorem keep_v1_12 (c : Dev nD) : W24 m c main_v1 = W2 m c main_v1 :=
  (show W24 m c main_v1 = W23 m c main_v1 from by rw [← V24_eq, ← V23_eq]; exact V24_of m (outsF m) c main_v1 (by decide)).trans
    ((show W23 m c main_v1 = W22 m c main_v1 from by rw [← V23_eq, ← V22_eq]; exact V23_of m (outsF m) c main_v1 (by decide)).trans
    ((show W22 m c main_v1 = W21 m c main_v1 from by rw [← V22_eq, ← V21_eq]; exact V22_of m (outsF m) c main_v1 (by decide)).trans
    ((show W21 m c main_v1 = W20 m c main_v1 from by rw [← V21_eq, ← V20_eq]; exact V21_of m (outsF m) c main_v1 (by decide)).trans
    ((show W20 m c main_v1 = W19 m c main_v1 from by rw [← V20_eq, ← V19_eq]; exact V20_of m (outsF m) c main_v1 (by decide)).trans
    ((show W19 m c main_v1 = W18 m c main_v1 from by rw [← V19_eq, ← V18_eq]; exact V19_of m (outsF m) c main_v1 (by decide)).trans
    ((show W18 m c main_v1 = W17 m c main_v1 from by rw [← V18_eq, ← V17_eq]; exact V18_of m (outsF m) c main_v1 (by decide)).trans
    ((show W17 m c main_v1 = W16 m c main_v1 from by rw [← V17_eq, ← V16_eq]; exact V17_of m (outsF m) c main_v1 (by decide)).trans
    ((show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))))))))))

theorem keep_v14_12 (c : Dev nD) : W23 m c main_v14 = W2 m c main_v14 :=
  (show W23 m c main_v14 = W22 m c main_v14 from by rw [← V23_eq, ← V22_eq]; exact V23_of m (outsF m) c main_v14 (by decide)).trans
    ((show W22 m c main_v14 = W21 m c main_v14 from by rw [← V22_eq, ← V21_eq]; exact V22_of m (outsF m) c main_v14 (by decide)).trans
    ((show W21 m c main_v14 = W20 m c main_v14 from by rw [← V21_eq, ← V20_eq]; exact V21_of m (outsF m) c main_v14 (by decide)).trans
    ((show W20 m c main_v14 = W19 m c main_v14 from by rw [← V20_eq, ← V19_eq]; exact V20_of m (outsF m) c main_v14 (by decide)).trans
    ((show W19 m c main_v14 = W18 m c main_v14 from by rw [← V19_eq, ← V18_eq]; exact V19_of m (outsF m) c main_v14 (by decide)).trans
    ((show W18 m c main_v14 = W17 m c main_v14 from by rw [← V18_eq, ← V17_eq]; exact V18_of m (outsF m) c main_v14 (by decide)).trans
    ((show W17 m c main_v14 = W16 m c main_v14 from by rw [← V17_eq, ← V16_eq]; exact V17_of m (outsF m) c main_v14 (by decide)).trans
    ((show W16 m c main_v14 = W15 m c main_v14 from by rw [← V16_eq, ← V15_eq]; exact V16_of m (outsF m) c main_v14 (by decide)).trans
    ((show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))))))))))

theorem keep_v21_12 (c : Dev nD) : W23 m c main_v21 = W2 m c main_v21 :=
  (show W23 m c main_v21 = W22 m c main_v21 from by rw [← V23_eq, ← V22_eq]; exact V23_of m (outsF m) c main_v21 (by decide)).trans
    ((show W22 m c main_v21 = W21 m c main_v21 from by rw [← V22_eq, ← V21_eq]; exact V22_of m (outsF m) c main_v21 (by decide)).trans
    ((show W21 m c main_v21 = W20 m c main_v21 from by rw [← V21_eq, ← V20_eq]; exact V21_of m (outsF m) c main_v21 (by decide)).trans
    ((show W20 m c main_v21 = W19 m c main_v21 from by rw [← V20_eq, ← V19_eq]; exact V20_of m (outsF m) c main_v21 (by decide)).trans
    ((show W19 m c main_v21 = W18 m c main_v21 from by rw [← V19_eq, ← V18_eq]; exact V19_of m (outsF m) c main_v21 (by decide)).trans
    ((show W18 m c main_v21 = W17 m c main_v21 from by rw [← V18_eq, ← V17_eq]; exact V18_of m (outsF m) c main_v21 (by decide)).trans
    ((show W17 m c main_v21 = W16 m c main_v21 from by rw [← V17_eq, ← V16_eq]; exact V17_of m (outsF m) c main_v21 (by decide)).trans
    ((show W16 m c main_v21 = W15 m c main_v21 from by rw [← V16_eq, ← V15_eq]; exact V16_of m (outsF m) c main_v21 (by decide)).trans
    ((show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))))))))))

theorem keep_r_12 (c : Dev nD) : W31 m c main_v69 = W26 m c main_v69 :=
  (show W31 m c main_v69 = W30 m c main_v69 from by rw [← V31_eq, ← V30_eq]; exact V31_of m (outsF m) c main_v69 (by decide)).trans
    ((show W30 m c main_v69 = W29 m c main_v69 from by rw [← V30_eq, ← V29_eq]; exact V30_of m (outsF m) c main_v69 (by decide)).trans
    ((show W29 m c main_v69 = W28 m c main_v69 from by rw [← V29_eq, ← V28_eq]; exact V29_of m (outsF m) c main_v69 (by decide)).trans
    ((show W28 m c main_v69 = W27 m c main_v69 from by rw [← V28_eq, ← V27_eq]; exact V28_of m (outsF m) c main_v69 (by decide)).trans
    ((show W27 m c main_v69 = W26 m c main_v69 from by rw [← V27_eq, ← V26_eq]; exact V27_of m (outsF m) c main_v69 (by decide))))))

theorem keep_v1_13 (c : Dev nD) : W26 m c main_v1 = W2 m c main_v1 :=
  (show W26 m c main_v1 = W25 m c main_v1 from by rw [← V26_eq, ← V25_eq]; exact V26_of m (outsF m) c main_v1 (by decide)).trans
    ((show W25 m c main_v1 = W24 m c main_v1 from by rw [← V25_eq, ← V24_eq]; exact V25_of m (outsF m) c main_v1 (by decide)).trans
    ((show W24 m c main_v1 = W23 m c main_v1 from by rw [← V24_eq, ← V23_eq]; exact V24_of m (outsF m) c main_v1 (by decide)).trans
    ((show W23 m c main_v1 = W22 m c main_v1 from by rw [← V23_eq, ← V22_eq]; exact V23_of m (outsF m) c main_v1 (by decide)).trans
    ((show W22 m c main_v1 = W21 m c main_v1 from by rw [← V22_eq, ← V21_eq]; exact V22_of m (outsF m) c main_v1 (by decide)).trans
    ((show W21 m c main_v1 = W20 m c main_v1 from by rw [← V21_eq, ← V20_eq]; exact V21_of m (outsF m) c main_v1 (by decide)).trans
    ((show W20 m c main_v1 = W19 m c main_v1 from by rw [← V20_eq, ← V19_eq]; exact V20_of m (outsF m) c main_v1 (by decide)).trans
    ((show W19 m c main_v1 = W18 m c main_v1 from by rw [← V19_eq, ← V18_eq]; exact V19_of m (outsF m) c main_v1 (by decide)).trans
    ((show W18 m c main_v1 = W17 m c main_v1 from by rw [← V18_eq, ← V17_eq]; exact V18_of m (outsF m) c main_v1 (by decide)).trans
    ((show W17 m c main_v1 = W16 m c main_v1 from by rw [← V17_eq, ← V16_eq]; exact V17_of m (outsF m) c main_v1 (by decide)).trans
    ((show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))))))))))))

theorem keep_v14_13 (c : Dev nD) : W25 m c main_v14 = W2 m c main_v14 :=
  (show W25 m c main_v14 = W24 m c main_v14 from by rw [← V25_eq, ← V24_eq]; exact V25_of m (outsF m) c main_v14 (by decide)).trans
    ((show W24 m c main_v14 = W23 m c main_v14 from by rw [← V24_eq, ← V23_eq]; exact V24_of m (outsF m) c main_v14 (by decide)).trans
    ((show W23 m c main_v14 = W22 m c main_v14 from by rw [← V23_eq, ← V22_eq]; exact V23_of m (outsF m) c main_v14 (by decide)).trans
    ((show W22 m c main_v14 = W21 m c main_v14 from by rw [← V22_eq, ← V21_eq]; exact V22_of m (outsF m) c main_v14 (by decide)).trans
    ((show W21 m c main_v14 = W20 m c main_v14 from by rw [← V21_eq, ← V20_eq]; exact V21_of m (outsF m) c main_v14 (by decide)).trans
    ((show W20 m c main_v14 = W19 m c main_v14 from by rw [← V20_eq, ← V19_eq]; exact V20_of m (outsF m) c main_v14 (by decide)).trans
    ((show W19 m c main_v14 = W18 m c main_v14 from by rw [← V19_eq, ← V18_eq]; exact V19_of m (outsF m) c main_v14 (by decide)).trans
    ((show W18 m c main_v14 = W17 m c main_v14 from by rw [← V18_eq, ← V17_eq]; exact V18_of m (outsF m) c main_v14 (by decide)).trans
    ((show W17 m c main_v14 = W16 m c main_v14 from by rw [← V17_eq, ← V16_eq]; exact V17_of m (outsF m) c main_v14 (by decide)).trans
    ((show W16 m c main_v14 = W15 m c main_v14 from by rw [← V16_eq, ← V15_eq]; exact V16_of m (outsF m) c main_v14 (by decide)).trans
    ((show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))))))))))))

theorem keep_v21_13 (c : Dev nD) : W25 m c main_v21 = W2 m c main_v21 :=
  (show W25 m c main_v21 = W24 m c main_v21 from by rw [← V25_eq, ← V24_eq]; exact V25_of m (outsF m) c main_v21 (by decide)).trans
    ((show W24 m c main_v21 = W23 m c main_v21 from by rw [← V24_eq, ← V23_eq]; exact V24_of m (outsF m) c main_v21 (by decide)).trans
    ((show W23 m c main_v21 = W22 m c main_v21 from by rw [← V23_eq, ← V22_eq]; exact V23_of m (outsF m) c main_v21 (by decide)).trans
    ((show W22 m c main_v21 = W21 m c main_v21 from by rw [← V22_eq, ← V21_eq]; exact V22_of m (outsF m) c main_v21 (by decide)).trans
    ((show W21 m c main_v21 = W20 m c main_v21 from by rw [← V21_eq, ← V20_eq]; exact V21_of m (outsF m) c main_v21 (by decide)).trans
    ((show W20 m c main_v21 = W19 m c main_v21 from by rw [← V20_eq, ← V19_eq]; exact V20_of m (outsF m) c main_v21 (by decide)).trans
    ((show W19 m c main_v21 = W18 m c main_v21 from by rw [← V19_eq, ← V18_eq]; exact V19_of m (outsF m) c main_v21 (by decide)).trans
    ((show W18 m c main_v21 = W17 m c main_v21 from by rw [← V18_eq, ← V17_eq]; exact V18_of m (outsF m) c main_v21 (by decide)).trans
    ((show W17 m c main_v21 = W16 m c main_v21 from by rw [← V17_eq, ← V16_eq]; exact V17_of m (outsF m) c main_v21 (by decide)).trans
    ((show W16 m c main_v21 = W15 m c main_v21 from by rw [← V16_eq, ← V15_eq]; exact V16_of m (outsF m) c main_v21 (by decide)).trans
    ((show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))))))))))))

theorem keep_r_13 (c : Dev nD) : W31 m c main_v73 = W28 m c main_v73 :=
  (show W31 m c main_v73 = W30 m c main_v73 from by rw [← V31_eq, ← V30_eq]; exact V31_of m (outsF m) c main_v73 (by decide)).trans
    ((show W30 m c main_v73 = W29 m c main_v73 from by rw [← V30_eq, ← V29_eq]; exact V30_of m (outsF m) c main_v73 (by decide)).trans
    ((show W29 m c main_v73 = W28 m c main_v73 from by rw [← V29_eq, ← V28_eq]; exact V29_of m (outsF m) c main_v73 (by decide))))

theorem keep_v1_14 (c : Dev nD) : W28 m c main_v1 = W2 m c main_v1 :=
  (show W28 m c main_v1 = W27 m c main_v1 from by rw [← V28_eq, ← V27_eq]; exact V28_of m (outsF m) c main_v1 (by decide)).trans
    ((show W27 m c main_v1 = W26 m c main_v1 from by rw [← V27_eq, ← V26_eq]; exact V27_of m (outsF m) c main_v1 (by decide)).trans
    ((show W26 m c main_v1 = W25 m c main_v1 from by rw [← V26_eq, ← V25_eq]; exact V26_of m (outsF m) c main_v1 (by decide)).trans
    ((show W25 m c main_v1 = W24 m c main_v1 from by rw [← V25_eq, ← V24_eq]; exact V25_of m (outsF m) c main_v1 (by decide)).trans
    ((show W24 m c main_v1 = W23 m c main_v1 from by rw [← V24_eq, ← V23_eq]; exact V24_of m (outsF m) c main_v1 (by decide)).trans
    ((show W23 m c main_v1 = W22 m c main_v1 from by rw [← V23_eq, ← V22_eq]; exact V23_of m (outsF m) c main_v1 (by decide)).trans
    ((show W22 m c main_v1 = W21 m c main_v1 from by rw [← V22_eq, ← V21_eq]; exact V22_of m (outsF m) c main_v1 (by decide)).trans
    ((show W21 m c main_v1 = W20 m c main_v1 from by rw [← V21_eq, ← V20_eq]; exact V21_of m (outsF m) c main_v1 (by decide)).trans
    ((show W20 m c main_v1 = W19 m c main_v1 from by rw [← V20_eq, ← V19_eq]; exact V20_of m (outsF m) c main_v1 (by decide)).trans
    ((show W19 m c main_v1 = W18 m c main_v1 from by rw [← V19_eq, ← V18_eq]; exact V19_of m (outsF m) c main_v1 (by decide)).trans
    ((show W18 m c main_v1 = W17 m c main_v1 from by rw [← V18_eq, ← V17_eq]; exact V18_of m (outsF m) c main_v1 (by decide)).trans
    ((show W17 m c main_v1 = W16 m c main_v1 from by rw [← V17_eq, ← V16_eq]; exact V17_of m (outsF m) c main_v1 (by decide)).trans
    ((show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))))))))))))))

theorem keep_v14_14 (c : Dev nD) : W27 m c main_v14 = W2 m c main_v14 :=
  (show W27 m c main_v14 = W26 m c main_v14 from by rw [← V27_eq, ← V26_eq]; exact V27_of m (outsF m) c main_v14 (by decide)).trans
    ((show W26 m c main_v14 = W25 m c main_v14 from by rw [← V26_eq, ← V25_eq]; exact V26_of m (outsF m) c main_v14 (by decide)).trans
    ((show W25 m c main_v14 = W24 m c main_v14 from by rw [← V25_eq, ← V24_eq]; exact V25_of m (outsF m) c main_v14 (by decide)).trans
    ((show W24 m c main_v14 = W23 m c main_v14 from by rw [← V24_eq, ← V23_eq]; exact V24_of m (outsF m) c main_v14 (by decide)).trans
    ((show W23 m c main_v14 = W22 m c main_v14 from by rw [← V23_eq, ← V22_eq]; exact V23_of m (outsF m) c main_v14 (by decide)).trans
    ((show W22 m c main_v14 = W21 m c main_v14 from by rw [← V22_eq, ← V21_eq]; exact V22_of m (outsF m) c main_v14 (by decide)).trans
    ((show W21 m c main_v14 = W20 m c main_v14 from by rw [← V21_eq, ← V20_eq]; exact V21_of m (outsF m) c main_v14 (by decide)).trans
    ((show W20 m c main_v14 = W19 m c main_v14 from by rw [← V20_eq, ← V19_eq]; exact V20_of m (outsF m) c main_v14 (by decide)).trans
    ((show W19 m c main_v14 = W18 m c main_v14 from by rw [← V19_eq, ← V18_eq]; exact V19_of m (outsF m) c main_v14 (by decide)).trans
    ((show W18 m c main_v14 = W17 m c main_v14 from by rw [← V18_eq, ← V17_eq]; exact V18_of m (outsF m) c main_v14 (by decide)).trans
    ((show W17 m c main_v14 = W16 m c main_v14 from by rw [← V17_eq, ← V16_eq]; exact V17_of m (outsF m) c main_v14 (by decide)).trans
    ((show W16 m c main_v14 = W15 m c main_v14 from by rw [← V16_eq, ← V15_eq]; exact V16_of m (outsF m) c main_v14 (by decide)).trans
    ((show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))))))))))))))

theorem keep_v21_14 (c : Dev nD) : W27 m c main_v21 = W2 m c main_v21 :=
  (show W27 m c main_v21 = W26 m c main_v21 from by rw [← V27_eq, ← V26_eq]; exact V27_of m (outsF m) c main_v21 (by decide)).trans
    ((show W26 m c main_v21 = W25 m c main_v21 from by rw [← V26_eq, ← V25_eq]; exact V26_of m (outsF m) c main_v21 (by decide)).trans
    ((show W25 m c main_v21 = W24 m c main_v21 from by rw [← V25_eq, ← V24_eq]; exact V25_of m (outsF m) c main_v21 (by decide)).trans
    ((show W24 m c main_v21 = W23 m c main_v21 from by rw [← V24_eq, ← V23_eq]; exact V24_of m (outsF m) c main_v21 (by decide)).trans
    ((show W23 m c main_v21 = W22 m c main_v21 from by rw [← V23_eq, ← V22_eq]; exact V23_of m (outsF m) c main_v21 (by decide)).trans
    ((show W22 m c main_v21 = W21 m c main_v21 from by rw [← V22_eq, ← V21_eq]; exact V22_of m (outsF m) c main_v21 (by decide)).trans
    ((show W21 m c main_v21 = W20 m c main_v21 from by rw [← V21_eq, ← V20_eq]; exact V21_of m (outsF m) c main_v21 (by decide)).trans
    ((show W20 m c main_v21 = W19 m c main_v21 from by rw [← V20_eq, ← V19_eq]; exact V20_of m (outsF m) c main_v21 (by decide)).trans
    ((show W19 m c main_v21 = W18 m c main_v21 from by rw [← V19_eq, ← V18_eq]; exact V19_of m (outsF m) c main_v21 (by decide)).trans
    ((show W18 m c main_v21 = W17 m c main_v21 from by rw [← V18_eq, ← V17_eq]; exact V18_of m (outsF m) c main_v21 (by decide)).trans
    ((show W17 m c main_v21 = W16 m c main_v21 from by rw [← V17_eq, ← V16_eq]; exact V17_of m (outsF m) c main_v21 (by decide)).trans
    ((show W16 m c main_v21 = W15 m c main_v21 from by rw [← V16_eq, ← V15_eq]; exact V16_of m (outsF m) c main_v21 (by decide)).trans
    ((show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))))))))))))))

theorem keep_r_14 (c : Dev nD) : W31 m c main_v77 = W30 m c main_v77 :=
  (show W31 m c main_v77 = W30 m c main_v77 from by rw [← V31_eq, ← V30_eq]; exact V31_of m (outsF m) c main_v77 (by decide))

theorem keep_v1_15 (c : Dev nD) : W30 m c main_v1 = W2 m c main_v1 :=
  (show W30 m c main_v1 = W29 m c main_v1 from by rw [← V30_eq, ← V29_eq]; exact V30_of m (outsF m) c main_v1 (by decide)).trans
    ((show W29 m c main_v1 = W28 m c main_v1 from by rw [← V29_eq, ← V28_eq]; exact V29_of m (outsF m) c main_v1 (by decide)).trans
    ((show W28 m c main_v1 = W27 m c main_v1 from by rw [← V28_eq, ← V27_eq]; exact V28_of m (outsF m) c main_v1 (by decide)).trans
    ((show W27 m c main_v1 = W26 m c main_v1 from by rw [← V27_eq, ← V26_eq]; exact V27_of m (outsF m) c main_v1 (by decide)).trans
    ((show W26 m c main_v1 = W25 m c main_v1 from by rw [← V26_eq, ← V25_eq]; exact V26_of m (outsF m) c main_v1 (by decide)).trans
    ((show W25 m c main_v1 = W24 m c main_v1 from by rw [← V25_eq, ← V24_eq]; exact V25_of m (outsF m) c main_v1 (by decide)).trans
    ((show W24 m c main_v1 = W23 m c main_v1 from by rw [← V24_eq, ← V23_eq]; exact V24_of m (outsF m) c main_v1 (by decide)).trans
    ((show W23 m c main_v1 = W22 m c main_v1 from by rw [← V23_eq, ← V22_eq]; exact V23_of m (outsF m) c main_v1 (by decide)).trans
    ((show W22 m c main_v1 = W21 m c main_v1 from by rw [← V22_eq, ← V21_eq]; exact V22_of m (outsF m) c main_v1 (by decide)).trans
    ((show W21 m c main_v1 = W20 m c main_v1 from by rw [← V21_eq, ← V20_eq]; exact V21_of m (outsF m) c main_v1 (by decide)).trans
    ((show W20 m c main_v1 = W19 m c main_v1 from by rw [← V20_eq, ← V19_eq]; exact V20_of m (outsF m) c main_v1 (by decide)).trans
    ((show W19 m c main_v1 = W18 m c main_v1 from by rw [← V19_eq, ← V18_eq]; exact V19_of m (outsF m) c main_v1 (by decide)).trans
    ((show W18 m c main_v1 = W17 m c main_v1 from by rw [← V18_eq, ← V17_eq]; exact V18_of m (outsF m) c main_v1 (by decide)).trans
    ((show W17 m c main_v1 = W16 m c main_v1 from by rw [← V17_eq, ← V16_eq]; exact V17_of m (outsF m) c main_v1 (by decide)).trans
    ((show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))))))))))))))))

theorem keep_v14_15 (c : Dev nD) : W29 m c main_v14 = W2 m c main_v14 :=
  (show W29 m c main_v14 = W28 m c main_v14 from by rw [← V29_eq, ← V28_eq]; exact V29_of m (outsF m) c main_v14 (by decide)).trans
    ((show W28 m c main_v14 = W27 m c main_v14 from by rw [← V28_eq, ← V27_eq]; exact V28_of m (outsF m) c main_v14 (by decide)).trans
    ((show W27 m c main_v14 = W26 m c main_v14 from by rw [← V27_eq, ← V26_eq]; exact V27_of m (outsF m) c main_v14 (by decide)).trans
    ((show W26 m c main_v14 = W25 m c main_v14 from by rw [← V26_eq, ← V25_eq]; exact V26_of m (outsF m) c main_v14 (by decide)).trans
    ((show W25 m c main_v14 = W24 m c main_v14 from by rw [← V25_eq, ← V24_eq]; exact V25_of m (outsF m) c main_v14 (by decide)).trans
    ((show W24 m c main_v14 = W23 m c main_v14 from by rw [← V24_eq, ← V23_eq]; exact V24_of m (outsF m) c main_v14 (by decide)).trans
    ((show W23 m c main_v14 = W22 m c main_v14 from by rw [← V23_eq, ← V22_eq]; exact V23_of m (outsF m) c main_v14 (by decide)).trans
    ((show W22 m c main_v14 = W21 m c main_v14 from by rw [← V22_eq, ← V21_eq]; exact V22_of m (outsF m) c main_v14 (by decide)).trans
    ((show W21 m c main_v14 = W20 m c main_v14 from by rw [← V21_eq, ← V20_eq]; exact V21_of m (outsF m) c main_v14 (by decide)).trans
    ((show W20 m c main_v14 = W19 m c main_v14 from by rw [← V20_eq, ← V19_eq]; exact V20_of m (outsF m) c main_v14 (by decide)).trans
    ((show W19 m c main_v14 = W18 m c main_v14 from by rw [← V19_eq, ← V18_eq]; exact V19_of m (outsF m) c main_v14 (by decide)).trans
    ((show W18 m c main_v14 = W17 m c main_v14 from by rw [← V18_eq, ← V17_eq]; exact V18_of m (outsF m) c main_v14 (by decide)).trans
    ((show W17 m c main_v14 = W16 m c main_v14 from by rw [← V17_eq, ← V16_eq]; exact V17_of m (outsF m) c main_v14 (by decide)).trans
    ((show W16 m c main_v14 = W15 m c main_v14 from by rw [← V16_eq, ← V15_eq]; exact V16_of m (outsF m) c main_v14 (by decide)).trans
    ((show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))))))))))))))))

theorem keep_v21_15 (c : Dev nD) : W29 m c main_v21 = W2 m c main_v21 :=
  (show W29 m c main_v21 = W28 m c main_v21 from by rw [← V29_eq, ← V28_eq]; exact V29_of m (outsF m) c main_v21 (by decide)).trans
    ((show W28 m c main_v21 = W27 m c main_v21 from by rw [← V28_eq, ← V27_eq]; exact V28_of m (outsF m) c main_v21 (by decide)).trans
    ((show W27 m c main_v21 = W26 m c main_v21 from by rw [← V27_eq, ← V26_eq]; exact V27_of m (outsF m) c main_v21 (by decide)).trans
    ((show W26 m c main_v21 = W25 m c main_v21 from by rw [← V26_eq, ← V25_eq]; exact V26_of m (outsF m) c main_v21 (by decide)).trans
    ((show W25 m c main_v21 = W24 m c main_v21 from by rw [← V25_eq, ← V24_eq]; exact V25_of m (outsF m) c main_v21 (by decide)).trans
    ((show W24 m c main_v21 = W23 m c main_v21 from by rw [← V24_eq, ← V23_eq]; exact V24_of m (outsF m) c main_v21 (by decide)).trans
    ((show W23 m c main_v21 = W22 m c main_v21 from by rw [← V23_eq, ← V22_eq]; exact V23_of m (outsF m) c main_v21 (by decide)).trans
    ((show W22 m c main_v21 = W21 m c main_v21 from by rw [← V22_eq, ← V21_eq]; exact V22_of m (outsF m) c main_v21 (by decide)).trans
    ((show W21 m c main_v21 = W20 m c main_v21 from by rw [← V21_eq, ← V20_eq]; exact V21_of m (outsF m) c main_v21 (by decide)).trans
    ((show W20 m c main_v21 = W19 m c main_v21 from by rw [← V20_eq, ← V19_eq]; exact V20_of m (outsF m) c main_v21 (by decide)).trans
    ((show W19 m c main_v21 = W18 m c main_v21 from by rw [← V19_eq, ← V18_eq]; exact V19_of m (outsF m) c main_v21 (by decide)).trans
    ((show W18 m c main_v21 = W17 m c main_v21 from by rw [← V18_eq, ← V17_eq]; exact V18_of m (outsF m) c main_v21 (by decide)).trans
    ((show W17 m c main_v21 = W16 m c main_v21 from by rw [← V17_eq, ← V16_eq]; exact V17_of m (outsF m) c main_v21 (by decide)).trans
    ((show W16 m c main_v21 = W15 m c main_v21 from by rw [← V16_eq, ← V15_eq]; exact V16_of m (outsF m) c main_v21 (by decide)).trans
    ((show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))))))))))))))))

end Cert.Kernel.GenP

end
-- ==== Proof.Kernel.OkTables.lean ====
/-
  The side condition on the prefetched tables' contents, from a range of their words.  In each of the fifteen
  gathering regions the two input windows' index maps read one word w of a table at the grid point and return the
  block index (w, 0, 0); the blocks have extent (1, 1, 128) and the gathered array has extent (163842, 1, 128), so a
  block lies inside the array exactly when (w + 1) * 1 ≤ 163842 on axis 0 (axes 1 and 2 are whole).  A word that,
  read signed, lies in [0, 163842) has the same value read unsigned, so it is below 163842 and its block fits.  The
  element type is one word wide, which settles the word-exactness of the transfer ends.
-/
import proofs.«175043_j76819785056407_2_alg».proof.Kernel

noncomputable section

namespace Cert.Kernel.GenP

open Cert.Kernel
open Idealize.ShloMosaic Idealize.ShloMosaic.TcCoe Idealize.SL.Sem

variable {F : FTy → Type} [FloatOps F]
variable [Facts₀]
open Facts₀

/-- A 32-bit word that read signed lies in [0, n) is below n read unsigned. -/
theorem toNat_lt_of_toInt (w : BitVec 32) (n : Nat) (h0 : 0 ≤ w.toInt) (h1 : w.toInt < (n : Int)) : w.toNat < n := by
  have hw := w.isLt
  rw [BitVec.toInt_eq_toNat_cond] at h0 h1
  by_cases hc : 2 * w.toNat < 2 ^ 32
  · rw [if_pos hc] at h0 h1; omega
  · rw [if_neg hc] at h0 h1; omega

/-- A block index (w, 0, 0) with w < 163842: the block of extent (1, 1, 128) lies inside the (163842, 1, 128) array. -/
theorem block_fits (w : Nat) (hw : w < 163842) :
    ∀ a, ((![w, 0, 0] : Fin 3 → Nat) a + 1) * S1x1x128.size a ≤ S163842x1x128.size a := by
  intro a
  fin_cases a <;> simp [S1x1x128, S163842x1x128] <;> omega

/-! ## Region 1 -/

/-- Window 0's index map returns (w, 0, 0), w a word of table 0. -/
theorem cc1_transform_0_eq (pf : pre1.Contents (Elt F)) (i : grid1.Coords) :
    ∃ j, cc1_transform_0 k1_off1_inb numel1_S1 pf i = ![(pf 0 j).toNat, 0, 0] := ⟨_, rfl⟩

/-- Window 1's index map returns (w, 0, 0), w a word of table 1. -/
theorem cc1_transform_1_eq (pf : pre1.Contents (Elt F)) (i : grid1.Coords) :
    ∃ j, cc1_transform_1 k1_off1_inb numel1_S1 pf i = ![(pf 1 j).toNat, 0, 0] := ⟨_, rfl⟩

/-- Both tables' words in [0, 163842): every block the two windows fetch lies inside the gathered array. -/
theorem ok1_of_range (pf : pre1.Contents (Elt F))
    (h0 : ∀ i, 0 ≤ (pf 0 i).toInt ∧ (pf 0 i).toInt < 163842)
    (h1 : ∀ i, 0 ≤ (pf 1 i).toInt ∧ (pf 1 i).toInt < 163842) : ok1 (F := F) pf := by
  refine ⟨fun i => ?_, fun i => ?_⟩
  · obtain ⟨j, e⟩ := cc1_transform_0_eq pf i
    refine ⟨?_, Or.inl rfl⟩
    rw [e]
    exact block_fits _ (toNat_lt_of_toInt _ 163842 (h0 j).1 (h0 j).2)
  · obtain ⟨j, e⟩ := cc1_transform_1_eq pf i
    refine ⟨?_, Or.inl rfl⟩
    rw [e]
    exact block_fits _ (toNat_lt_of_toInt _ 163842 (h1 j).1 (h1 j).2)

/-! ## Region 2 -/

/-- Window 0's index map returns (w, 0, 0), w a word of table 0. -/
theorem cc2_transform_0_eq (pf : pre2.Contents (Elt F)) (i : grid2.Coords) :
    ∃ j, cc2_transform_0 k2_off1_inb numel1_S1 pf i = ![(pf 0 j).toNat, 0, 0] := ⟨_, rfl⟩

/-- Window 1's index map returns (w, 0, 0), w a word of table 1. -/
theorem cc2_transform_1_eq (pf : pre2.Contents (Elt F)) (i : grid2.Coords) :
    ∃ j, cc2_transform_1 k2_off1_inb numel1_S1 pf i = ![(pf 1 j).toNat, 0, 0] := ⟨_, rfl⟩

/-- Both tables' words in [0, 163842): every block the two windows fetch lies inside the gathered array. -/
theorem ok2_of_range (pf : pre2.Contents (Elt F))
    (h0 : ∀ i, 0 ≤ (pf 0 i).toInt ∧ (pf 0 i).toInt < 163842)
    (h1 : ∀ i, 0 ≤ (pf 1 i).toInt ∧ (pf 1 i).toInt < 163842) : ok2 (F := F) pf := by
  refine ⟨fun i => ?_, fun i => ?_⟩
  · obtain ⟨j, e⟩ := cc2_transform_0_eq pf i
    refine ⟨?_, Or.inl rfl⟩
    rw [e]
    exact block_fits _ (toNat_lt_of_toInt _ 163842 (h0 j).1 (h0 j).2)
  · obtain ⟨j, e⟩ := cc2_transform_1_eq pf i
    refine ⟨?_, Or.inl rfl⟩
    rw [e]
    exact block_fits _ (toNat_lt_of_toInt _ 163842 (h1 j).1 (h1 j).2)

/-! ## Region 3 -/

/-- Window 0's index map returns (w, 0, 0), w a word of table 0. -/
theorem cc3_transform_0_eq (pf : pre3.Contents (Elt F)) (i : grid3.Coords) :
    ∃ j, cc3_transform_0 k3_off1_inb numel1_S1 pf i = ![(pf 0 j).toNat, 0, 0] := ⟨_, rfl⟩

/-- Window 1's index map returns (w, 0, 0), w a word of table 1. -/
theorem cc3_transform_1_eq (pf : pre3.Contents (Elt F)) (i : grid3.Coords) :
    ∃ j, cc3_transform_1 k3_off1_inb numel1_S1 pf i = ![(pf 1 j).toNat, 0, 0] := ⟨_, rfl⟩

/-- Both tables' words in [0, 163842): every block the two windows fetch lies inside the gathered array. -/
theorem ok3_of_range (pf : pre3.Contents (Elt F))
    (h0 : ∀ i, 0 ≤ (pf 0 i).toInt ∧ (pf 0 i).toInt < 163842)
    (h1 : ∀ i, 0 ≤ (pf 1 i).toInt ∧ (pf 1 i).toInt < 163842) : ok3 (F := F) pf := by
  refine ⟨fun i => ?_, fun i => ?_⟩
  · obtain ⟨j, e⟩ := cc3_transform_0_eq pf i
    refine ⟨?_, Or.inl rfl⟩
    rw [e]
    exact block_fits _ (toNat_lt_of_toInt _ 163842 (h0 j).1 (h0 j).2)
  · obtain ⟨j, e⟩ := cc3_transform_1_eq pf i
    refine ⟨?_, Or.inl rfl⟩
    rw [e]
    exact block_fits _ (toNat_lt_of_toInt _ 163842 (h1 j).1 (h1 j).2)

/-! ## Region 4 -/

/-- Window 0's index map returns (w, 0, 0), w a word of table 0. -/
theorem cc4_transform_0_eq (pf : pre4.Contents (Elt F)) (i : grid4.Coords) :
    ∃ j, cc4_transform_0 k4_off1_inb numel1_S1 pf i = ![(pf 0 j).toNat, 0, 0] := ⟨_, rfl⟩

/-- Window 1's index map returns (w, 0, 0), w a word of table 1. -/
theorem cc4_transform_1_eq (pf : pre4.Contents (Elt F)) (i : grid4.Coords) :
    ∃ j, cc4_transform_1 k4_off1_inb numel1_S1 pf i = ![(pf 1 j).toNat, 0, 0] := ⟨_, rfl⟩

/-- Both tables' words in [0, 163842): every block the two windows fetch lies inside the gathered array. -/
theorem ok4_of_range (pf : pre4.Contents (Elt F))
    (h0 : ∀ i, 0 ≤ (pf 0 i).toInt ∧ (pf 0 i).toInt < 163842)
    (h1 : ∀ i, 0 ≤ (pf 1 i).toInt ∧ (pf 1 i).toInt < 163842) : ok4 (F := F) pf := by
  refine ⟨fun i => ?_, fun i => ?_⟩
  · obtain ⟨j, e⟩ := cc4_transform_0_eq pf i
    refine ⟨?_, Or.inl rfl⟩
    rw [e]
    exact block_fits _ (toNat_lt_of_toInt _ 163842 (h0 j).1 (h0 j).2)
  · obtain ⟨j, e⟩ := cc4_transform_1_eq pf i
    refine ⟨?_, Or.inl rfl⟩
    rw [e]
    exact block_fits _ (toNat_lt_of_toInt _ 163842 (h1 j).1 (h1 j).2)

/-! ## Region 5 -/

/-- Window 0's index map returns (w, 0, 0), w a word of table 0. -/
theorem cc5_transform_0_eq (pf : pre5.Contents (Elt F)) (i : grid5.Coords) :
    ∃ j, cc5_transform_0 k5_off1_inb numel1_S1 pf i = ![(pf 0 j).toNat, 0, 0] := ⟨_, rfl⟩

/-- Window 1's index map returns (w, 0, 0), w a word of table 1. -/
theorem cc5_transform_1_eq (pf : pre5.Contents (Elt F)) (i : grid5.Coords) :
    ∃ j, cc5_transform_1 k5_off1_inb numel1_S1 pf i = ![(pf 1 j).toNat, 0, 0] := ⟨_, rfl⟩

/-- Both tables' words in [0, 163842): every block the two windows fetch lies inside the gathered array. -/
theorem ok5_of_range (pf : pre5.Contents (Elt F))
    (h0 : ∀ i, 0 ≤ (pf 0 i).toInt ∧ (pf 0 i).toInt < 163842)
    (h1 : ∀ i, 0 ≤ (pf 1 i).toInt ∧ (pf 1 i).toInt < 163842) : ok5 (F := F) pf := by
  refine ⟨fun i => ?_, fun i => ?_⟩
  · obtain ⟨j, e⟩ := cc5_transform_0_eq pf i
    refine ⟨?_, Or.inl rfl⟩
    rw [e]
    exact block_fits _ (toNat_lt_of_toInt _ 163842 (h0 j).1 (h0 j).2)
  · obtain ⟨j, e⟩ := cc5_transform_1_eq pf i
    refine ⟨?_, Or.inl rfl⟩
    rw [e]
    exact block_fits _ (toNat_lt_of_toInt _ 163842 (h1 j).1 (h1 j).2)

/-! ## Region 6 -/

/-- Window 0's index map returns (w, 0, 0), w a word of table 0. -/
theorem cc6_transform_0_eq (pf : pre6.Contents (Elt F)) (i : grid6.Coords) :
    ∃ j, cc6_transform_0 k6_off1_inb numel1_S1 pf i = ![(pf 0 j).toNat, 0, 0] := ⟨_, rfl⟩

/-- Window 1's index map returns (w, 0, 0), w a word of table 1. -/
theorem cc6_transform_1_eq (pf : pre6.Contents (Elt F)) (i : grid6.Coords) :
    ∃ j, cc6_transform_1 k6_off1_inb numel1_S1 pf i = ![(pf 1 j).toNat, 0, 0] := ⟨_, rfl⟩

/-- Both tables' words in [0, 163842): every block the two windows fetch lies inside the gathered array. -/
theorem ok6_of_range (pf : pre6.Contents (Elt F))
    (h0 : ∀ i, 0 ≤ (pf 0 i).toInt ∧ (pf 0 i).toInt < 163842)
    (h1 : ∀ i, 0 ≤ (pf 1 i).toInt ∧ (pf 1 i).toInt < 163842) : ok6 (F := F) pf := by
  refine ⟨fun i => ?_, fun i => ?_⟩
  · obtain ⟨j, e⟩ := cc6_transform_0_eq pf i
    refine ⟨?_, Or.inl rfl⟩
    rw [e]
    exact block_fits _ (toNat_lt_of_toInt _ 163842 (h0 j).1 (h0 j).2)
  · obtain ⟨j, e⟩ := cc6_transform_1_eq pf i
    refine ⟨?_, Or.inl rfl⟩
    rw [e]
    exact block_fits _ (toNat_lt_of_toInt _ 163842 (h1 j).1 (h1 j).2)

/-! ## Region 7 -/

/-- Window 0's index map returns (w, 0, 0), w a word of table 0. -/
theorem cc7_transform_0_eq (pf : pre7.Contents (Elt F)) (i : grid7.Coords) :
    ∃ j, cc7_transform_0 k7_off1_inb numel1_S1 pf i = ![(pf 0 j).toNat, 0, 0] := ⟨_, rfl⟩

/-- Window 1's index map returns (w, 0, 0), w a word of table 1. -/
theorem cc7_transform_1_eq (pf : pre7.Contents (Elt F)) (i : grid7.Coords) :
    ∃ j, cc7_transform_1 k7_off1_inb numel1_S1 pf i = ![(pf 1 j).toNat, 0, 0] := ⟨_, rfl⟩

/-- Both tables' words in [0, 163842): every block the two windows fetch lies inside the gathered array. -/
theorem ok7_of_range (pf : pre7.Contents (Elt F))
    (h0 : ∀ i, 0 ≤ (pf 0 i).toInt ∧ (pf 0 i).toInt < 163842)
    (h1 : ∀ i, 0 ≤ (pf 1 i).toInt ∧ (pf 1 i).toInt < 163842) : ok7 (F := F) pf := by
  refine ⟨fun i => ?_, fun i => ?_⟩
  · obtain ⟨j, e⟩ := cc7_transform_0_eq pf i
    refine ⟨?_, Or.inl rfl⟩
    rw [e]
    exact block_fits _ (toNat_lt_of_toInt _ 163842 (h0 j).1 (h0 j).2)
  · obtain ⟨j, e⟩ := cc7_transform_1_eq pf i
    refine ⟨?_, Or.inl rfl⟩
    rw [e]
    exact block_fits _ (toNat_lt_of_toInt _ 163842 (h1 j).1 (h1 j).2)

/-! ## Region 8 -/

/-- Window 0's index map returns (w, 0, 0), w a word of table 0. -/
theorem cc8_transform_0_eq (pf : pre8.Contents (Elt F)) (i : grid8.Coords) :
    ∃ j, cc8_transform_0 k8_off1_inb numel1_S1 pf i = ![(pf 0 j).toNat, 0, 0] := ⟨_, rfl⟩

/-- Window 1's index map returns (w, 0, 0), w a word of table 1. -/
theorem cc8_transform_1_eq (pf : pre8.Contents (Elt F)) (i : grid8.Coords) :
    ∃ j, cc8_transform_1 k8_off1_inb numel1_S1 pf i = ![(pf 1 j).toNat, 0, 0] := ⟨_, rfl⟩

/-- Both tables' words in [0, 163842): every block the two windows fetch lies inside the gathered array. -/
theorem ok8_of_range (pf : pre8.Contents (Elt F))
    (h0 : ∀ i, 0 ≤ (pf 0 i).toInt ∧ (pf 0 i).toInt < 163842)
    (h1 : ∀ i, 0 ≤ (pf 1 i).toInt ∧ (pf 1 i).toInt < 163842) : ok8 (F := F) pf := by
  refine ⟨fun i => ?_, fun i => ?_⟩
  · obtain ⟨j, e⟩ := cc8_transform_0_eq pf i
    refine ⟨?_, Or.inl rfl⟩
    rw [e]
    exact block_fits _ (toNat_lt_of_toInt _ 163842 (h0 j).1 (h0 j).2)
  · obtain ⟨j, e⟩ := cc8_transform_1_eq pf i
    refine ⟨?_, Or.inl rfl⟩
    rw [e]
    exact block_fits _ (toNat_lt_of_toInt _ 163842 (h1 j).1 (h1 j).2)

/-! ## Region 9 -/

/-- Window 0's index map returns (w, 0, 0), w a word of table 0. -/
theorem cc9_transform_0_eq (pf : pre9.Contents (Elt F)) (i : grid9.Coords) :
    ∃ j, cc9_transform_0 k9_off1_inb numel1_S1 pf i = ![(pf 0 j).toNat, 0, 0] := ⟨_, rfl⟩

/-- Window 1's index map returns (w, 0, 0), w a word of table 1. -/
theorem cc9_transform_1_eq (pf : pre9.Contents (Elt F)) (i : grid9.Coords) :
    ∃ j, cc9_transform_1 k9_off1_inb numel1_S1 pf i = ![(pf 1 j).toNat, 0, 0] := ⟨_, rfl⟩

/-- Both tables' words in [0, 163842): every block the two windows fetch lies inside the gathered array. -/
theorem ok9_of_range (pf : pre9.Contents (Elt F))
    (h0 : ∀ i, 0 ≤ (pf 0 i).toInt ∧ (pf 0 i).toInt < 163842)
    (h1 : ∀ i, 0 ≤ (pf 1 i).toInt ∧ (pf 1 i).toInt < 163842) : ok9 (F := F) pf := by
  refine ⟨fun i => ?_, fun i => ?_⟩
  · obtain ⟨j, e⟩ := cc9_transform_0_eq pf i
    refine ⟨?_, Or.inl rfl⟩
    rw [e]
    exact block_fits _ (toNat_lt_of_toInt _ 163842 (h0 j).1 (h0 j).2)
  · obtain ⟨j, e⟩ := cc9_transform_1_eq pf i
    refine ⟨?_, Or.inl rfl⟩
    rw [e]
    exact block_fits _ (toNat_lt_of_toInt _ 163842 (h1 j).1 (h1 j).2)

/-! ## Region 10 -/

/-- Window 0's index map returns (w, 0, 0), w a word of table 0. -/
theorem cc10_transform_0_eq (pf : pre10.Contents (Elt F)) (i : grid10.Coords) :
    ∃ j, cc10_transform_0 k10_off1_inb numel1_S1 pf i = ![(pf 0 j).toNat, 0, 0] := ⟨_, rfl⟩

/-- Window 1's index map returns (w, 0, 0), w a word of table 1. -/
theorem cc10_transform_1_eq (pf : pre10.Contents (Elt F)) (i : grid10.Coords) :
    ∃ j, cc10_transform_1 k10_off1_inb numel1_S1 pf i = ![(pf 1 j).toNat, 0, 0] := ⟨_, rfl⟩

/-- Both tables' words in [0, 163842): every block the two windows fetch lies inside the gathered array. -/
theorem ok10_of_range (pf : pre10.Contents (Elt F))
    (h0 : ∀ i, 0 ≤ (pf 0 i).toInt ∧ (pf 0 i).toInt < 163842)
    (h1 : ∀ i, 0 ≤ (pf 1 i).toInt ∧ (pf 1 i).toInt < 163842) : ok10 (F := F) pf := by
  refine ⟨fun i => ?_, fun i => ?_⟩
  · obtain ⟨j, e⟩ := cc10_transform_0_eq pf i
    refine ⟨?_, Or.inl rfl⟩
    rw [e]
    exact block_fits _ (toNat_lt_of_toInt _ 163842 (h0 j).1 (h0 j).2)
  · obtain ⟨j, e⟩ := cc10_transform_1_eq pf i
    refine ⟨?_, Or.inl rfl⟩
    rw [e]
    exact block_fits _ (toNat_lt_of_toInt _ 163842 (h1 j).1 (h1 j).2)

/-! ## Region 11 -/

/-- Window 0's index map returns (w, 0, 0), w a word of table 0. -/
theorem cc11_transform_0_eq (pf : pre11.Contents (Elt F)) (i : grid11.Coords) :
    ∃ j, cc11_transform_0 k11_off1_inb numel1_S1 pf i = ![(pf 0 j).toNat, 0, 0] := ⟨_, rfl⟩

/-- Window 1's index map returns (w, 0, 0), w a word of table 1. -/
theorem cc11_transform_1_eq (pf : pre11.Contents (Elt F)) (i : grid11.Coords) :
    ∃ j, cc11_transform_1 k11_off1_inb numel1_S1 pf i = ![(pf 1 j).toNat, 0, 0] := ⟨_, rfl⟩

/-- Both tables' words in [0, 163842): every block the two windows fetch lies inside the gathered array. -/
theorem ok11_of_range (pf : pre11.Contents (Elt F))
    (h0 : ∀ i, 0 ≤ (pf 0 i).toInt ∧ (pf 0 i).toInt < 163842)
    (h1 : ∀ i, 0 ≤ (pf 1 i).toInt ∧ (pf 1 i).toInt < 163842) : ok11 (F := F) pf := by
  refine ⟨fun i => ?_, fun i => ?_⟩
  · obtain ⟨j, e⟩ := cc11_transform_0_eq pf i
    refine ⟨?_, Or.inl rfl⟩
    rw [e]
    exact block_fits _ (toNat_lt_of_toInt _ 163842 (h0 j).1 (h0 j).2)
  · obtain ⟨j, e⟩ := cc11_transform_1_eq pf i
    refine ⟨?_, Or.inl rfl⟩
    rw [e]
    exact block_fits _ (toNat_lt_of_toInt _ 163842 (h1 j).1 (h1 j).2)

/-! ## Region 12 -/

/-- Window 0's index map returns (w, 0, 0), w a word of table 0. -/
theorem cc12_transform_0_eq (pf : pre12.Contents (Elt F)) (i : grid12.Coords) :
    ∃ j, cc12_transform_0 k12_off1_inb numel1_S1 pf i = ![(pf 0 j).toNat, 0, 0] := ⟨_, rfl⟩

/-- Window 1's index map returns (w, 0, 0), w a word of table 1. -/
theorem cc12_transform_1_eq (pf : pre12.Contents (Elt F)) (i : grid12.Coords) :
    ∃ j, cc12_transform_1 k12_off1_inb numel1_S1 pf i = ![(pf 1 j).toNat, 0, 0] := ⟨_, rfl⟩

/-- Both tables' words in [0, 163842): every block the two windows fetch lies inside the gathered array. -/
theorem ok12_of_range (pf : pre12.Contents (Elt F))
    (h0 : ∀ i, 0 ≤ (pf 0 i).toInt ∧ (pf 0 i).toInt < 163842)
    (h1 : ∀ i, 0 ≤ (pf 1 i).toInt ∧ (pf 1 i).toInt < 163842) : ok12 (F := F) pf := by
  refine ⟨fun i => ?_, fun i => ?_⟩
  · obtain ⟨j, e⟩ := cc12_transform_0_eq pf i
    refine ⟨?_, Or.inl rfl⟩
    rw [e]
    exact block_fits _ (toNat_lt_of_toInt _ 163842 (h0 j).1 (h0 j).2)
  · obtain ⟨j, e⟩ := cc12_transform_1_eq pf i
    refine ⟨?_, Or.inl rfl⟩
    rw [e]
    exact block_fits _ (toNat_lt_of_toInt _ 163842 (h1 j).1 (h1 j).2)

/-! ## Region 13 -/

/-- Window 0's index map returns (w, 0, 0), w a word of table 0. -/
theorem cc13_transform_0_eq (pf : pre13.Contents (Elt F)) (i : grid13.Coords) :
    ∃ j, cc13_transform_0 k13_off1_inb numel1_S1 pf i = ![(pf 0 j).toNat, 0, 0] := ⟨_, rfl⟩

/-- Window 1's index map returns (w, 0, 0), w a word of table 1. -/
theorem cc13_transform_1_eq (pf : pre13.Contents (Elt F)) (i : grid13.Coords) :
    ∃ j, cc13_transform_1 k13_off1_inb numel1_S1 pf i = ![(pf 1 j).toNat, 0, 0] := ⟨_, rfl⟩

/-- Both tables' words in [0, 163842): every block the two windows fetch lies inside the gathered array. -/
theorem ok13_of_range (pf : pre13.Contents (Elt F))
    (h0 : ∀ i, 0 ≤ (pf 0 i).toInt ∧ (pf 0 i).toInt < 163842)
    (h1 : ∀ i, 0 ≤ (pf 1 i).toInt ∧ (pf 1 i).toInt < 163842) : ok13 (F := F) pf := by
  refine ⟨fun i => ?_, fun i => ?_⟩
  · obtain ⟨j, e⟩ := cc13_transform_0_eq pf i
    refine ⟨?_, Or.inl rfl⟩
    rw [e]
    exact block_fits _ (toNat_lt_of_toInt _ 163842 (h0 j).1 (h0 j).2)
  · obtain ⟨j, e⟩ := cc13_transform_1_eq pf i
    refine ⟨?_, Or.inl rfl⟩
    rw [e]
    exact block_fits _ (toNat_lt_of_toInt _ 163842 (h1 j).1 (h1 j).2)

/-! ## Region 14 -/

/-- Window 0's index map returns (w, 0, 0), w a word of table 0. -/
theorem cc14_transform_0_eq (pf : pre14.Contents (Elt F)) (i : grid14.Coords) :
    ∃ j, cc14_transform_0 k14_off1_inb numel1_S1 pf i = ![(pf 0 j).toNat, 0, 0] := ⟨_, rfl⟩

/-- Window 1's index map returns (w, 0, 0), w a word of table 1. -/
theorem cc14_transform_1_eq (pf : pre14.Contents (Elt F)) (i : grid14.Coords) :
    ∃ j, cc14_transform_1 k14_off1_inb numel1_S1 pf i = ![(pf 1 j).toNat, 0, 0] := ⟨_, rfl⟩

/-- Both tables' words in [0, 163842): every block the two windows fetch lies inside the gathered array. -/
theorem ok14_of_range (pf : pre14.Contents (Elt F))
    (h0 : ∀ i, 0 ≤ (pf 0 i).toInt ∧ (pf 0 i).toInt < 163842)
    (h1 : ∀ i, 0 ≤ (pf 1 i).toInt ∧ (pf 1 i).toInt < 163842) : ok14 (F := F) pf := by
  refine ⟨fun i => ?_, fun i => ?_⟩
  · obtain ⟨j, e⟩ := cc14_transform_0_eq pf i
    refine ⟨?_, Or.inl rfl⟩
    rw [e]
    exact block_fits _ (toNat_lt_of_toInt _ 163842 (h0 j).1 (h0 j).2)
  · obtain ⟨j, e⟩ := cc14_transform_1_eq pf i
    refine ⟨?_, Or.inl rfl⟩
    rw [e]
    exact block_fits _ (toNat_lt_of_toInt _ 163842 (h1 j).1 (h1 j).2)

/-! ## Region 15 -/

/-- Window 0's index map returns (w, 0, 0), w a word of table 0. -/
theorem cc15_transform_0_eq (pf : pre15.Contents (Elt F)) (i : grid15.Coords) :
    ∃ j, cc15_transform_0 k15_off1_inb numel1_S1 pf i = ![(pf 0 j).toNat, 0, 0] := ⟨_, rfl⟩

/-- Window 1's index map returns (w, 0, 0), w a word of table 1. -/
theorem cc15_transform_1_eq (pf : pre15.Contents (Elt F)) (i : grid15.Coords) :
    ∃ j, cc15_transform_1 k15_off1_inb numel1_S1 pf i = ![(pf 1 j).toNat, 0, 0] := ⟨_, rfl⟩

/-- Both tables' words in [0, 163842): every block the two windows fetch lies inside the gathered array. -/
theorem ok15_of_range (pf : pre15.Contents (Elt F))
    (h0 : ∀ i, 0 ≤ (pf 0 i).toInt ∧ (pf 0 i).toInt < 163842)
    (h1 : ∀ i, 0 ≤ (pf 1 i).toInt ∧ (pf 1 i).toInt < 163842) : ok15 (F := F) pf := by
  refine ⟨fun i => ?_, fun i => ?_⟩
  · obtain ⟨j, e⟩ := cc15_transform_0_eq pf i
    refine ⟨?_, Or.inl rfl⟩
    rw [e]
    exact block_fits _ (toNat_lt_of_toInt _ 163842 (h0 j).1 (h0 j).2)
  · obtain ⟨j, e⟩ := cc15_transform_1_eq pf i
    refine ⟨?_, Or.inl rfl⟩
    rw [e]
    exact block_fits _ (toNat_lt_of_toInt _ 163842 (h1 j).1 (h1 j).2)

end Cert.Kernel.GenP

end
-- ==== Proof.Kernel.OkChain.lean ====
/- The prefetched tables' admissibility at every gathering region, from the range of the index array's words. -/
import proofs.«175043_j76819785056407_2_alg».proof.Proof.Kernel.Keep
import proofs.«175043_j76819785056407_2_alg».proof.Proof.Kernel.OkTables

set_option maxRecDepth 65536

noncomputable section

namespace Cert.Kernel.GenP

open Cert.Kernel Cert.Kernel.Gen
open Idealize.ShloMosaic Idealize.ShloMosaic.TcCoe Idealize.SL.Sem

variable {F : FTy → Type} [FloatOps F]

/-! ## Words in range, and the operations that only move words -/

/-- A word that, read signed, is a row of the gathered array. -/
abbrev InR (w : BitVec 32) : Prop := 0 ≤ w.toInt ∧ w.toInt < 163842

/-- A slice, a reshape and a gather of an array read words of the array: if every word of it is in range, so is every word
    of the result. -/
theorem inR_slice {s t : Shape} (off : Fin s.rank → Nat) (x : s.Idx → BitVec 32) (h : s.Slices off t)
    (hx : ∀ i, InR (x i)) (j : t.Idx) : InR (extractStridedSlice t off x h j) := hx _
theorem inR_cast {s t : Shape} (x : s.Idx → BitVec 32) (h : s.ShapeCasts t) (hx : ∀ i, InR (x i)) (j : t.Idx) :
    InR (shapeCast t x h j) := hx _
theorem inR_gather {s si t : Shape} {w : Nat} (d : GatherDims s si t) (x : s.Idx → BitVec 32) (idx : IVec si w)
    (hx : ∀ i, InR (x i)) (j : t.Idx) : InR (Host.gather d x idx j) := hx _

variable (m : (ℓ : Loc nD τ sig) → Buf (Elt F) ℓ)

/-- The first region writes its two results only: the index array is as launched. -/
theorem W1_arg1_any (c : Dev nD) : W1 m c main_arg1 = W0 m c main_arg1 := by
  unfold W1
  rw [Function.update_of_ne (StableHlo.devRef_ne_of_ne (by decide : (main_arg1 : Ref sig .tc) ≠ main_v0_1)),
    Function.update_of_ne (StableHlo.devRef_ne_of_ne (by decide : (main_arg1 : Ref sig .tc) ≠ main_v0_0))]

section
variable (hin : ∀ (c : Dev nD) i, 0 ≤ ((m ((c : Thread nD τ).loc main_arg1) : IVec S3x163840x2 32) i).toInt
  ∧ ((m ((c : Thread nD τ).loc main_arg1) : IVec S3x163840x2 32) i).toInt < 163842)
include hin

/-! ## The first host stretch: the two gathered index arrays and the first pair of tables

Each is a gather, at some positions, of a reshaped slice of the index array: its words are words of that array. -/

theorem W2_v14_inR (c : Dev nD) : ∀ i, InR ((W2 m c main_v14 : IVec S491520 32) i) := by
  unfold W2
  after_results
  rw [W1_arg1_any]
  intro i
  exact inR_gather _ _ _ (fun j => inR_cast _ _ (fun j => inR_cast _ _ (fun j => inR_slice _ _ _ (hin c) j) j) j) i

set_option maxHeartbeats 2000000 in
theorem W2_v21_inR (c : Dev nD) : ∀ i, InR ((W2 m c main_v21 : IVec S491520 32) i) := by
  unfold W2
  after_results
  rw [W1_arg1_any]
  intro i
  exact inR_gather _ _ _ (fun j => inR_cast _ _ (fun j => inR_cast _ _ (fun j => inR_slice _ _ _ (hin c) j) j) j) i

theorem W2_v22_inR (c : Dev nD) : ∀ i, InR ((W2 m c main_v22 : IVec S32768 32) i) := by
  unfold W2
  after_results
  rw [W1_arg1_any]
  intro i
  exact inR_slice _ _ _ (fun j => inR_gather _ _ _ (fun j => inR_cast _ _ (fun j => inR_cast _ _
    (fun j => inR_slice _ _ _ (hin c) j) j) j) j) i

set_option maxHeartbeats 2000000 in
theorem W2_v23_inR (c : Dev nD) : ∀ i, InR ((W2 m c main_v23 : IVec S32768 32) i) := by
  unfold W2
  after_results
  rw [W1_arg1_any]
  intro i
  exact inR_slice _ _ _ (fun j => inR_gather _ _ _ (fun j => inR_cast _ _ (fun j => inR_cast _ _
    (fun j => inR_slice _ _ _ (hin c) j) j) j) j) i

/-- Region 1's tables are admissible. -/
theorem okc_1 : Ok1 (VW (W2 m)) :=
  ok1_of_range _ (fun i => W2_v22_inR m hin 0 i) (fun i => W2_v23_inR m hin 0 i)

/-! ## Region 2: its tables are the slices [32768, 65536) of the two gathered index arrays -/

theorem W4_v26_inR (c : Dev nD) : ∀ i, InR ((W4 m c main_v26 : IVec S32768 32) i) := by
  unfold W4
  after_results
  rw [keep_v14_2]
  intro i
  exact inR_slice _ _ _ (W2_v14_inR m hin c) i

theorem W4_v27_inR (c : Dev nD) : ∀ i, InR ((W4 m c main_v27 : IVec S32768 32) i) := by
  unfold W4
  after_results
  rw [keep_v21_2]
  intro i
  exact inR_slice _ _ _ (W2_v21_inR m hin c) i

/-- Region 2's tables are admissible. -/
theorem okc_2 : Ok2 (VW (W4 m)) :=
  ok2_of_range _ (fun i => W4_v26_inR m hin 0 i) (fun i => W4_v27_inR m hin 0 i)

/-! ## Region 3: its tables are the slices [65536, 98304) of the two gathered index arrays -/

theorem W6_v30_inR (c : Dev nD) : ∀ i, InR ((W6 m c main_v30 : IVec S32768 32) i) := by
  unfold W6
  after_results
  rw [keep_v14_3]
  intro i
  exact inR_slice _ _ _ (W2_v14_inR m hin c) i

theorem W6_v31_inR (c : Dev nD) : ∀ i, InR ((W6 m c main_v31 : IVec S32768 32) i) := by
  unfold W6
  after_results
  rw [keep_v21_3]
  intro i
  exact inR_slice _ _ _ (W2_v21_inR m hin c) i

/-- Region 3's tables are admissible. -/
theorem okc_3 : Ok3 (VW (W6 m)) :=
  ok3_of_range _ (fun i => W6_v30_inR m hin 0 i) (fun i => W6_v31_inR m hin 0 i)

/-! ## Region 4: its tables are the slices [98304, 131072) of the two gathered index arrays -/

theorem W8_v34_inR (c : Dev nD) : ∀ i, InR ((W8 m c main_v34 : IVec S32768 32) i) := by
  unfold W8
  after_results
  rw [keep_v14_4]
  intro i
  exact inR_slice _ _ _ (W2_v14_inR m hin c) i

theorem W8_v35_inR (c : Dev nD) : ∀ i, InR ((W8 m c main_v35 : IVec S32768 32) i) := by
  unfold W8
  after_results
  rw [keep_v21_4]
  intro i
  exact inR_slice _ _ _ (W2_v21_inR m hin c) i

/-- Region 4's tables are admissible. -/
theorem okc_4 : Ok4 (VW (W8 m)) :=
  ok4_of_range _ (fun i => W8_v34_inR m hin 0 i) (fun i => W8_v35_inR m hin 0 i)

/-! ## Region 5: its tables are the slices [131072, 163840) of the two gathered index arrays -/

theorem W10_v38_inR (c : Dev nD) : ∀ i, InR ((W10 m c main_v38 : IVec S32768 32) i) := by
  unfold W10
  after_results
  rw [keep_v14_5]
  intro i
  exact inR_slice _ _ _ (W2_v14_inR m hin c) i

theorem W10_v39_inR (c : Dev nD) : ∀ i, InR ((W10 m c main_v39 : IVec S32768 32) i) := by
  unfold W10
  after_results
  rw [keep_v21_5]
  intro i
  exact inR_slice _ _ _ (W2_v21_inR m hin c) i

/-- Region 5's tables are admissible. -/
theorem okc_5 : Ok5 (VW (W10 m)) :=
  ok5_of_range _ (fun i => W10_v38_inR m hin 0 i) (fun i => W10_v39_inR m hin 0 i)

/-! ## Region 6: its tables are the slices [163840, 196608) of the two gathered index arrays -/

theorem W12_v42_inR (c : Dev nD) : ∀ i, InR ((W12 m c main_v42 : IVec S32768 32) i) := by
  unfold W12
  after_results
  rw [keep_v14_6]
  intro i
  exact inR_slice _ _ _ (W2_v14_inR m hin c) i

theorem W12_v43_inR (c : Dev nD) : ∀ i, InR ((W12 m c main_v43 : IVec S32768 32) i) := by
  unfold W12
  after_results
  rw [keep_v21_6]
  intro i
  exact inR_slice _ _ _ (W2_v21_inR m hin c) i

/-- Region 6's tables are admissible. -/
theorem okc_6 : Ok6 (VW (W12 m)) :=
  ok6_of_range _ (fun i => W12_v42_inR m hin 0 i) (fun i => W12_v43_inR m hin 0 i)

/-! ## Region 7: its tables are the slices [196608, 229376) of the two gathered index arrays -/

theorem W14_v46_inR (c : Dev nD) : ∀ i, InR ((W14 m c main_v46 : IVec S32768 32) i) := by
  unfold W14
  after_results
  rw [keep_v14_7]
  intro i
  exact inR_slice _ _ _ (W2_v14_inR m hin c) i

theorem W14_v47_inR (c : Dev nD) : ∀ i, InR ((W14 m c main_v47 : IVec S32768 32) i) := by
  unfold W14
  after_results
  rw [keep_v21_7]
  intro i
  exact inR_slice _ _ _ (W2_v21_inR m hin c) i

/-- Region 7's tables are admissible. -/
theorem okc_7 : Ok7 (VW (W14 m)) :=
  ok7_of_range _ (fun i => W14_v46_inR m hin 0 i) (fun i => W14_v47_inR m hin 0 i)

/-! ## Region 8: its tables are the slices [229376, 262144) of the two gathered index arrays -/

theorem W16_v50_inR (c : Dev nD) : ∀ i, InR ((W16 m c main_v50 : IVec S32768 32) i) := by
  unfold W16
  after_results
  rw [keep_v14_8]
  intro i
  exact inR_slice _ _ _ (W2_v14_inR m hin c) i

theorem W16_v51_inR (c : Dev nD) : ∀ i, InR ((W16 m c main_v51 : IVec S32768 32) i) := by
  unfold W16
  after_results
  rw [keep_v21_8]
  intro i
  exact inR_slice _ _ _ (W2_v21_inR m hin c) i

/-- Region 8's tables are admissible. -/
theorem okc_8 : Ok8 (VW (W16 m)) :=
  ok8_of_range _ (fun i => W16_v50_inR m hin 0 i) (fun i => W16_v51_inR m hin 0 i)

/-! ## Region 9: its tables are the slices [262144, 294912) of the two gathered index arrays -/

theorem W18_v54_inR (c : Dev nD) : ∀ i, InR ((W18 m c main_v54 : IVec S32768 32) i) := by
  unfold W18
  after_results
  rw [keep_v14_9]
  intro i
  exact inR_slice _ _ _ (W2_v14_inR m hin c) i

theorem W18_v55_inR (c : Dev nD) : ∀ i, InR ((W18 m c main_v55 : IVec S32768 32) i) := by
  unfold W18
  after_results
  rw [keep_v21_9]
  intro i
  exact inR_slice _ _ _ (W2_v21_inR m hin c) i

/-- Region 9's tables are admissible. -/
theorem okc_9 : Ok9 (VW (W18 m)) :=
  ok9_of_range _ (fun i => W18_v54_inR m hin 0 i) (fun i => W18_v55_inR m hin 0 i)

/-! ## Region 10: its tables are the slices [294912, 327680) of the two gathered index arrays -/

theorem W20_v58_inR (c : Dev nD) : ∀ i, InR ((W20 m c main_v58 : IVec S32768 32) i) := by
  unfold W20
  after_results
  rw [keep_v14_10]
  intro i
  exact inR_slice _ _ _ (W2_v14_inR m hin c) i

theorem W20_v59_inR (c : Dev nD) : ∀ i, InR ((W20 m c main_v59 : IVec S32768 32) i) := by
  unfold W20
  after_results
  rw [keep_v21_10]
  intro i
  exact inR_slice _ _ _ (W2_v21_inR m hin c) i

/-- Region 10's tables are admissible. -/
theorem okc_10 : Ok10 (VW (W20 m)) :=
  ok10_of_range _ (fun i => W20_v58_inR m hin 0 i) (fun i => W20_v59_inR m hin 0 i)

/-! ## Region 11: its tables are the slices [327680, 360448) of the two gathered index arrays -/

theorem W22_v62_inR (c : Dev nD) : ∀ i, InR ((W22 m c main_v62 : IVec S32768 32) i) := by
  unfold W22
  after_results
  rw [keep_v14_11]
  intro i
  exact inR_slice _ _ _ (W2_v14_inR m hin c) i

theorem W22_v63_inR (c : Dev nD) : ∀ i, InR ((W22 m c main_v63 : IVec S32768 32) i) := by
  unfold W22
  after_results
  rw [keep_v21_11]
  intro i
  exact inR_slice _ _ _ (W2_v21_inR m hin c) i

/-- Region 11's tables are admissible. -/
theorem okc_11 : Ok11 (VW (W22 m)) :=
  ok11_of_range _ (fun i => W22_v62_inR m hin 0 i) (fun i => W22_v63_inR m hin 0 i)

/-! ## Region 12: its tables are the slices [360448, 393216) of the two gathered index arrays -/

theorem W24_v66_inR (c : Dev nD) : ∀ i, InR ((W24 m c main_v66 : IVec S32768 32) i) := by
  unfold W24
  after_results
  rw [keep_v14_12]
  intro i
  exact inR_slice _ _ _ (W2_v14_inR m hin c) i

theorem W24_v67_inR (c : Dev nD) : ∀ i, InR ((W24 m c main_v67 : IVec S32768 32) i) := by
  unfold W24
  after_results
  rw [keep_v21_12]
  intro i
  exact inR_slice _ _ _ (W2_v21_inR m hin c) i

/-- Region 12's tables are admissible. -/
theorem okc_12 : Ok12 (VW (W24 m)) :=
  ok12_of_range _ (fun i => W24_v66_inR m hin 0 i) (fun i => W24_v67_inR m hin 0 i)

/-! ## Region 13: its tables are the slices [393216, 425984) of the two gathered index arrays -/

theorem W26_v70_inR (c : Dev nD) : ∀ i, InR ((W26 m c main_v70 : IVec S32768 32) i) := by
  unfold W26
  after_results
  rw [keep_v14_13]
  intro i
  exact inR_slice _ _ _ (W2_v14_inR m hin c) i

theorem W26_v71_inR (c : Dev nD) : ∀ i, InR ((W26 m c main_v71 : IVec S32768 32) i) := by
  unfold W26
  after_results
  rw [keep_v21_13]
  intro i
  exact inR_slice _ _ _ (W2_v21_inR m hin c) i

/-- Region 13's tables are admissible. -/
theorem okc_13 : Ok13 (VW (W26 m)) :=
  ok13_of_range _ (fun i => W26_v70_inR m hin 0 i) (fun i => W26_v71_inR m hin 0 i)

/-! ## Region 14: its tables are the slices [425984, 458752) of the two gathered index arrays -/

theorem W28_v74_inR (c : Dev nD) : ∀ i, InR ((W28 m c main_v74 : IVec S32768 32) i) := by
  unfold W28
  after_results
  rw [keep_v14_14]
  intro i
  exact inR_slice _ _ _ (W2_v14_inR m hin c) i

theorem W28_v75_inR (c : Dev nD) : ∀ i, InR ((W28 m c main_v75 : IVec S32768 32) i) := by
  unfold W28
  after_results
  rw [keep_v21_14]
  intro i
  exact inR_slice _ _ _ (W2_v21_inR m hin c) i

/-- Region 14's tables are admissible. -/
theorem okc_14 : Ok14 (VW (W28 m)) :=
  ok14_of_range _ (fun i => W28_v74_inR m hin 0 i) (fun i => W28_v75_inR m hin 0 i)

/-! ## Region 15: its tables are the slices [458752, 491520) of the two gathered index arrays -/

theorem W30_v78_inR (c : Dev nD) : ∀ i, InR ((W30 m c main_v78 : IVec S32768 32) i) := by
  unfold W30
  after_results
  rw [keep_v14_15]
  intro i
  exact inR_slice _ _ _ (W2_v14_inR m hin c) i

theorem W30_v79_inR (c : Dev nD) : ∀ i, InR ((W30 m c main_v79 : IVec S32768 32) i) := by
  unfold W30
  after_results
  rw [keep_v21_15]
  intro i
  exact inR_slice _ _ _ (W2_v21_inR m hin c) i

/-- Region 15's tables are admissible. -/
theorem okc_15 : Ok15 (VW (W30 m)) :=
  ok15_of_range _ (fun i => W30_v78_inR m hin 0 i) (fun i => W30_v79_inR m hin 0 i)
end

end Cert.Kernel.GenP

end
-- ==== Proof.KernelIdeal.RunCond.lean ====
/- The run of the seventeen-region program with its result buffer read off the last valuation: the statement of the
   conditional frame extended by one conjunct for the result. The valuations between the items, the host segments and the
   segment list are those of the conditional-frame module; the final state is read against the last valuation at every
   unscoped buffer, so the result's conjunct is read exactly as the arguments' are. -/
import proofs.«175043_j76819785056407_2_alg».proof.Proof.KernelIdeal.RegionsP

set_option maxRecDepth 65536

noncomputable section

namespace Cert.KernelIdeal.GenP

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The conditional run with the result named: under the same hypotheses as the conditional frame (one segment record per
    region, entered from and left at the valuations between the items), every weakly fair execution of @main terminates and the
    final memory holds, beside each argument as launched, the result buffer at the last valuation's contents — the last host
    operation's value over what the regions left. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 17) → (pcfgs (F := F) p).Adm)
    (pdats : (p : Fin 17) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 18 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE17 : ∀ c : Dev nD, E 17 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V8 m outs c) ∗ E 4 c) ⊢ R4.pre c)
    (hpost4 : ∀ c : Dev nD, R4.post c ⊢ iprop(StableHlo.held (c : Thread nD τ) (Pipeline.ucRefs τ sig) (V9 m outs c) ∗ E 5 c))
    (R5 : RegionSeg (pcfgs (F := F)) a pdats ι defs₀ 𝒱₀ L lv 5)
    (hpre5 : ∀ c : Dev nD, iprop(StableHlo.held (c : Thread nD τ) (Pipeline.ucRefs τ sig) (V10 m outs c) ∗ E 5 c) ⊢ R5.pre c)
    (hpost5 : ∀ c : Dev nD, R5.post c ⊢ iprop(StableHlo.held (c : Thread nD τ) (Pipeline.ucRefs τ sig) (V11 m outs c) ∗ E 6 c))
    (R6 : RegionSeg (pcfgs (F := F)) a pdats ι defs₀ 𝒱₀ L lv 6)
    (hpre6 : ∀ c : Dev nD, iprop(StableHlo.held (c : Thread nD τ) (Pipeline.ucRefs τ sig) (V12 m outs c) ∗ E 6 c) ⊢ R6.pre c)
    (hpost6 : ∀ c : Dev nD, R6.post c ⊢ iprop(StableHlo.held (c : Thread nD τ) (Pipeline.ucRefs τ sig) (V13 m outs c) ∗ E 7 c))
    (R7 : RegionSeg (pcfgs (F := F)) a pdats ι defs₀ 𝒱₀ L lv 7)
    (hpre7 : ∀ c : Dev nD, iprop(StableHlo.held (c : Thread nD τ) (Pipeline.ucRefs τ sig) (V14 m outs c) ∗ E 7 c) ⊢ R7.pre c)
    (hpost7 : ∀ c : Dev nD, R7.post c ⊢ iprop(StableHlo.held (c : Thread nD τ) (Pipeline.ucRefs τ sig) (V15 m outs c) ∗ E 8 c))
    (R8 : RegionSeg (pcfgs (F := F)) a pdats ι defs₀ 𝒱₀ L lv 8)
    (hpre8 : ∀ c : Dev nD, iprop(StableHlo.held (c : Thread nD τ) (Pipeline.ucRefs τ sig) (V16 m outs c) ∗ E 8 c) ⊢ R8.pre c)
    (hpost8 : ∀ c : Dev nD, R8.post c ⊢ iprop(StableHlo.held (c : Thread nD τ) (Pipeline.ucRefs τ sig) (V17 m outs c) ∗ E 9 c))
    (R9 : RegionSeg (pcfgs (F := F)) a pdats ι defs₀ 𝒱₀ L lv 9)
    (hpre9 : ∀ c : Dev nD, iprop(StableHlo.held (c : Thread nD τ) (Pipeline.ucRefs τ sig) (V18 m outs c) ∗ E 9 c) ⊢ R9.pre c)
    (hpost9 : ∀ c : Dev nD, R9.post c ⊢ iprop(StableHlo.held (c : Thread nD τ) (Pipeline.ucRefs τ sig) (V19 m outs c) ∗ E 10 c))
    (R10 : RegionSeg (pcfgs (F := F)) a pdats ι defs₀ 𝒱₀ L lv 10)
    (hpre10 : ∀ c : Dev nD, iprop(StableHlo.held (c : Thread nD τ) (Pipeline.ucRefs τ sig) (V20 m outs c) ∗ E 10 c) ⊢ R10.pre c)
    (hpost10 : ∀ c : Dev nD, R10.post c ⊢ iprop(StableHlo.held (c : Thread nD τ) (Pipeline.ucRefs τ sig) (V21 m outs c) ∗ E 11 c))
    (R11 : RegionSeg (pcfgs (F := F)) a pdats ι defs₀ 𝒱₀ L lv 11)
    (hpre11 : ∀ c : Dev nD, iprop(StableHlo.held (c : Thread nD τ) (Pipeline.ucRefs τ sig) (V22 m outs c) ∗ E 11 c) ⊢ R11.pre c)
    (hpost11 : ∀ c : Dev nD, R11.post c ⊢ iprop(StableHlo.held (c : Thread nD τ) (Pipeline.ucRefs τ sig) (V23 m outs c) ∗ E 12 c))
    (R12 : RegionSeg (pcfgs (F := F)) a pdats ι defs₀ 𝒱₀ L lv 12)
    (hpre12 : ∀ c : Dev nD, iprop(StableHlo.held (c : Thread nD τ) (Pipeline.ucRefs τ sig) (V24 m outs c) ∗ E 12 c) ⊢ R12.pre c)
    (hpost12 : ∀ c : Dev nD, R12.post c ⊢ iprop(StableHlo.held (c : Thread nD τ) (Pipeline.ucRefs τ sig) (V25 m outs c) ∗ E 13 c))
    (R13 : RegionSeg (pcfgs (F := F)) a pdats ι defs₀ 𝒱₀ L lv 13)
    (hpre13 : ∀ c : Dev nD, iprop(StableHlo.held (c : Thread nD τ) (Pipeline.ucRefs τ sig) (V26 m outs c) ∗ E 13 c) ⊢ R13.pre c)
    (hpost13 : ∀ c : Dev nD, R13.post c ⊢ iprop(StableHlo.held (c : Thread nD τ) (Pipeline.ucRefs τ sig) (V27 m outs c) ∗ E 14 c))
    (R14 : RegionSeg (pcfgs (F := F)) a pdats ι defs₀ 𝒱₀ L lv 14)
    (hpre14 : ∀ c : Dev nD, iprop(StableHlo.held (c : Thread nD τ) (Pipeline.ucRefs τ sig) (V28 m outs c) ∗ E 14 c) ⊢ R14.pre c)
    (hpost14 : ∀ c : Dev nD, R14.post c ⊢ iprop(StableHlo.held (c : Thread nD τ) (Pipeline.ucRefs τ sig) (V29 m outs c) ∗ E 15 c))
    (R15 : RegionSeg (pcfgs (F := F)) a pdats ι defs₀ 𝒱₀ L lv 15)
    (hpre15 : ∀ c : Dev nD, iprop(StableHlo.held (c : Thread nD τ) (Pipeline.ucRefs τ sig) (V30 m outs c) ∗ E 15 c) ⊢ R15.pre c)
    (hpost15 : ∀ c : Dev nD, R15.post c ⊢ iprop(StableHlo.held (c : Thread nD τ) (Pipeline.ucRefs τ sig) (V31 m outs c) ∗ E 16 c))
    (R16 : RegionSeg (pcfgs (F := F)) a pdats ι defs₀ 𝒱₀ L lv 16)
    (hpre16 : ∀ c : Dev nD, iprop(StableHlo.held (c : Thread nD τ) (Pipeline.ucRefs τ sig) (V32 m outs c) ∗ E 16 c) ⊢ R16.pre c)
    (hpost16 : ∀ c : Dev nD, R16.post c ⊢ iprop(StableHlo.held (c : Thread nD τ) (Pipeline.ucRefs τ sig) (V33 m outs c) ∗ E 17 c)) :
    θ_run defs (onTc (τ := τ) (main (F := F))) ⟨m, fun _ => 0, ρ⟩ (fun r => ∀ c : Dev nD,
      r.2.mem ((c.tc : Thread nD τ).loc main_v84) = V34 m outs c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) a pdats ι (cellOf_inj a) EP defs₀ 𝒱₀ L lv m ρ main
    (segs m outs 𝒱₀ L lv E ι a pdats R0 R1 R2 R3 R4 R5 R6 R7 R8 R9 R10 R11 R12 R13 R14 R15 R16)
    (fun c Q => by
      rewrite [main_chain c, Seg.run_eq_chain,
        show (segs m outs 𝒱₀ L lv E ι a pdats R0 R1 R2 R3 R4 R5 R6 R7 R8 R9 R10 R11 R12 R13 R14 R15 R16 c).map Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V34 m outs c))
    (hch := fun c => ⟨hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, hpre14 c, hpost14 c, hpre15 c, hpost15 c, hpre16 c, hpost16 c, sep_mono .rfl (hE17 c)⟩)
    (hinit := ?_) (QY := fun c s => s.mem ((c.tc : Thread nD τ).loc main_v84) = V34 m outs c main_v84 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V34 m outs c) s') $$ [Hh HSI]
    · isplitl [Hh] <;> iassumption
    icases Hr with ⟨%h, HSI⟩
    imodintro
    isplitr
    · ipureintro
      exact ⟨h (Proc.devRef .tc main_v84) (Finset.mem_filter.mpr ⟨StableHlo.devRef_mem_tcRefs main_v84, by decide⟩),
        (h (Proc.devRef .tc main_arg0) (Finset.mem_filter.mpr ⟨StableHlo.devRef_mem_tcRefs main_arg0, by decide⟩)).trans (V34_main_arg0 m outs c),
        (h (Proc.devRef .tc main_arg1) (Finset.mem_filter.mpr ⟨StableHlo.devRef_mem_tcRefs main_arg1, by decide⟩)).trans (V34_main_arg1 m outs c),
        (h (Proc.devRef .tc main_arg2) (Finset.mem_filter.mpr ⟨StableHlo.devRef_mem_tcRefs main_arg2, by decide⟩)).trans (V34_main_arg2 m outs c)⟩
    · iexact HSI

end Cert.KernelIdeal.GenP

end
-- ==== Proof.KernelIdeal.R0.lean ====
/- The first region of the program: its proof data and body obligation. -/
import proofs.«175043_j76819785056407_2_alg».proof.Proof.Gen.KernelIdeal.Launch
import proofs.«175043_j76819785056407_2_alg».proof.Proof.Gen.KernelIdeal.Skeleton
import proofs.«175043_j76819785056407_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The averaging region (custom_call 0): each grid point reads a 4×128×2048 block of the input, cut at the array's end on
    its long axis, and writes two blocks: the half-sum of its channel slices 0‥31 and 32‥63, laid as 4×32×2048, and the
    quarter-sum of its channel slices 64‥95 and 96‥127, re-laid as 128×2048 and transposed to 2048×128. Stated at the
    contents `V` the region is entered from. -/

/-- The four channel slices of the input block the body loads, and the two whole output blocks it stores. -/
abbrev r0_a : Rect S4x128x2048 := Rect.unit (s := S4x128x2048) ![0, 0, 0] S4x32x2048.size inb_S4x128x2048_S4x32x2048_0_0_0
abbrev r0_b : Rect S4x128x2048 := Rect.unit (s := S4x128x2048) ![0, 32, 0] S4x32x2048.size inb_S4x128x2048_S4x32x2048_0_32_0
abbrev r0_c : Rect S4x128x2048 := Rect.unit (s := S4x128x2048) ![0, 64, 0] S4x32x2048.size inb_S4x128x2048_S4x32x2048_0_64_0
abbrev r0_d : Rect S4x128x2048 := Rect.unit (s := S4x128x2048) ![0, 96, 0] S4x32x2048.size inb_S4x128x2048_S4x32x2048_0_96_0
abbrev r0_o1 : Rect S4x32x2048 := Rect.unit (s := S4x32x2048) ![0, 0, 0] S4x32x2048.size inb_S4x32x2048_S4x32x2048_0_0_0
abbrev r0_o2 : Rect S2048x128 := Rect.unit (s := S2048x128) ![0, 0] S2048x128.size inb_S2048x128_S2048x128_0_0

/-- The first output block after the body, from the whole input block `X`. -/
def out0_1 (X : Vec F S4x128x2048 .f32) : Vec F S4x32x2048 .f32 :=
  View.canon [⟨r0_o1, k0_pay1 (View.ld X r0_a) (View.ld X r0_b)⟩]
/-- The second. -/
def out0_2 (X : Vec F S4x128x2048 .f32) : Vec F S2048x128 .f32 :=
  View.canon [⟨r0_o2, k0_pay2 (View.ld X r0_c) (View.ld X r0_d)⟩]

theorem cover0_1 (p0 : Vec F S4x32x2048 .f32) (y : S4x32x2048.Idx) :
    ∃ pc ∈ ([⟨r0_o1, p0⟩] : List (View.Piece (Elt F) S4x32x2048 .f32)), y ∈ pc.1.set :=
  View.cover_of_tiled [⟨r0_o1, p0⟩] S4x32x2048.size (by rfl) y
theorem cover0_2 (p0 : Vec F S2048x128 .f32) (y : S2048x128.Idx) :
    ∃ pc ∈ ([⟨r0_o2, p0⟩] : List (View.Piece (Elt F) S2048x128 .f32)), y ∈ pc.1.set :=
  View.cover_of_tiled [⟨r0_o2, p0⟩] S2048x128.size (by rfl) y

set_option maxHeartbeats 1000000 in
/-- The body on whole staging memrefs: the input stays; the outputs end at the two payloads of its slices. -/
theorem sound_kernel0 (c : Dev nD) (E : Set ℕ) (i : grid0.Coords)
    (arg1 : Memref sig .tc .vmem S4x128x2048 .f32) (harg1 : arg1.IsWhole) (arg2 : Memref sig .tc .vmem S4x32x2048 .f32) (harg2 : arg2.IsWhole)
    (arg3 : Memref sig .tc .vmem S2048x128 .f32) (harg3 : arg3.IsWhole)
    (X : Vec F S4x128x2048 .f32) (K : PUnit → sProp 𝕄) :
    iprop(owns (c : Thread nD τ) arg1 fullShare X ∗ (∃ d, owns (c : Thread nD τ) arg2 fullShare d) ∗ (∃ d, owns (c : Thread nD τ) arg3 fullShare d)
        ∗ (iprop(owns (c : Thread nD τ) arg1 fullShare X ∗ owns (c : Thread nD τ) arg2 fullShare (out0_1 X)
            ∗ owns (c : Thread nD τ) arg3 fullShare (out0_2 X)) -∗ K ⟨⟩))
      ⊢ wp frame (wpE (defs₀ (F := F)) Variants.none c none) E (cc0__kernel_a i arg1 harg1 arg2 harg2 arg3 harg3) K := by
  simp only [cc0__kernel_a_eq_skeleton]; unfold cc0__kernel_a_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The two payloads read at an index -/

/-- The first payload at an index: half the sum of the two operands there. -/
theorem pay1_apply (v0 v1 : Vec F S4x32x2048 .f32) (j : S4x32x2048.Idx) :
    k0_pay1 v0 v1 j = FloatOps.mulf (FloatOps.addf (v0 j) (v1 j)) (Scalar.ofBits .f32 0x3F000000#32) := rfl

/-- Where the second payload reads its operands from: output row `n`, column `q` comes from batch `q / 32`, channel
    `q % 32`, position `n` (the 4×32×2048 operand re-laid as 128×2048 and transposed). -/
def src0_2 (y : S2048x128.Idx) : S4x32x2048.Idx :=
  ValueIdx.ix3 (⟨(y 1).val / 32, by have := (y 1).isLt; show _ < 4; change (y 1).val < 128 at this; omega⟩ : Fin 4)
    (⟨(y 1).val % 32, Nat.mod_lt _ (by decide)⟩ : Fin 32) (⟨(y 0).val, (y 0).isLt⟩ : Fin 2048)

/-- The second payload at an index: a quarter of the sum of the two operands at the source index. -/
theorem pay2_apply (v2 v3 : Vec F S4x32x2048 .f32) (y : S2048x128.Idx) :
    k0_pay2 v2 v3 y = FloatOps.mulf (FloatOps.addf (v2 (src0_2 y)) (v3 (src0_2 y))) (Scalar.ofBits .f32 0x3E800000#32) := by
  unfold k0_pay2
  rw [transpose_apply [1, 0] _ transposes_S128x2048_p1_0_S2048x128 y
      (ValueIdx.ix2 (⟨(y 1).val, (y 1).isLt⟩ : Fin 128) (⟨(y 0).val, (y 0).isLt⟩ : Fin 2048))
      (fun b => match b with | ⟨0, _⟩ => rfl | ⟨1, _⟩ => rfl)]
  rw [shapeCast_apply _ shapeCasts_S4x32x2048_S128x2048 _ (src0_2 y) (by
    rw [Shape.rowMajor_val_three, Shape.rowMajor_val_two]
    show ((y 1).val / 32 * 32 + (y 1).val % 32) * 2048 + (y 0).val = (y 1).val * 2048 + (y 0).val
    rw [Nat.div_add_mod' (y 1).val 32])]
  rfl

/-! ## The two output blocks read at an index -/

theorem hz0_3 : (![0, 0, 0] : Fin 3 → Nat) = fun _ => 0 := funext fun a => by fin_cases a <;> rfl
theorem hz0_2 : (![0, 0] : Fin 2 → Nat) = fun _ => 0 := funext fun a => by fin_cases a <;> rfl

theorem out0_1_apply (X : Vec F S4x128x2048 .f32) (y : S4x32x2048.Idx) :
    out0_1 X y = FloatOps.mulf (FloatOps.addf (X (r0_a.emb y)) (X (r0_b.emb y))) (Scalar.ofBits .f32 0x3F000000#32) := by
  unfold out0_1; rw [View.canon_unit_zero hz0_3]; rfl

theorem out0_2_apply (X : Vec F S4x128x2048 .f32) (y : S2048x128.Idx) :
    out0_2 X y = FloatOps.mulf (FloatOps.addf (X (r0_c.emb (src0_2 y))) (X (r0_d.emb (src0_2 y)))) (Scalar.ofBits .f32 0x3E800000#32) := by
  unfold out0_2; rw [View.canon_unit_zero hz0_2, pay2_apply]; rfl

/-! ## What the three transfers move

All three windows are cut at the array's end on their long axis only — the input's and the first output's axis 2, the second
output's axis 0 —, and alike: at every grid point the three cuts leave the same number of positions. -/

theorem xs0_0_0 (i : grid0.Coords) : win0_0.xsize i 0 = 4 := rfl
theorem xs0_0_1 (i : grid0.Coords) : win0_0.xsize i 1 = 128 := rfl
theorem xs0_1_0 (i : grid0.Coords) : win0_1.xsize i 0 = 4 := rfl
theorem xs0_1_1 (i : grid0.Coords) : win0_1.xsize i 1 = 32 := rfl
theorem xs0_1_2 (i : grid0.Coords) : win0_1.xsize i 2 = win0_0.xsize i 2 := rfl
theorem xs0_2_0 (i : grid0.Coords) : win0_2.xsize i 0 = win0_0.xsize i 2 := rfl
theorem xs0_2_1 (i : grid0.Coords) : win0_2.xsize i 1 = 128 := rfl

/-- Where a transfer moves the block, what the filled block holds does not depend on the filler. -/
theorem fill_eq_of_moved {G : Pipeline.Grid} (w : Window sig G) {α : Type} (i : G.Coords) (d d' : w.block.Idx → α)
    (g : (w.xblock i).Idx → α) {k : w.block.Idx} (h : w.moved i k = true) : w.fill i d g k = w.fill i d' g k := by
  unfold Window.fill; rw [dif_pos h, dif_pos h]

/-- An index the first output's transfer moves reads the input, through either of its two slices, where the input's
    transfer moved it: the slices keep the long axis's position. -/
theorem moved0_a (i : grid0.Coords) (j : (win0_1.xblock i).Idx) : win0_0.moved i (r0_a.emb (win0_1.xinj i j)) = true :=
  (win0_0.moved_iff i _).mpr (show ∀ a : Fin 3, _ from fun a => match a with
    | ⟨0, _⟩ => by have h : (j 0).val < 4 := (j 0).isLt; show 0 + 1 * (j 0).val < 4; omega
    | ⟨1, _⟩ => by have h : (j 1).val < 32 := (j 1).isLt; show 0 + 1 * (j 1).val < 128; omega
    | ⟨2, _⟩ => by have h : (j 2).val < win0_0.xsize i 2 := (j 2).isLt; show 0 + 1 * (j 2).val < win0_0.xsize i 2; omega)
theorem moved0_b (i : grid0.Coords) (j : (win0_1.xblock i).Idx) : win0_0.moved i (r0_b.emb (win0_1.xinj i j)) = true :=
  (win0_0.moved_iff i _).mpr (show ∀ a : Fin 3, _ from fun a => match a with
    | ⟨0, _⟩ => by have h : (j 0).val < 4 := (j 0).isLt; show 0 + 1 * (j 0).val < 4; omega
    | ⟨1, _⟩ => by have h : (j 1).val < 32 := (j 1).isLt; show 32 + 1 * (j 1).val < 128; omega
    | ⟨2, _⟩ => by have h : (j 2).val < win0_0.xsize i 2 := (j 2).isLt; show 0 + 1 * (j 2).val < win0_0.xsize i 2; omega)
/-- An index the second output's transfer moves likewise: its row is the long axis's position. -/
theorem moved0_c (i : grid0.Coords) (j : (win0_2.xblock i).Idx) : win0_0.moved i (r0_c.emb (src0_2 (win0_2.xinj i j))) = true :=
  (win0_0.moved_iff i _).mpr (show ∀ a : Fin 3, _ from fun a => match a with
    | ⟨0, _⟩ => by have h : (j 1).val < 128 := (j 1).isLt; show 0 + 1 * ((j 1).val / 32) < 4; omega
    | ⟨1, _⟩ => by have h : (j 1).val < 128 := (j 1).isLt; show 64 + 1 * ((j 1).val % 32) < 128; omega
    | ⟨2, _⟩ => by have h : (j 0).val < win0_0.xsize i 2 := (j 0).isLt; show 0 + 1 * (j 0).val < win0_0.xsize i 2; omega)
theorem moved0_d (i : grid0.Coords) (j : (win0_2.xblock i).Idx) : win0_0.moved i (r0_d.emb (src0_2 (win0_2.xinj i j))) = true :=
  (win0_0.moved_iff i _).mpr (show ∀ a : Fin 3, _ from fun a => match a with
    | ⟨0, _⟩ => by have h : (j 1).val < 128 := (j 1).isLt; show 0 + 1 * ((j 1).val / 32) < 4; omega
    | ⟨1, _⟩ => by have h : (j 1).val < 128 := (j 1).isLt; show 96 + 1 * ((j 1).val % 32) < 128; omega
    | ⟨2, _⟩ => by have h : (j 0).val < win0_0.xsize i 2 := (j 0).isLt; show 0 + 1 * (j 0).val < win0_0.xsize i 2; omega)

/-- So the part of each output block its transfer moves is a function of the part of the input block the fetch moved:
    whatever filled the input block past the array's end does not reach it. -/
theorem cut0_1 (i : grid0.Coords) (d d' : S4x128x2048.Idx → Elt F .f32) (g : (win0_0.xblock i).Idx → Elt F .f32) :
    win0_1.cut i (out0_1 (win0_0.fill i d g)) = win0_1.cut i (out0_1 (win0_0.fill i d' g)) := by
  funext j
  have ea := fill_eq_of_moved win0_0 i d d' g (moved0_a i j)
  have eb := fill_eq_of_moved win0_0 i d d' g (moved0_b i j)
  show out0_1 _ (win0_1.xinj i j) = out0_1 _ (win0_1.xinj i j)
  rw [out0_1_apply, out0_1_apply, ea, eb]
theorem cut0_2 (i : grid0.Coords) (d d' : S4x128x2048.Idx → Elt F .f32) (g : (win0_0.xblock i).Idx → Elt F .f32) :
    win0_2.cut i (out0_2 (win0_0.fill i d g)) = win0_2.cut i (out0_2 (win0_0.fill i d' g)) := by
  funext j
  have ec := fill_eq_of_moved win0_0 i d d' g (moved0_c i j)
  have ed := fill_eq_of_moved win0_0 i d d' g (moved0_d i j)
  show out0_2 _ (win0_2.xinj i j) = out0_2 _ (win0_2.xinj i j)
  rw [out0_2_apply, out0_2_apply, ec, ed]

section
variable (V : (c : Dev nD) → (b : Ref sig .tc) → Buf (Elt F) ((c : Thread nD τ).loc b))

/-- Window `w`'s block at point `t`, its part inside the array, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole input block as the proof names it after the body at point `t`: the block's part inside the array, and past the
    array's end the zero word — a choice nothing reads: every window is loose, and the outputs' moved parts do not depend
    on it (`cut0_1`, `cut0_2`). -/
def xin0 (c : Dev nD) (t : Fin cfg0.N) : Vec F S4x128x2048 .f32 :=
  win0_0.fill (grid0.coords t) (fun _ => Scalar.ofBits .f32 0#32) (iblk0 V c 0 t)

/-- The region's proof data on core `c`: the arrays as the region finds them; after the body the input's buffer at its
    block and the two outputs' at the two payloads of it (each stated, by the loose obligation, on the part its transfer
    moves); the invariant carries the scoped rest; full shares; nothing owed. -/
def dat0 (c : Dev nD) : Dat τ (Elt F) Unit ℕ (UR sig nD τ) ℕ cfg0 c where
  A w := V c (Pipeline.arrRef spec0 w)
  after w t := match w with
    | ⟨0, _⟩ => xin0 V c t
    | ⟨1, _⟩ => out0_1 (xin0 V c t)
    | ⟨2, _⟩ => out0_2 (xin0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = xin0 V c t := by dsimp only [dat0]
theorem after0_1 (c : Dev nD) (t : Fin cfg0.N) : (dat0 V c).after 1 t = out0_1 (xin0 V c t) := by dsimp only [dat0]
theorem after0_2 (c : Dev nD) (t : Fin cfg0.N) : (dat0 V c).after 2 t = out0_2 (xin0 V c t) := by dsimp only [dat0]

/-- What the body finds: the input's buffer just fetched — its block on the part inside the array, `d` elsewhere —, -/
theorem before0_0 (c : Dev nD) (t : Fin cfg0.N) (d) :
    (dat0 V c).before 0 t d = win0_0.fill (grid0.coords t) d (iblk0 V c 0 t) := by
  rw [Dat.before_fetched _ 0 t (fetch0_0 t)]; rfl
/-- and each output's buffer at contents nothing names: it was written back at the point before. -/
theorem before0_1 (c : Dev nD) (t : Fin cfg0.N) (d) : (dat0 V c).before 1 t d = d :=
  Dat.before_out_reset _ 1 rfl t (by
    by_cases h0 : t.val = 0
    · exact .inl h0
    · exact .inr ⟨h0, flush0_1 _⟩) d
theorem before0_2 (c : Dev nD) (t : Fin cfg0.N) (d) : (dat0 V c).before 2 t d = d :=
  Dat.before_out_reset _ 2 rfl t (by
    by_cases h0 : t.val = 0
    · exact .inl h0
    · exact .inr ⟨h0, flush0_2 _⟩) d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- Each buffer handed back stated on the part its window's transfer moves. -/
def bodyPost0 (c : Dev nD) (t : Fin cfg0.N) : sProp 𝕄 :=
  iprop((dat0 V c).Φ t.succ ∗ (dat0 V c).owesAt () t.succ
    ∗ (∃ d, owns (c : Thread nD τ) (st0_0 t) fullShare
        (win0_0.fill (grid0.coords t) d (win0_0.cut (grid0.coords t) ((dat0 V c).after 0 t))))
    ∗ (∃ d, owns (c : Thread nD τ) (st0_1 t) fullShare
        (win0_1.fill (grid0.coords t) d (win0_1.cut (grid0.coords t) ((dat0 V c).after 1 t))))
    ∗ (∃ d, owns (c : Thread nD τ) (st0_2 t) fullShare
        (win0_2.fill (grid0.coords t) d (win0_2.cut (grid0.coords t) ((dat0 V c).after 2 t)))))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (win0_0.fill (grid0.coords t) d0 (iblk0 V c 0 t)) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  -- each buffer holds what the body really left, which on the moved part is what the data names: filling the
  -- data's moved part into what is there changes nothing
  isplitl [H0]
  · iexists win0_0.fill (grid0.coords t) d0 (iblk0 V c 0 t)
    rw [win0_0.fill_congr_cut (grid0.coords t)
      (show win0_0.cut (grid0.coords t) (win0_0.fill (grid0.coords t) d0 (iblk0 V c 0 t)) = win0_0.cut (grid0.coords t) (xin0 V c t) by
        unfold xin0; rw [win0_0.cut_fill, win0_0.cut_fill])]
    iexact H0
  isplitl [H1]
  · iexists out0_1 (win0_0.fill (grid0.coords t) d0 (iblk0 V c 0 t))
    rw [win0_1.fill_congr_cut (grid0.coords t)
      (show win0_1.cut (grid0.coords t) (out0_1 (win0_0.fill (grid0.coords t) d0 (iblk0 V c 0 t))) = win0_1.cut (grid0.coords t) (out0_1 (xin0 V c t)) from
        cut0_1 _ _ _ _)]
    iexact H1
  · iexists out0_2 (win0_0.fill (grid0.coords t) d0 (iblk0 V c 0 t))
    rw [win0_2.fill_congr_cut (grid0.coords t)
      (show win0_2.cut (grid0.coords t) (out0_2 (win0_0.fill (grid0.coords t) d0 (iblk0 V c 0 t))) = win0_2.cut (grid0.coords t) (out0_2 (xin0 V c t)) from
        cut0_2 _ _ _ _)]
    iexact H2

/-- The library's loose body obligation: no point is idle and every window is loose, so each buffer is handed back stated
    on the part its transfer moves. -/
theorem body_obligation0 (c : Dev nD) :
    Pipeline.BodyObligationLoose (dat0 (F := F) V c) (defs₀ (F := F)) Variants.none () Set.univ := fun t => by
  rw [bigSep_W0, bigSep_W0]
  exact sound_body0 V c t
end

end Cert.KernelIdeal.GenP

end
-- ==== Proof.KernelIdeal.R16.lean ====
/- The last region of the program: its proof data and body obligation. -/
import proofs.«175043_j76819785056407_2_alg».proof.Proof.Gen.KernelIdeal.Launch
import proofs.«175043_j76819785056407_2_alg».proof.Proof.Gen.KernelIdeal.Skeleton
import proofs.«175043_j76819785056407_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The transposing region (custom_call 16): each grid point reads a 2048×128 block of gathered rows and writes it
    transposed and re-laid as 4×32×2048. Stated at the contents `V` the region is entered from. -/

section
variable (V : (c : Dev nD) → (b : Ref sig .tc) → Buf (Elt F) ((c : Thread nD τ).loc b))

/-- Window `w`'s block at point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
end

abbrev r16_in : Rect S2048x128 := Rect.unit (s := S2048x128) ![0, 0] S2048x128.size inb_S2048x128_S2048x128_0_0
abbrev r16_out : Rect S4x32x2048 := Rect.unit (s := S4x32x2048) ![0, 0, 0] S4x32x2048.size inb_S4x32x2048_S4x32x2048_0_0_0

/-- The output block after the body: the input block transposed and re-laid. -/
def out16_1 (x0 : Vec F S2048x128 .f32) : Vec F S4x32x2048 .f32 :=
  View.canon [⟨r16_out, k16_pay1 (View.ld x0 r16_in)⟩]

theorem cover16_1 (p0 : Vec F S4x32x2048 .f32) (y : S4x32x2048.Idx) :
    ∃ pc ∈ ([⟨r16_out, p0⟩] : List (View.Piece (Elt F) S4x32x2048 .f32)), y ∈ pc.1.set :=
  View.cover_of_tiled [⟨r16_out, p0⟩] S4x32x2048.size (by rfl) y

set_option maxHeartbeats 1000000 in
theorem sound_kernel16 (c : Dev nD) (E : Set ℕ) (i : grid16.Coords)
    (arg1 : Memref sig .tc .vmem S2048x128 .f32) (harg1 : arg1.IsWhole) (arg2 : Memref sig .tc .vmem S4x32x2048 .f32) (harg2 : arg2.IsWhole)
    (x0 : Vec F S2048x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out16_1 x0)) -∗ K ⟨⟩))
      ⊢ wp frame (wpE (defs₀ (F := F)) Variants.none c none) E (cc16__kernel_c i arg1 harg1 arg2 harg2) K := by
  simp only [cc16__kernel_c_eq_skeleton]; unfold cc16__kernel_c_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover16_1 _)

section
variable (V : (c : Dev nD) → (b : Ref sig .tc) → Buf (Elt F) ((c : Thread nD τ).loc b))

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => out16_1 (iblk16 V c 0 t)
  Φ _ := Pipeline.ΦA spec16 c
  q _ := fullShare
  owed _ := 0

theorem A_eq16 (c : Dev nD) (w : Fin cfg16.W) : (dat16 V c).A w = V c (Pipeline.arrRef spec16 w) := by
  dsimp only [dat16]
theorem after16_0 (c : Dev nD) (t : Fin cfg16.N) : (dat16 V c).after 0 t = iblk16 V c 0 t := by dsimp only [dat16]
theorem after16_1 (c : Dev nD) (t : Fin cfg16.N) : (dat16 V c).after 1 t = out16_1 (iblk16 V c 0 t) := by dsimp only [dat16]
theorem before16_0 (c : Dev nD) (t : Fin cfg16.N) (d) : (dat16 V c).before 0 t d = iblk16 V c 0 t :=
  before16_0_of V (dat16 V c) (A_eq16 V c 0) (after16_0 V c) t d

def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d)))

def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0]
  rw [show (dat16 V c).Φ t.succ = (dat16 V c).Φ t.castSucc from rfl,
    show (dat16 V c).owesAt () t.succ = (dat16 V c).owesAt () t.castSucc from rfl,
    after16_0, after16_1]
  iintro ⟨HΦ, Ho, ⟨%d0, H0⟩, ⟨%d1, H1⟩⟩
  iapply (sound_kernel16 c Set.univ _ _ _ _ _ (iblk16 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation16 (c : Dev nD) : BodyObligation (dat16 (F := F) V c) (defs₀ (F := F)) Variants.none () Set.univ := fun t => by
  rw [bigSep_W16, bigSep_W16]
  exact sound_body16 V c t
end

end Cert.KernelIdeal.GenP

end
-- ==== Proof.KernelIdeal.Common.lean ====
/- What the region modules of the program share: the thread state that rides beside the buffers through every item, and a
   valuation read at the TensorCore's references. -/
import proofs.«175043_j76819785056407_2_alg».proof.Proof.Gen.KernelIdeal.Launch
import proofs.«175043_j76819785056407_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What rides beside the buffers through every item: the core's generator register at some state and its tallies, at nothing owed. -/
abbrev Rr (c : Dev nD) : sProp 𝕄 := iprop((∃ r, prngReg c r) ∗ ∃ W, owes (c : Thread nD τ) (0 : CellTallies nD τ sig Unit) W)

/-- A valuation of the buffers read at the TensorCore's references. -/
abbrev VW (W : Dev nD → Valuation τ sig (Elt F)) : (c : Dev nD) → (b : Ref sig .tc) → Buf (Elt F) ((c : Thread nD τ).loc b) := fun c b => W c b

end Cert.KernelIdeal.GenP

end
-- ==== Proof.KernelIdeal.RB1.lean ====
/- A row-gather region of the program: the region's proof data, its body obligation and its entry and exit. -/
import proofs.«175043_j76819785056407_2_alg».proof.Proof.Gen.KernelIdeal.Launch
import proofs.«175043_j76819785056407_2_alg».proof.Proof.Gen.KernelIdeal.Skeleton
import proofs.«175043_j76819785056407_2_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 1): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl1 : pre1.Contents (Elt F) := fun j => V (0 : Dev nD) (pre1.ref j)
theorem V_pre1 (c : Dev nD) (j : Fin 2) : V c (pre1.ref j) = tbl1 V j := by
  obtain rfl : c = 0 := Subsingleton.elim _ _; rfl
/-- Every table-indexed block lies inside the gathered array. -/
abbrev Ok1 : Prop := ok1 (F := F) (tbl1 V)
abbrev adm1 (hO : Ok1 V) : (pcfg1 (F := F)).Adm := ⟨tbl1 V, hO⟩
abbrev cfgM1 (hO : Ok1 V) : Pipeline.Cfg sig Λ₀ := cfg1 (adm1 V hO)

/-- Window `w`'s block at point `t`, read off its array as the region finds it. -/
def iblk1 (hO : Ok1 V) (c : Dev nD) (w : Fin (cfgM1 V hO).W) (t : Fin (cfgM1 V hO).N) :
    (((cfgM1 V hO).win w).xblock ((cfgM1 V hO).grid.coords t)).Idx → Elt F ((cfgM1 V hO).win w).elt :=
  (((cfgM1 V hO).win w).blk t).view.read (Elt F) (V c (Pipeline.arrRef spec1 w))

theorem before1_0_of (hO : Ok1 V) {c : Dev nD} (dat : Dat τ (Elt F) Unit ℕ (UR sig nD τ) ℕ (cfgM1 V hO) c) (hA : dat.A 0 = V c (Pipeline.arrRef spec1 0))
    (hafter : ∀ t, dat.after 0 t = iblk1 V hO c 0 t) (t : Fin (cfgM1 V hO).N) (d) : dat.before 0 t d = iblk1 V hO c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hO : Ok1 V) {c : Dev nD} (dat : Dat τ (Elt F) Unit ℕ (UR sig nD τ) ℕ (cfgM1 V hO) c) (hA : dat.A 1 = V c (Pipeline.arrRef spec1 1))
    (hafter : ∀ t, dat.after 1 t = iblk1 V hO c 1 t) (t : Fin (cfgM1 V hO).N) (d) : dat.before 1 t d = iblk1 V hO c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-- The body's one rectangle: the whole 1×1×128 block. -/
abbrev r1_0 : Rect S1x1x128 := Rect.unit (s := S1x1x128) ![0, 0, 0] S1x1x128.size inb_S1x1x128_S1x1x128_0_0_0

/-- The output block after the body: the sum of the two gathered rows. -/
def out1_2 (x0 x1 : Vec F S1x1x128 .f32) : Vec F S1x1x128 .f32 :=
  View.canon [⟨r1_0, k1_pay1 (View.ld x0 r1_0) (View.ld x1 r1_0)⟩]

theorem cover1_2 (p0 : Vec F S1x1x128 .f32) (y : S1x1x128.Idx) :
    ∃ pc ∈ ([⟨r1_0, p0⟩] : List (View.Piece (Elt F) S1x1x128 .f32)), y ∈ pc.1.set :=
  View.cover_of_tiled [⟨r1_0, p0⟩] S1x1x128.size (by rfl) y

set_option maxHeartbeats 1000000 in
/-- The body on whole staging memrefs: the two inputs stay, the output ends at the sum; the tables are not touched. -/
theorem sound_kernel1 (c : Dev nD) (E : Set ℕ) (i : grid1.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out1_2 x0 x1)) -∗ K ⟨⟩))
      ⊢ wp frame (wpE (defs₀ (F := F)) Variants.none c none) E (cc1__kernel_b i a1 ha1 a2 ha2 arg3 harg3 arg4 harg4 arg5 harg5) K := by
  simp only [cc1__kernel_b_eq_skeleton]; unfold cc1__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

section
variable (V : (c : Dev nD) → (b : Ref sig .tc) → Buf (Elt F) ((c : Thread nD τ).loc b))

/-- Each window's current staging memref at point `t`, and its wholeness. -/
abbrev ms1_0 (hO : Ok1 V) (t : Fin (cfgM1 V hO).N) : Memref sig .tc .vmem S1x1x128 .f32 := spec1_0.stage ((cfgM1 V hO).slots t 0)
abbrev hs1_0 (hO : Ok1 V) (t : Fin (cfgM1 V hO).N) : (ms1_0 V hO t).IsWhole := hstage1_0 (((cfgM1 V hO).slots t 0).cast nbuf1_0)
abbrev ms1_1 (hO : Ok1 V) (t : Fin (cfgM1 V hO).N) : Memref sig .tc .vmem S1x1x128 .f32 := spec1_1.stage ((cfgM1 V hO).slots t 1)
abbrev hs1_1 (hO : Ok1 V) (t : Fin (cfgM1 V hO).N) : (ms1_1 V hO t).IsWhole := hstage1_1 (((cfgM1 V hO).slots t 1).cast nbuf1_1)
abbrev ms1_2 (hO : Ok1 V) (t : Fin (cfgM1 V hO).N) : Memref sig .tc .vmem S1x1x128 .f32 := spec1_2.stage ((cfgM1 V hO).slots t 2)
abbrev hs1_2 (hO : Ok1 V) (t : Fin (cfgM1 V hO).N) : (ms1_2 V hO t).IsWhole := hstage1_2 (((cfgM1 V hO).slots t 2).cast nbuf1_2)

/-- The kernel body as the pipeline calls it at point `t`: the point, the two tables whole, the three current staging memrefs. -/
abbrev bodyAt1 (a : (pcfg1 (F := F)).Adm) (t : Fin (cfg1 a).N) : Prog (TpuEff nD τ sig (Elt F) Λ₀ .tc) PUnit :=
  cc1__kernel_b (grid1.coords t) (Memref.whole main_v22) (Memref.isWhole_whole _) (Memref.whole main_v23) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))

/-- The region's proof data on core `c`: the arrays as the region finds them; after the body each input's buffer at its
    block and the output's at the sum of the two input blocks; the invariant carries the scoped rest, the generator register
    and the two tables, whole; the gathered array, read by both input windows, is held half and half; nothing owed. -/
def dat1 (hO : Ok1 V) (c : Dev nD) : Dat τ (Elt F) Unit ℕ (UR sig nD τ) ℕ (cfgM1 V hO) c where
  A w := V c (Pipeline.arrRef spec1 w)
  after w t := match w with
    | ⟨0, _⟩ => iblk1 V hO c 0 t
    | ⟨1, _⟩ => iblk1 V hO c 1 t
    | ⟨2, _⟩ => out1_2 (iblk1 V hO c 0 t) (iblk1 V hO c 1 t)
  Φ _ := iprop(Pipeline.ΦA spec1 c ∗ (Pipeline.prefHeld pre1 c (fun _ => fullShare) (tbl1 V) : sProp 𝕄))
  q w := match w with
    | ⟨0, _⟩ => fullShare.left
    | ⟨1, _⟩ => fullShare.right
    | ⟨2, _⟩ => fullShare
  owed _ := 0

theorem A_eq1 (hO : Ok1 V) (c : Dev nD) (w : Fin (cfgM1 V hO).W) : (dat1 V hO c).A w = V c (Pipeline.arrRef spec1 w) := by
  dsimp only [dat1]

theorem after1_0 (hO : Ok1 V) (c : Dev nD) (t : Fin (cfgM1 V hO).N) : (dat1 V hO c).after 0 t = iblk1 V hO c 0 t := by dsimp only [dat1]; try rfl
theorem after1_1 (hO : Ok1 V) (c : Dev nD) (t : Fin (cfgM1 V hO).N) : (dat1 V hO c).after 1 t = iblk1 V hO c 1 t := by dsimp only [dat1]; try rfl
theorem after1_2 (hO : Ok1 V) (c : Dev nD) (t : Fin (cfgM1 V hO).N) : (dat1 V hO c).after 2 t = out1_2 (iblk1 V hO c 0 t) (iblk1 V hO c 1 t) := by dsimp only [dat1]; try rfl

theorem before1_0 (hO : Ok1 V) (c : Dev nD) (t : Fin (cfgM1 V hO).N) (d) : (dat1 V hO c).before 0 t d = iblk1 V hO c 0 t :=
  before1_0_of V hO (dat1 V hO c) (A_eq1 V hO c 0) (after1_0 V hO c) t d
theorem before1_1 (hO : Ok1 V) (c : Dev nD) (t : Fin (cfgM1 V hO).N) (d) : (dat1 V hO c).before 1 t d = iblk1 V hO c 1 t :=
  before1_1_of V hO (dat1 V hO c) (A_eq1 V hO c 1) (after1_1 V hO c) t d

def bodyPre1 (hO : Ok1 V) (c : Dev nD) (t : Fin (cfgM1 V hO).N) : sProp 𝕄 :=
  iprop((dat1 V hO c).Φ t.castSucc ∗ (dat1 V hO c).owesAt () t.castSucc
    ∗ (∃ d, owns (c : Thread nD τ) (ms1_0 V hO t) fullShare ((dat1 V hO c).before 0 t d))
    ∗ (∃ d, owns (c : Thread nD τ) (ms1_1 V hO t) fullShare ((dat1 V hO c).before 1 t d))
    ∗ (∃ d, owns (c : Thread nD τ) (ms1_2 V hO t) fullShare ((dat1 V hO c).before 2 t d)))

def bodyPost1 (hO : Ok1 V) (c : Dev nD) (t : Fin (cfgM1 V hO).N) : sProp 𝕄 :=
  iprop((dat1 V hO c).Φ t.succ ∗ (dat1 V hO c).owesAt () t.succ
    ∗ owns (c : Thread nD τ) (ms1_0 V hO t) fullShare ((dat1 V hO c).after 0 t)
    ∗ owns (c : Thread nD τ) (ms1_1 V hO t) fullShare ((dat1 V hO c).after 1 t)
    ∗ owns (c : Thread nD τ) (ms1_2 V hO t) fullShare ((dat1 V hO c).after 2 t))

/-- The body at any point: the two input buffers hold their blocks, the body adds them into the output buffer; the
    invariant and the tallies pass through untouched. -/
theorem sound_body1 (hO : Ok1 V) (c : Dev nD) (t : Fin (cfgM1 V hO).N) :
    bodyPre1 V hO c t ⊢ wp frame (wpE (defs₀ (F := F)) Variants.none c none) Set.univ (bodyAt1 (adm1 V hO) t) (fun _ => bodyPost1 V hO c t) := by
  unfold bodyPre1 bodyPost1 bodyAt1
  simp only [before1_0, before1_1]
  rw [show (dat1 V hO c).Φ t.succ = (dat1 V hO c).Φ t.castSucc from rfl,
    show (dat1 V hO c).owesAt () t.succ = (dat1 V hO c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ _ _ _ _ (iblk1 V hO c 0 t) (iblk1 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (hO : Ok1 V) (c : Dev nD) : BodyObligation (dat1 (F := F) V hO c) (defs₀ (F := F)) Variants.none () Set.univ := fun t => by
  rw [bigSep_W1, bigSep_W1]
  exact sound_body1 V hO c t
end

section
variable (V : (c : Dev nD) → (b : Ref sig .tc) → Buf (Elt F) ((c : Thread nD τ).loc b))

/-- The region's three arrays as points-to facts: the gathered array, read by both input windows, half and half; the output array whole. -/
theorem arrays1_eq (hO : Ok1 V) (c : Dev nD)
    (G : (w : Fin (cfgM1 V hO).W) → Buf (Elt F) (((cfgM1 V hO).win w).arr.view.loc (c : Thread nD τ))) :
    ((dat1 V hO c).arrays G : sProp 𝕄)
      = iprop((((c : Thread nD τ).loc main_v1) ↦{fullShare.left} G 0) ∗ (((c : Thread nD τ).loc main_v1) ↦{fullShare.right} G 1)
          ∗ (((c : Thread nD τ).loc main_v24) ↦{fullShare} G 2)) := by
  unfold Dat.arrays
  rw [bigSep_W1, (arr_whole1 0).set_eq_univ, (arr_whole1 2).set_eq_univ]
  rfl
end

/-- The two distinct buffers behind the region's three windows. -/
theorem arrImage1 : Finset.univ.image (Pipeline.arrRef spec1) = insert main_v1 {main_v24} := by decide

section
variable (W : Dev nD → Valuation τ sig (Elt F))

theorem arrBufs1_eq (c : Dev nD) (V : (b : Ref sig .tc) → Buf (Elt F) ((c : Thread nD τ).loc b)) :
    (Pipeline.arrBufs spec1 c V : sProp 𝕄)
      = iprop((((c : Thread nD τ).loc main_v1) ↦{fullShare} V main_v1) ∗ (((c : Thread nD τ).loc main_v24) ↦{fullShare} V main_v24)) := by
  unfold Pipeline.arrBufs
  rw [arrImage1, bigSep_insert (by decide), bigSep_singleton]
  rfl

/-- ENTRY: every unscoped buffer held at `W` gives the region its arrays (the gathered array split in two halves), its two
    tables whole, the tallies, the generator register and the rest of the unscoped buffers. -/
theorem entry1 (hO : Ok1 (VW W)) (c : Dev nD) :
    iprop(StableHlo.held (c : Thread nD τ) (Pipeline.ucRefs τ sig) (W c) ∗ Rr (F := F) c)
      ⊢ |={Set.univ}=> iprop((dat1 (VW W) hO c).arrays ((dat1 (VW W) hO c).arrAt · 0)
          ∗ Pipeline.prefHeld pre1 c (fun _ => fullShare) (tbl1 (VW W))
          ∗ (dat1 (VW W) hO c).owesAt () 0 ∗ (∃ r, prngReg c r)
          ∗ (Pipeline.unscopedRestP pre1 spec1 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM1 (VW W) hO) () winFacts₀1.arr_unscoped c (VW W c)]
  rw [show (Pipeline.arrBufs (cfgM1 (VW W) hO).spec c (VW W c) : sProp 𝕄) = Pipeline.arrBufs spec1 c (VW W c) from rfl,
    arrBufs1_eq, arrays1_eq]
  rw [show (Pipeline.unscopedRest (cfgM1 (VW W) hO).spec c (VW W c) : sProp 𝕄) = Pipeline.unscopedRest spec1 c (VW W c) from rfl,
    Pipeline.unscopedRest_split preFacts1 c (VW W c)]
  rw [show (fun k => VW W c (pre1.ref k)) = tbl1 (VW W) from funext fun k => V_pre1 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest1_update (c : Dev nD) (X : Buf (Elt F) ((c : Thread nD τ).loc main_v24)) :
    (Pipeline.unscopedRest spec1 c (fun b => Function.update (W c) main_v24 X b) : sProp 𝕄) = Pipeline.unscopedRest spec1 c (VW W c) := by
  unfold Pipeline.unscopedRest
  exact bigSep_congr fun b hb => by
    have hne : b ≠ main_v24 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit1 (hO : Ok1 (VW W)) (c : Dev nD) (X : Buf (Elt F) ((c : Thread nD τ).loc main_v24))
    (hX : (dat1 (VW W) hO c).arrAt 2 (cfgM1 (VW W) hO).N = X) :
    iprop((dat1 (VW W) hO c).arrays ((dat1 (VW W) hO c).arrAt · (cfgM1 (VW W) hO).N)
        ∗ (dat1 (VW W) hO c).owesAt () (Fin.last (cfgM1 (VW W) hO).N)
        ∗ iprop((∃ r, prngReg c r) ∗ Pipeline.prefHeld pre1 c (fun _ => fullShare) (tbl1 (VW W)))
        ∗ (Pipeline.unscopedRestP pre1 spec1 c (VW W c) : sProp 𝕄))
      ⊢ |={Set.univ}=> iprop(StableHlo.held (c : Thread nD τ) (Pipeline.ucRefs τ sig) (Function.update (W c) main_v24 X) ∗ Rr (F := F) c) := by
  rw [← Pipeline.unscopedBufs_held (Ix := Unit) (Name := ℕ) (U := UR sig nD τ) (Lvl := ℕ) c (Function.update (W c) main_v24 X)]
  rw [Pipeline.unscopedBufs_split₀ (fun _ : Unit => cfgM1 (VW W) hO) () winFacts₀1.arr_unscoped c _]
  rw [show ∀ V', (Pipeline.arrBufs (cfgM1 (VW W) hO).spec c V' : sProp 𝕄) = Pipeline.arrBufs spec1 c V' from fun _ => rfl,
    show ∀ V', (Pipeline.unscopedRest (cfgM1 (VW W) hO).spec c V' : sProp 𝕄) = Pipeline.unscopedRest spec1 c V' from fun _ => rfl,
    rest1_update W c X, Pipeline.unscopedRest_split preFacts1 c (VW W c), arrBufs1_eq]
  rw [show (fun k => VW W c (pre1.ref k)) = tbl1 (VW W) from funext fun k => V_pre1 (VW W) c k]
  rw [Function.update_of_ne (StableHlo.devRef_ne_of_ne (by decide : (main_v1 : Ref sig .tc) ≠ main_v24)), Function.update_self]
  rw [arrays1_eq, hX,
    show (dat1 (VW W) hO c).arrAt 0 (cfgM1 (VW W) hO).N = W c main_v1 from (dat1 (VW W) hO c).arrAt_in 0 rfl _,
    show (dat1 (VW W) hO c).arrAt 1 (cfgM1 (VW W) hO).N = W c main_v1 from (dat1 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.KernelIdeal.GenP

end
-- ==== Proof.KernelIdeal.RB2.lean ====
/- A row-gather region of the program: the region's proof data, its body obligation and its entry and exit. -/
import proofs.«175043_j76819785056407_2_alg».proof.Proof.Gen.KernelIdeal.Launch
import proofs.«175043_j76819785056407_2_alg».proof.Proof.Gen.KernelIdeal.Skeleton
import proofs.«175043_j76819785056407_2_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 2): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl2 : pre2.Contents (Elt F) := fun j => V (0 : Dev nD) (pre2.ref j)
theorem V_pre2 (c : Dev nD) (j : Fin 2) : V c (pre2.ref j) = tbl2 V j := by
  obtain rfl : c = 0 := Subsingleton.elim _ _; rfl
/-- Every table-indexed block lies inside the gathered array. -/
abbrev Ok2 : Prop := ok2 (F := F) (tbl2 V)
abbrev adm2 (hO : Ok2 V) : (pcfg2 (F := F)).Adm := ⟨tbl2 V, hO⟩
abbrev cfgM2 (hO : Ok2 V) : Pipeline.Cfg sig Λ₀ := cfg2 (adm2 V hO)

/-- Window `w`'s block at point `t`, read off its array as the region finds it. -/
def iblk2 (hO : Ok2 V) (c : Dev nD) (w : Fin (cfgM2 V hO).W) (t : Fin (cfgM2 V hO).N) :
    (((cfgM2 V hO).win w).xblock ((cfgM2 V hO).grid.coords t)).Idx → Elt F ((cfgM2 V hO).win w).elt :=
  (((cfgM2 V hO).win w).blk t).view.read (Elt F) (V c (Pipeline.arrRef spec2 w))

theorem before2_0_of (hO : Ok2 V) {c : Dev nD} (dat : Dat τ (Elt F) Unit ℕ (UR sig nD τ) ℕ (cfgM2 V hO) c) (hA : dat.A 0 = V c (Pipeline.arrRef spec2 0))
    (hafter : ∀ t, dat.after 0 t = iblk2 V hO c 0 t) (t : Fin (cfgM2 V hO).N) (d) : dat.before 0 t d = iblk2 V hO c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of (hO : Ok2 V) {c : Dev nD} (dat : Dat τ (Elt F) Unit ℕ (UR sig nD τ) ℕ (cfgM2 V hO) c) (hA : dat.A 1 = V c (Pipeline.arrRef spec2 1))
    (hafter : ∀ t, dat.after 1 t = iblk2 V hO c 1 t) (t : Fin (cfgM2 V hO).N) (d) : dat.before 1 t d = iblk2 V hO c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-- The body's one rectangle: the whole 1×1×128 block. -/
abbrev r2_0 : Rect S1x1x128 := Rect.unit (s := S1x1x128) ![0, 0, 0] S1x1x128.size inb_S1x1x128_S1x1x128_0_0_0

/-- The output block after the body: the sum of the two gathered rows. -/
def out2_2 (x0 x1 : Vec F S1x1x128 .f32) : Vec F S1x1x128 .f32 :=
  View.canon [⟨r2_0, k2_pay1 (View.ld x0 r2_0) (View.ld x1 r2_0)⟩]

theorem cover2_2 (p0 : Vec F S1x1x128 .f32) (y : S1x1x128.Idx) :
    ∃ pc ∈ ([⟨r2_0, p0⟩] : List (View.Piece (Elt F) S1x1x128 .f32)), y ∈ pc.1.set :=
  View.cover_of_tiled [⟨r2_0, p0⟩] S1x1x128.size (by rfl) y

set_option maxHeartbeats 1000000 in
/-- The body on whole staging memrefs: the two inputs stay, the output ends at the sum; the tables are not touched. -/
theorem sound_kernel2 (c : Dev nD) (E : Set ℕ) (i : grid2.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out2_2 x0 x1)) -∗ K ⟨⟩))
      ⊢ wp frame (wpE (defs₀ (F := F)) Variants.none c none) E (cc2__kernel_b i a1 ha1 a2 ha2 arg3 harg3 arg4 harg4 arg5 harg5) K := by
  simp only [cc2__kernel_b_eq_skeleton]; unfold cc2__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

section
variable (V : (c : Dev nD) → (b : Ref sig .tc) → Buf (Elt F) ((c : Thread nD τ).loc b))

/-- Each window's current staging memref at point `t`, and its wholeness. -/
abbrev ms2_0 (hO : Ok2 V) (t : Fin (cfgM2 V hO).N) : Memref sig .tc .vmem S1x1x128 .f32 := spec2_0.stage ((cfgM2 V hO).slots t 0)
abbrev hs2_0 (hO : Ok2 V) (t : Fin (cfgM2 V hO).N) : (ms2_0 V hO t).IsWhole := hstage2_0 (((cfgM2 V hO).slots t 0).cast nbuf2_0)
abbrev ms2_1 (hO : Ok2 V) (t : Fin (cfgM2 V hO).N) : Memref sig .tc .vmem S1x1x128 .f32 := spec2_1.stage ((cfgM2 V hO).slots t 1)
abbrev hs2_1 (hO : Ok2 V) (t : Fin (cfgM2 V hO).N) : (ms2_1 V hO t).IsWhole := hstage2_1 (((cfgM2 V hO).slots t 1).cast nbuf2_1)
abbrev ms2_2 (hO : Ok2 V) (t : Fin (cfgM2 V hO).N) : Memref sig .tc .vmem S1x1x128 .f32 := spec2_2.stage ((cfgM2 V hO).slots t 2)
abbrev hs2_2 (hO : Ok2 V) (t : Fin (cfgM2 V hO).N) : (ms2_2 V hO t).IsWhole := hstage2_2 (((cfgM2 V hO).slots t 2).cast nbuf2_2)

/-- The kernel body as the pipeline calls it at point `t`: the point, the two tables whole, the three current staging memrefs. -/
abbrev bodyAt2 (a : (pcfg2 (F := F)).Adm) (t : Fin (cfg2 a).N) : Prog (TpuEff nD τ sig (Elt F) Λ₀ .tc) PUnit :=
  cc2__kernel_b (grid2.coords t) (Memref.whole main_v26) (Memref.isWhole_whole _) (Memref.whole main_v27) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (spec2_2.stage ((cfg2 a).slots t 2)) (hstage2_2 (((cfg2 a).slots t 2).cast nbuf2_2))

/-- The region's proof data on core `c`: the arrays as the region finds them; after the body each input's buffer at its
    block and the output's at the sum of the two input blocks; the invariant carries the scoped rest, the generator register
    and the two tables, whole; the gathered array, read by both input windows, is held half and half; nothing owed. -/
def dat2 (hO : Ok2 V) (c : Dev nD) : Dat τ (Elt F) Unit ℕ (UR sig nD τ) ℕ (cfgM2 V hO) c where
  A w := V c (Pipeline.arrRef spec2 w)
  after w t := match w with
    | ⟨0, _⟩ => iblk2 V hO c 0 t
    | ⟨1, _⟩ => iblk2 V hO c 1 t
    | ⟨2, _⟩ => out2_2 (iblk2 V hO c 0 t) (iblk2 V hO c 1 t)
  Φ _ := iprop(Pipeline.ΦA spec2 c ∗ (Pipeline.prefHeld pre2 c (fun _ => fullShare) (tbl2 V) : sProp 𝕄))
  q w := match w with
    | ⟨0, _⟩ => fullShare.left
    | ⟨1, _⟩ => fullShare.right
    | ⟨2, _⟩ => fullShare
  owed _ := 0

theorem A_eq2 (hO : Ok2 V) (c : Dev nD) (w : Fin (cfgM2 V hO).W) : (dat2 V hO c).A w = V c (Pipeline.arrRef spec2 w) := by
  dsimp only [dat2]

theorem after2_0 (hO : Ok2 V) (c : Dev nD) (t : Fin (cfgM2 V hO).N) : (dat2 V hO c).after 0 t = iblk2 V hO c 0 t := by dsimp only [dat2]; try rfl
theorem after2_1 (hO : Ok2 V) (c : Dev nD) (t : Fin (cfgM2 V hO).N) : (dat2 V hO c).after 1 t = iblk2 V hO c 1 t := by dsimp only [dat2]; try rfl
theorem after2_2 (hO : Ok2 V) (c : Dev nD) (t : Fin (cfgM2 V hO).N) : (dat2 V hO c).after 2 t = out2_2 (iblk2 V hO c 0 t) (iblk2 V hO c 1 t) := by dsimp only [dat2]; try rfl

theorem before2_0 (hO : Ok2 V) (c : Dev nD) (t : Fin (cfgM2 V hO).N) (d) : (dat2 V hO c).before 0 t d = iblk2 V hO c 0 t :=
  before2_0_of V hO (dat2 V hO c) (A_eq2 V hO c 0) (after2_0 V hO c) t d
theorem before2_1 (hO : Ok2 V) (c : Dev nD) (t : Fin (cfgM2 V hO).N) (d) : (dat2 V hO c).before 1 t d = iblk2 V hO c 1 t :=
  before2_1_of V hO (dat2 V hO c) (A_eq2 V hO c 1) (after2_1 V hO c) t d

def bodyPre2 (hO : Ok2 V) (c : Dev nD) (t : Fin (cfgM2 V hO).N) : sProp 𝕄 :=
  iprop((dat2 V hO c).Φ t.castSucc ∗ (dat2 V hO c).owesAt () t.castSucc
    ∗ (∃ d, owns (c : Thread nD τ) (ms2_0 V hO t) fullShare ((dat2 V hO c).before 0 t d))
    ∗ (∃ d, owns (c : Thread nD τ) (ms2_1 V hO t) fullShare ((dat2 V hO c).before 1 t d))
    ∗ (∃ d, owns (c : Thread nD τ) (ms2_2 V hO t) fullShare ((dat2 V hO c).before 2 t d)))

def bodyPost2 (hO : Ok2 V) (c : Dev nD) (t : Fin (cfgM2 V hO).N) : sProp 𝕄 :=
  iprop((dat2 V hO c).Φ t.succ ∗ (dat2 V hO c).owesAt () t.succ
    ∗ owns (c : Thread nD τ) (ms2_0 V hO t) fullShare ((dat2 V hO c).after 0 t)
    ∗ owns (c : Thread nD τ) (ms2_1 V hO t) fullShare ((dat2 V hO c).after 1 t)
    ∗ owns (c : Thread nD τ) (ms2_2 V hO t) fullShare ((dat2 V hO c).after 2 t))

/-- The body at any point: the two input buffers hold their blocks, the body adds them into the output buffer; the
    invariant and the tallies pass through untouched. -/
theorem sound_body2 (hO : Ok2 V) (c : Dev nD) (t : Fin (cfgM2 V hO).N) :
    bodyPre2 V hO c t ⊢ wp frame (wpE (defs₀ (F := F)) Variants.none c none) Set.univ (bodyAt2 (adm2 V hO) t) (fun _ => bodyPost2 V hO c t) := by
  unfold bodyPre2 bodyPost2 bodyAt2
  simp only [before2_0, before2_1]
  rw [show (dat2 V hO c).Φ t.succ = (dat2 V hO c).Φ t.castSucc from rfl,
    show (dat2 V hO c).owesAt () t.succ = (dat2 V hO c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ _ _ _ _ (iblk2 V hO c 0 t) (iblk2 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (hO : Ok2 V) (c : Dev nD) : BodyObligation (dat2 (F := F) V hO c) (defs₀ (F := F)) Variants.none () Set.univ := fun t => by
  rw [bigSep_W2, bigSep_W2]
  exact sound_body2 V hO c t
end

section
variable (V : (c : Dev nD) → (b : Ref sig .tc) → Buf (Elt F) ((c : Thread nD τ).loc b))

/-- The region's three arrays as points-to facts: the gathered array, read by both input windows, half and half; the output array whole. -/
theorem arrays2_eq (hO : Ok2 V) (c : Dev nD)
    (G : (w : Fin (cfgM2 V hO).W) → Buf (Elt F) (((cfgM2 V hO).win w).arr.view.loc (c : Thread nD τ))) :
    ((dat2 V hO c).arrays G : sProp 𝕄)
      = iprop((((c : Thread nD τ).loc main_v1) ↦{fullShare.left} G 0) ∗ (((c : Thread nD τ).loc main_v1) ↦{fullShare.right} G 1)
          ∗ (((c : Thread nD τ).loc main_v28) ↦{fullShare} G 2)) := by
  unfold Dat.arrays
  rw [bigSep_W2, (arr_whole2 0).set_eq_univ, (arr_whole2 2).set_eq_univ]
  rfl
end

/-- The two distinct buffers behind the region's three windows. -/
theorem arrImage2 : Finset.univ.image (Pipeline.arrRef spec2) = insert main_v1 {main_v28} := by decide

section
variable (W : Dev nD → Valuation τ sig (Elt F))

theorem arrBufs2_eq (c : Dev nD) (V : (b : Ref sig .tc) → Buf (Elt F) ((c : Thread nD τ).loc b)) :
    (Pipeline.arrBufs spec2 c V : sProp 𝕄)
      = iprop((((c : Thread nD τ).loc main_v1) ↦{fullShare} V main_v1) ∗ (((c : Thread nD τ).loc main_v28) ↦{fullShare} V main_v28)) := by
  unfold Pipeline.arrBufs
  rw [arrImage2, bigSep_insert (by decide), bigSep_singleton]
  rfl

/-- ENTRY: every unscoped buffer held at `W` gives the region its arrays (the gathered array split in two halves), its two
    tables whole, the tallies, the generator register and the rest of the unscoped buffers. -/
theorem entry2 (hO : Ok2 (VW W)) (c : Dev nD) :
    iprop(StableHlo.held (c : Thread nD τ) (Pipeline.ucRefs τ sig) (W c) ∗ Rr (F := F) c)
      ⊢ |={Set.univ}=> iprop((dat2 (VW W) hO c).arrays ((dat2 (VW W) hO c).arrAt · 0)
          ∗ Pipeline.prefHeld pre2 c (fun _ => fullShare) (tbl2 (VW W))
          ∗ (dat2 (VW W) hO c).owesAt () 0 ∗ (∃ r, prngReg c r)
          ∗ (Pipeline.unscopedRestP pre2 spec2 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM2 (VW W) hO) () winFacts₀2.arr_unscoped c (VW W c)]
  rw [show (Pipeline.arrBufs (cfgM2 (VW W) hO).spec c (VW W c) : sProp 𝕄) = Pipeline.arrBufs spec2 c (VW W c) from rfl,
    arrBufs2_eq, arrays2_eq]
  rw [show (Pipeline.unscopedRest (cfgM2 (VW W) hO).spec c (VW W c) : sProp 𝕄) = Pipeline.unscopedRest spec2 c (VW W c) from rfl,
    Pipeline.unscopedRest_split preFacts2 c (VW W c)]
  rw [show (fun k => VW W c (pre2.ref k)) = tbl2 (VW W) from funext fun k => V_pre2 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest2_update (c : Dev nD) (X : Buf (Elt F) ((c : Thread nD τ).loc main_v28)) :
    (Pipeline.unscopedRest spec2 c (fun b => Function.update (W c) main_v28 X b) : sProp 𝕄) = Pipeline.unscopedRest spec2 c (VW W c) := by
  unfold Pipeline.unscopedRest
  exact bigSep_congr fun b hb => by
    have hne : b ≠ main_v28 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit2 (hO : Ok2 (VW W)) (c : Dev nD) (X : Buf (Elt F) ((c : Thread nD τ).loc main_v28))
    (hX : (dat2 (VW W) hO c).arrAt 2 (cfgM2 (VW W) hO).N = X) :
    iprop((dat2 (VW W) hO c).arrays ((dat2 (VW W) hO c).arrAt · (cfgM2 (VW W) hO).N)
        ∗ (dat2 (VW W) hO c).owesAt () (Fin.last (cfgM2 (VW W) hO).N)
        ∗ iprop((∃ r, prngReg c r) ∗ Pipeline.prefHeld pre2 c (fun _ => fullShare) (tbl2 (VW W)))
        ∗ (Pipeline.unscopedRestP pre2 spec2 c (VW W c) : sProp 𝕄))
      ⊢ |={Set.univ}=> iprop(StableHlo.held (c : Thread nD τ) (Pipeline.ucRefs τ sig) (Function.update (W c) main_v28 X) ∗ Rr (F := F) c) := by
  rw [← Pipeline.unscopedBufs_held (Ix := Unit) (Name := ℕ) (U := UR sig nD τ) (Lvl := ℕ) c (Function.update (W c) main_v28 X)]
  rw [Pipeline.unscopedBufs_split₀ (fun _ : Unit => cfgM2 (VW W) hO) () winFacts₀2.arr_unscoped c _]
  rw [show ∀ V', (Pipeline.arrBufs (cfgM2 (VW W) hO).spec c V' : sProp 𝕄) = Pipeline.arrBufs spec2 c V' from fun _ => rfl,
    show ∀ V', (Pipeline.unscopedRest (cfgM2 (VW W) hO).spec c V' : sProp 𝕄) = Pipeline.unscopedRest spec2 c V' from fun _ => rfl,
    rest2_update W c X, Pipeline.unscopedRest_split preFacts2 c (VW W c), arrBufs2_eq]
  rw [show (fun k => VW W c (pre2.ref k)) = tbl2 (VW W) from funext fun k => V_pre2 (VW W) c k]
  rw [Function.update_of_ne (StableHlo.devRef_ne_of_ne (by decide : (main_v1 : Ref sig .tc) ≠ main_v28)), Function.update_self]
  rw [arrays2_eq, hX,
    show (dat2 (VW W) hO c).arrAt 0 (cfgM2 (VW W) hO).N = W c main_v1 from (dat2 (VW W) hO c).arrAt_in 0 rfl _,
    show (dat2 (VW W) hO c).arrAt 1 (cfgM2 (VW W) hO).N = W c main_v1 from (dat2 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.KernelIdeal.GenP

end
-- ==== Proof.KernelIdeal.RB3.lean ====
/- A row-gather region of the program: the region's proof data, its body obligation and its entry and exit. -/
import proofs.«175043_j76819785056407_2_alg».proof.Proof.Gen.KernelIdeal.Launch
import proofs.«175043_j76819785056407_2_alg».proof.Proof.Gen.KernelIdeal.Skeleton
import proofs.«175043_j76819785056407_2_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 3): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl3 : pre3.Contents (Elt F) := fun j => V (0 : Dev nD) (pre3.ref j)
theorem V_pre3 (c : Dev nD) (j : Fin 2) : V c (pre3.ref j) = tbl3 V j := by
  obtain rfl : c = 0 := Subsingleton.elim _ _; rfl
/-- Every table-indexed block lies inside the gathered array. -/
abbrev Ok3 : Prop := ok3 (F := F) (tbl3 V)
abbrev adm3 (hO : Ok3 V) : (pcfg3 (F := F)).Adm := ⟨tbl3 V, hO⟩
abbrev cfgM3 (hO : Ok3 V) : Pipeline.Cfg sig Λ₀ := cfg3 (adm3 V hO)

/-- Window `w`'s block at point `t`, read off its array as the region finds it. -/
def iblk3 (hO : Ok3 V) (c : Dev nD) (w : Fin (cfgM3 V hO).W) (t : Fin (cfgM3 V hO).N) :
    (((cfgM3 V hO).win w).xblock ((cfgM3 V hO).grid.coords t)).Idx → Elt F ((cfgM3 V hO).win w).elt :=
  (((cfgM3 V hO).win w).blk t).view.read (Elt F) (V c (Pipeline.arrRef spec3 w))

theorem before3_0_of (hO : Ok3 V) {c : Dev nD} (dat : Dat τ (Elt F) Unit ℕ (UR sig nD τ) ℕ (cfgM3 V hO) c) (hA : dat.A 0 = V c (Pipeline.arrRef spec3 0))
    (hafter : ∀ t, dat.after 0 t = iblk3 V hO c 0 t) (t : Fin (cfgM3 V hO).N) (d) : dat.before 0 t d = iblk3 V hO c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of (hO : Ok3 V) {c : Dev nD} (dat : Dat τ (Elt F) Unit ℕ (UR sig nD τ) ℕ (cfgM3 V hO) c) (hA : dat.A 1 = V c (Pipeline.arrRef spec3 1))
    (hafter : ∀ t, dat.after 1 t = iblk3 V hO c 1 t) (t : Fin (cfgM3 V hO).N) (d) : dat.before 1 t d = iblk3 V hO c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
end

/-- The body's one rectangle: the whole 1×1×128 block. -/
abbrev r3_0 : Rect S1x1x128 := Rect.unit (s := S1x1x128) ![0, 0, 0] S1x1x128.size inb_S1x1x128_S1x1x128_0_0_0

/-- The output block after the body: the sum of the two gathered rows. -/
def out3_2 (x0 x1 : Vec F S1x1x128 .f32) : Vec F S1x1x128 .f32 :=
  View.canon [⟨r3_0, k3_pay1 (View.ld x0 r3_0) (View.ld x1 r3_0)⟩]

theorem cover3_2 (p0 : Vec F S1x1x128 .f32) (y : S1x1x128.Idx) :
    ∃ pc ∈ ([⟨r3_0, p0⟩] : List (View.Piece (Elt F) S1x1x128 .f32)), y ∈ pc.1.set :=
  View.cover_of_tiled [⟨r3_0, p0⟩] S1x1x128.size (by rfl) y

set_option maxHeartbeats 1000000 in
/-- The body on whole staging memrefs: the two inputs stay, the output ends at the sum; the tables are not touched. -/
theorem sound_kernel3 (c : Dev nD) (E : Set ℕ) (i : grid3.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out3_2 x0 x1)) -∗ K ⟨⟩))
      ⊢ wp frame (wpE (defs₀ (F := F)) Variants.none c none) E (cc3__kernel_b i a1 ha1 a2 ha2 arg3 harg3 arg4 harg4 arg5 harg5) K := by
  simp only [cc3__kernel_b_eq_skeleton]; unfold cc3__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

section
variable (V : (c : Dev nD) → (b : Ref sig .tc) → Buf (Elt F) ((c : Thread nD τ).loc b))

/-- Each window's current staging memref at point `t`, and its wholeness. -/
abbrev ms3_0 (hO : Ok3 V) (t : Fin (cfgM3 V hO).N) : Memref sig .tc .vmem S1x1x128 .f32 := spec3_0.stage ((cfgM3 V hO).slots t 0)
abbrev hs3_0 (hO : Ok3 V) (t : Fin (cfgM3 V hO).N) : (ms3_0 V hO t).IsWhole := hstage3_0 (((cfgM3 V hO).slots t 0).cast nbuf3_0)
abbrev ms3_1 (hO : Ok3 V) (t : Fin (cfgM3 V hO).N) : Memref sig .tc .vmem S1x1x128 .f32 := spec3_1.stage ((cfgM3 V hO).slots t 1)
abbrev hs3_1 (hO : Ok3 V) (t : Fin (cfgM3 V hO).N) : (ms3_1 V hO t).IsWhole := hstage3_1 (((cfgM3 V hO).slots t 1).cast nbuf3_1)
abbrev ms3_2 (hO : Ok3 V) (t : Fin (cfgM3 V hO).N) : Memref sig .tc .vmem S1x1x128 .f32 := spec3_2.stage ((cfgM3 V hO).slots t 2)
abbrev hs3_2 (hO : Ok3 V) (t : Fin (cfgM3 V hO).N) : (ms3_2 V hO t).IsWhole := hstage3_2 (((cfgM3 V hO).slots t 2).cast nbuf3_2)

/-- The kernel body as the pipeline calls it at point `t`: the point, the two tables whole, the three current staging memrefs. -/
abbrev bodyAt3 (a : (pcfg3 (F := F)).Adm) (t : Fin (cfg3 a).N) : Prog (TpuEff nD τ sig (Elt F) Λ₀ .tc) PUnit :=
  cc3__kernel_b (grid3.coords t) (Memref.whole main_v30) (Memref.isWhole_whole _) (Memref.whole main_v31) (Memref.isWhole_whole _)
    (spec3_0.stage ((cfg3 a).slots t 0)) (hstage3_0 (((cfg3 a).slots t 0).cast nbuf3_0))
    (spec3_1.stage ((cfg3 a).slots t 1)) (hstage3_1 (((cfg3 a).slots t 1).cast nbuf3_1))
    (spec3_2.stage ((cfg3 a).slots t 2)) (hstage3_2 (((cfg3 a).slots t 2).cast nbuf3_2))

/-- The region's proof data on core `c`: the arrays as the region finds them; after the body each input's buffer at its
    block and the output's at the sum of the two input blocks; the invariant carries the scoped rest, the generator register
    and the two tables, whole; the gathered array, read by both input windows, is held half and half; nothing owed. -/
def dat3 (hO : Ok3 V) (c : Dev nD) : Dat τ (Elt F) Unit ℕ (UR sig nD τ) ℕ (cfgM3 V hO) c where
  A w := V c (Pipeline.arrRef spec3 w)
  after w t := match w with
    | ⟨0, _⟩ => iblk3 V hO c 0 t
    | ⟨1, _⟩ => iblk3 V hO c 1 t
    | ⟨2, _⟩ => out3_2 (iblk3 V hO c 0 t) (iblk3 V hO c 1 t)
  Φ _ := iprop(Pipeline.ΦA spec3 c ∗ (Pipeline.prefHeld pre3 c (fun _ => fullShare) (tbl3 V) : sProp 𝕄))
  q w := match w with
    | ⟨0, _⟩ => fullShare.left
    | ⟨1, _⟩ => fullShare.right
    | ⟨2, _⟩ => fullShare
  owed _ := 0

theorem A_eq3 (hO : Ok3 V) (c : Dev nD) (w : Fin (cfgM3 V hO).W) : (dat3 V hO c).A w = V c (Pipeline.arrRef spec3 w) := by
  dsimp only [dat3]

theorem after3_0 (hO : Ok3 V) (c : Dev nD) (t : Fin (cfgM3 V hO).N) : (dat3 V hO c).after 0 t = iblk3 V hO c 0 t := by dsimp only [dat3]; try rfl
theorem after3_1 (hO : Ok3 V) (c : Dev nD) (t : Fin (cfgM3 V hO).N) : (dat3 V hO c).after 1 t = iblk3 V hO c 1 t := by dsimp only [dat3]; try rfl
theorem after3_2 (hO : Ok3 V) (c : Dev nD) (t : Fin (cfgM3 V hO).N) : (dat3 V hO c).after 2 t = out3_2 (iblk3 V hO c 0 t) (iblk3 V hO c 1 t) := by dsimp only [dat3]; try rfl

theorem before3_0 (hO : Ok3 V) (c : Dev nD) (t : Fin (cfgM3 V hO).N) (d) : (dat3 V hO c).before 0 t d = iblk3 V hO c 0 t :=
  before3_0_of V hO (dat3 V hO c) (A_eq3 V hO c 0) (after3_0 V hO c) t d
theorem before3_1 (hO : Ok3 V) (c : Dev nD) (t : Fin (cfgM3 V hO).N) (d) : (dat3 V hO c).before 1 t d = iblk3 V hO c 1 t :=
  before3_1_of V hO (dat3 V hO c) (A_eq3 V hO c 1) (after3_1 V hO c) t d

def bodyPre3 (hO : Ok3 V) (c : Dev nD) (t : Fin (cfgM3 V hO).N) : sProp 𝕄 :=
  iprop((dat3 V hO c).Φ t.castSucc ∗ (dat3 V hO c).owesAt () t.castSucc
    ∗ (∃ d, owns (c : Thread nD τ) (ms3_0 V hO t) fullShare ((dat3 V hO c).before 0 t d))
    ∗ (∃ d, owns (c : Thread nD τ) (ms3_1 V hO t) fullShare ((dat3 V hO c).before 1 t d))
    ∗ (∃ d, owns (c : Thread nD τ) (ms3_2 V hO t) fullShare ((dat3 V hO c).before 2 t d)))

def bodyPost3 (hO : Ok3 V) (c : Dev nD) (t : Fin (cfgM3 V hO).N) : sProp 𝕄 :=
  iprop((dat3 V hO c).Φ t.succ ∗ (dat3 V hO c).owesAt () t.succ
    ∗ owns (c : Thread nD τ) (ms3_0 V hO t) fullShare ((dat3 V hO c).after 0 t)
    ∗ owns (c : Thread nD τ) (ms3_1 V hO t) fullShare ((dat3 V hO c).after 1 t)
    ∗ owns (c : Thread nD τ) (ms3_2 V hO t) fullShare ((dat3 V hO c).after 2 t))

/-- The body at any point: the two input buffers hold their blocks, the body adds them into the output buffer; the
    invariant and the tallies pass through untouched. -/
theorem sound_body3 (hO : Ok3 V) (c : Dev nD) (t : Fin (cfgM3 V hO).N) :
    bodyPre3 V hO c t ⊢ wp frame (wpE (defs₀ (F := F)) Variants.none c none) Set.univ (bodyAt3 (adm3 V hO) t) (fun _ => bodyPost3 V hO c t) := by
  unfold bodyPre3 bodyPost3 bodyAt3
  simp only [before3_0, before3_1]
  rw [show (dat3 V hO c).Φ t.succ = (dat3 V hO c).Φ t.castSucc from rfl,
    show (dat3 V hO c).owesAt () t.succ = (dat3 V hO c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ _ _ _ _ (iblk3 V hO c 0 t) (iblk3 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (hO : Ok3 V) (c : Dev nD) : BodyObligation (dat3 (F := F) V hO c) (defs₀ (F := F)) Variants.none () Set.univ := fun t => by
  rw [bigSep_W3, bigSep_W3]
  exact sound_body3 V hO c t
end

section
variable (V : (c : Dev nD) → (b : Ref sig .tc) → Buf (Elt F) ((c : Thread nD τ).loc b))

/-- The region's three arrays as points-to facts: the gathered array, read by both input windows, half and half; the output array whole. -/
theorem arrays3_eq (hO : Ok3 V) (c : Dev nD)
    (G : (w : Fin (cfgM3 V hO).W) → Buf (Elt F) (((cfgM3 V hO).win w).arr.view.loc (c : Thread nD τ))) :
    ((dat3 V hO c).arrays G : sProp 𝕄)
      = iprop((((c : Thread nD τ).loc main_v1) ↦{fullShare.left} G 0) ∗ (((c : Thread nD τ).loc main_v1) ↦{fullShare.right} G 1)
          ∗ (((c : Thread nD τ).loc main_v32) ↦{fullShare} G 2)) := by
  unfold Dat.arrays
  rw [bigSep_W3, (arr_whole3 0).set_eq_univ, (arr_whole3 2).set_eq_univ]
  rfl
end

/-- The two distinct buffers behind the region's three windows. -/
theorem arrImage3 : Finset.univ.image (Pipeline.arrRef spec3) = insert main_v1 {main_v32} := by decide

section
variable (W : Dev nD → Valuation τ sig (Elt F))

theorem arrBufs3_eq (c : Dev nD) (V : (b : Ref sig .tc) → Buf (Elt F) ((c : Thread nD τ).loc b)) :
    (Pipeline.arrBufs spec3 c V : sProp 𝕄)
      = iprop((((c : Thread nD τ).loc main_v1) ↦{fullShare} V main_v1) ∗ (((c : Thread nD τ).loc main_v32) ↦{fullShare} V main_v32)) := by
  unfold Pipeline.arrBufs
  rw [arrImage3, bigSep_insert (by decide), bigSep_singleton]
  rfl

/-- ENTRY: every unscoped buffer held at `W` gives the region its arrays (the gathered array split in two halves), its two
    tables whole, the tallies, the generator register and the rest of the unscoped buffers. -/
theorem entry3 (hO : Ok3 (VW W)) (c : Dev nD) :
    iprop(StableHlo.held (c : Thread nD τ) (Pipeline.ucRefs τ sig) (W c) ∗ Rr (F := F) c)
      ⊢ |={Set.univ}=> iprop((dat3 (VW W) hO c).arrays ((dat3 (VW W) hO c).arrAt · 0)
          ∗ Pipeline.prefHeld pre3 c (fun _ => fullShare) (tbl3 (VW W))
          ∗ (dat3 (VW W) hO c).owesAt () 0 ∗ (∃ r, prngReg c r)
          ∗ (Pipeline.unscopedRestP pre3 spec3 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM3 (VW W) hO) () winFacts₀3.arr_unscoped c (VW W c)]
  rw [show (Pipeline.arrBufs (cfgM3 (VW W) hO).spec c (VW W c) : sProp 𝕄) = Pipeline.arrBufs spec3 c (VW W c) from rfl,
    arrBufs3_eq, arrays3_eq]
  rw [show (Pipeline.unscopedRest (cfgM3 (VW W) hO).spec c (VW W c) : sProp 𝕄) = Pipeline.unscopedRest spec3 c (VW W c) from rfl,
    Pipeline.unscopedRest_split preFacts3 c (VW W c)]
  rw [show (fun k => VW W c (pre3.ref k)) = tbl3 (VW W) from funext fun k => V_pre3 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest3_update (c : Dev nD) (X : Buf (Elt F) ((c : Thread nD τ).loc main_v32)) :
    (Pipeline.unscopedRest spec3 c (fun b => Function.update (W c) main_v32 X b) : sProp 𝕄) = Pipeline.unscopedRest spec3 c (VW W c) := by
  unfold Pipeline.unscopedRest
  exact bigSep_congr fun b hb => by
    have hne : b ≠ main_v32 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit3 (hO : Ok3 (VW W)) (c : Dev nD) (X : Buf (Elt F) ((c : Thread nD τ).loc main_v32))
    (hX : (dat3 (VW W) hO c).arrAt 2 (cfgM3 (VW W) hO).N = X) :
    iprop((dat3 (VW W) hO c).arrays ((dat3 (VW W) hO c).arrAt · (cfgM3 (VW W) hO).N)
        ∗ (dat3 (VW W) hO c).owesAt () (Fin.last (cfgM3 (VW W) hO).N)
        ∗ iprop((∃ r, prngReg c r) ∗ Pipeline.prefHeld pre3 c (fun _ => fullShare) (tbl3 (VW W)))
        ∗ (Pipeline.unscopedRestP pre3 spec3 c (VW W c) : sProp 𝕄))
      ⊢ |={Set.univ}=> iprop(StableHlo.held (c : Thread nD τ) (Pipeline.ucRefs τ sig) (Function.update (W c) main_v32 X) ∗ Rr (F := F) c) := by
  rw [← Pipeline.unscopedBufs_held (Ix := Unit) (Name := ℕ) (U := UR sig nD τ) (Lvl := ℕ) c (Function.update (W c) main_v32 X)]
  rw [Pipeline.unscopedBufs_split₀ (fun _ : Unit => cfgM3 (VW W) hO) () winFacts₀3.arr_unscoped c _]
  rw [show ∀ V', (Pipeline.arrBufs (cfgM3 (VW W) hO).spec c V' : sProp 𝕄) = Pipeline.arrBufs spec3 c V' from fun _ => rfl,
    show ∀ V', (Pipeline.unscopedRest (cfgM3 (VW W) hO).spec c V' : sProp 𝕄) = Pipeline.unscopedRest spec3 c V' from fun _ => rfl,
    rest3_update W c X, Pipeline.unscopedRest_split preFacts3 c (VW W c), arrBufs3_eq]
  rw [show (fun k => VW W c (pre3.ref k)) = tbl3 (VW W) from funext fun k => V_pre3 (VW W) c k]
  rw [Function.update_of_ne (StableHlo.devRef_ne_of_ne (by decide : (main_v1 : Ref sig .tc) ≠ main_v32)), Function.update_self]
  rw [arrays3_eq, hX,
    show (dat3 (VW W) hO c).arrAt 0 (cfgM3 (VW W) hO).N = W c main_v1 from (dat3 (VW W) hO c).arrAt_in 0 rfl _,
    show (dat3 (VW W) hO c).arrAt 1 (cfgM3 (VW W) hO).N = W c main_v1 from (dat3 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.KernelIdeal.GenP

end
-- ==== Proof.KernelIdeal.RB4.lean ====
/- A row-gather region of the program: the region's proof data, its body obligation and its entry and exit. -/
import proofs.«175043_j76819785056407_2_alg».proof.Proof.Gen.KernelIdeal.Launch
import proofs.«175043_j76819785056407_2_alg».proof.Proof.Gen.KernelIdeal.Skeleton
import proofs.«175043_j76819785056407_2_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 4): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl4 : pre4.Contents (Elt F) := fun j => V (0 : Dev nD) (pre4.ref j)
theorem V_pre4 (c : Dev nD) (j : Fin 2) : V c (pre4.ref j) = tbl4 V j := by
  obtain rfl : c = 0 := Subsingleton.elim _ _; rfl
/-- Every table-indexed block lies inside the gathered array. -/
abbrev Ok4 : Prop := ok4 (F := F) (tbl4 V)
abbrev adm4 (hO : Ok4 V) : (pcfg4 (F := F)).Adm := ⟨tbl4 V, hO⟩
abbrev cfgM4 (hO : Ok4 V) : Pipeline.Cfg sig Λ₀ := cfg4 (adm4 V hO)

/-- Window `w`'s block at point `t`, read off its array as the region finds it. -/
def iblk4 (hO : Ok4 V) (c : Dev nD) (w : Fin (cfgM4 V hO).W) (t : Fin (cfgM4 V hO).N) :
    (((cfgM4 V hO).win w).xblock ((cfgM4 V hO).grid.coords t)).Idx → Elt F ((cfgM4 V hO).win w).elt :=
  (((cfgM4 V hO).win w).blk t).view.read (Elt F) (V c (Pipeline.arrRef spec4 w))

theorem before4_0_of (hO : Ok4 V) {c : Dev nD} (dat : Dat τ (Elt F) Unit ℕ (UR sig nD τ) ℕ (cfgM4 V hO) c) (hA : dat.A 0 = V c (Pipeline.arrRef spec4 0))
    (hafter : ∀ t, dat.after 0 t = iblk4 V hO c 0 t) (t : Fin (cfgM4 V hO).N) (d) : dat.before 0 t d = iblk4 V hO c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of (hO : Ok4 V) {c : Dev nD} (dat : Dat τ (Elt F) Unit ℕ (UR sig nD τ) ℕ (cfgM4 V hO) c) (hA : dat.A 1 = V c (Pipeline.arrRef spec4 1))
    (hafter : ∀ t, dat.after 1 t = iblk4 V hO c 1 t) (t : Fin (cfgM4 V hO).N) (d) : dat.before 1 t d = iblk4 V hO c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
end

/-- The body's one rectangle: the whole 1×1×128 block. -/
abbrev r4_0 : Rect S1x1x128 := Rect.unit (s := S1x1x128) ![0, 0, 0] S1x1x128.size inb_S1x1x128_S1x1x128_0_0_0

/-- The output block after the body: the sum of the two gathered rows. -/
def out4_2 (x0 x1 : Vec F S1x1x128 .f32) : Vec F S1x1x128 .f32 :=
  View.canon [⟨r4_0, k4_pay1 (View.ld x0 r4_0) (View.ld x1 r4_0)⟩]

theorem cover4_2 (p0 : Vec F S1x1x128 .f32) (y : S1x1x128.Idx) :
    ∃ pc ∈ ([⟨r4_0, p0⟩] : List (View.Piece (Elt F) S1x1x128 .f32)), y ∈ pc.1.set :=
  View.cover_of_tiled [⟨r4_0, p0⟩] S1x1x128.size (by rfl) y

set_option maxHeartbeats 1000000 in
/-- The body on whole staging memrefs: the two inputs stay, the output ends at the sum; the tables are not touched. -/
theorem sound_kernel4 (c : Dev nD) (E : Set ℕ) (i : grid4.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out4_2 x0 x1)) -∗ K ⟨⟩))
      ⊢ wp frame (wpE (defs₀ (F := F)) Variants.none c none) E (cc4__kernel_b i a1 ha1 a2 ha2 arg3 harg3 arg4 harg4 arg5 harg5) K := by
  simp only [cc4__kernel_b_eq_skeleton]; unfold cc4__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

section
variable (V : (c : Dev nD) → (b : Ref sig .tc) → Buf (Elt F) ((c : Thread nD τ).loc b))

/-- Each window's current staging memref at point `t`, and its wholeness. -/
abbrev ms4_0 (hO : Ok4 V) (t : Fin (cfgM4 V hO).N) : Memref sig .tc .vmem S1x1x128 .f32 := spec4_0.stage ((cfgM4 V hO).slots t 0)
abbrev hs4_0 (hO : Ok4 V) (t : Fin (cfgM4 V hO).N) : (ms4_0 V hO t).IsWhole := hstage4_0 (((cfgM4 V hO).slots t 0).cast nbuf4_0)
abbrev ms4_1 (hO : Ok4 V) (t : Fin (cfgM4 V hO).N) : Memref sig .tc .vmem S1x1x128 .f32 := spec4_1.stage ((cfgM4 V hO).slots t 1)
abbrev hs4_1 (hO : Ok4 V) (t : Fin (cfgM4 V hO).N) : (ms4_1 V hO t).IsWhole := hstage4_1 (((cfgM4 V hO).slots t 1).cast nbuf4_1)
abbrev ms4_2 (hO : Ok4 V) (t : Fin (cfgM4 V hO).N) : Memref sig .tc .vmem S1x1x128 .f32 := spec4_2.stage ((cfgM4 V hO).slots t 2)
abbrev hs4_2 (hO : Ok4 V) (t : Fin (cfgM4 V hO).N) : (ms4_2 V hO t).IsWhole := hstage4_2 (((cfgM4 V hO).slots t 2).cast nbuf4_2)

/-- The kernel body as the pipeline calls it at point `t`: the point, the two tables whole, the three current staging memrefs. -/
abbrev bodyAt4 (a : (pcfg4 (F := F)).Adm) (t : Fin (cfg4 a).N) : Prog (TpuEff nD τ sig (Elt F) Λ₀ .tc) PUnit :=
  cc4__kernel_b (grid4.coords t) (Memref.whole main_v34) (Memref.isWhole_whole _) (Memref.whole main_v35) (Memref.isWhole_whole _)
    (spec4_0.stage ((cfg4 a).slots t 0)) (hstage4_0 (((cfg4 a).slots t 0).cast nbuf4_0))
    (spec4_1.stage ((cfg4 a).slots t 1)) (hstage4_1 (((cfg4 a).slots t 1).cast nbuf4_1))
    (spec4_2.stage ((cfg4 a).slots t 2)) (hstage4_2 (((cfg4 a).slots t 2).cast nbuf4_2))

/-- The region's proof data on core `c`: the arrays as the region finds them; after the body each input's buffer at its
    block and the output's at the sum of the two input blocks; the invariant carries the scoped rest, the generator register
    and the two tables, whole; the gathered array, read by both input windows, is held half and half; nothing owed. -/
def dat4 (hO : Ok4 V) (c : Dev nD) : Dat τ (Elt F) Unit ℕ (UR sig nD τ) ℕ (cfgM4 V hO) c where
  A w := V c (Pipeline.arrRef spec4 w)
  after w t := match w with
    | ⟨0, _⟩ => iblk4 V hO c 0 t
    | ⟨1, _⟩ => iblk4 V hO c 1 t
    | ⟨2, _⟩ => out4_2 (iblk4 V hO c 0 t) (iblk4 V hO c 1 t)
  Φ _ := iprop(Pipeline.ΦA spec4 c ∗ (Pipeline.prefHeld pre4 c (fun _ => fullShare) (tbl4 V) : sProp 𝕄))
  q w := match w with
    | ⟨0, _⟩ => fullShare.left
    | ⟨1, _⟩ => fullShare.right
    | ⟨2, _⟩ => fullShare
  owed _ := 0

theorem A_eq4 (hO : Ok4 V) (c : Dev nD) (w : Fin (cfgM4 V hO).W) : (dat4 V hO c).A w = V c (Pipeline.arrRef spec4 w) := by
  dsimp only [dat4]

theorem after4_0 (hO : Ok4 V) (c : Dev nD) (t : Fin (cfgM4 V hO).N) : (dat4 V hO c).after 0 t = iblk4 V hO c 0 t := by dsimp only [dat4]; try rfl
theorem after4_1 (hO : Ok4 V) (c : Dev nD) (t : Fin (cfgM4 V hO).N) : (dat4 V hO c).after 1 t = iblk4 V hO c 1 t := by dsimp only [dat4]; try rfl
theorem after4_2 (hO : Ok4 V) (c : Dev nD) (t : Fin (cfgM4 V hO).N) : (dat4 V hO c).after 2 t = out4_2 (iblk4 V hO c 0 t) (iblk4 V hO c 1 t) := by dsimp only [dat4]; try rfl

theorem before4_0 (hO : Ok4 V) (c : Dev nD) (t : Fin (cfgM4 V hO).N) (d) : (dat4 V hO c).before 0 t d = iblk4 V hO c 0 t :=
  before4_0_of V hO (dat4 V hO c) (A_eq4 V hO c 0) (after4_0 V hO c) t d
theorem before4_1 (hO : Ok4 V) (c : Dev nD) (t : Fin (cfgM4 V hO).N) (d) : (dat4 V hO c).before 1 t d = iblk4 V hO c 1 t :=
  before4_1_of V hO (dat4 V hO c) (A_eq4 V hO c 1) (after4_1 V hO c) t d

def bodyPre4 (hO : Ok4 V) (c : Dev nD) (t : Fin (cfgM4 V hO).N) : sProp 𝕄 :=
  iprop((dat4 V hO c).Φ t.castSucc ∗ (dat4 V hO c).owesAt () t.castSucc
    ∗ (∃ d, owns (c : Thread nD τ) (ms4_0 V hO t) fullShare ((dat4 V hO c).before 0 t d))
    ∗ (∃ d, owns (c : Thread nD τ) (ms4_1 V hO t) fullShare ((dat4 V hO c).before 1 t d))
    ∗ (∃ d, owns (c : Thread nD τ) (ms4_2 V hO t) fullShare ((dat4 V hO c).before 2 t d)))

def bodyPost4 (hO : Ok4 V) (c : Dev nD) (t : Fin (cfgM4 V hO).N) : sProp 𝕄 :=
  iprop((dat4 V hO c).Φ t.succ ∗ (dat4 V hO c).owesAt () t.succ
    ∗ owns (c : Thread nD τ) (ms4_0 V hO t) fullShare ((dat4 V hO c).after 0 t)
    ∗ owns (c : Thread nD τ) (ms4_1 V hO t) fullShare ((dat4 V hO c).after 1 t)
    ∗ owns (c : Thread nD τ) (ms4_2 V hO t) fullShare ((dat4 V hO c).after 2 t))

/-- The body at any point: the two input buffers hold their blocks, the body adds them into the output buffer; the
    invariant and the tallies pass through untouched. -/
theorem sound_body4 (hO : Ok4 V) (c : Dev nD) (t : Fin (cfgM4 V hO).N) :
    bodyPre4 V hO c t ⊢ wp frame (wpE (defs₀ (F := F)) Variants.none c none) Set.univ (bodyAt4 (adm4 V hO) t) (fun _ => bodyPost4 V hO c t) := by
  unfold bodyPre4 bodyPost4 bodyAt4
  simp only [before4_0, before4_1]
  rw [show (dat4 V hO c).Φ t.succ = (dat4 V hO c).Φ t.castSucc from rfl,
    show (dat4 V hO c).owesAt () t.succ = (dat4 V hO c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ _ _ _ _ (iblk4 V hO c 0 t) (iblk4 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (hO : Ok4 V) (c : Dev nD) : BodyObligation (dat4 (F := F) V hO c) (defs₀ (F := F)) Variants.none () Set.univ := fun t => by
  rw [bigSep_W4, bigSep_W4]
  exact sound_body4 V hO c t
end

section
variable (V : (c : Dev nD) → (b : Ref sig .tc) → Buf (Elt F) ((c : Thread nD τ).loc b))

/-- The region's three arrays as points-to facts: the gathered array, read by both input windows, half and half; the output array whole. -/
theorem arrays4_eq (hO : Ok4 V) (c : Dev nD)
    (G : (w : Fin (cfgM4 V hO).W) → Buf (Elt F) (((cfgM4 V hO).win w).arr.view.loc (c : Thread nD τ))) :
    ((dat4 V hO c).arrays G : sProp 𝕄)
      = iprop((((c : Thread nD τ).loc main_v1) ↦{fullShare.left} G 0) ∗ (((c : Thread nD τ).loc main_v1) ↦{fullShare.right} G 1)
          ∗ (((c : Thread nD τ).loc main_v36) ↦{fullShare} G 2)) := by
  unfold Dat.arrays
  rw [bigSep_W4, (arr_whole4 0).set_eq_univ, (arr_whole4 2).set_eq_univ]
  rfl
end

/-- The two distinct buffers behind the region's three windows. -/
theorem arrImage4 : Finset.univ.image (Pipeline.arrRef spec4) = insert main_v1 {main_v36} := by decide

section
variable (W : Dev nD → Valuation τ sig (Elt F))

theorem arrBufs4_eq (c : Dev nD) (V : (b : Ref sig .tc) → Buf (Elt F) ((c : Thread nD τ).loc b)) :
    (Pipeline.arrBufs spec4 c V : sProp 𝕄)
      = iprop((((c : Thread nD τ).loc main_v1) ↦{fullShare} V main_v1) ∗ (((c : Thread nD τ).loc main_v36) ↦{fullShare} V main_v36)) := by
  unfold Pipeline.arrBufs
  rw [arrImage4, bigSep_insert (by decide), bigSep_singleton]
  rfl

/-- ENTRY: every unscoped buffer held at `W` gives the region its arrays (the gathered array split in two halves), its two
    tables whole, the tallies, the generator register and the rest of the unscoped buffers. -/
theorem entry4 (hO : Ok4 (VW W)) (c : Dev nD) :
    iprop(StableHlo.held (c : Thread nD τ) (Pipeline.ucRefs τ sig) (W c) ∗ Rr (F := F) c)
      ⊢ |={Set.univ}=> iprop((dat4 (VW W) hO c).arrays ((dat4 (VW W) hO c).arrAt · 0)
          ∗ Pipeline.prefHeld pre4 c (fun _ => fullShare) (tbl4 (VW W))
          ∗ (dat4 (VW W) hO c).owesAt () 0 ∗ (∃ r, prngReg c r)
          ∗ (Pipeline.unscopedRestP pre4 spec4 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM4 (VW W) hO) () winFacts₀4.arr_unscoped c (VW W c)]
  rw [show (Pipeline.arrBufs (cfgM4 (VW W) hO).spec c (VW W c) : sProp 𝕄) = Pipeline.arrBufs spec4 c (VW W c) from rfl,
    arrBufs4_eq, arrays4_eq]
  rw [show (Pipeline.unscopedRest (cfgM4 (VW W) hO).spec c (VW W c) : sProp 𝕄) = Pipeline.unscopedRest spec4 c (VW W c) from rfl,
    Pipeline.unscopedRest_split preFacts4 c (VW W c)]
  rw [show (fun k => VW W c (pre4.ref k)) = tbl4 (VW W) from funext fun k => V_pre4 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest4_update (c : Dev nD) (X : Buf (Elt F) ((c : Thread nD τ).loc main_v36)) :
    (Pipeline.unscopedRest spec4 c (fun b => Function.update (W c) main_v36 X b) : sProp 𝕄) = Pipeline.unscopedRest spec4 c (VW W c) := by
  unfold Pipeline.unscopedRest
  exact bigSep_congr fun b hb => by
    have hne : b ≠ main_v36 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit4 (hO : Ok4 (VW W)) (c : Dev nD) (X : Buf (Elt F) ((c : Thread nD τ).loc main_v36))
    (hX : (dat4 (VW W) hO c).arrAt 2 (cfgM4 (VW W) hO).N = X) :
    iprop((dat4 (VW W) hO c).arrays ((dat4 (VW W) hO c).arrAt · (cfgM4 (VW W) hO).N)
        ∗ (dat4 (VW W) hO c).owesAt () (Fin.last (cfgM4 (VW W) hO).N)
        ∗ iprop((∃ r, prngReg c r) ∗ Pipeline.prefHeld pre4 c (fun _ => fullShare) (tbl4 (VW W)))
        ∗ (Pipeline.unscopedRestP pre4 spec4 c (VW W c) : sProp 𝕄))
      ⊢ |={Set.univ}=> iprop(StableHlo.held (c : Thread nD τ) (Pipeline.ucRefs τ sig) (Function.update (W c) main_v36 X) ∗ Rr (F := F) c) := by
  rw [← Pipeline.unscopedBufs_held (Ix := Unit) (Name := ℕ) (U := UR sig nD τ) (Lvl := ℕ) c (Function.update (W c) main_v36 X)]
  rw [Pipeline.unscopedBufs_split₀ (fun _ : Unit => cfgM4 (VW W) hO) () winFacts₀4.arr_unscoped c _]
  rw [show ∀ V', (Pipeline.arrBufs (cfgM4 (VW W) hO).spec c V' : sProp 𝕄) = Pipeline.arrBufs spec4 c V' from fun _ => rfl,
    show ∀ V', (Pipeline.unscopedRest (cfgM4 (VW W) hO).spec c V' : sProp 𝕄) = Pipeline.unscopedRest spec4 c V' from fun _ => rfl,
    rest4_update W c X, Pipeline.unscopedRest_split preFacts4 c (VW W c), arrBufs4_eq]
  rw [show (fun k => VW W c (pre4.ref k)) = tbl4 (VW W) from funext fun k => V_pre4 (VW W) c k]
  rw [Function.update_of_ne (StableHlo.devRef_ne_of_ne (by decide : (main_v1 : Ref sig .tc) ≠ main_v36)), Function.update_self]
  rw [arrays4_eq, hX,
    show (dat4 (VW W) hO c).arrAt 0 (cfgM4 (VW W) hO).N = W c main_v1 from (dat4 (VW W) hO c).arrAt_in 0 rfl _,
    show (dat4 (VW W) hO c).arrAt 1 (cfgM4 (VW W) hO).N = W c main_v1 from (dat4 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.KernelIdeal.GenP

end
-- ==== Proof.KernelIdeal.RB5.lean ====
/- A row-gather region of the program: the region's proof data, its body obligation and its entry and exit. -/
import proofs.«175043_j76819785056407_2_alg».proof.Proof.Gen.KernelIdeal.Launch
import proofs.«175043_j76819785056407_2_alg».proof.Proof.Gen.KernelIdeal.Skeleton
import proofs.«175043_j76819785056407_2_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 5): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl5 : pre5.Contents (Elt F) := fun j => V (0 : Dev nD) (pre5.ref j)
theorem V_pre5 (c : Dev nD) (j : Fin 2) : V c (pre5.ref j) = tbl5 V j := by
  obtain rfl : c = 0 := Subsingleton.elim _ _; rfl
/-- Every table-indexed block lies inside the gathered array. -/
abbrev Ok5 : Prop := ok5 (F := F) (tbl5 V)
abbrev adm5 (hO : Ok5 V) : (pcfg5 (F := F)).Adm := ⟨tbl5 V, hO⟩
abbrev cfgM5 (hO : Ok5 V) : Pipeline.Cfg sig Λ₀ := cfg5 (adm5 V hO)

/-- Window `w`'s block at point `t`, read off its array as the region finds it. -/
def iblk5 (hO : Ok5 V) (c : Dev nD) (w : Fin (cfgM5 V hO).W) (t : Fin (cfgM5 V hO).N) :
    (((cfgM5 V hO).win w).xblock ((cfgM5 V hO).grid.coords t)).Idx → Elt F ((cfgM5 V hO).win w).elt :=
  (((cfgM5 V hO).win w).blk t).view.read (Elt F) (V c (Pipeline.arrRef spec5 w))

theorem before5_0_of (hO : Ok5 V) {c : Dev nD} (dat : Dat τ (Elt F) Unit ℕ (UR sig nD τ) ℕ (cfgM5 V hO) c) (hA : dat.A 0 = V c (Pipeline.arrRef spec5 0))
    (hafter : ∀ t, dat.after 0 t = iblk5 V hO c 0 t) (t : Fin (cfgM5 V hO).N) (d) : dat.before 0 t d = iblk5 V hO c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of (hO : Ok5 V) {c : Dev nD} (dat : Dat τ (Elt F) Unit ℕ (UR sig nD τ) ℕ (cfgM5 V hO) c) (hA : dat.A 1 = V c (Pipeline.arrRef spec5 1))
    (hafter : ∀ t, dat.after 1 t = iblk5 V hO c 1 t) (t : Fin (cfgM5 V hO).N) (d) : dat.before 1 t d = iblk5 V hO c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
end

/-- The body's one rectangle: the whole 1×1×128 block. -/
abbrev r5_0 : Rect S1x1x128 := Rect.unit (s := S1x1x128) ![0, 0, 0] S1x1x128.size inb_S1x1x128_S1x1x128_0_0_0

/-- The output block after the body: the sum of the two gathered rows. -/
def out5_2 (x0 x1 : Vec F S1x1x128 .f32) : Vec F S1x1x128 .f32 :=
  View.canon [⟨r5_0, k5_pay1 (View.ld x0 r5_0) (View.ld x1 r5_0)⟩]

theorem cover5_2 (p0 : Vec F S1x1x128 .f32) (y : S1x1x128.Idx) :
    ∃ pc ∈ ([⟨r5_0, p0⟩] : List (View.Piece (Elt F) S1x1x128 .f32)), y ∈ pc.1.set :=
  View.cover_of_tiled [⟨r5_0, p0⟩] S1x1x128.size (by rfl) y

set_option maxHeartbeats 1000000 in
/-- The body on whole staging memrefs: the two inputs stay, the output ends at the sum; the tables are not touched. -/
theorem sound_kernel5 (c : Dev nD) (E : Set ℕ) (i : grid5.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out5_2 x0 x1)) -∗ K ⟨⟩))
      ⊢ wp frame (wpE (defs₀ (F := F)) Variants.none c none) E (cc5__kernel_b i a1 ha1 a2 ha2 arg3 harg3 arg4 harg4 arg5 harg5) K := by
  simp only [cc5__kernel_b_eq_skeleton]; unfold cc5__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

section
variable (V : (c : Dev nD) → (b : Ref sig .tc) → Buf (Elt F) ((c : Thread nD τ).loc b))

/-- Each window's current staging memref at point `t`, and its wholeness. -/
abbrev ms5_0 (hO : Ok5 V) (t : Fin (cfgM5 V hO).N) : Memref sig .tc .vmem S1x1x128 .f32 := spec5_0.stage ((cfgM5 V hO).slots t 0)
abbrev hs5_0 (hO : Ok5 V) (t : Fin (cfgM5 V hO).N) : (ms5_0 V hO t).IsWhole := hstage5_0 (((cfgM5 V hO).slots t 0).cast nbuf5_0)
abbrev ms5_1 (hO : Ok5 V) (t : Fin (cfgM5 V hO).N) : Memref sig .tc .vmem S1x1x128 .f32 := spec5_1.stage ((cfgM5 V hO).slots t 1)
abbrev hs5_1 (hO : Ok5 V) (t : Fin (cfgM5 V hO).N) : (ms5_1 V hO t).IsWhole := hstage5_1 (((cfgM5 V hO).slots t 1).cast nbuf5_1)
abbrev ms5_2 (hO : Ok5 V) (t : Fin (cfgM5 V hO).N) : Memref sig .tc .vmem S1x1x128 .f32 := spec5_2.stage ((cfgM5 V hO).slots t 2)
abbrev hs5_2 (hO : Ok5 V) (t : Fin (cfgM5 V hO).N) : (ms5_2 V hO t).IsWhole := hstage5_2 (((cfgM5 V hO).slots t 2).cast nbuf5_2)

/-- The kernel body as the pipeline calls it at point `t`: the point, the two tables whole, the three current staging memrefs. -/
abbrev bodyAt5 (a : (pcfg5 (F := F)).Adm) (t : Fin (cfg5 a).N) : Prog (TpuEff nD τ sig (Elt F) Λ₀ .tc) PUnit :=
  cc5__kernel_b (grid5.coords t) (Memref.whole main_v38) (Memref.isWhole_whole _) (Memref.whole main_v39) (Memref.isWhole_whole _)
    (spec5_0.stage ((cfg5 a).slots t 0)) (hstage5_0 (((cfg5 a).slots t 0).cast nbuf5_0))
    (spec5_1.stage ((cfg5 a).slots t 1)) (hstage5_1 (((cfg5 a).slots t 1).cast nbuf5_1))
    (spec5_2.stage ((cfg5 a).slots t 2)) (hstage5_2 (((cfg5 a).slots t 2).cast nbuf5_2))

/-- The region's proof data on core `c`: the arrays as the region finds them; after the body each input's buffer at its
    block and the output's at the sum of the two input blocks; the invariant carries the scoped rest, the generator register
    and the two tables, whole; the gathered array, read by both input windows, is held half and half; nothing owed. -/
def dat5 (hO : Ok5 V) (c : Dev nD) : Dat τ (Elt F) Unit ℕ (UR sig nD τ) ℕ (cfgM5 V hO) c where
  A w := V c (Pipeline.arrRef spec5 w)
  after w t := match w with
    | ⟨0, _⟩ => iblk5 V hO c 0 t
    | ⟨1, _⟩ => iblk5 V hO c 1 t
    | ⟨2, _⟩ => out5_2 (iblk5 V hO c 0 t) (iblk5 V hO c 1 t)
  Φ _ := iprop(Pipeline.ΦA spec5 c ∗ (Pipeline.prefHeld pre5 c (fun _ => fullShare) (tbl5 V) : sProp 𝕄))
  q w := match w with
    | ⟨0, _⟩ => fullShare.left
    | ⟨1, _⟩ => fullShare.right
    | ⟨2, _⟩ => fullShare
  owed _ := 0

theorem A_eq5 (hO : Ok5 V) (c : Dev nD) (w : Fin (cfgM5 V hO).W) : (dat5 V hO c).A w = V c (Pipeline.arrRef spec5 w) := by
  dsimp only [dat5]

theorem after5_0 (hO : Ok5 V) (c : Dev nD) (t : Fin (cfgM5 V hO).N) : (dat5 V hO c).after 0 t = iblk5 V hO c 0 t := by dsimp only [dat5]; try rfl
theorem after5_1 (hO : Ok5 V) (c : Dev nD) (t : Fin (cfgM5 V hO).N) : (dat5 V hO c).after 1 t = iblk5 V hO c 1 t := by dsimp only [dat5]; try rfl
theorem after5_2 (hO : Ok5 V) (c : Dev nD) (t : Fin (cfgM5 V hO).N) : (dat5 V hO c).after 2 t = out5_2 (iblk5 V hO c 0 t) (iblk5 V hO c 1 t) := by dsimp only [dat5]; try rfl

theorem before5_0 (hO : Ok5 V) (c : Dev nD) (t : Fin (cfgM5 V hO).N) (d) : (dat5 V hO c).before 0 t d = iblk5 V hO c 0 t :=
  before5_0_of V hO (dat5 V hO c) (A_eq5 V hO c 0) (after5_0 V hO c) t d
theorem before5_1 (hO : Ok5 V) (c : Dev nD) (t : Fin (cfgM5 V hO).N) (d) : (dat5 V hO c).before 1 t d = iblk5 V hO c 1 t :=
  before5_1_of V hO (dat5 V hO c) (A_eq5 V hO c 1) (after5_1 V hO c) t d

def bodyPre5 (hO : Ok5 V) (c : Dev nD) (t : Fin (cfgM5 V hO).N) : sProp 𝕄 :=
  iprop((dat5 V hO c).Φ t.castSucc ∗ (dat5 V hO c).owesAt () t.castSucc
    ∗ (∃ d, owns (c : Thread nD τ) (ms5_0 V hO t) fullShare ((dat5 V hO c).before 0 t d))
    ∗ (∃ d, owns (c : Thread nD τ) (ms5_1 V hO t) fullShare ((dat5 V hO c).before 1 t d))
    ∗ (∃ d, owns (c : Thread nD τ) (ms5_2 V hO t) fullShare ((dat5 V hO c).before 2 t d)))

def bodyPost5 (hO : Ok5 V) (c : Dev nD) (t : Fin (cfgM5 V hO).N) : sProp 𝕄 :=
  iprop((dat5 V hO c).Φ t.succ ∗ (dat5 V hO c).owesAt () t.succ
    ∗ owns (c : Thread nD τ) (ms5_0 V hO t) fullShare ((dat5 V hO c).after 0 t)
    ∗ owns (c : Thread nD τ) (ms5_1 V hO t) fullShare ((dat5 V hO c).after 1 t)
    ∗ owns (c : Thread nD τ) (ms5_2 V hO t) fullShare ((dat5 V hO c).after 2 t))

/-- The body at any point: the two input buffers hold their blocks, the body adds them into the output buffer; the
    invariant and the tallies pass through untouched. -/
theorem sound_body5 (hO : Ok5 V) (c : Dev nD) (t : Fin (cfgM5 V hO).N) :
    bodyPre5 V hO c t ⊢ wp frame (wpE (defs₀ (F := F)) Variants.none c none) Set.univ (bodyAt5 (adm5 V hO) t) (fun _ => bodyPost5 V hO c t) := by
  unfold bodyPre5 bodyPost5 bodyAt5
  simp only [before5_0, before5_1]
  rw [show (dat5 V hO c).Φ t.succ = (dat5 V hO c).Φ t.castSucc from rfl,
    show (dat5 V hO c).owesAt () t.succ = (dat5 V hO c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ _ _ _ _ (iblk5 V hO c 0 t) (iblk5 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (hO : Ok5 V) (c : Dev nD) : BodyObligation (dat5 (F := F) V hO c) (defs₀ (F := F)) Variants.none () Set.univ := fun t => by
  rw [bigSep_W5, bigSep_W5]
  exact sound_body5 V hO c t
end

section
variable (V : (c : Dev nD) → (b : Ref sig .tc) → Buf (Elt F) ((c : Thread nD τ).loc b))

/-- The region's three arrays as points-to facts: the gathered array, read by both input windows, half and half; the output array whole. -/
theorem arrays5_eq (hO : Ok5 V) (c : Dev nD)
    (G : (w : Fin (cfgM5 V hO).W) → Buf (Elt F) (((cfgM5 V hO).win w).arr.view.loc (c : Thread nD τ))) :
    ((dat5 V hO c).arrays G : sProp 𝕄)
      = iprop((((c : Thread nD τ).loc main_v1) ↦{fullShare.left} G 0) ∗ (((c : Thread nD τ).loc main_v1) ↦{fullShare.right} G 1)
          ∗ (((c : Thread nD τ).loc main_v40) ↦{fullShare} G 2)) := by
  unfold Dat.arrays
  rw [bigSep_W5, (arr_whole5 0).set_eq_univ, (arr_whole5 2).set_eq_univ]
  rfl
end

/-- The two distinct buffers behind the region's three windows. -/
theorem arrImage5 : Finset.univ.image (Pipeline.arrRef spec5) = insert main_v1 {main_v40} := by decide

section
variable (W : Dev nD → Valuation τ sig (Elt F))

theorem arrBufs5_eq (c : Dev nD) (V : (b : Ref sig .tc) → Buf (Elt F) ((c : Thread nD τ).loc b)) :
    (Pipeline.arrBufs spec5 c V : sProp 𝕄)
      = iprop((((c : Thread nD τ).loc main_v1) ↦{fullShare} V main_v1) ∗ (((c : Thread nD τ).loc main_v40) ↦{fullShare} V main_v40)) := by
  unfold Pipeline.arrBufs
  rw [arrImage5, bigSep_insert (by decide), bigSep_singleton]
  rfl

/-- ENTRY: every unscoped buffer held at `W` gives the region its arrays (the gathered array split in two halves), its two
    tables whole, the tallies, the generator register and the rest of the unscoped buffers. -/
theorem entry5 (hO : Ok5 (VW W)) (c : Dev nD) :
    iprop(StableHlo.held (c : Thread nD τ) (Pipeline.ucRefs τ sig) (W c) ∗ Rr (F := F) c)
      ⊢ |={Set.univ}=> iprop((dat5 (VW W) hO c).arrays ((dat5 (VW W) hO c).arrAt · 0)
          ∗ Pipeline.prefHeld pre5 c (fun _ => fullShare) (tbl5 (VW W))
          ∗ (dat5 (VW W) hO c).owesAt () 0 ∗ (∃ r, prngReg c r)
          ∗ (Pipeline.unscopedRestP pre5 spec5 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM5 (VW W) hO) () winFacts₀5.arr_unscoped c (VW W c)]
  rw [show (Pipeline.arrBufs (cfgM5 (VW W) hO).spec c (VW W c) : sProp 𝕄) = Pipeline.arrBufs spec5 c (VW W c) from rfl,
    arrBufs5_eq, arrays5_eq]
  rw [show (Pipeline.unscopedRest (cfgM5 (VW W) hO).spec c (VW W c) : sProp 𝕄) = Pipeline.unscopedRest spec5 c (VW W c) from rfl,
    Pipeline.unscopedRest_split preFacts5 c (VW W c)]
  rw [show (fun k => VW W c (pre5.ref k)) = tbl5 (VW W) from funext fun k => V_pre5 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest5_update (c : Dev nD) (X : Buf (Elt F) ((c : Thread nD τ).loc main_v40)) :
    (Pipeline.unscopedRest spec5 c (fun b => Function.update (W c) main_v40 X b) : sProp 𝕄) = Pipeline.unscopedRest spec5 c (VW W c) := by
  unfold Pipeline.unscopedRest
  exact bigSep_congr fun b hb => by
    have hne : b ≠ main_v40 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit5 (hO : Ok5 (VW W)) (c : Dev nD) (X : Buf (Elt F) ((c : Thread nD τ).loc main_v40))
    (hX : (dat5 (VW W) hO c).arrAt 2 (cfgM5 (VW W) hO).N = X) :
    iprop((dat5 (VW W) hO c).arrays ((dat5 (VW W) hO c).arrAt · (cfgM5 (VW W) hO).N)
        ∗ (dat5 (VW W) hO c).owesAt () (Fin.last (cfgM5 (VW W) hO).N)
        ∗ iprop((∃ r, prngReg c r) ∗ Pipeline.prefHeld pre5 c (fun _ => fullShare) (tbl5 (VW W)))
        ∗ (Pipeline.unscopedRestP pre5 spec5 c (VW W c) : sProp 𝕄))
      ⊢ |={Set.univ}=> iprop(StableHlo.held (c : Thread nD τ) (Pipeline.ucRefs τ sig) (Function.update (W c) main_v40 X) ∗ Rr (F := F) c) := by
  rw [← Pipeline.unscopedBufs_held (Ix := Unit) (Name := ℕ) (U := UR sig nD τ) (Lvl := ℕ) c (Function.update (W c) main_v40 X)]
  rw [Pipeline.unscopedBufs_split₀ (fun _ : Unit => cfgM5 (VW W) hO) () winFacts₀5.arr_unscoped c _]
  rw [show ∀ V', (Pipeline.arrBufs (cfgM5 (VW W) hO).spec c V' : sProp 𝕄) = Pipeline.arrBufs spec5 c V' from fun _ => rfl,
    show ∀ V', (Pipeline.unscopedRest (cfgM5 (VW W) hO).spec c V' : sProp 𝕄) = Pipeline.unscopedRest spec5 c V' from fun _ => rfl,
    rest5_update W c X, Pipeline.unscopedRest_split preFacts5 c (VW W c), arrBufs5_eq]
  rw [show (fun k => VW W c (pre5.ref k)) = tbl5 (VW W) from funext fun k => V_pre5 (VW W) c k]
  rw [Function.update_of_ne (StableHlo.devRef_ne_of_ne (by decide : (main_v1 : Ref sig .tc) ≠ main_v40)), Function.update_self]
  rw [arrays5_eq, hX,
    show (dat5 (VW W) hO c).arrAt 0 (cfgM5 (VW W) hO).N = W c main_v1 from (dat5 (VW W) hO c).arrAt_in 0 rfl _,
    show (dat5 (VW W) hO c).arrAt 1 (cfgM5 (VW W) hO).N = W c main_v1 from (dat5 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.KernelIdeal.GenP

end
-- ==== Proof.KernelIdeal.RB6.lean ====
/- A row-gather region of the program: the region's proof data, its body obligation and its entry and exit. -/
import proofs.«175043_j76819785056407_2_alg».proof.Proof.Gen.KernelIdeal.Launch
import proofs.«175043_j76819785056407_2_alg».proof.Proof.Gen.KernelIdeal.Skeleton
import proofs.«175043_j76819785056407_2_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 6): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl6 : pre6.Contents (Elt F) := fun j => V (0 : Dev nD) (pre6.ref j)
theorem V_pre6 (c : Dev nD) (j : Fin 2) : V c (pre6.ref j) = tbl6 V j := by
  obtain rfl : c = 0 := Subsingleton.elim _ _; rfl
/-- Every table-indexed block lies inside the gathered array. -/
abbrev Ok6 : Prop := ok6 (F := F) (tbl6 V)
abbrev adm6 (hO : Ok6 V) : (pcfg6 (F := F)).Adm := ⟨tbl6 V, hO⟩
abbrev cfgM6 (hO : Ok6 V) : Pipeline.Cfg sig Λ₀ := cfg6 (adm6 V hO)

/-- Window `w`'s block at point `t`, read off its array as the region finds it. -/
def iblk6 (hO : Ok6 V) (c : Dev nD) (w : Fin (cfgM6 V hO).W) (t : Fin (cfgM6 V hO).N) :
    (((cfgM6 V hO).win w).xblock ((cfgM6 V hO).grid.coords t)).Idx → Elt F ((cfgM6 V hO).win w).elt :=
  (((cfgM6 V hO).win w).blk t).view.read (Elt F) (V c (Pipeline.arrRef spec6 w))

theorem before6_0_of (hO : Ok6 V) {c : Dev nD} (dat : Dat τ (Elt F) Unit ℕ (UR sig nD τ) ℕ (cfgM6 V hO) c) (hA : dat.A 0 = V c (Pipeline.arrRef spec6 0))
    (hafter : ∀ t, dat.after 0 t = iblk6 V hO c 0 t) (t : Fin (cfgM6 V hO).N) (d) : dat.before 0 t d = iblk6 V hO c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of (hO : Ok6 V) {c : Dev nD} (dat : Dat τ (Elt F) Unit ℕ (UR sig nD τ) ℕ (cfgM6 V hO) c) (hA : dat.A 1 = V c (Pipeline.arrRef spec6 1))
    (hafter : ∀ t, dat.after 1 t = iblk6 V hO c 1 t) (t : Fin (cfgM6 V hO).N) (d) : dat.before 1 t d = iblk6 V hO c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
end

/-- The body's one rectangle: the whole 1×1×128 block. -/
abbrev r6_0 : Rect S1x1x128 := Rect.unit (s := S1x1x128) ![0, 0, 0] S1x1x128.size inb_S1x1x128_S1x1x128_0_0_0

/-- The output block after the body: the sum of the two gathered rows. -/
def out6_2 (x0 x1 : Vec F S1x1x128 .f32) : Vec F S1x1x128 .f32 :=
  View.canon [⟨r6_0, k6_pay1 (View.ld x0 r6_0) (View.ld x1 r6_0)⟩]

theorem cover6_2 (p0 : Vec F S1x1x128 .f32) (y : S1x1x128.Idx) :
    ∃ pc ∈ ([⟨r6_0, p0⟩] : List (View.Piece (Elt F) S1x1x128 .f32)), y ∈ pc.1.set :=
  View.cover_of_tiled [⟨r6_0, p0⟩] S1x1x128.size (by rfl) y

set_option maxHeartbeats 1000000 in
/-- The body on whole staging memrefs: the two inputs stay, the output ends at the sum; the tables are not touched. -/
theorem sound_kernel6 (c : Dev nD) (E : Set ℕ) (i : grid6.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out6_2 x0 x1)) -∗ K ⟨⟩))
      ⊢ wp frame (wpE (defs₀ (F := F)) Variants.none c none) E (cc6__kernel_b i a1 ha1 a2 ha2 arg3 harg3 arg4 harg4 arg5 harg5) K := by
  simp only [cc6__kernel_b_eq_skeleton]; unfold cc6__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

section
variable (V : (c : Dev nD) → (b : Ref sig .tc) → Buf (Elt F) ((c : Thread nD τ).loc b))

/-- Each window's current staging memref at point `t`, and its wholeness. -/
abbrev ms6_0 (hO : Ok6 V) (t : Fin (cfgM6 V hO).N) : Memref sig .tc .vmem S1x1x128 .f32 := spec6_0.stage ((cfgM6 V hO).slots t 0)
abbrev hs6_0 (hO : Ok6 V) (t : Fin (cfgM6 V hO).N) : (ms6_0 V hO t).IsWhole := hstage6_0 (((cfgM6 V hO).slots t 0).cast nbuf6_0)
abbrev ms6_1 (hO : Ok6 V) (t : Fin (cfgM6 V hO).N) : Memref sig .tc .vmem S1x1x128 .f32 := spec6_1.stage ((cfgM6 V hO).slots t 1)
abbrev hs6_1 (hO : Ok6 V) (t : Fin (cfgM6 V hO).N) : (ms6_1 V hO t).IsWhole := hstage6_1 (((cfgM6 V hO).slots t 1).cast nbuf6_1)
abbrev ms6_2 (hO : Ok6 V) (t : Fin (cfgM6 V hO).N) : Memref sig .tc .vmem S1x1x128 .f32 := spec6_2.stage ((cfgM6 V hO).slots t 2)
abbrev hs6_2 (hO : Ok6 V) (t : Fin (cfgM6 V hO).N) : (ms6_2 V hO t).IsWhole := hstage6_2 (((cfgM6 V hO).slots t 2).cast nbuf6_2)

/-- The kernel body as the pipeline calls it at point `t`: the point, the two tables whole, the three current staging memrefs. -/
abbrev bodyAt6 (a : (pcfg6 (F := F)).Adm) (t : Fin (cfg6 a).N) : Prog (TpuEff nD τ sig (Elt F) Λ₀ .tc) PUnit :=
  cc6__kernel_b (grid6.coords t) (Memref.whole main_v42) (Memref.isWhole_whole _) (Memref.whole main_v43) (Memref.isWhole_whole _)
    (spec6_0.stage ((cfg6 a).slots t 0)) (hstage6_0 (((cfg6 a).slots t 0).cast nbuf6_0))
    (spec6_1.stage ((cfg6 a).slots t 1)) (hstage6_1 (((cfg6 a).slots t 1).cast nbuf6_1))
    (spec6_2.stage ((cfg6 a).slots t 2)) (hstage6_2 (((cfg6 a).slots t 2).cast nbuf6_2))

/-- The region's proof data on core `c`: the arrays as the region finds them; after the body each input's buffer at its
    block and the output's at the sum of the two input blocks; the invariant carries the scoped rest, the generator register
    and the two tables, whole; the gathered array, read by both input windows, is held half and half; nothing owed. -/
def dat6 (hO : Ok6 V) (c : Dev nD) : Dat τ (Elt F) Unit ℕ (UR sig nD τ) ℕ (cfgM6 V hO) c where
  A w := V c (Pipeline.arrRef spec6 w)
  after w t := match w with
    | ⟨0, _⟩ => iblk6 V hO c 0 t
    | ⟨1, _⟩ => iblk6 V hO c 1 t
    | ⟨2, _⟩ => out6_2 (iblk6 V hO c 0 t) (iblk6 V hO c 1 t)
  Φ _ := iprop(Pipeline.ΦA spec6 c ∗ (Pipeline.prefHeld pre6 c (fun _ => fullShare) (tbl6 V) : sProp 𝕄))
  q w := match w with
    | ⟨0, _⟩ => fullShare.left
    | ⟨1, _⟩ => fullShare.right
    | ⟨2, _⟩ => fullShare
  owed _ := 0

theorem A_eq6 (hO : Ok6 V) (c : Dev nD) (w : Fin (cfgM6 V hO).W) : (dat6 V hO c).A w = V c (Pipeline.arrRef spec6 w) := by
  dsimp only [dat6]

theorem after6_0 (hO : Ok6 V) (c : Dev nD) (t : Fin (cfgM6 V hO).N) : (dat6 V hO c).after 0 t = iblk6 V hO c 0 t := by dsimp only [dat6]; try rfl
theorem after6_1 (hO : Ok6 V) (c : Dev nD) (t : Fin (cfgM6 V hO).N) : (dat6 V hO c).after 1 t = iblk6 V hO c 1 t := by dsimp only [dat6]; try rfl
theorem after6_2 (hO : Ok6 V) (c : Dev nD) (t : Fin (cfgM6 V hO).N) : (dat6 V hO c).after 2 t = out6_2 (iblk6 V hO c 0 t) (iblk6 V hO c 1 t) := by dsimp only [dat6]; try rfl

theorem before6_0 (hO : Ok6 V) (c : Dev nD) (t : Fin (cfgM6 V hO).N) (d) : (dat6 V hO c).before 0 t d = iblk6 V hO c 0 t :=
  before6_0_of V hO (dat6 V hO c) (A_eq6 V hO c 0) (after6_0 V hO c) t d
theorem before6_1 (hO : Ok6 V) (c : Dev nD) (t : Fin (cfgM6 V hO).N) (d) : (dat6 V hO c).before 1 t d = iblk6 V hO c 1 t :=
  before6_1_of V hO (dat6 V hO c) (A_eq6 V hO c 1) (after6_1 V hO c) t d

def bodyPre6 (hO : Ok6 V) (c : Dev nD) (t : Fin (cfgM6 V hO).N) : sProp 𝕄 :=
  iprop((dat6 V hO c).Φ t.castSucc ∗ (dat6 V hO c).owesAt () t.castSucc
    ∗ (∃ d, owns (c : Thread nD τ) (ms6_0 V hO t) fullShare ((dat6 V hO c).before 0 t d))
    ∗ (∃ d, owns (c : Thread nD τ) (ms6_1 V hO t) fullShare ((dat6 V hO c).before 1 t d))
    ∗ (∃ d, owns (c : Thread nD τ) (ms6_2 V hO t) fullShare ((dat6 V hO c).before 2 t d)))

def bodyPost6 (hO : Ok6 V) (c : Dev nD) (t : Fin (cfgM6 V hO).N) : sProp 𝕄 :=
  iprop((dat6 V hO c).Φ t.succ ∗ (dat6 V hO c).owesAt () t.succ
    ∗ owns (c : Thread nD τ) (ms6_0 V hO t) fullShare ((dat6 V hO c).after 0 t)
    ∗ owns (c : Thread nD τ) (ms6_1 V hO t) fullShare ((dat6 V hO c).after 1 t)
    ∗ owns (c : Thread nD τ) (ms6_2 V hO t) fullShare ((dat6 V hO c).after 2 t))

/-- The body at any point: the two input buffers hold their blocks, the body adds them into the output buffer; the
    invariant and the tallies pass through untouched. -/
theorem sound_body6 (hO : Ok6 V) (c : Dev nD) (t : Fin (cfgM6 V hO).N) :
    bodyPre6 V hO c t ⊢ wp frame (wpE (defs₀ (F := F)) Variants.none c none) Set.univ (bodyAt6 (adm6 V hO) t) (fun _ => bodyPost6 V hO c t) := by
  unfold bodyPre6 bodyPost6 bodyAt6
  simp only [before6_0, before6_1]
  rw [show (dat6 V hO c).Φ t.succ = (dat6 V hO c).Φ t.castSucc from rfl,
    show (dat6 V hO c).owesAt () t.succ = (dat6 V hO c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ _ _ _ _ (iblk6 V hO c 0 t) (iblk6 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (hO : Ok6 V) (c : Dev nD) : BodyObligation (dat6 (F := F) V hO c) (defs₀ (F := F)) Variants.none () Set.univ := fun t => by
  rw [bigSep_W6, bigSep_W6]
  exact sound_body6 V hO c t
end

section
variable (V : (c : Dev nD) → (b : Ref sig .tc) → Buf (Elt F) ((c : Thread nD τ).loc b))

/-- The region's three arrays as points-to facts: the gathered array, read by both input windows, half and half; the output array whole. -/
theorem arrays6_eq (hO : Ok6 V) (c : Dev nD)
    (G : (w : Fin (cfgM6 V hO).W) → Buf (Elt F) (((cfgM6 V hO).win w).arr.view.loc (c : Thread nD τ))) :
    ((dat6 V hO c).arrays G : sProp 𝕄)
      = iprop((((c : Thread nD τ).loc main_v1) ↦{fullShare.left} G 0) ∗ (((c : Thread nD τ).loc main_v1) ↦{fullShare.right} G 1)
          ∗ (((c : Thread nD τ).loc main_v44) ↦{fullShare} G 2)) := by
  unfold Dat.arrays
  rw [bigSep_W6, (arr_whole6 0).set_eq_univ, (arr_whole6 2).set_eq_univ]
  rfl
end

/-- The two distinct buffers behind the region's three windows. -/
theorem arrImage6 : Finset.univ.image (Pipeline.arrRef spec6) = insert main_v1 {main_v44} := by decide

section
variable (W : Dev nD → Valuation τ sig (Elt F))

theorem arrBufs6_eq (c : Dev nD) (V : (b : Ref sig .tc) → Buf (Elt F) ((c : Thread nD τ).loc b)) :
    (Pipeline.arrBufs spec6 c V : sProp 𝕄)
      = iprop((((c : Thread nD τ).loc main_v1) ↦{fullShare} V main_v1) ∗ (((c : Thread nD τ).loc main_v44) ↦{fullShare} V main_v44)) := by
  unfold Pipeline.arrBufs
  rw [arrImage6, bigSep_insert (by decide), bigSep_singleton]
  rfl

/-- ENTRY: every unscoped buffer held at `W` gives the region its arrays (the gathered array split in two halves), its two
    tables whole, the tallies, the generator register and the rest of the unscoped buffers. -/
theorem entry6 (hO : Ok6 (VW W)) (c : Dev nD) :
    iprop(StableHlo.held (c : Thread nD τ) (Pipeline.ucRefs τ sig) (W c) ∗ Rr (F := F) c)
      ⊢ |={Set.univ}=> iprop((dat6 (VW W) hO c).arrays ((dat6 (VW W) hO c).arrAt · 0)
          ∗ Pipeline.prefHeld pre6 c (fun _ => fullShare) (tbl6 (VW W))
          ∗ (dat6 (VW W) hO c).owesAt () 0 ∗ (∃ r, prngReg c r)
          ∗ (Pipeline.unscopedRestP pre6 spec6 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM6 (VW W) hO) () winFacts₀6.arr_unscoped c (VW W c)]
  rw [show (Pipeline.arrBufs (cfgM6 (VW W) hO).spec c (VW W c) : sProp 𝕄) = Pipeline.arrBufs spec6 c (VW W c) from rfl,
    arrBufs6_eq, arrays6_eq]
  rw [show (Pipeline.unscopedRest (cfgM6 (VW W) hO).spec c (VW W c) : sProp 𝕄) = Pipeline.unscopedRest spec6 c (VW W c) from rfl,
    Pipeline.unscopedRest_split preFacts6 c (VW W c)]
  rw [show (fun k => VW W c (pre6.ref k)) = tbl6 (VW W) from funext fun k => V_pre6 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest6_update (c : Dev nD) (X : Buf (Elt F) ((c : Thread nD τ).loc main_v44)) :
    (Pipeline.unscopedRest spec6 c (fun b => Function.update (W c) main_v44 X b) : sProp 𝕄) = Pipeline.unscopedRest spec6 c (VW W c) := by
  unfold Pipeline.unscopedRest
  exact bigSep_congr fun b hb => by
    have hne : b ≠ main_v44 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit6 (hO : Ok6 (VW W)) (c : Dev nD) (X : Buf (Elt F) ((c : Thread nD τ).loc main_v44))
    (hX : (dat6 (VW W) hO c).arrAt 2 (cfgM6 (VW W) hO).N = X) :
    iprop((dat6 (VW W) hO c).arrays ((dat6 (VW W) hO c).arrAt · (cfgM6 (VW W) hO).N)
        ∗ (dat6 (VW W) hO c).owesAt () (Fin.last (cfgM6 (VW W) hO).N)
        ∗ iprop((∃ r, prngReg c r) ∗ Pipeline.prefHeld pre6 c (fun _ => fullShare) (tbl6 (VW W)))
        ∗ (Pipeline.unscopedRestP pre6 spec6 c (VW W c) : sProp 𝕄))
      ⊢ |={Set.univ}=> iprop(StableHlo.held (c : Thread nD τ) (Pipeline.ucRefs τ sig) (Function.update (W c) main_v44 X) ∗ Rr (F := F) c) := by
  rw [← Pipeline.unscopedBufs_held (Ix := Unit) (Name := ℕ) (U := UR sig nD τ) (Lvl := ℕ) c (Function.update (W c) main_v44 X)]
  rw [Pipeline.unscopedBufs_split₀ (fun _ : Unit => cfgM6 (VW W) hO) () winFacts₀6.arr_unscoped c _]
  rw [show ∀ V', (Pipeline.arrBufs (cfgM6 (VW W) hO).spec c V' : sProp 𝕄) = Pipeline.arrBufs spec6 c V' from fun _ => rfl,
    show ∀ V', (Pipeline.unscopedRest (cfgM6 (VW W) hO).spec c V' : sProp 𝕄) = Pipeline.unscopedRest spec6 c V' from fun _ => rfl,
    rest6_update W c X, Pipeline.unscopedRest_split preFacts6 c (VW W c), arrBufs6_eq]
  rw [show (fun k => VW W c (pre6.ref k)) = tbl6 (VW W) from funext fun k => V_pre6 (VW W) c k]
  rw [Function.update_of_ne (StableHlo.devRef_ne_of_ne (by decide : (main_v1 : Ref sig .tc) ≠ main_v44)), Function.update_self]
  rw [arrays6_eq, hX,
    show (dat6 (VW W) hO c).arrAt 0 (cfgM6 (VW W) hO).N = W c main_v1 from (dat6 (VW W) hO c).arrAt_in 0 rfl _,
    show (dat6 (VW W) hO c).arrAt 1 (cfgM6 (VW W) hO).N = W c main_v1 from (dat6 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.KernelIdeal.GenP

end
-- ==== Proof.KernelIdeal.RB7.lean ====
/- A row-gather region of the program: the region's proof data, its body obligation and its entry and exit. -/
import proofs.«175043_j76819785056407_2_alg».proof.Proof.Gen.KernelIdeal.Launch
import proofs.«175043_j76819785056407_2_alg».proof.Proof.Gen.KernelIdeal.Skeleton
import proofs.«175043_j76819785056407_2_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 7): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl7 : pre7.Contents (Elt F) := fun j => V (0 : Dev nD) (pre7.ref j)
theorem V_pre7 (c : Dev nD) (j : Fin 2) : V c (pre7.ref j) = tbl7 V j := by
  obtain rfl : c = 0 := Subsingleton.elim _ _; rfl
/-- Every table-indexed block lies inside the gathered array. -/
abbrev Ok7 : Prop := ok7 (F := F) (tbl7 V)
abbrev adm7 (hO : Ok7 V) : (pcfg7 (F := F)).Adm := ⟨tbl7 V, hO⟩
abbrev cfgM7 (hO : Ok7 V) : Pipeline.Cfg sig Λ₀ := cfg7 (adm7 V hO)

/-- Window `w`'s block at point `t`, read off its array as the region finds it. -/
def iblk7 (hO : Ok7 V) (c : Dev nD) (w : Fin (cfgM7 V hO).W) (t : Fin (cfgM7 V hO).N) :
    (((cfgM7 V hO).win w).xblock ((cfgM7 V hO).grid.coords t)).Idx → Elt F ((cfgM7 V hO).win w).elt :=
  (((cfgM7 V hO).win w).blk t).view.read (Elt F) (V c (Pipeline.arrRef spec7 w))

theorem before7_0_of (hO : Ok7 V) {c : Dev nD} (dat : Dat τ (Elt F) Unit ℕ (UR sig nD τ) ℕ (cfgM7 V hO) c) (hA : dat.A 0 = V c (Pipeline.arrRef spec7 0))
    (hafter : ∀ t, dat.after 0 t = iblk7 V hO c 0 t) (t : Fin (cfgM7 V hO).N) (d) : dat.before 0 t d = iblk7 V hO c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of (hO : Ok7 V) {c : Dev nD} (dat : Dat τ (Elt F) Unit ℕ (UR sig nD τ) ℕ (cfgM7 V hO) c) (hA : dat.A 1 = V c (Pipeline.arrRef spec7 1))
    (hafter : ∀ t, dat.after 1 t = iblk7 V hO c 1 t) (t : Fin (cfgM7 V hO).N) (d) : dat.before 1 t d = iblk7 V hO c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
end

/-- The body's one rectangle: the whole 1×1×128 block. -/
abbrev r7_0 : Rect S1x1x128 := Rect.unit (s := S1x1x128) ![0, 0, 0] S1x1x128.size inb_S1x1x128_S1x1x128_0_0_0

/-- The output block after the body: the sum of the two gathered rows. -/
def out7_2 (x0 x1 : Vec F S1x1x128 .f32) : Vec F S1x1x128 .f32 :=
  View.canon [⟨r7_0, k7_pay1 (View.ld x0 r7_0) (View.ld x1 r7_0)⟩]

theorem cover7_2 (p0 : Vec F S1x1x128 .f32) (y : S1x1x128.Idx) :
    ∃ pc ∈ ([⟨r7_0, p0⟩] : List (View.Piece (Elt F) S1x1x128 .f32)), y ∈ pc.1.set :=
  View.cover_of_tiled [⟨r7_0, p0⟩] S1x1x128.size (by rfl) y

set_option maxHeartbeats 1000000 in
/-- The body on whole staging memrefs: the two inputs stay, the output ends at the sum; the tables are not touched. -/
theorem sound_kernel7 (c : Dev nD) (E : Set ℕ) (i : grid7.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out7_2 x0 x1)) -∗ K ⟨⟩))
      ⊢ wp frame (wpE (defs₀ (F := F)) Variants.none c none) E (cc7__kernel_b i a1 ha1 a2 ha2 arg3 harg3 arg4 harg4 arg5 harg5) K := by
  simp only [cc7__kernel_b_eq_skeleton]; unfold cc7__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

section
variable (V : (c : Dev nD) → (b : Ref sig .tc) → Buf (Elt F) ((c : Thread nD τ).loc b))

/-- Each window's current staging memref at point `t`, and its wholeness. -/
abbrev ms7_0 (hO : Ok7 V) (t : Fin (cfgM7 V hO).N) : Memref sig .tc .vmem S1x1x128 .f32 := spec7_0.stage ((cfgM7 V hO).slots t 0)
abbrev hs7_0 (hO : Ok7 V) (t : Fin (cfgM7 V hO).N) : (ms7_0 V hO t).IsWhole := hstage7_0 (((cfgM7 V hO).slots t 0).cast nbuf7_0)
abbrev ms7_1 (hO : Ok7 V) (t : Fin (cfgM7 V hO).N) : Memref sig .tc .vmem S1x1x128 .f32 := spec7_1.stage ((cfgM7 V hO).slots t 1)
abbrev hs7_1 (hO : Ok7 V) (t : Fin (cfgM7 V hO).N) : (ms7_1 V hO t).IsWhole := hstage7_1 (((cfgM7 V hO).slots t 1).cast nbuf7_1)
abbrev ms7_2 (hO : Ok7 V) (t : Fin (cfgM7 V hO).N) : Memref sig .tc .vmem S1x1x128 .f32 := spec7_2.stage ((cfgM7 V hO).slots t 2)
abbrev hs7_2 (hO : Ok7 V) (t : Fin (cfgM7 V hO).N) : (ms7_2 V hO t).IsWhole := hstage7_2 (((cfgM7 V hO).slots t 2).cast nbuf7_2)

/-- The kernel body as the pipeline calls it at point `t`: the point, the two tables whole, the three current staging memrefs. -/
abbrev bodyAt7 (a : (pcfg7 (F := F)).Adm) (t : Fin (cfg7 a).N) : Prog (TpuEff nD τ sig (Elt F) Λ₀ .tc) PUnit :=
  cc7__kernel_b (grid7.coords t) (Memref.whole main_v46) (Memref.isWhole_whole _) (Memref.whole main_v47) (Memref.isWhole_whole _)
    (spec7_0.stage ((cfg7 a).slots t 0)) (hstage7_0 (((cfg7 a).slots t 0).cast nbuf7_0))
    (spec7_1.stage ((cfg7 a).slots t 1)) (hstage7_1 (((cfg7 a).slots t 1).cast nbuf7_1))
    (spec7_2.stage ((cfg7 a).slots t 2)) (hstage7_2 (((cfg7 a).slots t 2).cast nbuf7_2))

/-- The region's proof data on core `c`: the arrays as the region finds them; after the body each input's buffer at its
    block and the output's at the sum of the two input blocks; the invariant carries the scoped rest, the generator register
    and the two tables, whole; the gathered array, read by both input windows, is held half and half; nothing owed. -/
def dat7 (hO : Ok7 V) (c : Dev nD) : Dat τ (Elt F) Unit ℕ (UR sig nD τ) ℕ (cfgM7 V hO) c where
  A w := V c (Pipeline.arrRef spec7 w)
  after w t := match w with
    | ⟨0, _⟩ => iblk7 V hO c 0 t
    | ⟨1, _⟩ => iblk7 V hO c 1 t
    | ⟨2, _⟩ => out7_2 (iblk7 V hO c 0 t) (iblk7 V hO c 1 t)
  Φ _ := iprop(Pipeline.ΦA spec7 c ∗ (Pipeline.prefHeld pre7 c (fun _ => fullShare) (tbl7 V) : sProp 𝕄))
  q w := match w with
    | ⟨0, _⟩ => fullShare.left
    | ⟨1, _⟩ => fullShare.right
    | ⟨2, _⟩ => fullShare
  owed _ := 0

theorem A_eq7 (hO : Ok7 V) (c : Dev nD) (w : Fin (cfgM7 V hO).W) : (dat7 V hO c).A w = V c (Pipeline.arrRef spec7 w) := by
  dsimp only [dat7]

theorem after7_0 (hO : Ok7 V) (c : Dev nD) (t : Fin (cfgM7 V hO).N) : (dat7 V hO c).after 0 t = iblk7 V hO c 0 t := by dsimp only [dat7]; try rfl
theorem after7_1 (hO : Ok7 V) (c : Dev nD) (t : Fin (cfgM7 V hO).N) : (dat7 V hO c).after 1 t = iblk7 V hO c 1 t := by dsimp only [dat7]; try rfl
theorem after7_2 (hO : Ok7 V) (c : Dev nD) (t : Fin (cfgM7 V hO).N) : (dat7 V hO c).after 2 t = out7_2 (iblk7 V hO c 0 t) (iblk7 V hO c 1 t) := by dsimp only [dat7]; try rfl

theorem before7_0 (hO : Ok7 V) (c : Dev nD) (t : Fin (cfgM7 V hO).N) (d) : (dat7 V hO c).before 0 t d = iblk7 V hO c 0 t :=
  before7_0_of V hO (dat7 V hO c) (A_eq7 V hO c 0) (after7_0 V hO c) t d
theorem before7_1 (hO : Ok7 V) (c : Dev nD) (t : Fin (cfgM7 V hO).N) (d) : (dat7 V hO c).before 1 t d = iblk7 V hO c 1 t :=
  before7_1_of V hO (dat7 V hO c) (A_eq7 V hO c 1) (after7_1 V hO c) t d

def bodyPre7 (hO : Ok7 V) (c : Dev nD) (t : Fin (cfgM7 V hO).N) : sProp 𝕄 :=
  iprop((dat7 V hO c).Φ t.castSucc ∗ (dat7 V hO c).owesAt () t.castSucc
    ∗ (∃ d, owns (c : Thread nD τ) (ms7_0 V hO t) fullShare ((dat7 V hO c).before 0 t d))
    ∗ (∃ d, owns (c : Thread nD τ) (ms7_1 V hO t) fullShare ((dat7 V hO c).before 1 t d))
    ∗ (∃ d, owns (c : Thread nD τ) (ms7_2 V hO t) fullShare ((dat7 V hO c).before 2 t d)))

def bodyPost7 (hO : Ok7 V) (c : Dev nD) (t : Fin (cfgM7 V hO).N) : sProp 𝕄 :=
  iprop((dat7 V hO c).Φ t.succ ∗ (dat7 V hO c).owesAt () t.succ
    ∗ owns (c : Thread nD τ) (ms7_0 V hO t) fullShare ((dat7 V hO c).after 0 t)
    ∗ owns (c : Thread nD τ) (ms7_1 V hO t) fullShare ((dat7 V hO c).after 1 t)
    ∗ owns (c : Thread nD τ) (ms7_2 V hO t) fullShare ((dat7 V hO c).after 2 t))

/-- The body at any point: the two input buffers hold their blocks, the body adds them into the output buffer; the
    invariant and the tallies pass through untouched. -/
theorem sound_body7 (hO : Ok7 V) (c : Dev nD) (t : Fin (cfgM7 V hO).N) :
    bodyPre7 V hO c t ⊢ wp frame (wpE (defs₀ (F := F)) Variants.none c none) Set.univ (bodyAt7 (adm7 V hO) t) (fun _ => bodyPost7 V hO c t) := by
  unfold bodyPre7 bodyPost7 bodyAt7
  simp only [before7_0, before7_1]
  rw [show (dat7 V hO c).Φ t.succ = (dat7 V hO c).Φ t.castSucc from rfl,
    show (dat7 V hO c).owesAt () t.succ = (dat7 V hO c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ _ _ _ _ (iblk7 V hO c 0 t) (iblk7 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (hO : Ok7 V) (c : Dev nD) : BodyObligation (dat7 (F := F) V hO c) (defs₀ (F := F)) Variants.none () Set.univ := fun t => by
  rw [bigSep_W7, bigSep_W7]
  exact sound_body7 V hO c t
end

section
variable (V : (c : Dev nD) → (b : Ref sig .tc) → Buf (Elt F) ((c : Thread nD τ).loc b))

/-- The region's three arrays as points-to facts: the gathered array, read by both input windows, half and half; the output array whole. -/
theorem arrays7_eq (hO : Ok7 V) (c : Dev nD)
    (G : (w : Fin (cfgM7 V hO).W) → Buf (Elt F) (((cfgM7 V hO).win w).arr.view.loc (c : Thread nD τ))) :
    ((dat7 V hO c).arrays G : sProp 𝕄)
      = iprop((((c : Thread nD τ).loc main_v1) ↦{fullShare.left} G 0) ∗ (((c : Thread nD τ).loc main_v1) ↦{fullShare.right} G 1)
          ∗ (((c : Thread nD τ).loc main_v48) ↦{fullShare} G 2)) := by
  unfold Dat.arrays
  rw [bigSep_W7, (arr_whole7 0).set_eq_univ, (arr_whole7 2).set_eq_univ]
  rfl
end

/-- The two distinct buffers behind the region's three windows. -/
theorem arrImage7 : Finset.univ.image (Pipeline.arrRef spec7) = insert main_v1 {main_v48} := by decide

section
variable (W : Dev nD → Valuation τ sig (Elt F))

theorem arrBufs7_eq (c : Dev nD) (V : (b : Ref sig .tc) → Buf (Elt F) ((c : Thread nD τ).loc b)) :
    (Pipeline.arrBufs spec7 c V : sProp 𝕄)
      = iprop((((c : Thread nD τ).loc main_v1) ↦{fullShare} V main_v1) ∗ (((c : Thread nD τ).loc main_v48) ↦{fullShare} V main_v48)) := by
  unfold Pipeline.arrBufs
  rw [arrImage7, bigSep_insert (by decide), bigSep_singleton]
  rfl

/-- ENTRY: every unscoped buffer held at `W` gives the region its arrays (the gathered array split in two halves), its two
    tables whole, the tallies, the generator register and the rest of the unscoped buffers. -/
theorem entry7 (hO : Ok7 (VW W)) (c : Dev nD) :
    iprop(StableHlo.held (c : Thread nD τ) (Pipeline.ucRefs τ sig) (W c) ∗ Rr (F := F) c)
      ⊢ |={Set.univ}=> iprop((dat7 (VW W) hO c).arrays ((dat7 (VW W) hO c).arrAt · 0)
          ∗ Pipeline.prefHeld pre7 c (fun _ => fullShare) (tbl7 (VW W))
          ∗ (dat7 (VW W) hO c).owesAt () 0 ∗ (∃ r, prngReg c r)
          ∗ (Pipeline.unscopedRestP pre7 spec7 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM7 (VW W) hO) () winFacts₀7.arr_unscoped c (VW W c)]
  rw [show (Pipeline.arrBufs (cfgM7 (VW W) hO).spec c (VW W c) : sProp 𝕄) = Pipeline.arrBufs spec7 c (VW W c) from rfl,
    arrBufs7_eq, arrays7_eq]
  rw [show (Pipeline.unscopedRest (cfgM7 (VW W) hO).spec c (VW W c) : sProp 𝕄) = Pipeline.unscopedRest spec7 c (VW W c) from rfl,
    Pipeline.unscopedRest_split preFacts7 c (VW W c)]
  rw [show (fun k => VW W c (pre7.ref k)) = tbl7 (VW W) from funext fun k => V_pre7 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest7_update (c : Dev nD) (X : Buf (Elt F) ((c : Thread nD τ).loc main_v48)) :
    (Pipeline.unscopedRest spec7 c (fun b => Function.update (W c) main_v48 X b) : sProp 𝕄) = Pipeline.unscopedRest spec7 c (VW W c) := by
  unfold Pipeline.unscopedRest
  exact bigSep_congr fun b hb => by
    have hne : b ≠ main_v48 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit7 (hO : Ok7 (VW W)) (c : Dev nD) (X : Buf (Elt F) ((c : Thread nD τ).loc main_v48))
    (hX : (dat7 (VW W) hO c).arrAt 2 (cfgM7 (VW W) hO).N = X) :
    iprop((dat7 (VW W) hO c).arrays ((dat7 (VW W) hO c).arrAt · (cfgM7 (VW W) hO).N)
        ∗ (dat7 (VW W) hO c).owesAt () (Fin.last (cfgM7 (VW W) hO).N)
        ∗ iprop((∃ r, prngReg c r) ∗ Pipeline.prefHeld pre7 c (fun _ => fullShare) (tbl7 (VW W)))
        ∗ (Pipeline.unscopedRestP pre7 spec7 c (VW W c) : sProp 𝕄))
      ⊢ |={Set.univ}=> iprop(StableHlo.held (c : Thread nD τ) (Pipeline.ucRefs τ sig) (Function.update (W c) main_v48 X) ∗ Rr (F := F) c) := by
  rw [← Pipeline.unscopedBufs_held (Ix := Unit) (Name := ℕ) (U := UR sig nD τ) (Lvl := ℕ) c (Function.update (W c) main_v48 X)]
  rw [Pipeline.unscopedBufs_split₀ (fun _ : Unit => cfgM7 (VW W) hO) () winFacts₀7.arr_unscoped c _]
  rw [show ∀ V', (Pipeline.arrBufs (cfgM7 (VW W) hO).spec c V' : sProp 𝕄) = Pipeline.arrBufs spec7 c V' from fun _ => rfl,
    show ∀ V', (Pipeline.unscopedRest (cfgM7 (VW W) hO).spec c V' : sProp 𝕄) = Pipeline.unscopedRest spec7 c V' from fun _ => rfl,
    rest7_update W c X, Pipeline.unscopedRest_split preFacts7 c (VW W c), arrBufs7_eq]
  rw [show (fun k => VW W c (pre7.ref k)) = tbl7 (VW W) from funext fun k => V_pre7 (VW W) c k]
  rw [Function.update_of_ne (StableHlo.devRef_ne_of_ne (by decide : (main_v1 : Ref sig .tc) ≠ main_v48)), Function.update_self]
  rw [arrays7_eq, hX,
    show (dat7 (VW W) hO c).arrAt 0 (cfgM7 (VW W) hO).N = W c main_v1 from (dat7 (VW W) hO c).arrAt_in 0 rfl _,
    show (dat7 (VW W) hO c).arrAt 1 (cfgM7 (VW W) hO).N = W c main_v1 from (dat7 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.KernelIdeal.GenP

end
-- ==== Proof.KernelIdeal.RB8.lean ====
/- A row-gather region of the program: the region's proof data, its body obligation and its entry and exit. -/
import proofs.«175043_j76819785056407_2_alg».proof.Proof.Gen.KernelIdeal.Launch
import proofs.«175043_j76819785056407_2_alg».proof.Proof.Gen.KernelIdeal.Skeleton
import proofs.«175043_j76819785056407_2_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 8): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl8 : pre8.Contents (Elt F) := fun j => V (0 : Dev nD) (pre8.ref j)
theorem V_pre8 (c : Dev nD) (j : Fin 2) : V c (pre8.ref j) = tbl8 V j := by
  obtain rfl : c = 0 := Subsingleton.elim _ _; rfl
/-- Every table-indexed block lies inside the gathered array. -/
abbrev Ok8 : Prop := ok8 (F := F) (tbl8 V)
abbrev adm8 (hO : Ok8 V) : (pcfg8 (F := F)).Adm := ⟨tbl8 V, hO⟩
abbrev cfgM8 (hO : Ok8 V) : Pipeline.Cfg sig Λ₀ := cfg8 (adm8 V hO)

/-- Window `w`'s block at point `t`, read off its array as the region finds it. -/
def iblk8 (hO : Ok8 V) (c : Dev nD) (w : Fin (cfgM8 V hO).W) (t : Fin (cfgM8 V hO).N) :
    (((cfgM8 V hO).win w).xblock ((cfgM8 V hO).grid.coords t)).Idx → Elt F ((cfgM8 V hO).win w).elt :=
  (((cfgM8 V hO).win w).blk t).view.read (Elt F) (V c (Pipeline.arrRef spec8 w))

theorem before8_0_of (hO : Ok8 V) {c : Dev nD} (dat : Dat τ (Elt F) Unit ℕ (UR sig nD τ) ℕ (cfgM8 V hO) c) (hA : dat.A 0 = V c (Pipeline.arrRef spec8 0))
    (hafter : ∀ t, dat.after 0 t = iblk8 V hO c 0 t) (t : Fin (cfgM8 V hO).N) (d) : dat.before 0 t d = iblk8 V hO c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of (hO : Ok8 V) {c : Dev nD} (dat : Dat τ (Elt F) Unit ℕ (UR sig nD τ) ℕ (cfgM8 V hO) c) (hA : dat.A 1 = V c (Pipeline.arrRef spec8 1))
    (hafter : ∀ t, dat.after 1 t = iblk8 V hO c 1 t) (t : Fin (cfgM8 V hO).N) (d) : dat.before 1 t d = iblk8 V hO c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
end

/-- The body's one rectangle: the whole 1×1×128 block. -/
abbrev r8_0 : Rect S1x1x128 := Rect.unit (s := S1x1x128) ![0, 0, 0] S1x1x128.size inb_S1x1x128_S1x1x128_0_0_0

/-- The output block after the body: the sum of the two gathered rows. -/
def out8_2 (x0 x1 : Vec F S1x1x128 .f32) : Vec F S1x1x128 .f32 :=
  View.canon [⟨r8_0, k8_pay1 (View.ld x0 r8_0) (View.ld x1 r8_0)⟩]

theorem cover8_2 (p0 : Vec F S1x1x128 .f32) (y : S1x1x128.Idx) :
    ∃ pc ∈ ([⟨r8_0, p0⟩] : List (View.Piece (Elt F) S1x1x128 .f32)), y ∈ pc.1.set :=
  View.cover_of_tiled [⟨r8_0, p0⟩] S1x1x128.size (by rfl) y

set_option maxHeartbeats 1000000 in
/-- The body on whole staging memrefs: the two inputs stay, the output ends at the sum; the tables are not touched. -/
theorem sound_kernel8 (c : Dev nD) (E : Set ℕ) (i : grid8.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out8_2 x0 x1)) -∗ K ⟨⟩))
      ⊢ wp frame (wpE (defs₀ (F := F)) Variants.none c none) E (cc8__kernel_b i a1 ha1 a2 ha2 arg3 harg3 arg4 harg4 arg5 harg5) K := by
  simp only [cc8__kernel_b_eq_skeleton]; unfold cc8__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

section
variable (V : (c : Dev nD) → (b : Ref sig .tc) → Buf (Elt F) ((c : Thread nD τ).loc b))

/-- Each window's current staging memref at point `t`, and its wholeness. -/
abbrev ms8_0 (hO : Ok8 V) (t : Fin (cfgM8 V hO).N) : Memref sig .tc .vmem S1x1x128 .f32 := spec8_0.stage ((cfgM8 V hO).slots t 0)
abbrev hs8_0 (hO : Ok8 V) (t : Fin (cfgM8 V hO).N) : (ms8_0 V hO t).IsWhole := hstage8_0 (((cfgM8 V hO).slots t 0).cast nbuf8_0)
abbrev ms8_1 (hO : Ok8 V) (t : Fin (cfgM8 V hO).N) : Memref sig .tc .vmem S1x1x128 .f32 := spec8_1.stage ((cfgM8 V hO).slots t 1)
abbrev hs8_1 (hO : Ok8 V) (t : Fin (cfgM8 V hO).N) : (ms8_1 V hO t).IsWhole := hstage8_1 (((cfgM8 V hO).slots t 1).cast nbuf8_1)
abbrev ms8_2 (hO : Ok8 V) (t : Fin (cfgM8 V hO).N) : Memref sig .tc .vmem S1x1x128 .f32 := spec8_2.stage ((cfgM8 V hO).slots t 2)
abbrev hs8_2 (hO : Ok8 V) (t : Fin (cfgM8 V hO).N) : (ms8_2 V hO t).IsWhole := hstage8_2 (((cfgM8 V hO).slots t 2).cast nbuf8_2)

/-- The kernel body as the pipeline calls it at point `t`: the point, the two tables whole, the three current staging memrefs. -/
abbrev bodyAt8 (a : (pcfg8 (F := F)).Adm) (t : Fin (cfg8 a).N) : Prog (TpuEff nD τ sig (Elt F) Λ₀ .tc) PUnit :=
  cc8__kernel_b (grid8.coords t) (Memref.whole main_v50) (Memref.isWhole_whole _) (Memref.whole main_v51) (Memref.isWhole_whole _)
    (spec8_0.stage ((cfg8 a).slots t 0)) (hstage8_0 (((cfg8 a).slots t 0).cast nbuf8_0))
    (spec8_1.stage ((cfg8 a).slots t 1)) (hstage8_1 (((cfg8 a).slots t 1).cast nbuf8_1))
    (spec8_2.stage ((cfg8 a).slots t 2)) (hstage8_2 (((cfg8 a).slots t 2).cast nbuf8_2))

/-- The region's proof data on core `c`: the arrays as the region finds them; after the body each input's buffer at its
    block and the output's at the sum of the two input blocks; the invariant carries the scoped rest, the generator register
    and the two tables, whole; the gathered array, read by both input windows, is held half and half; nothing owed. -/
def dat8 (hO : Ok8 V) (c : Dev nD) : Dat τ (Elt F) Unit ℕ (UR sig nD τ) ℕ (cfgM8 V hO) c where
  A w := V c (Pipeline.arrRef spec8 w)
  after w t := match w with
    | ⟨0, _⟩ => iblk8 V hO c 0 t
    | ⟨1, _⟩ => iblk8 V hO c 1 t
    | ⟨2, _⟩ => out8_2 (iblk8 V hO c 0 t) (iblk8 V hO c 1 t)
  Φ _ := iprop(Pipeline.ΦA spec8 c ∗ (Pipeline.prefHeld pre8 c (fun _ => fullShare) (tbl8 V) : sProp 𝕄))
  q w := match w with
    | ⟨0, _⟩ => fullShare.left
    | ⟨1, _⟩ => fullShare.right
    | ⟨2, _⟩ => fullShare
  owed _ := 0

theorem A_eq8 (hO : Ok8 V) (c : Dev nD) (w : Fin (cfgM8 V hO).W) : (dat8 V hO c).A w = V c (Pipeline.arrRef spec8 w) := by
  dsimp only [dat8]

theorem after8_0 (hO : Ok8 V) (c : Dev nD) (t : Fin (cfgM8 V hO).N) : (dat8 V hO c).after 0 t = iblk8 V hO c 0 t := by dsimp only [dat8]; try rfl
theorem after8_1 (hO : Ok8 V) (c : Dev nD) (t : Fin (cfgM8 V hO).N) : (dat8 V hO c).after 1 t = iblk8 V hO c 1 t := by dsimp only [dat8]; try rfl
theorem after8_2 (hO : Ok8 V) (c : Dev nD) (t : Fin (cfgM8 V hO).N) : (dat8 V hO c).after 2 t = out8_2 (iblk8 V hO c 0 t) (iblk8 V hO c 1 t) := by dsimp only [dat8]; try rfl

theorem before8_0 (hO : Ok8 V) (c : Dev nD) (t : Fin (cfgM8 V hO).N) (d) : (dat8 V hO c).before 0 t d = iblk8 V hO c 0 t :=
  before8_0_of V hO (dat8 V hO c) (A_eq8 V hO c 0) (after8_0 V hO c) t d
theorem before8_1 (hO : Ok8 V) (c : Dev nD) (t : Fin (cfgM8 V hO).N) (d) : (dat8 V hO c).before 1 t d = iblk8 V hO c 1 t :=
  before8_1_of V hO (dat8 V hO c) (A_eq8 V hO c 1) (after8_1 V hO c) t d

def bodyPre8 (hO : Ok8 V) (c : Dev nD) (t : Fin (cfgM8 V hO).N) : sProp 𝕄 :=
  iprop((dat8 V hO c).Φ t.castSucc ∗ (dat8 V hO c).owesAt () t.castSucc
    ∗ (∃ d, owns (c : Thread nD τ) (ms8_0 V hO t) fullShare ((dat8 V hO c).before 0 t d))
    ∗ (∃ d, owns (c : Thread nD τ) (ms8_1 V hO t) fullShare ((dat8 V hO c).before 1 t d))
    ∗ (∃ d, owns (c : Thread nD τ) (ms8_2 V hO t) fullShare ((dat8 V hO c).before 2 t d)))

def bodyPost8 (hO : Ok8 V) (c : Dev nD) (t : Fin (cfgM8 V hO).N) : sProp 𝕄 :=
  iprop((dat8 V hO c).Φ t.succ ∗ (dat8 V hO c).owesAt () t.succ
    ∗ owns (c : Thread nD τ) (ms8_0 V hO t) fullShare ((dat8 V hO c).after 0 t)
    ∗ owns (c : Thread nD τ) (ms8_1 V hO t) fullShare ((dat8 V hO c).after 1 t)
    ∗ owns (c : Thread nD τ) (ms8_2 V hO t) fullShare ((dat8 V hO c).after 2 t))

/-- The body at any point: the two input buffers hold their blocks, the body adds them into the output buffer; the
    invariant and the tallies pass through untouched. -/
theorem sound_body8 (hO : Ok8 V) (c : Dev nD) (t : Fin (cfgM8 V hO).N) :
    bodyPre8 V hO c t ⊢ wp frame (wpE (defs₀ (F := F)) Variants.none c none) Set.univ (bodyAt8 (adm8 V hO) t) (fun _ => bodyPost8 V hO c t) := by
  unfold bodyPre8 bodyPost8 bodyAt8
  simp only [before8_0, before8_1]
  rw [show (dat8 V hO c).Φ t.succ = (dat8 V hO c).Φ t.castSucc from rfl,
    show (dat8 V hO c).owesAt () t.succ = (dat8 V hO c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ _ _ _ _ (iblk8 V hO c 0 t) (iblk8 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation8 (hO : Ok8 V) (c : Dev nD) : BodyObligation (dat8 (F := F) V hO c) (defs₀ (F := F)) Variants.none () Set.univ := fun t => by
  rw [bigSep_W8, bigSep_W8]
  exact sound_body8 V hO c t
end

section
variable (V : (c : Dev nD) → (b : Ref sig .tc) → Buf (Elt F) ((c : Thread nD τ).loc b))

/-- The region's three arrays as points-to facts: the gathered array, read by both input windows, half and half; the output array whole. -/
theorem arrays8_eq (hO : Ok8 V) (c : Dev nD)
    (G : (w : Fin (cfgM8 V hO).W) → Buf (Elt F) (((cfgM8 V hO).win w).arr.view.loc (c : Thread nD τ))) :
    ((dat8 V hO c).arrays G : sProp 𝕄)
      = iprop((((c : Thread nD τ).loc main_v1) ↦{fullShare.left} G 0) ∗ (((c : Thread nD τ).loc main_v1) ↦{fullShare.right} G 1)
          ∗ (((c : Thread nD τ).loc main_v52) ↦{fullShare} G 2)) := by
  unfold Dat.arrays
  rw [bigSep_W8, (arr_whole8 0).set_eq_univ, (arr_whole8 2).set_eq_univ]
  rfl
end

/-- The two distinct buffers behind the region's three windows. -/
theorem arrImage8 : Finset.univ.image (Pipeline.arrRef spec8) = insert main_v1 {main_v52} := by decide

section
variable (W : Dev nD → Valuation τ sig (Elt F))

theorem arrBufs8_eq (c : Dev nD) (V : (b : Ref sig .tc) → Buf (Elt F) ((c : Thread nD τ).loc b)) :
    (Pipeline.arrBufs spec8 c V : sProp 𝕄)
      = iprop((((c : Thread nD τ).loc main_v1) ↦{fullShare} V main_v1) ∗ (((c : Thread nD τ).loc main_v52) ↦{fullShare} V main_v52)) := by
  unfold Pipeline.arrBufs
  rw [arrImage8, bigSep_insert (by decide), bigSep_singleton]
  rfl

/-- ENTRY: every unscoped buffer held at `W` gives the region its arrays (the gathered array split in two halves), its two
    tables whole, the tallies, the generator register and the rest of the unscoped buffers. -/
theorem entry8 (hO : Ok8 (VW W)) (c : Dev nD) :
    iprop(StableHlo.held (c : Thread nD τ) (Pipeline.ucRefs τ sig) (W c) ∗ Rr (F := F) c)
      ⊢ |={Set.univ}=> iprop((dat8 (VW W) hO c).arrays ((dat8 (VW W) hO c).arrAt · 0)
          ∗ Pipeline.prefHeld pre8 c (fun _ => fullShare) (tbl8 (VW W))
          ∗ (dat8 (VW W) hO c).owesAt () 0 ∗ (∃ r, prngReg c r)
          ∗ (Pipeline.unscopedRestP pre8 spec8 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM8 (VW W) hO) () winFacts₀8.arr_unscoped c (VW W c)]
  rw [show (Pipeline.arrBufs (cfgM8 (VW W) hO).spec c (VW W c) : sProp 𝕄) = Pipeline.arrBufs spec8 c (VW W c) from rfl,
    arrBufs8_eq, arrays8_eq]
  rw [show (Pipeline.unscopedRest (cfgM8 (VW W) hO).spec c (VW W c) : sProp 𝕄) = Pipeline.unscopedRest spec8 c (VW W c) from rfl,
    Pipeline.unscopedRest_split preFacts8 c (VW W c)]
  rw [show (fun k => VW W c (pre8.ref k)) = tbl8 (VW W) from funext fun k => V_pre8 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest8_update (c : Dev nD) (X : Buf (Elt F) ((c : Thread nD τ).loc main_v52)) :
    (Pipeline.unscopedRest spec8 c (fun b => Function.update (W c) main_v52 X b) : sProp 𝕄) = Pipeline.unscopedRest spec8 c (VW W c) := by
  unfold Pipeline.unscopedRest
  exact bigSep_congr fun b hb => by
    have hne : b ≠ main_v52 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit8 (hO : Ok8 (VW W)) (c : Dev nD) (X : Buf (Elt F) ((c : Thread nD τ).loc main_v52))
    (hX : (dat8 (VW W) hO c).arrAt 2 (cfgM8 (VW W) hO).N = X) :
    iprop((dat8 (VW W) hO c).arrays ((dat8 (VW W) hO c).arrAt · (cfgM8 (VW W) hO).N)
        ∗ (dat8 (VW W) hO c).owesAt () (Fin.last (cfgM8 (VW W) hO).N)
        ∗ iprop((∃ r, prngReg c r) ∗ Pipeline.prefHeld pre8 c (fun _ => fullShare) (tbl8 (VW W)))
        ∗ (Pipeline.unscopedRestP pre8 spec8 c (VW W c) : sProp 𝕄))
      ⊢ |={Set.univ}=> iprop(StableHlo.held (c : Thread nD τ) (Pipeline.ucRefs τ sig) (Function.update (W c) main_v52 X) ∗ Rr (F := F) c) := by
  rw [← Pipeline.unscopedBufs_held (Ix := Unit) (Name := ℕ) (U := UR sig nD τ) (Lvl := ℕ) c (Function.update (W c) main_v52 X)]
  rw [Pipeline.unscopedBufs_split₀ (fun _ : Unit => cfgM8 (VW W) hO) () winFacts₀8.arr_unscoped c _]
  rw [show ∀ V', (Pipeline.arrBufs (cfgM8 (VW W) hO).spec c V' : sProp 𝕄) = Pipeline.arrBufs spec8 c V' from fun _ => rfl,
    show ∀ V', (Pipeline.unscopedRest (cfgM8 (VW W) hO).spec c V' : sProp 𝕄) = Pipeline.unscopedRest spec8 c V' from fun _ => rfl,
    rest8_update W c X, Pipeline.unscopedRest_split preFacts8 c (VW W c), arrBufs8_eq]
  rw [show (fun k => VW W c (pre8.ref k)) = tbl8 (VW W) from funext fun k => V_pre8 (VW W) c k]
  rw [Function.update_of_ne (StableHlo.devRef_ne_of_ne (by decide : (main_v1 : Ref sig .tc) ≠ main_v52)), Function.update_self]
  rw [arrays8_eq, hX,
    show (dat8 (VW W) hO c).arrAt 0 (cfgM8 (VW W) hO).N = W c main_v1 from (dat8 (VW W) hO c).arrAt_in 0 rfl _,
    show (dat8 (VW W) hO c).arrAt 1 (cfgM8 (VW W) hO).N = W c main_v1 from (dat8 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.KernelIdeal.GenP

end
-- ==== Proof.KernelIdeal.RB9.lean ====
/- A row-gather region of the program: the region's proof data, its body obligation and its entry and exit. -/
import proofs.«175043_j76819785056407_2_alg».proof.Proof.Gen.KernelIdeal.Launch
import proofs.«175043_j76819785056407_2_alg».proof.Proof.Gen.KernelIdeal.Skeleton
import proofs.«175043_j76819785056407_2_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 9): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl9 : pre9.Contents (Elt F) := fun j => V (0 : Dev nD) (pre9.ref j)
theorem V_pre9 (c : Dev nD) (j : Fin 2) : V c (pre9.ref j) = tbl9 V j := by
  obtain rfl : c = 0 := Subsingleton.elim _ _; rfl
/-- Every table-indexed block lies inside the gathered array. -/
abbrev Ok9 : Prop := ok9 (F := F) (tbl9 V)
abbrev adm9 (hO : Ok9 V) : (pcfg9 (F := F)).Adm := ⟨tbl9 V, hO⟩
abbrev cfgM9 (hO : Ok9 V) : Pipeline.Cfg sig Λ₀ := cfg9 (adm9 V hO)

/-- Window `w`'s block at point `t`, read off its array as the region finds it. -/
def iblk9 (hO : Ok9 V) (c : Dev nD) (w : Fin (cfgM9 V hO).W) (t : Fin (cfgM9 V hO).N) :
    (((cfgM9 V hO).win w).xblock ((cfgM9 V hO).grid.coords t)).Idx → Elt F ((cfgM9 V hO).win w).elt :=
  (((cfgM9 V hO).win w).blk t).view.read (Elt F) (V c (Pipeline.arrRef spec9 w))

theorem before9_0_of (hO : Ok9 V) {c : Dev nD} (dat : Dat τ (Elt F) Unit ℕ (UR sig nD τ) ℕ (cfgM9 V hO) c) (hA : dat.A 0 = V c (Pipeline.arrRef spec9 0))
    (hafter : ∀ t, dat.after 0 t = iblk9 V hO c 0 t) (t : Fin (cfgM9 V hO).N) (d) : dat.before 0 t d = iblk9 V hO c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of (hO : Ok9 V) {c : Dev nD} (dat : Dat τ (Elt F) Unit ℕ (UR sig nD τ) ℕ (cfgM9 V hO) c) (hA : dat.A 1 = V c (Pipeline.arrRef spec9 1))
    (hafter : ∀ t, dat.after 1 t = iblk9 V hO c 1 t) (t : Fin (cfgM9 V hO).N) (d) : dat.before 1 t d = iblk9 V hO c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
end

/-- The body's one rectangle: the whole 1×1×128 block. -/
abbrev r9_0 : Rect S1x1x128 := Rect.unit (s := S1x1x128) ![0, 0, 0] S1x1x128.size inb_S1x1x128_S1x1x128_0_0_0

/-- The output block after the body: the sum of the two gathered rows. -/
def out9_2 (x0 x1 : Vec F S1x1x128 .f32) : Vec F S1x1x128 .f32 :=
  View.canon [⟨r9_0, k9_pay1 (View.ld x0 r9_0) (View.ld x1 r9_0)⟩]

theorem cover9_2 (p0 : Vec F S1x1x128 .f32) (y : S1x1x128.Idx) :
    ∃ pc ∈ ([⟨r9_0, p0⟩] : List (View.Piece (Elt F) S1x1x128 .f32)), y ∈ pc.1.set :=
  View.cover_of_tiled [⟨r9_0, p0⟩] S1x1x128.size (by rfl) y

set_option maxHeartbeats 1000000 in
/-- The body on whole staging memrefs: the two inputs stay, the output ends at the sum; the tables are not touched. -/
theorem sound_kernel9 (c : Dev nD) (E : Set ℕ) (i : grid9.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out9_2 x0 x1)) -∗ K ⟨⟩))
      ⊢ wp frame (wpE (defs₀ (F := F)) Variants.none c none) E (cc9__kernel_b i a1 ha1 a2 ha2 arg3 harg3 arg4 harg4 arg5 harg5) K := by
  simp only [cc9__kernel_b_eq_skeleton]; unfold cc9__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

section
variable (V : (c : Dev nD) → (b : Ref sig .tc) → Buf (Elt F) ((c : Thread nD τ).loc b))

/-- Each window's current staging memref at point `t`, and its wholeness. -/
abbrev ms9_0 (hO : Ok9 V) (t : Fin (cfgM9 V hO).N) : Memref sig .tc .vmem S1x1x128 .f32 := spec9_0.stage ((cfgM9 V hO).slots t 0)
abbrev hs9_0 (hO : Ok9 V) (t : Fin (cfgM9 V hO).N) : (ms9_0 V hO t).IsWhole := hstage9_0 (((cfgM9 V hO).slots t 0).cast nbuf9_0)
abbrev ms9_1 (hO : Ok9 V) (t : Fin (cfgM9 V hO).N) : Memref sig .tc .vmem S1x1x128 .f32 := spec9_1.stage ((cfgM9 V hO).slots t 1)
abbrev hs9_1 (hO : Ok9 V) (t : Fin (cfgM9 V hO).N) : (ms9_1 V hO t).IsWhole := hstage9_1 (((cfgM9 V hO).slots t 1).cast nbuf9_1)
abbrev ms9_2 (hO : Ok9 V) (t : Fin (cfgM9 V hO).N) : Memref sig .tc .vmem S1x1x128 .f32 := spec9_2.stage ((cfgM9 V hO).slots t 2)
abbrev hs9_2 (hO : Ok9 V) (t : Fin (cfgM9 V hO).N) : (ms9_2 V hO t).IsWhole := hstage9_2 (((cfgM9 V hO).slots t 2).cast nbuf9_2)

/-- The kernel body as the pipeline calls it at point `t`: the point, the two tables whole, the three current staging memrefs. -/
abbrev bodyAt9 (a : (pcfg9 (F := F)).Adm) (t : Fin (cfg9 a).N) : Prog (TpuEff nD τ sig (Elt F) Λ₀ .tc) PUnit :=
  cc9__kernel_b (grid9.coords t) (Memref.whole main_v54) (Memref.isWhole_whole _) (Memref.whole main_v55) (Memref.isWhole_whole _)
    (spec9_0.stage ((cfg9 a).slots t 0)) (hstage9_0 (((cfg9 a).slots t 0).cast nbuf9_0))
    (spec9_1.stage ((cfg9 a).slots t 1)) (hstage9_1 (((cfg9 a).slots t 1).cast nbuf9_1))
    (spec9_2.stage ((cfg9 a).slots t 2)) (hstage9_2 (((cfg9 a).slots t 2).cast nbuf9_2))

/-- The region's proof data on core `c`: the arrays as the region finds them; after the body each input's buffer at its
    block and the output's at the sum of the two input blocks; the invariant carries the scoped rest, the generator register
    and the two tables, whole; the gathered array, read by both input windows, is held half and half; nothing owed. -/
def dat9 (hO : Ok9 V) (c : Dev nD) : Dat τ (Elt F) Unit ℕ (UR sig nD τ) ℕ (cfgM9 V hO) c where
  A w := V c (Pipeline.arrRef spec9 w)
  after w t := match w with
    | ⟨0, _⟩ => iblk9 V hO c 0 t
    | ⟨1, _⟩ => iblk9 V hO c 1 t
    | ⟨2, _⟩ => out9_2 (iblk9 V hO c 0 t) (iblk9 V hO c 1 t)
  Φ _ := iprop(Pipeline.ΦA spec9 c ∗ (Pipeline.prefHeld pre9 c (fun _ => fullShare) (tbl9 V) : sProp 𝕄))
  q w := match w with
    | ⟨0, _⟩ => fullShare.left
    | ⟨1, _⟩ => fullShare.right
    | ⟨2, _⟩ => fullShare
  owed _ := 0

theorem A_eq9 (hO : Ok9 V) (c : Dev nD) (w : Fin (cfgM9 V hO).W) : (dat9 V hO c).A w = V c (Pipeline.arrRef spec9 w) := by
  dsimp only [dat9]

theorem after9_0 (hO : Ok9 V) (c : Dev nD) (t : Fin (cfgM9 V hO).N) : (dat9 V hO c).after 0 t = iblk9 V hO c 0 t := by dsimp only [dat9]; try rfl
theorem after9_1 (hO : Ok9 V) (c : Dev nD) (t : Fin (cfgM9 V hO).N) : (dat9 V hO c).after 1 t = iblk9 V hO c 1 t := by dsimp only [dat9]; try rfl
theorem after9_2 (hO : Ok9 V) (c : Dev nD) (t : Fin (cfgM9 V hO).N) : (dat9 V hO c).after 2 t = out9_2 (iblk9 V hO c 0 t) (iblk9 V hO c 1 t) := by dsimp only [dat9]; try rfl

theorem before9_0 (hO : Ok9 V) (c : Dev nD) (t : Fin (cfgM9 V hO).N) (d) : (dat9 V hO c).before 0 t d = iblk9 V hO c 0 t :=
  before9_0_of V hO (dat9 V hO c) (A_eq9 V hO c 0) (after9_0 V hO c) t d
theorem before9_1 (hO : Ok9 V) (c : Dev nD) (t : Fin (cfgM9 V hO).N) (d) : (dat9 V hO c).before 1 t d = iblk9 V hO c 1 t :=
  before9_1_of V hO (dat9 V hO c) (A_eq9 V hO c 1) (after9_1 V hO c) t d

def bodyPre9 (hO : Ok9 V) (c : Dev nD) (t : Fin (cfgM9 V hO).N) : sProp 𝕄 :=
  iprop((dat9 V hO c).Φ t.castSucc ∗ (dat9 V hO c).owesAt () t.castSucc
    ∗ (∃ d, owns (c : Thread nD τ) (ms9_0 V hO t) fullShare ((dat9 V hO c).before 0 t d))
    ∗ (∃ d, owns (c : Thread nD τ) (ms9_1 V hO t) fullShare ((dat9 V hO c).before 1 t d))
    ∗ (∃ d, owns (c : Thread nD τ) (ms9_2 V hO t) fullShare ((dat9 V hO c).before 2 t d)))

def bodyPost9 (hO : Ok9 V) (c : Dev nD) (t : Fin (cfgM9 V hO).N) : sProp 𝕄 :=
  iprop((dat9 V hO c).Φ t.succ ∗ (dat9 V hO c).owesAt () t.succ
    ∗ owns (c : Thread nD τ) (ms9_0 V hO t) fullShare ((dat9 V hO c).after 0 t)
    ∗ owns (c : Thread nD τ) (ms9_1 V hO t) fullShare ((dat9 V hO c).after 1 t)
    ∗ owns (c : Thread nD τ) (ms9_2 V hO t) fullShare ((dat9 V hO c).after 2 t))

/-- The body at any point: the two input buffers hold their blocks, the body adds them into the output buffer; the
    invariant and the tallies pass through untouched. -/
theorem sound_body9 (hO : Ok9 V) (c : Dev nD) (t : Fin (cfgM9 V hO).N) :
    bodyPre9 V hO c t ⊢ wp frame (wpE (defs₀ (F := F)) Variants.none c none) Set.univ (bodyAt9 (adm9 V hO) t) (fun _ => bodyPost9 V hO c t) := by
  unfold bodyPre9 bodyPost9 bodyAt9
  simp only [before9_0, before9_1]
  rw [show (dat9 V hO c).Φ t.succ = (dat9 V hO c).Φ t.castSucc from rfl,
    show (dat9 V hO c).owesAt () t.succ = (dat9 V hO c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ _ _ _ _ (iblk9 V hO c 0 t) (iblk9 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (hO : Ok9 V) (c : Dev nD) : BodyObligation (dat9 (F := F) V hO c) (defs₀ (F := F)) Variants.none () Set.univ := fun t => by
  rw [bigSep_W9, bigSep_W9]
  exact sound_body9 V hO c t
end

section
variable (V : (c : Dev nD) → (b : Ref sig .tc) → Buf (Elt F) ((c : Thread nD τ).loc b))

/-- The region's three arrays as points-to facts: the gathered array, read by both input windows, half and half; the output array whole. -/
theorem arrays9_eq (hO : Ok9 V) (c : Dev nD)
    (G : (w : Fin (cfgM9 V hO).W) → Buf (Elt F) (((cfgM9 V hO).win w).arr.view.loc (c : Thread nD τ))) :
    ((dat9 V hO c).arrays G : sProp 𝕄)
      = iprop((((c : Thread nD τ).loc main_v1) ↦{fullShare.left} G 0) ∗ (((c : Thread nD τ).loc main_v1) ↦{fullShare.right} G 1)
          ∗ (((c : Thread nD τ).loc main_v56) ↦{fullShare} G 2)) := by
  unfold Dat.arrays
  rw [bigSep_W9, (arr_whole9 0).set_eq_univ, (arr_whole9 2).set_eq_univ]
  rfl
end

/-- The two distinct buffers behind the region's three windows. -/
theorem arrImage9 : Finset.univ.image (Pipeline.arrRef spec9) = insert main_v1 {main_v56} := by decide

section
variable (W : Dev nD → Valuation τ sig (Elt F))

theorem arrBufs9_eq (c : Dev nD) (V : (b : Ref sig .tc) → Buf (Elt F) ((c : Thread nD τ).loc b)) :
    (Pipeline.arrBufs spec9 c V : sProp 𝕄)
      = iprop((((c : Thread nD τ).loc main_v1) ↦{fullShare} V main_v1) ∗ (((c : Thread nD τ).loc main_v56) ↦{fullShare} V main_v56)) := by
  unfold Pipeline.arrBufs
  rw [arrImage9, bigSep_insert (by decide), bigSep_singleton]
  rfl

/-- ENTRY: every unscoped buffer held at `W` gives the region its arrays (the gathered array split in two halves), its two
    tables whole, the tallies, the generator register and the rest of the unscoped buffers. -/
theorem entry9 (hO : Ok9 (VW W)) (c : Dev nD) :
    iprop(StableHlo.held (c : Thread nD τ) (Pipeline.ucRefs τ sig) (W c) ∗ Rr (F := F) c)
      ⊢ |={Set.univ}=> iprop((dat9 (VW W) hO c).arrays ((dat9 (VW W) hO c).arrAt · 0)
          ∗ Pipeline.prefHeld pre9 c (fun _ => fullShare) (tbl9 (VW W))
          ∗ (dat9 (VW W) hO c).owesAt () 0 ∗ (∃ r, prngReg c r)
          ∗ (Pipeline.unscopedRestP pre9 spec9 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM9 (VW W) hO) () winFacts₀9.arr_unscoped c (VW W c)]
  rw [show (Pipeline.arrBufs (cfgM9 (VW W) hO).spec c (VW W c) : sProp 𝕄) = Pipeline.arrBufs spec9 c (VW W c) from rfl,
    arrBufs9_eq, arrays9_eq]
  rw [show (Pipeline.unscopedRest (cfgM9 (VW W) hO).spec c (VW W c) : sProp 𝕄) = Pipeline.unscopedRest spec9 c (VW W c) from rfl,
    Pipeline.unscopedRest_split preFacts9 c (VW W c)]
  rw [show (fun k => VW W c (pre9.ref k)) = tbl9 (VW W) from funext fun k => V_pre9 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest9_update (c : Dev nD) (X : Buf (Elt F) ((c : Thread nD τ).loc main_v56)) :
    (Pipeline.unscopedRest spec9 c (fun b => Function.update (W c) main_v56 X b) : sProp 𝕄) = Pipeline.unscopedRest spec9 c (VW W c) := by
  unfold Pipeline.unscopedRest
  exact bigSep_congr fun b hb => by
    have hne : b ≠ main_v56 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit9 (hO : Ok9 (VW W)) (c : Dev nD) (X : Buf (Elt F) ((c : Thread nD τ).loc main_v56))
    (hX : (dat9 (VW W) hO c).arrAt 2 (cfgM9 (VW W) hO).N = X) :
    iprop((dat9 (VW W) hO c).arrays ((dat9 (VW W) hO c).arrAt · (cfgM9 (VW W) hO).N)
        ∗ (dat9 (VW W) hO c).owesAt () (Fin.last (cfgM9 (VW W) hO).N)
        ∗ iprop((∃ r, prngReg c r) ∗ Pipeline.prefHeld pre9 c (fun _ => fullShare) (tbl9 (VW W)))
        ∗ (Pipeline.unscopedRestP pre9 spec9 c (VW W c) : sProp 𝕄))
      ⊢ |={Set.univ}=> iprop(StableHlo.held (c : Thread nD τ) (Pipeline.ucRefs τ sig) (Function.update (W c) main_v56 X) ∗ Rr (F := F) c) := by
  rw [← Pipeline.unscopedBufs_held (Ix := Unit) (Name := ℕ) (U := UR sig nD τ) (Lvl := ℕ) c (Function.update (W c) main_v56 X)]
  rw [Pipeline.unscopedBufs_split₀ (fun _ : Unit => cfgM9 (VW W) hO) () winFacts₀9.arr_unscoped c _]
  rw [show ∀ V', (Pipeline.arrBufs (cfgM9 (VW W) hO).spec c V' : sProp 𝕄) = Pipeline.arrBufs spec9 c V' from fun _ => rfl,
    show ∀ V', (Pipeline.unscopedRest (cfgM9 (VW W) hO).spec c V' : sProp 𝕄) = Pipeline.unscopedRest spec9 c V' from fun _ => rfl,
    rest9_update W c X, Pipeline.unscopedRest_split preFacts9 c (VW W c), arrBufs9_eq]
  rw [show (fun k => VW W c (pre9.ref k)) = tbl9 (VW W) from funext fun k => V_pre9 (VW W) c k]
  rw [Function.update_of_ne (StableHlo.devRef_ne_of_ne (by decide : (main_v1 : Ref sig .tc) ≠ main_v56)), Function.update_self]
  rw [arrays9_eq, hX,
    show (dat9 (VW W) hO c).arrAt 0 (cfgM9 (VW W) hO).N = W c main_v1 from (dat9 (VW W) hO c).arrAt_in 0 rfl _,
    show (dat9 (VW W) hO c).arrAt 1 (cfgM9 (VW W) hO).N = W c main_v1 from (dat9 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.KernelIdeal.GenP

end
-- ==== Proof.KernelIdeal.RB10.lean ====
/- A row-gather region of the program: the region's proof data, its body obligation and its entry and exit. -/
import proofs.«175043_j76819785056407_2_alg».proof.Proof.Gen.KernelIdeal.Launch
import proofs.«175043_j76819785056407_2_alg».proof.Proof.Gen.KernelIdeal.Skeleton
import proofs.«175043_j76819785056407_2_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 10): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl10 : pre10.Contents (Elt F) := fun j => V (0 : Dev nD) (pre10.ref j)
theorem V_pre10 (c : Dev nD) (j : Fin 2) : V c (pre10.ref j) = tbl10 V j := by
  obtain rfl : c = 0 := Subsingleton.elim _ _; rfl
/-- Every table-indexed block lies inside the gathered array. -/
abbrev Ok10 : Prop := ok10 (F := F) (tbl10 V)
abbrev adm10 (hO : Ok10 V) : (pcfg10 (F := F)).Adm := ⟨tbl10 V, hO⟩
abbrev cfgM10 (hO : Ok10 V) : Pipeline.Cfg sig Λ₀ := cfg10 (adm10 V hO)

/-- Window `w`'s block at point `t`, read off its array as the region finds it. -/
def iblk10 (hO : Ok10 V) (c : Dev nD) (w : Fin (cfgM10 V hO).W) (t : Fin (cfgM10 V hO).N) :
    (((cfgM10 V hO).win w).xblock ((cfgM10 V hO).grid.coords t)).Idx → Elt F ((cfgM10 V hO).win w).elt :=
  (((cfgM10 V hO).win w).blk t).view.read (Elt F) (V c (Pipeline.arrRef spec10 w))

theorem before10_0_of (hO : Ok10 V) {c : Dev nD} (dat : Dat τ (Elt F) Unit ℕ (UR sig nD τ) ℕ (cfgM10 V hO) c) (hA : dat.A 0 = V c (Pipeline.arrRef spec10 0))
    (hafter : ∀ t, dat.after 0 t = iblk10 V hO c 0 t) (t : Fin (cfgM10 V hO).N) (d) : dat.before 0 t d = iblk10 V hO c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of (hO : Ok10 V) {c : Dev nD} (dat : Dat τ (Elt F) Unit ℕ (UR sig nD τ) ℕ (cfgM10 V hO) c) (hA : dat.A 1 = V c (Pipeline.arrRef spec10 1))
    (hafter : ∀ t, dat.after 1 t = iblk10 V hO c 1 t) (t : Fin (cfgM10 V hO).N) (d) : dat.before 1 t d = iblk10 V hO c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
end

/-- The body's one rectangle: the whole 1×1×128 block. -/
abbrev r10_0 : Rect S1x1x128 := Rect.unit (s := S1x1x128) ![0, 0, 0] S1x1x128.size inb_S1x1x128_S1x1x128_0_0_0

/-- The output block after the body: the sum of the two gathered rows. -/
def out10_2 (x0 x1 : Vec F S1x1x128 .f32) : Vec F S1x1x128 .f32 :=
  View.canon [⟨r10_0, k10_pay1 (View.ld x0 r10_0) (View.ld x1 r10_0)⟩]

theorem cover10_2 (p0 : Vec F S1x1x128 .f32) (y : S1x1x128.Idx) :
    ∃ pc ∈ ([⟨r10_0, p0⟩] : List (View.Piece (Elt F) S1x1x128 .f32)), y ∈ pc.1.set :=
  View.cover_of_tiled [⟨r10_0, p0⟩] S1x1x128.size (by rfl) y

set_option maxHeartbeats 1000000 in
/-- The body on whole staging memrefs: the two inputs stay, the output ends at the sum; the tables are not touched. -/
theorem sound_kernel10 (c : Dev nD) (E : Set ℕ) (i : grid10.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out10_2 x0 x1)) -∗ K ⟨⟩))
      ⊢ wp frame (wpE (defs₀ (F := F)) Variants.none c none) E (cc10__kernel_b i a1 ha1 a2 ha2 arg3 harg3 arg4 harg4 arg5 harg5) K := by
  simp only [cc10__kernel_b_eq_skeleton]; unfold cc10__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

section
variable (V : (c : Dev nD) → (b : Ref sig .tc) → Buf (Elt F) ((c : Thread nD τ).loc b))

/-- Each window's current staging memref at point `t`, and its wholeness. -/
abbrev ms10_0 (hO : Ok10 V) (t : Fin (cfgM10 V hO).N) : Memref sig .tc .vmem S1x1x128 .f32 := spec10_0.stage ((cfgM10 V hO).slots t 0)
abbrev hs10_0 (hO : Ok10 V) (t : Fin (cfgM10 V hO).N) : (ms10_0 V hO t).IsWhole := hstage10_0 (((cfgM10 V hO).slots t 0).cast nbuf10_0)
abbrev ms10_1 (hO : Ok10 V) (t : Fin (cfgM10 V hO).N) : Memref sig .tc .vmem S1x1x128 .f32 := spec10_1.stage ((cfgM10 V hO).slots t 1)
abbrev hs10_1 (hO : Ok10 V) (t : Fin (cfgM10 V hO).N) : (ms10_1 V hO t).IsWhole := hstage10_1 (((cfgM10 V hO).slots t 1).cast nbuf10_1)
abbrev ms10_2 (hO : Ok10 V) (t : Fin (cfgM10 V hO).N) : Memref sig .tc .vmem S1x1x128 .f32 := spec10_2.stage ((cfgM10 V hO).slots t 2)
abbrev hs10_2 (hO : Ok10 V) (t : Fin (cfgM10 V hO).N) : (ms10_2 V hO t).IsWhole := hstage10_2 (((cfgM10 V hO).slots t 2).cast nbuf10_2)

/-- The kernel body as the pipeline calls it at point `t`: the point, the two tables whole, the three current staging memrefs. -/
abbrev bodyAt10 (a : (pcfg10 (F := F)).Adm) (t : Fin (cfg10 a).N) : Prog (TpuEff nD τ sig (Elt F) Λ₀ .tc) PUnit :=
  cc10__kernel_b (grid10.coords t) (Memref.whole main_v58) (Memref.isWhole_whole _) (Memref.whole main_v59) (Memref.isWhole_whole _)
    (spec10_0.stage ((cfg10 a).slots t 0)) (hstage10_0 (((cfg10 a).slots t 0).cast nbuf10_0))
    (spec10_1.stage ((cfg10 a).slots t 1)) (hstage10_1 (((cfg10 a).slots t 1).cast nbuf10_1))
    (spec10_2.stage ((cfg10 a).slots t 2)) (hstage10_2 (((cfg10 a).slots t 2).cast nbuf10_2))

/-- The region's proof data on core `c`: the arrays as the region finds them; after the body each input's buffer at its
    block and the output's at the sum of the two input blocks; the invariant carries the scoped rest, the generator register
    and the two tables, whole; the gathered array, read by both input windows, is held half and half; nothing owed. -/
def dat10 (hO : Ok10 V) (c : Dev nD) : Dat τ (Elt F) Unit ℕ (UR sig nD τ) ℕ (cfgM10 V hO) c where
  A w := V c (Pipeline.arrRef spec10 w)
  after w t := match w with
    | ⟨0, _⟩ => iblk10 V hO c 0 t
    | ⟨1, _⟩ => iblk10 V hO c 1 t
    | ⟨2, _⟩ => out10_2 (iblk10 V hO c 0 t) (iblk10 V hO c 1 t)
  Φ _ := iprop(Pipeline.ΦA spec10 c ∗ (Pipeline.prefHeld pre10 c (fun _ => fullShare) (tbl10 V) : sProp 𝕄))
  q w := match w with
    | ⟨0, _⟩ => fullShare.left
    | ⟨1, _⟩ => fullShare.right
    | ⟨2, _⟩ => fullShare
  owed _ := 0

theorem A_eq10 (hO : Ok10 V) (c : Dev nD) (w : Fin (cfgM10 V hO).W) : (dat10 V hO c).A w = V c (Pipeline.arrRef spec10 w) := by
  dsimp only [dat10]

theorem after10_0 (hO : Ok10 V) (c : Dev nD) (t : Fin (cfgM10 V hO).N) : (dat10 V hO c).after 0 t = iblk10 V hO c 0 t := by dsimp only [dat10]; try rfl
theorem after10_1 (hO : Ok10 V) (c : Dev nD) (t : Fin (cfgM10 V hO).N) : (dat10 V hO c).after 1 t = iblk10 V hO c 1 t := by dsimp only [dat10]; try rfl
theorem after10_2 (hO : Ok10 V) (c : Dev nD) (t : Fin (cfgM10 V hO).N) : (dat10 V hO c).after 2 t = out10_2 (iblk10 V hO c 0 t) (iblk10 V hO c 1 t) := by dsimp only [dat10]; try rfl

theorem before10_0 (hO : Ok10 V) (c : Dev nD) (t : Fin (cfgM10 V hO).N) (d) : (dat10 V hO c).before 0 t d = iblk10 V hO c 0 t :=
  before10_0_of V hO (dat10 V hO c) (A_eq10 V hO c 0) (after10_0 V hO c) t d
theorem before10_1 (hO : Ok10 V) (c : Dev nD) (t : Fin (cfgM10 V hO).N) (d) : (dat10 V hO c).before 1 t d = iblk10 V hO c 1 t :=
  before10_1_of V hO (dat10 V hO c) (A_eq10 V hO c 1) (after10_1 V hO c) t d

def bodyPre10 (hO : Ok10 V) (c : Dev nD) (t : Fin (cfgM10 V hO).N) : sProp 𝕄 :=
  iprop((dat10 V hO c).Φ t.castSucc ∗ (dat10 V hO c).owesAt () t.castSucc
    ∗ (∃ d, owns (c : Thread nD τ) (ms10_0 V hO t) fullShare ((dat10 V hO c).before 0 t d))
    ∗ (∃ d, owns (c : Thread nD τ) (ms10_1 V hO t) fullShare ((dat10 V hO c).before 1 t d))
    ∗ (∃ d, owns (c : Thread nD τ) (ms10_2 V hO t) fullShare ((dat10 V hO c).before 2 t d)))

def bodyPost10 (hO : Ok10 V) (c : Dev nD) (t : Fin (cfgM10 V hO).N) : sProp 𝕄 :=
  iprop((dat10 V hO c).Φ t.succ ∗ (dat10 V hO c).owesAt () t.succ
    ∗ owns (c : Thread nD τ) (ms10_0 V hO t) fullShare ((dat10 V hO c).after 0 t)
    ∗ owns (c : Thread nD τ) (ms10_1 V hO t) fullShare ((dat10 V hO c).after 1 t)
    ∗ owns (c : Thread nD τ) (ms10_2 V hO t) fullShare ((dat10 V hO c).after 2 t))

/-- The body at any point: the two input buffers hold their blocks, the body adds them into the output buffer; the
    invariant and the tallies pass through untouched. -/
theorem sound_body10 (hO : Ok10 V) (c : Dev nD) (t : Fin (cfgM10 V hO).N) :
    bodyPre10 V hO c t ⊢ wp frame (wpE (defs₀ (F := F)) Variants.none c none) Set.univ (bodyAt10 (adm10 V hO) t) (fun _ => bodyPost10 V hO c t) := by
  unfold bodyPre10 bodyPost10 bodyAt10
  simp only [before10_0, before10_1]
  rw [show (dat10 V hO c).Φ t.succ = (dat10 V hO c).Φ t.castSucc from rfl,
    show (dat10 V hO c).owesAt () t.succ = (dat10 V hO c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ _ _ _ _ (iblk10 V hO c 0 t) (iblk10 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (hO : Ok10 V) (c : Dev nD) : BodyObligation (dat10 (F := F) V hO c) (defs₀ (F := F)) Variants.none () Set.univ := fun t => by
  rw [bigSep_W10, bigSep_W10]
  exact sound_body10 V hO c t
end

section
variable (V : (c : Dev nD) → (b : Ref sig .tc) → Buf (Elt F) ((c : Thread nD τ).loc b))

/-- The region's three arrays as points-to facts: the gathered array, read by both input windows, half and half; the output array whole. -/
theorem arrays10_eq (hO : Ok10 V) (c : Dev nD)
    (G : (w : Fin (cfgM10 V hO).W) → Buf (Elt F) (((cfgM10 V hO).win w).arr.view.loc (c : Thread nD τ))) :
    ((dat10 V hO c).arrays G : sProp 𝕄)
      = iprop((((c : Thread nD τ).loc main_v1) ↦{fullShare.left} G 0) ∗ (((c : Thread nD τ).loc main_v1) ↦{fullShare.right} G 1)
          ∗ (((c : Thread nD τ).loc main_v60) ↦{fullShare} G 2)) := by
  unfold Dat.arrays
  rw [bigSep_W10, (arr_whole10 0).set_eq_univ, (arr_whole10 2).set_eq_univ]
  rfl
end

/-- The two distinct buffers behind the region's three windows. -/
theorem arrImage10 : Finset.univ.image (Pipeline.arrRef spec10) = insert main_v1 {main_v60} := by decide

section
variable (W : Dev nD → Valuation τ sig (Elt F))

theorem arrBufs10_eq (c : Dev nD) (V : (b : Ref sig .tc) → Buf (Elt F) ((c : Thread nD τ).loc b)) :
    (Pipeline.arrBufs spec10 c V : sProp 𝕄)
      = iprop((((c : Thread nD τ).loc main_v1) ↦{fullShare} V main_v1) ∗ (((c : Thread nD τ).loc main_v60) ↦{fullShare} V main_v60)) := by
  unfold Pipeline.arrBufs
  rw [arrImage10, bigSep_insert (by decide), bigSep_singleton]
  rfl

/-- ENTRY: every unscoped buffer held at `W` gives the region its arrays (the gathered array split in two halves), its two
    tables whole, the tallies, the generator register and the rest of the unscoped buffers. -/
theorem entry10 (hO : Ok10 (VW W)) (c : Dev nD) :
    iprop(StableHlo.held (c : Thread nD τ) (Pipeline.ucRefs τ sig) (W c) ∗ Rr (F := F) c)
      ⊢ |={Set.univ}=> iprop((dat10 (VW W) hO c).arrays ((dat10 (VW W) hO c).arrAt · 0)
          ∗ Pipeline.prefHeld pre10 c (fun _ => fullShare) (tbl10 (VW W))
          ∗ (dat10 (VW W) hO c).owesAt () 0 ∗ (∃ r, prngReg c r)
          ∗ (Pipeline.unscopedRestP pre10 spec10 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM10 (VW W) hO) () winFacts₀10.arr_unscoped c (VW W c)]
  rw [show (Pipeline.arrBufs (cfgM10 (VW W) hO).spec c (VW W c) : sProp 𝕄) = Pipeline.arrBufs spec10 c (VW W c) from rfl,
    arrBufs10_eq, arrays10_eq]
  rw [show (Pipeline.unscopedRest (cfgM10 (VW W) hO).spec c (VW W c) : sProp 𝕄) = Pipeline.unscopedRest spec10 c (VW W c) from rfl,
    Pipeline.unscopedRest_split preFacts10 c (VW W c)]
  rw [show (fun k => VW W c (pre10.ref k)) = tbl10 (VW W) from funext fun k => V_pre10 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest10_update (c : Dev nD) (X : Buf (Elt F) ((c : Thread nD τ).loc main_v60)) :
    (Pipeline.unscopedRest spec10 c (fun b => Function.update (W c) main_v60 X b) : sProp 𝕄) = Pipeline.unscopedRest spec10 c (VW W c) := by
  unfold Pipeline.unscopedRest
  exact bigSep_congr fun b hb => by
    have hne : b ≠ main_v60 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit10 (hO : Ok10 (VW W)) (c : Dev nD) (X : Buf (Elt F) ((c : Thread nD τ).loc main_v60))
    (hX : (dat10 (VW W) hO c).arrAt 2 (cfgM10 (VW W) hO).N = X) :
    iprop((dat10 (VW W) hO c).arrays ((dat10 (VW W) hO c).arrAt · (cfgM10 (VW W) hO).N)
        ∗ (dat10 (VW W) hO c).owesAt () (Fin.last (cfgM10 (VW W) hO).N)
        ∗ iprop((∃ r, prngReg c r) ∗ Pipeline.prefHeld pre10 c (fun _ => fullShare) (tbl10 (VW W)))
        ∗ (Pipeline.unscopedRestP pre10 spec10 c (VW W c) : sProp 𝕄))
      ⊢ |={Set.univ}=> iprop(StableHlo.held (c : Thread nD τ) (Pipeline.ucRefs τ sig) (Function.update (W c) main_v60 X) ∗ Rr (F := F) c) := by
  rw [← Pipeline.unscopedBufs_held (Ix := Unit) (Name := ℕ) (U := UR sig nD τ) (Lvl := ℕ) c (Function.update (W c) main_v60 X)]
  rw [Pipeline.unscopedBufs_split₀ (fun _ : Unit => cfgM10 (VW W) hO) () winFacts₀10.arr_unscoped c _]
  rw [show ∀ V', (Pipeline.arrBufs (cfgM10 (VW W) hO).spec c V' : sProp 𝕄) = Pipeline.arrBufs spec10 c V' from fun _ => rfl,
    show ∀ V', (Pipeline.unscopedRest (cfgM10 (VW W) hO).spec c V' : sProp 𝕄) = Pipeline.unscopedRest spec10 c V' from fun _ => rfl,
    rest10_update W c X, Pipeline.unscopedRest_split preFacts10 c (VW W c), arrBufs10_eq]
  rw [show (fun k => VW W c (pre10.ref k)) = tbl10 (VW W) from funext fun k => V_pre10 (VW W) c k]
  rw [Function.update_of_ne (StableHlo.devRef_ne_of_ne (by decide : (main_v1 : Ref sig .tc) ≠ main_v60)), Function.update_self]
  rw [arrays10_eq, hX,
    show (dat10 (VW W) hO c).arrAt 0 (cfgM10 (VW W) hO).N = W c main_v1 from (dat10 (VW W) hO c).arrAt_in 0 rfl _,
    show (dat10 (VW W) hO c).arrAt 1 (cfgM10 (VW W) hO).N = W c main_v1 from (dat10 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.KernelIdeal.GenP

end
-- ==== Proof.KernelIdeal.RB11.lean ====
/- A row-gather region of the program: the region's proof data, its body obligation and its entry and exit. -/
import proofs.«175043_j76819785056407_2_alg».proof.Proof.Gen.KernelIdeal.Launch
import proofs.«175043_j76819785056407_2_alg».proof.Proof.Gen.KernelIdeal.Skeleton
import proofs.«175043_j76819785056407_2_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 11): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl11 : pre11.Contents (Elt F) := fun j => V (0 : Dev nD) (pre11.ref j)
theorem V_pre11 (c : Dev nD) (j : Fin 2) : V c (pre11.ref j) = tbl11 V j := by
  obtain rfl : c = 0 := Subsingleton.elim _ _; rfl
/-- Every table-indexed block lies inside the gathered array. -/
abbrev Ok11 : Prop := ok11 (F := F) (tbl11 V)
abbrev adm11 (hO : Ok11 V) : (pcfg11 (F := F)).Adm := ⟨tbl11 V, hO⟩
abbrev cfgM11 (hO : Ok11 V) : Pipeline.Cfg sig Λ₀ := cfg11 (adm11 V hO)

/-- Window `w`'s block at point `t`, read off its array as the region finds it. -/
def iblk11 (hO : Ok11 V) (c : Dev nD) (w : Fin (cfgM11 V hO).W) (t : Fin (cfgM11 V hO).N) :
    (((cfgM11 V hO).win w).xblock ((cfgM11 V hO).grid.coords t)).Idx → Elt F ((cfgM11 V hO).win w).elt :=
  (((cfgM11 V hO).win w).blk t).view.read (Elt F) (V c (Pipeline.arrRef spec11 w))

theorem before11_0_of (hO : Ok11 V) {c : Dev nD} (dat : Dat τ (Elt F) Unit ℕ (UR sig nD τ) ℕ (cfgM11 V hO) c) (hA : dat.A 0 = V c (Pipeline.arrRef spec11 0))
    (hafter : ∀ t, dat.after 0 t = iblk11 V hO c 0 t) (t : Fin (cfgM11 V hO).N) (d) : dat.before 0 t d = iblk11 V hO c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of (hO : Ok11 V) {c : Dev nD} (dat : Dat τ (Elt F) Unit ℕ (UR sig nD τ) ℕ (cfgM11 V hO) c) (hA : dat.A 1 = V c (Pipeline.arrRef spec11 1))
    (hafter : ∀ t, dat.after 1 t = iblk11 V hO c 1 t) (t : Fin (cfgM11 V hO).N) (d) : dat.before 1 t d = iblk11 V hO c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
end

/-- The body's one rectangle: the whole 1×1×128 block. -/
abbrev r11_0 : Rect S1x1x128 := Rect.unit (s := S1x1x128) ![0, 0, 0] S1x1x128.size inb_S1x1x128_S1x1x128_0_0_0

/-- The output block after the body: the sum of the two gathered rows. -/
def out11_2 (x0 x1 : Vec F S1x1x128 .f32) : Vec F S1x1x128 .f32 :=
  View.canon [⟨r11_0, k11_pay1 (View.ld x0 r11_0) (View.ld x1 r11_0)⟩]

theorem cover11_2 (p0 : Vec F S1x1x128 .f32) (y : S1x1x128.Idx) :
    ∃ pc ∈ ([⟨r11_0, p0⟩] : List (View.Piece (Elt F) S1x1x128 .f32)), y ∈ pc.1.set :=
  View.cover_of_tiled [⟨r11_0, p0⟩] S1x1x128.size (by rfl) y

set_option maxHeartbeats 1000000 in
/-- The body on whole staging memrefs: the two inputs stay, the output ends at the sum; the tables are not touched. -/
theorem sound_kernel11 (c : Dev nD) (E : Set ℕ) (i : grid11.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out11_2 x0 x1)) -∗ K ⟨⟩))
      ⊢ wp frame (wpE (defs₀ (F := F)) Variants.none c none) E (cc11__kernel_b i a1 ha1 a2 ha2 arg3 harg3 arg4 harg4 arg5 harg5) K := by
  simp only [cc11__kernel_b_eq_skeleton]; unfold cc11__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

section
variable (V : (c : Dev nD) → (b : Ref sig .tc) → Buf (Elt F) ((c : Thread nD τ).loc b))

/-- Each window's current staging memref at point `t`, and its wholeness. -/
abbrev ms11_0 (hO : Ok11 V) (t : Fin (cfgM11 V hO).N) : Memref sig .tc .vmem S1x1x128 .f32 := spec11_0.stage ((cfgM11 V hO).slots t 0)
abbrev hs11_0 (hO : Ok11 V) (t : Fin (cfgM11 V hO).N) : (ms11_0 V hO t).IsWhole := hstage11_0 (((cfgM11 V hO).slots t 0).cast nbuf11_0)
abbrev ms11_1 (hO : Ok11 V) (t : Fin (cfgM11 V hO).N) : Memref sig .tc .vmem S1x1x128 .f32 := spec11_1.stage ((cfgM11 V hO).slots t 1)
abbrev hs11_1 (hO : Ok11 V) (t : Fin (cfgM11 V hO).N) : (ms11_1 V hO t).IsWhole := hstage11_1 (((cfgM11 V hO).slots t 1).cast nbuf11_1)
abbrev ms11_2 (hO : Ok11 V) (t : Fin (cfgM11 V hO).N) : Memref sig .tc .vmem S1x1x128 .f32 := spec11_2.stage ((cfgM11 V hO).slots t 2)
abbrev hs11_2 (hO : Ok11 V) (t : Fin (cfgM11 V hO).N) : (ms11_2 V hO t).IsWhole := hstage11_2 (((cfgM11 V hO).slots t 2).cast nbuf11_2)

/-- The kernel body as the pipeline calls it at point `t`: the point, the two tables whole, the three current staging memrefs. -/
abbrev bodyAt11 (a : (pcfg11 (F := F)).Adm) (t : Fin (cfg11 a).N) : Prog (TpuEff nD τ sig (Elt F) Λ₀ .tc) PUnit :=
  cc11__kernel_b (grid11.coords t) (Memref.whole main_v62) (Memref.isWhole_whole _) (Memref.whole main_v63) (Memref.isWhole_whole _)
    (spec11_0.stage ((cfg11 a).slots t 0)) (hstage11_0 (((cfg11 a).slots t 0).cast nbuf11_0))
    (spec11_1.stage ((cfg11 a).slots t 1)) (hstage11_1 (((cfg11 a).slots t 1).cast nbuf11_1))
    (spec11_2.stage ((cfg11 a).slots t 2)) (hstage11_2 (((cfg11 a).slots t 2).cast nbuf11_2))

/-- The region's proof data on core `c`: the arrays as the region finds them; after the body each input's buffer at its
    block and the output's at the sum of the two input blocks; the invariant carries the scoped rest, the generator register
    and the two tables, whole; the gathered array, read by both input windows, is held half and half; nothing owed. -/
def dat11 (hO : Ok11 V) (c : Dev nD) : Dat τ (Elt F) Unit ℕ (UR sig nD τ) ℕ (cfgM11 V hO) c where
  A w := V c (Pipeline.arrRef spec11 w)
  after w t := match w with
    | ⟨0, _⟩ => iblk11 V hO c 0 t
    | ⟨1, _⟩ => iblk11 V hO c 1 t
    | ⟨2, _⟩ => out11_2 (iblk11 V hO c 0 t) (iblk11 V hO c 1 t)
  Φ _ := iprop(Pipeline.ΦA spec11 c ∗ (Pipeline.prefHeld pre11 c (fun _ => fullShare) (tbl11 V) : sProp 𝕄))
  q w := match w with
    | ⟨0, _⟩ => fullShare.left
    | ⟨1, _⟩ => fullShare.right
    | ⟨2, _⟩ => fullShare
  owed _ := 0

theorem A_eq11 (hO : Ok11 V) (c : Dev nD) (w : Fin (cfgM11 V hO).W) : (dat11 V hO c).A w = V c (Pipeline.arrRef spec11 w) := by
  dsimp only [dat11]

theorem after11_0 (hO : Ok11 V) (c : Dev nD) (t : Fin (cfgM11 V hO).N) : (dat11 V hO c).after 0 t = iblk11 V hO c 0 t := by dsimp only [dat11]; try rfl
theorem after11_1 (hO : Ok11 V) (c : Dev nD) (t : Fin (cfgM11 V hO).N) : (dat11 V hO c).after 1 t = iblk11 V hO c 1 t := by dsimp only [dat11]; try rfl
theorem after11_2 (hO : Ok11 V) (c : Dev nD) (t : Fin (cfgM11 V hO).N) : (dat11 V hO c).after 2 t = out11_2 (iblk11 V hO c 0 t) (iblk11 V hO c 1 t) := by dsimp only [dat11]; try rfl

theorem before11_0 (hO : Ok11 V) (c : Dev nD) (t : Fin (cfgM11 V hO).N) (d) : (dat11 V hO c).before 0 t d = iblk11 V hO c 0 t :=
  before11_0_of V hO (dat11 V hO c) (A_eq11 V hO c 0) (after11_0 V hO c) t d
theorem before11_1 (hO : Ok11 V) (c : Dev nD) (t : Fin (cfgM11 V hO).N) (d) : (dat11 V hO c).before 1 t d = iblk11 V hO c 1 t :=
  before11_1_of V hO (dat11 V hO c) (A_eq11 V hO c 1) (after11_1 V hO c) t d

def bodyPre11 (hO : Ok11 V) (c : Dev nD) (t : Fin (cfgM11 V hO).N) : sProp 𝕄 :=
  iprop((dat11 V hO c).Φ t.castSucc ∗ (dat11 V hO c).owesAt () t.castSucc
    ∗ (∃ d, owns (c : Thread nD τ) (ms11_0 V hO t) fullShare ((dat11 V hO c).before 0 t d))
    ∗ (∃ d, owns (c : Thread nD τ) (ms11_1 V hO t) fullShare ((dat11 V hO c).before 1 t d))
    ∗ (∃ d, owns (c : Thread nD τ) (ms11_2 V hO t) fullShare ((dat11 V hO c).before 2 t d)))

def bodyPost11 (hO : Ok11 V) (c : Dev nD) (t : Fin (cfgM11 V hO).N) : sProp 𝕄 :=
  iprop((dat11 V hO c).Φ t.succ ∗ (dat11 V hO c).owesAt () t.succ
    ∗ owns (c : Thread nD τ) (ms11_0 V hO t) fullShare ((dat11 V hO c).after 0 t)
    ∗ owns (c : Thread nD τ) (ms11_1 V hO t) fullShare ((dat11 V hO c).after 1 t)
    ∗ owns (c : Thread nD τ) (ms11_2 V hO t) fullShare ((dat11 V hO c).after 2 t))

/-- The body at any point: the two input buffers hold their blocks, the body adds them into the output buffer; the
    invariant and the tallies pass through untouched. -/
theorem sound_body11 (hO : Ok11 V) (c : Dev nD) (t : Fin (cfgM11 V hO).N) :
    bodyPre11 V hO c t ⊢ wp frame (wpE (defs₀ (F := F)) Variants.none c none) Set.univ (bodyAt11 (adm11 V hO) t) (fun _ => bodyPost11 V hO c t) := by
  unfold bodyPre11 bodyPost11 bodyAt11
  simp only [before11_0, before11_1]
  rw [show (dat11 V hO c).Φ t.succ = (dat11 V hO c).Φ t.castSucc from rfl,
    show (dat11 V hO c).owesAt () t.succ = (dat11 V hO c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ _ _ _ _ (iblk11 V hO c 0 t) (iblk11 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation11 (hO : Ok11 V) (c : Dev nD) : BodyObligation (dat11 (F := F) V hO c) (defs₀ (F := F)) Variants.none () Set.univ := fun t => by
  rw [bigSep_W11, bigSep_W11]
  exact sound_body11 V hO c t
end

section
variable (V : (c : Dev nD) → (b : Ref sig .tc) → Buf (Elt F) ((c : Thread nD τ).loc b))

/-- The region's three arrays as points-to facts: the gathered array, read by both input windows, half and half; the output array whole. -/
theorem arrays11_eq (hO : Ok11 V) (c : Dev nD)
    (G : (w : Fin (cfgM11 V hO).W) → Buf (Elt F) (((cfgM11 V hO).win w).arr.view.loc (c : Thread nD τ))) :
    ((dat11 V hO c).arrays G : sProp 𝕄)
      = iprop((((c : Thread nD τ).loc main_v1) ↦{fullShare.left} G 0) ∗ (((c : Thread nD τ).loc main_v1) ↦{fullShare.right} G 1)
          ∗ (((c : Thread nD τ).loc main_v64) ↦{fullShare} G 2)) := by
  unfold Dat.arrays
  rw [bigSep_W11, (arr_whole11 0).set_eq_univ, (arr_whole11 2).set_eq_univ]
  rfl
end

/-- The two distinct buffers behind the region's three windows. -/
theorem arrImage11 : Finset.univ.image (Pipeline.arrRef spec11) = insert main_v1 {main_v64} := by decide

section
variable (W : Dev nD → Valuation τ sig (Elt F))

theorem arrBufs11_eq (c : Dev nD) (V : (b : Ref sig .tc) → Buf (Elt F) ((c : Thread nD τ).loc b)) :
    (Pipeline.arrBufs spec11 c V : sProp 𝕄)
      = iprop((((c : Thread nD τ).loc main_v1) ↦{fullShare} V main_v1) ∗ (((c : Thread nD τ).loc main_v64) ↦{fullShare} V main_v64)) := by
  unfold Pipeline.arrBufs
  rw [arrImage11, bigSep_insert (by decide), bigSep_singleton]
  rfl

/-- ENTRY: every unscoped buffer held at `W` gives the region its arrays (the gathered array split in two halves), its two
    tables whole, the tallies, the generator register and the rest of the unscoped buffers. -/
theorem entry11 (hO : Ok11 (VW W)) (c : Dev nD) :
    iprop(StableHlo.held (c : Thread nD τ) (Pipeline.ucRefs τ sig) (W c) ∗ Rr (F := F) c)
      ⊢ |={Set.univ}=> iprop((dat11 (VW W) hO c).arrays ((dat11 (VW W) hO c).arrAt · 0)
          ∗ Pipeline.prefHeld pre11 c (fun _ => fullShare) (tbl11 (VW W))
          ∗ (dat11 (VW W) hO c).owesAt () 0 ∗ (∃ r, prngReg c r)
          ∗ (Pipeline.unscopedRestP pre11 spec11 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM11 (VW W) hO) () winFacts₀11.arr_unscoped c (VW W c)]
  rw [show (Pipeline.arrBufs (cfgM11 (VW W) hO).spec c (VW W c) : sProp 𝕄) = Pipeline.arrBufs spec11 c (VW W c) from rfl,
    arrBufs11_eq, arrays11_eq]
  rw [show (Pipeline.unscopedRest (cfgM11 (VW W) hO).spec c (VW W c) : sProp 𝕄) = Pipeline.unscopedRest spec11 c (VW W c) from rfl,
    Pipeline.unscopedRest_split preFacts11 c (VW W c)]
  rw [show (fun k => VW W c (pre11.ref k)) = tbl11 (VW W) from funext fun k => V_pre11 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest11_update (c : Dev nD) (X : Buf (Elt F) ((c : Thread nD τ).loc main_v64)) :
    (Pipeline.unscopedRest spec11 c (fun b => Function.update (W c) main_v64 X b) : sProp 𝕄) = Pipeline.unscopedRest spec11 c (VW W c) := by
  unfold Pipeline.unscopedRest
  exact bigSep_congr fun b hb => by
    have hne : b ≠ main_v64 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit11 (hO : Ok11 (VW W)) (c : Dev nD) (X : Buf (Elt F) ((c : Thread nD τ).loc main_v64))
    (hX : (dat11 (VW W) hO c).arrAt 2 (cfgM11 (VW W) hO).N = X) :
    iprop((dat11 (VW W) hO c).arrays ((dat11 (VW W) hO c).arrAt · (cfgM11 (VW W) hO).N)
        ∗ (dat11 (VW W) hO c).owesAt () (Fin.last (cfgM11 (VW W) hO).N)
        ∗ iprop((∃ r, prngReg c r) ∗ Pipeline.prefHeld pre11 c (fun _ => fullShare) (tbl11 (VW W)))
        ∗ (Pipeline.unscopedRestP pre11 spec11 c (VW W c) : sProp 𝕄))
      ⊢ |={Set.univ}=> iprop(StableHlo.held (c : Thread nD τ) (Pipeline.ucRefs τ sig) (Function.update (W c) main_v64 X) ∗ Rr (F := F) c) := by
  rw [← Pipeline.unscopedBufs_held (Ix := Unit) (Name := ℕ) (U := UR sig nD τ) (Lvl := ℕ) c (Function.update (W c) main_v64 X)]
  rw [Pipeline.unscopedBufs_split₀ (fun _ : Unit => cfgM11 (VW W) hO) () winFacts₀11.arr_unscoped c _]
  rw [show ∀ V', (Pipeline.arrBufs (cfgM11 (VW W) hO).spec c V' : sProp 𝕄) = Pipeline.arrBufs spec11 c V' from fun _ => rfl,
    show ∀ V', (Pipeline.unscopedRest (cfgM11 (VW W) hO).spec c V' : sProp 𝕄) = Pipeline.unscopedRest spec11 c V' from fun _ => rfl,
    rest11_update W c X, Pipeline.unscopedRest_split preFacts11 c (VW W c), arrBufs11_eq]
  rw [show (fun k => VW W c (pre11.ref k)) = tbl11 (VW W) from funext fun k => V_pre11 (VW W) c k]
  rw [Function.update_of_ne (StableHlo.devRef_ne_of_ne (by decide : (main_v1 : Ref sig .tc) ≠ main_v64)), Function.update_self]
  rw [arrays11_eq, hX,
    show (dat11 (VW W) hO c).arrAt 0 (cfgM11 (VW W) hO).N = W c main_v1 from (dat11 (VW W) hO c).arrAt_in 0 rfl _,
    show (dat11 (VW W) hO c).arrAt 1 (cfgM11 (VW W) hO).N = W c main_v1 from (dat11 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.KernelIdeal.GenP

end
-- ==== Proof.KernelIdeal.RB12.lean ====
/- A row-gather region of the program: the region's proof data, its body obligation and its entry and exit. -/
import proofs.«175043_j76819785056407_2_alg».proof.Proof.Gen.KernelIdeal.Launch
import proofs.«175043_j76819785056407_2_alg».proof.Proof.Gen.KernelIdeal.Skeleton
import proofs.«175043_j76819785056407_2_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 12): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl12 : pre12.Contents (Elt F) := fun j => V (0 : Dev nD) (pre12.ref j)
theorem V_pre12 (c : Dev nD) (j : Fin 2) : V c (pre12.ref j) = tbl12 V j := by
  obtain rfl : c = 0 := Subsingleton.elim _ _; rfl
/-- Every table-indexed block lies inside the gathered array. -/
abbrev Ok12 : Prop := ok12 (F := F) (tbl12 V)
abbrev adm12 (hO : Ok12 V) : (pcfg12 (F := F)).Adm := ⟨tbl12 V, hO⟩
abbrev cfgM12 (hO : Ok12 V) : Pipeline.Cfg sig Λ₀ := cfg12 (adm12 V hO)

/-- Window `w`'s block at point `t`, read off its array as the region finds it. -/
def iblk12 (hO : Ok12 V) (c : Dev nD) (w : Fin (cfgM12 V hO).W) (t : Fin (cfgM12 V hO).N) :
    (((cfgM12 V hO).win w).xblock ((cfgM12 V hO).grid.coords t)).Idx → Elt F ((cfgM12 V hO).win w).elt :=
  (((cfgM12 V hO).win w).blk t).view.read (Elt F) (V c (Pipeline.arrRef spec12 w))

theorem before12_0_of (hO : Ok12 V) {c : Dev nD} (dat : Dat τ (Elt F) Unit ℕ (UR sig nD τ) ℕ (cfgM12 V hO) c) (hA : dat.A 0 = V c (Pipeline.arrRef spec12 0))
    (hafter : ∀ t, dat.after 0 t = iblk12 V hO c 0 t) (t : Fin (cfgM12 V hO).N) (d) : dat.before 0 t d = iblk12 V hO c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of (hO : Ok12 V) {c : Dev nD} (dat : Dat τ (Elt F) Unit ℕ (UR sig nD τ) ℕ (cfgM12 V hO) c) (hA : dat.A 1 = V c (Pipeline.arrRef spec12 1))
    (hafter : ∀ t, dat.after 1 t = iblk12 V hO c 1 t) (t : Fin (cfgM12 V hO).N) (d) : dat.before 1 t d = iblk12 V hO c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
end

/-- The body's one rectangle: the whole 1×1×128 block. -/
abbrev r12_0 : Rect S1x1x128 := Rect.unit (s := S1x1x128) ![0, 0, 0] S1x1x128.size inb_S1x1x128_S1x1x128_0_0_0

/-- The output block after the body: the sum of the two gathered rows. -/
def out12_2 (x0 x1 : Vec F S1x1x128 .f32) : Vec F S1x1x128 .f32 :=
  View.canon [⟨r12_0, k12_pay1 (View.ld x0 r12_0) (View.ld x1 r12_0)⟩]

theorem cover12_2 (p0 : Vec F S1x1x128 .f32) (y : S1x1x128.Idx) :
    ∃ pc ∈ ([⟨r12_0, p0⟩] : List (View.Piece (Elt F) S1x1x128 .f32)), y ∈ pc.1.set :=
  View.cover_of_tiled [⟨r12_0, p0⟩] S1x1x128.size (by rfl) y

set_option maxHeartbeats 1000000 in
/-- The body on whole staging memrefs: the two inputs stay, the output ends at the sum; the tables are not touched. -/
theorem sound_kernel12 (c : Dev nD) (E : Set ℕ) (i : grid12.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out12_2 x0 x1)) -∗ K ⟨⟩))
      ⊢ wp frame (wpE (defs₀ (F := F)) Variants.none c none) E (cc12__kernel_b i a1 ha1 a2 ha2 arg3 harg3 arg4 harg4 arg5 harg5) K := by
  simp only [cc12__kernel_b_eq_skeleton]; unfold cc12__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

section
variable (V : (c : Dev nD) → (b : Ref sig .tc) → Buf (Elt F) ((c : Thread nD τ).loc b))

/-- Each window's current staging memref at point `t`, and its wholeness. -/
abbrev ms12_0 (hO : Ok12 V) (t : Fin (cfgM12 V hO).N) : Memref sig .tc .vmem S1x1x128 .f32 := spec12_0.stage ((cfgM12 V hO).slots t 0)
abbrev hs12_0 (hO : Ok12 V) (t : Fin (cfgM12 V hO).N) : (ms12_0 V hO t).IsWhole := hstage12_0 (((cfgM12 V hO).slots t 0).cast nbuf12_0)
abbrev ms12_1 (hO : Ok12 V) (t : Fin (cfgM12 V hO).N) : Memref sig .tc .vmem S1x1x128 .f32 := spec12_1.stage ((cfgM12 V hO).slots t 1)
abbrev hs12_1 (hO : Ok12 V) (t : Fin (cfgM12 V hO).N) : (ms12_1 V hO t).IsWhole := hstage12_1 (((cfgM12 V hO).slots t 1).cast nbuf12_1)
abbrev ms12_2 (hO : Ok12 V) (t : Fin (cfgM12 V hO).N) : Memref sig .tc .vmem S1x1x128 .f32 := spec12_2.stage ((cfgM12 V hO).slots t 2)
abbrev hs12_2 (hO : Ok12 V) (t : Fin (cfgM12 V hO).N) : (ms12_2 V hO t).IsWhole := hstage12_2 (((cfgM12 V hO).slots t 2).cast nbuf12_2)

/-- The kernel body as the pipeline calls it at point `t`: the point, the two tables whole, the three current staging memrefs. -/
abbrev bodyAt12 (a : (pcfg12 (F := F)).Adm) (t : Fin (cfg12 a).N) : Prog (TpuEff nD τ sig (Elt F) Λ₀ .tc) PUnit :=
  cc12__kernel_b (grid12.coords t) (Memref.whole main_v66) (Memref.isWhole_whole _) (Memref.whole main_v67) (Memref.isWhole_whole _)
    (spec12_0.stage ((cfg12 a).slots t 0)) (hstage12_0 (((cfg12 a).slots t 0).cast nbuf12_0))
    (spec12_1.stage ((cfg12 a).slots t 1)) (hstage12_1 (((cfg12 a).slots t 1).cast nbuf12_1))
    (spec12_2.stage ((cfg12 a).slots t 2)) (hstage12_2 (((cfg12 a).slots t 2).cast nbuf12_2))

/-- The region's proof data on core `c`: the arrays as the region finds them; after the body each input's buffer at its
    block and the output's at the sum of the two input blocks; the invariant carries the scoped rest, the generator register
    and the two tables, whole; the gathered array, read by both input windows, is held half and half; nothing owed. -/
def dat12 (hO : Ok12 V) (c : Dev nD) : Dat τ (Elt F) Unit ℕ (UR sig nD τ) ℕ (cfgM12 V hO) c where
  A w := V c (Pipeline.arrRef spec12 w)
  after w t := match w with
    | ⟨0, _⟩ => iblk12 V hO c 0 t
    | ⟨1, _⟩ => iblk12 V hO c 1 t
    | ⟨2, _⟩ => out12_2 (iblk12 V hO c 0 t) (iblk12 V hO c 1 t)
  Φ _ := iprop(Pipeline.ΦA spec12 c ∗ (Pipeline.prefHeld pre12 c (fun _ => fullShare) (tbl12 V) : sProp 𝕄))
  q w := match w with
    | ⟨0, _⟩ => fullShare.left
    | ⟨1, _⟩ => fullShare.right
    | ⟨2, _⟩ => fullShare
  owed _ := 0

theorem A_eq12 (hO : Ok12 V) (c : Dev nD) (w : Fin (cfgM12 V hO).W) : (dat12 V hO c).A w = V c (Pipeline.arrRef spec12 w) := by
  dsimp only [dat12]

theorem after12_0 (hO : Ok12 V) (c : Dev nD) (t : Fin (cfgM12 V hO).N) : (dat12 V hO c).after 0 t = iblk12 V hO c 0 t := by dsimp only [dat12]; try rfl
theorem after12_1 (hO : Ok12 V) (c : Dev nD) (t : Fin (cfgM12 V hO).N) : (dat12 V hO c).after 1 t = iblk12 V hO c 1 t := by dsimp only [dat12]; try rfl
theorem after12_2 (hO : Ok12 V) (c : Dev nD) (t : Fin (cfgM12 V hO).N) : (dat12 V hO c).after 2 t = out12_2 (iblk12 V hO c 0 t) (iblk12 V hO c 1 t) := by dsimp only [dat12]; try rfl

theorem before12_0 (hO : Ok12 V) (c : Dev nD) (t : Fin (cfgM12 V hO).N) (d) : (dat12 V hO c).before 0 t d = iblk12 V hO c 0 t :=
  before12_0_of V hO (dat12 V hO c) (A_eq12 V hO c 0) (after12_0 V hO c) t d
theorem before12_1 (hO : Ok12 V) (c : Dev nD) (t : Fin (cfgM12 V hO).N) (d) : (dat12 V hO c).before 1 t d = iblk12 V hO c 1 t :=
  before12_1_of V hO (dat12 V hO c) (A_eq12 V hO c 1) (after12_1 V hO c) t d

def bodyPre12 (hO : Ok12 V) (c : Dev nD) (t : Fin (cfgM12 V hO).N) : sProp 𝕄 :=
  iprop((dat12 V hO c).Φ t.castSucc ∗ (dat12 V hO c).owesAt () t.castSucc
    ∗ (∃ d, owns (c : Thread nD τ) (ms12_0 V hO t) fullShare ((dat12 V hO c).before 0 t d))
    ∗ (∃ d, owns (c : Thread nD τ) (ms12_1 V hO t) fullShare ((dat12 V hO c).before 1 t d))
    ∗ (∃ d, owns (c : Thread nD τ) (ms12_2 V hO t) fullShare ((dat12 V hO c).before 2 t d)))

def bodyPost12 (hO : Ok12 V) (c : Dev nD) (t : Fin (cfgM12 V hO).N) : sProp 𝕄 :=
  iprop((dat12 V hO c).Φ t.succ ∗ (dat12 V hO c).owesAt () t.succ
    ∗ owns (c : Thread nD τ) (ms12_0 V hO t) fullShare ((dat12 V hO c).after 0 t)
    ∗ owns (c : Thread nD τ) (ms12_1 V hO t) fullShare ((dat12 V hO c).after 1 t)
    ∗ owns (c : Thread nD τ) (ms12_2 V hO t) fullShare ((dat12 V hO c).after 2 t))

/-- The body at any point: the two input buffers hold their blocks, the body adds them into the output buffer; the
    invariant and the tallies pass through untouched. -/
theorem sound_body12 (hO : Ok12 V) (c : Dev nD) (t : Fin (cfgM12 V hO).N) :
    bodyPre12 V hO c t ⊢ wp frame (wpE (defs₀ (F := F)) Variants.none c none) Set.univ (bodyAt12 (adm12 V hO) t) (fun _ => bodyPost12 V hO c t) := by
  unfold bodyPre12 bodyPost12 bodyAt12
  simp only [before12_0, before12_1]
  rw [show (dat12 V hO c).Φ t.succ = (dat12 V hO c).Φ t.castSucc from rfl,
    show (dat12 V hO c).owesAt () t.succ = (dat12 V hO c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ _ _ _ _ (iblk12 V hO c 0 t) (iblk12 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation12 (hO : Ok12 V) (c : Dev nD) : BodyObligation (dat12 (F := F) V hO c) (defs₀ (F := F)) Variants.none () Set.univ := fun t => by
  rw [bigSep_W12, bigSep_W12]
  exact sound_body12 V hO c t
end

section
variable (V : (c : Dev nD) → (b : Ref sig .tc) → Buf (Elt F) ((c : Thread nD τ).loc b))

/-- The region's three arrays as points-to facts: the gathered array, read by both input windows, half and half; the output array whole. -/
theorem arrays12_eq (hO : Ok12 V) (c : Dev nD)
    (G : (w : Fin (cfgM12 V hO).W) → Buf (Elt F) (((cfgM12 V hO).win w).arr.view.loc (c : Thread nD τ))) :
    ((dat12 V hO c).arrays G : sProp 𝕄)
      = iprop((((c : Thread nD τ).loc main_v1) ↦{fullShare.left} G 0) ∗ (((c : Thread nD τ).loc main_v1) ↦{fullShare.right} G 1)
          ∗ (((c : Thread nD τ).loc main_v68) ↦{fullShare} G 2)) := by
  unfold Dat.arrays
  rw [bigSep_W12, (arr_whole12 0).set_eq_univ, (arr_whole12 2).set_eq_univ]
  rfl
end

/-- The two distinct buffers behind the region's three windows. -/
theorem arrImage12 : Finset.univ.image (Pipeline.arrRef spec12) = insert main_v1 {main_v68} := by decide

section
variable (W : Dev nD → Valuation τ sig (Elt F))

theorem arrBufs12_eq (c : Dev nD) (V : (b : Ref sig .tc) → Buf (Elt F) ((c : Thread nD τ).loc b)) :
    (Pipeline.arrBufs spec12 c V : sProp 𝕄)
      = iprop((((c : Thread nD τ).loc main_v1) ↦{fullShare} V main_v1) ∗ (((c : Thread nD τ).loc main_v68) ↦{fullShare} V main_v68)) := by
  unfold Pipeline.arrBufs
  rw [arrImage12, bigSep_insert (by decide), bigSep_singleton]
  rfl

/-- ENTRY: every unscoped buffer held at `W` gives the region its arrays (the gathered array split in two halves), its two
    tables whole, the tallies, the generator register and the rest of the unscoped buffers. -/
theorem entry12 (hO : Ok12 (VW W)) (c : Dev nD) :
    iprop(StableHlo.held (c : Thread nD τ) (Pipeline.ucRefs τ sig) (W c) ∗ Rr (F := F) c)
      ⊢ |={Set.univ}=> iprop((dat12 (VW W) hO c).arrays ((dat12 (VW W) hO c).arrAt · 0)
          ∗ Pipeline.prefHeld pre12 c (fun _ => fullShare) (tbl12 (VW W))
          ∗ (dat12 (VW W) hO c).owesAt () 0 ∗ (∃ r, prngReg c r)
          ∗ (Pipeline.unscopedRestP pre12 spec12 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM12 (VW W) hO) () winFacts₀12.arr_unscoped c (VW W c)]
  rw [show (Pipeline.arrBufs (cfgM12 (VW W) hO).spec c (VW W c) : sProp 𝕄) = Pipeline.arrBufs spec12 c (VW W c) from rfl,
    arrBufs12_eq, arrays12_eq]
  rw [show (Pipeline.unscopedRest (cfgM12 (VW W) hO).spec c (VW W c) : sProp 𝕄) = Pipeline.unscopedRest spec12 c (VW W c) from rfl,
    Pipeline.unscopedRest_split preFacts12 c (VW W c)]
  rw [show (fun k => VW W c (pre12.ref k)) = tbl12 (VW W) from funext fun k => V_pre12 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest12_update (c : Dev nD) (X : Buf (Elt F) ((c : Thread nD τ).loc main_v68)) :
    (Pipeline.unscopedRest spec12 c (fun b => Function.update (W c) main_v68 X b) : sProp 𝕄) = Pipeline.unscopedRest spec12 c (VW W c) := by
  unfold Pipeline.unscopedRest
  exact bigSep_congr fun b hb => by
    have hne : b ≠ main_v68 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit12 (hO : Ok12 (VW W)) (c : Dev nD) (X : Buf (Elt F) ((c : Thread nD τ).loc main_v68))
    (hX : (dat12 (VW W) hO c).arrAt 2 (cfgM12 (VW W) hO).N = X) :
    iprop((dat12 (VW W) hO c).arrays ((dat12 (VW W) hO c).arrAt · (cfgM12 (VW W) hO).N)
        ∗ (dat12 (VW W) hO c).owesAt () (Fin.last (cfgM12 (VW W) hO).N)
        ∗ iprop((∃ r, prngReg c r) ∗ Pipeline.prefHeld pre12 c (fun _ => fullShare) (tbl12 (VW W)))
        ∗ (Pipeline.unscopedRestP pre12 spec12 c (VW W c) : sProp 𝕄))
      ⊢ |={Set.univ}=> iprop(StableHlo.held (c : Thread nD τ) (Pipeline.ucRefs τ sig) (Function.update (W c) main_v68 X) ∗ Rr (F := F) c) := by
  rw [← Pipeline.unscopedBufs_held (Ix := Unit) (Name := ℕ) (U := UR sig nD τ) (Lvl := ℕ) c (Function.update (W c) main_v68 X)]
  rw [Pipeline.unscopedBufs_split₀ (fun _ : Unit => cfgM12 (VW W) hO) () winFacts₀12.arr_unscoped c _]
  rw [show ∀ V', (Pipeline.arrBufs (cfgM12 (VW W) hO).spec c V' : sProp 𝕄) = Pipeline.arrBufs spec12 c V' from fun _ => rfl,
    show ∀ V', (Pipeline.unscopedRest (cfgM12 (VW W) hO).spec c V' : sProp 𝕄) = Pipeline.unscopedRest spec12 c V' from fun _ => rfl,
    rest12_update W c X, Pipeline.unscopedRest_split preFacts12 c (VW W c), arrBufs12_eq]
  rw [show (fun k => VW W c (pre12.ref k)) = tbl12 (VW W) from funext fun k => V_pre12 (VW W) c k]
  rw [Function.update_of_ne (StableHlo.devRef_ne_of_ne (by decide : (main_v1 : Ref sig .tc) ≠ main_v68)), Function.update_self]
  rw [arrays12_eq, hX,
    show (dat12 (VW W) hO c).arrAt 0 (cfgM12 (VW W) hO).N = W c main_v1 from (dat12 (VW W) hO c).arrAt_in 0 rfl _,
    show (dat12 (VW W) hO c).arrAt 1 (cfgM12 (VW W) hO).N = W c main_v1 from (dat12 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.KernelIdeal.GenP

end
-- ==== Proof.KernelIdeal.RB13.lean ====
/- A row-gather region of the program: the region's proof data, its body obligation and its entry and exit. -/
import proofs.«175043_j76819785056407_2_alg».proof.Proof.Gen.KernelIdeal.Launch
import proofs.«175043_j76819785056407_2_alg».proof.Proof.Gen.KernelIdeal.Skeleton
import proofs.«175043_j76819785056407_2_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 13): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl13 : pre13.Contents (Elt F) := fun j => V (0 : Dev nD) (pre13.ref j)
theorem V_pre13 (c : Dev nD) (j : Fin 2) : V c (pre13.ref j) = tbl13 V j := by
  obtain rfl : c = 0 := Subsingleton.elim _ _; rfl
/-- Every table-indexed block lies inside the gathered array. -/
abbrev Ok13 : Prop := ok13 (F := F) (tbl13 V)
abbrev adm13 (hO : Ok13 V) : (pcfg13 (F := F)).Adm := ⟨tbl13 V, hO⟩
abbrev cfgM13 (hO : Ok13 V) : Pipeline.Cfg sig Λ₀ := cfg13 (adm13 V hO)

/-- Window `w`'s block at point `t`, read off its array as the region finds it. -/
def iblk13 (hO : Ok13 V) (c : Dev nD) (w : Fin (cfgM13 V hO).W) (t : Fin (cfgM13 V hO).N) :
    (((cfgM13 V hO).win w).xblock ((cfgM13 V hO).grid.coords t)).Idx → Elt F ((cfgM13 V hO).win w).elt :=
  (((cfgM13 V hO).win w).blk t).view.read (Elt F) (V c (Pipeline.arrRef spec13 w))

theorem before13_0_of (hO : Ok13 V) {c : Dev nD} (dat : Dat τ (Elt F) Unit ℕ (UR sig nD τ) ℕ (cfgM13 V hO) c) (hA : dat.A 0 = V c (Pipeline.arrRef spec13 0))
    (hafter : ∀ t, dat.after 0 t = iblk13 V hO c 0 t) (t : Fin (cfgM13 V hO).N) (d) : dat.before 0 t d = iblk13 V hO c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of (hO : Ok13 V) {c : Dev nD} (dat : Dat τ (Elt F) Unit ℕ (UR sig nD τ) ℕ (cfgM13 V hO) c) (hA : dat.A 1 = V c (Pipeline.arrRef spec13 1))
    (hafter : ∀ t, dat.after 1 t = iblk13 V hO c 1 t) (t : Fin (cfgM13 V hO).N) (d) : dat.before 1 t d = iblk13 V hO c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
end

/-- The body's one rectangle: the whole 1×1×128 block. -/
abbrev r13_0 : Rect S1x1x128 := Rect.unit (s := S1x1x128) ![0, 0, 0] S1x1x128.size inb_S1x1x128_S1x1x128_0_0_0

/-- The output block after the body: the sum of the two gathered rows. -/
def out13_2 (x0 x1 : Vec F S1x1x128 .f32) : Vec F S1x1x128 .f32 :=
  View.canon [⟨r13_0, k13_pay1 (View.ld x0 r13_0) (View.ld x1 r13_0)⟩]

theorem cover13_2 (p0 : Vec F S1x1x128 .f32) (y : S1x1x128.Idx) :
    ∃ pc ∈ ([⟨r13_0, p0⟩] : List (View.Piece (Elt F) S1x1x128 .f32)), y ∈ pc.1.set :=
  View.cover_of_tiled [⟨r13_0, p0⟩] S1x1x128.size (by rfl) y

set_option maxHeartbeats 1000000 in
/-- The body on whole staging memrefs: the two inputs stay, the output ends at the sum; the tables are not touched. -/
theorem sound_kernel13 (c : Dev nD) (E : Set ℕ) (i : grid13.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out13_2 x0 x1)) -∗ K ⟨⟩))
      ⊢ wp frame (wpE (defs₀ (F := F)) Variants.none c none) E (cc13__kernel_b i a1 ha1 a2 ha2 arg3 harg3 arg4 harg4 arg5 harg5) K := by
  simp only [cc13__kernel_b_eq_skeleton]; unfold cc13__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

section
variable (V : (c : Dev nD) → (b : Ref sig .tc) → Buf (Elt F) ((c : Thread nD τ).loc b))

/-- Each window's current staging memref at point `t`, and its wholeness. -/
abbrev ms13_0 (hO : Ok13 V) (t : Fin (cfgM13 V hO).N) : Memref sig .tc .vmem S1x1x128 .f32 := spec13_0.stage ((cfgM13 V hO).slots t 0)
abbrev hs13_0 (hO : Ok13 V) (t : Fin (cfgM13 V hO).N) : (ms13_0 V hO t).IsWhole := hstage13_0 (((cfgM13 V hO).slots t 0).cast nbuf13_0)
abbrev ms13_1 (hO : Ok13 V) (t : Fin (cfgM13 V hO).N) : Memref sig .tc .vmem S1x1x128 .f32 := spec13_1.stage ((cfgM13 V hO).slots t 1)
abbrev hs13_1 (hO : Ok13 V) (t : Fin (cfgM13 V hO).N) : (ms13_1 V hO t).IsWhole := hstage13_1 (((cfgM13 V hO).slots t 1).cast nbuf13_1)
abbrev ms13_2 (hO : Ok13 V) (t : Fin (cfgM13 V hO).N) : Memref sig .tc .vmem S1x1x128 .f32 := spec13_2.stage ((cfgM13 V hO).slots t 2)
abbrev hs13_2 (hO : Ok13 V) (t : Fin (cfgM13 V hO).N) : (ms13_2 V hO t).IsWhole := hstage13_2 (((cfgM13 V hO).slots t 2).cast nbuf13_2)

/-- The kernel body as the pipeline calls it at point `t`: the point, the two tables whole, the three current staging memrefs. -/
abbrev bodyAt13 (a : (pcfg13 (F := F)).Adm) (t : Fin (cfg13 a).N) : Prog (TpuEff nD τ sig (Elt F) Λ₀ .tc) PUnit :=
  cc13__kernel_b (grid13.coords t) (Memref.whole main_v70) (Memref.isWhole_whole _) (Memref.whole main_v71) (Memref.isWhole_whole _)
    (spec13_0.stage ((cfg13 a).slots t 0)) (hstage13_0 (((cfg13 a).slots t 0).cast nbuf13_0))
    (spec13_1.stage ((cfg13 a).slots t 1)) (hstage13_1 (((cfg13 a).slots t 1).cast nbuf13_1))
    (spec13_2.stage ((cfg13 a).slots t 2)) (hstage13_2 (((cfg13 a).slots t 2).cast nbuf13_2))

/-- The region's proof data on core `c`: the arrays as the region finds them; after the body each input's buffer at its
    block and the output's at the sum of the two input blocks; the invariant carries the scoped rest, the generator register
    and the two tables, whole; the gathered array, read by both input windows, is held half and half; nothing owed. -/
def dat13 (hO : Ok13 V) (c : Dev nD) : Dat τ (Elt F) Unit ℕ (UR sig nD τ) ℕ (cfgM13 V hO) c where
  A w := V c (Pipeline.arrRef spec13 w)
  after w t := match w with
    | ⟨0, _⟩ => iblk13 V hO c 0 t
    | ⟨1, _⟩ => iblk13 V hO c 1 t
    | ⟨2, _⟩ => out13_2 (iblk13 V hO c 0 t) (iblk13 V hO c 1 t)
  Φ _ := iprop(Pipeline.ΦA spec13 c ∗ (Pipeline.prefHeld pre13 c (fun _ => fullShare) (tbl13 V) : sProp 𝕄))
  q w := match w with
    | ⟨0, _⟩ => fullShare.left
    | ⟨1, _⟩ => fullShare.right
    | ⟨2, _⟩ => fullShare
  owed _ := 0

theorem A_eq13 (hO : Ok13 V) (c : Dev nD) (w : Fin (cfgM13 V hO).W) : (dat13 V hO c).A w = V c (Pipeline.arrRef spec13 w) := by
  dsimp only [dat13]

theorem after13_0 (hO : Ok13 V) (c : Dev nD) (t : Fin (cfgM13 V hO).N) : (dat13 V hO c).after 0 t = iblk13 V hO c 0 t := by dsimp only [dat13]; try rfl
theorem after13_1 (hO : Ok13 V) (c : Dev nD) (t : Fin (cfgM13 V hO).N) : (dat13 V hO c).after 1 t = iblk13 V hO c 1 t := by dsimp only [dat13]; try rfl
theorem after13_2 (hO : Ok13 V) (c : Dev nD) (t : Fin (cfgM13 V hO).N) : (dat13 V hO c).after 2 t = out13_2 (iblk13 V hO c 0 t) (iblk13 V hO c 1 t) := by dsimp only [dat13]; try rfl

theorem before13_0 (hO : Ok13 V) (c : Dev nD) (t : Fin (cfgM13 V hO).N) (d) : (dat13 V hO c).before 0 t d = iblk13 V hO c 0 t :=
  before13_0_of V hO (dat13 V hO c) (A_eq13 V hO c 0) (after13_0 V hO c) t d
theorem before13_1 (hO : Ok13 V) (c : Dev nD) (t : Fin (cfgM13 V hO).N) (d) : (dat13 V hO c).before 1 t d = iblk13 V hO c 1 t :=
  before13_1_of V hO (dat13 V hO c) (A_eq13 V hO c 1) (after13_1 V hO c) t d

def bodyPre13 (hO : Ok13 V) (c : Dev nD) (t : Fin (cfgM13 V hO).N) : sProp 𝕄 :=
  iprop((dat13 V hO c).Φ t.castSucc ∗ (dat13 V hO c).owesAt () t.castSucc
    ∗ (∃ d, owns (c : Thread nD τ) (ms13_0 V hO t) fullShare ((dat13 V hO c).before 0 t d))
    ∗ (∃ d, owns (c : Thread nD τ) (ms13_1 V hO t) fullShare ((dat13 V hO c).before 1 t d))
    ∗ (∃ d, owns (c : Thread nD τ) (ms13_2 V hO t) fullShare ((dat13 V hO c).before 2 t d)))

def bodyPost13 (hO : Ok13 V) (c : Dev nD) (t : Fin (cfgM13 V hO).N) : sProp 𝕄 :=
  iprop((dat13 V hO c).Φ t.succ ∗ (dat13 V hO c).owesAt () t.succ
    ∗ owns (c : Thread nD τ) (ms13_0 V hO t) fullShare ((dat13 V hO c).after 0 t)
    ∗ owns (c : Thread nD τ) (ms13_1 V hO t) fullShare ((dat13 V hO c).after 1 t)
    ∗ owns (c : Thread nD τ) (ms13_2 V hO t) fullShare ((dat13 V hO c).after 2 t))

/-- The body at any point: the two input buffers hold their blocks, the body adds them into the output buffer; the
    invariant and the tallies pass through untouched. -/
theorem sound_body13 (hO : Ok13 V) (c : Dev nD) (t : Fin (cfgM13 V hO).N) :
    bodyPre13 V hO c t ⊢ wp frame (wpE (defs₀ (F := F)) Variants.none c none) Set.univ (bodyAt13 (adm13 V hO) t) (fun _ => bodyPost13 V hO c t) := by
  unfold bodyPre13 bodyPost13 bodyAt13
  simp only [before13_0, before13_1]
  rw [show (dat13 V hO c).Φ t.succ = (dat13 V hO c).Φ t.castSucc from rfl,
    show (dat13 V hO c).owesAt () t.succ = (dat13 V hO c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ _ _ _ _ (iblk13 V hO c 0 t) (iblk13 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation13 (hO : Ok13 V) (c : Dev nD) : BodyObligation (dat13 (F := F) V hO c) (defs₀ (F := F)) Variants.none () Set.univ := fun t => by
  rw [bigSep_W13, bigSep_W13]
  exact sound_body13 V hO c t
end

section
variable (V : (c : Dev nD) → (b : Ref sig .tc) → Buf (Elt F) ((c : Thread nD τ).loc b))

/-- The region's three arrays as points-to facts: the gathered array, read by both input windows, half and half; the output array whole. -/
theorem arrays13_eq (hO : Ok13 V) (c : Dev nD)
    (G : (w : Fin (cfgM13 V hO).W) → Buf (Elt F) (((cfgM13 V hO).win w).arr.view.loc (c : Thread nD τ))) :
    ((dat13 V hO c).arrays G : sProp 𝕄)
      = iprop((((c : Thread nD τ).loc main_v1) ↦{fullShare.left} G 0) ∗ (((c : Thread nD τ).loc main_v1) ↦{fullShare.right} G 1)
          ∗ (((c : Thread nD τ).loc main_v72) ↦{fullShare} G 2)) := by
  unfold Dat.arrays
  rw [bigSep_W13, (arr_whole13 0).set_eq_univ, (arr_whole13 2).set_eq_univ]
  rfl
end

/-- The two distinct buffers behind the region's three windows. -/
theorem arrImage13 : Finset.univ.image (Pipeline.arrRef spec13) = insert main_v1 {main_v72} := by decide

section
variable (W : Dev nD → Valuation τ sig (Elt F))

theorem arrBufs13_eq (c : Dev nD) (V : (b : Ref sig .tc) → Buf (Elt F) ((c : Thread nD τ).loc b)) :
    (Pipeline.arrBufs spec13 c V : sProp 𝕄)
      = iprop((((c : Thread nD τ).loc main_v1) ↦{fullShare} V main_v1) ∗ (((c : Thread nD τ).loc main_v72) ↦{fullShare} V main_v72)) := by
  unfold Pipeline.arrBufs
  rw [arrImage13, bigSep_insert (by decide), bigSep_singleton]
  rfl

/-- ENTRY: every unscoped buffer held at `W` gives the region its arrays (the gathered array split in two halves), its two
    tables whole, the tallies, the generator register and the rest of the unscoped buffers. -/
theorem entry13 (hO : Ok13 (VW W)) (c : Dev nD) :
    iprop(StableHlo.held (c : Thread nD τ) (Pipeline.ucRefs τ sig) (W c) ∗ Rr (F := F) c)
      ⊢ |={Set.univ}=> iprop((dat13 (VW W) hO c).arrays ((dat13 (VW W) hO c).arrAt · 0)
          ∗ Pipeline.prefHeld pre13 c (fun _ => fullShare) (tbl13 (VW W))
          ∗ (dat13 (VW W) hO c).owesAt () 0 ∗ (∃ r, prngReg c r)
          ∗ (Pipeline.unscopedRestP pre13 spec13 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM13 (VW W) hO) () winFacts₀13.arr_unscoped c (VW W c)]
  rw [show (Pipeline.arrBufs (cfgM13 (VW W) hO).spec c (VW W c) : sProp 𝕄) = Pipeline.arrBufs spec13 c (VW W c) from rfl,
    arrBufs13_eq, arrays13_eq]
  rw [show (Pipeline.unscopedRest (cfgM13 (VW W) hO).spec c (VW W c) : sProp 𝕄) = Pipeline.unscopedRest spec13 c (VW W c) from rfl,
    Pipeline.unscopedRest_split preFacts13 c (VW W c)]
  rw [show (fun k => VW W c (pre13.ref k)) = tbl13 (VW W) from funext fun k => V_pre13 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest13_update (c : Dev nD) (X : Buf (Elt F) ((c : Thread nD τ).loc main_v72)) :
    (Pipeline.unscopedRest spec13 c (fun b => Function.update (W c) main_v72 X b) : sProp 𝕄) = Pipeline.unscopedRest spec13 c (VW W c) := by
  unfold Pipeline.unscopedRest
  exact bigSep_congr fun b hb => by
    have hne : b ≠ main_v72 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit13 (hO : Ok13 (VW W)) (c : Dev nD) (X : Buf (Elt F) ((c : Thread nD τ).loc main_v72))
    (hX : (dat13 (VW W) hO c).arrAt 2 (cfgM13 (VW W) hO).N = X) :
    iprop((dat13 (VW W) hO c).arrays ((dat13 (VW W) hO c).arrAt · (cfgM13 (VW W) hO).N)
        ∗ (dat13 (VW W) hO c).owesAt () (Fin.last (cfgM13 (VW W) hO).N)
        ∗ iprop((∃ r, prngReg c r) ∗ Pipeline.prefHeld pre13 c (fun _ => fullShare) (tbl13 (VW W)))
        ∗ (Pipeline.unscopedRestP pre13 spec13 c (VW W c) : sProp 𝕄))
      ⊢ |={Set.univ}=> iprop(StableHlo.held (c : Thread nD τ) (Pipeline.ucRefs τ sig) (Function.update (W c) main_v72 X) ∗ Rr (F := F) c) := by
  rw [← Pipeline.unscopedBufs_held (Ix := Unit) (Name := ℕ) (U := UR sig nD τ) (Lvl := ℕ) c (Function.update (W c) main_v72 X)]
  rw [Pipeline.unscopedBufs_split₀ (fun _ : Unit => cfgM13 (VW W) hO) () winFacts₀13.arr_unscoped c _]
  rw [show ∀ V', (Pipeline.arrBufs (cfgM13 (VW W) hO).spec c V' : sProp 𝕄) = Pipeline.arrBufs spec13 c V' from fun _ => rfl,
    show ∀ V', (Pipeline.unscopedRest (cfgM13 (VW W) hO).spec c V' : sProp 𝕄) = Pipeline.unscopedRest spec13 c V' from fun _ => rfl,
    rest13_update W c X, Pipeline.unscopedRest_split preFacts13 c (VW W c), arrBufs13_eq]
  rw [show (fun k => VW W c (pre13.ref k)) = tbl13 (VW W) from funext fun k => V_pre13 (VW W) c k]
  rw [Function.update_of_ne (StableHlo.devRef_ne_of_ne (by decide : (main_v1 : Ref sig .tc) ≠ main_v72)), Function.update_self]
  rw [arrays13_eq, hX,
    show (dat13 (VW W) hO c).arrAt 0 (cfgM13 (VW W) hO).N = W c main_v1 from (dat13 (VW W) hO c).arrAt_in 0 rfl _,
    show (dat13 (VW W) hO c).arrAt 1 (cfgM13 (VW W) hO).N = W c main_v1 from (dat13 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.KernelIdeal.GenP

end
-- ==== Proof.KernelIdeal.RB14.lean ====
/- A row-gather region of the program: the region's proof data, its body obligation and its entry and exit. -/
import proofs.«175043_j76819785056407_2_alg».proof.Proof.Gen.KernelIdeal.Launch
import proofs.«175043_j76819785056407_2_alg».proof.Proof.Gen.KernelIdeal.Skeleton
import proofs.«175043_j76819785056407_2_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 14): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl14 : pre14.Contents (Elt F) := fun j => V (0 : Dev nD) (pre14.ref j)
theorem V_pre14 (c : Dev nD) (j : Fin 2) : V c (pre14.ref j) = tbl14 V j := by
  obtain rfl : c = 0 := Subsingleton.elim _ _; rfl
/-- Every table-indexed block lies inside the gathered array. -/
abbrev Ok14 : Prop := ok14 (F := F) (tbl14 V)
abbrev adm14 (hO : Ok14 V) : (pcfg14 (F := F)).Adm := ⟨tbl14 V, hO⟩
abbrev cfgM14 (hO : Ok14 V) : Pipeline.Cfg sig Λ₀ := cfg14 (adm14 V hO)

/-- Window `w`'s block at point `t`, read off its array as the region finds it. -/
def iblk14 (hO : Ok14 V) (c : Dev nD) (w : Fin (cfgM14 V hO).W) (t : Fin (cfgM14 V hO).N) :
    (((cfgM14 V hO).win w).xblock ((cfgM14 V hO).grid.coords t)).Idx → Elt F ((cfgM14 V hO).win w).elt :=
  (((cfgM14 V hO).win w).blk t).view.read (Elt F) (V c (Pipeline.arrRef spec14 w))

theorem before14_0_of (hO : Ok14 V) {c : Dev nD} (dat : Dat τ (Elt F) Unit ℕ (UR sig nD τ) ℕ (cfgM14 V hO) c) (hA : dat.A 0 = V c (Pipeline.arrRef spec14 0))
    (hafter : ∀ t, dat.after 0 t = iblk14 V hO c 0 t) (t : Fin (cfgM14 V hO).N) (d) : dat.before 0 t d = iblk14 V hO c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of (hO : Ok14 V) {c : Dev nD} (dat : Dat τ (Elt F) Unit ℕ (UR sig nD τ) ℕ (cfgM14 V hO) c) (hA : dat.A 1 = V c (Pipeline.arrRef spec14 1))
    (hafter : ∀ t, dat.after 1 t = iblk14 V hO c 1 t) (t : Fin (cfgM14 V hO).N) (d) : dat.before 1 t d = iblk14 V hO c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
end

/-- The body's one rectangle: the whole 1×1×128 block. -/
abbrev r14_0 : Rect S1x1x128 := Rect.unit (s := S1x1x128) ![0, 0, 0] S1x1x128.size inb_S1x1x128_S1x1x128_0_0_0

/-- The output block after the body: the sum of the two gathered rows. -/
def out14_2 (x0 x1 : Vec F S1x1x128 .f32) : Vec F S1x1x128 .f32 :=
  View.canon [⟨r14_0, k14_pay1 (View.ld x0 r14_0) (View.ld x1 r14_0)⟩]

theorem cover14_2 (p0 : Vec F S1x1x128 .f32) (y : S1x1x128.Idx) :
    ∃ pc ∈ ([⟨r14_0, p0⟩] : List (View.Piece (Elt F) S1x1x128 .f32)), y ∈ pc.1.set :=
  View.cover_of_tiled [⟨r14_0, p0⟩] S1x1x128.size (by rfl) y

set_option maxHeartbeats 1000000 in
/-- The body on whole staging memrefs: the two inputs stay, the output ends at the sum; the tables are not touched. -/
theorem sound_kernel14 (c : Dev nD) (E : Set ℕ) (i : grid14.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out14_2 x0 x1)) -∗ K ⟨⟩))
      ⊢ wp frame (wpE (defs₀ (F := F)) Variants.none c none) E (cc14__kernel_b i a1 ha1 a2 ha2 arg3 harg3 arg4 harg4 arg5 harg5) K := by
  simp only [cc14__kernel_b_eq_skeleton]; unfold cc14__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

section
variable (V : (c : Dev nD) → (b : Ref sig .tc) → Buf (Elt F) ((c : Thread nD τ).loc b))

/-- Each window's current staging memref at point `t`, and its wholeness. -/
abbrev ms14_0 (hO : Ok14 V) (t : Fin (cfgM14 V hO).N) : Memref sig .tc .vmem S1x1x128 .f32 := spec14_0.stage ((cfgM14 V hO).slots t 0)
abbrev hs14_0 (hO : Ok14 V) (t : Fin (cfgM14 V hO).N) : (ms14_0 V hO t).IsWhole := hstage14_0 (((cfgM14 V hO).slots t 0).cast nbuf14_0)
abbrev ms14_1 (hO : Ok14 V) (t : Fin (cfgM14 V hO).N) : Memref sig .tc .vmem S1x1x128 .f32 := spec14_1.stage ((cfgM14 V hO).slots t 1)
abbrev hs14_1 (hO : Ok14 V) (t : Fin (cfgM14 V hO).N) : (ms14_1 V hO t).IsWhole := hstage14_1 (((cfgM14 V hO).slots t 1).cast nbuf14_1)
abbrev ms14_2 (hO : Ok14 V) (t : Fin (cfgM14 V hO).N) : Memref sig .tc .vmem S1x1x128 .f32 := spec14_2.stage ((cfgM14 V hO).slots t 2)
abbrev hs14_2 (hO : Ok14 V) (t : Fin (cfgM14 V hO).N) : (ms14_2 V hO t).IsWhole := hstage14_2 (((cfgM14 V hO).slots t 2).cast nbuf14_2)

/-- The kernel body as the pipeline calls it at point `t`: the point, the two tables whole, the three current staging memrefs. -/
abbrev bodyAt14 (a : (pcfg14 (F := F)).Adm) (t : Fin (cfg14 a).N) : Prog (TpuEff nD τ sig (Elt F) Λ₀ .tc) PUnit :=
  cc14__kernel_b (grid14.coords t) (Memref.whole main_v74) (Memref.isWhole_whole _) (Memref.whole main_v75) (Memref.isWhole_whole _)
    (spec14_0.stage ((cfg14 a).slots t 0)) (hstage14_0 (((cfg14 a).slots t 0).cast nbuf14_0))
    (spec14_1.stage ((cfg14 a).slots t 1)) (hstage14_1 (((cfg14 a).slots t 1).cast nbuf14_1))
    (spec14_2.stage ((cfg14 a).slots t 2)) (hstage14_2 (((cfg14 a).slots t 2).cast nbuf14_2))

/-- The region's proof data on core `c`: the arrays as the region finds them; after the body each input's buffer at its
    block and the output's at the sum of the two input blocks; the invariant carries the scoped rest, the generator register
    and the two tables, whole; the gathered array, read by both input windows, is held half and half; nothing owed. -/
def dat14 (hO : Ok14 V) (c : Dev nD) : Dat τ (Elt F) Unit ℕ (UR sig nD τ) ℕ (cfgM14 V hO) c where
  A w := V c (Pipeline.arrRef spec14 w)
  after w t := match w with
    | ⟨0, _⟩ => iblk14 V hO c 0 t
    | ⟨1, _⟩ => iblk14 V hO c 1 t
    | ⟨2, _⟩ => out14_2 (iblk14 V hO c 0 t) (iblk14 V hO c 1 t)
  Φ _ := iprop(Pipeline.ΦA spec14 c ∗ (Pipeline.prefHeld pre14 c (fun _ => fullShare) (tbl14 V) : sProp 𝕄))
  q w := match w with
    | ⟨0, _⟩ => fullShare.left
    | ⟨1, _⟩ => fullShare.right
    | ⟨2, _⟩ => fullShare
  owed _ := 0

theorem A_eq14 (hO : Ok14 V) (c : Dev nD) (w : Fin (cfgM14 V hO).W) : (dat14 V hO c).A w = V c (Pipeline.arrRef spec14 w) := by
  dsimp only [dat14]

theorem after14_0 (hO : Ok14 V) (c : Dev nD) (t : Fin (cfgM14 V hO).N) : (dat14 V hO c).after 0 t = iblk14 V hO c 0 t := by dsimp only [dat14]; try rfl
theorem after14_1 (hO : Ok14 V) (c : Dev nD) (t : Fin (cfgM14 V hO).N) : (dat14 V hO c).after 1 t = iblk14 V hO c 1 t := by dsimp only [dat14]; try rfl
theorem after14_2 (hO : Ok14 V) (c : Dev nD) (t : Fin (cfgM14 V hO).N) : (dat14 V hO c).after 2 t = out14_2 (iblk14 V hO c 0 t) (iblk14 V hO c 1 t) := by dsimp only [dat14]; try rfl

theorem before14_0 (hO : Ok14 V) (c : Dev nD) (t : Fin (cfgM14 V hO).N) (d) : (dat14 V hO c).before 0 t d = iblk14 V hO c 0 t :=
  before14_0_of V hO (dat14 V hO c) (A_eq14 V hO c 0) (after14_0 V hO c) t d
theorem before14_1 (hO : Ok14 V) (c : Dev nD) (t : Fin (cfgM14 V hO).N) (d) : (dat14 V hO c).before 1 t d = iblk14 V hO c 1 t :=
  before14_1_of V hO (dat14 V hO c) (A_eq14 V hO c 1) (after14_1 V hO c) t d

def bodyPre14 (hO : Ok14 V) (c : Dev nD) (t : Fin (cfgM14 V hO).N) : sProp 𝕄 :=
  iprop((dat14 V hO c).Φ t.castSucc ∗ (dat14 V hO c).owesAt () t.castSucc
    ∗ (∃ d, owns (c : Thread nD τ) (ms14_0 V hO t) fullShare ((dat14 V hO c).before 0 t d))
    ∗ (∃ d, owns (c : Thread nD τ) (ms14_1 V hO t) fullShare ((dat14 V hO c).before 1 t d))
    ∗ (∃ d, owns (c : Thread nD τ) (ms14_2 V hO t) fullShare ((dat14 V hO c).before 2 t d)))

def bodyPost14 (hO : Ok14 V) (c : Dev nD) (t : Fin (cfgM14 V hO).N) : sProp 𝕄 :=
  iprop((dat14 V hO c).Φ t.succ ∗ (dat14 V hO c).owesAt () t.succ
    ∗ owns (c : Thread nD τ) (ms14_0 V hO t) fullShare ((dat14 V hO c).after 0 t)
    ∗ owns (c : Thread nD τ) (ms14_1 V hO t) fullShare ((dat14 V hO c).after 1 t)
    ∗ owns (c : Thread nD τ) (ms14_2 V hO t) fullShare ((dat14 V hO c).after 2 t))

/-- The body at any point: the two input buffers hold their blocks, the body adds them into the output buffer; the
    invariant and the tallies pass through untouched. -/
theorem sound_body14 (hO : Ok14 V) (c : Dev nD) (t : Fin (cfgM14 V hO).N) :
    bodyPre14 V hO c t ⊢ wp frame (wpE (defs₀ (F := F)) Variants.none c none) Set.univ (bodyAt14 (adm14 V hO) t) (fun _ => bodyPost14 V hO c t) := by
  unfold bodyPre14 bodyPost14 bodyAt14
  simp only [before14_0, before14_1]
  rw [show (dat14 V hO c).Φ t.succ = (dat14 V hO c).Φ t.castSucc from rfl,
    show (dat14 V hO c).owesAt () t.succ = (dat14 V hO c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ _ _ _ _ (iblk14 V hO c 0 t) (iblk14 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation14 (hO : Ok14 V) (c : Dev nD) : BodyObligation (dat14 (F := F) V hO c) (defs₀ (F := F)) Variants.none () Set.univ := fun t => by
  rw [bigSep_W14, bigSep_W14]
  exact sound_body14 V hO c t
end

section
variable (V : (c : Dev nD) → (b : Ref sig .tc) → Buf (Elt F) ((c : Thread nD τ).loc b))

/-- The region's three arrays as points-to facts: the gathered array, read by both input windows, half and half; the output array whole. -/
theorem arrays14_eq (hO : Ok14 V) (c : Dev nD)
    (G : (w : Fin (cfgM14 V hO).W) → Buf (Elt F) (((cfgM14 V hO).win w).arr.view.loc (c : Thread nD τ))) :
    ((dat14 V hO c).arrays G : sProp 𝕄)
      = iprop((((c : Thread nD τ).loc main_v1) ↦{fullShare.left} G 0) ∗ (((c : Thread nD τ).loc main_v1) ↦{fullShare.right} G 1)
          ∗ (((c : Thread nD τ).loc main_v76) ↦{fullShare} G 2)) := by
  unfold Dat.arrays
  rw [bigSep_W14, (arr_whole14 0).set_eq_univ, (arr_whole14 2).set_eq_univ]
  rfl
end

/-- The two distinct buffers behind the region's three windows. -/
theorem arrImage14 : Finset.univ.image (Pipeline.arrRef spec14) = insert main_v1 {main_v76} := by decide

section
variable (W : Dev nD → Valuation τ sig (Elt F))

theorem arrBufs14_eq (c : Dev nD) (V : (b : Ref sig .tc) → Buf (Elt F) ((c : Thread nD τ).loc b)) :
    (Pipeline.arrBufs spec14 c V : sProp 𝕄)
      = iprop((((c : Thread nD τ).loc main_v1) ↦{fullShare} V main_v1) ∗ (((c : Thread nD τ).loc main_v76) ↦{fullShare} V main_v76)) := by
  unfold Pipeline.arrBufs
  rw [arrImage14, bigSep_insert (by decide), bigSep_singleton]
  rfl

/-- ENTRY: every unscoped buffer held at `W` gives the region its arrays (the gathered array split in two halves), its two
    tables whole, the tallies, the generator register and the rest of the unscoped buffers. -/
theorem entry14 (hO : Ok14 (VW W)) (c : Dev nD) :
    iprop(StableHlo.held (c : Thread nD τ) (Pipeline.ucRefs τ sig) (W c) ∗ Rr (F := F) c)
      ⊢ |={Set.univ}=> iprop((dat14 (VW W) hO c).arrays ((dat14 (VW W) hO c).arrAt · 0)
          ∗ Pipeline.prefHeld pre14 c (fun _ => fullShare) (tbl14 (VW W))
          ∗ (dat14 (VW W) hO c).owesAt () 0 ∗ (∃ r, prngReg c r)
          ∗ (Pipeline.unscopedRestP pre14 spec14 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM14 (VW W) hO) () winFacts₀14.arr_unscoped c (VW W c)]
  rw [show (Pipeline.arrBufs (cfgM14 (VW W) hO).spec c (VW W c) : sProp 𝕄) = Pipeline.arrBufs spec14 c (VW W c) from rfl,
    arrBufs14_eq, arrays14_eq]
  rw [show (Pipeline.unscopedRest (cfgM14 (VW W) hO).spec c (VW W c) : sProp 𝕄) = Pipeline.unscopedRest spec14 c (VW W c) from rfl,
    Pipeline.unscopedRest_split preFacts14 c (VW W c)]
  rw [show (fun k => VW W c (pre14.ref k)) = tbl14 (VW W) from funext fun k => V_pre14 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest14_update (c : Dev nD) (X : Buf (Elt F) ((c : Thread nD τ).loc main_v76)) :
    (Pipeline.unscopedRest spec14 c (fun b => Function.update (W c) main_v76 X b) : sProp 𝕄) = Pipeline.unscopedRest spec14 c (VW W c) := by
  unfold Pipeline.unscopedRest
  exact bigSep_congr fun b hb => by
    have hne : b ≠ main_v76 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit14 (hO : Ok14 (VW W)) (c : Dev nD) (X : Buf (Elt F) ((c : Thread nD τ).loc main_v76))
    (hX : (dat14 (VW W) hO c).arrAt 2 (cfgM14 (VW W) hO).N = X) :
    iprop((dat14 (VW W) hO c).arrays ((dat14 (VW W) hO c).arrAt · (cfgM14 (VW W) hO).N)
        ∗ (dat14 (VW W) hO c).owesAt () (Fin.last (cfgM14 (VW W) hO).N)
        ∗ iprop((∃ r, prngReg c r) ∗ Pipeline.prefHeld pre14 c (fun _ => fullShare) (tbl14 (VW W)))
        ∗ (Pipeline.unscopedRestP pre14 spec14 c (VW W c) : sProp 𝕄))
      ⊢ |={Set.univ}=> iprop(StableHlo.held (c : Thread nD τ) (Pipeline.ucRefs τ sig) (Function.update (W c) main_v76 X) ∗ Rr (F := F) c) := by
  rw [← Pipeline.unscopedBufs_held (Ix := Unit) (Name := ℕ) (U := UR sig nD τ) (Lvl := ℕ) c (Function.update (W c) main_v76 X)]
  rw [Pipeline.unscopedBufs_split₀ (fun _ : Unit => cfgM14 (VW W) hO) () winFacts₀14.arr_unscoped c _]
  rw [show ∀ V', (Pipeline.arrBufs (cfgM14 (VW W) hO).spec c V' : sProp 𝕄) = Pipeline.arrBufs spec14 c V' from fun _ => rfl,
    show ∀ V', (Pipeline.unscopedRest (cfgM14 (VW W) hO).spec c V' : sProp 𝕄) = Pipeline.unscopedRest spec14 c V' from fun _ => rfl,
    rest14_update W c X, Pipeline.unscopedRest_split preFacts14 c (VW W c), arrBufs14_eq]
  rw [show (fun k => VW W c (pre14.ref k)) = tbl14 (VW W) from funext fun k => V_pre14 (VW W) c k]
  rw [Function.update_of_ne (StableHlo.devRef_ne_of_ne (by decide : (main_v1 : Ref sig .tc) ≠ main_v76)), Function.update_self]
  rw [arrays14_eq, hX,
    show (dat14 (VW W) hO c).arrAt 0 (cfgM14 (VW W) hO).N = W c main_v1 from (dat14 (VW W) hO c).arrAt_in 0 rfl _,
    show (dat14 (VW W) hO c).arrAt 1 (cfgM14 (VW W) hO).N = W c main_v1 from (dat14 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.KernelIdeal.GenP

end
-- ==== Proof.KernelIdeal.RB15.lean ====
/- A row-gather region of the program: the region's proof data, its body obligation and its entry and exit. -/
import proofs.«175043_j76819785056407_2_alg».proof.Proof.Gen.KernelIdeal.Launch
import proofs.«175043_j76819785056407_2_alg».proof.Proof.Gen.KernelIdeal.Skeleton
import proofs.«175043_j76819785056407_2_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A row-gather region (custom_call 15): one grid point per output row; the two input windows' block indices are read from
    the two prefetched tables, the output window's is the point. Stated at the contents `V` the region is entered from. -/

section
variable (V : (c : Dev nD) → (b : Ref sig .tc) → Buf (Elt F) ((c : Thread nD τ).loc b))

/-- The two tables' contents at the region's entry (one device). -/
def tbl15 : pre15.Contents (Elt F) := fun j => V (0 : Dev nD) (pre15.ref j)
theorem V_pre15 (c : Dev nD) (j : Fin 2) : V c (pre15.ref j) = tbl15 V j := by
  obtain rfl : c = 0 := Subsingleton.elim _ _; rfl
/-- Every table-indexed block lies inside the gathered array. -/
abbrev Ok15 : Prop := ok15 (F := F) (tbl15 V)
abbrev adm15 (hO : Ok15 V) : (pcfg15 (F := F)).Adm := ⟨tbl15 V, hO⟩
abbrev cfgM15 (hO : Ok15 V) : Pipeline.Cfg sig Λ₀ := cfg15 (adm15 V hO)

/-- Window `w`'s block at point `t`, read off its array as the region finds it. -/
def iblk15 (hO : Ok15 V) (c : Dev nD) (w : Fin (cfgM15 V hO).W) (t : Fin (cfgM15 V hO).N) :
    (((cfgM15 V hO).win w).xblock ((cfgM15 V hO).grid.coords t)).Idx → Elt F ((cfgM15 V hO).win w).elt :=
  (((cfgM15 V hO).win w).blk t).view.read (Elt F) (V c (Pipeline.arrRef spec15 w))

theorem before15_0_of (hO : Ok15 V) {c : Dev nD} (dat : Dat τ (Elt F) Unit ℕ (UR sig nD τ) ℕ (cfgM15 V hO) c) (hA : dat.A 0 = V c (Pipeline.arrRef spec15 0))
    (hafter : ∀ t, dat.after 0 t = iblk15 V hO c 0 t) (t : Fin (cfgM15 V hO).N) (d) : dat.before 0 t d = iblk15 V hO c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of (hO : Ok15 V) {c : Dev nD} (dat : Dat τ (Elt F) Unit ℕ (UR sig nD τ) ℕ (cfgM15 V hO) c) (hA : dat.A 1 = V c (Pipeline.arrRef spec15 1))
    (hafter : ∀ t, dat.after 1 t = iblk15 V hO c 1 t) (t : Fin (cfgM15 V hO).N) (d) : dat.before 1 t d = iblk15 V hO c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
end

/-- The body's one rectangle: the whole 1×1×128 block. -/
abbrev r15_0 : Rect S1x1x128 := Rect.unit (s := S1x1x128) ![0, 0, 0] S1x1x128.size inb_S1x1x128_S1x1x128_0_0_0

/-- The output block after the body: the sum of the two gathered rows. -/
def out15_2 (x0 x1 : Vec F S1x1x128 .f32) : Vec F S1x1x128 .f32 :=
  View.canon [⟨r15_0, k15_pay1 (View.ld x0 r15_0) (View.ld x1 r15_0)⟩]

theorem cover15_2 (p0 : Vec F S1x1x128 .f32) (y : S1x1x128.Idx) :
    ∃ pc ∈ ([⟨r15_0, p0⟩] : List (View.Piece (Elt F) S1x1x128 .f32)), y ∈ pc.1.set :=
  View.cover_of_tiled [⟨r15_0, p0⟩] S1x1x128.size (by rfl) y

set_option maxHeartbeats 1000000 in
/-- The body on whole staging memrefs: the two inputs stay, the output ends at the sum; the tables are not touched. -/
theorem sound_kernel15 (c : Dev nD) (E : Set ℕ) (i : grid15.Coords)
    (a1 : Memref sig .tc .smem S32768 .i32) (ha1 : a1.IsWhole) (a2 : Memref sig .tc .smem S32768 .i32) (ha2 : a2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out15_2 x0 x1)) -∗ K ⟨⟩))
      ⊢ wp frame (wpE (defs₀ (F := F)) Variants.none c none) E (cc15__kernel_b i a1 ha1 a2 ha2 arg3 harg3 arg4 harg4 arg5 harg5) K := by
  simp only [cc15__kernel_b_eq_skeleton]; unfold cc15__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover15_2 _)

section
variable (V : (c : Dev nD) → (b : Ref sig .tc) → Buf (Elt F) ((c : Thread nD τ).loc b))

/-- Each window's current staging memref at point `t`, and its wholeness. -/
abbrev ms15_0 (hO : Ok15 V) (t : Fin (cfgM15 V hO).N) : Memref sig .tc .vmem S1x1x128 .f32 := spec15_0.stage ((cfgM15 V hO).slots t 0)
abbrev hs15_0 (hO : Ok15 V) (t : Fin (cfgM15 V hO).N) : (ms15_0 V hO t).IsWhole := hstage15_0 (((cfgM15 V hO).slots t 0).cast nbuf15_0)
abbrev ms15_1 (hO : Ok15 V) (t : Fin (cfgM15 V hO).N) : Memref sig .tc .vmem S1x1x128 .f32 := spec15_1.stage ((cfgM15 V hO).slots t 1)
abbrev hs15_1 (hO : Ok15 V) (t : Fin (cfgM15 V hO).N) : (ms15_1 V hO t).IsWhole := hstage15_1 (((cfgM15 V hO).slots t 1).cast nbuf15_1)
abbrev ms15_2 (hO : Ok15 V) (t : Fin (cfgM15 V hO).N) : Memref sig .tc .vmem S1x1x128 .f32 := spec15_2.stage ((cfgM15 V hO).slots t 2)
abbrev hs15_2 (hO : Ok15 V) (t : Fin (cfgM15 V hO).N) : (ms15_2 V hO t).IsWhole := hstage15_2 (((cfgM15 V hO).slots t 2).cast nbuf15_2)

/-- The kernel body as the pipeline calls it at point `t`: the point, the two tables whole, the three current staging memrefs. -/
abbrev bodyAt15 (a : (pcfg15 (F := F)).Adm) (t : Fin (cfg15 a).N) : Prog (TpuEff nD τ sig (Elt F) Λ₀ .tc) PUnit :=
  cc15__kernel_b (grid15.coords t) (Memref.whole main_v78) (Memref.isWhole_whole _) (Memref.whole main_v79) (Memref.isWhole_whole _)
    (spec15_0.stage ((cfg15 a).slots t 0)) (hstage15_0 (((cfg15 a).slots t 0).cast nbuf15_0))
    (spec15_1.stage ((cfg15 a).slots t 1)) (hstage15_1 (((cfg15 a).slots t 1).cast nbuf15_1))
    (spec15_2.stage ((cfg15 a).slots t 2)) (hstage15_2 (((cfg15 a).slots t 2).cast nbuf15_2))

/-- The region's proof data on core `c`: the arrays as the region finds them; after the body each input's buffer at its
    block and the output's at the sum of the two input blocks; the invariant carries the scoped rest, the generator register
    and the two tables, whole; the gathered array, read by both input windows, is held half and half; nothing owed. -/
def dat15 (hO : Ok15 V) (c : Dev nD) : Dat τ (Elt F) Unit ℕ (UR sig nD τ) ℕ (cfgM15 V hO) c where
  A w := V c (Pipeline.arrRef spec15 w)
  after w t := match w with
    | ⟨0, _⟩ => iblk15 V hO c 0 t
    | ⟨1, _⟩ => iblk15 V hO c 1 t
    | ⟨2, _⟩ => out15_2 (iblk15 V hO c 0 t) (iblk15 V hO c 1 t)
  Φ _ := iprop(Pipeline.ΦA spec15 c ∗ (Pipeline.prefHeld pre15 c (fun _ => fullShare) (tbl15 V) : sProp 𝕄))
  q w := match w with
    | ⟨0, _⟩ => fullShare.left
    | ⟨1, _⟩ => fullShare.right
    | ⟨2, _⟩ => fullShare
  owed _ := 0

theorem A_eq15 (hO : Ok15 V) (c : Dev nD) (w : Fin (cfgM15 V hO).W) : (dat15 V hO c).A w = V c (Pipeline.arrRef spec15 w) := by
  dsimp only [dat15]

theorem after15_0 (hO : Ok15 V) (c : Dev nD) (t : Fin (cfgM15 V hO).N) : (dat15 V hO c).after 0 t = iblk15 V hO c 0 t := by dsimp only [dat15]; try rfl
theorem after15_1 (hO : Ok15 V) (c : Dev nD) (t : Fin (cfgM15 V hO).N) : (dat15 V hO c).after 1 t = iblk15 V hO c 1 t := by dsimp only [dat15]; try rfl
theorem after15_2 (hO : Ok15 V) (c : Dev nD) (t : Fin (cfgM15 V hO).N) : (dat15 V hO c).after 2 t = out15_2 (iblk15 V hO c 0 t) (iblk15 V hO c 1 t) := by dsimp only [dat15]; try rfl

theorem before15_0 (hO : Ok15 V) (c : Dev nD) (t : Fin (cfgM15 V hO).N) (d) : (dat15 V hO c).before 0 t d = iblk15 V hO c 0 t :=
  before15_0_of V hO (dat15 V hO c) (A_eq15 V hO c 0) (after15_0 V hO c) t d
theorem before15_1 (hO : Ok15 V) (c : Dev nD) (t : Fin (cfgM15 V hO).N) (d) : (dat15 V hO c).before 1 t d = iblk15 V hO c 1 t :=
  before15_1_of V hO (dat15 V hO c) (A_eq15 V hO c 1) (after15_1 V hO c) t d

def bodyPre15 (hO : Ok15 V) (c : Dev nD) (t : Fin (cfgM15 V hO).N) : sProp 𝕄 :=
  iprop((dat15 V hO c).Φ t.castSucc ∗ (dat15 V hO c).owesAt () t.castSucc
    ∗ (∃ d, owns (c : Thread nD τ) (ms15_0 V hO t) fullShare ((dat15 V hO c).before 0 t d))
    ∗ (∃ d, owns (c : Thread nD τ) (ms15_1 V hO t) fullShare ((dat15 V hO c).before 1 t d))
    ∗ (∃ d, owns (c : Thread nD τ) (ms15_2 V hO t) fullShare ((dat15 V hO c).before 2 t d)))

def bodyPost15 (hO : Ok15 V) (c : Dev nD) (t : Fin (cfgM15 V hO).N) : sProp 𝕄 :=
  iprop((dat15 V hO c).Φ t.succ ∗ (dat15 V hO c).owesAt () t.succ
    ∗ owns (c : Thread nD τ) (ms15_0 V hO t) fullShare ((dat15 V hO c).after 0 t)
    ∗ owns (c : Thread nD τ) (ms15_1 V hO t) fullShare ((dat15 V hO c).after 1 t)
    ∗ owns (c : Thread nD τ) (ms15_2 V hO t) fullShare ((dat15 V hO c).after 2 t))

/-- The body at any point: the two input buffers hold their blocks, the body adds them into the output buffer; the
    invariant and the tallies pass through untouched. -/
theorem sound_body15 (hO : Ok15 V) (c : Dev nD) (t : Fin (cfgM15 V hO).N) :
    bodyPre15 V hO c t ⊢ wp frame (wpE (defs₀ (F := F)) Variants.none c none) Set.univ (bodyAt15 (adm15 V hO) t) (fun _ => bodyPost15 V hO c t) := by
  unfold bodyPre15 bodyPost15 bodyAt15
  simp only [before15_0, before15_1]
  rw [show (dat15 V hO c).Φ t.succ = (dat15 V hO c).Φ t.castSucc from rfl,
    show (dat15 V hO c).owesAt () t.succ = (dat15 V hO c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ _ _ _ _ _ (iblk15 V hO c 0 t) (iblk15 V hO c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation15 (hO : Ok15 V) (c : Dev nD) : BodyObligation (dat15 (F := F) V hO c) (defs₀ (F := F)) Variants.none () Set.univ := fun t => by
  rw [bigSep_W15, bigSep_W15]
  exact sound_body15 V hO c t
end

section
variable (V : (c : Dev nD) → (b : Ref sig .tc) → Buf (Elt F) ((c : Thread nD τ).loc b))

/-- The region's three arrays as points-to facts: the gathered array, read by both input windows, half and half; the output array whole. -/
theorem arrays15_eq (hO : Ok15 V) (c : Dev nD)
    (G : (w : Fin (cfgM15 V hO).W) → Buf (Elt F) (((cfgM15 V hO).win w).arr.view.loc (c : Thread nD τ))) :
    ((dat15 V hO c).arrays G : sProp 𝕄)
      = iprop((((c : Thread nD τ).loc main_v1) ↦{fullShare.left} G 0) ∗ (((c : Thread nD τ).loc main_v1) ↦{fullShare.right} G 1)
          ∗ (((c : Thread nD τ).loc main_v80) ↦{fullShare} G 2)) := by
  unfold Dat.arrays
  rw [bigSep_W15, (arr_whole15 0).set_eq_univ, (arr_whole15 2).set_eq_univ]
  rfl
end

/-- The two distinct buffers behind the region's three windows. -/
theorem arrImage15 : Finset.univ.image (Pipeline.arrRef spec15) = insert main_v1 {main_v80} := by decide

section
variable (W : Dev nD → Valuation τ sig (Elt F))

theorem arrBufs15_eq (c : Dev nD) (V : (b : Ref sig .tc) → Buf (Elt F) ((c : Thread nD τ).loc b)) :
    (Pipeline.arrBufs spec15 c V : sProp 𝕄)
      = iprop((((c : Thread nD τ).loc main_v1) ↦{fullShare} V main_v1) ∗ (((c : Thread nD τ).loc main_v80) ↦{fullShare} V main_v80)) := by
  unfold Pipeline.arrBufs
  rw [arrImage15, bigSep_insert (by decide), bigSep_singleton]
  rfl

/-- ENTRY: every unscoped buffer held at `W` gives the region its arrays (the gathered array split in two halves), its two
    tables whole, the tallies, the generator register and the rest of the unscoped buffers. -/
theorem entry15 (hO : Ok15 (VW W)) (c : Dev nD) :
    iprop(StableHlo.held (c : Thread nD τ) (Pipeline.ucRefs τ sig) (W c) ∗ Rr (F := F) c)
      ⊢ |={Set.univ}=> iprop((dat15 (VW W) hO c).arrays ((dat15 (VW W) hO c).arrAt · 0)
          ∗ Pipeline.prefHeld pre15 c (fun _ => fullShare) (tbl15 (VW W))
          ∗ (dat15 (VW W) hO c).owesAt () 0 ∗ (∃ r, prngReg c r)
          ∗ (Pipeline.unscopedRestP pre15 spec15 c (VW W c) : sProp 𝕄)) := by
  rw [← Pipeline.unscopedBufs_held (Ix := Unit) (Name := ℕ) (U := UR sig nD τ) (Lvl := ℕ) c (W c)]
  rw [Pipeline.unscopedBufs_split₀ (fun _ : Unit => cfgM15 (VW W) hO) () winFacts₀15.arr_unscoped c (VW W c)]
  rw [show (Pipeline.arrBufs (cfgM15 (VW W) hO).spec c (VW W c) : sProp 𝕄) = Pipeline.arrBufs spec15 c (VW W c) from rfl,
    arrBufs15_eq, arrays15_eq]
  rw [show (Pipeline.unscopedRest (cfgM15 (VW W) hO).spec c (VW W c) : sProp 𝕄) = Pipeline.unscopedRest spec15 c (VW W c) from rfl,
    Pipeline.unscopedRest_split preFacts15 c (VW W c)]
  rw [show (fun k => VW W c (pre15.ref k)) = tbl15 (VW W) from funext fun k => V_pre15 (VW W) c k]
  iintro ⟨⟨⟨H1, H2⟩, Hpf, Hrest⟩, Hp, HO⟩
  imodintro
  ihave H12 := (pointsTo_share (PosShare.mem_left_op_right fullShare)).1 $$ H1
  icases H12 with ⟨Hl, Hr⟩
  isplitl [Hl Hr H2]
  · isplitl [Hl]; · iexact Hl
    isplitl [Hr]; · iexact Hr
    iexact H2
  isplitl [Hpf]; · iexact Hpf
  isplitl [HO]
  · unfold Pipeline.Dat.owesAt Pipeline.owesWithin
    icases HO with ⟨%W', HO⟩; iexists W'; isplitr; · ipureintro; exact fun _ _ => Or.inl trivial
    iexact HO
  isplitl [Hp]; · iexact Hp
  iexact Hrest

/-- Off the output array the updated valuation is the old one. -/
theorem rest15_update (c : Dev nD) (X : Buf (Elt F) ((c : Thread nD τ).loc main_v80)) :
    (Pipeline.unscopedRest spec15 c (fun b => Function.update (W c) main_v80 X b) : sProp 𝕄) = Pipeline.unscopedRest spec15 c (VW W c) := by
  unfold Pipeline.unscopedRest
  exact bigSep_congr fun b hb => by
    have hne : b ≠ main_v80 := fun e => (Finset.mem_sdiff.mp hb).2 (Finset.mem_image.mpr ⟨2, Finset.mem_univ _, e.symm⟩)
    beta_reduce
    rw [Function.update_of_ne (StableHlo.devRef_ne_of_ne hne)]

/-- EXIT: the region's arrays at their final contents (the gathered array's two halves rejoined, unchanged), the tables, the
    tallies, the generator register and the rest make every unscoped buffer held at the valuation updated at the output array. -/
theorem exit15 (hO : Ok15 (VW W)) (c : Dev nD) (X : Buf (Elt F) ((c : Thread nD τ).loc main_v80))
    (hX : (dat15 (VW W) hO c).arrAt 2 (cfgM15 (VW W) hO).N = X) :
    iprop((dat15 (VW W) hO c).arrays ((dat15 (VW W) hO c).arrAt · (cfgM15 (VW W) hO).N)
        ∗ (dat15 (VW W) hO c).owesAt () (Fin.last (cfgM15 (VW W) hO).N)
        ∗ iprop((∃ r, prngReg c r) ∗ Pipeline.prefHeld pre15 c (fun _ => fullShare) (tbl15 (VW W)))
        ∗ (Pipeline.unscopedRestP pre15 spec15 c (VW W c) : sProp 𝕄))
      ⊢ |={Set.univ}=> iprop(StableHlo.held (c : Thread nD τ) (Pipeline.ucRefs τ sig) (Function.update (W c) main_v80 X) ∗ Rr (F := F) c) := by
  rw [← Pipeline.unscopedBufs_held (Ix := Unit) (Name := ℕ) (U := UR sig nD τ) (Lvl := ℕ) c (Function.update (W c) main_v80 X)]
  rw [Pipeline.unscopedBufs_split₀ (fun _ : Unit => cfgM15 (VW W) hO) () winFacts₀15.arr_unscoped c _]
  rw [show ∀ V', (Pipeline.arrBufs (cfgM15 (VW W) hO).spec c V' : sProp 𝕄) = Pipeline.arrBufs spec15 c V' from fun _ => rfl,
    show ∀ V', (Pipeline.unscopedRest (cfgM15 (VW W) hO).spec c V' : sProp 𝕄) = Pipeline.unscopedRest spec15 c V' from fun _ => rfl,
    rest15_update W c X, Pipeline.unscopedRest_split preFacts15 c (VW W c), arrBufs15_eq]
  rw [show (fun k => VW W c (pre15.ref k)) = tbl15 (VW W) from funext fun k => V_pre15 (VW W) c k]
  rw [Function.update_of_ne (StableHlo.devRef_ne_of_ne (by decide : (main_v1 : Ref sig .tc) ≠ main_v80)), Function.update_self]
  rw [arrays15_eq, hX,
    show (dat15 (VW W) hO c).arrAt 0 (cfgM15 (VW W) hO).N = W c main_v1 from (dat15 (VW W) hO c).arrAt_in 0 rfl _,
    show (dat15 (VW W) hO c).arrAt 1 (cfgM15 (VW W) hO).N = W c main_v1 from (dat15 (VW W) hO c).arrAt_in 1 rfl _]
  iintro ⟨⟨Hl, Hr, H2⟩, HO, ⟨Hp, Hpf⟩, Hrest⟩
  imodintro
  ihave H1 := (pointsTo_share (PosShare.mem_left_op_right fullShare)).2 $$ [Hl Hr]
  · isplitl [Hl]; · iexact Hl
    iexact Hr
  isplitl [H1 H2 Hpf Hrest]
  · isplitl [H1 H2]
    · isplitl [H1]; · iexact H1
      iexact H2
    isplitl [Hpf]; · iexact Hpf
    iexact Hrest
  isplitl [Hp]; · iexact Hp
  unfold Pipeline.Dat.owesAt Pipeline.owesWithin
  icases HO with ⟨%W', -, HO⟩; iexists W'; iexact HO
end

end Cert.KernelIdeal.GenP

end
-- ==== Proof.KernelIdeal.Run.lean ====
/- The frame of the seventeen-region program: the contents of the buffers between the items as one chain from the launch
   memory, every region's proof data at its entry contents, a segment record per region, and the run. -/
import proofs.«175043_j76819785056407_2_alg».proof.Proof.KernelIdeal.RunCond
import proofs.«175043_j76819785056407_2_alg».proof.Proof.KernelIdeal.R0
import proofs.«175043_j76819785056407_2_alg».proof.Proof.KernelIdeal.R16
import proofs.«175043_j76819785056407_2_alg».proof.Proof.KernelIdeal.RB1
import proofs.«175043_j76819785056407_2_alg».proof.Proof.KernelIdeal.RB2
import proofs.«175043_j76819785056407_2_alg».proof.Proof.KernelIdeal.RB3
import proofs.«175043_j76819785056407_2_alg».proof.Proof.KernelIdeal.RB4
import proofs.«175043_j76819785056407_2_alg».proof.Proof.KernelIdeal.RB5
import proofs.«175043_j76819785056407_2_alg».proof.Proof.KernelIdeal.RB6
import proofs.«175043_j76819785056407_2_alg».proof.Proof.KernelIdeal.RB7
import proofs.«175043_j76819785056407_2_alg».proof.Proof.KernelIdeal.RB8
import proofs.«175043_j76819785056407_2_alg».proof.Proof.KernelIdeal.RB9
import proofs.«175043_j76819785056407_2_alg».proof.Proof.KernelIdeal.RB10
import proofs.«175043_j76819785056407_2_alg».proof.Proof.KernelIdeal.RB11
import proofs.«175043_j76819785056407_2_alg».proof.Proof.KernelIdeal.RB12
import proofs.«175043_j76819785056407_2_alg».proof.Proof.KernelIdeal.RB13
import proofs.«175043_j76819785056407_2_alg».proof.Proof.KernelIdeal.RB14
import proofs.«175043_j76819785056407_2_alg».proof.Proof.KernelIdeal.RB15
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- At launch. -/
def W0 (c : Dev nD) : Valuation τ sig (Elt F) := fun b => m (c, b)
/-- After region 0: its two output arrays at what its write-backs leave. -/
def W1 (c : Dev nD) : Valuation τ sig (Elt F) :=
  Function.update (Function.update (W0 m c) main_v0_0 ((dat0 (VW (W0 m)) c).arrAt 1 cfg0.N)) main_v0_1 ((dat0 (VW (W0 m)) c).arrAt 2 cfg0.N)
/-- After the first host stretch. -/
def W2 (c : Dev nD) : Valuation τ sig (Elt F) := StableHlo.after hostOps1 (W1 m c)
open Classical in
/-- After region 1: its output array at what its write-backs leave (when its tables are admissible; else unchanged). -/
def W3 (c : Dev nD) : Valuation τ sig (Elt F) :=
  if h : Ok1 (VW (W2 m)) then Function.update (W2 m c) main_v24 ((dat1 (VW (W2 m)) h c).arrAt 2 (cfgM1 (VW (W2 m)) h).N) else W2 m c
def W4 (c : Dev nD) : Valuation τ sig (Elt F) := StableHlo.after hostOps2 (W3 m c)
open Classical in
/-- After region 2: its output array at what its write-backs leave (when its tables are admissible; else unchanged). -/
def W5 (c : Dev nD) : Valuation τ sig (Elt F) :=
  if h : Ok2 (VW (W4 m)) then Function.update (W4 m c) main_v28 ((dat2 (VW (W4 m)) h c).arrAt 2 (cfgM2 (VW (W4 m)) h).N) else W4 m c
def W6 (c : Dev nD) : Valuation τ sig (Elt F) := StableHlo.after hostOps3 (W5 m c)
open Classical in
/-- After region 3: its output array at what its write-backs leave (when its tables are admissible; else unchanged). -/
def W7 (c : Dev nD) : Valuation τ sig (Elt F) :=
  if h : Ok3 (VW (W6 m)) then Function.update (W6 m c) main_v32 ((dat3 (VW (W6 m)) h c).arrAt 2 (cfgM3 (VW (W6 m)) h).N) else W6 m c
def W8 (c : Dev nD) : Valuation τ sig (Elt F) := StableHlo.after hostOps4 (W7 m c)
open Classical in
/-- After region 4: its output array at what its write-backs leave (when its tables are admissible; else unchanged). -/
def W9 (c : Dev nD) : Valuation τ sig (Elt F) :=
  if h : Ok4 (VW (W8 m)) then Function.update (W8 m c) main_v36 ((dat4 (VW (W8 m)) h c).arrAt 2 (cfgM4 (VW (W8 m)) h).N) else W8 m c
def W10 (c : Dev nD) : Valuation τ sig (Elt F) := StableHlo.after hostOps5 (W9 m c)
open Classical in
/-- After region 5: its output array at what its write-backs leave (when its tables are admissible; else unchanged). -/
def W11 (c : Dev nD) : Valuation τ sig (Elt F) :=
  if h : Ok5 (VW (W10 m)) then Function.update (W10 m c) main_v40 ((dat5 (VW (W10 m)) h c).arrAt 2 (cfgM5 (VW (W10 m)) h).N) else W10 m c
def W12 (c : Dev nD) : Valuation τ sig (Elt F) := StableHlo.after hostOps6 (W11 m c)
open Classical in
/-- After region 6: its output array at what its write-backs leave (when its tables are admissible; else unchanged). -/
def W13 (c : Dev nD) : Valuation τ sig (Elt F) :=
  if h : Ok6 (VW (W12 m)) then Function.update (W12 m c) main_v44 ((dat6 (VW (W12 m)) h c).arrAt 2 (cfgM6 (VW (W12 m)) h).N) else W12 m c
def W14 (c : Dev nD) : Valuation τ sig (Elt F) := StableHlo.after hostOps7 (W13 m c)
open Classical in
/-- After region 7: its output array at what its write-backs leave (when its tables are admissible; else unchanged). -/
def W15 (c : Dev nD) : Valuation τ sig (Elt F) :=
  if h : Ok7 (VW (W14 m)) then Function.update (W14 m c) main_v48 ((dat7 (VW (W14 m)) h c).arrAt 2 (cfgM7 (VW (W14 m)) h).N) else W14 m c
def W16 (c : Dev nD) : Valuation τ sig (Elt F) := StableHlo.after hostOps8 (W15 m c)
open Classical in
/-- After region 8: its output array at what its write-backs leave (when its tables are admissible; else unchanged). -/
def W17 (c : Dev nD) : Valuation τ sig (Elt F) :=
  if h : Ok8 (VW (W16 m)) then Function.update (W16 m c) main_v52 ((dat8 (VW (W16 m)) h c).arrAt 2 (cfgM8 (VW (W16 m)) h).N) else W16 m c
def W18 (c : Dev nD) : Valuation τ sig (Elt F) := StableHlo.after hostOps9 (W17 m c)
open Classical in
/-- After region 9: its output array at what its write-backs leave (when its tables are admissible; else unchanged). -/
def W19 (c : Dev nD) : Valuation τ sig (Elt F) :=
  if h : Ok9 (VW (W18 m)) then Function.update (W18 m c) main_v56 ((dat9 (VW (W18 m)) h c).arrAt 2 (cfgM9 (VW (W18 m)) h).N) else W18 m c
def W20 (c : Dev nD) : Valuation τ sig (Elt F) := StableHlo.after hostOps10 (W19 m c)
open Classical in
/-- After region 10: its output array at what its write-backs leave (when its tables are admissible; else unchanged). -/
def W21 (c : Dev nD) : Valuation τ sig (Elt F) :=
  if h : Ok10 (VW (W20 m)) then Function.update (W20 m c) main_v60 ((dat10 (VW (W20 m)) h c).arrAt 2 (cfgM10 (VW (W20 m)) h).N) else W20 m c
def W22 (c : Dev nD) : Valuation τ sig (Elt F) := StableHlo.after hostOps11 (W21 m c)
open Classical in
/-- After region 11: its output array at what its write-backs leave (when its tables are admissible; else unchanged). -/
def W23 (c : Dev nD) : Valuation τ sig (Elt F) :=
  if h : Ok11 (VW (W22 m)) then Function.update (W22 m c) main_v64 ((dat11 (VW (W22 m)) h c).arrAt 2 (cfgM11 (VW (W22 m)) h).N) else W22 m c
def W24 (c : Dev nD) : Valuation τ sig (Elt F) := StableHlo.after hostOps12 (W23 m c)
open Classical in
/-- After region 12: its output array at what its write-backs leave (when its tables are admissible; else unchanged). -/
def W25 (c : Dev nD) : Valuation τ sig (Elt F) :=
  if h : Ok12 (VW (W24 m)) then Function.update (W24 m c) main_v68 ((dat12 (VW (W24 m)) h c).arrAt 2 (cfgM12 (VW (W24 m)) h).N) else W24 m c
def W26 (c : Dev nD) : Valuation τ sig (Elt F) := StableHlo.after hostOps13 (W25 m c)
open Classical in
/-- After region 13: its output array at what its write-backs leave (when its tables are admissible; else unchanged). -/
def W27 (c : Dev nD) : Valuation τ sig (Elt F) :=
  if h : Ok13 (VW (W26 m)) then Function.update (W26 m c) main_v72 ((dat13 (VW (W26 m)) h c).arrAt 2 (cfgM13 (VW (W26 m)) h).N) else W26 m c
def W28 (c : Dev nD) : Valuation τ sig (Elt F) := StableHlo.after hostOps14 (W27 m c)
open Classical in
/-- After region 14: its output array at what its write-backs leave (when its tables are admissible; else unchanged). -/
def W29 (c : Dev nD) : Valuation τ sig (Elt F) :=
  if h : Ok14 (VW (W28 m)) then Function.update (W28 m c) main_v76 ((dat14 (VW (W28 m)) h c).arrAt 2 (cfgM14 (VW (W28 m)) h).N) else W28 m c
def W30 (c : Dev nD) : Valuation τ sig (Elt F) := StableHlo.after hostOps15 (W29 m c)
open Classical in
/-- After region 15: its output array at what its write-backs leave (when its tables are admissible; else unchanged). -/
def W31 (c : Dev nD) : Valuation τ sig (Elt F) :=
  if h : Ok15 (VW (W30 m)) then Function.update (W30 m c) main_v80 ((dat15 (VW (W30 m)) h c).arrAt 2 (cfgM15 (VW (W30 m)) h).N) else W30 m c
def W32 (c : Dev nD) : Valuation τ sig (Elt F) := StableHlo.after hostOps16 (W31 m c)
/-- After region 16: its output array at what its write-backs leave. -/
def W33 (c : Dev nD) : Valuation τ sig (Elt F) := Function.update (W32 m c) main_v83 ((dat16 (VW (W32 m)) c).arrAt 1 cfg16.N)
def W34 (c : Dev nD) : Valuation τ sig (Elt F) := StableHlo.after hostOps17 (W33 m c)

/-- What each region leaves, as the family the conditional frame is stated over: the chain's contents after the region. -/
def outsF : Outs (F := F) := fun J r c => match J with
  | 1 => W1 m c r
  | 3 => W3 m c r
  | 5 => W5 m c r
  | 7 => W7 m c r
  | 9 => W9 m c r
  | 11 => W11 m c r
  | 13 => W13 m c r
  | 15 => W15 m c r
  | 17 => W17 m c r
  | 19 => W19 m c r
  | 21 => W21 m c r
  | 23 => W23 m c r
  | 25 => W25 m c r
  | 27 => W27 m c r
  | 29 => W29 m c r
  | 31 => W31 m c r
  | 33 => W33 m c r
  | _ => W0 m c r

theorem update_get_self {ι : Type} [DecidableEq ι] {β : ι → Type} (f : (i : ι) → β i) (a : ι) (X : β a) :
    Function.update f a (Function.update f a X a) = Function.update f a X := by rw [Function.update_self]

/-! ### The conditional frame's valuations are the chain -/

theorem V0_eq (c : Dev nD) : V0 m c = W0 m c := rfl
theorem V1_eq (c : Dev nD) : V1 m (outsF m) c = W1 m c := by
  show Function.update (Function.update (W0 m c) main_v0_0 (W1 m c main_v0_0)) main_v0_1 (W1 m c main_v0_1) = W1 m c
  unfold W1
  rw [Function.update_self, Function.update_of_ne (StableHlo.devRef_ne_of_ne (by decide : (main_v0_0 : Ref sig .tc) ≠ main_v0_1)), Function.update_self]
theorem V2_eq (c : Dev nD) : V2 m (outsF m) c = W2 m c := by
  show StableHlo.after hostOps1 (V1 m (outsF m) c) = _; rw [V1_eq]; rfl
theorem W3_pos (hO : Ok1 (VW (W2 m))) (c : Dev nD) :
    W3 m c = Function.update (W2 m c) main_v24 ((dat1 (VW (W2 m)) hO c).arrAt 2 (cfgM1 (VW (W2 m)) hO).N) := by
  unfold W3; rw [dif_pos hO]
theorem V3_eq (c : Dev nD) : V3 m (outsF m) c = W3 m c := by
  show Function.update (V2 m (outsF m) c) main_v24 (W3 m c main_v24) = W3 m c
  rw [V2_eq]
  unfold W3
  split
  · exact update_get_self _ _ _
  · exact Function.update_eq_self _ _
theorem V4_eq (c : Dev nD) : V4 m (outsF m) c = W4 m c := by
  show StableHlo.after hostOps2 (V3 m (outsF m) c) = _; rw [V3_eq]; rfl
theorem W5_pos (hO : Ok2 (VW (W4 m))) (c : Dev nD) :
    W5 m c = Function.update (W4 m c) main_v28 ((dat2 (VW (W4 m)) hO c).arrAt 2 (cfgM2 (VW (W4 m)) hO).N) := by
  unfold W5; rw [dif_pos hO]
theorem V5_eq (c : Dev nD) : V5 m (outsF m) c = W5 m c := by
  show Function.update (V4 m (outsF m) c) main_v28 (W5 m c main_v28) = W5 m c
  rw [V4_eq]
  unfold W5
  split
  · exact update_get_self _ _ _
  · exact Function.update_eq_self _ _
theorem V6_eq (c : Dev nD) : V6 m (outsF m) c = W6 m c := by
  show StableHlo.after hostOps3 (V5 m (outsF m) c) = _; rw [V5_eq]; rfl
theorem W7_pos (hO : Ok3 (VW (W6 m))) (c : Dev nD) :
    W7 m c = Function.update (W6 m c) main_v32 ((dat3 (VW (W6 m)) hO c).arrAt 2 (cfgM3 (VW (W6 m)) hO).N) := by
  unfold W7; rw [dif_pos hO]
theorem V7_eq (c : Dev nD) : V7 m (outsF m) c = W7 m c := by
  show Function.update (V6 m (outsF m) c) main_v32 (W7 m c main_v32) = W7 m c
  rw [V6_eq]
  unfold W7
  split
  · exact update_get_self _ _ _
  · exact Function.update_eq_self _ _
theorem V8_eq (c : Dev nD) : V8 m (outsF m) c = W8 m c := by
  show StableHlo.after hostOps4 (V7 m (outsF m) c) = _; rw [V7_eq]; rfl
theorem W9_pos (hO : Ok4 (VW (W8 m))) (c : Dev nD) :
    W9 m c = Function.update (W8 m c) main_v36 ((dat4 (VW (W8 m)) hO c).arrAt 2 (cfgM4 (VW (W8 m)) hO).N) := by
  unfold W9; rw [dif_pos hO]
theorem V9_eq (c : Dev nD) : V9 m (outsF m) c = W9 m c := by
  show Function.update (V8 m (outsF m) c) main_v36 (W9 m c main_v36) = W9 m c
  rw [V8_eq]
  unfold W9
  split
  · exact update_get_self _ _ _
  · exact Function.update_eq_self _ _
theorem V10_eq (c : Dev nD) : V10 m (outsF m) c = W10 m c := by
  show StableHlo.after hostOps5 (V9 m (outsF m) c) = _; rw [V9_eq]; rfl
theorem W11_pos (hO : Ok5 (VW (W10 m))) (c : Dev nD) :
    W11 m c = Function.update (W10 m c) main_v40 ((dat5 (VW (W10 m)) hO c).arrAt 2 (cfgM5 (VW (W10 m)) hO).N) := by
  unfold W11; rw [dif_pos hO]
theorem V11_eq (c : Dev nD) : V11 m (outsF m) c = W11 m c := by
  show Function.update (V10 m (outsF m) c) main_v40 (W11 m c main_v40) = W11 m c
  rw [V10_eq]
  unfold W11
  split
  · exact update_get_self _ _ _
  · exact Function.update_eq_self _ _
theorem V12_eq (c : Dev nD) : V12 m (outsF m) c = W12 m c := by
  show StableHlo.after hostOps6 (V11 m (outsF m) c) = _; rw [V11_eq]; rfl
theorem W13_pos (hO : Ok6 (VW (W12 m))) (c : Dev nD) :
    W13 m c = Function.update (W12 m c) main_v44 ((dat6 (VW (W12 m)) hO c).arrAt 2 (cfgM6 (VW (W12 m)) hO).N) := by
  unfold W13; rw [dif_pos hO]
theorem V13_eq (c : Dev nD) : V13 m (outsF m) c = W13 m c := by
  show Function.update (V12 m (outsF m) c) main_v44 (W13 m c main_v44) = W13 m c
  rw [V12_eq]
  unfold W13
  split
  · exact update_get_self _ _ _
  · exact Function.update_eq_self _ _
theorem V14_eq (c : Dev nD) : V14 m (outsF m) c = W14 m c := by
  show StableHlo.after hostOps7 (V13 m (outsF m) c) = _; rw [V13_eq]; rfl
theorem W15_pos (hO : Ok7 (VW (W14 m))) (c : Dev nD) :
    W15 m c = Function.update (W14 m c) main_v48 ((dat7 (VW (W14 m)) hO c).arrAt 2 (cfgM7 (VW (W14 m)) hO).N) := by
  unfold W15; rw [dif_pos hO]
theorem V15_eq (c : Dev nD) : V15 m (outsF m) c = W15 m c := by
  show Function.update (V14 m (outsF m) c) main_v48 (W15 m c main_v48) = W15 m c
  rw [V14_eq]
  unfold W15
  split
  · exact update_get_self _ _ _
  · exact Function.update_eq_self _ _
theorem V16_eq (c : Dev nD) : V16 m (outsF m) c = W16 m c := by
  show StableHlo.after hostOps8 (V15 m (outsF m) c) = _; rw [V15_eq]; rfl
theorem W17_pos (hO : Ok8 (VW (W16 m))) (c : Dev nD) :
    W17 m c = Function.update (W16 m c) main_v52 ((dat8 (VW (W16 m)) hO c).arrAt 2 (cfgM8 (VW (W16 m)) hO).N) := by
  unfold W17; rw [dif_pos hO]
theorem V17_eq (c : Dev nD) : V17 m (outsF m) c = W17 m c := by
  show Function.update (V16 m (outsF m) c) main_v52 (W17 m c main_v52) = W17 m c
  rw [V16_eq]
  unfold W17
  split
  · exact update_get_self _ _ _
  · exact Function.update_eq_self _ _
theorem V18_eq (c : Dev nD) : V18 m (outsF m) c = W18 m c := by
  show StableHlo.after hostOps9 (V17 m (outsF m) c) = _; rw [V17_eq]; rfl
theorem W19_pos (hO : Ok9 (VW (W18 m))) (c : Dev nD) :
    W19 m c = Function.update (W18 m c) main_v56 ((dat9 (VW (W18 m)) hO c).arrAt 2 (cfgM9 (VW (W18 m)) hO).N) := by
  unfold W19; rw [dif_pos hO]
theorem V19_eq (c : Dev nD) : V19 m (outsF m) c = W19 m c := by
  show Function.update (V18 m (outsF m) c) main_v56 (W19 m c main_v56) = W19 m c
  rw [V18_eq]
  unfold W19
  split
  · exact update_get_self _ _ _
  · exact Function.update_eq_self _ _
theorem V20_eq (c : Dev nD) : V20 m (outsF m) c = W20 m c := by
  show StableHlo.after hostOps10 (V19 m (outsF m) c) = _; rw [V19_eq]; rfl
theorem W21_pos (hO : Ok10 (VW (W20 m))) (c : Dev nD) :
    W21 m c = Function.update (W20 m c) main_v60 ((dat10 (VW (W20 m)) hO c).arrAt 2 (cfgM10 (VW (W20 m)) hO).N) := by
  unfold W21; rw [dif_pos hO]
theorem V21_eq (c : Dev nD) : V21 m (outsF m) c = W21 m c := by
  show Function.update (V20 m (outsF m) c) main_v60 (W21 m c main_v60) = W21 m c
  rw [V20_eq]
  unfold W21
  split
  · exact update_get_self _ _ _
  · exact Function.update_eq_self _ _
theorem V22_eq (c : Dev nD) : V22 m (outsF m) c = W22 m c := by
  show StableHlo.after hostOps11 (V21 m (outsF m) c) = _; rw [V21_eq]; rfl
theorem W23_pos (hO : Ok11 (VW (W22 m))) (c : Dev nD) :
    W23 m c = Function.update (W22 m c) main_v64 ((dat11 (VW (W22 m)) hO c).arrAt 2 (cfgM11 (VW (W22 m)) hO).N) := by
  unfold W23; rw [dif_pos hO]
theorem V23_eq (c : Dev nD) : V23 m (outsF m) c = W23 m c := by
  show Function.update (V22 m (outsF m) c) main_v64 (W23 m c main_v64) = W23 m c
  rw [V22_eq]
  unfold W23
  split
  · exact update_get_self _ _ _
  · exact Function.update_eq_self _ _
theorem V24_eq (c : Dev nD) : V24 m (outsF m) c = W24 m c := by
  show StableHlo.after hostOps12 (V23 m (outsF m) c) = _; rw [V23_eq]; rfl
theorem W25_pos (hO : Ok12 (VW (W24 m))) (c : Dev nD) :
    W25 m c = Function.update (W24 m c) main_v68 ((dat12 (VW (W24 m)) hO c).arrAt 2 (cfgM12 (VW (W24 m)) hO).N) := by
  unfold W25; rw [dif_pos hO]
theorem V25_eq (c : Dev nD) : V25 m (outsF m) c = W25 m c := by
  show Function.update (V24 m (outsF m) c) main_v68 (W25 m c main_v68) = W25 m c
  rw [V24_eq]
  unfold W25
  split
  · exact update_get_self _ _ _
  · exact Function.update_eq_self _ _
theorem V26_eq (c : Dev nD) : V26 m (outsF m) c = W26 m c := by
  show StableHlo.after hostOps13 (V25 m (outsF m) c) = _; rw [V25_eq]; rfl
theorem W27_pos (hO : Ok13 (VW (W26 m))) (c : Dev nD) :
    W27 m c = Function.update (W26 m c) main_v72 ((dat13 (VW (W26 m)) hO c).arrAt 2 (cfgM13 (VW (W26 m)) hO).N) := by
  unfold W27; rw [dif_pos hO]
theorem V27_eq (c : Dev nD) : V27 m (outsF m) c = W27 m c := by
  show Function.update (V26 m (outsF m) c) main_v72 (W27 m c main_v72) = W27 m c
  rw [V26_eq]
  unfold W27
  split
  · exact update_get_self _ _ _
  · exact Function.update_eq_self _ _
theorem V28_eq (c : Dev nD) : V28 m (outsF m) c = W28 m c := by
  show StableHlo.after hostOps14 (V27 m (outsF m) c) = _; rw [V27_eq]; rfl
theorem W29_pos (hO : Ok14 (VW (W28 m))) (c : Dev nD) :
    W29 m c = Function.update (W28 m c) main_v76 ((dat14 (VW (W28 m)) hO c).arrAt 2 (cfgM14 (VW (W28 m)) hO).N) := by
  unfold W29; rw [dif_pos hO]
theorem V29_eq (c : Dev nD) : V29 m (outsF m) c = W29 m c := by
  show Function.update (V28 m (outsF m) c) main_v76 (W29 m c main_v76) = W29 m c
  rw [V28_eq]
  unfold W29
  split
  · exact update_get_self _ _ _
  · exact Function.update_eq_self _ _
theorem V30_eq (c : Dev nD) : V30 m (outsF m) c = W30 m c := by
  show StableHlo.after hostOps15 (V29 m (outsF m) c) = _; rw [V29_eq]; rfl
theorem W31_pos (hO : Ok15 (VW (W30 m))) (c : Dev nD) :
    W31 m c = Function.update (W30 m c) main_v80 ((dat15 (VW (W30 m)) hO c).arrAt 2 (cfgM15 (VW (W30 m)) hO).N) := by
  unfold W31; rw [dif_pos hO]
theorem V31_eq (c : Dev nD) : V31 m (outsF m) c = W31 m c := by
  show Function.update (V30 m (outsF m) c) main_v80 (W31 m c main_v80) = W31 m c
  rw [V30_eq]
  unfold W31
  split
  · exact update_get_self _ _ _
  · exact Function.update_eq_self _ _
theorem V32_eq (c : Dev nD) : V32 m (outsF m) c = W32 m c := by
  show StableHlo.after hostOps16 (V31 m (outsF m) c) = _; rw [V31_eq]; rfl
theorem V33_eq (c : Dev nD) : V33 m (outsF m) c = W33 m c := by
  show Function.update (V32 m (outsF m) c) main_v83 (W33 m c main_v83) = W33 m c
  rw [V32_eq]; unfold W33; rw [Function.update_self]
theorem V34_eq (c : Dev nD) : V34 m (outsF m) c = W34 m c := by
  show StableHlo.after hostOps17 (V33 m (outsF m) c) = _; rw [V33_eq]; rfl

/-! ## The proof data family and the regions as segments -/

abbrev Lz : GSem nD τ sig → Finset Unit := fun _ => ∅
abbrev lvz : GSem nD τ sig → Unit → ℕ := fun _ _ => 0

section Regs
variable (hO1 : Ok1 (VW (W2 m))) (hO2 : Ok2 (VW (W4 m))) (hO3 : Ok3 (VW (W6 m))) (hO4 : Ok4 (VW (W8 m))) (hO5 : Ok5 (VW (W10 m))) (hO6 : Ok6 (VW (W12 m))) (hO7 : Ok7 (VW (W14 m))) (hO8 : Ok8 (VW (W16 m))) (hO9 : Ok9 (VW (W18 m))) (hO10 : Ok10 (VW (W20 m))) (hO11 : Ok11 (VW (W22 m))) (hO12 : Ok12 (VW (W24 m))) (hO13 : Ok13 (VW (W26 m))) (hO14 : Ok14 (VW (W28 m))) (hO15 : Ok15 (VW (W30 m)))

/-- The tables' admissible contents, region by region: each row-gather region's two tables as the chain has them at its entry. -/
def admF : (p : Fin 17) → (pcfgs (F := F) p).Adm
  | ⟨0, _⟩ => cfg0.toPCfg_adm
  | ⟨1, _⟩ => adm1 (VW (W2 m)) hO1
  | ⟨2, _⟩ => adm2 (VW (W4 m)) hO2
  | ⟨3, _⟩ => adm3 (VW (W6 m)) hO3
  | ⟨4, _⟩ => adm4 (VW (W8 m)) hO4
  | ⟨5, _⟩ => adm5 (VW (W10 m)) hO5
  | ⟨6, _⟩ => adm6 (VW (W12 m)) hO6
  | ⟨7, _⟩ => adm7 (VW (W14 m)) hO7
  | ⟨8, _⟩ => adm8 (VW (W16 m)) hO8
  | ⟨9, _⟩ => adm9 (VW (W18 m)) hO9
  | ⟨10, _⟩ => adm10 (VW (W20 m)) hO10
  | ⟨11, _⟩ => adm11 (VW (W22 m)) hO11
  | ⟨12, _⟩ => adm12 (VW (W24 m)) hO12
  | ⟨13, _⟩ => adm13 (VW (W26 m)) hO13
  | ⟨14, _⟩ => adm14 (VW (W28 m)) hO14
  | ⟨15, _⟩ => adm15 (VW (W30 m)) hO15
  | ⟨16, _⟩ => cfg16.toPCfg_adm
  | ⟨_ + 17, h⟩ => absurd h (Nat.not_lt.2 (Nat.le_add_left _ _))

/-- Every pipeline's proof data, each at its region's entry contents. -/
def pdats : (p : Fin 17) → (c : Dev nD) → Dat τ (Elt F) Unit ℕ (UR sig nD τ) ℕ (Pipeline.pin (pcfgs (F := F)) (admF m hO1 hO2 hO3 hO4 hO5 hO6 hO7 hO8 hO9 hO10 hO11 hO12 hO13 hO14 hO15) p) c
  | ⟨0, _⟩ => fun c => dat0 (VW (W0 m)) c
  | ⟨1, _⟩ => fun c => dat1 (VW (W2 m)) hO1 c
  | ⟨2, _⟩ => fun c => dat2 (VW (W4 m)) hO2 c
  | ⟨3, _⟩ => fun c => dat3 (VW (W6 m)) hO3 c
  | ⟨4, _⟩ => fun c => dat4 (VW (W8 m)) hO4 c
  | ⟨5, _⟩ => fun c => dat5 (VW (W10 m)) hO5 c
  | ⟨6, _⟩ => fun c => dat6 (VW (W12 m)) hO6 c
  | ⟨7, _⟩ => fun c => dat7 (VW (W14 m)) hO7 c
  | ⟨8, _⟩ => fun c => dat8 (VW (W16 m)) hO8 c
  | ⟨9, _⟩ => fun c => dat9 (VW (W18 m)) hO9 c
  | ⟨10, _⟩ => fun c => dat10 (VW (W20 m)) hO10 c
  | ⟨11, _⟩ => fun c => dat11 (VW (W22 m)) hO11 c
  | ⟨12, _⟩ => fun c => dat12 (VW (W24 m)) hO12 c
  | ⟨13, _⟩ => fun c => dat13 (VW (W26 m)) hO13 c
  | ⟨14, _⟩ => fun c => dat14 (VW (W28 m)) hO14 c
  | ⟨15, _⟩ => fun c => dat15 (VW (W30 m)) hO15 c
  | ⟨16, _⟩ => fun c => dat16 (VW (W32 m)) c
  | ⟨_ + 17, h⟩ => absurd h (Nat.not_lt.2 (Nat.le_add_left _ _))

/-! ### Region 0 -/

theorem hF0 (c : Dev nD) (w : Fin cfg0.W) : (dat0 (VW (W0 m)) c).arrAt w cfg0.N = VW (W1 m) c (Pipeline.arrRef spec0 w) :=
  match w with
  | 0 => by
    rw [(dat0 (VW (W0 m)) c).arrAt_in 0 rfl _]
    show W0 m c main_arg0 = W1 m c main_arg0
    unfold W1
    rw [Function.update_of_ne (StableHlo.devRef_ne_of_ne (by decide : (main_arg0 : Ref sig .tc) ≠ main_v0_1)),
      Function.update_of_ne (StableHlo.devRef_ne_of_ne (by decide : (main_arg0 : Ref sig .tc) ≠ main_v0_0))]
  | 1 => by
    show _ = W1 m c main_v0_0
    unfold W1
    rw [Function.update_of_ne (StableHlo.devRef_ne_of_ne (by decide : (main_v0_0 : Ref sig .tc) ≠ main_v0_1)), Function.update_self]
  | 2 => by
    show _ = W1 m c main_v0_1
    unfold W1
    rw [Function.update_self]
  | ⟨_ + 3, h⟩ => absurd h (Nat.not_lt.2 (Nat.le_add_left _ _))

theorem hrest0 (c : Dev nD) : ∀ b, b ∉ Finset.univ.image (Pipeline.arrRef spec0) → VW (W1 m) c b = VW (W0 m) c b := fun b hb => by
  have h1 : b ≠ main_v0_0 := fun e => hb (Finset.mem_image.mpr ⟨1, Finset.mem_univ _, e.symm⟩)
  have h2 : b ≠ main_v0_1 := fun e => hb (Finset.mem_image.mpr ⟨2, Finset.mem_univ _, e.symm⟩)
  show W1 m c b = W0 m c b
  unfold W1
  rw [Function.update_of_ne (StableHlo.devRef_ne_of_ne h2), Function.update_of_ne (StableHlo.devRef_ne_of_ne h1)]

set_option backward.isDefEq.respectTransparency.types false in
/-- Region 0 over the thread state: entered from every unscoped buffer at the launch contents, left at the contents updated at
    its two output arrays. -/
def reg0 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 0 where
  win := (launch0 (F := F)).win.to₀
  block_pos := (launch0 (F := F)).block_pos
  stage_whole := (launch0 (F := F)).stage_whole
  K := PEmpty
  osem k := k.elim
  ho := Pipeline.OwnSemFacts.none _
  hbody c := body_obligation0 (VW (W0 m)) c
  hwaits := Pipeline.hwaits_of_owed_zero _ _ _ _ Lz lvz 0 fun _ _ => rfl
  pre c := iprop(StableHlo.held (c : Thread nD τ) (Pipeline.ucRefs τ sig) (W0 m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest (Ix := Unit) (Name := ℕ) (U := UR sig nD τ) (Lvl := ℕ) spec0 c (VW (W0 m) c)
  hentry c := by
    rw [Pipeline.ownSems0_none]
    have hsplit := Pipeline.arrays_of_unscopedBufs (p := 0) (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) (launch0 (F := F)).win (launch0 (F := F)).arr_whole c
      ((pdats m hO1 hO2 hO3 hO4 hO5 hO6 hO7 hO8 hO9 hO10 hO11 hO12 hO13 hO14 hO15 0 c).share_full fun _ => rfl) (VW (W0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [show (pdats m hO1 hO2 hO3 hO4 hO5 hO6 hO7 hO8 hO9 hO10 hO11 hO12 hO13 hO14 hO15 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hO1 hO2 hO3 hO4 hO5 hO6 hO7 hO8 hO9 hO10 hO11 hO12 hO13 hO14 hO15 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (admF m hO1 hO2 hO3 hO4 hO5 hO6 hO7 hO8 hO9 hO10 hO11 hO12 hO13 hO14 hO15) (Ix := Unit) (Name := ℕ) (U := UR sig nD τ) (Lvl := ℕ)
      (launch0 (F := F)).win (launch0 (F := F)).arr_whole c (pdats m hO1 hO2 hO3 hO4 hO5 hO6 hO7 hO8 hO9 hO10 hO11 hO12 hO13 hO14 hO15) ((pdats m hO1 hO2 hO3 hO4 hO5 hO6 hO7 hO8 hO9 hO10 hO11 hO12 hO13 hO14 hO15 0 c).share_full fun _ => rfl)
      (VW (W0 m) c) (VW (W1 m) c) ((pdats m hO1 hO2 hO3 hO4 hO5 hO6 hO7 hO8 hO9 hO10 hO11 hO12 hO13 hO14 hO15 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W', -, HO⟩; iexists W'; iexact HO

set_option backward.isDefEq.respectTransparency.types false in
/-- Region 1 over the thread state: entered from every unscoped buffer at the chain's contents before it, left at the
    contents updated at its output array. -/
def reg1 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 1 where
  win := winFacts₀1
  block_pos := block_pos1
  stage_whole := stage_whole1
  K := PEmpty
  osem k := k.elim
  ho := Pipeline.OwnSemFacts.none _
  hbody c := (body_obligation1 (VW (W2 m)) hO1 c).loose
  hwaits := Pipeline.hwaits_of_owed_zero _ _ _ _ Lz lvz 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop((∃ r, prngReg c r) ∗ Pipeline.prefHeld pre1 c (fun _ => fullShare) (tbl1 (VW (W2 m))))
  Z c := Pipeline.unscopedRestP pre1 spec1 c (VW (W2 m) c)
  hentry c := by
    rw [Pipeline.ownSems0_none]
    iintro ⟨Hpre, -, -⟩
    iapply (entry1 (W2 m) hO1 c)
    iexact Hpre
  hin c := by
    rw [show (pdats m hO1 hO2 hO3 hO4 hO5 hO6 hO7 hO8 hO9 hO10 hO11 hO12 hO13 hO14 hO15 1 c).Φ 0 = iprop(Pipeline.ΦA spec1 c ∗ (Pipeline.prefHeld pre1 c (fun _ => fullShare) (tbl1 (VW (W2 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 1 c).Φ (Fin.last _) = iprop(Pipeline.ΦA spec1 c ∗ (Pipeline.prefHeld pre1 c (fun _ => fullShare) (tbl1 (VW (W2 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W3_pos m hO1 c]
    exact exit1 (W2 m) hO1 c _ rfl

set_option backward.isDefEq.respectTransparency.types false in
/-- Region 2 over the thread state: entered from every unscoped buffer at the chain's contents before it, left at the
    contents updated at its output array. -/
def reg2 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 2 where
  win := winFacts₀2
  block_pos := block_pos2
  stage_whole := stage_whole2
  K := PEmpty
  osem k := k.elim
  ho := Pipeline.OwnSemFacts.none _
  hbody c := (body_obligation2 (VW (W4 m)) hO2 c).loose
  hwaits := Pipeline.hwaits_of_owed_zero _ _ _ _ Lz lvz 2 fun _ _ => rfl
  pre c := iprop(StableHlo.held (c : Thread nD τ) (Pipeline.ucRefs τ sig) (W4 m c) ∗ Rr c)
  post c := iprop(StableHlo.held (c : Thread nD τ) (Pipeline.ucRefs τ sig) (W5 m c) ∗ Rr c)
  X c := iprop(∃ r, prngReg c r)
  Y c := iprop((∃ r, prngReg c r) ∗ Pipeline.prefHeld pre2 c (fun _ => fullShare) (tbl2 (VW (W4 m))))
  Z c := Pipeline.unscopedRestP pre2 spec2 c (VW (W4 m) c)
  hentry c := by
    rw [Pipeline.ownSems0_none]
    iintro ⟨Hpre, -, -⟩
    iapply (entry2 (W4 m) hO2 c)
    iexact Hpre
  hin c := by
    rw [show (pdats m hO1 hO2 hO3 hO4 hO5 hO6 hO7 hO8 hO9 hO10 hO11 hO12 hO13 hO14 hO15 2 c).Φ 0 = iprop(Pipeline.ΦA spec2 c ∗ (Pipeline.prefHeld pre2 c (fun _ => fullShare) (tbl2 (VW (W4 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 2 c).Φ (Fin.last _) = iprop(Pipeline.ΦA spec2 c ∗ (Pipeline.prefHeld pre2 c (fun _ => fullShare) (tbl2 (VW (W4 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W5_pos m hO2 c]
    exact exit2 (W4 m) hO2 c _ rfl

set_option backward.isDefEq.respectTransparency.types false in
/-- Region 3 over the thread state: entered from every unscoped buffer at the chain's contents before it, left at the
    contents updated at its output array. -/
def reg3 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 3 where
  win := winFacts₀3
  block_pos := block_pos3
  stage_whole := stage_whole3
  K := PEmpty
  osem k := k.elim
  ho := Pipeline.OwnSemFacts.none _
  hbody c := (body_obligation3 (VW (W6 m)) hO3 c).loose
  hwaits := Pipeline.hwaits_of_owed_zero _ _ _ _ Lz lvz 3 fun _ _ => rfl
  pre c := iprop(StableHlo.held (c : Thread nD τ) (Pipeline.ucRefs τ sig) (W6 m c) ∗ Rr c)
  post c := iprop(StableHlo.held (c : Thread nD τ) (Pipeline.ucRefs τ sig) (W7 m c) ∗ Rr c)
  X c := iprop(∃ r, prngReg c r)
  Y c := iprop((∃ r, prngReg c r) ∗ Pipeline.prefHeld pre3 c (fun _ => fullShare) (tbl3 (VW (W6 m))))
  Z c := Pipeline.unscopedRestP pre3 spec3 c (VW (W6 m) c)
  hentry c := by
    rw [Pipeline.ownSems0_none]
    iintro ⟨Hpre, -, -⟩
    iapply (entry3 (W6 m) hO3 c)
    iexact Hpre
  hin c := by
    rw [show (pdats m hO1 hO2 hO3 hO4 hO5 hO6 hO7 hO8 hO9 hO10 hO11 hO12 hO13 hO14 hO15 3 c).Φ 0 = iprop(Pipeline.ΦA spec3 c ∗ (Pipeline.prefHeld pre3 c (fun _ => fullShare) (tbl3 (VW (W6 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 3 c).Φ (Fin.last _) = iprop(Pipeline.ΦA spec3 c ∗ (Pipeline.prefHeld pre3 c (fun _ => fullShare) (tbl3 (VW (W6 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W7_pos m hO3 c]
    exact exit3 (W6 m) hO3 c _ rfl

set_option backward.isDefEq.respectTransparency.types false in
/-- Region 4 over the thread state: entered from every unscoped buffer at the chain's contents before it, left at the
    contents updated at its output array. -/
def reg4 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 4 where
  win := winFacts₀4
  block_pos := block_pos4
  stage_whole := stage_whole4
  K := PEmpty
  osem k := k.elim
  ho := Pipeline.OwnSemFacts.none _
  hbody c := (body_obligation4 (VW (W8 m)) hO4 c).loose
  hwaits := Pipeline.hwaits_of_owed_zero _ _ _ _ Lz lvz 4 fun _ _ => rfl
  pre c := iprop(StableHlo.held (c : Thread nD τ) (Pipeline.ucRefs τ sig) (W8 m c) ∗ Rr c)
  post c := iprop(StableHlo.held (c : Thread nD τ) (Pipeline.ucRefs τ sig) (W9 m c) ∗ Rr c)
  X c := iprop(∃ r, prngReg c r)
  Y c := iprop((∃ r, prngReg c r) ∗ Pipeline.prefHeld pre4 c (fun _ => fullShare) (tbl4 (VW (W8 m))))
  Z c := Pipeline.unscopedRestP pre4 spec4 c (VW (W8 m) c)
  hentry c := by
    rw [Pipeline.ownSems0_none]
    iintro ⟨Hpre, -, -⟩
    iapply (entry4 (W8 m) hO4 c)
    iexact Hpre
  hin c := by
    rw [show (pdats m hO1 hO2 hO3 hO4 hO5 hO6 hO7 hO8 hO9 hO10 hO11 hO12 hO13 hO14 hO15 4 c).Φ 0 = iprop(Pipeline.ΦA spec4 c ∗ (Pipeline.prefHeld pre4 c (fun _ => fullShare) (tbl4 (VW (W8 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 4 c).Φ (Fin.last _) = iprop(Pipeline.ΦA spec4 c ∗ (Pipeline.prefHeld pre4 c (fun _ => fullShare) (tbl4 (VW (W8 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W9_pos m hO4 c]
    exact exit4 (W8 m) hO4 c _ rfl

set_option backward.isDefEq.respectTransparency.types false in
/-- Region 5 over the thread state: entered from every unscoped buffer at the chain's contents before it, left at the
    contents updated at its output array. -/
def reg5 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 5 where
  win := winFacts₀5
  block_pos := block_pos5
  stage_whole := stage_whole5
  K := PEmpty
  osem k := k.elim
  ho := Pipeline.OwnSemFacts.none _
  hbody c := (body_obligation5 (VW (W10 m)) hO5 c).loose
  hwaits := Pipeline.hwaits_of_owed_zero _ _ _ _ Lz lvz 5 fun _ _ => rfl
  pre c := iprop(StableHlo.held (c : Thread nD τ) (Pipeline.ucRefs τ sig) (W10 m c) ∗ Rr c)
  post c := iprop(StableHlo.held (c : Thread nD τ) (Pipeline.ucRefs τ sig) (W11 m c) ∗ Rr c)
  X c := iprop(∃ r, prngReg c r)
  Y c := iprop((∃ r, prngReg c r) ∗ Pipeline.prefHeld pre5 c (fun _ => fullShare) (tbl5 (VW (W10 m))))
  Z c := Pipeline.unscopedRestP pre5 spec5 c (VW (W10 m) c)
  hentry c := by
    rw [Pipeline.ownSems0_none]
    iintro ⟨Hpre, -, -⟩
    iapply (entry5 (W10 m) hO5 c)
    iexact Hpre
  hin c := by
    rw [show (pdats m hO1 hO2 hO3 hO4 hO5 hO6 hO7 hO8 hO9 hO10 hO11 hO12 hO13 hO14 hO15 5 c).Φ 0 = iprop(Pipeline.ΦA spec5 c ∗ (Pipeline.prefHeld pre5 c (fun _ => fullShare) (tbl5 (VW (W10 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 5 c).Φ (Fin.last _) = iprop(Pipeline.ΦA spec5 c ∗ (Pipeline.prefHeld pre5 c (fun _ => fullShare) (tbl5 (VW (W10 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W11_pos m hO5 c]
    exact exit5 (W10 m) hO5 c _ rfl

set_option backward.isDefEq.respectTransparency.types false in
/-- Region 6 over the thread state: entered from every unscoped buffer at the chain's contents before it, left at the
    contents updated at its output array. -/
def reg6 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 6 where
  win := winFacts₀6
  block_pos := block_pos6
  stage_whole := stage_whole6
  K := PEmpty
  osem k := k.elim
  ho := Pipeline.OwnSemFacts.none _
  hbody c := (body_obligation6 (VW (W12 m)) hO6 c).loose
  hwaits := Pipeline.hwaits_of_owed_zero _ _ _ _ Lz lvz 6 fun _ _ => rfl
  pre c := iprop(StableHlo.held (c : Thread nD τ) (Pipeline.ucRefs τ sig) (W12 m c) ∗ Rr c)
  post c := iprop(StableHlo.held (c : Thread nD τ) (Pipeline.ucRefs τ sig) (W13 m c) ∗ Rr c)
  X c := iprop(∃ r, prngReg c r)
  Y c := iprop((∃ r, prngReg c r) ∗ Pipeline.prefHeld pre6 c (fun _ => fullShare) (tbl6 (VW (W12 m))))
  Z c := Pipeline.unscopedRestP pre6 spec6 c (VW (W12 m) c)
  hentry c := by
    rw [Pipeline.ownSems0_none]
    iintro ⟨Hpre, -, -⟩
    iapply (entry6 (W12 m) hO6 c)
    iexact Hpre
  hin c := by
    rw [show (pdats m hO1 hO2 hO3 hO4 hO5 hO6 hO7 hO8 hO9 hO10 hO11 hO12 hO13 hO14 hO15 6 c).Φ 0 = iprop(Pipeline.ΦA spec6 c ∗ (Pipeline.prefHeld pre6 c (fun _ => fullShare) (tbl6 (VW (W12 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 6 c).Φ (Fin.last _) = iprop(Pipeline.ΦA spec6 c ∗ (Pipeline.prefHeld pre6 c (fun _ => fullShare) (tbl6 (VW (W12 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W13_pos m hO6 c]
    exact exit6 (W12 m) hO6 c _ rfl

set_option backward.isDefEq.respectTransparency.types false in
/-- Region 7 over the thread state: entered from every unscoped buffer at the chain's contents before it, left at the
    contents updated at its output array. -/
def reg7 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 7 where
  win := winFacts₀7
  block_pos := block_pos7
  stage_whole := stage_whole7
  K := PEmpty
  osem k := k.elim
  ho := Pipeline.OwnSemFacts.none _
  hbody c := (body_obligation7 (VW (W14 m)) hO7 c).loose
  hwaits := Pipeline.hwaits_of_owed_zero _ _ _ _ Lz lvz 7 fun _ _ => rfl
  pre c := iprop(StableHlo.held (c : Thread nD τ) (Pipeline.ucRefs τ sig) (W14 m c) ∗ Rr c)
  post c := iprop(StableHlo.held (c : Thread nD τ) (Pipeline.ucRefs τ sig) (W15 m c) ∗ Rr c)
  X c := iprop(∃ r, prngReg c r)
  Y c := iprop((∃ r, prngReg c r) ∗ Pipeline.prefHeld pre7 c (fun _ => fullShare) (tbl7 (VW (W14 m))))
  Z c := Pipeline.unscopedRestP pre7 spec7 c (VW (W14 m) c)
  hentry c := by
    rw [Pipeline.ownSems0_none]
    iintro ⟨Hpre, -, -⟩
    iapply (entry7 (W14 m) hO7 c)
    iexact Hpre
  hin c := by
    rw [show (pdats m hO1 hO2 hO3 hO4 hO5 hO6 hO7 hO8 hO9 hO10 hO11 hO12 hO13 hO14 hO15 7 c).Φ 0 = iprop(Pipeline.ΦA spec7 c ∗ (Pipeline.prefHeld pre7 c (fun _ => fullShare) (tbl7 (VW (W14 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 7 c).Φ (Fin.last _) = iprop(Pipeline.ΦA spec7 c ∗ (Pipeline.prefHeld pre7 c (fun _ => fullShare) (tbl7 (VW (W14 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W15_pos m hO7 c]
    exact exit7 (W14 m) hO7 c _ rfl

set_option backward.isDefEq.respectTransparency.types false in
/-- Region 8 over the thread state: entered from every unscoped buffer at the chain's contents before it, left at the
    contents updated at its output array. -/
def reg8 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 8 where
  win := winFacts₀8
  block_pos := block_pos8
  stage_whole := stage_whole8
  K := PEmpty
  osem k := k.elim
  ho := Pipeline.OwnSemFacts.none _
  hbody c := (body_obligation8 (VW (W16 m)) hO8 c).loose
  hwaits := Pipeline.hwaits_of_owed_zero _ _ _ _ Lz lvz 8 fun _ _ => rfl
  pre c := iprop(StableHlo.held (c : Thread nD τ) (Pipeline.ucRefs τ sig) (W16 m c) ∗ Rr c)
  post c := iprop(StableHlo.held (c : Thread nD τ) (Pipeline.ucRefs τ sig) (W17 m c) ∗ Rr c)
  X c := iprop(∃ r, prngReg c r)
  Y c := iprop((∃ r, prngReg c r) ∗ Pipeline.prefHeld pre8 c (fun _ => fullShare) (tbl8 (VW (W16 m))))
  Z c := Pipeline.unscopedRestP pre8 spec8 c (VW (W16 m) c)
  hentry c := by
    rw [Pipeline.ownSems0_none]
    iintro ⟨Hpre, -, -⟩
    iapply (entry8 (W16 m) hO8 c)
    iexact Hpre
  hin c := by
    rw [show (pdats m hO1 hO2 hO3 hO4 hO5 hO6 hO7 hO8 hO9 hO10 hO11 hO12 hO13 hO14 hO15 8 c).Φ 0 = iprop(Pipeline.ΦA spec8 c ∗ (Pipeline.prefHeld pre8 c (fun _ => fullShare) (tbl8 (VW (W16 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 8 c).Φ (Fin.last _) = iprop(Pipeline.ΦA spec8 c ∗ (Pipeline.prefHeld pre8 c (fun _ => fullShare) (tbl8 (VW (W16 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W17_pos m hO8 c]
    exact exit8 (W16 m) hO8 c _ rfl

set_option backward.isDefEq.respectTransparency.types false in
/-- Region 9 over the thread state: entered from every unscoped buffer at the chain's contents before it, left at the
    contents updated at its output array. -/
def reg9 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 9 where
  win := winFacts₀9
  block_pos := block_pos9
  stage_whole := stage_whole9
  K := PEmpty
  osem k := k.elim
  ho := Pipeline.OwnSemFacts.none _
  hbody c := (body_obligation9 (VW (W18 m)) hO9 c).loose
  hwaits := Pipeline.hwaits_of_owed_zero _ _ _ _ Lz lvz 9 fun _ _ => rfl
  pre c := iprop(StableHlo.held (c : Thread nD τ) (Pipeline.ucRefs τ sig) (W18 m c) ∗ Rr c)
  post c := iprop(StableHlo.held (c : Thread nD τ) (Pipeline.ucRefs τ sig) (W19 m c) ∗ Rr c)
  X c := iprop(∃ r, prngReg c r)
  Y c := iprop((∃ r, prngReg c r) ∗ Pipeline.prefHeld pre9 c (fun _ => fullShare) (tbl9 (VW (W18 m))))
  Z c := Pipeline.unscopedRestP pre9 spec9 c (VW (W18 m) c)
  hentry c := by
    rw [Pipeline.ownSems0_none]
    iintro ⟨Hpre, -, -⟩
    iapply (entry9 (W18 m) hO9 c)
    iexact Hpre
  hin c := by
    rw [show (pdats m hO1 hO2 hO3 hO4 hO5 hO6 hO7 hO8 hO9 hO10 hO11 hO12 hO13 hO14 hO15 9 c).Φ 0 = iprop(Pipeline.ΦA spec9 c ∗ (Pipeline.prefHeld pre9 c (fun _ => fullShare) (tbl9 (VW (W18 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 9 c).Φ (Fin.last _) = iprop(Pipeline.ΦA spec9 c ∗ (Pipeline.prefHeld pre9 c (fun _ => fullShare) (tbl9 (VW (W18 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W19_pos m hO9 c]
    exact exit9 (W18 m) hO9 c _ rfl

set_option backward.isDefEq.respectTransparency.types false in
/-- Region 10 over the thread state: entered from every unscoped buffer at the chain's contents before it, left at the
    contents updated at its output array. -/
def reg10 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 10 where
  win := winFacts₀10
  block_pos := block_pos10
  stage_whole := stage_whole10
  K := PEmpty
  osem k := k.elim
  ho := Pipeline.OwnSemFacts.none _
  hbody c := (body_obligation10 (VW (W20 m)) hO10 c).loose
  hwaits := Pipeline.hwaits_of_owed_zero _ _ _ _ Lz lvz 10 fun _ _ => rfl
  pre c := iprop(StableHlo.held (c : Thread nD τ) (Pipeline.ucRefs τ sig) (W20 m c) ∗ Rr c)
  post c := iprop(StableHlo.held (c : Thread nD τ) (Pipeline.ucRefs τ sig) (W21 m c) ∗ Rr c)
  X c := iprop(∃ r, prngReg c r)
  Y c := iprop((∃ r, prngReg c r) ∗ Pipeline.prefHeld pre10 c (fun _ => fullShare) (tbl10 (VW (W20 m))))
  Z c := Pipeline.unscopedRestP pre10 spec10 c (VW (W20 m) c)
  hentry c := by
    rw [Pipeline.ownSems0_none]
    iintro ⟨Hpre, -, -⟩
    iapply (entry10 (W20 m) hO10 c)
    iexact Hpre
  hin c := by
    rw [show (pdats m hO1 hO2 hO3 hO4 hO5 hO6 hO7 hO8 hO9 hO10 hO11 hO12 hO13 hO14 hO15 10 c).Φ 0 = iprop(Pipeline.ΦA spec10 c ∗ (Pipeline.prefHeld pre10 c (fun _ => fullShare) (tbl10 (VW (W20 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 10 c).Φ (Fin.last _) = iprop(Pipeline.ΦA spec10 c ∗ (Pipeline.prefHeld pre10 c (fun _ => fullShare) (tbl10 (VW (W20 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W21_pos m hO10 c]
    exact exit10 (W20 m) hO10 c _ rfl

set_option backward.isDefEq.respectTransparency.types false in
/-- Region 11 over the thread state: entered from every unscoped buffer at the chain's contents before it, left at the
    contents updated at its output array. -/
def reg11 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 11 where
  win := winFacts₀11
  block_pos := block_pos11
  stage_whole := stage_whole11
  K := PEmpty
  osem k := k.elim
  ho := Pipeline.OwnSemFacts.none _
  hbody c := (body_obligation11 (VW (W22 m)) hO11 c).loose
  hwaits := Pipeline.hwaits_of_owed_zero _ _ _ _ Lz lvz 11 fun _ _ => rfl
  pre c := iprop(StableHlo.held (c : Thread nD τ) (Pipeline.ucRefs τ sig) (W22 m c) ∗ Rr c)
  post c := iprop(StableHlo.held (c : Thread nD τ) (Pipeline.ucRefs τ sig) (W23 m c) ∗ Rr c)
  X c := iprop(∃ r, prngReg c r)
  Y c := iprop((∃ r, prngReg c r) ∗ Pipeline.prefHeld pre11 c (fun _ => fullShare) (tbl11 (VW (W22 m))))
  Z c := Pipeline.unscopedRestP pre11 spec11 c (VW (W22 m) c)
  hentry c := by
    rw [Pipeline.ownSems0_none]
    iintro ⟨Hpre, -, -⟩
    iapply (entry11 (W22 m) hO11 c)
    iexact Hpre
  hin c := by
    rw [show (pdats m hO1 hO2 hO3 hO4 hO5 hO6 hO7 hO8 hO9 hO10 hO11 hO12 hO13 hO14 hO15 11 c).Φ 0 = iprop(Pipeline.ΦA spec11 c ∗ (Pipeline.prefHeld pre11 c (fun _ => fullShare) (tbl11 (VW (W22 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 11 c).Φ (Fin.last _) = iprop(Pipeline.ΦA spec11 c ∗ (Pipeline.prefHeld pre11 c (fun _ => fullShare) (tbl11 (VW (W22 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W23_pos m hO11 c]
    exact exit11 (W22 m) hO11 c _ rfl

set_option backward.isDefEq.respectTransparency.types false in
/-- Region 12 over the thread state: entered from every unscoped buffer at the chain's contents before it, left at the
    contents updated at its output array. -/
def reg12 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 12 where
  win := winFacts₀12
  block_pos := block_pos12
  stage_whole := stage_whole12
  K := PEmpty
  osem k := k.elim
  ho := Pipeline.OwnSemFacts.none _
  hbody c := (body_obligation12 (VW (W24 m)) hO12 c).loose
  hwaits := Pipeline.hwaits_of_owed_zero _ _ _ _ Lz lvz 12 fun _ _ => rfl
  pre c := iprop(StableHlo.held (c : Thread nD τ) (Pipeline.ucRefs τ sig) (W24 m c) ∗ Rr c)
  post c := iprop(StableHlo.held (c : Thread nD τ) (Pipeline.ucRefs τ sig) (W25 m c) ∗ Rr c)
  X c := iprop(∃ r, prngReg c r)
  Y c := iprop((∃ r, prngReg c r) ∗ Pipeline.prefHeld pre12 c (fun _ => fullShare) (tbl12 (VW (W24 m))))
  Z c := Pipeline.unscopedRestP pre12 spec12 c (VW (W24 m) c)
  hentry c := by
    rw [Pipeline.ownSems0_none]
    iintro ⟨Hpre, -, -⟩
    iapply (entry12 (W24 m) hO12 c)
    iexact Hpre
  hin c := by
    rw [show (pdats m hO1 hO2 hO3 hO4 hO5 hO6 hO7 hO8 hO9 hO10 hO11 hO12 hO13 hO14 hO15 12 c).Φ 0 = iprop(Pipeline.ΦA spec12 c ∗ (Pipeline.prefHeld pre12 c (fun _ => fullShare) (tbl12 (VW (W24 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 12 c).Φ (Fin.last _) = iprop(Pipeline.ΦA spec12 c ∗ (Pipeline.prefHeld pre12 c (fun _ => fullShare) (tbl12 (VW (W24 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W25_pos m hO12 c]
    exact exit12 (W24 m) hO12 c _ rfl

set_option backward.isDefEq.respectTransparency.types false in
/-- Region 13 over the thread state: entered from every unscoped buffer at the chain's contents before it, left at the
    contents updated at its output array. -/
def reg13 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 13 where
  win := winFacts₀13
  block_pos := block_pos13
  stage_whole := stage_whole13
  K := PEmpty
  osem k := k.elim
  ho := Pipeline.OwnSemFacts.none _
  hbody c := (body_obligation13 (VW (W26 m)) hO13 c).loose
  hwaits := Pipeline.hwaits_of_owed_zero _ _ _ _ Lz lvz 13 fun _ _ => rfl
  pre c := iprop(StableHlo.held (c : Thread nD τ) (Pipeline.ucRefs τ sig) (W26 m c) ∗ Rr c)
  post c := iprop(StableHlo.held (c : Thread nD τ) (Pipeline.ucRefs τ sig) (W27 m c) ∗ Rr c)
  X c := iprop(∃ r, prngReg c r)
  Y c := iprop((∃ r, prngReg c r) ∗ Pipeline.prefHeld pre13 c (fun _ => fullShare) (tbl13 (VW (W26 m))))
  Z c := Pipeline.unscopedRestP pre13 spec13 c (VW (W26 m) c)
  hentry c := by
    rw [Pipeline.ownSems0_none]
    iintro ⟨Hpre, -, -⟩
    iapply (entry13 (W26 m) hO13 c)
    iexact Hpre
  hin c := by
    rw [show (pdats m hO1 hO2 hO3 hO4 hO5 hO6 hO7 hO8 hO9 hO10 hO11 hO12 hO13 hO14 hO15 13 c).Φ 0 = iprop(Pipeline.ΦA spec13 c ∗ (Pipeline.prefHeld pre13 c (fun _ => fullShare) (tbl13 (VW (W26 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 13 c).Φ (Fin.last _) = iprop(Pipeline.ΦA spec13 c ∗ (Pipeline.prefHeld pre13 c (fun _ => fullShare) (tbl13 (VW (W26 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W27_pos m hO13 c]
    exact exit13 (W26 m) hO13 c _ rfl

set_option backward.isDefEq.respectTransparency.types false in
/-- Region 14 over the thread state: entered from every unscoped buffer at the chain's contents before it, left at the
    contents updated at its output array. -/
def reg14 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 14 where
  win := winFacts₀14
  block_pos := block_pos14
  stage_whole := stage_whole14
  K := PEmpty
  osem k := k.elim
  ho := Pipeline.OwnSemFacts.none _
  hbody c := (body_obligation14 (VW (W28 m)) hO14 c).loose
  hwaits := Pipeline.hwaits_of_owed_zero _ _ _ _ Lz lvz 14 fun _ _ => rfl
  pre c := iprop(StableHlo.held (c : Thread nD τ) (Pipeline.ucRefs τ sig) (W28 m c) ∗ Rr c)
  post c := iprop(StableHlo.held (c : Thread nD τ) (Pipeline.ucRefs τ sig) (W29 m c) ∗ Rr c)
  X c := iprop(∃ r, prngReg c r)
  Y c := iprop((∃ r, prngReg c r) ∗ Pipeline.prefHeld pre14 c (fun _ => fullShare) (tbl14 (VW (W28 m))))
  Z c := Pipeline.unscopedRestP pre14 spec14 c (VW (W28 m) c)
  hentry c := by
    rw [Pipeline.ownSems0_none]
    iintro ⟨Hpre, -, -⟩
    iapply (entry14 (W28 m) hO14 c)
    iexact Hpre
  hin c := by
    rw [show (pdats m hO1 hO2 hO3 hO4 hO5 hO6 hO7 hO8 hO9 hO10 hO11 hO12 hO13 hO14 hO15 14 c).Φ 0 = iprop(Pipeline.ΦA spec14 c ∗ (Pipeline.prefHeld pre14 c (fun _ => fullShare) (tbl14 (VW (W28 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 14 c).Φ (Fin.last _) = iprop(Pipeline.ΦA spec14 c ∗ (Pipeline.prefHeld pre14 c (fun _ => fullShare) (tbl14 (VW (W28 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W29_pos m hO14 c]
    exact exit14 (W28 m) hO14 c _ rfl

set_option backward.isDefEq.respectTransparency.types false in
/-- Region 15 over the thread state: entered from every unscoped buffer at the chain's contents before it, left at the
    contents updated at its output array. -/
def reg15 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 15 where
  win := winFacts₀15
  block_pos := block_pos15
  stage_whole := stage_whole15
  K := PEmpty
  osem k := k.elim
  ho := Pipeline.OwnSemFacts.none _
  hbody c := (body_obligation15 (VW (W30 m)) hO15 c).loose
  hwaits := Pipeline.hwaits_of_owed_zero _ _ _ _ Lz lvz 15 fun _ _ => rfl
  pre c := iprop(StableHlo.held (c : Thread nD τ) (Pipeline.ucRefs τ sig) (W30 m c) ∗ Rr c)
  post c := iprop(StableHlo.held (c : Thread nD τ) (Pipeline.ucRefs τ sig) (W31 m c) ∗ Rr c)
  X c := iprop(∃ r, prngReg c r)
  Y c := iprop((∃ r, prngReg c r) ∗ Pipeline.prefHeld pre15 c (fun _ => fullShare) (tbl15 (VW (W30 m))))
  Z c := Pipeline.unscopedRestP pre15 spec15 c (VW (W30 m) c)
  hentry c := by
    rw [Pipeline.ownSems0_none]
    iintro ⟨Hpre, -, -⟩
    iapply (entry15 (W30 m) hO15 c)
    iexact Hpre
  hin c := by
    rw [show (pdats m hO1 hO2 hO3 hO4 hO5 hO6 hO7 hO8 hO9 hO10 hO11 hO12 hO13 hO14 hO15 15 c).Φ 0 = iprop(Pipeline.ΦA spec15 c ∗ (Pipeline.prefHeld pre15 c (fun _ => fullShare) (tbl15 (VW (W30 m))) : sProp 𝕄)) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m hO1 hO2 hO3 hO4 hO5 hO6 hO7 hO8 hO9 hO10 hO11 hO12 hO13 hO14 hO15 15 c).Φ (Fin.last _) = iprop(Pipeline.ΦA spec15 c ∗ (Pipeline.prefHeld pre15 c (fun _ => fullShare) (tbl15 (VW (W30 m))) : sProp 𝕄)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [W31_pos m hO15 c]
    exact exit15 (W30 m) hO15 c _ rfl

/-! ### Region 16 -/

theorem hF16 (c : Dev nD) (w : Fin cfg16.W) : (dat16 (VW (W32 m)) c).arrAt w cfg16.N = VW (W33 m) c (Pipeline.arrRef spec16 w) :=
  match w with
  | 0 => by
    rw [(dat16 (VW (W32 m)) c).arrAt_in 0 rfl _]
    show W32 m c main_v82 = W33 m c main_v82
    unfold W33
    rw [Function.update_of_ne (StableHlo.devRef_ne_of_ne (by decide : (main_v82 : Ref sig .tc) ≠ main_v83))]
  | 1 => by
    show _ = W33 m c main_v83
    unfold W33
    rw [Function.update_self]
  | ⟨_ + 2, h⟩ => absurd h (Nat.not_lt.2 (Nat.le_add_left _ _))

theorem hrest16 (c : Dev nD) : ∀ b, b ∉ Finset.univ.image (Pipeline.arrRef spec16) → VW (W33 m) c b = VW (W32 m) c b := fun b hb => by
  have h1 : b ≠ main_v83 := fun e => hb (Finset.mem_image.mpr ⟨1, Finset.mem_univ _, e.symm⟩)
  show W33 m c b = W32 m c b
  unfold W33
  rw [Function.update_of_ne (StableHlo.devRef_ne_of_ne h1)]

set_option backward.isDefEq.respectTransparency.types false in
/-- Region 16 over the thread state. -/
def reg16 : Pipeline.RegionSeg (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) () defs₀ Variants.none Lz lvz 16 where
  win := (launch16 (F := F)).win.to₀
  block_pos := (launch16 (F := F)).block_pos
  stage_whole := (launch16 (F := F)).stage_whole
  K := PEmpty
  osem k := k.elim
  ho := Pipeline.OwnSemFacts.none _
  hbody c := (body_obligation16 (VW (W32 m)) c).loose
  hwaits := Pipeline.hwaits_of_owed_zero _ _ _ _ Lz lvz 16 fun _ _ => rfl
  pre c := iprop(StableHlo.held (c : Thread nD τ) (Pipeline.ucRefs τ sig) (W32 m c) ∗ Rr c)
  post c := iprop(StableHlo.held (c : Thread nD τ) (Pipeline.ucRefs τ sig) (W33 m c) ∗ Rr c)
  X c := iprop(∃ r, prngReg c r)
  Y c := iprop(∃ r, prngReg c r)
  Z c := Pipeline.unscopedRest (Ix := Unit) (Name := ℕ) (U := UR sig nD τ) (Lvl := ℕ) spec16 c (VW (W32 m) c)
  hentry c := by
    rw [Pipeline.ownSems0_none]
    have hsplit := Pipeline.arrays_of_unscopedBufs (p := 16) (pcfgs (F := F)) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15) (launch16 (F := F)).win (launch16 (F := F)).arr_whole c
      ((pdats m hO1 hO2 hO3 hO4 hO5 hO6 hO7 hO8 hO9 hO10 hO11 hO12 hO13 hO14 hO15 16 c).share_full fun _ => rfl) (VW (W32 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [show (pdats m hO1 hO2 hO3 hO4 hO5 hO6 hO7 hO8 hO9 hO10 hO11 hO12 hO13 hO14 hO15 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m hO1 hO2 hO3 hO4 hO5 hO6 hO7 hO8 hO9 hO10 hO11 hO12 hO13 hO14 hO15 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) (admF m hO1 hO2 hO3 hO4 hO5 hO6 hO7 hO8 hO9 hO10 hO11 hO12 hO13 hO14 hO15) (Ix := Unit) (Name := ℕ) (U := UR sig nD τ) (Lvl := ℕ)
      (launch16 (F := F)).win (launch16 (F := F)).arr_whole c (pdats m hO1 hO2 hO3 hO4 hO5 hO6 hO7 hO8 hO9 hO10 hO11 hO12 hO13 hO14 hO15) ((pdats m hO1 hO2 hO3 hO4 hO5 hO6 hO7 hO8 hO9 hO10 hO11 hO12 hO13 hO14 hO15 16 c).share_full fun _ => rfl)
      (VW (W32 m) c) (VW (W33 m) c) ((pdats m hO1 hO2 hO3 hO4 hO5 hO6 hO7 hO8 hO9 hO10 hO11 hO12 hO13 hO14 hO15 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W', -, HO⟩; iexists W'; iexact HO

/-! ## The run -/

include hO1 hO2 hO3 hO4 hO5 hO6 hO7 hO8 hO9 hO10 hO11 hO12 hO13 hO14 hO15 in
/-- The launch's ghost state: the staging cells' rounds of every pipeline at its admissible tables. -/
def u0F : UR sig nD τ :=
  initOf (Pipeline.cells (Pipeline.pin (pcfgs (F := F)) (admF m hO1 hO2 hO3 hO4 hO5 hO6 hO7 hO8 hO9 hO10 hO11 hO12 hO13 hO14 hO15)) (cellOf_inj (admF m hO1 hO2 hO3 hO4 hO5 hO6 hO7 hO8 hO9 hO10 hO11 hO12 hO13 hO14 hO15)))
    (Pipeline.launchToks (Pipeline.pin (pcfgs (F := F)) (admF m hO1 hO2 hO3 hO4 hO5 hO6 hO7 hO8 hO9 hO10 hO11 hO12 hO13 hO14 hO15)) (cellOf_inj (admF m hO1 hO2 hO3 hO4 hO5 hO6 hO7 hO8 hO9 hO10 hO11 hO12 hO13 hO14 hO15)))

include hO1 hO2 hO3 hO4 hO5 hO6 hO7 hO8 hO9 hO10 hO11 hO12 hO13 hO14 hO15 in
set_option backward.isDefEq.respectTransparency.types false in
/-- THE RUN: under the fifteen admissibility facts, every weakly fair execution of @main from memory `m` with zero counters
    terminates without a fault; the final memory holds the result buffer at the chain's last contents and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v84) = W34 m c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have h := run_cond m (emb₁ : Emb (UR sig nD τ) 𝕄) () Variants.none Lz lvz (fun _ _ => rfl) ρ (outsF m) (admF m hO1 hO2 hO3 hO4 hO5 hO6 hO7 hO8 hO9 hO10 hO11 hO12 hO13 hO14 hO15) (pdats m hO1 hO2 hO3 hO4 hO5 hO6 hO7 hO8 hO9 hO10 hO11 hO12 hO13 hO14 hO15)
    (fun _ => 0) (fun _ => iprop(emp)) (u0F m hO1 hO2 hO3 hO4 hO5 hO6 hO7 hO8 hO9 hO10 hO11 hO12 hO13 hO14 hO15)
    (by
      iintro Hu; imodintro
      isplitl [Hu]
      · iapply (show (ownU (u0F m hO1 hO2 hO3 hO4 hO5 hO6 hO7 hO8 hO9 hO10 hO11 hO12 hO13 hO14 hO15) : sProp 𝕄) ⊢ BI.own (emb₁ (u0F m hO1 hO2 hO3 hO4 hO5 hO6 hO7 hO8 hO9 hO10 hO11 hO12 hO13 hO14 hO15)) from .rfl)
        iexact Hu
      iapply (show (BI.emp : sProp 𝕄) ⊢ bigSep Finset.univ (fun _ : Dev nD => (BI.emp : sProp 𝕄)) from by rw [BI.bigSep_emp_const])
      iempintro)
    (fun _ c => Rr c)
    (Pipeline.initEach Lz lvz fun c => by
      iintro ⟨⟨-, HO, -, Hp, -⟩, -⟩
      imodintro
      isplitl [Hp]; · iexists _; iexact Hp
      iexists ∅; iexact HO)
    (fun c => by iintro ⟨-, HO⟩; iexact HO)
    (reg0 m hO1 hO2 hO3 hO4 hO5 hO6 hO7 hO8 hO9 hO10 hO11 hO12 hO13 hO14 hO15) (fun c => by rw [V0_eq]; exact .rfl) (fun c => by rw [V1_eq]; exact .rfl)
    (reg1 m hO1 hO2 hO3 hO4 hO5 hO6 hO7 hO8 hO9 hO10 hO11 hO12 hO13 hO14 hO15) (fun c => by rw [V2_eq]; exact .rfl) (fun c => by rw [V3_eq]; exact .rfl)
    (reg2 m hO1 hO2 hO3 hO4 hO5 hO6 hO7 hO8 hO9 hO10 hO11 hO12 hO13 hO14 hO15) (fun c => by rw [V4_eq]; exact .rfl) (fun c => by rw [V5_eq]; exact .rfl)
    (reg3 m hO1 hO2 hO3 hO4 hO5 hO6 hO7 hO8 hO9 hO10 hO11 hO12 hO13 hO14 hO15) (fun c => by rw [V6_eq]; exact .rfl) (fun c => by rw [V7_eq]; exact .rfl)
    (reg4 m hO1 hO2 hO3 hO4 hO5 hO6 hO7 hO8 hO9 hO10 hO11 hO12 hO13 hO14 hO15) (fun c => by rw [V8_eq]; exact .rfl) (fun c => by rw [V9_eq]; exact .rfl)
    (reg5 m hO1 hO2 hO3 hO4 hO5 hO6 hO7 hO8 hO9 hO10 hO11 hO12 hO13 hO14 hO15) (fun c => by rw [V10_eq]; exact .rfl) (fun c => by rw [V11_eq]; exact .rfl)
    (reg6 m hO1 hO2 hO3 hO4 hO5 hO6 hO7 hO8 hO9 hO10 hO11 hO12 hO13 hO14 hO15) (fun c => by rw [V12_eq]; exact .rfl) (fun c => by rw [V13_eq]; exact .rfl)
    (reg7 m hO1 hO2 hO3 hO4 hO5 hO6 hO7 hO8 hO9 hO10 hO11 hO12 hO13 hO14 hO15) (fun c => by rw [V14_eq]; exact .rfl) (fun c => by rw [V15_eq]; exact .rfl)
    (reg8 m hO1 hO2 hO3 hO4 hO5 hO6 hO7 hO8 hO9 hO10 hO11 hO12 hO13 hO14 hO15) (fun c => by rw [V16_eq]; exact .rfl) (fun c => by rw [V17_eq]; exact .rfl)
    (reg9 m hO1 hO2 hO3 hO4 hO5 hO6 hO7 hO8 hO9 hO10 hO11 hO12 hO13 hO14 hO15) (fun c => by rw [V18_eq]; exact .rfl) (fun c => by rw [V19_eq]; exact .rfl)
    (reg10 m hO1 hO2 hO3 hO4 hO5 hO6 hO7 hO8 hO9 hO10 hO11 hO12 hO13 hO14 hO15) (fun c => by rw [V20_eq]; exact .rfl) (fun c => by rw [V21_eq]; exact .rfl)
    (reg11 m hO1 hO2 hO3 hO4 hO5 hO6 hO7 hO8 hO9 hO10 hO11 hO12 hO13 hO14 hO15) (fun c => by rw [V22_eq]; exact .rfl) (fun c => by rw [V23_eq]; exact .rfl)
    (reg12 m hO1 hO2 hO3 hO4 hO5 hO6 hO7 hO8 hO9 hO10 hO11 hO12 hO13 hO14 hO15) (fun c => by rw [V24_eq]; exact .rfl) (fun c => by rw [V25_eq]; exact .rfl)
    (reg13 m hO1 hO2 hO3 hO4 hO5 hO6 hO7 hO8 hO9 hO10 hO11 hO12 hO13 hO14 hO15) (fun c => by rw [V26_eq]; exact .rfl) (fun c => by rw [V27_eq]; exact .rfl)
    (reg14 m hO1 hO2 hO3 hO4 hO5 hO6 hO7 hO8 hO9 hO10 hO11 hO12 hO13 hO14 hO15) (fun c => by rw [V28_eq]; exact .rfl) (fun c => by rw [V29_eq]; exact .rfl)
    (reg15 m hO1 hO2 hO3 hO4 hO5 hO6 hO7 hO8 hO9 hO10 hO11 hO12 hO13 hO14 hO15) (fun c => by rw [V30_eq]; exact .rfl) (fun c => by rw [V31_eq]; exact .rfl)
    (reg16 m hO1 hO2 hO3 hO4 hO5 hO6 hO7 hO8 hO9 hO10 hO11 hO12 hO13 hO14 hO15) (fun c => by rw [V32_eq]; exact .rfl) (fun c => by rw [V33_eq]; exact .rfl)
  refine (θ_run defs _ _).mono (fun r hr c => ?_) h
  have h2 := hr c
  rw [V34_eq] at h2
  exact h2

end Regs

end Cert.KernelIdeal.GenP

end
-- ==== Proof.KernelIdeal.Keep.lean ====
/- Buffers that no later item writes keep their contents along the chain of valuations. -/
import proofs.«175043_j76819785056407_2_alg».proof.Proof.KernelIdeal.Run

set_option maxRecDepth 65536

noncomputable section

namespace Cert.KernelIdeal.GenP

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem keep_v0_0 (c : Dev nD) : W33 m c main_v0_0 = W1 m c main_v0_0 :=
  (show W33 m c main_v0_0 = W32 m c main_v0_0 from by rw [← V33_eq, ← V32_eq]; exact V33_of m (outsF m) c main_v0_0 (by decide)).trans
    ((show W32 m c main_v0_0 = W31 m c main_v0_0 from by rw [← V32_eq, ← V31_eq]; exact V32_of m (outsF m) c main_v0_0 (by decide)).trans
    ((show W31 m c main_v0_0 = W30 m c main_v0_0 from by rw [← V31_eq, ← V30_eq]; exact V31_of m (outsF m) c main_v0_0 (by decide)).trans
    ((show W30 m c main_v0_0 = W29 m c main_v0_0 from by rw [← V30_eq, ← V29_eq]; exact V30_of m (outsF m) c main_v0_0 (by decide)).trans
    ((show W29 m c main_v0_0 = W28 m c main_v0_0 from by rw [← V29_eq, ← V28_eq]; exact V29_of m (outsF m) c main_v0_0 (by decide)).trans
    ((show W28 m c main_v0_0 = W27 m c main_v0_0 from by rw [← V28_eq, ← V27_eq]; exact V28_of m (outsF m) c main_v0_0 (by decide)).trans
    ((show W27 m c main_v0_0 = W26 m c main_v0_0 from by rw [← V27_eq, ← V26_eq]; exact V27_of m (outsF m) c main_v0_0 (by decide)).trans
    ((show W26 m c main_v0_0 = W25 m c main_v0_0 from by rw [← V26_eq, ← V25_eq]; exact V26_of m (outsF m) c main_v0_0 (by decide)).trans
    ((show W25 m c main_v0_0 = W24 m c main_v0_0 from by rw [← V25_eq, ← V24_eq]; exact V25_of m (outsF m) c main_v0_0 (by decide)).trans
    ((show W24 m c main_v0_0 = W23 m c main_v0_0 from by rw [← V24_eq, ← V23_eq]; exact V24_of m (outsF m) c main_v0_0 (by decide)).trans
    ((show W23 m c main_v0_0 = W22 m c main_v0_0 from by rw [← V23_eq, ← V22_eq]; exact V23_of m (outsF m) c main_v0_0 (by decide)).trans
    ((show W22 m c main_v0_0 = W21 m c main_v0_0 from by rw [← V22_eq, ← V21_eq]; exact V22_of m (outsF m) c main_v0_0 (by decide)).trans
    ((show W21 m c main_v0_0 = W20 m c main_v0_0 from by rw [← V21_eq, ← V20_eq]; exact V21_of m (outsF m) c main_v0_0 (by decide)).trans
    ((show W20 m c main_v0_0 = W19 m c main_v0_0 from by rw [← V20_eq, ← V19_eq]; exact V20_of m (outsF m) c main_v0_0 (by decide)).trans
    ((show W19 m c main_v0_0 = W18 m c main_v0_0 from by rw [← V19_eq, ← V18_eq]; exact V19_of m (outsF m) c main_v0_0 (by decide)).trans
    ((show W18 m c main_v0_0 = W17 m c main_v0_0 from by rw [← V18_eq, ← V17_eq]; exact V18_of m (outsF m) c main_v0_0 (by decide)).trans
    ((show W17 m c main_v0_0 = W16 m c main_v0_0 from by rw [← V17_eq, ← V16_eq]; exact V17_of m (outsF m) c main_v0_0 (by decide)).trans
    ((show W16 m c main_v0_0 = W15 m c main_v0_0 from by rw [← V16_eq, ← V15_eq]; exact V16_of m (outsF m) c main_v0_0 (by decide)).trans
    ((show W15 m c main_v0_0 = W14 m c main_v0_0 from by rw [← V15_eq, ← V14_eq]; exact V15_of m (outsF m) c main_v0_0 (by decide)).trans
    ((show W14 m c main_v0_0 = W13 m c main_v0_0 from by rw [← V14_eq, ← V13_eq]; exact V14_of m (outsF m) c main_v0_0 (by decide)).trans
    ((show W13 m c main_v0_0 = W12 m c main_v0_0 from by rw [← V13_eq, ← V12_eq]; exact V13_of m (outsF m) c main_v0_0 (by decide)).trans
    ((show W12 m c main_v0_0 = W11 m c main_v0_0 from by rw [← V12_eq, ← V11_eq]; exact V12_of m (outsF m) c main_v0_0 (by decide)).trans
    ((show W11 m c main_v0_0 = W10 m c main_v0_0 from by rw [← V11_eq, ← V10_eq]; exact V11_of m (outsF m) c main_v0_0 (by decide)).trans
    ((show W10 m c main_v0_0 = W9 m c main_v0_0 from by rw [← V10_eq, ← V9_eq]; exact V10_of m (outsF m) c main_v0_0 (by decide)).trans
    ((show W9 m c main_v0_0 = W8 m c main_v0_0 from by rw [← V9_eq, ← V8_eq]; exact V9_of m (outsF m) c main_v0_0 (by decide)).trans
    ((show W8 m c main_v0_0 = W7 m c main_v0_0 from by rw [← V8_eq, ← V7_eq]; exact V8_of m (outsF m) c main_v0_0 (by decide)).trans
    ((show W7 m c main_v0_0 = W6 m c main_v0_0 from by rw [← V7_eq, ← V6_eq]; exact V7_of m (outsF m) c main_v0_0 (by decide)).trans
    ((show W6 m c main_v0_0 = W5 m c main_v0_0 from by rw [← V6_eq, ← V5_eq]; exact V6_of m (outsF m) c main_v0_0 (by decide)).trans
    ((show W5 m c main_v0_0 = W4 m c main_v0_0 from by rw [← V5_eq, ← V4_eq]; exact V5_of m (outsF m) c main_v0_0 (by decide)).trans
    ((show W4 m c main_v0_0 = W3 m c main_v0_0 from by rw [← V4_eq, ← V3_eq]; exact V4_of m (outsF m) c main_v0_0 (by decide)).trans
    ((show W3 m c main_v0_0 = W2 m c main_v0_0 from by rw [← V3_eq, ← V2_eq]; exact V3_of m (outsF m) c main_v0_0 (by decide)).trans
    ((show W2 m c main_v0_0 = W1 m c main_v0_0 from by rw [← V2_eq, ← V1_eq]; exact V2_of m (outsF m) c main_v0_0 (by decide)))))))))))))))))))))))))))))))))

theorem keep_r_1 (c : Dev nD) : W31 m c main_v25 = W4 m c main_v25 :=
  (show W31 m c main_v25 = W30 m c main_v25 from by rw [← V31_eq, ← V30_eq]; exact V31_of m (outsF m) c main_v25 (by decide)).trans
    ((show W30 m c main_v25 = W29 m c main_v25 from by rw [← V30_eq, ← V29_eq]; exact V30_of m (outsF m) c main_v25 (by decide)).trans
    ((show W29 m c main_v25 = W28 m c main_v25 from by rw [← V29_eq, ← V28_eq]; exact V29_of m (outsF m) c main_v25 (by decide)).trans
    ((show W28 m c main_v25 = W27 m c main_v25 from by rw [← V28_eq, ← V27_eq]; exact V28_of m (outsF m) c main_v25 (by decide)).trans
    ((show W27 m c main_v25 = W26 m c main_v25 from by rw [← V27_eq, ← V26_eq]; exact V27_of m (outsF m) c main_v25 (by decide)).trans
    ((show W26 m c main_v25 = W25 m c main_v25 from by rw [← V26_eq, ← V25_eq]; exact V26_of m (outsF m) c main_v25 (by decide)).trans
    ((show W25 m c main_v25 = W24 m c main_v25 from by rw [← V25_eq, ← V24_eq]; exact V25_of m (outsF m) c main_v25 (by decide)).trans
    ((show W24 m c main_v25 = W23 m c main_v25 from by rw [← V24_eq, ← V23_eq]; exact V24_of m (outsF m) c main_v25 (by decide)).trans
    ((show W23 m c main_v25 = W22 m c main_v25 from by rw [← V23_eq, ← V22_eq]; exact V23_of m (outsF m) c main_v25 (by decide)).trans
    ((show W22 m c main_v25 = W21 m c main_v25 from by rw [← V22_eq, ← V21_eq]; exact V22_of m (outsF m) c main_v25 (by decide)).trans
    ((show W21 m c main_v25 = W20 m c main_v25 from by rw [← V21_eq, ← V20_eq]; exact V21_of m (outsF m) c main_v25 (by decide)).trans
    ((show W20 m c main_v25 = W19 m c main_v25 from by rw [← V20_eq, ← V19_eq]; exact V20_of m (outsF m) c main_v25 (by decide)).trans
    ((show W19 m c main_v25 = W18 m c main_v25 from by rw [← V19_eq, ← V18_eq]; exact V19_of m (outsF m) c main_v25 (by decide)).trans
    ((show W18 m c main_v25 = W17 m c main_v25 from by rw [← V18_eq, ← V17_eq]; exact V18_of m (outsF m) c main_v25 (by decide)).trans
    ((show W17 m c main_v25 = W16 m c main_v25 from by rw [← V17_eq, ← V16_eq]; exact V17_of m (outsF m) c main_v25 (by decide)).trans
    ((show W16 m c main_v25 = W15 m c main_v25 from by rw [← V16_eq, ← V15_eq]; exact V16_of m (outsF m) c main_v25 (by decide)).trans
    ((show W15 m c main_v25 = W14 m c main_v25 from by rw [← V15_eq, ← V14_eq]; exact V15_of m (outsF m) c main_v25 (by decide)).trans
    ((show W14 m c main_v25 = W13 m c main_v25 from by rw [← V14_eq, ← V13_eq]; exact V14_of m (outsF m) c main_v25 (by decide)).trans
    ((show W13 m c main_v25 = W12 m c main_v25 from by rw [← V13_eq, ← V12_eq]; exact V13_of m (outsF m) c main_v25 (by decide)).trans
    ((show W12 m c main_v25 = W11 m c main_v25 from by rw [← V12_eq, ← V11_eq]; exact V12_of m (outsF m) c main_v25 (by decide)).trans
    ((show W11 m c main_v25 = W10 m c main_v25 from by rw [← V11_eq, ← V10_eq]; exact V11_of m (outsF m) c main_v25 (by decide)).trans
    ((show W10 m c main_v25 = W9 m c main_v25 from by rw [← V10_eq, ← V9_eq]; exact V10_of m (outsF m) c main_v25 (by decide)).trans
    ((show W9 m c main_v25 = W8 m c main_v25 from by rw [← V9_eq, ← V8_eq]; exact V9_of m (outsF m) c main_v25 (by decide)).trans
    ((show W8 m c main_v25 = W7 m c main_v25 from by rw [← V8_eq, ← V7_eq]; exact V8_of m (outsF m) c main_v25 (by decide)).trans
    ((show W7 m c main_v25 = W6 m c main_v25 from by rw [← V7_eq, ← V6_eq]; exact V7_of m (outsF m) c main_v25 (by decide)).trans
    ((show W6 m c main_v25 = W5 m c main_v25 from by rw [← V6_eq, ← V5_eq]; exact V6_of m (outsF m) c main_v25 (by decide)).trans
    ((show W5 m c main_v25 = W4 m c main_v25 from by rw [← V5_eq, ← V4_eq]; exact V5_of m (outsF m) c main_v25 (by decide))))))))))))))))))))))))))))

theorem keep_v1_2 (c : Dev nD) : W4 m c main_v1 = W2 m c main_v1 :=
  (show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))

theorem keep_v14_2 (c : Dev nD) : W3 m c main_v14 = W2 m c main_v14 :=
  (show W3 m c main_v14 = W2 m c main_v14 from by rw [← V3_eq, ← V2_eq]; exact V3_of m (outsF m) c main_v14 (by decide))

theorem keep_v21_2 (c : Dev nD) : W3 m c main_v21 = W2 m c main_v21 :=
  (show W3 m c main_v21 = W2 m c main_v21 from by rw [← V3_eq, ← V2_eq]; exact V3_of m (outsF m) c main_v21 (by decide))

theorem keep_r_2 (c : Dev nD) : W31 m c main_v29 = W6 m c main_v29 :=
  (show W31 m c main_v29 = W30 m c main_v29 from by rw [← V31_eq, ← V30_eq]; exact V31_of m (outsF m) c main_v29 (by decide)).trans
    ((show W30 m c main_v29 = W29 m c main_v29 from by rw [← V30_eq, ← V29_eq]; exact V30_of m (outsF m) c main_v29 (by decide)).trans
    ((show W29 m c main_v29 = W28 m c main_v29 from by rw [← V29_eq, ← V28_eq]; exact V29_of m (outsF m) c main_v29 (by decide)).trans
    ((show W28 m c main_v29 = W27 m c main_v29 from by rw [← V28_eq, ← V27_eq]; exact V28_of m (outsF m) c main_v29 (by decide)).trans
    ((show W27 m c main_v29 = W26 m c main_v29 from by rw [← V27_eq, ← V26_eq]; exact V27_of m (outsF m) c main_v29 (by decide)).trans
    ((show W26 m c main_v29 = W25 m c main_v29 from by rw [← V26_eq, ← V25_eq]; exact V26_of m (outsF m) c main_v29 (by decide)).trans
    ((show W25 m c main_v29 = W24 m c main_v29 from by rw [← V25_eq, ← V24_eq]; exact V25_of m (outsF m) c main_v29 (by decide)).trans
    ((show W24 m c main_v29 = W23 m c main_v29 from by rw [← V24_eq, ← V23_eq]; exact V24_of m (outsF m) c main_v29 (by decide)).trans
    ((show W23 m c main_v29 = W22 m c main_v29 from by rw [← V23_eq, ← V22_eq]; exact V23_of m (outsF m) c main_v29 (by decide)).trans
    ((show W22 m c main_v29 = W21 m c main_v29 from by rw [← V22_eq, ← V21_eq]; exact V22_of m (outsF m) c main_v29 (by decide)).trans
    ((show W21 m c main_v29 = W20 m c main_v29 from by rw [← V21_eq, ← V20_eq]; exact V21_of m (outsF m) c main_v29 (by decide)).trans
    ((show W20 m c main_v29 = W19 m c main_v29 from by rw [← V20_eq, ← V19_eq]; exact V20_of m (outsF m) c main_v29 (by decide)).trans
    ((show W19 m c main_v29 = W18 m c main_v29 from by rw [← V19_eq, ← V18_eq]; exact V19_of m (outsF m) c main_v29 (by decide)).trans
    ((show W18 m c main_v29 = W17 m c main_v29 from by rw [← V18_eq, ← V17_eq]; exact V18_of m (outsF m) c main_v29 (by decide)).trans
    ((show W17 m c main_v29 = W16 m c main_v29 from by rw [← V17_eq, ← V16_eq]; exact V17_of m (outsF m) c main_v29 (by decide)).trans
    ((show W16 m c main_v29 = W15 m c main_v29 from by rw [← V16_eq, ← V15_eq]; exact V16_of m (outsF m) c main_v29 (by decide)).trans
    ((show W15 m c main_v29 = W14 m c main_v29 from by rw [← V15_eq, ← V14_eq]; exact V15_of m (outsF m) c main_v29 (by decide)).trans
    ((show W14 m c main_v29 = W13 m c main_v29 from by rw [← V14_eq, ← V13_eq]; exact V14_of m (outsF m) c main_v29 (by decide)).trans
    ((show W13 m c main_v29 = W12 m c main_v29 from by rw [← V13_eq, ← V12_eq]; exact V13_of m (outsF m) c main_v29 (by decide)).trans
    ((show W12 m c main_v29 = W11 m c main_v29 from by rw [← V12_eq, ← V11_eq]; exact V12_of m (outsF m) c main_v29 (by decide)).trans
    ((show W11 m c main_v29 = W10 m c main_v29 from by rw [← V11_eq, ← V10_eq]; exact V11_of m (outsF m) c main_v29 (by decide)).trans
    ((show W10 m c main_v29 = W9 m c main_v29 from by rw [← V10_eq, ← V9_eq]; exact V10_of m (outsF m) c main_v29 (by decide)).trans
    ((show W9 m c main_v29 = W8 m c main_v29 from by rw [← V9_eq, ← V8_eq]; exact V9_of m (outsF m) c main_v29 (by decide)).trans
    ((show W8 m c main_v29 = W7 m c main_v29 from by rw [← V8_eq, ← V7_eq]; exact V8_of m (outsF m) c main_v29 (by decide)).trans
    ((show W7 m c main_v29 = W6 m c main_v29 from by rw [← V7_eq, ← V6_eq]; exact V7_of m (outsF m) c main_v29 (by decide))))))))))))))))))))))))))

theorem keep_v1_3 (c : Dev nD) : W6 m c main_v1 = W2 m c main_v1 :=
  (show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))

theorem keep_v14_3 (c : Dev nD) : W5 m c main_v14 = W2 m c main_v14 :=
  (show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))

theorem keep_v21_3 (c : Dev nD) : W5 m c main_v21 = W2 m c main_v21 :=
  (show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))

theorem keep_r_3 (c : Dev nD) : W31 m c main_v33 = W8 m c main_v33 :=
  (show W31 m c main_v33 = W30 m c main_v33 from by rw [← V31_eq, ← V30_eq]; exact V31_of m (outsF m) c main_v33 (by decide)).trans
    ((show W30 m c main_v33 = W29 m c main_v33 from by rw [← V30_eq, ← V29_eq]; exact V30_of m (outsF m) c main_v33 (by decide)).trans
    ((show W29 m c main_v33 = W28 m c main_v33 from by rw [← V29_eq, ← V28_eq]; exact V29_of m (outsF m) c main_v33 (by decide)).trans
    ((show W28 m c main_v33 = W27 m c main_v33 from by rw [← V28_eq, ← V27_eq]; exact V28_of m (outsF m) c main_v33 (by decide)).trans
    ((show W27 m c main_v33 = W26 m c main_v33 from by rw [← V27_eq, ← V26_eq]; exact V27_of m (outsF m) c main_v33 (by decide)).trans
    ((show W26 m c main_v33 = W25 m c main_v33 from by rw [← V26_eq, ← V25_eq]; exact V26_of m (outsF m) c main_v33 (by decide)).trans
    ((show W25 m c main_v33 = W24 m c main_v33 from by rw [← V25_eq, ← V24_eq]; exact V25_of m (outsF m) c main_v33 (by decide)).trans
    ((show W24 m c main_v33 = W23 m c main_v33 from by rw [← V24_eq, ← V23_eq]; exact V24_of m (outsF m) c main_v33 (by decide)).trans
    ((show W23 m c main_v33 = W22 m c main_v33 from by rw [← V23_eq, ← V22_eq]; exact V23_of m (outsF m) c main_v33 (by decide)).trans
    ((show W22 m c main_v33 = W21 m c main_v33 from by rw [← V22_eq, ← V21_eq]; exact V22_of m (outsF m) c main_v33 (by decide)).trans
    ((show W21 m c main_v33 = W20 m c main_v33 from by rw [← V21_eq, ← V20_eq]; exact V21_of m (outsF m) c main_v33 (by decide)).trans
    ((show W20 m c main_v33 = W19 m c main_v33 from by rw [← V20_eq, ← V19_eq]; exact V20_of m (outsF m) c main_v33 (by decide)).trans
    ((show W19 m c main_v33 = W18 m c main_v33 from by rw [← V19_eq, ← V18_eq]; exact V19_of m (outsF m) c main_v33 (by decide)).trans
    ((show W18 m c main_v33 = W17 m c main_v33 from by rw [← V18_eq, ← V17_eq]; exact V18_of m (outsF m) c main_v33 (by decide)).trans
    ((show W17 m c main_v33 = W16 m c main_v33 from by rw [← V17_eq, ← V16_eq]; exact V17_of m (outsF m) c main_v33 (by decide)).trans
    ((show W16 m c main_v33 = W15 m c main_v33 from by rw [← V16_eq, ← V15_eq]; exact V16_of m (outsF m) c main_v33 (by decide)).trans
    ((show W15 m c main_v33 = W14 m c main_v33 from by rw [← V15_eq, ← V14_eq]; exact V15_of m (outsF m) c main_v33 (by decide)).trans
    ((show W14 m c main_v33 = W13 m c main_v33 from by rw [← V14_eq, ← V13_eq]; exact V14_of m (outsF m) c main_v33 (by decide)).trans
    ((show W13 m c main_v33 = W12 m c main_v33 from by rw [← V13_eq, ← V12_eq]; exact V13_of m (outsF m) c main_v33 (by decide)).trans
    ((show W12 m c main_v33 = W11 m c main_v33 from by rw [← V12_eq, ← V11_eq]; exact V12_of m (outsF m) c main_v33 (by decide)).trans
    ((show W11 m c main_v33 = W10 m c main_v33 from by rw [← V11_eq, ← V10_eq]; exact V11_of m (outsF m) c main_v33 (by decide)).trans
    ((show W10 m c main_v33 = W9 m c main_v33 from by rw [← V10_eq, ← V9_eq]; exact V10_of m (outsF m) c main_v33 (by decide)).trans
    ((show W9 m c main_v33 = W8 m c main_v33 from by rw [← V9_eq, ← V8_eq]; exact V9_of m (outsF m) c main_v33 (by decide))))))))))))))))))))))))

theorem keep_v1_4 (c : Dev nD) : W8 m c main_v1 = W2 m c main_v1 :=
  (show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))

theorem keep_v14_4 (c : Dev nD) : W7 m c main_v14 = W2 m c main_v14 :=
  (show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))

theorem keep_v21_4 (c : Dev nD) : W7 m c main_v21 = W2 m c main_v21 :=
  (show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))

theorem keep_r_4 (c : Dev nD) : W31 m c main_v37 = W10 m c main_v37 :=
  (show W31 m c main_v37 = W30 m c main_v37 from by rw [← V31_eq, ← V30_eq]; exact V31_of m (outsF m) c main_v37 (by decide)).trans
    ((show W30 m c main_v37 = W29 m c main_v37 from by rw [← V30_eq, ← V29_eq]; exact V30_of m (outsF m) c main_v37 (by decide)).trans
    ((show W29 m c main_v37 = W28 m c main_v37 from by rw [← V29_eq, ← V28_eq]; exact V29_of m (outsF m) c main_v37 (by decide)).trans
    ((show W28 m c main_v37 = W27 m c main_v37 from by rw [← V28_eq, ← V27_eq]; exact V28_of m (outsF m) c main_v37 (by decide)).trans
    ((show W27 m c main_v37 = W26 m c main_v37 from by rw [← V27_eq, ← V26_eq]; exact V27_of m (outsF m) c main_v37 (by decide)).trans
    ((show W26 m c main_v37 = W25 m c main_v37 from by rw [← V26_eq, ← V25_eq]; exact V26_of m (outsF m) c main_v37 (by decide)).trans
    ((show W25 m c main_v37 = W24 m c main_v37 from by rw [← V25_eq, ← V24_eq]; exact V25_of m (outsF m) c main_v37 (by decide)).trans
    ((show W24 m c main_v37 = W23 m c main_v37 from by rw [← V24_eq, ← V23_eq]; exact V24_of m (outsF m) c main_v37 (by decide)).trans
    ((show W23 m c main_v37 = W22 m c main_v37 from by rw [← V23_eq, ← V22_eq]; exact V23_of m (outsF m) c main_v37 (by decide)).trans
    ((show W22 m c main_v37 = W21 m c main_v37 from by rw [← V22_eq, ← V21_eq]; exact V22_of m (outsF m) c main_v37 (by decide)).trans
    ((show W21 m c main_v37 = W20 m c main_v37 from by rw [← V21_eq, ← V20_eq]; exact V21_of m (outsF m) c main_v37 (by decide)).trans
    ((show W20 m c main_v37 = W19 m c main_v37 from by rw [← V20_eq, ← V19_eq]; exact V20_of m (outsF m) c main_v37 (by decide)).trans
    ((show W19 m c main_v37 = W18 m c main_v37 from by rw [← V19_eq, ← V18_eq]; exact V19_of m (outsF m) c main_v37 (by decide)).trans
    ((show W18 m c main_v37 = W17 m c main_v37 from by rw [← V18_eq, ← V17_eq]; exact V18_of m (outsF m) c main_v37 (by decide)).trans
    ((show W17 m c main_v37 = W16 m c main_v37 from by rw [← V17_eq, ← V16_eq]; exact V17_of m (outsF m) c main_v37 (by decide)).trans
    ((show W16 m c main_v37 = W15 m c main_v37 from by rw [← V16_eq, ← V15_eq]; exact V16_of m (outsF m) c main_v37 (by decide)).trans
    ((show W15 m c main_v37 = W14 m c main_v37 from by rw [← V15_eq, ← V14_eq]; exact V15_of m (outsF m) c main_v37 (by decide)).trans
    ((show W14 m c main_v37 = W13 m c main_v37 from by rw [← V14_eq, ← V13_eq]; exact V14_of m (outsF m) c main_v37 (by decide)).trans
    ((show W13 m c main_v37 = W12 m c main_v37 from by rw [← V13_eq, ← V12_eq]; exact V13_of m (outsF m) c main_v37 (by decide)).trans
    ((show W12 m c main_v37 = W11 m c main_v37 from by rw [← V12_eq, ← V11_eq]; exact V12_of m (outsF m) c main_v37 (by decide)).trans
    ((show W11 m c main_v37 = W10 m c main_v37 from by rw [← V11_eq, ← V10_eq]; exact V11_of m (outsF m) c main_v37 (by decide))))))))))))))))))))))

theorem keep_v1_5 (c : Dev nD) : W10 m c main_v1 = W2 m c main_v1 :=
  (show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))

theorem keep_v14_5 (c : Dev nD) : W9 m c main_v14 = W2 m c main_v14 :=
  (show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))

theorem keep_v21_5 (c : Dev nD) : W9 m c main_v21 = W2 m c main_v21 :=
  (show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))

theorem keep_r_5 (c : Dev nD) : W31 m c main_v41 = W12 m c main_v41 :=
  (show W31 m c main_v41 = W30 m c main_v41 from by rw [← V31_eq, ← V30_eq]; exact V31_of m (outsF m) c main_v41 (by decide)).trans
    ((show W30 m c main_v41 = W29 m c main_v41 from by rw [← V30_eq, ← V29_eq]; exact V30_of m (outsF m) c main_v41 (by decide)).trans
    ((show W29 m c main_v41 = W28 m c main_v41 from by rw [← V29_eq, ← V28_eq]; exact V29_of m (outsF m) c main_v41 (by decide)).trans
    ((show W28 m c main_v41 = W27 m c main_v41 from by rw [← V28_eq, ← V27_eq]; exact V28_of m (outsF m) c main_v41 (by decide)).trans
    ((show W27 m c main_v41 = W26 m c main_v41 from by rw [← V27_eq, ← V26_eq]; exact V27_of m (outsF m) c main_v41 (by decide)).trans
    ((show W26 m c main_v41 = W25 m c main_v41 from by rw [← V26_eq, ← V25_eq]; exact V26_of m (outsF m) c main_v41 (by decide)).trans
    ((show W25 m c main_v41 = W24 m c main_v41 from by rw [← V25_eq, ← V24_eq]; exact V25_of m (outsF m) c main_v41 (by decide)).trans
    ((show W24 m c main_v41 = W23 m c main_v41 from by rw [← V24_eq, ← V23_eq]; exact V24_of m (outsF m) c main_v41 (by decide)).trans
    ((show W23 m c main_v41 = W22 m c main_v41 from by rw [← V23_eq, ← V22_eq]; exact V23_of m (outsF m) c main_v41 (by decide)).trans
    ((show W22 m c main_v41 = W21 m c main_v41 from by rw [← V22_eq, ← V21_eq]; exact V22_of m (outsF m) c main_v41 (by decide)).trans
    ((show W21 m c main_v41 = W20 m c main_v41 from by rw [← V21_eq, ← V20_eq]; exact V21_of m (outsF m) c main_v41 (by decide)).trans
    ((show W20 m c main_v41 = W19 m c main_v41 from by rw [← V20_eq, ← V19_eq]; exact V20_of m (outsF m) c main_v41 (by decide)).trans
    ((show W19 m c main_v41 = W18 m c main_v41 from by rw [← V19_eq, ← V18_eq]; exact V19_of m (outsF m) c main_v41 (by decide)).trans
    ((show W18 m c main_v41 = W17 m c main_v41 from by rw [← V18_eq, ← V17_eq]; exact V18_of m (outsF m) c main_v41 (by decide)).trans
    ((show W17 m c main_v41 = W16 m c main_v41 from by rw [← V17_eq, ← V16_eq]; exact V17_of m (outsF m) c main_v41 (by decide)).trans
    ((show W16 m c main_v41 = W15 m c main_v41 from by rw [← V16_eq, ← V15_eq]; exact V16_of m (outsF m) c main_v41 (by decide)).trans
    ((show W15 m c main_v41 = W14 m c main_v41 from by rw [← V15_eq, ← V14_eq]; exact V15_of m (outsF m) c main_v41 (by decide)).trans
    ((show W14 m c main_v41 = W13 m c main_v41 from by rw [← V14_eq, ← V13_eq]; exact V14_of m (outsF m) c main_v41 (by decide)).trans
    ((show W13 m c main_v41 = W12 m c main_v41 from by rw [← V13_eq, ← V12_eq]; exact V13_of m (outsF m) c main_v41 (by decide))))))))))))))))))))

theorem keep_v1_6 (c : Dev nD) : W12 m c main_v1 = W2 m c main_v1 :=
  (show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))

theorem keep_v14_6 (c : Dev nD) : W11 m c main_v14 = W2 m c main_v14 :=
  (show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))

theorem keep_v21_6 (c : Dev nD) : W11 m c main_v21 = W2 m c main_v21 :=
  (show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))

theorem keep_r_6 (c : Dev nD) : W31 m c main_v45 = W14 m c main_v45 :=
  (show W31 m c main_v45 = W30 m c main_v45 from by rw [← V31_eq, ← V30_eq]; exact V31_of m (outsF m) c main_v45 (by decide)).trans
    ((show W30 m c main_v45 = W29 m c main_v45 from by rw [← V30_eq, ← V29_eq]; exact V30_of m (outsF m) c main_v45 (by decide)).trans
    ((show W29 m c main_v45 = W28 m c main_v45 from by rw [← V29_eq, ← V28_eq]; exact V29_of m (outsF m) c main_v45 (by decide)).trans
    ((show W28 m c main_v45 = W27 m c main_v45 from by rw [← V28_eq, ← V27_eq]; exact V28_of m (outsF m) c main_v45 (by decide)).trans
    ((show W27 m c main_v45 = W26 m c main_v45 from by rw [← V27_eq, ← V26_eq]; exact V27_of m (outsF m) c main_v45 (by decide)).trans
    ((show W26 m c main_v45 = W25 m c main_v45 from by rw [← V26_eq, ← V25_eq]; exact V26_of m (outsF m) c main_v45 (by decide)).trans
    ((show W25 m c main_v45 = W24 m c main_v45 from by rw [← V25_eq, ← V24_eq]; exact V25_of m (outsF m) c main_v45 (by decide)).trans
    ((show W24 m c main_v45 = W23 m c main_v45 from by rw [← V24_eq, ← V23_eq]; exact V24_of m (outsF m) c main_v45 (by decide)).trans
    ((show W23 m c main_v45 = W22 m c main_v45 from by rw [← V23_eq, ← V22_eq]; exact V23_of m (outsF m) c main_v45 (by decide)).trans
    ((show W22 m c main_v45 = W21 m c main_v45 from by rw [← V22_eq, ← V21_eq]; exact V22_of m (outsF m) c main_v45 (by decide)).trans
    ((show W21 m c main_v45 = W20 m c main_v45 from by rw [← V21_eq, ← V20_eq]; exact V21_of m (outsF m) c main_v45 (by decide)).trans
    ((show W20 m c main_v45 = W19 m c main_v45 from by rw [← V20_eq, ← V19_eq]; exact V20_of m (outsF m) c main_v45 (by decide)).trans
    ((show W19 m c main_v45 = W18 m c main_v45 from by rw [← V19_eq, ← V18_eq]; exact V19_of m (outsF m) c main_v45 (by decide)).trans
    ((show W18 m c main_v45 = W17 m c main_v45 from by rw [← V18_eq, ← V17_eq]; exact V18_of m (outsF m) c main_v45 (by decide)).trans
    ((show W17 m c main_v45 = W16 m c main_v45 from by rw [← V17_eq, ← V16_eq]; exact V17_of m (outsF m) c main_v45 (by decide)).trans
    ((show W16 m c main_v45 = W15 m c main_v45 from by rw [← V16_eq, ← V15_eq]; exact V16_of m (outsF m) c main_v45 (by decide)).trans
    ((show W15 m c main_v45 = W14 m c main_v45 from by rw [← V15_eq, ← V14_eq]; exact V15_of m (outsF m) c main_v45 (by decide))))))))))))))))))

theorem keep_v1_7 (c : Dev nD) : W14 m c main_v1 = W2 m c main_v1 :=
  (show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))

theorem keep_v14_7 (c : Dev nD) : W13 m c main_v14 = W2 m c main_v14 :=
  (show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))

theorem keep_v21_7 (c : Dev nD) : W13 m c main_v21 = W2 m c main_v21 :=
  (show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))

theorem keep_r_7 (c : Dev nD) : W31 m c main_v49 = W16 m c main_v49 :=
  (show W31 m c main_v49 = W30 m c main_v49 from by rw [← V31_eq, ← V30_eq]; exact V31_of m (outsF m) c main_v49 (by decide)).trans
    ((show W30 m c main_v49 = W29 m c main_v49 from by rw [← V30_eq, ← V29_eq]; exact V30_of m (outsF m) c main_v49 (by decide)).trans
    ((show W29 m c main_v49 = W28 m c main_v49 from by rw [← V29_eq, ← V28_eq]; exact V29_of m (outsF m) c main_v49 (by decide)).trans
    ((show W28 m c main_v49 = W27 m c main_v49 from by rw [← V28_eq, ← V27_eq]; exact V28_of m (outsF m) c main_v49 (by decide)).trans
    ((show W27 m c main_v49 = W26 m c main_v49 from by rw [← V27_eq, ← V26_eq]; exact V27_of m (outsF m) c main_v49 (by decide)).trans
    ((show W26 m c main_v49 = W25 m c main_v49 from by rw [← V26_eq, ← V25_eq]; exact V26_of m (outsF m) c main_v49 (by decide)).trans
    ((show W25 m c main_v49 = W24 m c main_v49 from by rw [← V25_eq, ← V24_eq]; exact V25_of m (outsF m) c main_v49 (by decide)).trans
    ((show W24 m c main_v49 = W23 m c main_v49 from by rw [← V24_eq, ← V23_eq]; exact V24_of m (outsF m) c main_v49 (by decide)).trans
    ((show W23 m c main_v49 = W22 m c main_v49 from by rw [← V23_eq, ← V22_eq]; exact V23_of m (outsF m) c main_v49 (by decide)).trans
    ((show W22 m c main_v49 = W21 m c main_v49 from by rw [← V22_eq, ← V21_eq]; exact V22_of m (outsF m) c main_v49 (by decide)).trans
    ((show W21 m c main_v49 = W20 m c main_v49 from by rw [← V21_eq, ← V20_eq]; exact V21_of m (outsF m) c main_v49 (by decide)).trans
    ((show W20 m c main_v49 = W19 m c main_v49 from by rw [← V20_eq, ← V19_eq]; exact V20_of m (outsF m) c main_v49 (by decide)).trans
    ((show W19 m c main_v49 = W18 m c main_v49 from by rw [← V19_eq, ← V18_eq]; exact V19_of m (outsF m) c main_v49 (by decide)).trans
    ((show W18 m c main_v49 = W17 m c main_v49 from by rw [← V18_eq, ← V17_eq]; exact V18_of m (outsF m) c main_v49 (by decide)).trans
    ((show W17 m c main_v49 = W16 m c main_v49 from by rw [← V17_eq, ← V16_eq]; exact V17_of m (outsF m) c main_v49 (by decide))))))))))))))))

theorem keep_v1_8 (c : Dev nD) : W16 m c main_v1 = W2 m c main_v1 :=
  (show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))

theorem keep_v14_8 (c : Dev nD) : W15 m c main_v14 = W2 m c main_v14 :=
  (show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))

theorem keep_v21_8 (c : Dev nD) : W15 m c main_v21 = W2 m c main_v21 :=
  (show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))

theorem keep_r_8 (c : Dev nD) : W31 m c main_v53 = W18 m c main_v53 :=
  (show W31 m c main_v53 = W30 m c main_v53 from by rw [← V31_eq, ← V30_eq]; exact V31_of m (outsF m) c main_v53 (by decide)).trans
    ((show W30 m c main_v53 = W29 m c main_v53 from by rw [← V30_eq, ← V29_eq]; exact V30_of m (outsF m) c main_v53 (by decide)).trans
    ((show W29 m c main_v53 = W28 m c main_v53 from by rw [← V29_eq, ← V28_eq]; exact V29_of m (outsF m) c main_v53 (by decide)).trans
    ((show W28 m c main_v53 = W27 m c main_v53 from by rw [← V28_eq, ← V27_eq]; exact V28_of m (outsF m) c main_v53 (by decide)).trans
    ((show W27 m c main_v53 = W26 m c main_v53 from by rw [← V27_eq, ← V26_eq]; exact V27_of m (outsF m) c main_v53 (by decide)).trans
    ((show W26 m c main_v53 = W25 m c main_v53 from by rw [← V26_eq, ← V25_eq]; exact V26_of m (outsF m) c main_v53 (by decide)).trans
    ((show W25 m c main_v53 = W24 m c main_v53 from by rw [← V25_eq, ← V24_eq]; exact V25_of m (outsF m) c main_v53 (by decide)).trans
    ((show W24 m c main_v53 = W23 m c main_v53 from by rw [← V24_eq, ← V23_eq]; exact V24_of m (outsF m) c main_v53 (by decide)).trans
    ((show W23 m c main_v53 = W22 m c main_v53 from by rw [← V23_eq, ← V22_eq]; exact V23_of m (outsF m) c main_v53 (by decide)).trans
    ((show W22 m c main_v53 = W21 m c main_v53 from by rw [← V22_eq, ← V21_eq]; exact V22_of m (outsF m) c main_v53 (by decide)).trans
    ((show W21 m c main_v53 = W20 m c main_v53 from by rw [← V21_eq, ← V20_eq]; exact V21_of m (outsF m) c main_v53 (by decide)).trans
    ((show W20 m c main_v53 = W19 m c main_v53 from by rw [← V20_eq, ← V19_eq]; exact V20_of m (outsF m) c main_v53 (by decide)).trans
    ((show W19 m c main_v53 = W18 m c main_v53 from by rw [← V19_eq, ← V18_eq]; exact V19_of m (outsF m) c main_v53 (by decide))))))))))))))

theorem keep_v1_9 (c : Dev nD) : W18 m c main_v1 = W2 m c main_v1 :=
  (show W18 m c main_v1 = W17 m c main_v1 from by rw [← V18_eq, ← V17_eq]; exact V18_of m (outsF m) c main_v1 (by decide)).trans
    ((show W17 m c main_v1 = W16 m c main_v1 from by rw [← V17_eq, ← V16_eq]; exact V17_of m (outsF m) c main_v1 (by decide)).trans
    ((show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))))

theorem keep_v14_9 (c : Dev nD) : W17 m c main_v14 = W2 m c main_v14 :=
  (show W17 m c main_v14 = W16 m c main_v14 from by rw [← V17_eq, ← V16_eq]; exact V17_of m (outsF m) c main_v14 (by decide)).trans
    ((show W16 m c main_v14 = W15 m c main_v14 from by rw [← V16_eq, ← V15_eq]; exact V16_of m (outsF m) c main_v14 (by decide)).trans
    ((show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))))

theorem keep_v21_9 (c : Dev nD) : W17 m c main_v21 = W2 m c main_v21 :=
  (show W17 m c main_v21 = W16 m c main_v21 from by rw [← V17_eq, ← V16_eq]; exact V17_of m (outsF m) c main_v21 (by decide)).trans
    ((show W16 m c main_v21 = W15 m c main_v21 from by rw [← V16_eq, ← V15_eq]; exact V16_of m (outsF m) c main_v21 (by decide)).trans
    ((show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))))

theorem keep_r_9 (c : Dev nD) : W31 m c main_v57 = W20 m c main_v57 :=
  (show W31 m c main_v57 = W30 m c main_v57 from by rw [← V31_eq, ← V30_eq]; exact V31_of m (outsF m) c main_v57 (by decide)).trans
    ((show W30 m c main_v57 = W29 m c main_v57 from by rw [← V30_eq, ← V29_eq]; exact V30_of m (outsF m) c main_v57 (by decide)).trans
    ((show W29 m c main_v57 = W28 m c main_v57 from by rw [← V29_eq, ← V28_eq]; exact V29_of m (outsF m) c main_v57 (by decide)).trans
    ((show W28 m c main_v57 = W27 m c main_v57 from by rw [← V28_eq, ← V27_eq]; exact V28_of m (outsF m) c main_v57 (by decide)).trans
    ((show W27 m c main_v57 = W26 m c main_v57 from by rw [← V27_eq, ← V26_eq]; exact V27_of m (outsF m) c main_v57 (by decide)).trans
    ((show W26 m c main_v57 = W25 m c main_v57 from by rw [← V26_eq, ← V25_eq]; exact V26_of m (outsF m) c main_v57 (by decide)).trans
    ((show W25 m c main_v57 = W24 m c main_v57 from by rw [← V25_eq, ← V24_eq]; exact V25_of m (outsF m) c main_v57 (by decide)).trans
    ((show W24 m c main_v57 = W23 m c main_v57 from by rw [← V24_eq, ← V23_eq]; exact V24_of m (outsF m) c main_v57 (by decide)).trans
    ((show W23 m c main_v57 = W22 m c main_v57 from by rw [← V23_eq, ← V22_eq]; exact V23_of m (outsF m) c main_v57 (by decide)).trans
    ((show W22 m c main_v57 = W21 m c main_v57 from by rw [← V22_eq, ← V21_eq]; exact V22_of m (outsF m) c main_v57 (by decide)).trans
    ((show W21 m c main_v57 = W20 m c main_v57 from by rw [← V21_eq, ← V20_eq]; exact V21_of m (outsF m) c main_v57 (by decide))))))))))))

theorem keep_v1_10 (c : Dev nD) : W20 m c main_v1 = W2 m c main_v1 :=
  (show W20 m c main_v1 = W19 m c main_v1 from by rw [← V20_eq, ← V19_eq]; exact V20_of m (outsF m) c main_v1 (by decide)).trans
    ((show W19 m c main_v1 = W18 m c main_v1 from by rw [← V19_eq, ← V18_eq]; exact V19_of m (outsF m) c main_v1 (by decide)).trans
    ((show W18 m c main_v1 = W17 m c main_v1 from by rw [← V18_eq, ← V17_eq]; exact V18_of m (outsF m) c main_v1 (by decide)).trans
    ((show W17 m c main_v1 = W16 m c main_v1 from by rw [← V17_eq, ← V16_eq]; exact V17_of m (outsF m) c main_v1 (by decide)).trans
    ((show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))))))

theorem keep_v14_10 (c : Dev nD) : W19 m c main_v14 = W2 m c main_v14 :=
  (show W19 m c main_v14 = W18 m c main_v14 from by rw [← V19_eq, ← V18_eq]; exact V19_of m (outsF m) c main_v14 (by decide)).trans
    ((show W18 m c main_v14 = W17 m c main_v14 from by rw [← V18_eq, ← V17_eq]; exact V18_of m (outsF m) c main_v14 (by decide)).trans
    ((show W17 m c main_v14 = W16 m c main_v14 from by rw [← V17_eq, ← V16_eq]; exact V17_of m (outsF m) c main_v14 (by decide)).trans
    ((show W16 m c main_v14 = W15 m c main_v14 from by rw [← V16_eq, ← V15_eq]; exact V16_of m (outsF m) c main_v14 (by decide)).trans
    ((show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))))))

theorem keep_v21_10 (c : Dev nD) : W19 m c main_v21 = W2 m c main_v21 :=
  (show W19 m c main_v21 = W18 m c main_v21 from by rw [← V19_eq, ← V18_eq]; exact V19_of m (outsF m) c main_v21 (by decide)).trans
    ((show W18 m c main_v21 = W17 m c main_v21 from by rw [← V18_eq, ← V17_eq]; exact V18_of m (outsF m) c main_v21 (by decide)).trans
    ((show W17 m c main_v21 = W16 m c main_v21 from by rw [← V17_eq, ← V16_eq]; exact V17_of m (outsF m) c main_v21 (by decide)).trans
    ((show W16 m c main_v21 = W15 m c main_v21 from by rw [← V16_eq, ← V15_eq]; exact V16_of m (outsF m) c main_v21 (by decide)).trans
    ((show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))))))

theorem keep_r_10 (c : Dev nD) : W31 m c main_v61 = W22 m c main_v61 :=
  (show W31 m c main_v61 = W30 m c main_v61 from by rw [← V31_eq, ← V30_eq]; exact V31_of m (outsF m) c main_v61 (by decide)).trans
    ((show W30 m c main_v61 = W29 m c main_v61 from by rw [← V30_eq, ← V29_eq]; exact V30_of m (outsF m) c main_v61 (by decide)).trans
    ((show W29 m c main_v61 = W28 m c main_v61 from by rw [← V29_eq, ← V28_eq]; exact V29_of m (outsF m) c main_v61 (by decide)).trans
    ((show W28 m c main_v61 = W27 m c main_v61 from by rw [← V28_eq, ← V27_eq]; exact V28_of m (outsF m) c main_v61 (by decide)).trans
    ((show W27 m c main_v61 = W26 m c main_v61 from by rw [← V27_eq, ← V26_eq]; exact V27_of m (outsF m) c main_v61 (by decide)).trans
    ((show W26 m c main_v61 = W25 m c main_v61 from by rw [← V26_eq, ← V25_eq]; exact V26_of m (outsF m) c main_v61 (by decide)).trans
    ((show W25 m c main_v61 = W24 m c main_v61 from by rw [← V25_eq, ← V24_eq]; exact V25_of m (outsF m) c main_v61 (by decide)).trans
    ((show W24 m c main_v61 = W23 m c main_v61 from by rw [← V24_eq, ← V23_eq]; exact V24_of m (outsF m) c main_v61 (by decide)).trans
    ((show W23 m c main_v61 = W22 m c main_v61 from by rw [← V23_eq, ← V22_eq]; exact V23_of m (outsF m) c main_v61 (by decide))))))))))

theorem keep_v1_11 (c : Dev nD) : W22 m c main_v1 = W2 m c main_v1 :=
  (show W22 m c main_v1 = W21 m c main_v1 from by rw [← V22_eq, ← V21_eq]; exact V22_of m (outsF m) c main_v1 (by decide)).trans
    ((show W21 m c main_v1 = W20 m c main_v1 from by rw [← V21_eq, ← V20_eq]; exact V21_of m (outsF m) c main_v1 (by decide)).trans
    ((show W20 m c main_v1 = W19 m c main_v1 from by rw [← V20_eq, ← V19_eq]; exact V20_of m (outsF m) c main_v1 (by decide)).trans
    ((show W19 m c main_v1 = W18 m c main_v1 from by rw [← V19_eq, ← V18_eq]; exact V19_of m (outsF m) c main_v1 (by decide)).trans
    ((show W18 m c main_v1 = W17 m c main_v1 from by rw [← V18_eq, ← V17_eq]; exact V18_of m (outsF m) c main_v1 (by decide)).trans
    ((show W17 m c main_v1 = W16 m c main_v1 from by rw [← V17_eq, ← V16_eq]; exact V17_of m (outsF m) c main_v1 (by decide)).trans
    ((show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))))))))

theorem keep_v14_11 (c : Dev nD) : W21 m c main_v14 = W2 m c main_v14 :=
  (show W21 m c main_v14 = W20 m c main_v14 from by rw [← V21_eq, ← V20_eq]; exact V21_of m (outsF m) c main_v14 (by decide)).trans
    ((show W20 m c main_v14 = W19 m c main_v14 from by rw [← V20_eq, ← V19_eq]; exact V20_of m (outsF m) c main_v14 (by decide)).trans
    ((show W19 m c main_v14 = W18 m c main_v14 from by rw [← V19_eq, ← V18_eq]; exact V19_of m (outsF m) c main_v14 (by decide)).trans
    ((show W18 m c main_v14 = W17 m c main_v14 from by rw [← V18_eq, ← V17_eq]; exact V18_of m (outsF m) c main_v14 (by decide)).trans
    ((show W17 m c main_v14 = W16 m c main_v14 from by rw [← V17_eq, ← V16_eq]; exact V17_of m (outsF m) c main_v14 (by decide)).trans
    ((show W16 m c main_v14 = W15 m c main_v14 from by rw [← V16_eq, ← V15_eq]; exact V16_of m (outsF m) c main_v14 (by decide)).trans
    ((show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))))))))

theorem keep_v21_11 (c : Dev nD) : W21 m c main_v21 = W2 m c main_v21 :=
  (show W21 m c main_v21 = W20 m c main_v21 from by rw [← V21_eq, ← V20_eq]; exact V21_of m (outsF m) c main_v21 (by decide)).trans
    ((show W20 m c main_v21 = W19 m c main_v21 from by rw [← V20_eq, ← V19_eq]; exact V20_of m (outsF m) c main_v21 (by decide)).trans
    ((show W19 m c main_v21 = W18 m c main_v21 from by rw [← V19_eq, ← V18_eq]; exact V19_of m (outsF m) c main_v21 (by decide)).trans
    ((show W18 m c main_v21 = W17 m c main_v21 from by rw [← V18_eq, ← V17_eq]; exact V18_of m (outsF m) c main_v21 (by decide)).trans
    ((show W17 m c main_v21 = W16 m c main_v21 from by rw [← V17_eq, ← V16_eq]; exact V17_of m (outsF m) c main_v21 (by decide)).trans
    ((show W16 m c main_v21 = W15 m c main_v21 from by rw [← V16_eq, ← V15_eq]; exact V16_of m (outsF m) c main_v21 (by decide)).trans
    ((show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))))))))

theorem keep_r_11 (c : Dev nD) : W31 m c main_v65 = W24 m c main_v65 :=
  (show W31 m c main_v65 = W30 m c main_v65 from by rw [← V31_eq, ← V30_eq]; exact V31_of m (outsF m) c main_v65 (by decide)).trans
    ((show W30 m c main_v65 = W29 m c main_v65 from by rw [← V30_eq, ← V29_eq]; exact V30_of m (outsF m) c main_v65 (by decide)).trans
    ((show W29 m c main_v65 = W28 m c main_v65 from by rw [← V29_eq, ← V28_eq]; exact V29_of m (outsF m) c main_v65 (by decide)).trans
    ((show W28 m c main_v65 = W27 m c main_v65 from by rw [← V28_eq, ← V27_eq]; exact V28_of m (outsF m) c main_v65 (by decide)).trans
    ((show W27 m c main_v65 = W26 m c main_v65 from by rw [← V27_eq, ← V26_eq]; exact V27_of m (outsF m) c main_v65 (by decide)).trans
    ((show W26 m c main_v65 = W25 m c main_v65 from by rw [← V26_eq, ← V25_eq]; exact V26_of m (outsF m) c main_v65 (by decide)).trans
    ((show W25 m c main_v65 = W24 m c main_v65 from by rw [← V25_eq, ← V24_eq]; exact V25_of m (outsF m) c main_v65 (by decide))))))))

theorem keep_v1_12 (c : Dev nD) : W24 m c main_v1 = W2 m c main_v1 :=
  (show W24 m c main_v1 = W23 m c main_v1 from by rw [← V24_eq, ← V23_eq]; exact V24_of m (outsF m) c main_v1 (by decide)).trans
    ((show W23 m c main_v1 = W22 m c main_v1 from by rw [← V23_eq, ← V22_eq]; exact V23_of m (outsF m) c main_v1 (by decide)).trans
    ((show W22 m c main_v1 = W21 m c main_v1 from by rw [← V22_eq, ← V21_eq]; exact V22_of m (outsF m) c main_v1 (by decide)).trans
    ((show W21 m c main_v1 = W20 m c main_v1 from by rw [← V21_eq, ← V20_eq]; exact V21_of m (outsF m) c main_v1 (by decide)).trans
    ((show W20 m c main_v1 = W19 m c main_v1 from by rw [← V20_eq, ← V19_eq]; exact V20_of m (outsF m) c main_v1 (by decide)).trans
    ((show W19 m c main_v1 = W18 m c main_v1 from by rw [← V19_eq, ← V18_eq]; exact V19_of m (outsF m) c main_v1 (by decide)).trans
    ((show W18 m c main_v1 = W17 m c main_v1 from by rw [← V18_eq, ← V17_eq]; exact V18_of m (outsF m) c main_v1 (by decide)).trans
    ((show W17 m c main_v1 = W16 m c main_v1 from by rw [← V17_eq, ← V16_eq]; exact V17_of m (outsF m) c main_v1 (by decide)).trans
    ((show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))))))))))

theorem keep_v14_12 (c : Dev nD) : W23 m c main_v14 = W2 m c main_v14 :=
  (show W23 m c main_v14 = W22 m c main_v14 from by rw [← V23_eq, ← V22_eq]; exact V23_of m (outsF m) c main_v14 (by decide)).trans
    ((show W22 m c main_v14 = W21 m c main_v14 from by rw [← V22_eq, ← V21_eq]; exact V22_of m (outsF m) c main_v14 (by decide)).trans
    ((show W21 m c main_v14 = W20 m c main_v14 from by rw [← V21_eq, ← V20_eq]; exact V21_of m (outsF m) c main_v14 (by decide)).trans
    ((show W20 m c main_v14 = W19 m c main_v14 from by rw [← V20_eq, ← V19_eq]; exact V20_of m (outsF m) c main_v14 (by decide)).trans
    ((show W19 m c main_v14 = W18 m c main_v14 from by rw [← V19_eq, ← V18_eq]; exact V19_of m (outsF m) c main_v14 (by decide)).trans
    ((show W18 m c main_v14 = W17 m c main_v14 from by rw [← V18_eq, ← V17_eq]; exact V18_of m (outsF m) c main_v14 (by decide)).trans
    ((show W17 m c main_v14 = W16 m c main_v14 from by rw [← V17_eq, ← V16_eq]; exact V17_of m (outsF m) c main_v14 (by decide)).trans
    ((show W16 m c main_v14 = W15 m c main_v14 from by rw [← V16_eq, ← V15_eq]; exact V16_of m (outsF m) c main_v14 (by decide)).trans
    ((show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))))))))))

theorem keep_v21_12 (c : Dev nD) : W23 m c main_v21 = W2 m c main_v21 :=
  (show W23 m c main_v21 = W22 m c main_v21 from by rw [← V23_eq, ← V22_eq]; exact V23_of m (outsF m) c main_v21 (by decide)).trans
    ((show W22 m c main_v21 = W21 m c main_v21 from by rw [← V22_eq, ← V21_eq]; exact V22_of m (outsF m) c main_v21 (by decide)).trans
    ((show W21 m c main_v21 = W20 m c main_v21 from by rw [← V21_eq, ← V20_eq]; exact V21_of m (outsF m) c main_v21 (by decide)).trans
    ((show W20 m c main_v21 = W19 m c main_v21 from by rw [← V20_eq, ← V19_eq]; exact V20_of m (outsF m) c main_v21 (by decide)).trans
    ((show W19 m c main_v21 = W18 m c main_v21 from by rw [← V19_eq, ← V18_eq]; exact V19_of m (outsF m) c main_v21 (by decide)).trans
    ((show W18 m c main_v21 = W17 m c main_v21 from by rw [← V18_eq, ← V17_eq]; exact V18_of m (outsF m) c main_v21 (by decide)).trans
    ((show W17 m c main_v21 = W16 m c main_v21 from by rw [← V17_eq, ← V16_eq]; exact V17_of m (outsF m) c main_v21 (by decide)).trans
    ((show W16 m c main_v21 = W15 m c main_v21 from by rw [← V16_eq, ← V15_eq]; exact V16_of m (outsF m) c main_v21 (by decide)).trans
    ((show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))))))))))

theorem keep_r_12 (c : Dev nD) : W31 m c main_v69 = W26 m c main_v69 :=
  (show W31 m c main_v69 = W30 m c main_v69 from by rw [← V31_eq, ← V30_eq]; exact V31_of m (outsF m) c main_v69 (by decide)).trans
    ((show W30 m c main_v69 = W29 m c main_v69 from by rw [← V30_eq, ← V29_eq]; exact V30_of m (outsF m) c main_v69 (by decide)).trans
    ((show W29 m c main_v69 = W28 m c main_v69 from by rw [← V29_eq, ← V28_eq]; exact V29_of m (outsF m) c main_v69 (by decide)).trans
    ((show W28 m c main_v69 = W27 m c main_v69 from by rw [← V28_eq, ← V27_eq]; exact V28_of m (outsF m) c main_v69 (by decide)).trans
    ((show W27 m c main_v69 = W26 m c main_v69 from by rw [← V27_eq, ← V26_eq]; exact V27_of m (outsF m) c main_v69 (by decide))))))

theorem keep_v1_13 (c : Dev nD) : W26 m c main_v1 = W2 m c main_v1 :=
  (show W26 m c main_v1 = W25 m c main_v1 from by rw [← V26_eq, ← V25_eq]; exact V26_of m (outsF m) c main_v1 (by decide)).trans
    ((show W25 m c main_v1 = W24 m c main_v1 from by rw [← V25_eq, ← V24_eq]; exact V25_of m (outsF m) c main_v1 (by decide)).trans
    ((show W24 m c main_v1 = W23 m c main_v1 from by rw [← V24_eq, ← V23_eq]; exact V24_of m (outsF m) c main_v1 (by decide)).trans
    ((show W23 m c main_v1 = W22 m c main_v1 from by rw [← V23_eq, ← V22_eq]; exact V23_of m (outsF m) c main_v1 (by decide)).trans
    ((show W22 m c main_v1 = W21 m c main_v1 from by rw [← V22_eq, ← V21_eq]; exact V22_of m (outsF m) c main_v1 (by decide)).trans
    ((show W21 m c main_v1 = W20 m c main_v1 from by rw [← V21_eq, ← V20_eq]; exact V21_of m (outsF m) c main_v1 (by decide)).trans
    ((show W20 m c main_v1 = W19 m c main_v1 from by rw [← V20_eq, ← V19_eq]; exact V20_of m (outsF m) c main_v1 (by decide)).trans
    ((show W19 m c main_v1 = W18 m c main_v1 from by rw [← V19_eq, ← V18_eq]; exact V19_of m (outsF m) c main_v1 (by decide)).trans
    ((show W18 m c main_v1 = W17 m c main_v1 from by rw [← V18_eq, ← V17_eq]; exact V18_of m (outsF m) c main_v1 (by decide)).trans
    ((show W17 m c main_v1 = W16 m c main_v1 from by rw [← V17_eq, ← V16_eq]; exact V17_of m (outsF m) c main_v1 (by decide)).trans
    ((show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))))))))))))

theorem keep_v14_13 (c : Dev nD) : W25 m c main_v14 = W2 m c main_v14 :=
  (show W25 m c main_v14 = W24 m c main_v14 from by rw [← V25_eq, ← V24_eq]; exact V25_of m (outsF m) c main_v14 (by decide)).trans
    ((show W24 m c main_v14 = W23 m c main_v14 from by rw [← V24_eq, ← V23_eq]; exact V24_of m (outsF m) c main_v14 (by decide)).trans
    ((show W23 m c main_v14 = W22 m c main_v14 from by rw [← V23_eq, ← V22_eq]; exact V23_of m (outsF m) c main_v14 (by decide)).trans
    ((show W22 m c main_v14 = W21 m c main_v14 from by rw [← V22_eq, ← V21_eq]; exact V22_of m (outsF m) c main_v14 (by decide)).trans
    ((show W21 m c main_v14 = W20 m c main_v14 from by rw [← V21_eq, ← V20_eq]; exact V21_of m (outsF m) c main_v14 (by decide)).trans
    ((show W20 m c main_v14 = W19 m c main_v14 from by rw [← V20_eq, ← V19_eq]; exact V20_of m (outsF m) c main_v14 (by decide)).trans
    ((show W19 m c main_v14 = W18 m c main_v14 from by rw [← V19_eq, ← V18_eq]; exact V19_of m (outsF m) c main_v14 (by decide)).trans
    ((show W18 m c main_v14 = W17 m c main_v14 from by rw [← V18_eq, ← V17_eq]; exact V18_of m (outsF m) c main_v14 (by decide)).trans
    ((show W17 m c main_v14 = W16 m c main_v14 from by rw [← V17_eq, ← V16_eq]; exact V17_of m (outsF m) c main_v14 (by decide)).trans
    ((show W16 m c main_v14 = W15 m c main_v14 from by rw [← V16_eq, ← V15_eq]; exact V16_of m (outsF m) c main_v14 (by decide)).trans
    ((show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))))))))))))

theorem keep_v21_13 (c : Dev nD) : W25 m c main_v21 = W2 m c main_v21 :=
  (show W25 m c main_v21 = W24 m c main_v21 from by rw [← V25_eq, ← V24_eq]; exact V25_of m (outsF m) c main_v21 (by decide)).trans
    ((show W24 m c main_v21 = W23 m c main_v21 from by rw [← V24_eq, ← V23_eq]; exact V24_of m (outsF m) c main_v21 (by decide)).trans
    ((show W23 m c main_v21 = W22 m c main_v21 from by rw [← V23_eq, ← V22_eq]; exact V23_of m (outsF m) c main_v21 (by decide)).trans
    ((show W22 m c main_v21 = W21 m c main_v21 from by rw [← V22_eq, ← V21_eq]; exact V22_of m (outsF m) c main_v21 (by decide)).trans
    ((show W21 m c main_v21 = W20 m c main_v21 from by rw [← V21_eq, ← V20_eq]; exact V21_of m (outsF m) c main_v21 (by decide)).trans
    ((show W20 m c main_v21 = W19 m c main_v21 from by rw [← V20_eq, ← V19_eq]; exact V20_of m (outsF m) c main_v21 (by decide)).trans
    ((show W19 m c main_v21 = W18 m c main_v21 from by rw [← V19_eq, ← V18_eq]; exact V19_of m (outsF m) c main_v21 (by decide)).trans
    ((show W18 m c main_v21 = W17 m c main_v21 from by rw [← V18_eq, ← V17_eq]; exact V18_of m (outsF m) c main_v21 (by decide)).trans
    ((show W17 m c main_v21 = W16 m c main_v21 from by rw [← V17_eq, ← V16_eq]; exact V17_of m (outsF m) c main_v21 (by decide)).trans
    ((show W16 m c main_v21 = W15 m c main_v21 from by rw [← V16_eq, ← V15_eq]; exact V16_of m (outsF m) c main_v21 (by decide)).trans
    ((show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))))))))))))

theorem keep_r_13 (c : Dev nD) : W31 m c main_v73 = W28 m c main_v73 :=
  (show W31 m c main_v73 = W30 m c main_v73 from by rw [← V31_eq, ← V30_eq]; exact V31_of m (outsF m) c main_v73 (by decide)).trans
    ((show W30 m c main_v73 = W29 m c main_v73 from by rw [← V30_eq, ← V29_eq]; exact V30_of m (outsF m) c main_v73 (by decide)).trans
    ((show W29 m c main_v73 = W28 m c main_v73 from by rw [← V29_eq, ← V28_eq]; exact V29_of m (outsF m) c main_v73 (by decide))))

theorem keep_v1_14 (c : Dev nD) : W28 m c main_v1 = W2 m c main_v1 :=
  (show W28 m c main_v1 = W27 m c main_v1 from by rw [← V28_eq, ← V27_eq]; exact V28_of m (outsF m) c main_v1 (by decide)).trans
    ((show W27 m c main_v1 = W26 m c main_v1 from by rw [← V27_eq, ← V26_eq]; exact V27_of m (outsF m) c main_v1 (by decide)).trans
    ((show W26 m c main_v1 = W25 m c main_v1 from by rw [← V26_eq, ← V25_eq]; exact V26_of m (outsF m) c main_v1 (by decide)).trans
    ((show W25 m c main_v1 = W24 m c main_v1 from by rw [← V25_eq, ← V24_eq]; exact V25_of m (outsF m) c main_v1 (by decide)).trans
    ((show W24 m c main_v1 = W23 m c main_v1 from by rw [← V24_eq, ← V23_eq]; exact V24_of m (outsF m) c main_v1 (by decide)).trans
    ((show W23 m c main_v1 = W22 m c main_v1 from by rw [← V23_eq, ← V22_eq]; exact V23_of m (outsF m) c main_v1 (by decide)).trans
    ((show W22 m c main_v1 = W21 m c main_v1 from by rw [← V22_eq, ← V21_eq]; exact V22_of m (outsF m) c main_v1 (by decide)).trans
    ((show W21 m c main_v1 = W20 m c main_v1 from by rw [← V21_eq, ← V20_eq]; exact V21_of m (outsF m) c main_v1 (by decide)).trans
    ((show W20 m c main_v1 = W19 m c main_v1 from by rw [← V20_eq, ← V19_eq]; exact V20_of m (outsF m) c main_v1 (by decide)).trans
    ((show W19 m c main_v1 = W18 m c main_v1 from by rw [← V19_eq, ← V18_eq]; exact V19_of m (outsF m) c main_v1 (by decide)).trans
    ((show W18 m c main_v1 = W17 m c main_v1 from by rw [← V18_eq, ← V17_eq]; exact V18_of m (outsF m) c main_v1 (by decide)).trans
    ((show W17 m c main_v1 = W16 m c main_v1 from by rw [← V17_eq, ← V16_eq]; exact V17_of m (outsF m) c main_v1 (by decide)).trans
    ((show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))))))))))))))

theorem keep_v14_14 (c : Dev nD) : W27 m c main_v14 = W2 m c main_v14 :=
  (show W27 m c main_v14 = W26 m c main_v14 from by rw [← V27_eq, ← V26_eq]; exact V27_of m (outsF m) c main_v14 (by decide)).trans
    ((show W26 m c main_v14 = W25 m c main_v14 from by rw [← V26_eq, ← V25_eq]; exact V26_of m (outsF m) c main_v14 (by decide)).trans
    ((show W25 m c main_v14 = W24 m c main_v14 from by rw [← V25_eq, ← V24_eq]; exact V25_of m (outsF m) c main_v14 (by decide)).trans
    ((show W24 m c main_v14 = W23 m c main_v14 from by rw [← V24_eq, ← V23_eq]; exact V24_of m (outsF m) c main_v14 (by decide)).trans
    ((show W23 m c main_v14 = W22 m c main_v14 from by rw [← V23_eq, ← V22_eq]; exact V23_of m (outsF m) c main_v14 (by decide)).trans
    ((show W22 m c main_v14 = W21 m c main_v14 from by rw [← V22_eq, ← V21_eq]; exact V22_of m (outsF m) c main_v14 (by decide)).trans
    ((show W21 m c main_v14 = W20 m c main_v14 from by rw [← V21_eq, ← V20_eq]; exact V21_of m (outsF m) c main_v14 (by decide)).trans
    ((show W20 m c main_v14 = W19 m c main_v14 from by rw [← V20_eq, ← V19_eq]; exact V20_of m (outsF m) c main_v14 (by decide)).trans
    ((show W19 m c main_v14 = W18 m c main_v14 from by rw [← V19_eq, ← V18_eq]; exact V19_of m (outsF m) c main_v14 (by decide)).trans
    ((show W18 m c main_v14 = W17 m c main_v14 from by rw [← V18_eq, ← V17_eq]; exact V18_of m (outsF m) c main_v14 (by decide)).trans
    ((show W17 m c main_v14 = W16 m c main_v14 from by rw [← V17_eq, ← V16_eq]; exact V17_of m (outsF m) c main_v14 (by decide)).trans
    ((show W16 m c main_v14 = W15 m c main_v14 from by rw [← V16_eq, ← V15_eq]; exact V16_of m (outsF m) c main_v14 (by decide)).trans
    ((show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))))))))))))))

theorem keep_v21_14 (c : Dev nD) : W27 m c main_v21 = W2 m c main_v21 :=
  (show W27 m c main_v21 = W26 m c main_v21 from by rw [← V27_eq, ← V26_eq]; exact V27_of m (outsF m) c main_v21 (by decide)).trans
    ((show W26 m c main_v21 = W25 m c main_v21 from by rw [← V26_eq, ← V25_eq]; exact V26_of m (outsF m) c main_v21 (by decide)).trans
    ((show W25 m c main_v21 = W24 m c main_v21 from by rw [← V25_eq, ← V24_eq]; exact V25_of m (outsF m) c main_v21 (by decide)).trans
    ((show W24 m c main_v21 = W23 m c main_v21 from by rw [← V24_eq, ← V23_eq]; exact V24_of m (outsF m) c main_v21 (by decide)).trans
    ((show W23 m c main_v21 = W22 m c main_v21 from by rw [← V23_eq, ← V22_eq]; exact V23_of m (outsF m) c main_v21 (by decide)).trans
    ((show W22 m c main_v21 = W21 m c main_v21 from by rw [← V22_eq, ← V21_eq]; exact V22_of m (outsF m) c main_v21 (by decide)).trans
    ((show W21 m c main_v21 = W20 m c main_v21 from by rw [← V21_eq, ← V20_eq]; exact V21_of m (outsF m) c main_v21 (by decide)).trans
    ((show W20 m c main_v21 = W19 m c main_v21 from by rw [← V20_eq, ← V19_eq]; exact V20_of m (outsF m) c main_v21 (by decide)).trans
    ((show W19 m c main_v21 = W18 m c main_v21 from by rw [← V19_eq, ← V18_eq]; exact V19_of m (outsF m) c main_v21 (by decide)).trans
    ((show W18 m c main_v21 = W17 m c main_v21 from by rw [← V18_eq, ← V17_eq]; exact V18_of m (outsF m) c main_v21 (by decide)).trans
    ((show W17 m c main_v21 = W16 m c main_v21 from by rw [← V17_eq, ← V16_eq]; exact V17_of m (outsF m) c main_v21 (by decide)).trans
    ((show W16 m c main_v21 = W15 m c main_v21 from by rw [← V16_eq, ← V15_eq]; exact V16_of m (outsF m) c main_v21 (by decide)).trans
    ((show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))))))))))))))

theorem keep_r_14 (c : Dev nD) : W31 m c main_v77 = W30 m c main_v77 :=
  (show W31 m c main_v77 = W30 m c main_v77 from by rw [← V31_eq, ← V30_eq]; exact V31_of m (outsF m) c main_v77 (by decide))

theorem keep_v1_15 (c : Dev nD) : W30 m c main_v1 = W2 m c main_v1 :=
  (show W30 m c main_v1 = W29 m c main_v1 from by rw [← V30_eq, ← V29_eq]; exact V30_of m (outsF m) c main_v1 (by decide)).trans
    ((show W29 m c main_v1 = W28 m c main_v1 from by rw [← V29_eq, ← V28_eq]; exact V29_of m (outsF m) c main_v1 (by decide)).trans
    ((show W28 m c main_v1 = W27 m c main_v1 from by rw [← V28_eq, ← V27_eq]; exact V28_of m (outsF m) c main_v1 (by decide)).trans
    ((show W27 m c main_v1 = W26 m c main_v1 from by rw [← V27_eq, ← V26_eq]; exact V27_of m (outsF m) c main_v1 (by decide)).trans
    ((show W26 m c main_v1 = W25 m c main_v1 from by rw [← V26_eq, ← V25_eq]; exact V26_of m (outsF m) c main_v1 (by decide)).trans
    ((show W25 m c main_v1 = W24 m c main_v1 from by rw [← V25_eq, ← V24_eq]; exact V25_of m (outsF m) c main_v1 (by decide)).trans
    ((show W24 m c main_v1 = W23 m c main_v1 from by rw [← V24_eq, ← V23_eq]; exact V24_of m (outsF m) c main_v1 (by decide)).trans
    ((show W23 m c main_v1 = W22 m c main_v1 from by rw [← V23_eq, ← V22_eq]; exact V23_of m (outsF m) c main_v1 (by decide)).trans
    ((show W22 m c main_v1 = W21 m c main_v1 from by rw [← V22_eq, ← V21_eq]; exact V22_of m (outsF m) c main_v1 (by decide)).trans
    ((show W21 m c main_v1 = W20 m c main_v1 from by rw [← V21_eq, ← V20_eq]; exact V21_of m (outsF m) c main_v1 (by decide)).trans
    ((show W20 m c main_v1 = W19 m c main_v1 from by rw [← V20_eq, ← V19_eq]; exact V20_of m (outsF m) c main_v1 (by decide)).trans
    ((show W19 m c main_v1 = W18 m c main_v1 from by rw [← V19_eq, ← V18_eq]; exact V19_of m (outsF m) c main_v1 (by decide)).trans
    ((show W18 m c main_v1 = W17 m c main_v1 from by rw [← V18_eq, ← V17_eq]; exact V18_of m (outsF m) c main_v1 (by decide)).trans
    ((show W17 m c main_v1 = W16 m c main_v1 from by rw [← V17_eq, ← V16_eq]; exact V17_of m (outsF m) c main_v1 (by decide)).trans
    ((show W16 m c main_v1 = W15 m c main_v1 from by rw [← V16_eq, ← V15_eq]; exact V16_of m (outsF m) c main_v1 (by decide)).trans
    ((show W15 m c main_v1 = W14 m c main_v1 from by rw [← V15_eq, ← V14_eq]; exact V15_of m (outsF m) c main_v1 (by decide)).trans
    ((show W14 m c main_v1 = W13 m c main_v1 from by rw [← V14_eq, ← V13_eq]; exact V14_of m (outsF m) c main_v1 (by decide)).trans
    ((show W13 m c main_v1 = W12 m c main_v1 from by rw [← V13_eq, ← V12_eq]; exact V13_of m (outsF m) c main_v1 (by decide)).trans
    ((show W12 m c main_v1 = W11 m c main_v1 from by rw [← V12_eq, ← V11_eq]; exact V12_of m (outsF m) c main_v1 (by decide)).trans
    ((show W11 m c main_v1 = W10 m c main_v1 from by rw [← V11_eq, ← V10_eq]; exact V11_of m (outsF m) c main_v1 (by decide)).trans
    ((show W10 m c main_v1 = W9 m c main_v1 from by rw [← V10_eq, ← V9_eq]; exact V10_of m (outsF m) c main_v1 (by decide)).trans
    ((show W9 m c main_v1 = W8 m c main_v1 from by rw [← V9_eq, ← V8_eq]; exact V9_of m (outsF m) c main_v1 (by decide)).trans
    ((show W8 m c main_v1 = W7 m c main_v1 from by rw [← V8_eq, ← V7_eq]; exact V8_of m (outsF m) c main_v1 (by decide)).trans
    ((show W7 m c main_v1 = W6 m c main_v1 from by rw [← V7_eq, ← V6_eq]; exact V7_of m (outsF m) c main_v1 (by decide)).trans
    ((show W6 m c main_v1 = W5 m c main_v1 from by rw [← V6_eq, ← V5_eq]; exact V6_of m (outsF m) c main_v1 (by decide)).trans
    ((show W5 m c main_v1 = W4 m c main_v1 from by rw [← V5_eq, ← V4_eq]; exact V5_of m (outsF m) c main_v1 (by decide)).trans
    ((show W4 m c main_v1 = W3 m c main_v1 from by rw [← V4_eq, ← V3_eq]; exact V4_of m (outsF m) c main_v1 (by decide)).trans
    ((show W3 m c main_v1 = W2 m c main_v1 from by rw [← V3_eq, ← V2_eq]; exact V3_of m (outsF m) c main_v1 (by decide)))))))))))))))))))))))))))))

theorem keep_v14_15 (c : Dev nD) : W29 m c main_v14 = W2 m c main_v14 :=
  (show W29 m c main_v14 = W28 m c main_v14 from by rw [← V29_eq, ← V28_eq]; exact V29_of m (outsF m) c main_v14 (by decide)).trans
    ((show W28 m c main_v14 = W27 m c main_v14 from by rw [← V28_eq, ← V27_eq]; exact V28_of m (outsF m) c main_v14 (by decide)).trans
    ((show W27 m c main_v14 = W26 m c main_v14 from by rw [← V27_eq, ← V26_eq]; exact V27_of m (outsF m) c main_v14 (by decide)).trans
    ((show W26 m c main_v14 = W25 m c main_v14 from by rw [← V26_eq, ← V25_eq]; exact V26_of m (outsF m) c main_v14 (by decide)).trans
    ((show W25 m c main_v14 = W24 m c main_v14 from by rw [← V25_eq, ← V24_eq]; exact V25_of m (outsF m) c main_v14 (by decide)).trans
    ((show W24 m c main_v14 = W23 m c main_v14 from by rw [← V24_eq, ← V23_eq]; exact V24_of m (outsF m) c main_v14 (by decide)).trans
    ((show W23 m c main_v14 = W22 m c main_v14 from by rw [← V23_eq, ← V22_eq]; exact V23_of m (outsF m) c main_v14 (by decide)).trans
    ((show W22 m c main_v14 = W21 m c main_v14 from by rw [← V22_eq, ← V21_eq]; exact V22_of m (outsF m) c main_v14 (by decide)).trans
    ((show W21 m c main_v14 = W20 m c main_v14 from by rw [← V21_eq, ← V20_eq]; exact V21_of m (outsF m) c main_v14 (by decide)).trans
    ((show W20 m c main_v14 = W19 m c main_v14 from by rw [← V20_eq, ← V19_eq]; exact V20_of m (outsF m) c main_v14 (by decide)).trans
    ((show W19 m c main_v14 = W18 m c main_v14 from by rw [← V19_eq, ← V18_eq]; exact V19_of m (outsF m) c main_v14 (by decide)).trans
    ((show W18 m c main_v14 = W17 m c main_v14 from by rw [← V18_eq, ← V17_eq]; exact V18_of m (outsF m) c main_v14 (by decide)).trans
    ((show W17 m c main_v14 = W16 m c main_v14 from by rw [← V17_eq, ← V16_eq]; exact V17_of m (outsF m) c main_v14 (by decide)).trans
    ((show W16 m c main_v14 = W15 m c main_v14 from by rw [← V16_eq, ← V15_eq]; exact V16_of m (outsF m) c main_v14 (by decide)).trans
    ((show W15 m c main_v14 = W14 m c main_v14 from by rw [← V15_eq, ← V14_eq]; exact V15_of m (outsF m) c main_v14 (by decide)).trans
    ((show W14 m c main_v14 = W13 m c main_v14 from by rw [← V14_eq, ← V13_eq]; exact V14_of m (outsF m) c main_v14 (by decide)).trans
    ((show W13 m c main_v14 = W12 m c main_v14 from by rw [← V13_eq, ← V12_eq]; exact V13_of m (outsF m) c main_v14 (by decide)).trans
    ((show W12 m c main_v14 = W11 m c main_v14 from by rw [← V12_eq, ← V11_eq]; exact V12_of m (outsF m) c main_v14 (by decide)).trans
    ((show W11 m c main_v14 = W10 m c main_v14 from by rw [← V11_eq, ← V10_eq]; exact V11_of m (outsF m) c main_v14 (by decide)).trans
    ((show W10 m c main_v14 = W9 m c main_v14 from by rw [← V10_eq, ← V9_eq]; exact V10_of m (outsF m) c main_v14 (by decide)).trans
    ((show W9 m c main_v14 = W8 m c main_v14 from by rw [← V9_eq, ← V8_eq]; exact V9_of m (outsF m) c main_v14 (by decide)).trans
    ((show W8 m c main_v14 = W7 m c main_v14 from by rw [← V8_eq, ← V7_eq]; exact V8_of m (outsF m) c main_v14 (by decide)).trans
    ((show W7 m c main_v14 = W6 m c main_v14 from by rw [← V7_eq, ← V6_eq]; exact V7_of m (outsF m) c main_v14 (by decide)).trans
    ((show W6 m c main_v14 = W5 m c main_v14 from by rw [← V6_eq, ← V5_eq]; exact V6_of m (outsF m) c main_v14 (by decide)).trans
    ((show W5 m c main_v14 = W4 m c main_v14 from by rw [← V5_eq, ← V4_eq]; exact V5_of m (outsF m) c main_v14 (by decide)).trans
    ((show W4 m c main_v14 = W3 m c main_v14 from by rw [← V4_eq, ← V3_eq]; exact V4_of m (outsF m) c main_v14 (by decide)).trans
    ((show W3 m c main_v14 = W2 m c main_v14 from by rw [← V3_eq, ← V2_eq]; exact V3_of m (outsF m) c main_v14 (by decide))))))))))))))))))))))))))))

theorem keep_v21_15 (c : Dev nD) : W29 m c main_v21 = W2 m c main_v21 :=
  (show W29 m c main_v21 = W28 m c main_v21 from by rw [← V29_eq, ← V28_eq]; exact V29_of m (outsF m) c main_v21 (by decide)).trans
    ((show W28 m c main_v21 = W27 m c main_v21 from by rw [← V28_eq, ← V27_eq]; exact V28_of m (outsF m) c main_v21 (by decide)).trans
    ((show W27 m c main_v21 = W26 m c main_v21 from by rw [← V27_eq, ← V26_eq]; exact V27_of m (outsF m) c main_v21 (by decide)).trans
    ((show W26 m c main_v21 = W25 m c main_v21 from by rw [← V26_eq, ← V25_eq]; exact V26_of m (outsF m) c main_v21 (by decide)).trans
    ((show W25 m c main_v21 = W24 m c main_v21 from by rw [← V25_eq, ← V24_eq]; exact V25_of m (outsF m) c main_v21 (by decide)).trans
    ((show W24 m c main_v21 = W23 m c main_v21 from by rw [← V24_eq, ← V23_eq]; exact V24_of m (outsF m) c main_v21 (by decide)).trans
    ((show W23 m c main_v21 = W22 m c main_v21 from by rw [← V23_eq, ← V22_eq]; exact V23_of m (outsF m) c main_v21 (by decide)).trans
    ((show W22 m c main_v21 = W21 m c main_v21 from by rw [← V22_eq, ← V21_eq]; exact V22_of m (outsF m) c main_v21 (by decide)).trans
    ((show W21 m c main_v21 = W20 m c main_v21 from by rw [← V21_eq, ← V20_eq]; exact V21_of m (outsF m) c main_v21 (by decide)).trans
    ((show W20 m c main_v21 = W19 m c main_v21 from by rw [← V20_eq, ← V19_eq]; exact V20_of m (outsF m) c main_v21 (by decide)).trans
    ((show W19 m c main_v21 = W18 m c main_v21 from by rw [← V19_eq, ← V18_eq]; exact V19_of m (outsF m) c main_v21 (by decide)).trans
    ((show W18 m c main_v21 = W17 m c main_v21 from by rw [← V18_eq, ← V17_eq]; exact V18_of m (outsF m) c main_v21 (by decide)).trans
    ((show W17 m c main_v21 = W16 m c main_v21 from by rw [← V17_eq, ← V16_eq]; exact V17_of m (outsF m) c main_v21 (by decide)).trans
    ((show W16 m c main_v21 = W15 m c main_v21 from by rw [← V16_eq, ← V15_eq]; exact V16_of m (outsF m) c main_v21 (by decide)).trans
    ((show W15 m c main_v21 = W14 m c main_v21 from by rw [← V15_eq, ← V14_eq]; exact V15_of m (outsF m) c main_v21 (by decide)).trans
    ((show W14 m c main_v21 = W13 m c main_v21 from by rw [← V14_eq, ← V13_eq]; exact V14_of m (outsF m) c main_v21 (by decide)).trans
    ((show W13 m c main_v21 = W12 m c main_v21 from by rw [← V13_eq, ← V12_eq]; exact V13_of m (outsF m) c main_v21 (by decide)).trans
    ((show W12 m c main_v21 = W11 m c main_v21 from by rw [← V12_eq, ← V11_eq]; exact V12_of m (outsF m) c main_v21 (by decide)).trans
    ((show W11 m c main_v21 = W10 m c main_v21 from by rw [← V11_eq, ← V10_eq]; exact V11_of m (outsF m) c main_v21 (by decide)).trans
    ((show W10 m c main_v21 = W9 m c main_v21 from by rw [← V10_eq, ← V9_eq]; exact V10_of m (outsF m) c main_v21 (by decide)).trans
    ((show W9 m c main_v21 = W8 m c main_v21 from by rw [← V9_eq, ← V8_eq]; exact V9_of m (outsF m) c main_v21 (by decide)).trans
    ((show W8 m c main_v21 = W7 m c main_v21 from by rw [← V8_eq, ← V7_eq]; exact V8_of m (outsF m) c main_v21 (by decide)).trans
    ((show W7 m c main_v21 = W6 m c main_v21 from by rw [← V7_eq, ← V6_eq]; exact V7_of m (outsF m) c main_v21 (by decide)).trans
    ((show W6 m c main_v21 = W5 m c main_v21 from by rw [← V6_eq, ← V5_eq]; exact V6_of m (outsF m) c main_v21 (by decide)).trans
    ((show W5 m c main_v21 = W4 m c main_v21 from by rw [← V5_eq, ← V4_eq]; exact V5_of m (outsF m) c main_v21 (by decide)).trans
    ((show W4 m c main_v21 = W3 m c main_v21 from by rw [← V4_eq, ← V3_eq]; exact V4_of m (outsF m) c main_v21 (by decide)).trans
    ((show W3 m c main_v21 = W2 m c main_v21 from by rw [← V3_eq, ← V2_eq]; exact V3_of m (outsF m) c main_v21 (by decide))))))))))))))))))))))))))))

end Cert.KernelIdeal.GenP

end
-- ==== Proof.KernelIdeal.OkTables.lean ====
/-
  The side condition on the prefetched tables' contents, from a range of their words.  In each of the fifteen
  gathering regions the two input windows' index maps read one word w of a table at the grid point and return the
  block index (w, 0, 0); the blocks have extent (1, 1, 128) and the gathered array has extent (163842, 1, 128), so a
  block lies inside the array exactly when (w + 1) * 1 ≤ 163842 on axis 0 (axes 1 and 2 are whole).  A word that,
  read signed, lies in [0, 163842) has the same value read unsigned, so it is below 163842 and its block fits.  The
  element type is one word wide, which settles the word-exactness of the transfer ends.
-/
import proofs.«175043_j76819785056407_2_alg».proof.KernelIdeal

noncomputable section

namespace Cert.KernelIdeal.GenP

open Cert.KernelIdeal
open Idealize.ShloMosaic Idealize.ShloMosaic.TcCoe Idealize.SL.Sem

variable {F : FTy → Type} [FloatOps F]
variable [Facts₀]
open Facts₀

/-- A 32-bit word that read signed lies in [0, n) is below n read unsigned. -/
theorem toNat_lt_of_toInt (w : BitVec 32) (n : Nat) (h0 : 0 ≤ w.toInt) (h1 : w.toInt < (n : Int)) : w.toNat < n := by
  have hw := w.isLt
  rw [BitVec.toInt_eq_toNat_cond] at h0 h1
  by_cases hc : 2 * w.toNat < 2 ^ 32
  · rw [if_pos hc] at h0 h1; omega
  · rw [if_neg hc] at h0 h1; omega

/-- A block index (w, 0, 0) with w < 163842: the block of extent (1, 1, 128) lies inside the (163842, 1, 128) array. -/
theorem block_fits (w : Nat) (hw : w < 163842) :
    ∀ a, ((![w, 0, 0] : Fin 3 → Nat) a + 1) * S1x1x128.size a ≤ S163842x1x128.size a := by
  intro a
  fin_cases a <;> simp [S1x1x128, S163842x1x128] <;> omega

/-! ## Region 1 -/

/-- Window 0's index map returns (w, 0, 0), w a word of table 0. -/
theorem cc1_transform_0_eq (pf : pre1.Contents (Elt F)) (i : grid1.Coords) :
    ∃ j, cc1_transform_0 k1_off1_inb numel1_S1 pf i = ![(pf 0 j).toNat, 0, 0] := ⟨_, rfl⟩

/-- Window 1's index map returns (w, 0, 0), w a word of table 1. -/
theorem cc1_transform_1_eq (pf : pre1.Contents (Elt F)) (i : grid1.Coords) :
    ∃ j, cc1_transform_1 k1_off1_inb numel1_S1 pf i = ![(pf 1 j).toNat, 0, 0] := ⟨_, rfl⟩

/-- Both tables' words in [0, 163842): every block the two windows fetch lies inside the gathered array. -/
theorem ok1_of_range (pf : pre1.Contents (Elt F))
    (h0 : ∀ i, 0 ≤ (pf 0 i).toInt ∧ (pf 0 i).toInt < 163842)
    (h1 : ∀ i, 0 ≤ (pf 1 i).toInt ∧ (pf 1 i).toInt < 163842) : ok1 (F := F) pf := by
  refine ⟨fun i => ?_, fun i => ?_⟩
  · obtain ⟨j, e⟩ := cc1_transform_0_eq pf i
    refine ⟨?_, Or.inl rfl⟩
    rw [e]
    exact block_fits _ (toNat_lt_of_toInt _ 163842 (h0 j).1 (h0 j).2)
  · obtain ⟨j, e⟩ := cc1_transform_1_eq pf i
    refine ⟨?_, Or.inl rfl⟩
    rw [e]
    exact block_fits _ (toNat_lt_of_toInt _ 163842 (h1 j).1 (h1 j).2)

/-! ## Region 2 -/

/-- Window 0's index map returns (w, 0, 0), w a word of table 0. -/
theorem cc2_transform_0_eq (pf : pre2.Contents (Elt F)) (i : grid2.Coords) :
    ∃ j, cc2_transform_0 k2_off1_inb numel1_S1 pf i = ![(pf 0 j).toNat, 0, 0] := ⟨_, rfl⟩

/-- Window 1's index map returns (w, 0, 0), w a word of table 1. -/
theorem cc2_transform_1_eq (pf : pre2.Contents (Elt F)) (i : grid2.Coords) :
    ∃ j, cc2_transform_1 k2_off1_inb numel1_S1 pf i = ![(pf 1 j).toNat, 0, 0] := ⟨_, rfl⟩

/-- Both tables' words in [0, 163842): every block the two windows fetch lies inside the gathered array. -/
theorem ok2_of_range (pf : pre2.Contents (Elt F))
    (h0 : ∀ i, 0 ≤ (pf 0 i).toInt ∧ (pf 0 i).toInt < 163842)
    (h1 : ∀ i, 0 ≤ (pf 1 i).toInt ∧ (pf 1 i).toInt < 163842) : ok2 (F := F) pf := by
  refine ⟨fun i => ?_, fun i => ?_⟩
  · obtain ⟨j, e⟩ := cc2_transform_0_eq pf i
    refine ⟨?_, Or.inl rfl⟩
    rw [e]
    exact block_fits _ (toNat_lt_of_toInt _ 163842 (h0 j).1 (h0 j).2)
  · obtain ⟨j, e⟩ := cc2_transform_1_eq pf i
    refine ⟨?_, Or.inl rfl⟩
    rw [e]
    exact block_fits _ (toNat_lt_of_toInt _ 163842 (h1 j).1 (h1 j).2)

/-! ## Region 3 -/

/-- Window 0's index map returns (w, 0, 0), w a word of table 0. -/
theorem cc3_transform_0_eq (pf : pre3.Contents (Elt F)) (i : grid3.Coords) :
    ∃ j, cc3_transform_0 k3_off1_inb numel1_S1 pf i = ![(pf 0 j).toNat, 0, 0] := ⟨_, rfl⟩

/-- Window 1's index map returns (w, 0, 0), w a word of table 1. -/
theorem cc3_transform_1_eq (pf : pre3.Contents (Elt F)) (i : grid3.Coords) :
    ∃ j, cc3_transform_1 k3_off1_inb numel1_S1 pf i = ![(pf 1 j).toNat, 0, 0] := ⟨_, rfl⟩

/-- Both tables' words in [0, 163842): every block the two windows fetch lies inside the gathered array. -/
theorem ok3_of_range (pf : pre3.Contents (Elt F))
    (h0 : ∀ i, 0 ≤ (pf 0 i).toInt ∧ (pf 0 i).toInt < 163842)
    (h1 : ∀ i, 0 ≤ (pf 1 i).toInt ∧ (pf 1 i).toInt < 163842) : ok3 (F := F) pf := by
  refine ⟨fun i => ?_, fun i => ?_⟩
  · obtain ⟨j, e⟩ := cc3_transform_0_eq pf i
    refine ⟨?_, Or.inl rfl⟩
    rw [e]
    exact block_fits _ (toNat_lt_of_toInt _ 163842 (h0 j).1 (h0 j).2)
  · obtain ⟨j, e⟩ := cc3_transform_1_eq pf i
    refine ⟨?_, Or.inl rfl⟩
    rw [e]
    exact block_fits _ (toNat_lt_of_toInt _ 163842 (h1 j).1 (h1 j).2)

/-! ## Region 4 -/

/-- Window 0's index map returns (w, 0, 0), w a word of table 0. -/
theorem cc4_transform_0_eq (pf : pre4.Contents (Elt F)) (i : grid4.Coords) :
    ∃ j, cc4_transform_0 k4_off1_inb numel1_S1 pf i = ![(pf 0 j).toNat, 0, 0] := ⟨_, rfl⟩

/-- Window 1's index map returns (w, 0, 0), w a word of table 1. -/
theorem cc4_transform_1_eq (pf : pre4.Contents (Elt F)) (i : grid4.Coords) :
    ∃ j, cc4_transform_1 k4_off1_inb numel1_S1 pf i = ![(pf 1 j).toNat, 0, 0] := ⟨_, rfl⟩

/-- Both tables' words in [0, 163842): every block the two windows fetch lies inside the gathered array. -/
theorem ok4_of_range (pf : pre4.Contents (Elt F))
    (h0 : ∀ i, 0 ≤ (pf 0 i).toInt ∧ (pf 0 i).toInt < 163842)
    (h1 : ∀ i, 0 ≤ (pf 1 i).toInt ∧ (pf 1 i).toInt < 163842) : ok4 (F := F) pf := by
  refine ⟨fun i => ?_, fun i => ?_⟩
  · obtain ⟨j, e⟩ := cc4_transform_0_eq pf i
    refine ⟨?_, Or.inl rfl⟩
    rw [e]
    exact block_fits _ (toNat_lt_of_toInt _ 163842 (h0 j).1 (h0 j).2)
  · obtain ⟨j, e⟩ := cc4_transform_1_eq pf i
    refine ⟨?_, Or.inl rfl⟩
    rw [e]
    exact block_fits _ (toNat_lt_of_toInt _ 163842 (h1 j).1 (h1 j).2)

/-! ## Region 5 -/

/-- Window 0's index map returns (w, 0, 0), w a word of table 0. -/
theorem cc5_transform_0_eq (pf : pre5.Contents (Elt F)) (i : grid5.Coords) :
    ∃ j, cc5_transform_0 k5_off1_inb numel1_S1 pf i = ![(pf 0 j).toNat, 0, 0] := ⟨_, rfl⟩

/-- Window 1's index map returns (w, 0, 0), w a word of table 1. -/
theorem cc5_transform_1_eq (pf : pre5.Contents (Elt F)) (i : grid5.Coords) :
    ∃ j, cc5_transform_1 k5_off1_inb numel1_S1 pf i = ![(pf 1 j).toNat, 0, 0] := ⟨_, rfl⟩

/-- Both tables' words in [0, 163842): every block the two windows fetch lies inside the gathered array. -/
theorem ok5_of_range (pf : pre5.Contents (Elt F))
    (h0 : ∀ i, 0 ≤ (pf 0 i).toInt ∧ (pf 0 i).toInt < 163842)
    (h1 : ∀ i, 0 ≤ (pf 1 i).toInt ∧ (pf 1 i).toInt < 163842) : ok5 (F := F) pf := by
  refine ⟨fun i => ?_, fun i => ?_⟩
  · obtain ⟨j, e⟩ := cc5_transform_0_eq pf i
    refine ⟨?_, Or.inl rfl⟩
    rw [e]
    exact block_fits _ (toNat_lt_of_toInt _ 163842 (h0 j).1 (h0 j).2)
  · obtain ⟨j, e⟩ := cc5_transform_1_eq pf i
    refine ⟨?_, Or.inl rfl⟩
    rw [e]
    exact block_fits _ (toNat_lt_of_toInt _ 163842 (h1 j).1 (h1 j).2)

/-! ## Region 6 -/

/-- Window 0's index map returns (w, 0, 0), w a word of table 0. -/
theorem cc6_transform_0_eq (pf : pre6.Contents (Elt F)) (i : grid6.Coords) :
    ∃ j, cc6_transform_0 k6_off1_inb numel1_S1 pf i = ![(pf 0 j).toNat, 0, 0] := ⟨_, rfl⟩

/-- Window 1's index map returns (w, 0, 0), w a word of table 1. -/
theorem cc6_transform_1_eq (pf : pre6.Contents (Elt F)) (i : grid6.Coords) :
    ∃ j, cc6_transform_1 k6_off1_inb numel1_S1 pf i = ![(pf 1 j).toNat, 0, 0] := ⟨_, rfl⟩

/-- Both tables' words in [0, 163842): every block the two windows fetch lies inside the gathered array. -/
theorem ok6_of_range (pf : pre6.Contents (Elt F))
    (h0 : ∀ i, 0 ≤ (pf 0 i).toInt ∧ (pf 0 i).toInt < 163842)
    (h1 : ∀ i, 0 ≤ (pf 1 i).toInt ∧ (pf 1 i).toInt < 163842) : ok6 (F := F) pf := by
  refine ⟨fun i => ?_, fun i => ?_⟩
  · obtain ⟨j, e⟩ := cc6_transform_0_eq pf i
    refine ⟨?_, Or.inl rfl⟩
    rw [e]
    exact block_fits _ (toNat_lt_of_toInt _ 163842 (h0 j).1 (h0 j).2)
  · obtain ⟨j, e⟩ := cc6_transform_1_eq pf i
    refine ⟨?_, Or.inl rfl⟩
    rw [e]
    exact block_fits _ (toNat_lt_of_toInt _ 163842 (h1 j).1 (h1 j).2)

/-! ## Region 7 -/

/-- Window 0's index map returns (w, 0, 0), w a word of table 0. -/
theorem cc7_transform_0_eq (pf : pre7.Contents (Elt F)) (i : grid7.Coords) :
    ∃ j, cc7_transform_0 k7_off1_inb numel1_S1 pf i = ![(pf 0 j).toNat, 0, 0] := ⟨_, rfl⟩

/-- Window 1's index map returns (w, 0, 0), w a word of table 1. -/
theorem cc7_transform_1_eq (pf : pre7.Contents (Elt F)) (i : grid7.Coords) :
    ∃ j, cc7_transform_1 k7_off1_inb numel1_S1 pf i = ![(pf 1 j).toNat, 0, 0] := ⟨_, rfl⟩

/-- Both tables' words in [0, 163842): every block the two windows fetch lies inside the gathered array. -/
theorem ok7_of_range (pf : pre7.Contents (Elt F))
    (h0 : ∀ i, 0 ≤ (pf 0 i).toInt ∧ (pf 0 i).toInt < 163842)
    (h1 : ∀ i, 0 ≤ (pf 1 i).toInt ∧ (pf 1 i).toInt < 163842) : ok7 (F := F) pf := by
  refine ⟨fun i => ?_, fun i => ?_⟩
  · obtain ⟨j, e⟩ := cc7_transform_0_eq pf i
    refine ⟨?_, Or.inl rfl⟩
    rw [e]
    exact block_fits _ (toNat_lt_of_toInt _ 163842 (h0 j).1 (h0 j).2)
  · obtain ⟨j, e⟩ := cc7_transform_1_eq pf i
    refine ⟨?_, Or.inl rfl⟩
    rw [e]
    exact block_fits _ (toNat_lt_of_toInt _ 163842 (h1 j).1 (h1 j).2)

/-! ## Region 8 -/

/-- Window 0's index map returns (w, 0, 0), w a word of table 0. -/
theorem cc8_transform_0_eq (pf : pre8.Contents (Elt F)) (i : grid8.Coords) :
    ∃ j, cc8_transform_0 k8_off1_inb numel1_S1 pf i = ![(pf 0 j).toNat, 0, 0] := ⟨_, rfl⟩

/-- Window 1's index map returns (w, 0, 0), w a word of table 1. -/
theorem cc8_transform_1_eq (pf : pre8.Contents (Elt F)) (i : grid8.Coords) :
    ∃ j, cc8_transform_1 k8_off1_inb numel1_S1 pf i = ![(pf 1 j).toNat, 0, 0] := ⟨_, rfl⟩

/-- Both tables' words in [0, 163842): every block the two windows fetch lies inside the gathered array. -/
theorem ok8_of_range (pf : pre8.Contents (Elt F))
    (h0 : ∀ i, 0 ≤ (pf 0 i).toInt ∧ (pf 0 i).toInt < 163842)
    (h1 : ∀ i, 0 ≤ (pf 1 i).toInt ∧ (pf 1 i).toInt < 163842) : ok8 (F := F) pf := by
  refine ⟨fun i => ?_, fun i => ?_⟩
  · obtain ⟨j, e⟩ := cc8_transform_0_eq pf i
    refine ⟨?_, Or.inl rfl⟩
    rw [e]
    exact block_fits _ (toNat_lt_of_toInt _ 163842 (h0 j).1 (h0 j).2)
  · obtain ⟨j, e⟩ := cc8_transform_1_eq pf i
    refine ⟨?_, Or.inl rfl⟩
    rw [e]
    exact block_fits _ (toNat_lt_of_toInt _ 163842 (h1 j).1 (h1 j).2)

/-! ## Region 9 -/

/-- Window 0's index map returns (w, 0, 0), w a word of table 0. -/
theorem cc9_transform_0_eq (pf : pre9.Contents (Elt F)) (i : grid9.Coords) :
    ∃ j, cc9_transform_0 k9_off1_inb numel1_S1 pf i = ![(pf 0 j).toNat, 0, 0] := ⟨_, rfl⟩

/-- Window 1's index map returns (w, 0, 0), w a word of table 1. -/
theorem cc9_transform_1_eq (pf : pre9.Contents (Elt F)) (i : grid9.Coords) :
    ∃ j, cc9_transform_1 k9_off1_inb numel1_S1 pf i = ![(pf 1 j).toNat, 0, 0] := ⟨_, rfl⟩

/-- Both tables' words in [0, 163842): every block the two windows fetch lies inside the gathered array. -/
theorem ok9_of_range (pf : pre9.Contents (Elt F))
    (h0 : ∀ i, 0 ≤ (pf 0 i).toInt ∧ (pf 0 i).toInt < 163842)
    (h1 : ∀ i, 0 ≤ (pf 1 i).toInt ∧ (pf 1 i).toInt < 163842) : ok9 (F := F) pf := by
  refine ⟨fun i => ?_, fun i => ?_⟩
  · obtain ⟨j, e⟩ := cc9_transform_0_eq pf i
    refine ⟨?_, Or.inl rfl⟩
    rw [e]
    exact block_fits _ (toNat_lt_of_toInt _ 163842 (h0 j).1 (h0 j).2)
  · obtain ⟨j, e⟩ := cc9_transform_1_eq pf i
    refine ⟨?_, Or.inl rfl⟩
    rw [e]
    exact block_fits _ (toNat_lt_of_toInt _ 163842 (h1 j).1 (h1 j).2)

/-! ## Region 10 -/

/-- Window 0's index map returns (w, 0, 0), w a word of table 0. -/
theorem cc10_transform_0_eq (pf : pre10.Contents (Elt F)) (i : grid10.Coords) :
    ∃ j, cc10_transform_0 k10_off1_inb numel1_S1 pf i = ![(pf 0 j).toNat, 0, 0] := ⟨_, rfl⟩

/-- Window 1's index map returns (w, 0, 0), w a word of table 1. -/
theorem cc10_transform_1_eq (pf : pre10.Contents (Elt F)) (i : grid10.Coords) :
    ∃ j, cc10_transform_1 k10_off1_inb numel1_S1 pf i = ![(pf 1 j).toNat, 0, 0] := ⟨_, rfl⟩

/-- Both tables' words in [0, 163842): every block the two windows fetch lies inside the gathered array. -/
theorem ok10_of_range (pf : pre10.Contents (Elt F))
    (h0 : ∀ i, 0 ≤ (pf 0 i).toInt ∧ (pf 0 i).toInt < 163842)
    (h1 : ∀ i, 0 ≤ (pf 1 i).toInt ∧ (pf 1 i).toInt < 163842) : ok10 (F := F) pf := by
  refine ⟨fun i => ?_, fun i => ?_⟩
  · obtain ⟨j, e⟩ := cc10_transform_0_eq pf i
    refine ⟨?_, Or.inl rfl⟩
    rw [e]
    exact block_fits _ (toNat_lt_of_toInt _ 163842 (h0 j).1 (h0 j).2)
  · obtain ⟨j, e⟩ := cc10_transform_1_eq pf i
    refine ⟨?_, Or.inl rfl⟩
    rw [e]
    exact block_fits _ (toNat_lt_of_toInt _ 163842 (h1 j).1 (h1 j).2)

/-! ## Region 11 -/

/-- Window 0's index map returns (w, 0, 0), w a word of table 0. -/
theorem cc11_transform_0_eq (pf : pre11.Contents (Elt F)) (i : grid11.Coords) :
    ∃ j, cc11_transform_0 k11_off1_inb numel1_S1 pf i = ![(pf 0 j).toNat, 0, 0] := ⟨_, rfl⟩

/-- Window 1's index map returns (w, 0, 0), w a word of table 1. -/
theorem cc11_transform_1_eq (pf : pre11.Contents (Elt F)) (i : grid11.Coords) :
    ∃ j, cc11_transform_1 k11_off1_inb numel1_S1 pf i = ![(pf 1 j).toNat, 0, 0] := ⟨_, rfl⟩

/-- Both tables' words in [0, 163842): every block the two windows fetch lies inside the gathered array. -/
theorem ok11_of_range (pf : pre11.Contents (Elt F))
    (h0 : ∀ i, 0 ≤ (pf 0 i).toInt ∧ (pf 0 i).toInt < 163842)
    (h1 : ∀ i, 0 ≤ (pf 1 i).toInt ∧ (pf 1 i).toInt < 163842) : ok11 (F := F) pf := by
  refine ⟨fun i => ?_, fun i => ?_⟩
  · obtain ⟨j, e⟩ := cc11_transform_0_eq pf i
    refine ⟨?_, Or.inl rfl⟩
    rw [e]
    exact block_fits _ (toNat_lt_of_toInt _ 163842 (h0 j).1 (h0 j).2)
  · obtain ⟨j, e⟩ := cc11_transform_1_eq pf i
    refine ⟨?_, Or.inl rfl⟩
    rw [e]
    exact block_fits _ (toNat_lt_of_toInt _ 163842 (h1 j).1 (h1 j).2)

/-! ## Region 12 -/

/-- Window 0's index map returns (w, 0, 0), w a word of table 0. -/
theorem cc12_transform_0_eq (pf : pre12.Contents (Elt F)) (i : grid12.Coords) :
    ∃ j, cc12_transform_0 k12_off1_inb numel1_S1 pf i = ![(pf 0 j).toNat, 0, 0] := ⟨_, rfl⟩

/-- Window 1's index map returns (w, 0, 0), w a word of table 1. -/
theorem cc12_transform_1_eq (pf : pre12.Contents (Elt F)) (i : grid12.Coords) :
    ∃ j, cc12_transform_1 k12_off1_inb numel1_S1 pf i = ![(pf 1 j).toNat, 0, 0] := ⟨_, rfl⟩

/-- Both tables' words in [0, 163842): every block the two windows fetch lies inside the gathered array. -/
theorem ok12_of_range (pf : pre12.Contents (Elt F))
    (h0 : ∀ i, 0 ≤ (pf 0 i).toInt ∧ (pf 0 i).toInt < 163842)
    (h1 : ∀ i, 0 ≤ (pf 1 i).toInt ∧ (pf 1 i).toInt < 163842) : ok12 (F := F) pf := by
  refine ⟨fun i => ?_, fun i => ?_⟩
  · obtain ⟨j, e⟩ := cc12_transform_0_eq pf i
    refine ⟨?_, Or.inl rfl⟩
    rw [e]
    exact block_fits _ (toNat_lt_of_toInt _ 163842 (h0 j).1 (h0 j).2)
  · obtain ⟨j, e⟩ := cc12_transform_1_eq pf i
    refine ⟨?_, Or.inl rfl⟩
    rw [e]
    exact block_fits _ (toNat_lt_of_toInt _ 163842 (h1 j).1 (h1 j).2)

/-! ## Region 13 -/

/-- Window 0's index map returns (w, 0, 0), w a word of table 0. -/
theorem cc13_transform_0_eq (pf : pre13.Contents (Elt F)) (i : grid13.Coords) :
    ∃ j, cc13_transform_0 k13_off1_inb numel1_S1 pf i = ![(pf 0 j).toNat, 0, 0] := ⟨_, rfl⟩

/-- Window 1's index map returns (w, 0, 0), w a word of table 1. -/
theorem cc13_transform_1_eq (pf : pre13.Contents (Elt F)) (i : grid13.Coords) :
    ∃ j, cc13_transform_1 k13_off1_inb numel1_S1 pf i = ![(pf 1 j).toNat, 0, 0] := ⟨_, rfl⟩

/-- Both tables' words in [0, 163842): every block the two windows fetch lies inside the gathered array. -/
theorem ok13_of_range (pf : pre13.Contents (Elt F))
    (h0 : ∀ i, 0 ≤ (pf 0 i).toInt ∧ (pf 0 i).toInt < 163842)
    (h1 : ∀ i, 0 ≤ (pf 1 i).toInt ∧ (pf 1 i).toInt < 163842) : ok13 (F := F) pf := by
  refine ⟨fun i => ?_, fun i => ?_⟩
  · obtain ⟨j, e⟩ := cc13_transform_0_eq pf i
    refine ⟨?_, Or.inl rfl⟩
    rw [e]
    exact block_fits _ (toNat_lt_of_toInt _ 163842 (h0 j).1 (h0 j).2)
  · obtain ⟨j, e⟩ := cc13_transform_1_eq pf i
    refine ⟨?_, Or.inl rfl⟩
    rw [e]
    exact block_fits _ (toNat_lt_of_toInt _ 163842 (h1 j).1 (h1 j).2)

/-! ## Region 14 -/

/-- Window 0's index map returns (w, 0, 0), w a word of table 0. -/
theorem cc14_transform_0_eq (pf : pre14.Contents (Elt F)) (i : grid14.Coords) :
    ∃ j, cc14_transform_0 k14_off1_inb numel1_S1 pf i = ![(pf 0 j).toNat, 0, 0] := ⟨_, rfl⟩

/-- Window 1's index map returns (w, 0, 0), w a word of table 1. -/
theorem cc14_transform_1_eq (pf : pre14.Contents (Elt F)) (i : grid14.Coords) :
    ∃ j, cc14_transform_1 k14_off1_inb numel1_S1 pf i = ![(pf 1 j).toNat, 0, 0] := ⟨_, rfl⟩

/-- Both tables' words in [0, 163842): every block the two windows fetch lies inside the gathered array. -/
theorem ok14_of_range (pf : pre14.Contents (Elt F))
    (h0 : ∀ i, 0 ≤ (pf 0 i).toInt ∧ (pf 0 i).toInt < 163842)
    (h1 : ∀ i, 0 ≤ (pf 1 i).toInt ∧ (pf 1 i).toInt < 163842) : ok14 (F := F) pf := by
  refine ⟨fun i => ?_, fun i => ?_⟩
  · obtain ⟨j, e⟩ := cc14_transform_0_eq pf i
    refine ⟨?_, Or.inl rfl⟩
    rw [e]
    exact block_fits _ (toNat_lt_of_toInt _ 163842 (h0 j).1 (h0 j).2)
  · obtain ⟨j, e⟩ := cc14_transform_1_eq pf i
    refine ⟨?_, Or.inl rfl⟩
    rw [e]
    exact block_fits _ (toNat_lt_of_toInt _ 163842 (h1 j).1 (h1 j).2)

/-! ## Region 15 -/

/-- Window 0's index map returns (w, 0, 0), w a word of table 0. -/
theorem cc15_transform_0_eq (pf : pre15.Contents (Elt F)) (i : grid15.Coords) :
    ∃ j, cc15_transform_0 k15_off1_inb numel1_S1 pf i = ![(pf 0 j).toNat, 0, 0] := ⟨_, rfl⟩

/-- Window 1's index map returns (w, 0, 0), w a word of table 1. -/
theorem cc15_transform_1_eq (pf : pre15.Contents (Elt F)) (i : grid15.Coords) :
    ∃ j, cc15_transform_1 k15_off1_inb numel1_S1 pf i = ![(pf 1 j).toNat, 0, 0] := ⟨_, rfl⟩

/-- Both tables' words in [0, 163842): every block the two windows fetch lies inside the gathered array. -/
theorem ok15_of_range (pf : pre15.Contents (Elt F))
    (h0 : ∀ i, 0 ≤ (pf 0 i).toInt ∧ (pf 0 i).toInt < 163842)
    (h1 : ∀ i, 0 ≤ (pf 1 i).toInt ∧ (pf 1 i).toInt < 163842) : ok15 (F := F) pf := by
  refine ⟨fun i => ?_, fun i => ?_⟩
  · obtain ⟨j, e⟩ := cc15_transform_0_eq pf i
    refine ⟨?_, Or.inl rfl⟩
    rw [e]
    exact block_fits _ (toNat_lt_of_toInt _ 163842 (h0 j).1 (h0 j).2)
  · obtain ⟨j, e⟩ := cc15_transform_1_eq pf i
    refine ⟨?_, Or.inl rfl⟩
    rw [e]
    exact block_fits _ (toNat_lt_of_toInt _ 163842 (h1 j).1 (h1 j).2)

end Cert.KernelIdeal.GenP

end
-- ==== Proof.KernelIdeal.OkChain.lean ====
/- The prefetched tables' admissibility at every gathering region, from the range of the index array's words. -/
import proofs.«175043_j76819785056407_2_alg».proof.Proof.KernelIdeal.Keep
import proofs.«175043_j76819785056407_2_alg».proof.Proof.KernelIdeal.OkTables

set_option maxRecDepth 65536

noncomputable section

namespace Cert.KernelIdeal.GenP

open Cert.KernelIdeal Cert.KernelIdeal.Gen
open Idealize.ShloMosaic Idealize.ShloMosaic.TcCoe Idealize.SL.Sem

variable {F : FTy → Type} [FloatOps F]

/-! ## Words in range, and the operations that only move words -/

/-- A word that, read signed, is a row of the gathered array. -/
abbrev InR (w : BitVec 32) : Prop := 0 ≤ w.toInt ∧ w.toInt < 163842

/-- A slice, a reshape and a gather of an array read words of the array: if every word of it is in range, so is every word
    of the result. -/
theorem inR_slice {s t : Shape} (off : Fin s.rank → Nat) (x : s.Idx → BitVec 32) (h : s.Slices off t)
    (hx : ∀ i, InR (x i)) (j : t.Idx) : InR (extractStridedSlice t off x h j) := hx _
theorem inR_cast {s t : Shape} (x : s.Idx → BitVec 32) (h : s.ShapeCasts t) (hx : ∀ i, InR (x i)) (j : t.Idx) :
    InR (shapeCast t x h j) := hx _
theorem inR_gather {s si t : Shape} {w : Nat} (d : GatherDims s si t) (x : s.Idx → BitVec 32) (idx : IVec si w)
    (hx : ∀ i, InR (x i)) (j : t.Idx) : InR (Host.gather d x idx j) := hx _

variable (m : (ℓ : Loc nD τ sig) → Buf (Elt F) ℓ)

/-- The first region writes its two results only: the index array is as launched. -/
theorem W1_arg1_any (c : Dev nD) : W1 m c main_arg1 = W0 m c main_arg1 := by
  unfold W1
  rw [Function.update_of_ne (StableHlo.devRef_ne_of_ne (by decide : (main_arg1 : Ref sig .tc) ≠ main_v0_1)),
    Function.update_of_ne (StableHlo.devRef_ne_of_ne (by decide : (main_arg1 : Ref sig .tc) ≠ main_v0_0))]

section
variable (hin : ∀ (c : Dev nD) i, 0 ≤ ((m ((c : Thread nD τ).loc main_arg1) : IVec S3x163840x2 32) i).toInt
  ∧ ((m ((c : Thread nD τ).loc main_arg1) : IVec S3x163840x2 32) i).toInt < 163842)
include hin

/-! ## The first host stretch: the two gathered index arrays and the first pair of tables

Each is a gather, at some positions, of a reshaped slice of the index array: its words are words of that array. -/

theorem W2_v14_inR (c : Dev nD) : ∀ i, InR ((W2 m c main_v14 : IVec S491520 32) i) := by
  unfold W2
  after_results
  rw [W1_arg1_any]
  intro i
  exact inR_gather _ _ _ (fun j => inR_cast _ _ (fun j => inR_cast _ _ (fun j => inR_slice _ _ _ (hin c) j) j) j) i

set_option maxHeartbeats 2000000 in
theorem W2_v21_inR (c : Dev nD) : ∀ i, InR ((W2 m c main_v21 : IVec S491520 32) i) := by
  unfold W2
  after_results
  rw [W1_arg1_any]
  intro i
  exact inR_gather _ _ _ (fun j => inR_cast _ _ (fun j => inR_cast _ _ (fun j => inR_slice _ _ _ (hin c) j) j) j) i

theorem W2_v22_inR (c : Dev nD) : ∀ i, InR ((W2 m c main_v22 : IVec S32768 32) i) := by
  unfold W2
  after_results
  rw [W1_arg1_any]
  intro i
  exact inR_slice _ _ _ (fun j => inR_gather _ _ _ (fun j => inR_cast _ _ (fun j => inR_cast _ _
    (fun j => inR_slice _ _ _ (hin c) j) j) j) j) i

set_option maxHeartbeats 2000000 in
theorem W2_v23_inR (c : Dev nD) : ∀ i, InR ((W2 m c main_v23 : IVec S32768 32) i) := by
  unfold W2
  after_results
  rw [W1_arg1_any]
  intro i
  exact inR_slice _ _ _ (fun j => inR_gather _ _ _ (fun j => inR_cast _ _ (fun j => inR_cast _ _
    (fun j => inR_slice _ _ _ (hin c) j) j) j) j) i

/-- Region 1's tables are admissible. -/
theorem okc_1 : Ok1 (VW (W2 m)) :=
  ok1_of_range _ (fun i => W2_v22_inR m hin 0 i) (fun i => W2_v23_inR m hin 0 i)

/-! ## Region 2: its tables are the slices [32768, 65536) of the two gathered index arrays -/

theorem W4_v26_inR (c : Dev nD) : ∀ i, InR ((W4 m c main_v26 : IVec S32768 32) i) := by
  unfold W4
  after_results
  rw [keep_v14_2]
  intro i
  exact inR_slice _ _ _ (W2_v14_inR m hin c) i

theorem W4_v27_inR (c : Dev nD) : ∀ i, InR ((W4 m c main_v27 : IVec S32768 32) i) := by
  unfold W4
  after_results
  rw [keep_v21_2]
  intro i
  exact inR_slice _ _ _ (W2_v21_inR m hin c) i

/-- Region 2's tables are admissible. -/
theorem okc_2 : Ok2 (VW (W4 m)) :=
  ok2_of_range _ (fun i => W4_v26_inR m hin 0 i) (fun i => W4_v27_inR m hin 0 i)

/-! ## Region 3: its tables are the slices [65536, 98304) of the two gathered index arrays -/

theorem W6_v30_inR (c : Dev nD) : ∀ i, InR ((W6 m c main_v30 : IVec S32768 32) i) := by
  unfold W6
  after_results
  rw [keep_v14_3]
  intro i
  exact inR_slice _ _ _ (W2_v14_inR m hin c) i

theorem W6_v31_inR (c : Dev nD) : ∀ i, InR ((W6 m c main_v31 : IVec S32768 32) i) := by
  unfold W6
  after_results
  rw [keep_v21_3]
  intro i
  exact inR_slice _ _ _ (W2_v21_inR m hin c) i

/-- Region 3's tables are admissible. -/
theorem okc_3 : Ok3 (VW (W6 m)) :=
  ok3_of_range _ (fun i => W6_v30_inR m hin 0 i) (fun i => W6_v31_inR m hin 0 i)

/-! ## Region 4: its tables are the slices [98304, 131072) of the two gathered index arrays -/

theorem W8_v34_inR (c : Dev nD) : ∀ i, InR ((W8 m c main_v34 : IVec S32768 32) i) := by
  unfold W8
  after_results
  rw [keep_v14_4]
  intro i
  exact inR_slice _ _ _ (W2_v14_inR m hin c) i

theorem W8_v35_inR (c : Dev nD) : ∀ i, InR ((W8 m c main_v35 : IVec S32768 32) i) := by
  unfold W8
  after_results
  rw [keep_v21_4]
  intro i
  exact inR_slice _ _ _ (W2_v21_inR m hin c) i

/-- Region 4's tables are admissible. -/
theorem okc_4 : Ok4 (VW (W8 m)) :=
  ok4_of_range _ (fun i => W8_v34_inR m hin 0 i) (fun i => W8_v35_inR m hin 0 i)

/-! ## Region 5: its tables are the slices [131072, 163840) of the two gathered index arrays -/

theorem W10_v38_inR (c : Dev nD) : ∀ i, InR ((W10 m c main_v38 : IVec S32768 32) i) := by
  unfold W10
  after_results
  rw [keep_v14_5]
  intro i
  exact inR_slice _ _ _ (W2_v14_inR m hin c) i

theorem W10_v39_inR (c : Dev nD) : ∀ i, InR ((W10 m c main_v39 : IVec S32768 32) i) := by
  unfold W10
  after_results
  rw [keep_v21_5]
  intro i
  exact inR_slice _ _ _ (W2_v21_inR m hin c) i

/-- Region 5's tables are admissible. -/
theorem okc_5 : Ok5 (VW (W10 m)) :=
  ok5_of_range _ (fun i => W10_v38_inR m hin 0 i) (fun i => W10_v39_inR m hin 0 i)

/-! ## Region 6: its tables are the slices [163840, 196608) of the two gathered index arrays -/

theorem W12_v42_inR (c : Dev nD) : ∀ i, InR ((W12 m c main_v42 : IVec S32768 32) i) := by
  unfold W12
  after_results
  rw [keep_v14_6]
  intro i
  exact inR_slice _ _ _ (W2_v14_inR m hin c) i

theorem W12_v43_inR (c : Dev nD) : ∀ i, InR ((W12 m c main_v43 : IVec S32768 32) i) := by
  unfold W12
  after_results
  rw [keep_v21_6]
  intro i
  exact inR_slice _ _ _ (W2_v21_inR m hin c) i

/-- Region 6's tables are admissible. -/
theorem okc_6 : Ok6 (VW (W12 m)) :=
  ok6_of_range _ (fun i => W12_v42_inR m hin 0 i) (fun i => W12_v43_inR m hin 0 i)

/-! ## Region 7: its tables are the slices [196608, 229376) of the two gathered index arrays -/

theorem W14_v46_inR (c : Dev nD) : ∀ i, InR ((W14 m c main_v46 : IVec S32768 32) i) := by
  unfold W14
  after_results
  rw [keep_v14_7]
  intro i
  exact inR_slice _ _ _ (W2_v14_inR m hin c) i

theorem W14_v47_inR (c : Dev nD) : ∀ i, InR ((W14 m c main_v47 : IVec S32768 32) i) := by
  unfold W14
  after_results
  rw [keep_v21_7]
  intro i
  exact inR_slice _ _ _ (W2_v21_inR m hin c) i

/-- Region 7's tables are admissible. -/
theorem okc_7 : Ok7 (VW (W14 m)) :=
  ok7_of_range _ (fun i => W14_v46_inR m hin 0 i) (fun i => W14_v47_inR m hin 0 i)

/-! ## Region 8: its tables are the slices [229376, 262144) of the two gathered index arrays -/

theorem W16_v50_inR (c : Dev nD) : ∀ i, InR ((W16 m c main_v50 : IVec S32768 32) i) := by
  unfold W16
  after_results
  rw [keep_v14_8]
  intro i
  exact inR_slice _ _ _ (W2_v14_inR m hin c) i

theorem W16_v51_inR (c : Dev nD) : ∀ i, InR ((W16 m c main_v51 : IVec S32768 32) i) := by
  unfold W16
  after_results
  rw [keep_v21_8]
  intro i
  exact inR_slice _ _ _ (W2_v21_inR m hin c) i

/-- Region 8's tables are admissible. -/
theorem okc_8 : Ok8 (VW (W16 m)) :=
  ok8_of_range _ (fun i => W16_v50_inR m hin 0 i) (fun i => W16_v51_inR m hin 0 i)

/-! ## Region 9: its tables are the slices [262144, 294912) of the two gathered index arrays -/

theorem W18_v54_inR (c : Dev nD) : ∀ i, InR ((W18 m c main_v54 : IVec S32768 32) i) := by
  unfold W18
  after_results
  rw [keep_v14_9]
  intro i
  exact inR_slice _ _ _ (W2_v14_inR m hin c) i

theorem W18_v55_inR (c : Dev nD) : ∀ i, InR ((W18 m c main_v55 : IVec S32768 32) i) := by
  unfold W18
  after_results
  rw [keep_v21_9]
  intro i
  exact inR_slice _ _ _ (W2_v21_inR m hin c) i

/-- Region 9's tables are admissible. -/
theorem okc_9 : Ok9 (VW (W18 m)) :=
  ok9_of_range _ (fun i => W18_v54_inR m hin 0 i) (fun i => W18_v55_inR m hin 0 i)

/-! ## Region 10: its tables are the slices [294912, 327680) of the two gathered index arrays -/

theorem W20_v58_inR (c : Dev nD) : ∀ i, InR ((W20 m c main_v58 : IVec S32768 32) i) := by
  unfold W20
  after_results
  rw [keep_v14_10]
  intro i
  exact inR_slice _ _ _ (W2_v14_inR m hin c) i

theorem W20_v59_inR (c : Dev nD) : ∀ i, InR ((W20 m c main_v59 : IVec S32768 32) i) := by
  unfold W20
  after_results
  rw [keep_v21_10]
  intro i
  exact inR_slice _ _ _ (W2_v21_inR m hin c) i

/-- Region 10's tables are admissible. -/
theorem okc_10 : Ok10 (VW (W20 m)) :=
  ok10_of_range _ (fun i => W20_v58_inR m hin 0 i) (fun i => W20_v59_inR m hin 0 i)

/-! ## Region 11: its tables are the slices [327680, 360448) of the two gathered index arrays -/

theorem W22_v62_inR (c : Dev nD) : ∀ i, InR ((W22 m c main_v62 : IVec S32768 32) i) := by
  unfold W22
  after_results
  rw [keep_v14_11]
  intro i
  exact inR_slice _ _ _ (W2_v14_inR m hin c) i

theorem W22_v63_inR (c : Dev nD) : ∀ i, InR ((W22 m c main_v63 : IVec S32768 32) i) := by
  unfold W22
  after_results
  rw [keep_v21_11]
  intro i
  exact inR_slice _ _ _ (W2_v21_inR m hin c) i

/-- Region 11's tables are admissible. -/
theorem okc_11 : Ok11 (VW (W22 m)) :=
  ok11_of_range _ (fun i => W22_v62_inR m hin 0 i) (fun i => W22_v63_inR m hin 0 i)

/-! ## Region 12: its tables are the slices [360448, 393216) of the two gathered index arrays -/

theorem W24_v66_inR (c : Dev nD) : ∀ i, InR ((W24 m c main_v66 : IVec S32768 32) i) := by
  unfold W24
  after_results
  rw [keep_v14_12]
  intro i
  exact inR_slice _ _ _ (W2_v14_inR m hin c) i

theorem W24_v67_inR (c : Dev nD) : ∀ i, InR ((W24 m c main_v67 : IVec S32768 32) i) := by
  unfold W24
  after_results
  rw [keep_v21_12]
  intro i
  exact inR_slice _ _ _ (W2_v21_inR m hin c) i

/-- Region 12's tables are admissible. -/
theorem okc_12 : Ok12 (VW (W24 m)) :=
  ok12_of_range _ (fun i => W24_v66_inR m hin 0 i) (fun i => W24_v67_inR m hin 0 i)

/-! ## Region 13: its tables are the slices [393216, 425984) of the two gathered index arrays -/

theorem W26_v70_inR (c : Dev nD) : ∀ i, InR ((W26 m c main_v70 : IVec S32768 32) i) := by
  unfold W26
  after_results
  rw [keep_v14_13]
  intro i
  exact inR_slice _ _ _ (W2_v14_inR m hin c) i

theorem W26_v71_inR (c : Dev nD) : ∀ i, InR ((W26 m c main_v71 : IVec S32768 32) i) := by
  unfold W26
  after_results
  rw [keep_v21_13]
  intro i
  exact inR_slice _ _ _ (W2_v21_inR m hin c) i

/-- Region 13's tables are admissible. -/
theorem okc_13 : Ok13 (VW (W26 m)) :=
  ok13_of_range _ (fun i => W26_v70_inR m hin 0 i) (fun i => W26_v71_inR m hin 0 i)

/-! ## Region 14: its tables are the slices [425984, 458752) of the two gathered index arrays -/

theorem W28_v74_inR (c : Dev nD) : ∀ i, InR ((W28 m c main_v74 : IVec S32768 32) i) := by
  unfold W28
  after_results
  rw [keep_v14_14]
  intro i
  exact inR_slice _ _ _ (W2_v14_inR m hin c) i

theorem W28_v75_inR (c : Dev nD) : ∀ i, InR ((W28 m c main_v75 : IVec S32768 32) i) := by
  unfold W28
  after_results
  rw [keep_v21_14]
  intro i
  exact inR_slice _ _ _ (W2_v21_inR m hin c) i

/-- Region 14's tables are admissible. -/
theorem okc_14 : Ok14 (VW (W28 m)) :=
  ok14_of_range _ (fun i => W28_v74_inR m hin 0 i) (fun i => W28_v75_inR m hin 0 i)

/-! ## Region 15: its tables are the slices [458752, 491520) of the two gathered index arrays -/

theorem W30_v78_inR (c : Dev nD) : ∀ i, InR ((W30 m c main_v78 : IVec S32768 32) i) := by
  unfold W30
  after_results
  rw [keep_v14_15]
  intro i
  exact inR_slice _ _ _ (W2_v14_inR m hin c) i

theorem W30_v79_inR (c : Dev nD) : ∀ i, InR ((W30 m c main_v79 : IVec S32768 32) i) := by
  unfold W30
  after_results
  rw [keep_v21_15]
  intro i
  exact inR_slice _ _ _ (W2_v21_inR m hin c) i

/-- Region 15's tables are admissible. -/
theorem okc_15 : Ok15 (VW (W30 m)) :=
  ok15_of_range _ (fun i => W30_v78_inR m hin 0 i) (fun i => W30_v79_inR m hin 0 i)
end

end Cert.KernelIdeal.GenP

end
-- ==== Proof.KernelIdeal.GatherSpec.lean ====
/- The row gather with two tables of row numbers: each row of the result is the sum of two rows of the gathered array.
   One specification, shared by every gather region of the program. -/
import Idealize.ShloMosaic.PureOps.Ideal
import Idealize.ShloMosaic.Lib.ValueIdx

noncomputable section

namespace Cert.KernelIdeal.GenP

open Idealize.ShloMosaic

variable {F : FTy → Type} [FloatOps F]

/-- Lane `l` of row `n` of the gathered array; a row number past the last row reads the last row. -/
def gRow (n : Nat) (l : Fin 128) : (⟨3, ![163842, 1, 128]⟩ : Shape).Idx :=
  ValueIdx.ix3 (⟨min n 163841, Nat.lt_succ_of_le (Nat.min_le_right _ _)⟩ : Fin 163842) (0 : Fin 1) l

/-- The gather: row `j` of the result is the sum of rows `t0[j]` and `t1[j]` of `x`, lane by lane, a table's word read
    as the natural number its bits spell. -/
def GB (x : (⟨3, ![163842, 1, 128]⟩ : Shape).Idx → Elt F .f32) (t0 t1 : (⟨1, ![32768]⟩ : Shape).Idx → BitVec 32) :
    (⟨3, ![32768, 1, 128]⟩ : Shape).Idx → Elt F .f32 :=
  fun i => FloatOps.addf
    (x (gRow (t0 (ValueIdx.ix1 (⟨(i 0).val, (i 0).isLt⟩ : Fin 32768))).toNat (⟨(i 2).val, (i 2).isLt⟩ : Fin 128)))
    (x (gRow (t1 (ValueIdx.ix1 (⟨(i 0).val, (i 0).isLt⟩ : Fin 32768))).toNat (⟨(i 2).val, (i 2).isLt⟩ : Fin 128)))

/-- An index of the gathered array whose row is `n` and whose lane is `l` is `gRow n l`: being an index, its row is in
    range, so the clamp does nothing. -/
theorem eq_gRow (k : (⟨3, ![163842, 1, 128]⟩ : Shape).Idx) (n : Nat) (l : Fin 128)
    (h0 : (k 0).val = n) (h2 : (k 2).val = l.val) : k = gRow n l := by
  have b0 : (k 0).val < 163842 := (k 0).isLt
  have b1 : (k 1).val < 1 := (k 1).isLt
  funext a
  apply Fin.ext
  match a with
  | ⟨0, _⟩ => show (k 0).val = min n 163841; omega
  | ⟨1, _⟩ => show (k 1).val = 0; omega
  | ⟨2, _⟩ => exact h2

/-- The gather read at an index, without the clamp: if `k0` and `k1` are the indices of the gathered array at the
    rows the two tables name for the result's row, on the result's lane, the result there is the sum of `x` at them. -/
theorem GB_eq (x : (⟨3, ![163842, 1, 128]⟩ : Shape).Idx → Elt F .f32) (t0 t1 : (⟨1, ![32768]⟩ : Shape).Idx → BitVec 32)
    (i : (⟨3, ![32768, 1, 128]⟩ : Shape).Idx) (n : Fin 32768) (hn : (i 0).val = n.val)
    (k0 k1 : (⟨3, ![163842, 1, 128]⟩ : Shape).Idx)
    (h00 : (k0 0).val = (t0 (ValueIdx.ix1 n)).toNat) (h02 : (k0 2).val = (i 2).val)
    (h10 : (k1 0).val = (t1 (ValueIdx.ix1 n)).toNat) (h12 : (k1 2).val = (i 2).val) :
    GB x t0 t1 i = FloatOps.addf (x k0) (x k1) := by
  obtain rfl : n = (⟨(i 0).val, (i 0).isLt⟩ : Fin 32768) := Fin.ext hn.symm
  unfold GB
  rw [eq_gRow k0 _ (⟨(i 2).val, (i 2).isLt⟩ : Fin 128) h00 h02, eq_gRow k1 _ (⟨(i 2).val, (i 2).isLt⟩ : Fin 128) h10 h12]

end Cert.KernelIdeal.GenP

end
-- ==== Proof.KernelIdeal.R16Val.lean ====
/- The value of the last region's output array after the region, as one function of the array it reads:
   the rows it gathers, transposed and re-laid in four groups of thirty-two lanes. -/
import proofs.«175043_j76819785056407_2_alg».proof.Proof.KernelIdeal.R16
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

/-! # The transposing region's output array

Row `j` of the input holds, at lane `32 * b + ch`, the entry `(b, ch, j)` of the output. -/

/-- The output array as a function of the input array: entry `(b, ch, j)` is the input's row `j` at lane `32 * b + ch`. -/
def G16 (x : (⟨2, ![491520, 128]⟩ : Shape).Idx → Elt F .f32) : (⟨3, ![4, 32, 491520]⟩ : Shape).Idx → Elt F .f32 :=
  fun i => x (ValueIdx.ix2 (⟨(i 2).val, (i 2).isLt⟩ : Fin 491520)
    (⟨32 * (i 0).val + (i 1).val, by
      have h0 : (i 0).val < 4 := (i 0).isLt
      have h1 : (i 1).val < 32 := (i 1).isLt
      omega⟩ : Fin 128))

/-- The body's payload at an entry of its 4×32×2048 block: the loaded 2048×128 block's row `r` at lane `32 * b + ch`
    (an identity re-shape, the transposition of the two axes, and the split of the 128 lanes into 4 × 32). -/
theorem pay16_apply (x : Vec F S2048x128 .f32) (b : Fin 4) (ch : Fin 32) (r : Fin 2048) :
    k16_pay1 x (ValueIdx.ix3 b ch r) = x (ValueIdx.ix2 r (⟨32 * b.val + ch.val, by omega⟩ : Fin 128)) := by
  unfold k16_pay1
  refine (shapeCast_apply _ _ (ValueIdx.ix3 b ch r) (ValueIdx.ix2 (⟨32 * b.val + ch.val, by omega⟩ : Fin 128) r) ?_).trans ?_
  · rw [Shape.rowMajor_val_two, Shape.rowMajor_val_three]
    show (32 * b.val + ch.val) * 2048 + r.val = (b.val * 32 + ch.val) * 2048 + r.val
    omega
  refine (transpose_apply _ _ _ (ValueIdx.ix2 (⟨32 * b.val + ch.val, by omega⟩ : Fin 128) r)
    (ValueIdx.ix2 r (⟨32 * b.val + ch.val, by omega⟩ : Fin 128)) ?_).trans ?_
  · intro a
    match a with
    | ⟨0, _⟩ => rfl
    | ⟨1, _⟩ => rfl
  exact shapeCast_apply _ _ _ _ rfl

theorem hz16_in : (![0, 0] : Fin 2 → Nat) = fun _ => 0 := funext fun a => by fin_cases a <;> rfl
theorem hz16_out : (![0, 0, 0] : Fin 3 → Nat) = fun _ => 0 := funext fun a => by fin_cases a <;> rfl

/-- The two index maps, decided over the grid: point `t` reads the block of rows `2048 t … 2048 t + 2047` (all 128 lanes)
    and writes the block of the same columns (all 4 × 32 leading entries). -/
theorem idx16 : ∀ t : Fin cfg16.N, win16_0.index t (0 : Fin 2) = t.val ∧ win16_0.index t (1 : Fin 2) = 0
    ∧ win16_1.index t (0 : Fin 3) = 0 ∧ win16_1.index t (1 : Fin 3) = 0 ∧ win16_1.index t (2 : Fin 3) = t.val :=
  (by decide +kernel : ∀ t : Fin grid16.N, _)

/-- One entry of one point's output block. If the loaded block `X` is rows `2048 t + r` of `x`, the payload at `j`
    is `G16 x` at the array index `i` that sits at `j` inside the block of columns `2048 t …`. -/
theorem pay16_entry (x : (⟨2, ![491520, 128]⟩ : Shape).Idx → Elt F .f32) (X : Vec F S2048x128 .f32) (t : Nat)
    (hX : ∀ (r : Fin 2048) (l : Fin 128) (k : (⟨2, ![491520, 128]⟩ : Shape).Idx),
      (k 0).val = t * 2048 + r.val → (k 1).val = l.val → X (ValueIdx.ix2 r l) = x k)
    (j : (⟨3, ![4, 32, 2048]⟩ : Shape).Idx) (i : (⟨3, ![4, 32, 491520]⟩ : Shape).Idx)
    (h0 : (i 0).val = (j 0).val) (h1 : (i 1).val = (j 1).val) (h2 : (i 2).val = t * 2048 + (j 2).val) :
    k16_pay1 X j = G16 x i := by
  rw [ValueIdx.eq_ix3 j]
  refine (pay16_apply X (j 0) (j 1) (j 2)).trans ?_
  unfold G16
  refine hX (j 2) _ _ ?_ ?_
  · exact h2
  · show 32 * (i 0).val + (i 1).val = 32 * (j 0).val + (j 1).val
    rw [h0, h1]

section
variable (V : (c : Dev nD) → (b : Ref sig .tc) → Buf (Elt F) ((c : Thread nD τ).loc b))

/-- WHAT POINT `t` WRITES BACK is block `t` of `G16` of the input array as the region finds it. -/
theorem flushed16_1 (c : Dev nD) (t : Fin cfg16.N) :
    (dat16 V c).flushed 1 t = ((cfg16.win 1).blk t).view.read (Elt F) (G16 (V c main_v82)) := by
  show (cfg16.win 1).cut (grid16.coords t) ((dat16 V c).after 1 t) = _
  rw [after16_1]
  unfold out16_1
  rw [View.canon_unit_zero hz16_out]
  simp only [View.ld_unit_zero (S := S2048x128) hz16_in]
  obtain ⟨e0, e1, e2, e3, e4⟩ := idx16 t
  funext j
  refine pay16_entry (V c main_v82) (iblk16 V c 0 t) t.val ?_ j (((cfg16.win 1).blk t).view.emb j) ?_ ?_ ?_
  · intro r l k hk0 hk1
    show V c main_v82 (((cfg16.win 0).blk t).view.emb (ValueIdx.ix2 r l)) = V c main_v82 k
    refine congrArg (V c main_v82) (funext fun a => Fin.ext ?_)
    match a with
    | ⟨0, _⟩ => show win16_0.index t (0 : Fin 2) * 2048 + 1 * r.val = (k 0).val; rw [e0, hk0]; omega
    | ⟨1, _⟩ => show win16_0.index t (1 : Fin 2) * 128 + 1 * l.val = (k 1).val; rw [e1, hk1]; omega
  · show win16_1.index t (0 : Fin 3) * 4 + 1 * (j 0).val = (j 0).val; rw [e2]; omega
  · show win16_1.index t (1 : Fin 3) * 32 + 1 * (j 1).val = (j 1).val; rw [e3]; omega
  · show win16_1.index t (2 : Fin 3) * 2048 + 1 * (j 2).val = t.val * 2048 + (j 2).val; rw [e4]; omega

/-- An index of the output array is in point `t`'s block iff each coordinate is in the block's range on its axis. -/
theorem mem_blk16_1 (t : Fin cfg16.N) (i : (⟨3, ![4, 32, 491520]⟩ : Shape).Idx) :
    i ∈ ((cfg16.win 1).blk t).view.set ↔ ∀ a : Fin 3, win16_1.index t a * S4x32x2048.size a ≤ (i a).val
      ∧ (i a).val < win16_1.index t a * S4x32x2048.size a + S4x32x2048.size a := by
  show i ∈ ((View.whole main_v83).slice (win16_1.rect t)).set ↔ _
  rw [View.set_slice_whole, Rect.mem_set_unit]
  exact Iff.rfl

/-- The output's blocks tile its array: column `j` is in the block of point `j / 2048`. -/
theorem cover16 (i : (⟨3, ![4, 32, 491520]⟩ : Shape).Idx) :
    ∃ t : Fin cfg16.N, (cfg16.win 1).flush t = true ∧ i ∈ ((cfg16.win 1).blk t).view.set := by
  have h0 : (i 0).val < 4 := (i 0).isLt
  have h1 : (i 1).val < 32 := (i 1).isLt
  have h2 : (i 2).val < 491520 := (i 2).isLt
  have ht : (i 2).val / 2048 < 240 := by omega
  refine ⟨⟨(i 2).val / 2048, ht⟩, flush16_1 _, ?_⟩
  obtain ⟨e0, e1, e2, e3, e4⟩ := idx16 ⟨(i 2).val / 2048, ht⟩
  rw [mem_blk16_1]
  intro a
  match a with
  | ⟨0, _⟩ => show win16_1.index ⟨(i 2).val / 2048, ht⟩ (0 : Fin 3) * 4 ≤ (i 0).val ∧ (i 0).val < win16_1.index ⟨(i 2).val / 2048, ht⟩ (0 : Fin 3) * 4 + 4; rw [e2]; omega
  | ⟨1, _⟩ => show win16_1.index ⟨(i 2).val / 2048, ht⟩ (1 : Fin 3) * 32 ≤ (i 1).val ∧ (i 1).val < win16_1.index ⟨(i 2).val / 2048, ht⟩ (1 : Fin 3) * 32 + 32; rw [e3]; omega
  | ⟨2, _⟩ => show win16_1.index ⟨(i 2).val / 2048, ht⟩ (2 : Fin 3) * 2048 ≤ (i 2).val ∧ (i 2).val < win16_1.index ⟨(i 2).val / 2048, ht⟩ (2 : Fin 3) * 2048 + 2048; rw [e4]; show (i 2).val / 2048 * 2048 ≤ (i 2).val ∧ (i 2).val < (i 2).val / 2048 * 2048 + 2048; omega

/-- THE OUTPUT ARRAY after the region: `G16` of the input array as the region finds it. -/
theorem arrAt16_1 (c : Dev nD) : (dat16 V c).arrAt 1 cfg16.N = G16 (V c main_v82) :=
  (dat16 V c).arrAt_eq_of_cover 1 (G16 (V c main_v82)) (fun t _ => flushed16_1 V c t) cover16
end

end Cert.KernelIdeal.GenP

end
-- ==== Proof.KernelIdeal.R0Val.lean ====
/- The first region's two results in closed form, as functions of the input array. -/
import proofs.«175043_j76819785056407_2_alg».proof.Proof.KernelIdeal.R0

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region's two results, in closed form

Each output array ends holding one function of the input array `x`: the flushing points' blocks cover it, and each point
writes back the part inside the array of its block of that function. -/

/-- The first result: at batch `b`, channel `ch`, position `n`, half the sum of the input's channels `ch` and `32 + ch`. -/
def G0_1 (x : S4x128x163842.Idx → Elt F .f32) : S4x32x163842.Idx → Elt F .f32 := fun i =>
  FloatOps.mulf (FloatOps.addf
      (x (ValueIdx.ix3 (⟨(i 0).val, (i 0).isLt⟩ : Fin 4)
        (⟨(i 1).val, by have h : (i 1).val < 32 := (i 1).isLt; omega⟩ : Fin 128) (⟨(i 2).val, (i 2).isLt⟩ : Fin 163842)))
      (x (ValueIdx.ix3 (⟨(i 0).val, (i 0).isLt⟩ : Fin 4)
        (⟨32 + (i 1).val, by have h : (i 1).val < 32 := (i 1).isLt; omega⟩ : Fin 128) (⟨(i 2).val, (i 2).isLt⟩ : Fin 163842))))
    (Scalar.ofBits .f32 0x3F000000#32)

/-- The second result: at position `v`, column `l`, a quarter of the sum of the input's channels `64 + l % 32` and
    `96 + l % 32` of batch `l / 32`. -/
def G0_2 (x : S4x128x163842.Idx → Elt F .f32) : S163842x128.Idx → Elt F .f32 := fun i =>
  FloatOps.mulf (FloatOps.addf
      (x (ValueIdx.ix3 (⟨(i 1).val / 32, by have h : (i 1).val < 128 := (i 1).isLt; omega⟩ : Fin 4)
        (⟨64 + (i 1).val % 32, by omega⟩ : Fin 128) (⟨(i 0).val, (i 0).isLt⟩ : Fin 163842)))
      (x (ValueIdx.ix3 (⟨(i 1).val / 32, by have h : (i 1).val < 128 := (i 1).isLt; omega⟩ : Fin 4)
        (⟨96 + (i 1).val % 32, by omega⟩ : Fin 128) (⟨(i 0).val, (i 0).isLt⟩ : Fin 163842))))
    (Scalar.ofBits .f32 0x3E800000#32)

/-- Over the grid: each window's block index is the point on its long axis and zero on the others, and the cut leaves on
    the long axis what of the block lies inside the array. -/
theorem geo0 : ∀ t : Fin grid0.N,
    win0_0.index t 0 = 0 ∧ win0_0.index t 1 = 0 ∧ win0_0.index t 2 = t.val ∧
    win0_1.index t 0 = 0 ∧ win0_1.index t 1 = 0 ∧ win0_1.index t 2 = t.val ∧
    win0_2.index t 0 = t.val ∧ win0_2.index t 1 = 0 ∧
    win0_0.xsize (grid0.coords t) 2 = min 2048 (163842 - t.val * 2048) := by decide +kernel

/-- Where a transfer moves the block, the filled block holds the fetched part. -/
theorem fill_apply_of_moved {G : Pipeline.Grid} (w : Window sig G) {α : Type} (i : G.Coords) (d : w.block.Idx → α)
    (g : (w.xblock i).Idx → α) {k : w.block.Idx} (h : w.moved i k = true) :
    w.fill i d g k = g fun a => ⟨(k a).val, (w.moved_iff i k).mp h a⟩ := by
  unfold Window.fill; rw [dif_pos h]

/-- Where an element of a window's block at point `t` sits in its array. -/
theorem emb0_0_val (t : Fin grid0.N) (y : (win0_0.xblock (grid0.coords t)).Idx) :
    (((win0_0.blk t).view.emb y : S4x128x163842.Idx) 0 : Nat) = (y 0).val
    ∧ (((win0_0.blk t).view.emb y : S4x128x163842.Idx) 1 : Nat) = (y 1).val
    ∧ (((win0_0.blk t).view.emb y : S4x128x163842.Idx) 2 : Nat) = t.val * 2048 + (y 2).val := by
  obtain ⟨h0, h1, h2, -⟩ := geo0 t
  refine ⟨?_, ?_, ?_⟩
  · show ((win0_0.rect t).emb y 0 : Nat) = _; rw [Window.rect_emb_val, h0]; omega
  · show ((win0_0.rect t).emb y 1 : Nat) = _; rw [Window.rect_emb_val, h1]; omega
  · show ((win0_0.rect t).emb y 2 : Nat) = _; rw [Window.rect_emb_val, h2]; rfl
theorem emb0_1_val (t : Fin grid0.N) (y : (win0_1.xblock (grid0.coords t)).Idx) :
    (((win0_1.blk t).view.emb y : S4x32x163842.Idx) 0 : Nat) = (y 0).val
    ∧ (((win0_1.blk t).view.emb y : S4x32x163842.Idx) 1 : Nat) = (y 1).val
    ∧ (((win0_1.blk t).view.emb y : S4x32x163842.Idx) 2 : Nat) = t.val * 2048 + (y 2).val := by
  obtain ⟨-, -, -, h0, h1, h2, -⟩ := geo0 t
  refine ⟨?_, ?_, ?_⟩
  · show ((win0_1.rect t).emb y 0 : Nat) = _; rw [Window.rect_emb_val, h0]; omega
  · show ((win0_1.rect t).emb y 1 : Nat) = _; rw [Window.rect_emb_val, h1]; omega
  · show ((win0_1.rect t).emb y 2 : Nat) = _; rw [Window.rect_emb_val, h2]; rfl
theorem emb0_2_val (t : Fin grid0.N) (y : (win0_2.xblock (grid0.coords t)).Idx) :
    (((win0_2.blk t).view.emb y : S163842x128.Idx) 0 : Nat) = t.val * 2048 + (y 0).val
    ∧ (((win0_2.blk t).view.emb y : S163842x128.Idx) 1 : Nat) = (y 1).val := by
  obtain ⟨-, -, -, -, -, -, h0, h1, -⟩ := geo0 t
  refine ⟨?_, ?_⟩
  · show ((win0_2.rect t).emb y 0 : Nat) = _; rw [Window.rect_emb_val, h0]; rfl
  · show ((win0_2.rect t).emb y 1 : Nat) = _; rw [Window.rect_emb_val, h1]; omega

/-- Two rank-3 indices with the same coordinates are one. -/
theorem idx3_ext {n0 n1 n2 : Nat} {p q : (⟨3, ![n0, n1, n2]⟩ : Shape).Idx} (h0 : (p 0).val = (q 0).val)
    (h1 : (p 1).val = (q 1).val) (h2 : (p 2).val = (q 2).val) : p = q :=
  funext fun a => match a with | ⟨0, _⟩ => Fin.ext h0 | ⟨1, _⟩ => Fin.ext h1 | ⟨2, _⟩ => Fin.ext h2

section
variable (V : (c : Dev nD) → (b : Ref sig .tc) → Buf (Elt F) ((c : Thread nD τ).loc b))

/-- The input block as the proof names it, at an index the fetch moved: the input array under the block there. -/
theorem xin0_apply_of_moved (c : Dev nD) (t : Fin cfg0.N) {k : S4x128x2048.Idx} (h : win0_0.moved (grid0.coords t) k = true) :
    xin0 V c t k = V c main_arg0 ((win0_0.blk t).view.emb fun a => ⟨(k a).val, (win0_0.moved_iff (grid0.coords t) k).mp h a⟩) := by
  unfold xin0; rw [fill_apply_of_moved win0_0 _ _ _ h]; rfl

/-- What point `t` writes back to the first result is that point's block of `G0_1` of the input array. -/
theorem flushed0_1 (c : Dev nD) (t : Fin cfg0.N) :
    (dat0 V c).flushed 1 t = ((cfg0.win 1).blk t).view.read (Elt F) (G0_1 (V c main_arg0)) := by
  funext j
  show (dat0 V c).after 1 t (win0_1.xinj (grid0.coords t) j) = G0_1 (V c main_arg0) ((win0_1.blk t).view.emb j)
  rw [after0_1, out0_1_apply, xin0_apply_of_moved V c t (moved0_a _ j), xin0_apply_of_moved V c t (moved0_b _ j)]
  obtain ⟨e0, e1, e2⟩ := emb0_1_val t j
  obtain ⟨a0, a1, a2⟩ := emb0_0_val t (fun a => ⟨((r0_a.emb (win0_1.xinj (grid0.coords t) j)) a).val,
    (win0_0.moved_iff (grid0.coords t) _).mp (moved0_a _ j) a⟩)
  obtain ⟨b0, b1, b2⟩ := emb0_0_val t (fun a => ⟨((r0_b.emb (win0_1.xinj (grid0.coords t) j)) a).val,
    (win0_0.moved_iff (grid0.coords t) _).mp (moved0_b _ j) a⟩)
  have key : ∀ p q p' q' : S4x128x163842.Idx, p = p' → q = q' →
      FloatOps.mulf (FloatOps.addf (V c main_arg0 p) (V c main_arg0 q)) (Scalar.ofBits .f32 0x3F000000#32 : F .f32)
        = FloatOps.mulf (FloatOps.addf (V c main_arg0 p') (V c main_arg0 q')) (Scalar.ofBits .f32 0x3F000000#32) := by
    rintro _ _ _ _ rfl rfl; rfl
  refine key _ _ _ _ (idx3_ext ?_ ?_ ?_) (idx3_ext ?_ ?_ ?_)
  · exact (a0.trans (show (0 + 1 * (j 0).val : Nat) = (j 0).val by omega)).trans e0.symm
  · exact (a1.trans (show (0 + 1 * (j 1).val : Nat) = (j 1).val by omega)).trans e1.symm
  · exact (a2.trans (show t.val * 2048 + (0 + 1 * (j 2).val : Nat) = t.val * 2048 + (j 2).val by omega)).trans e2.symm
  · exact (b0.trans (show (0 + 1 * (j 0).val : Nat) = (j 0).val by omega)).trans e0.symm
  · exact (b1.trans (show (32 + 1 * (j 1).val : Nat) = 32 + (j 1).val by omega)).trans (congrArg (32 + ·) e1.symm)
  · exact (b2.trans (show t.val * 2048 + (0 + 1 * (j 2).val : Nat) = t.val * 2048 + (j 2).val by omega)).trans e2.symm

/-- What point `t` writes back to the second result is that point's block of `G0_2` of the input array. -/
theorem flushed0_2 (c : Dev nD) (t : Fin cfg0.N) :
    (dat0 V c).flushed 2 t = ((cfg0.win 2).blk t).view.read (Elt F) (G0_2 (V c main_arg0)) := by
  funext j
  show (dat0 V c).after 2 t (win0_2.xinj (grid0.coords t) j) = G0_2 (V c main_arg0) ((win0_2.blk t).view.emb j)
  rw [after0_2, out0_2_apply, xin0_apply_of_moved V c t (moved0_c _ j), xin0_apply_of_moved V c t (moved0_d _ j)]
  obtain ⟨e0, e1⟩ := emb0_2_val t j
  obtain ⟨a0, a1, a2⟩ := emb0_0_val t (fun a => ⟨((r0_c.emb (src0_2 (win0_2.xinj (grid0.coords t) j))) a).val,
    (win0_0.moved_iff (grid0.coords t) _).mp (moved0_c _ j) a⟩)
  obtain ⟨b0, b1, b2⟩ := emb0_0_val t (fun a => ⟨((r0_d.emb (src0_2 (win0_2.xinj (grid0.coords t) j))) a).val,
    (win0_0.moved_iff (grid0.coords t) _).mp (moved0_d _ j) a⟩)
  have key : ∀ p q p' q' : S4x128x163842.Idx, p = p' → q = q' →
      FloatOps.mulf (FloatOps.addf (V c main_arg0 p) (V c main_arg0 q)) (Scalar.ofBits .f32 0x3E800000#32 : F .f32)
        = FloatOps.mulf (FloatOps.addf (V c main_arg0 p') (V c main_arg0 q')) (Scalar.ofBits .f32 0x3E800000#32) := by
    rintro _ _ _ _ rfl rfl; rfl
  refine key _ _ _ _ (idx3_ext ?_ ?_ ?_) (idx3_ext ?_ ?_ ?_)
  · exact (a0.trans (show (0 + 1 * ((j 1).val / 32) : Nat) = (j 1).val / 32 by omega)).trans (congrArg (· / 32) e1.symm)
  · exact (a1.trans (show (64 + 1 * ((j 1).val % 32) : Nat) = 64 + (j 1).val % 32 by omega)).trans (congrArg (fun n => 64 + n % 32) e1.symm)
  · exact (a2.trans (show t.val * 2048 + (0 + 1 * (j 0).val : Nat) = t.val * 2048 + (j 0).val by omega)).trans e0.symm
  · exact (b0.trans (show (0 + 1 * ((j 1).val / 32) : Nat) = (j 1).val / 32 by omega)).trans (congrArg (· / 32) e1.symm)
  · exact (b1.trans (show (96 + 1 * ((j 1).val % 32) : Nat) = 96 + (j 1).val % 32 by omega)).trans (congrArg (fun n => 96 + n % 32) e1.symm)
  · exact (b2.trans (show t.val * 2048 + (0 + 1 * (j 0).val : Nat) = t.val * 2048 + (j 0).val by omega)).trans e0.symm
end

/-- Every index of the first result lies in the block of the point its position falls in: the blocks, cut at the array's
    end, cover the array. -/
theorem cover0_1_arr (i : S4x32x163842.Idx) :
    ∃ t : Fin cfg0.N, (cfg0.win 1).flush t = true ∧ i ∈ ((cfg0.win 1).blk t).view.set := by
  have h0 : (i 0).val < 4 := (i 0).isLt
  have h1 : (i 1).val < 32 := (i 1).isLt
  have h2 : (i 2).val < 163842 := (i 2).isLt
  have ht : (i 2).val / 2048 < grid0.N := by rw [N_0]; omega
  refine ⟨⟨(i 2).val / 2048, ht⟩, flush0_1 _, ?_⟩
  obtain ⟨-, -, -, g0, g1, g2, -, -, gx⟩ := geo0 ⟨(i 2).val / 2048, ht⟩
  show i ∈ ((View.whole main_v0_0).slice (win0_1.rect ⟨(i 2).val / 2048, ht⟩)).set
  rw [View.set_slice_whole, Rect.mem_set_unit]
  show ∀ a : Fin 3, _
  intro a
  match a with
  | ⟨0, _⟩ =>
    show win0_1.index ⟨(i 2).val / 2048, ht⟩ 0 * 4 ≤ (i 0).val ∧ (i 0).val < win0_1.index ⟨(i 2).val / 2048, ht⟩ 0 * 4 + 4
    rw [g0]; omega
  | ⟨1, _⟩ =>
    show win0_1.index ⟨(i 2).val / 2048, ht⟩ 1 * 32 ≤ (i 1).val ∧ (i 1).val < win0_1.index ⟨(i 2).val / 2048, ht⟩ 1 * 32 + 32
    rw [g1]; omega
  | ⟨2, _⟩ =>
    show win0_1.index ⟨(i 2).val / 2048, ht⟩ 2 * 2048 ≤ (i 2).val
      ∧ (i 2).val < win0_1.index ⟨(i 2).val / 2048, ht⟩ 2 * 2048 + win0_0.xsize (grid0.coords ⟨(i 2).val / 2048, ht⟩) 2
    rw [g2, gx]; dsimp only; omega

/-- Every index of the second result likewise. -/
theorem cover0_2_arr (i : S163842x128.Idx) :
    ∃ t : Fin cfg0.N, (cfg0.win 2).flush t = true ∧ i ∈ ((cfg0.win 2).blk t).view.set := by
  have h0 : (i 0).val < 163842 := (i 0).isLt
  have h1 : (i 1).val < 128 := (i 1).isLt
  have ht : (i 0).val / 2048 < grid0.N := by rw [N_0]; omega
  refine ⟨⟨(i 0).val / 2048, ht⟩, flush0_2 _, ?_⟩
  obtain ⟨-, -, -, -, -, -, g0, g1, gx⟩ := geo0 ⟨(i 0).val / 2048, ht⟩
  show i ∈ ((View.whole main_v0_1).slice (win0_2.rect ⟨(i 0).val / 2048, ht⟩)).set
  rw [View.set_slice_whole, Rect.mem_set_unit]
  show ∀ a : Fin 2, _
  intro a
  match a with
  | ⟨0, _⟩ =>
    show win0_2.index ⟨(i 0).val / 2048, ht⟩ 0 * 2048 ≤ (i 0).val
      ∧ (i 0).val < win0_2.index ⟨(i 0).val / 2048, ht⟩ 0 * 2048 + win0_0.xsize (grid0.coords ⟨(i 0).val / 2048, ht⟩) 2
    rw [g0, gx]; dsimp only; omega
  | ⟨1, _⟩ =>
    show win0_2.index ⟨(i 0).val / 2048, ht⟩ 1 * 128 ≤ (i 1).val ∧ (i 1).val < win0_2.index ⟨(i 0).val / 2048, ht⟩ 1 * 128 + 128
    rw [g1]; omega

section
variable (V : (c : Dev nD) → (b : Ref sig .tc) → Buf (Elt F) ((c : Thread nD τ).loc b))

/-- The first result after the region: `G0_1` of the input array as the region finds it. -/
theorem arrAt0_1 (c : Dev nD) : (dat0 V c).arrAt 1 cfg0.N = G0_1 (V c main_arg0) :=
  (dat0 V c).arrAt_eq_of_cover 1 (G0_1 (V c main_arg0)) (fun t _ => flushed0_1 V c t) cover0_1_arr

/-- The second: `G0_2` of it. -/
theorem arrAt0_2 (c : Dev nD) : (dat0 V c).arrAt 2 cfg0.N = G0_2 (V c main_arg0) :=
  (dat0 V c).arrAt_eq_of_cover 2 (G0_2 (V c main_arg0)) (fun t _ => flushed0_2 V c t) cover0_2_arr
end

end Cert.KernelIdeal.GenP

end
-- ==== Proof.KernelIdeal.KG.lean ====
/-
  The kernel program's result as the host operations compose it from the regions' closed forms, and that composition
  against the specification.  Region 0 leaves two arrays: the halved sum of the first two channel quarters, and a
  vertex-major array holding a quarter of the sum of the last two channel quarters.  The host flattens the two endpoint
  columns of the edge table, gathers them through the reorder table (each reorder word raised by the extent when negative,
  then read signed and clamped), and cuts the two gathered endpoint arrays into fifteen tables of 32768 words.  Gather
  region K adds, row by row, the two rows of the vertex-major array its two tables name; the fifteen results are joined
  along the rows, the join is transposed back to channel-major by the last region, and the result is the first array
  followed, along the last axis, by the transposed join.  Under the hypothesis that every word of the edge table lies in
  [0, 163842) no clamp changes a word, and a quarter is one half times one half, so the composition is the specification.
-/
import proofs.«175043_j76819785056407_2_alg».proof.Proof.Gen.KernelIdeal.Launch
import proofs.«175043_j76819785056407_2_alg».proof.Proof.KernelIdeal.GatherSpec
import proofs.«175043_j76819785056407_2_alg».proof.Proof.KernelIdeal.R16Val
import proofs.«175043_j76819785056407_2_alg».proof.Proof.KernelIdeal.R0Val
import proofs.«175043_j76819785056407_2_alg».proof.Proof.Spec

noncomputable section

namespace Cert.KernelIdeal.GenP

open Cert.KernelIdeal Cert.KernelIdeal.Gen
open Idealize.ShloMosaic Idealize.ShloMosaic.ValueIdx

/-! ## The buffers, one definition per buffer the final value depends on -/

/-- The vertex-major array with a unit middle axis. -/
def kg_v1 (x : FVec Ideal S4x128x163842 .f32) : (⟨S163842x1x128, .f32⟩ : BufTy).Contents (Elt Ideal) :=
  shapeCast _ (G0_2 (F := Ideal) x) shapeCasts_S163842x128_S163842x1x128

/-- Endpoint 0 of every edge, edges numbered group-major. -/
def kg_v4 (a1 : IVec S3x163840x2 32) : (⟨S491520, .i32⟩ : BufTy).Contents (Elt Ideal) :=
  shapeCast _ (shapeCast _ (extractStridedSlice S3x163840x1 ![0, 0, 0] a1 slices_S3x163840x2_S3x163840x1_0_0_0)
    shapeCasts_S3x163840x1_S3x163840) shapeCasts_S3x163840_S491520

/-- Endpoint 1 of every edge, edges numbered group-major. -/
def kg_v7 (a1 : IVec S3x163840x2 32) : (⟨S491520, .i32⟩ : BufTy).Contents (Elt Ideal) :=
  shapeCast _ (shapeCast _ (extractStridedSlice S3x163840x1 ![0, 0, 1] a1 slices_S3x163840x2_S3x163840x1_0_0_1)
    shapeCasts_S3x163840x1_S3x163840) shapeCasts_S3x163840_S491520

/-- The reorder words, each raised by 491520 when negative. -/
def kg_v12 (a2 : IVec S491520 32) : (⟨S491520, .i32⟩ : BufTy).Contents (Elt Ideal) :=
  select (cmpi .slt a2 (broadcastInDim S491520 ![] bcast_S_S491520 (constantI S_ 32 0#32)))
    (addi a2 (broadcastInDim S491520 ![] bcast_S_S491520 (constantI S_ 32 491520#32))) a2

/-- The same words as a column of start indices. -/
def kg_v13 (a2 : IVec S491520 32) : (⟨S491520x1, .i32⟩ : BufTy).Contents (Elt Ideal) :=
  broadcastInDim S491520x1 ![0] bcast_S491520_S491520x1_0 (kg_v12 a2)

/-- Endpoint 0 of the edge the reorder table names at each output position. -/
def kg_v14 (a1 : IVec S3x163840x2 32) (a2 : IVec S491520 32) : (⟨S491520, .i32⟩ : BufTy).Contents (Elt Ideal) :=
  Host.gather gather_S491520_S491520x1_S491520_n_0_n_n_0_1_1 (kg_v4 a1) (kg_v13 a2)

/-- Endpoint 1 of the edge the reorder table names at each output position. -/
def kg_v21 (a1 : IVec S3x163840x2 32) (a2 : IVec S491520 32) : (⟨S491520, .i32⟩ : BufTy).Contents (Elt Ideal) :=
  Host.gather gather_S491520_S491520x1_S491520_n_0_n_n_0_1_1 (kg_v7 a1) (kg_v13 a2)

/-- Gather region 1: its two tables (output positions 0 … 32767), its result, and the result without the unit axis. -/
def kg_v22 (a1 : IVec S3x163840x2 32) (a2 : IVec S491520 32) : (⟨S32768, .i32⟩ : BufTy).Contents (Elt Ideal) :=
  extractStridedSlice S32768 ![0] (kg_v14 a1 a2) slices_S491520_S32768_0
def kg_v23 (a1 : IVec S3x163840x2 32) (a2 : IVec S491520 32) : (⟨S32768, .i32⟩ : BufTy).Contents (Elt Ideal) :=
  extractStridedSlice S32768 ![0] (kg_v21 a1 a2) slices_S491520_S32768_0
def kg_v24 (x : FVec Ideal S4x128x163842 .f32) (a1 : IVec S3x163840x2 32) (a2 : IVec S491520 32) :
    (⟨S32768x1x128, .f32⟩ : BufTy).Contents (Elt Ideal) :=
  GB (F := Ideal) (kg_v1 x) (kg_v22 a1 a2) (kg_v23 a1 a2)
def kg_v25 (x : FVec Ideal S4x128x163842 .f32) (a1 : IVec S3x163840x2 32) (a2 : IVec S491520 32) :
    (⟨S32768x128, .f32⟩ : BufTy).Contents (Elt Ideal) :=
  shapeCast _ (kg_v24 x a1 a2) shapeCasts_S32768x1x128_S32768x128

/-- Gather region 2: its two tables (output positions 32768 … 65535), its result, and the result without the unit axis. -/
def kg_v26 (a1 : IVec S3x163840x2 32) (a2 : IVec S491520 32) : (⟨S32768, .i32⟩ : BufTy).Contents (Elt Ideal) :=
  extractStridedSlice S32768 ![32768] (kg_v14 a1 a2) slices_S491520_S32768_32768
def kg_v27 (a1 : IVec S3x163840x2 32) (a2 : IVec S491520 32) : (⟨S32768, .i32⟩ : BufTy).Contents (Elt Ideal) :=
  extractStridedSlice S32768 ![32768] (kg_v21 a1 a2) slices_S491520_S32768_32768
def kg_v28 (x : FVec Ideal S4x128x163842 .f32) (a1 : IVec S3x163840x2 32) (a2 : IVec S491520 32) :
    (⟨S32768x1x128, .f32⟩ : BufTy).Contents (Elt Ideal) :=
  GB (F := Ideal) (kg_v1 x) (kg_v26 a1 a2) (kg_v27 a1 a2)
def kg_v29 (x : FVec Ideal S4x128x163842 .f32) (a1 : IVec S3x163840x2 32) (a2 : IVec S491520 32) :
    (⟨S32768x128, .f32⟩ : BufTy).Contents (Elt Ideal) :=
  shapeCast _ (kg_v28 x a1 a2) shapeCasts_S32768x1x128_S32768x128

/-- Gather region 3: its two tables (output positions 65536 … 98303), its result, and the result without the unit axis. -/
def kg_v30 (a1 : IVec S3x163840x2 32) (a2 : IVec S491520 32) : (⟨S32768, .i32⟩ : BufTy).Contents (Elt Ideal) :=
  extractStridedSlice S32768 ![65536] (kg_v14 a1 a2) slices_S491520_S32768_65536
def kg_v31 (a1 : IVec S3x163840x2 32) (a2 : IVec S491520 32) : (⟨S32768, .i32⟩ : BufTy).Contents (Elt Ideal) :=
  extractStridedSlice S32768 ![65536] (kg_v21 a1 a2) slices_S491520_S32768_65536
def kg_v32 (x : FVec Ideal S4x128x163842 .f32) (a1 : IVec S3x163840x2 32) (a2 : IVec S491520 32) :
    (⟨S32768x1x128, .f32⟩ : BufTy).Contents (Elt Ideal) :=
  GB (F := Ideal) (kg_v1 x) (kg_v30 a1 a2) (kg_v31 a1 a2)
def kg_v33 (x : FVec Ideal S4x128x163842 .f32) (a1 : IVec S3x163840x2 32) (a2 : IVec S491520 32) :
    (⟨S32768x128, .f32⟩ : BufTy).Contents (Elt Ideal) :=
  shapeCast _ (kg_v32 x a1 a2) shapeCasts_S32768x1x128_S32768x128

/-- Gather region 4: its two tables (output positions 98304 … 131071), its result, and the result without the unit axis. -/
def kg_v34 (a1 : IVec S3x163840x2 32) (a2 : IVec S491520 32) : (⟨S32768, .i32⟩ : BufTy).Contents (Elt Ideal) :=
  extractStridedSlice S32768 ![98304] (kg_v14 a1 a2) slices_S491520_S32768_98304
def kg_v35 (a1 : IVec S3x163840x2 32) (a2 : IVec S491520 32) : (⟨S32768, .i32⟩ : BufTy).Contents (Elt Ideal) :=
  extractStridedSlice S32768 ![98304] (kg_v21 a1 a2) slices_S491520_S32768_98304
def kg_v36 (x : FVec Ideal S4x128x163842 .f32) (a1 : IVec S3x163840x2 32) (a2 : IVec S491520 32) :
    (⟨S32768x1x128, .f32⟩ : BufTy).Contents (Elt Ideal) :=
  GB (F := Ideal) (kg_v1 x) (kg_v34 a1 a2) (kg_v35 a1 a2)
def kg_v37 (x : FVec Ideal S4x128x163842 .f32) (a1 : IVec S3x163840x2 32) (a2 : IVec S491520 32) :
    (⟨S32768x128, .f32⟩ : BufTy).Contents (Elt Ideal) :=
  shapeCast _ (kg_v36 x a1 a2) shapeCasts_S32768x1x128_S32768x128

/-- Gather region 5: its two tables (output positions 131072 … 163839), its result, and the result without the unit axis. -/
def kg_v38 (a1 : IVec S3x163840x2 32) (a2 : IVec S491520 32) : (⟨S32768, .i32⟩ : BufTy).Contents (Elt Ideal) :=
  extractStridedSlice S32768 ![131072] (kg_v14 a1 a2) slices_S491520_S32768_131072
def kg_v39 (a1 : IVec S3x163840x2 32) (a2 : IVec S491520 32) : (⟨S32768, .i32⟩ : BufTy).Contents (Elt Ideal) :=
  extractStridedSlice S32768 ![131072] (kg_v21 a1 a2) slices_S491520_S32768_131072
def kg_v40 (x : FVec Ideal S4x128x163842 .f32) (a1 : IVec S3x163840x2 32) (a2 : IVec S491520 32) :
    (⟨S32768x1x128, .f32⟩ : BufTy).Contents (Elt Ideal) :=
  GB (F := Ideal) (kg_v1 x) (kg_v38 a1 a2) (kg_v39 a1 a2)
def kg_v41 (x : FVec Ideal S4x128x163842 .f32) (a1 : IVec S3x163840x2 32) (a2 : IVec S491520 32) :
    (⟨S32768x128, .f32⟩ : BufTy).Contents (Elt Ideal) :=
  shapeCast _ (kg_v40 x a1 a2) shapeCasts_S32768x1x128_S32768x128

/-- Gather region 6: its two tables (output positions 163840 … 196607), its result, and the result without the unit axis. -/
def kg_v42 (a1 : IVec S3x163840x2 32) (a2 : IVec S491520 32) : (⟨S32768, .i32⟩ : BufTy).Contents (Elt Ideal) :=
  extractStridedSlice S32768 ![163840] (kg_v14 a1 a2) slices_S491520_S32768_163840
def kg_v43 (a1 : IVec S3x163840x2 32) (a2 : IVec S491520 32) : (⟨S32768, .i32⟩ : BufTy).Contents (Elt Ideal) :=
  extractStridedSlice S32768 ![163840] (kg_v21 a1 a2) slices_S491520_S32768_163840
def kg_v44 (x : FVec Ideal S4x128x163842 .f32) (a1 : IVec S3x163840x2 32) (a2 : IVec S491520 32) :
    (⟨S32768x1x128, .f32⟩ : BufTy).Contents (Elt Ideal) :=
  GB (F := Ideal) (kg_v1 x) (kg_v42 a1 a2) (kg_v43 a1 a2)
def kg_v45 (x : FVec Ideal S4x128x163842 .f32) (a1 : IVec S3x163840x2 32) (a2 : IVec S491520 32) :
    (⟨S32768x128, .f32⟩ : BufTy).Contents (Elt Ideal) :=
  shapeCast _ (kg_v44 x a1 a2) shapeCasts_S32768x1x128_S32768x128

/-- Gather region 7: its two tables (output positions 196608 … 229375), its result, and the result without the unit axis. -/
def kg_v46 (a1 : IVec S3x163840x2 32) (a2 : IVec S491520 32) : (⟨S32768, .i32⟩ : BufTy).Contents (Elt Ideal) :=
  extractStridedSlice S32768 ![196608] (kg_v14 a1 a2) slices_S491520_S32768_196608
def kg_v47 (a1 : IVec S3x163840x2 32) (a2 : IVec S491520 32) : (⟨S32768, .i32⟩ : BufTy).Contents (Elt Ideal) :=
  extractStridedSlice S32768 ![196608] (kg_v21 a1 a2) slices_S491520_S32768_196608
def kg_v48 (x : FVec Ideal S4x128x163842 .f32) (a1 : IVec S3x163840x2 32) (a2 : IVec S491520 32) :
    (⟨S32768x1x128, .f32⟩ : BufTy).Contents (Elt Ideal) :=
  GB (F := Ideal) (kg_v1 x) (kg_v46 a1 a2) (kg_v47 a1 a2)
def kg_v49 (x : FVec Ideal S4x128x163842 .f32) (a1 : IVec S3x163840x2 32) (a2 : IVec S491520 32) :
    (⟨S32768x128, .f32⟩ : BufTy).Contents (Elt Ideal) :=
  shapeCast _ (kg_v48 x a1 a2) shapeCasts_S32768x1x128_S32768x128

/-- Gather region 8: its two tables (output positions 229376 … 262143), its result, and the result without the unit axis. -/
def kg_v50 (a1 : IVec S3x163840x2 32) (a2 : IVec S491520 32) : (⟨S32768, .i32⟩ : BufTy).Contents (Elt Ideal) :=
  extractStridedSlice S32768 ![229376] (kg_v14 a1 a2) slices_S491520_S32768_229376
def kg_v51 (a1 : IVec S3x163840x2 32) (a2 : IVec S491520 32) : (⟨S32768, .i32⟩ : BufTy).Contents (Elt Ideal) :=
  extractStridedSlice S32768 ![229376] (kg_v21 a1 a2) slices_S491520_S32768_229376
def kg_v52 (x : FVec Ideal S4x128x163842 .f32) (a1 : IVec S3x163840x2 32) (a2 : IVec S491520 32) :
    (⟨S32768x1x128, .f32⟩ : BufTy).Contents (Elt Ideal) :=
  GB (F := Ideal) (kg_v1 x) (kg_v50 a1 a2) (kg_v51 a1 a2)
def kg_v53 (x : FVec Ideal S4x128x163842 .f32) (a1 : IVec S3x163840x2 32) (a2 : IVec S491520 32) :
    (⟨S32768x128, .f32⟩ : BufTy).Contents (Elt Ideal) :=
  shapeCast _ (kg_v52 x a1 a2) shapeCasts_S32768x1x128_S32768x128

/-- Gather region 9: its two tables (output positions 262144 … 294911), its result, and the result without the unit axis. -/
def kg_v54 (a1 : IVec S3x163840x2 32) (a2 : IVec S491520 32) : (⟨S32768, .i32⟩ : BufTy).Contents (Elt Ideal) :=
  extractStridedSlice S32768 ![262144] (kg_v14 a1 a2) slices_S491520_S32768_262144
def kg_v55 (a1 : IVec S3x163840x2 32) (a2 : IVec S491520 32) : (⟨S32768, .i32⟩ : BufTy).Contents (Elt Ideal) :=
  extractStridedSlice S32768 ![262144] (kg_v21 a1 a2) slices_S491520_S32768_262144
def kg_v56 (x : FVec Ideal S4x128x163842 .f32) (a1 : IVec S3x163840x2 32) (a2 : IVec S491520 32) :
    (⟨S32768x1x128, .f32⟩ : BufTy).Contents (Elt Ideal) :=
  GB (F := Ideal) (kg_v1 x) (kg_v54 a1 a2) (kg_v55 a1 a2)
def kg_v57 (x : FVec Ideal S4x128x163842 .f32) (a1 : IVec S3x163840x2 32) (a2 : IVec S491520 32) :
    (⟨S32768x128, .f32⟩ : BufTy).Contents (Elt Ideal) :=
  shapeCast _ (kg_v56 x a1 a2) shapeCasts_S32768x1x128_S32768x128

/-- Gather region 10: its two tables (output positions 294912 … 327679), its result, and the result without the unit axis. -/
def kg_v58 (a1 : IVec S3x163840x2 32) (a2 : IVec S491520 32) : (⟨S32768, .i32⟩ : BufTy).Contents (Elt Ideal) :=
  extractStridedSlice S32768 ![294912] (kg_v14 a1 a2) slices_S491520_S32768_294912
def kg_v59 (a1 : IVec S3x163840x2 32) (a2 : IVec S491520 32) : (⟨S32768, .i32⟩ : BufTy).Contents (Elt Ideal) :=
  extractStridedSlice S32768 ![294912] (kg_v21 a1 a2) slices_S491520_S32768_294912
def kg_v60 (x : FVec Ideal S4x128x163842 .f32) (a1 : IVec S3x163840x2 32) (a2 : IVec S491520 32) :
    (⟨S32768x1x128, .f32⟩ : BufTy).Contents (Elt Ideal) :=
  GB (F := Ideal) (kg_v1 x) (kg_v58 a1 a2) (kg_v59 a1 a2)
def kg_v61 (x : FVec Ideal S4x128x163842 .f32) (a1 : IVec S3x163840x2 32) (a2 : IVec S491520 32) :
    (⟨S32768x128, .f32⟩ : BufTy).Contents (Elt Ideal) :=
  shapeCast _ (kg_v60 x a1 a2) shapeCasts_S32768x1x128_S32768x128

/-- Gather region 11: its two tables (output positions 327680 … 360447), its result, and the result without the unit axis. -/
def kg_v62 (a1 : IVec S3x163840x2 32) (a2 : IVec S491520 32) : (⟨S32768, .i32⟩ : BufTy).Contents (Elt Ideal) :=
  extractStridedSlice S32768 ![327680] (kg_v14 a1 a2) slices_S491520_S32768_327680
def kg_v63 (a1 : IVec S3x163840x2 32) (a2 : IVec S491520 32) : (⟨S32768, .i32⟩ : BufTy).Contents (Elt Ideal) :=
  extractStridedSlice S32768 ![327680] (kg_v21 a1 a2) slices_S491520_S32768_327680
def kg_v64 (x : FVec Ideal S4x128x163842 .f32) (a1 : IVec S3x163840x2 32) (a2 : IVec S491520 32) :
    (⟨S32768x1x128, .f32⟩ : BufTy).Contents (Elt Ideal) :=
  GB (F := Ideal) (kg_v1 x) (kg_v62 a1 a2) (kg_v63 a1 a2)
def kg_v65 (x : FVec Ideal S4x128x163842 .f32) (a1 : IVec S3x163840x2 32) (a2 : IVec S491520 32) :
    (⟨S32768x128, .f32⟩ : BufTy).Contents (Elt Ideal) :=
  shapeCast _ (kg_v64 x a1 a2) shapeCasts_S32768x1x128_S32768x128

/-- Gather region 12: its two tables (output positions 360448 … 393215), its result, and the result without the unit axis. -/
def kg_v66 (a1 : IVec S3x163840x2 32) (a2 : IVec S491520 32) : (⟨S32768, .i32⟩ : BufTy).Contents (Elt Ideal) :=
  extractStridedSlice S32768 ![360448] (kg_v14 a1 a2) slices_S491520_S32768_360448
def kg_v67 (a1 : IVec S3x163840x2 32) (a2 : IVec S491520 32) : (⟨S32768, .i32⟩ : BufTy).Contents (Elt Ideal) :=
  extractStridedSlice S32768 ![360448] (kg_v21 a1 a2) slices_S491520_S32768_360448
def kg_v68 (x : FVec Ideal S4x128x163842 .f32) (a1 : IVec S3x163840x2 32) (a2 : IVec S491520 32) :
    (⟨S32768x1x128, .f32⟩ : BufTy).Contents (Elt Ideal) :=
  GB (F := Ideal) (kg_v1 x) (kg_v66 a1 a2) (kg_v67 a1 a2)
def kg_v69 (x : FVec Ideal S4x128x163842 .f32) (a1 : IVec S3x163840x2 32) (a2 : IVec S491520 32) :
    (⟨S32768x128, .f32⟩ : BufTy).Contents (Elt Ideal) :=
  shapeCast _ (kg_v68 x a1 a2) shapeCasts_S32768x1x128_S32768x128

/-- Gather region 13: its two tables (output positions 393216 … 425983), its result, and the result without the unit axis. -/
def kg_v70 (a1 : IVec S3x163840x2 32) (a2 : IVec S491520 32) : (⟨S32768, .i32⟩ : BufTy).Contents (Elt Ideal) :=
  extractStridedSlice S32768 ![393216] (kg_v14 a1 a2) slices_S491520_S32768_393216
def kg_v71 (a1 : IVec S3x163840x2 32) (a2 : IVec S491520 32) : (⟨S32768, .i32⟩ : BufTy).Contents (Elt Ideal) :=
  extractStridedSlice S32768 ![393216] (kg_v21 a1 a2) slices_S491520_S32768_393216
def kg_v72 (x : FVec Ideal S4x128x163842 .f32) (a1 : IVec S3x163840x2 32) (a2 : IVec S491520 32) :
    (⟨S32768x1x128, .f32⟩ : BufTy).Contents (Elt Ideal) :=
  GB (F := Ideal) (kg_v1 x) (kg_v70 a1 a2) (kg_v71 a1 a2)
def kg_v73 (x : FVec Ideal S4x128x163842 .f32) (a1 : IVec S3x163840x2 32) (a2 : IVec S491520 32) :
    (⟨S32768x128, .f32⟩ : BufTy).Contents (Elt Ideal) :=
  shapeCast _ (kg_v72 x a1 a2) shapeCasts_S32768x1x128_S32768x128

/-- Gather region 14: its two tables (output positions 425984 … 458751), its result, and the result without the unit axis. -/
def kg_v74 (a1 : IVec S3x163840x2 32) (a2 : IVec S491520 32) : (⟨S32768, .i32⟩ : BufTy).Contents (Elt Ideal) :=
  extractStridedSlice S32768 ![425984] (kg_v14 a1 a2) slices_S491520_S32768_425984
def kg_v75 (a1 : IVec S3x163840x2 32) (a2 : IVec S491520 32) : (⟨S32768, .i32⟩ : BufTy).Contents (Elt Ideal) :=
  extractStridedSlice S32768 ![425984] (kg_v21 a1 a2) slices_S491520_S32768_425984
def kg_v76 (x : FVec Ideal S4x128x163842 .f32) (a1 : IVec S3x163840x2 32) (a2 : IVec S491520 32) :
    (⟨S32768x1x128, .f32⟩ : BufTy).Contents (Elt Ideal) :=
  GB (F := Ideal) (kg_v1 x) (kg_v74 a1 a2) (kg_v75 a1 a2)
def kg_v77 (x : FVec Ideal S4x128x163842 .f32) (a1 : IVec S3x163840x2 32) (a2 : IVec S491520 32) :
    (⟨S32768x128, .f32⟩ : BufTy).Contents (Elt Ideal) :=
  shapeCast _ (kg_v76 x a1 a2) shapeCasts_S32768x1x128_S32768x128

/-- Gather region 15: its two tables (output positions 458752 … 491519), its result, and the result without the unit axis. -/
def kg_v78 (a1 : IVec S3x163840x2 32) (a2 : IVec S491520 32) : (⟨S32768, .i32⟩ : BufTy).Contents (Elt Ideal) :=
  extractStridedSlice S32768 ![458752] (kg_v14 a1 a2) slices_S491520_S32768_458752
def kg_v79 (a1 : IVec S3x163840x2 32) (a2 : IVec S491520 32) : (⟨S32768, .i32⟩ : BufTy).Contents (Elt Ideal) :=
  extractStridedSlice S32768 ![458752] (kg_v21 a1 a2) slices_S491520_S32768_458752
def kg_v80 (x : FVec Ideal S4x128x163842 .f32) (a1 : IVec S3x163840x2 32) (a2 : IVec S491520 32) :
    (⟨S32768x1x128, .f32⟩ : BufTy).Contents (Elt Ideal) :=
  GB (F := Ideal) (kg_v1 x) (kg_v78 a1 a2) (kg_v79 a1 a2)
def kg_v81 (x : FVec Ideal S4x128x163842 .f32) (a1 : IVec S3x163840x2 32) (a2 : IVec S491520 32) :
    (⟨S32768x128, .f32⟩ : BufTy).Contents (Elt Ideal) :=
  shapeCast _ (kg_v80 x a1 a2) shapeCasts_S32768x1x128_S32768x128

/-- The fifteen results joined along the rows. -/
def kg_v82 (x : FVec Ideal S4x128x163842 .f32) (a1 : IVec S3x163840x2 32) (a2 : IVec S491520 32) :
    (⟨S491520x128, .f32⟩ : BufTy).Contents (Elt Ideal) :=
  concatenate S491520x128 0 [⟨S32768x128, kg_v25 x a1 a2⟩, ⟨S32768x128, kg_v29 x a1 a2⟩, ⟨S32768x128, kg_v33 x a1 a2⟩, ⟨S32768x128, kg_v37 x a1 a2⟩, ⟨S32768x128, kg_v41 x a1 a2⟩, ⟨S32768x128, kg_v45 x a1 a2⟩, ⟨S32768x128, kg_v49 x a1 a2⟩, ⟨S32768x128, kg_v53 x a1 a2⟩, ⟨S32768x128, kg_v57 x a1 a2⟩, ⟨S32768x128, kg_v61 x a1 a2⟩, ⟨S32768x128, kg_v65 x a1 a2⟩, ⟨S32768x128, kg_v69 x a1 a2⟩, ⟨S32768x128, kg_v73 x a1 a2⟩, ⟨S32768x128, kg_v77 x a1 a2⟩, ⟨S32768x128, kg_v81 x a1 a2⟩]
    concatenates_S32768x128_S32768x128_S32768x128_S32768x128_S32768x128_S32768x128_S32768x128_S32768x128_S32768x128_S32768x128_S32768x128_S32768x128_S32768x128_S32768x128_S32768x128_S491520x128_d0

/-- The join, channel-major. -/
def kg_v83 (x : FVec Ideal S4x128x163842 .f32) (a1 : IVec S3x163840x2 32) (a2 : IVec S491520 32) :
    (⟨S4x32x491520, .f32⟩ : BufTy).Contents (Elt Ideal) :=
  G16 (F := Ideal) (kg_v82 x a1 a2)

/-- The program's result: the first array followed along the last axis by the channel-major join. -/
def KG (x : FVec Ideal S4x128x163842 .f32) (a1 : IVec S3x163840x2 32) (a2 : IVec S491520 32) : FVec Ideal S4x32x655362 .f32 :=
  concatenate S4x32x655362 2 [⟨S4x32x163842, G0_1 (F := Ideal) x⟩, ⟨S4x32x491520, kg_v83 x a1 a2⟩]
    concatenates_S4x32x163842_S4x32x491520_S4x32x655362_d2

/-! ## The layout operations read at an index -/

/-- A start index as a gather reads it along an axis of extent n from which it takes one element: read signed and
    clamped into [0, n - 1]. -/
def kg_clamp (n : Nat) (hn : 0 < n) {w : Nat} (v : BitVec w) : Fin n := ⟨min v.toInt.toNat (n - 1), by omega⟩

/-- The flat gather at result index p: the operand at the start index at (p, 0), read signed and clamped into
    [0, 491519]. -/
theorem kg_gather_apply {α : Type} {w : Nat} (x : S491520.Idx → α) (idx : IVec S491520x1 w) (p : Fin 491520) :
    Host.gather gather_S491520_S491520x1_S491520_n_0_n_n_0_1_1 x idx (ValueIdx.ix1 p)
      = x (ValueIdx.ix1 (kg_clamp 491520 (by decide) (idx (ValueIdx.ix2 p (0 : Fin 1))))) := by
  unfold Host.gather
  refine congrArg x ?_
  funext a
  refine Fin.ext ?_
  match a with
  | ⟨0, _⟩ =>
    show GatherDims.start _ (ValueIdx.ix1 p) idx 0 + GatherDims.batchCoord _ (ValueIdx.ix1 p) 0 + GatherDims.offCoord _ (ValueIdx.ix1 p) 0
      = min (idx (ValueIdx.ix2 p (0 : Fin 1))).toInt.toNat (491520 - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (gather_S491520_S491520x1_S491520_n_0_n_n_0_1_1).startIndexMap from List.mem_singleton.mpr rfl)]
    have hsi : (gather_S491520_S491520x1_S491520_n_0_n_n_0_1_1).siIdx (ValueIdx.ix1 p)
        ⟨List.idxOf (0 : Fin 1) (gather_S491520_S491520x1_S491520_n_0_n_n_0_1_1).startIndexMap,
          List.idxOf_lt_length_iff.2 (List.mem_singleton.mpr rfl)⟩ = ValueIdx.ix2 p (0 : Fin 1) := by
      funext b'; refine Fin.ext ?_
      match b' with
      | ⟨0, _⟩ => rfl
      | ⟨1, _⟩ => rfl
    rw [hsi]
    rfl

/-- The vertex-major array with its unit axis, at (r, 0, l): the array at (r, l). -/
theorem kg_v1_apply (x : FVec Ideal S4x128x163842 .f32) (r : Fin 163842) (l : Fin 128) :
    kg_v1 x (ValueIdx.ix3 r (0 : Fin 1) l) = G0_2 (F := Ideal) x (ValueIdx.ix2 r l) := by
  unfold kg_v1
  exact shapeCast_apply _ shapeCasts_S163842x128_S163842x1x128 (ValueIdx.ix3 r (0 : Fin 1) l) (ValueIdx.ix2 r l)
    (by rewrite [Shape.rowMajor_val_two, Shape.rowMajor_val_three]
        show r.val * 128 + l.val = (r.val * 1 + 0) * 128 + l.val; omega)

/-- The vertex-major array at (r, l): a quarter of the sum of channels 64 + l % 32 and 96 + l % 32 of batch l / 32. -/
theorem kg_G0_2_apply (x : FVec Ideal S4x128x163842 .f32) (r : Fin 163842) (l : Fin 128) :
    G0_2 (F := Ideal) x (ValueIdx.ix2 r l)
      = ((x (ValueIdx.ix3 (⟨l.val / 32, by omega⟩ : Fin 4) (⟨64 + l.val % 32, by omega⟩ : Fin 128) r) : EReal)
          + (x (ValueIdx.ix3 (⟨l.val / 32, by omega⟩ : Fin 4) (⟨96 + l.val % 32, by omega⟩ : Fin 128) r) : EReal))
        * Ideal.ofBits .f32 0x3E800000#32 := rfl

/-- Endpoint 0 of edge k. -/
theorem kg_v4_apply (a1 : IVec S3x163840x2 32) (k : Fin 491520) :
    kg_v4 a1 (ValueIdx.ix1 k)
      = a1 (ValueIdx.ix3 (⟨k.val / 163840, by omega⟩ : Fin 3) (⟨k.val % 163840, by omega⟩ : Fin 163840) (0 : Fin 2)) := by
  unfold kg_v4
  rw [shapeCast_apply _ shapeCasts_S3x163840_S491520 (ValueIdx.ix1 k)
        (ValueIdx.ix2 (⟨k.val / 163840, by omega⟩ : Fin 3) (⟨k.val % 163840, by omega⟩ : Fin 163840))
        (by rewrite [Shape.rowMajor_val_two, Shape.rowMajor_val_one]
            show (k.val / 163840) * 163840 + k.val % 163840 = k.val; omega),
    shapeCast_apply _ shapeCasts_S3x163840x1_S3x163840
        (ValueIdx.ix2 (⟨k.val / 163840, by omega⟩ : Fin 3) (⟨k.val % 163840, by omega⟩ : Fin 163840))
        (ValueIdx.ix3 (⟨k.val / 163840, by omega⟩ : Fin 3) (⟨k.val % 163840, by omega⟩ : Fin 163840) (0 : Fin 1))
        (by rewrite [Shape.rowMajor_val_three, Shape.rowMajor_val_two]
            show ((k.val / 163840) * 163840 + k.val % 163840) * 1 + 0 = (k.val / 163840) * 163840 + k.val % 163840; omega),
    extractStridedSlice_apply ![0, 0, 0] a1 slices_S3x163840x2_S3x163840x1_0_0_0
        (ValueIdx.ix3 (⟨k.val / 163840, by omega⟩ : Fin 3) (⟨k.val % 163840, by omega⟩ : Fin 163840) (0 : Fin 1))
        (ValueIdx.ix3 (⟨k.val / 163840, by omega⟩ : Fin 3) (⟨k.val % 163840, by omega⟩ : Fin 163840) (0 : Fin 2))
        (fun a => by
          match a with
          | ⟨0, _⟩ => show k.val / 163840 = 0 + k.val / 163840; omega
          | ⟨1, _⟩ => show k.val % 163840 = 0 + k.val % 163840; omega
          | ⟨2, _⟩ => rfl)]

/-- Endpoint 1 of edge k. -/
theorem kg_v7_apply (a1 : IVec S3x163840x2 32) (k : Fin 491520) :
    kg_v7 a1 (ValueIdx.ix1 k)
      = a1 (ValueIdx.ix3 (⟨k.val / 163840, by omega⟩ : Fin 3) (⟨k.val % 163840, by omega⟩ : Fin 163840) (1 : Fin 2)) := by
  unfold kg_v7
  rw [shapeCast_apply _ shapeCasts_S3x163840_S491520 (ValueIdx.ix1 k)
        (ValueIdx.ix2 (⟨k.val / 163840, by omega⟩ : Fin 3) (⟨k.val % 163840, by omega⟩ : Fin 163840))
        (by rewrite [Shape.rowMajor_val_two, Shape.rowMajor_val_one]
            show (k.val / 163840) * 163840 + k.val % 163840 = k.val; omega),
    shapeCast_apply _ shapeCasts_S3x163840x1_S3x163840
        (ValueIdx.ix2 (⟨k.val / 163840, by omega⟩ : Fin 3) (⟨k.val % 163840, by omega⟩ : Fin 163840))
        (ValueIdx.ix3 (⟨k.val / 163840, by omega⟩ : Fin 3) (⟨k.val % 163840, by omega⟩ : Fin 163840) (0 : Fin 1))
        (by rewrite [Shape.rowMajor_val_three, Shape.rowMajor_val_two]
            show ((k.val / 163840) * 163840 + k.val % 163840) * 1 + 0 = (k.val / 163840) * 163840 + k.val % 163840; omega),
    extractStridedSlice_apply ![0, 0, 1] a1 slices_S3x163840x2_S3x163840x1_0_0_1
        (ValueIdx.ix3 (⟨k.val / 163840, by omega⟩ : Fin 3) (⟨k.val % 163840, by omega⟩ : Fin 163840) (0 : Fin 1))
        (ValueIdx.ix3 (⟨k.val / 163840, by omega⟩ : Fin 3) (⟨k.val % 163840, by omega⟩ : Fin 163840) (1 : Fin 2))
        (fun a => by
          match a with
          | ⟨0, _⟩ => show k.val / 163840 = 0 + k.val / 163840; omega
          | ⟨1, _⟩ => show k.val % 163840 = 0 + k.val % 163840; omega
          | ⟨2, _⟩ => rfl)]

/-- The start index at (p, 0): reorder word p, raised by 491520 when negative. -/
theorem kg_v13_apply (a2 : IVec S491520 32) (p : Fin 491520) :
    kg_v13 a2 (ValueIdx.ix2 p (0 : Fin 1))
      = Scalar.select (IntOp.cmpi .slt (a2 (ValueIdx.ix1 p)) 0#32) (IntOp.addi (a2 (ValueIdx.ix1 p)) 491520#32) (a2 (ValueIdx.ix1 p)) := by
  unfold kg_v13
  rw [broadcastInDim_apply _ bcast_S491520_S491520x1_0 (kg_v12 a2) (ValueIdx.ix2 p (0 : Fin 1)) (ValueIdx.ix1 p)
    (fun a => by
      match a with
      | ⟨0, _⟩ => show p.val = if (491520 : Nat) = 1 then 0 else p.val; rw [if_neg (by decide)])]
  rfl

/-- The edge number at output position p, as the specification reads it, is the gather's clamp of the raised word. -/
theorem kg_usrc_eq (a2 : IVec S491520 32) (p : Fin 491520) :
    kg_clamp 491520 (by decide)
        (Scalar.select (IntOp.cmpi .slt (a2 (ValueIdx.ix1 p)) 0#32) (IntOp.addi (a2 (ValueIdx.ix1 p)) 491520#32) (a2 (ValueIdx.ix1 p)))
      = Cert.Spec.usrc a2 p := rfl

/-- Endpoint 0 of the edge the reorder table names at output position p. -/
theorem kg_v14_apply (a1 : IVec S3x163840x2 32) (a2 : IVec S491520 32) (p : Fin 491520) :
    kg_v14 a1 a2 (ValueIdx.ix1 p)
      = a1 (ValueIdx.ix3 (⟨(Cert.Spec.usrc a2 p).val / 163840, by omega⟩ : Fin 3)
          (⟨(Cert.Spec.usrc a2 p).val % 163840, by omega⟩ : Fin 163840) (0 : Fin 2)) := by
  unfold kg_v14
  rw [kg_gather_apply, kg_v13_apply, kg_usrc_eq, kg_v4_apply]

/-- Endpoint 1 of the edge the reorder table names at output position p. -/
theorem kg_v21_apply (a1 : IVec S3x163840x2 32) (a2 : IVec S491520 32) (p : Fin 491520) :
    kg_v21 a1 a2 (ValueIdx.ix1 p)
      = a1 (ValueIdx.ix3 (⟨(Cert.Spec.usrc a2 p).val / 163840, by omega⟩ : Fin 3)
          (⟨(Cert.Spec.usrc a2 p).val % 163840, by omega⟩ : Fin 163840) (1 : Fin 2)) := by
  unfold kg_v21
  rw [kg_gather_apply, kg_v13_apply, kg_usrc_eq, kg_v7_apply]

/-- A table cut out of a flat array at offset o, at word n: the array's word o + n. -/
theorem kg_slice_apply {α : Type} (t : S491520.Idx → α) (o : Nat) (hs : S491520.Slices ![o] S32768) (n : Fin 32768)
    (q : Fin 491520) (hq : q.val = o + n.val) :
    extractStridedSlice S32768 ![o] t hs (ValueIdx.ix1 n) = t (ValueIdx.ix1 q) :=
  extractStridedSlice_apply ![o] t hs (ValueIdx.ix1 n) (ValueIdx.ix1 q) (fun a => by
    match a with
    | ⟨0, _⟩ => exact hq)

/-- A gather region's result without its unit axis, at (n, l): the sum of the two rows its tables name at n, on lane l. -/
theorem kg_chunk_apply (v1 : (⟨S163842x1x128, .f32⟩ : BufTy).Contents (Elt Ideal))
    (t0 t1 : (⟨S32768, .i32⟩ : BufTy).Contents (Elt Ideal)) (n : Fin 32768) (l : Fin 128) :
    shapeCast S32768x128 (GB (F := Ideal) v1 t0 t1) shapeCasts_S32768x1x128_S32768x128 (ValueIdx.ix2 n l)
      = (v1 (gRow (t0 (ValueIdx.ix1 n)).toNat l) : EReal) + (v1 (gRow (t1 (ValueIdx.ix1 n)).toNat l) : EReal) := by
  rw [shapeCast_apply _ shapeCasts_S32768x1x128_S32768x128 (ValueIdx.ix2 n l) (ValueIdx.ix3 n (0 : Fin 1) l)
    (by rewrite [Shape.rowMajor_val_three, Shape.rowMajor_val_two]
        show (n.val * 1 + 0) * 128 + l.val = n.val * 128 + l.val; omega)]
  rfl

/-- Gather region 1's result at (n, l), q the output position 0 + n. -/
theorem kg_v25_apply (x : FVec Ideal S4x128x163842 .f32) (a1 : IVec S3x163840x2 32) (a2 : IVec S491520 32)
    (n : Fin 32768) (l : Fin 128) (q : Fin 491520) (hq : q.val = 0 + n.val) :
    kg_v25 x a1 a2 (ValueIdx.ix2 n l)
      = (kg_v1 x (gRow (kg_v14 a1 a2 (ValueIdx.ix1 q)).toNat l) : EReal) + (kg_v1 x (gRow (kg_v21 a1 a2 (ValueIdx.ix1 q)).toNat l) : EReal) := by
  unfold kg_v25 kg_v24
  rw [kg_chunk_apply]
  unfold kg_v22 kg_v23
  rw [kg_slice_apply _ 0 _ n q hq, kg_slice_apply _ 0 _ n q hq]

/-- Gather region 2's result at (n, l), q the output position 32768 + n. -/
theorem kg_v29_apply (x : FVec Ideal S4x128x163842 .f32) (a1 : IVec S3x163840x2 32) (a2 : IVec S491520 32)
    (n : Fin 32768) (l : Fin 128) (q : Fin 491520) (hq : q.val = 32768 + n.val) :
    kg_v29 x a1 a2 (ValueIdx.ix2 n l)
      = (kg_v1 x (gRow (kg_v14 a1 a2 (ValueIdx.ix1 q)).toNat l) : EReal) + (kg_v1 x (gRow (kg_v21 a1 a2 (ValueIdx.ix1 q)).toNat l) : EReal) := by
  unfold kg_v29 kg_v28
  rw [kg_chunk_apply]
  unfold kg_v26 kg_v27
  rw [kg_slice_apply _ 32768 _ n q hq, kg_slice_apply _ 32768 _ n q hq]

/-- Gather region 3's result at (n, l), q the output position 65536 + n. -/
theorem kg_v33_apply (x : FVec Ideal S4x128x163842 .f32) (a1 : IVec S3x163840x2 32) (a2 : IVec S491520 32)
    (n : Fin 32768) (l : Fin 128) (q : Fin 491520) (hq : q.val = 65536 + n.val) :
    kg_v33 x a1 a2 (ValueIdx.ix2 n l)
      = (kg_v1 x (gRow (kg_v14 a1 a2 (ValueIdx.ix1 q)).toNat l) : EReal) + (kg_v1 x (gRow (kg_v21 a1 a2 (ValueIdx.ix1 q)).toNat l) : EReal) := by
  unfold kg_v33 kg_v32
  rw [kg_chunk_apply]
  unfold kg_v30 kg_v31
  rw [kg_slice_apply _ 65536 _ n q hq, kg_slice_apply _ 65536 _ n q hq]

/-- Gather region 4's result at (n, l), q the output position 98304 + n. -/
theorem kg_v37_apply (x : FVec Ideal S4x128x163842 .f32) (a1 : IVec S3x163840x2 32) (a2 : IVec S491520 32)
    (n : Fin 32768) (l : Fin 128) (q : Fin 491520) (hq : q.val = 98304 + n.val) :
    kg_v37 x a1 a2 (ValueIdx.ix2 n l)
      = (kg_v1 x (gRow (kg_v14 a1 a2 (ValueIdx.ix1 q)).toNat l) : EReal) + (kg_v1 x (gRow (kg_v21 a1 a2 (ValueIdx.ix1 q)).toNat l) : EReal) := by
  unfold kg_v37 kg_v36
  rw [kg_chunk_apply]
  unfold kg_v34 kg_v35
  rw [kg_slice_apply _ 98304 _ n q hq, kg_slice_apply _ 98304 _ n q hq]

/-- Gather region 5's result at (n, l), q the output position 131072 + n. -/
theorem kg_v41_apply (x : FVec Ideal S4x128x163842 .f32) (a1 : IVec S3x163840x2 32) (a2 : IVec S491520 32)
    (n : Fin 32768) (l : Fin 128) (q : Fin 491520) (hq : q.val = 131072 + n.val) :
    kg_v41 x a1 a2 (ValueIdx.ix2 n l)
      = (kg_v1 x (gRow (kg_v14 a1 a2 (ValueIdx.ix1 q)).toNat l) : EReal) + (kg_v1 x (gRow (kg_v21 a1 a2 (ValueIdx.ix1 q)).toNat l) : EReal) := by
  unfold kg_v41 kg_v40
  rw [kg_chunk_apply]
  unfold kg_v38 kg_v39
  rw [kg_slice_apply _ 131072 _ n q hq, kg_slice_apply _ 131072 _ n q hq]

/-- Gather region 6's result at (n, l), q the output position 163840 + n. -/
theorem kg_v45_apply (x : FVec Ideal S4x128x163842 .f32) (a1 : IVec S3x163840x2 32) (a2 : IVec S491520 32)
    (n : Fin 32768) (l : Fin 128) (q : Fin 491520) (hq : q.val = 163840 + n.val) :
    kg_v45 x a1 a2 (ValueIdx.ix2 n l)
      = (kg_v1 x (gRow (kg_v14 a1 a2 (ValueIdx.ix1 q)).toNat l) : EReal) + (kg_v1 x (gRow (kg_v21 a1 a2 (ValueIdx.ix1 q)).toNat l) : EReal) := by
  unfold kg_v45 kg_v44
  rw [kg_chunk_apply]
  unfold kg_v42 kg_v43
  rw [kg_slice_apply _ 163840 _ n q hq, kg_slice_apply _ 163840 _ n q hq]

/-- Gather region 7's result at (n, l), q the output position 196608 + n. -/
theorem kg_v49_apply (x : FVec Ideal S4x128x163842 .f32) (a1 : IVec S3x163840x2 32) (a2 : IVec S491520 32)
    (n : Fin 32768) (l : Fin 128) (q : Fin 491520) (hq : q.val = 196608 + n.val) :
    kg_v49 x a1 a2 (ValueIdx.ix2 n l)
      = (kg_v1 x (gRow (kg_v14 a1 a2 (ValueIdx.ix1 q)).toNat l) : EReal) + (kg_v1 x (gRow (kg_v21 a1 a2 (ValueIdx.ix1 q)).toNat l) : EReal) := by
  unfold kg_v49 kg_v48
  rw [kg_chunk_apply]
  unfold kg_v46 kg_v47
  rw [kg_slice_apply _ 196608 _ n q hq, kg_slice_apply _ 196608 _ n q hq]

/-- Gather region 8's result at (n, l), q the output position 229376 + n. -/
theorem kg_v53_apply (x : FVec Ideal S4x128x163842 .f32) (a1 : IVec S3x163840x2 32) (a2 : IVec S491520 32)
    (n : Fin 32768) (l : Fin 128) (q : Fin 491520) (hq : q.val = 229376 + n.val) :
    kg_v53 x a1 a2 (ValueIdx.ix2 n l)
      = (kg_v1 x (gRow (kg_v14 a1 a2 (ValueIdx.ix1 q)).toNat l) : EReal) + (kg_v1 x (gRow (kg_v21 a1 a2 (ValueIdx.ix1 q)).toNat l) : EReal) := by
  unfold kg_v53 kg_v52
  rw [kg_chunk_apply]
  unfold kg_v50 kg_v51
  rw [kg_slice_apply _ 229376 _ n q hq, kg_slice_apply _ 229376 _ n q hq]

/-- Gather region 9's result at (n, l), q the output position 262144 + n. -/
theorem kg_v57_apply (x : FVec Ideal S4x128x163842 .f32) (a1 : IVec S3x163840x2 32) (a2 : IVec S491520 32)
    (n : Fin 32768) (l : Fin 128) (q : Fin 491520) (hq : q.val = 262144 + n.val) :
    kg_v57 x a1 a2 (ValueIdx.ix2 n l)
      = (kg_v1 x (gRow (kg_v14 a1 a2 (ValueIdx.ix1 q)).toNat l) : EReal) + (kg_v1 x (gRow (kg_v21 a1 a2 (ValueIdx.ix1 q)).toNat l) : EReal) := by
  unfold kg_v57 kg_v56
  rw [kg_chunk_apply]
  unfold kg_v54 kg_v55
  rw [kg_slice_apply _ 262144 _ n q hq, kg_slice_apply _ 262144 _ n q hq]

/-- Gather region 10's result at (n, l), q the output position 294912 + n. -/
theorem kg_v61_apply (x : FVec Ideal S4x128x163842 .f32) (a1 : IVec S3x163840x2 32) (a2 : IVec S491520 32)
    (n : Fin 32768) (l : Fin 128) (q : Fin 491520) (hq : q.val = 294912 + n.val) :
    kg_v61 x a1 a2 (ValueIdx.ix2 n l)
      = (kg_v1 x (gRow (kg_v14 a1 a2 (ValueIdx.ix1 q)).toNat l) : EReal) + (kg_v1 x (gRow (kg_v21 a1 a2 (ValueIdx.ix1 q)).toNat l) : EReal) := by
  unfold kg_v61 kg_v60
  rw [kg_chunk_apply]
  unfold kg_v58 kg_v59
  rw [kg_slice_apply _ 294912 _ n q hq, kg_slice_apply _ 294912 _ n q hq]

/-- Gather region 11's result at (n, l), q the output position 327680 + n. -/
theorem kg_v65_apply (x : FVec Ideal S4x128x163842 .f32) (a1 : IVec S3x163840x2 32) (a2 : IVec S491520 32)
    (n : Fin 32768) (l : Fin 128) (q : Fin 491520) (hq : q.val = 327680 + n.val) :
    kg_v65 x a1 a2 (ValueIdx.ix2 n l)
      = (kg_v1 x (gRow (kg_v14 a1 a2 (ValueIdx.ix1 q)).toNat l) : EReal) + (kg_v1 x (gRow (kg_v21 a1 a2 (ValueIdx.ix1 q)).toNat l) : EReal) := by
  unfold kg_v65 kg_v64
  rw [kg_chunk_apply]
  unfold kg_v62 kg_v63
  rw [kg_slice_apply _ 327680 _ n q hq, kg_slice_apply _ 327680 _ n q hq]

/-- Gather region 12's result at (n, l), q the output position 360448 + n. -/
theorem kg_v69_apply (x : FVec Ideal S4x128x163842 .f32) (a1 : IVec S3x163840x2 32) (a2 : IVec S491520 32)
    (n : Fin 32768) (l : Fin 128) (q : Fin 491520) (hq : q.val = 360448 + n.val) :
    kg_v69 x a1 a2 (ValueIdx.ix2 n l)
      = (kg_v1 x (gRow (kg_v14 a1 a2 (ValueIdx.ix1 q)).toNat l) : EReal) + (kg_v1 x (gRow (kg_v21 a1 a2 (ValueIdx.ix1 q)).toNat l) : EReal) := by
  unfold kg_v69 kg_v68
  rw [kg_chunk_apply]
  unfold kg_v66 kg_v67
  rw [kg_slice_apply _ 360448 _ n q hq, kg_slice_apply _ 360448 _ n q hq]

/-- Gather region 13's result at (n, l), q the output position 393216 + n. -/
theorem kg_v73_apply (x : FVec Ideal S4x128x163842 .f32) (a1 : IVec S3x163840x2 32) (a2 : IVec S491520 32)
    (n : Fin 32768) (l : Fin 128) (q : Fin 491520) (hq : q.val = 393216 + n.val) :
    kg_v73 x a1 a2 (ValueIdx.ix2 n l)
      = (kg_v1 x (gRow (kg_v14 a1 a2 (ValueIdx.ix1 q)).toNat l) : EReal) + (kg_v1 x (gRow (kg_v21 a1 a2 (ValueIdx.ix1 q)).toNat l) : EReal) := by
  unfold kg_v73 kg_v72
  rw [kg_chunk_apply]
  unfold kg_v70 kg_v71
  rw [kg_slice_apply _ 393216 _ n q hq, kg_slice_apply _ 393216 _ n q hq]

/-- Gather region 14's result at (n, l), q the output position 425984 + n. -/
theorem kg_v77_apply (x : FVec Ideal S4x128x163842 .f32) (a1 : IVec S3x163840x2 32) (a2 : IVec S491520 32)
    (n : Fin 32768) (l : Fin 128) (q : Fin 491520) (hq : q.val = 425984 + n.val) :
    kg_v77 x a1 a2 (ValueIdx.ix2 n l)
      = (kg_v1 x (gRow (kg_v14 a1 a2 (ValueIdx.ix1 q)).toNat l) : EReal) + (kg_v1 x (gRow (kg_v21 a1 a2 (ValueIdx.ix1 q)).toNat l) : EReal) := by
  unfold kg_v77 kg_v76
  rw [kg_chunk_apply]
  unfold kg_v74 kg_v75
  rw [kg_slice_apply _ 425984 _ n q hq, kg_slice_apply _ 425984 _ n q hq]

/-- Gather region 15's result at (n, l), q the output position 458752 + n. -/
theorem kg_v81_apply (x : FVec Ideal S4x128x163842 .f32) (a1 : IVec S3x163840x2 32) (a2 : IVec S491520 32)
    (n : Fin 32768) (l : Fin 128) (q : Fin 491520) (hq : q.val = 458752 + n.val) :
    kg_v81 x a1 a2 (ValueIdx.ix2 n l)
      = (kg_v1 x (gRow (kg_v14 a1 a2 (ValueIdx.ix1 q)).toNat l) : EReal) + (kg_v1 x (gRow (kg_v21 a1 a2 (ValueIdx.ix1 q)).toNat l) : EReal) := by
  unfold kg_v81 kg_v80
  rw [kg_chunk_apply]
  unfold kg_v78 kg_v79
  rw [kg_slice_apply _ 458752 _ n q hq, kg_slice_apply _ 458752 _ n q hq]

/-! ## The join of the fifteen results -/

/-- The fifteen results as a family. -/
def kg_piece (x : FVec Ideal S4x128x163842 .f32) (a1 : IVec S3x163840x2 32) (a2 : IVec S491520 32) :
    Fin 15 → (S32768x128.Idx → EReal)
  | ⟨0, _⟩ => kg_v25 x a1 a2
  | ⟨1, _⟩ => kg_v29 x a1 a2
  | ⟨2, _⟩ => kg_v33 x a1 a2
  | ⟨3, _⟩ => kg_v37 x a1 a2
  | ⟨4, _⟩ => kg_v41 x a1 a2
  | ⟨5, _⟩ => kg_v45 x a1 a2
  | ⟨6, _⟩ => kg_v49 x a1 a2
  | ⟨7, _⟩ => kg_v53 x a1 a2
  | ⟨8, _⟩ => kg_v57 x a1 a2
  | ⟨9, _⟩ => kg_v61 x a1 a2
  | ⟨10, _⟩ => kg_v65 x a1 a2
  | ⟨11, _⟩ => kg_v69 x a1 a2
  | ⟨12, _⟩ => kg_v73 x a1 a2
  | ⟨13, _⟩ => kg_v77 x a1 a2
  | ⟨14, _⟩ => kg_v81 x a1 a2
  | ⟨_ + 15, h⟩ => absurd h (Nat.not_lt.2 (Nat.le_add_left _ _))

/-- The join is the concatenation of the family. -/
theorem kg_v82_eq (x : FVec Ideal S4x128x163842 .f32) (a1 : IVec S3x163840x2 32) (a2 : IVec S491520 32) :
    kg_v82 x a1 a2
      = concatenate S491520x128 0
          (List.ofFn fun κ : Fin 15 => (⟨S32768x128, kg_piece x a1 a2 κ⟩ : (s : Shape) × (s.Idx → EReal)))
          concatenates_S32768x128_S32768x128_S32768x128_S32768x128_S32768x128_S32768x128_S32768x128_S32768x128_S32768x128_S32768x128_S32768x128_S32768x128_S32768x128_S32768x128_S32768x128_S491520x128_d0 := rfl

/-- Piece κ at (n, l), q the output position 32768 κ + n. -/
theorem kg_piece_apply (x : FVec Ideal S4x128x163842 .f32) (a1 : IVec S3x163840x2 32) (a2 : IVec S491520 32)
    (κ : Fin 15) (n : Fin 32768) (l : Fin 128) (q : Fin 491520) (hq : q.val = 32768 * κ.val + n.val) :
    kg_piece x a1 a2 κ (ValueIdx.ix2 n l)
      = (kg_v1 x (gRow (kg_v14 a1 a2 (ValueIdx.ix1 q)).toNat l) : EReal) + (kg_v1 x (gRow (kg_v21 a1 a2 (ValueIdx.ix1 q)).toNat l) : EReal) := by
  match κ, hq with
  | ⟨0, _⟩, hq => exact kg_v25_apply x a1 a2 n l q hq
  | ⟨1, _⟩, hq => exact kg_v29_apply x a1 a2 n l q hq
  | ⟨2, _⟩, hq => exact kg_v33_apply x a1 a2 n l q hq
  | ⟨3, _⟩, hq => exact kg_v37_apply x a1 a2 n l q hq
  | ⟨4, _⟩, hq => exact kg_v41_apply x a1 a2 n l q hq
  | ⟨5, _⟩, hq => exact kg_v45_apply x a1 a2 n l q hq
  | ⟨6, _⟩, hq => exact kg_v49_apply x a1 a2 n l q hq
  | ⟨7, _⟩, hq => exact kg_v53_apply x a1 a2 n l q hq
  | ⟨8, _⟩, hq => exact kg_v57_apply x a1 a2 n l q hq
  | ⟨9, _⟩, hq => exact kg_v61_apply x a1 a2 n l q hq
  | ⟨10, _⟩, hq => exact kg_v65_apply x a1 a2 n l q hq
  | ⟨11, _⟩, hq => exact kg_v69_apply x a1 a2 n l q hq
  | ⟨12, _⟩, hq => exact kg_v73_apply x a1 a2 n l q hq
  | ⟨13, _⟩, hq => exact kg_v77_apply x a1 a2 n l q hq
  | ⟨14, _⟩, hq => exact kg_v81_apply x a1 a2 n l q hq

/-- The join at (j, l): the sum of the two rows of the vertex-major array that the two gathered endpoint arrays name
    at output position j, on lane l. -/
theorem kg_v82_apply (x : FVec Ideal S4x128x163842 .f32) (a1 : IVec S3x163840x2 32) (a2 : IVec S491520 32)
    (j : Fin 491520) (l : Fin 128) :
    kg_v82 x a1 a2 (ValueIdx.ix2 j l)
      = (kg_v1 x (gRow (kg_v14 a1 a2 (ValueIdx.ix1 j)).toNat l) : EReal) + (kg_v1 x (gRow (kg_v21 a1 a2 (ValueIdx.ix1 j)).toNat l) : EReal) := by
  rw [kg_v82_eq, concatenate_ofFn_apply (t := S491520x128) (s₁ := S32768x128) (0 : Fin 2) (kg_piece x a1 a2)
    concatenates_S32768x128_S32768x128_S32768x128_S32768x128_S32768x128_S32768x128_S32768x128_S32768x128_S32768x128_S32768x128_S32768x128_S32768x128_S32768x128_S32768x128_S32768x128_S491520x128_d0
    rfl 32768 rfl (ValueIdx.ix2 j l) (⟨j.val / 32768, by omega⟩ : Fin 15) rfl
    (ValueIdx.ix2 (⟨j.val % 32768, by omega⟩ : Fin 32768) l) rfl
    (fun b => by
      match b with
      | ⟨0, _⟩ => exact fun hne => absurd rfl hne
      | ⟨1, _⟩ => exact fun _ => rfl)]
  exact kg_piece_apply x a1 a2 _ _ l j (by show j.val = 32768 * (j.val / 32768) + j.val % 32768; omega)

/-- The channel-major join at (b, ch, j): the join at row j, lane 32 b + ch. -/
theorem kg_v83_apply (x : FVec Ideal S4x128x163842 .f32) (a1 : IVec S3x163840x2 32) (a2 : IVec S491520 32)
    (b : Fin 4) (ch : Fin 32) (j : Fin 491520) :
    kg_v83 x a1 a2 (ValueIdx.ix3 b ch j) = kg_v82 x a1 a2 (ValueIdx.ix2 j (⟨32 * b.val + ch.val, by omega⟩ : Fin 128)) := rfl

/-! ## The two float words, and an index word in range -/

/-- The word 0x3F000000 denotes one half. -/
theorem kg_ofBits_half : Ideal.ofBits .f32 0x3F000000#32 = ((1 / 2 : ℝ) : EReal) := by
  simp [Ideal.ofBits, Ideal.ieee, -EReal.coe_mul]; norm_num

/-- The word 0x3E800000 denotes one quarter. -/
theorem kg_ofBits_quarter : Ideal.ofBits .f32 0x3E800000#32 = ((1 / 4 : ℝ) : EReal) := by
  simp [Ideal.ofBits, Ideal.ieee, -EReal.coe_mul]; norm_num

/-- One quarter is one half times one half. -/
theorem kg_quarter_eq : Ideal.ofBits .f32 0x3E800000#32 = Cert.Spec.half * Cert.Spec.half := by
  unfold Cert.Spec.half
  rw [kg_ofBits_quarter, kg_ofBits_half, ← EReal.coe_mul]
  norm_num

/-- A 32-bit word that read signed lies in [0, 163842): read unsigned it is the same number, below 163842. -/
theorem kg_word (w : BitVec 32) (h0 : 0 ≤ w.toInt) (h1 : w.toInt < 163842) :
    w.toNat < 163842 ∧ w.toInt.toNat = w.toNat := by
  have hw := w.isLt
  rw [BitVec.toInt_eq_toNat_cond] at h0 h1 ⊢
  by_cases hc : 2 * w.toNat < 2 ^ 32
  · rw [if_pos hc] at h0 h1 ⊢
    exact ⟨by omega, Int.toNat_natCast _⟩
  · rw [if_neg hc] at h0 h1 ⊢
    omega

/-- Such a word is its own reading by the specification: it is not negative, so it is not raised, and the clamp does
    not change it. -/
theorem kg_wrapClamp (w : BitVec 32) (h0 : 0 ≤ w.toInt) (h1 : w.toInt < 163842) :
    Cert.Spec.wrapClamp 163842 w = w.toNat := by
  obtain ⟨ht, hti⟩ := kg_word w h0 h1
  have hn : ¬ IntOp.cmpi .slt w 0#32 = 1#1 := by
    rw [IntOp.cmpi_slt]
    have z : (0#32 : BitVec 32).toInt = 0 := by decide
    omega
  unfold Cert.Spec.wrapClamp
  rw [eq_zero_of_ne_one hn, select_zero, hti]
  omega

/-- The row of the vertex-major array that a word in range names, on lane 32 b + ch: the specification's scaled sum at
    batch b, channel ch, at the vertex the specification reads from the word. -/
theorem kg_v1_gRow (x : FVec Ideal S4x128x163842 .f32) (b : Fin 4) (ch : Fin 32) (w : BitVec 32)
    (h0 : 0 ≤ w.toInt) (h1 : w.toInt < 163842) :
    kg_v1 x (gRow w.toNat (⟨32 * b.val + ch.val, by omega⟩ : Fin 128))
      = Cert.Spec.inp x b ch (⟨Cert.Spec.wrapClamp 163842 w, Cert.Spec.wrapClamp_lt _ (by decide) _⟩ : Fin 163842) := by
  obtain ⟨ht, hti⟩ := kg_word w h0 h1
  have hwc := kg_wrapClamp w h0 h1
  have hb := b.isLt
  have hc := ch.isLt
  have eg : gRow w.toNat (⟨32 * b.val + ch.val, by omega⟩ : Fin 128)
      = ValueIdx.ix3 (⟨w.toNat, ht⟩ : Fin 163842) (0 : Fin 1) (⟨32 * b.val + ch.val, by omega⟩ : Fin 128) := by
    unfold gRow
    funext a; refine Fin.ext ?_
    match a with
    | ⟨0, _⟩ => show min w.toNat 163841 = w.toNat; omega
    | ⟨1, _⟩ => rfl
    | ⟨2, _⟩ => rfl
  have e64 : ValueIdx.ix3 (⟨(32 * b.val + ch.val) / 32, by omega⟩ : Fin 4) (⟨64 + (32 * b.val + ch.val) % 32, by omega⟩ : Fin 128)
        (⟨w.toNat, ht⟩ : Fin 163842)
      = ValueIdx.ix3 b (⟨64 + ch.val, by omega⟩ : Fin 128)
          (⟨Cert.Spec.wrapClamp 163842 w, Cert.Spec.wrapClamp_lt _ (by decide) _⟩ : Fin 163842) := by
    funext a; refine Fin.ext ?_
    match a with
    | ⟨0, _⟩ => show (32 * b.val + ch.val) / 32 = b.val; omega
    | ⟨1, _⟩ => show 64 + (32 * b.val + ch.val) % 32 = 64 + ch.val; omega
    | ⟨2, _⟩ => exact hwc.symm
  have e96 : ValueIdx.ix3 (⟨(32 * b.val + ch.val) / 32, by omega⟩ : Fin 4) (⟨96 + (32 * b.val + ch.val) % 32, by omega⟩ : Fin 128)
        (⟨w.toNat, ht⟩ : Fin 163842)
      = ValueIdx.ix3 b (⟨96 + ch.val, by omega⟩ : Fin 128)
          (⟨Cert.Spec.wrapClamp 163842 w, Cert.Spec.wrapClamp_lt _ (by decide) _⟩ : Fin 163842) := by
    funext a; refine Fin.ext ?_
    match a with
    | ⟨0, _⟩ => show (32 * b.val + ch.val) / 32 = b.val; omega
    | ⟨1, _⟩ => show 96 + (32 * b.val + ch.val) % 32 = 96 + ch.val; omega
    | ⟨2, _⟩ => exact hwc.symm
  rw [eg, kg_v1_apply, kg_G0_2_apply, e64, e96, kg_quarter_eq, ← mul_assoc]
  rfl

/-! ## The specification on each side of the joint -/

/-- Before the joint the specification is the halved sum of the first two channel quarters. -/
theorem kg_G_lt (x : FVec Ideal S4x128x163842 .f32) (a1 : IVec S3x163840x2 32) (a2 : IVec S491520 32)
    (b : Fin 4) (c : Fin 32) (k : Fin 655362) (h : k.val < 163842) :
    Cert.Spec.G x a1 a2 (ValueIdx.ix3 b c k)
      = (x (ValueIdx.ix3 b (⟨c.val, by omega⟩ : Fin 128) (⟨k.val, h⟩ : Fin 163842))
          + x (ValueIdx.ix3 b (⟨32 + c.val, by omega⟩ : Fin 128) (⟨k.val, h⟩ : Fin 163842))) * Cert.Spec.half := by
  unfold Cert.Spec.G
  exact dif_pos h

/-- From the joint on the specification is the sum of the two gathered vertices of the edge the reorder table names. -/
theorem kg_G_ge (x : FVec Ideal S4x128x163842 .f32) (a1 : IVec S3x163840x2 32) (a2 : IVec S491520 32)
    (b : Fin 4) (c : Fin 32) (k : Fin 655362) (h : ¬ k.val < 163842) :
    Cert.Spec.G x a1 a2 (ValueIdx.ix3 b c k)
      = Cert.Spec.inp x b c (Cert.Spec.vsrc a1 0 (Cert.Spec.usrc a2 (⟨k.val - 163842, by omega⟩ : Fin 491520)))
        + Cert.Spec.inp x b c (Cert.Spec.vsrc a1 1 (Cert.Spec.usrc a2 (⟨k.val - 163842, by omega⟩ : Fin 491520))) := by
  unfold Cert.Spec.G
  exact dif_neg h

/-! ## The program's result is the specification -/

/-- The first 163842 positions of the last axis. -/
theorem KG_eq_G_first (x : FVec Ideal S4x128x163842 .f32) (a1 : IVec S3x163840x2 32) (a2 : IVec S491520 32)
    (b : Fin 4) (c : Fin 32) (k : Fin 655362) (h : k.val < 163842) :
    KG x a1 a2 (ValueIdx.ix3 b c k) = Cert.Spec.G x a1 a2 (ValueIdx.ix3 b c k) := by
  unfold KG
  rw [concatenate_pair_apply_left (t := S4x32x655362) (s₁ := S4x32x163842) (s₂ := S4x32x491520) (2 : Fin 3)
    (G0_1 (F := Ideal) x) (kg_v83 x a1 a2)
    concatenates_S4x32x163842_S4x32x491520_S4x32x655362_d2 (ValueIdx.ix3 b c k) rfl
    (ValueIdx.ix3 b c (⟨k.val, h⟩ : Fin 163842)) (fun a => by
      match a with
      | ⟨0, _⟩ => rfl
      | ⟨1, _⟩ => rfl
      | ⟨2, _⟩ => rfl)]
  rw [kg_G_lt x a1 a2 b c k h]
  rfl

/-- The remaining 491520 positions of the last axis, every word of the edge table in [0, 163842). -/
theorem KG_eq_G_rest (x : FVec Ideal S4x128x163842 .f32) (a1 : IVec S3x163840x2 32) (a2 : IVec S491520 32)
    (hr : ∀ i, 0 ≤ (a1 i).toInt ∧ (a1 i).toInt < 163842)
    (b : Fin 4) (c : Fin 32) (k : Fin 655362) (h : ¬ k.val < 163842) :
    KG x a1 a2 (ValueIdx.ix3 b c k) = Cert.Spec.G x a1 a2 (ValueIdx.ix3 b c k) := by
  unfold KG
  rw [concatenate_pair_apply_right (t := S4x32x655362) (s₁ := S4x32x163842) (s₂ := S4x32x491520) (2 : Fin 3)
    (G0_1 (F := Ideal) x) (kg_v83 x a1 a2)
    concatenates_S4x32x163842_S4x32x491520_S4x32x655362_d2 (ValueIdx.ix3 b c k) rfl rfl
    (ValueIdx.ix3 b c (⟨k.val - 163842, by omega⟩ : Fin 491520)) (fun a => by
      match a with
      | ⟨0, _⟩ => exact fun _ => rfl
      | ⟨1, _⟩ => exact fun _ => rfl
      | ⟨2, _⟩ => exact fun hne => absurd rfl hne)
    (by show (k.val - 163842) + 163842 = k.val; omega)]
  rw [kg_G_ge x a1 a2 b c k h, kg_v83_apply, kg_v82_apply, kg_v14_apply, kg_v21_apply,
    kg_v1_gRow x b c _ (hr _).1 (hr _).2, kg_v1_gRow x b c _ (hr _).1 (hr _).2]
  rfl

/-- The program's result, as the host operations compose it from the regions' closed forms, is the specification's G,
    when every word of the edge table lies in [0, 163842). -/
theorem KG_eq_G (x : FVec Ideal S4x128x163842 .f32) (a1 : IVec S3x163840x2 32) (a2 : IVec S491520 32)
    (hr : ∀ i, 0 ≤ (a1 i).toInt ∧ (a1 i).toInt < 163842) : KG x a1 a2 = Cert.Spec.G x a1 a2 := by
  funext i
  obtain ⟨b, c, k, rfl⟩ : ∃ (b : Fin 4) (c : Fin 32) (k : Fin 655362), i = ValueIdx.ix3 b c k := ⟨i 0, i 1, i 2, eq_ix3 i⟩
  by_cases h : k.val < 163842
  · exact KG_eq_G_first x a1 a2 b c k h
  · exact KG_eq_G_rest x a1 a2 hr b c k h

end Cert.KernelIdeal.GenP

end
-- ==== Proof.KernelIdeal.RB1Val.lean ====
/- The value of a row-gather region's output array after the region: each of its rows the sum of the two rows of the
   gathered array that the region's two tables name. -/
import proofs.«175043_j76819785056407_2_alg».proof.Proof.KernelIdeal.RB1
import proofs.«175043_j76819785056407_2_alg».proof.Proof.KernelIdeal.GatherSpec
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

theorem hz1v : (![0, 0, 0] : Fin 3 → Nat) = fun _ => 0 := funext fun a => by fin_cases a <;> rfl

/-- The body's payload: the two loaded rows added lane by lane (the two re-shapes are the identity). -/
theorem pay1_eq (x0 x1 : Vec F S1x1x128 .f32) : k1_pay1 x0 x1 = addf x0 x1 := by
  unfold k1_pay1
  rw [shapeCast_self, shapeCast_self]

/-! ## The grid and the index maps, at ANY admitted contents of the two tables -/

/-- The grid has one axis: the point's one coordinate is the point. -/
theorem coords1v (a : (pcfg1 (F := F)).Adm) (t : Fin (cfg1 a).N) : (((cfg1 a).grid.coords t) 0).val = t.val := by
  have ht : t.val < 32768 := t.isLt
  show t.val / 1 % 32768 = t.val
  omega

/-- The one element of a table that the one-word rectangle at offset `off` holds is the table's position `off`. -/
theorem tpos1 (off : Nat) (inb : ∀ a, (![off] : Fin 1 → Nat) a + S1.size a ≤ S32768.size a) (h : 0 < S1.numel)
    (n : Fin 32768) (hoff : off = n.val) :
    (Rect.unit (s := S32768) ![off] S1.size inb).emb (Shape.Idx.first h) = ValueIdx.ix1 n := by
  funext a
  apply Fin.ext
  match a with
  | ⟨0, _⟩ => show off + 1 * 0 = n.val; omega

/-- A grid coordinate below 2^32 survives the round trip through a 32-bit word. -/
theorem word1v (i : grid1.Coords) (n : Nat) (hn : (i 0).val = n) (hlt : n < 32768) : (BitVec.ofNat 32 (i 0).val).toNat = n := by
  rw [BitVec.toNat_ofNat, hn]
  omega

/-- An input window's index map at grid coordinate `n`: the row number table `k` holds at position `n`, then 0, 0. -/
theorem tf1_0 (hinb : ∀ i : grid1.Coords, ∀ a, (k1_off1 i) a + S1.size a ≤ S32768.size a) (hnum : S1.numel = 1)
    (pf : pre1.Contents (Elt F)) (i : grid1.Coords) (n : Fin 32768) (hn : (i 0).val = n.val) :
    cc1_transform_0 hinb hnum pf i (0 : Fin 3) = (pf 0 (ValueIdx.ix1 n) : BitVec 32).toNat
      ∧ cc1_transform_0 hinb hnum pf i (1 : Fin 3) = 0 ∧ cc1_transform_0 hinb hnum pf i (2 : Fin 3) = 0 :=
  ⟨congrArg (fun k : S32768.Idx => (pf 0 k : BitVec 32).toNat)
      (tpos1 (BitVec.ofNat 32 (i 0).val).toNat (hinb i) (hnum.symm ▸ Nat.one_pos) n (word1v i n.val hn n.isLt)), rfl, rfl⟩
theorem tf1_1 (hinb : ∀ i : grid1.Coords, ∀ a, (k1_off1 i) a + S1.size a ≤ S32768.size a) (hnum : S1.numel = 1)
    (pf : pre1.Contents (Elt F)) (i : grid1.Coords) (n : Fin 32768) (hn : (i 0).val = n.val) :
    cc1_transform_1 hinb hnum pf i (0 : Fin 3) = (pf 1 (ValueIdx.ix1 n) : BitVec 32).toNat
      ∧ cc1_transform_1 hinb hnum pf i (1 : Fin 3) = 0 ∧ cc1_transform_1 hinb hnum pf i (2 : Fin 3) = 0 :=
  ⟨congrArg (fun k : S32768.Idx => (pf 1 k : BitVec 32).toNat)
      (tpos1 (BitVec.ofNat 32 (i 0).val).toNat (hinb i) (hnum.symm ▸ Nat.one_pos) n (word1v i n.val hn n.isLt)), rfl, rfl⟩
/-- The output window's index map: the grid coordinate, then 0, 0. -/
theorem tf1_2 (i : grid1.Coords) (n : Nat) (hn : (i 0).val = n) (hlt : n < 32768) :
    cc1_transform_2 i (0 : Fin 3) = n ∧ cc1_transform_2 i (1 : Fin 3) = 0 ∧ cc1_transform_2 i (2 : Fin 3) = 0 :=
  ⟨word1v i n hn hlt, rfl, rfl⟩

/-- The three windows' block indices at point `t`, the tables' contents `pf` a variable: input window `k` sits at the row
    table `k` names for `t`; the output window at row `t`. -/
theorem index1_0 (a : (pcfg1 (F := F)).Adm) (pf : pre1.Contents (Elt F)) (hpf : a.1 = pf) (t : Fin (cfg1 a).N)
    (n : Fin 32768) (hn : t.val = n.val) :
    ((cfg1 a).win 0).index t (0 : Fin 3) = (pf 0 (ValueIdx.ix1 n) : BitVec 32).toNat
      ∧ ((cfg1 a).win 0).index t (1 : Fin 3) = 0 ∧ ((cfg1 a).win 0).index t (2 : Fin 3) = 0 := by
  subst hpf
  exact tf1_0 _ _ a.1 ((cfg1 a).grid.coords t) n ((coords1v a t).trans hn)
theorem index1_1 (a : (pcfg1 (F := F)).Adm) (pf : pre1.Contents (Elt F)) (hpf : a.1 = pf) (t : Fin (cfg1 a).N)
    (n : Fin 32768) (hn : t.val = n.val) :
    ((cfg1 a).win 1).index t (0 : Fin 3) = (pf 1 (ValueIdx.ix1 n) : BitVec 32).toNat
      ∧ ((cfg1 a).win 1).index t (1 : Fin 3) = 0 ∧ ((cfg1 a).win 1).index t (2 : Fin 3) = 0 := by
  subst hpf
  exact tf1_1 _ _ a.1 ((cfg1 a).grid.coords t) n ((coords1v a t).trans hn)
theorem index1_2 (a : (pcfg1 (F := F)).Adm) (t : Fin (cfg1 a).N) :
    ((cfg1 a).win 2).index t (0 : Fin 3) = t.val
      ∧ ((cfg1 a).win 2).index t (1 : Fin 3) = 0 ∧ ((cfg1 a).win 2).index t (2 : Fin 3) = 0 :=
  tf1_2 ((cfg1 a).grid.coords t) t.val (coords1v a t) t.isLt

/-- The output window is written back at every point: its block index, the point, changes at every step. -/
theorem flush1_2 (a : (pcfg1 (F := F)).Adm) (t : Fin (cfg1 a).N) : ((cfg1 a).win 2).flush t = true := by
  have ht : t.val < 32768 := t.isLt
  rw [Window.flush_out _ rfl]
  by_cases h : t.val + 1 = 32768
  · exact Or.inl h
  · have h' : t.val + 1 < 32768 := by omega
    refine Or.inr ⟨h', fun e => ?_⟩
    have e1 : ((cfg1 a).win 2).index ⟨t.val + 1, h'⟩ (0 : Fin 3) = t.val + 1 := (index1_2 a ⟨t.val + 1, h'⟩).1
    have e2 : ((cfg1 a).win 2).index t (0 : Fin 3) = t.val := (index1_2 a t).1
    have e0 : ((cfg1 a).win 2).index ⟨t.val + 1, h'⟩ (0 : Fin 3) = ((cfg1 a).win 2).index t (0 : Fin 3) := congrFun e (0 : Fin 3)
    rw [e1, e2] at e0
    omega

/-! ## From the blocks to the array -/

section
variable (V : (c : Dev nD) → (b : Ref sig .tc) → Buf (Elt F) ((c : Thread nD τ).loc b))

set_option backward.isDefEq.respectTransparency.types false in
/-- WHAT POINT `t` WRITES BACK is block `t` of the gather of the array and the two tables as the region finds them. -/
theorem flushed1_2 (hO : Ok1 V) (c : Dev nD) (t : Fin (cfgM1 V hO).N) :
    (dat1 V hO c).flushed 2 t
      = (((cfgM1 V hO).win 2).blk t).view.read (Elt F) (GB (V c main_v1) (tbl1 V 0) (tbl1 V 1)) := by
  show ((cfgM1 V hO).win 2).cut ((cfgM1 V hO).grid.coords t) ((dat1 V hO c).after 2 t) = _
  rw [after1_2]
  unfold out1_2
  rw [View.canon_unit_zero hz1v]
  simp only [View.ld_unit_zero (S := S1x1x128) hz1v]
  rw [pay1_eq]
  have ht : t.val < 32768 := t.isLt
  obtain ⟨a0, a1, a2⟩ := index1_0 (adm1 V hO) (tbl1 V) rfl t ⟨t.val, ht⟩ rfl
  obtain ⟨b0, b1, b2⟩ := index1_1 (adm1 V hO) (tbl1 V) rfl t ⟨t.val, ht⟩ rfl
  obtain ⟨c0, c1, c2⟩ := index1_2 (adm1 V hO) t
  funext j
  have hj0 : (j (0 : Fin 3)).val = 0 := by have h : (j (0 : Fin 3)).val < 1 := (j (0 : Fin 3)).isLt; omega
  show FloatOps.addf (V c main_v1 ((((cfgM1 V hO).win 0).blk t).view.emb j)) (V c main_v1 ((((cfgM1 V hO).win 1).blk t).view.emb j))
    = GB (V c main_v1) (tbl1 V 0) (tbl1 V 1) ((((cfgM1 V hO).win 2).blk t).view.emb j)
  refine (GB_eq (V c main_v1) (tbl1 V 0) (tbl1 V 1) ((((cfgM1 V hO).win 2).blk t).view.emb j) ⟨t.val, ht⟩ ?_
    ((((cfgM1 V hO).win 0).blk t).view.emb j) ((((cfgM1 V hO).win 1).blk t).view.emb j) ?_ ?_ ?_ ?_).symm
  · show ((cfgM1 V hO).win 2).index t (0 : Fin 3) * 1 + 1 * (j (0 : Fin 3)).val = t.val
    rw [c0, hj0]; omega
  · show ((cfgM1 V hO).win 0).index t (0 : Fin 3) * 1 + 1 * (j (0 : Fin 3)).val = _
    rw [a0, hj0, Nat.mul_one, Nat.mul_zero, Nat.add_zero]
  · show ((cfgM1 V hO).win 0).index t (2 : Fin 3) * 128 + 1 * (j (2 : Fin 3)).val = ((cfgM1 V hO).win 2).index t (2 : Fin 3) * 128 + 1 * (j (2 : Fin 3)).val
    rw [a2, c2]
  · show ((cfgM1 V hO).win 1).index t (0 : Fin 3) * 1 + 1 * (j (0 : Fin 3)).val = _
    rw [b0, hj0, Nat.mul_one, Nat.mul_zero, Nat.add_zero]
  · show ((cfgM1 V hO).win 1).index t (2 : Fin 3) * 128 + 1 * (j (2 : Fin 3)).val = ((cfgM1 V hO).win 2).index t (2 : Fin 3) * 128 + 1 * (j (2 : Fin 3)).val
    rw [b2, c2]

set_option backward.isDefEq.respectTransparency.types false in
/-- An index of the output array is in point `t`'s block iff each coordinate is in the block's range on its axis. -/
theorem mem_blk1_2 (hO : Ok1 V) (t : Fin (cfgM1 V hO).N) (i : (⟨3, ![32768, 1, 128]⟩ : Shape).Idx) :
    i ∈ (((cfgM1 V hO).win 2).blk t).view.set ↔ ∀ a : Fin 3, ((cfgM1 V hO).win 2).index t a * S1x1x128.size a ≤ (i a).val
      ∧ (i a).val < ((cfgM1 V hO).win 2).index t a * S1x1x128.size a + S1x1x128.size a := by
  show i ∈ ((View.whole main_v24).slice (((cfgM1 V hO).win 2).rect t)).set ↔ _
  rw [View.set_slice_whole]
  exact Rect.mem_set_unit

/-- The output's blocks tile its array: row `j` is the block of point `j`. -/
theorem cover1v (hO : Ok1 V) (i : (⟨3, ![32768, 1, 128]⟩ : Shape).Idx) :
    ∃ t : Fin (cfgM1 V hO).N, ((cfgM1 V hO).win 2).flush t = true ∧ i ∈ (((cfgM1 V hO).win 2).blk t).view.set := by
  have h0 : (i 0).val < 32768 := (i 0).isLt
  have h1 : (i 1).val < 1 := (i 1).isLt
  have h2 : (i 2).val < 128 := (i 2).isLt
  refine ⟨⟨(i 0).val, h0⟩, flush1_2 (adm1 V hO) _, ?_⟩
  obtain ⟨c0, c1, c2⟩ := index1_2 (adm1 V hO) ⟨(i 0).val, h0⟩
  rw [mem_blk1_2]
  intro a
  match a with
  | ⟨0, _⟩ => show ((cfgM1 V hO).win 2).index ⟨(i 0).val, h0⟩ (0 : Fin 3) * 1 ≤ (i 0).val ∧ (i 0).val < ((cfgM1 V hO).win 2).index ⟨(i 0).val, h0⟩ (0 : Fin 3) * 1 + 1; rw [c0]; show (i 0).val * 1 ≤ (i 0).val ∧ (i 0).val < (i 0).val * 1 + 1; omega
  | ⟨1, _⟩ => show ((cfgM1 V hO).win 2).index ⟨(i 0).val, h0⟩ (1 : Fin 3) * 1 ≤ (i 1).val ∧ (i 1).val < ((cfgM1 V hO).win 2).index ⟨(i 0).val, h0⟩ (1 : Fin 3) * 1 + 1; rw [c1]; omega
  | ⟨2, _⟩ => show ((cfgM1 V hO).win 2).index ⟨(i 0).val, h0⟩ (2 : Fin 3) * 128 ≤ (i 2).val ∧ (i 2).val < ((cfgM1 V hO).win 2).index ⟨(i 0).val, h0⟩ (2 : Fin 3) * 128 + 128; rw [c2]; omega

/-- THE OUTPUT ARRAY after the region: the gather of the array and the two tables as the region finds them. -/
theorem arrAt1_2 (hO : Ok1 V) (c : Dev nD) :
    (dat1 V hO c).arrAt 2 (cfgM1 V hO).N = GB (V c main_v1) (tbl1 V 0) (tbl1 V 1) :=
  (dat1 V hO c).arrAt_eq_of_cover 2 (GB (V c main_v1) (tbl1 V 0) (tbl1 V 1)) (fun t _ => flushed1_2 V hO c t) (cover1v V hO)
end

end Cert.KernelIdeal.GenP

end
-- ==== Proof.KernelIdeal.RB2Val.lean ====
/- The value of a row-gather region's output array after the region: each of its rows the sum of the two rows of the
   gathered array that the region's two tables name. -/
import proofs.«175043_j76819785056407_2_alg».proof.Proof.KernelIdeal.RB2
import proofs.«175043_j76819785056407_2_alg».proof.Proof.KernelIdeal.GatherSpec
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

theorem hz2v : (![0, 0, 0] : Fin 3 → Nat) = fun _ => 0 := funext fun a => by fin_cases a <;> rfl

/-- The body's payload: the two loaded rows added lane by lane (the two re-shapes are the identity). -/
theorem pay2_eq (x0 x1 : Vec F S1x1x128 .f32) : k2_pay1 x0 x1 = addf x0 x1 := by
  unfold k2_pay1
  rw [shapeCast_self, shapeCast_self]

/-! ## The grid and the index maps, at ANY admitted contents of the two tables -/

/-- The grid has one axis: the point's one coordinate is the point. -/
theorem coords2v (a : (pcfg2 (F := F)).Adm) (t : Fin (cfg2 a).N) : (((cfg2 a).grid.coords t) 0).val = t.val := by
  have ht : t.val < 32768 := t.isLt
  show t.val / 1 % 32768 = t.val
  omega

/-- The one element of a table that the one-word rectangle at offset `off` holds is the table's position `off`. -/
theorem tpos2 (off : Nat) (inb : ∀ a, (![off] : Fin 1 → Nat) a + S1.size a ≤ S32768.size a) (h : 0 < S1.numel)
    (n : Fin 32768) (hoff : off = n.val) :
    (Rect.unit (s := S32768) ![off] S1.size inb).emb (Shape.Idx.first h) = ValueIdx.ix1 n := by
  funext a
  apply Fin.ext
  match a with
  | ⟨0, _⟩ => show off + 1 * 0 = n.val; omega

/-- A grid coordinate below 2^32 survives the round trip through a 32-bit word. -/
theorem word2v (i : grid2.Coords) (n : Nat) (hn : (i 0).val = n) (hlt : n < 32768) : (BitVec.ofNat 32 (i 0).val).toNat = n := by
  rw [BitVec.toNat_ofNat, hn]
  omega

/-- An input window's index map at grid coordinate `n`: the row number table `k` holds at position `n`, then 0, 0. -/
theorem tf2_0 (hinb : ∀ i : grid2.Coords, ∀ a, (k2_off1 i) a + S1.size a ≤ S32768.size a) (hnum : S1.numel = 1)
    (pf : pre2.Contents (Elt F)) (i : grid2.Coords) (n : Fin 32768) (hn : (i 0).val = n.val) :
    cc2_transform_0 hinb hnum pf i (0 : Fin 3) = (pf 0 (ValueIdx.ix1 n) : BitVec 32).toNat
      ∧ cc2_transform_0 hinb hnum pf i (1 : Fin 3) = 0 ∧ cc2_transform_0 hinb hnum pf i (2 : Fin 3) = 0 :=
  ⟨congrArg (fun k : S32768.Idx => (pf 0 k : BitVec 32).toNat)
      (tpos2 (BitVec.ofNat 32 (i 0).val).toNat (hinb i) (hnum.symm ▸ Nat.one_pos) n (word2v i n.val hn n.isLt)), rfl, rfl⟩
theorem tf2_1 (hinb : ∀ i : grid2.Coords, ∀ a, (k2_off1 i) a + S1.size a ≤ S32768.size a) (hnum : S1.numel = 1)
    (pf : pre2.Contents (Elt F)) (i : grid2.Coords) (n : Fin 32768) (hn : (i 0).val = n.val) :
    cc2_transform_1 hinb hnum pf i (0 : Fin 3) = (pf 1 (ValueIdx.ix1 n) : BitVec 32).toNat
      ∧ cc2_transform_1 hinb hnum pf i (1 : Fin 3) = 0 ∧ cc2_transform_1 hinb hnum pf i (2 : Fin 3) = 0 :=
  ⟨congrArg (fun k : S32768.Idx => (pf 1 k : BitVec 32).toNat)
      (tpos2 (BitVec.ofNat 32 (i 0).val).toNat (hinb i) (hnum.symm ▸ Nat.one_pos) n (word2v i n.val hn n.isLt)), rfl, rfl⟩
/-- The output window's index map: the grid coordinate, then 0, 0. -/
theorem tf2_2 (i : grid2.Coords) (n : Nat) (hn : (i 0).val = n) (hlt : n < 32768) :
    cc2_transform_2 i (0 : Fin 3) = n ∧ cc2_transform_2 i (1 : Fin 3) = 0 ∧ cc2_transform_2 i (2 : Fin 3) = 0 :=
  ⟨word2v i n hn hlt, rfl, rfl⟩

/-- The three windows' block indices at point `t`, the tables' contents `pf` a variable: input window `k` sits at the row
    table `k` names for `t`; the output window at row `t`. -/
theorem index2_0 (a : (pcfg2 (F := F)).Adm) (pf : pre2.Contents (Elt F)) (hpf : a.1 = pf) (t : Fin (cfg2 a).N)
    (n : Fin 32768) (hn : t.val = n.val) :
    ((cfg2 a).win 0).index t (0 : Fin 3) = (pf 0 (ValueIdx.ix1 n) : BitVec 32).toNat
      ∧ ((cfg2 a).win 0).index t (1 : Fin 3) = 0 ∧ ((cfg2 a).win 0).index t (2 : Fin 3) = 0 := by
  subst hpf
  exact tf2_0 _ _ a.1 ((cfg2 a).grid.coords t) n ((coords2v a t).trans hn)
theorem index2_1 (a : (pcfg2 (F := F)).Adm) (pf : pre2.Contents (Elt F)) (hpf : a.1 = pf) (t : Fin (cfg2 a).N)
    (n : Fin 32768) (hn : t.val = n.val) :
    ((cfg2 a).win 1).index t (0 : Fin 3) = (pf 1 (ValueIdx.ix1 n) : BitVec 32).toNat
      ∧ ((cfg2 a).win 1).index t (1 : Fin 3) = 0 ∧ ((cfg2 a).win 1).index t (2 : Fin 3) = 0 := by
  subst hpf
  exact tf2_1 _ _ a.1 ((cfg2 a).grid.coords t) n ((coords2v a t).trans hn)
theorem index2_2 (a : (pcfg2 (F := F)).Adm) (t : Fin (cfg2 a).N) :
    ((cfg2 a).win 2).index t (0 : Fin 3) = t.val
      ∧ ((cfg2 a).win 2).index t (1 : Fin 3) = 0 ∧ ((cfg2 a).win 2).index t (2 : Fin 3) = 0 :=
  tf2_2 ((cfg2 a).grid.coords t) t.val (coords2v a t) t.isLt

/-- The output window is written back at every point: its block index, the point, changes at every step. -/
theorem flush2_2 (a : (pcfg2 (F := F)).Adm) (t : Fin (cfg2 a).N) : ((cfg2 a).win 2).flush t = true := by
  have ht : t.val < 32768 := t.isLt
  rw [Window.flush_out _ rfl]
  by_cases h : t.val + 1 = 32768
  · exact Or.inl h
  · have h' : t.val + 1 < 32768 := by omega
    refine Or.inr ⟨h', fun e => ?_⟩
    have e1 : ((cfg2 a).win 2).index ⟨t.val + 1, h'⟩ (0 : Fin 3) = t.val + 1 := (index2_2 a ⟨t.val + 1, h'⟩).1
    have e2 : ((cfg2 a).win 2).index t (0 : Fin 3) = t.val := (index2_2 a t).1
    have e0 : ((cfg2 a).win 2).index ⟨t.val + 1, h'⟩ (0 : Fin 3) = ((cfg2 a).win 2).index t (0 : Fin 3) := congrFun e (0 : Fin 3)
    rw [e1, e2] at e0
    omega

/-! ## From the blocks to the array -/

section
variable (V : (c : Dev nD) → (b : Ref sig .tc) → Buf (Elt F) ((c : Thread nD τ).loc b))

set_option backward.isDefEq.respectTransparency.types false in
/-- WHAT POINT `t` WRITES BACK is block `t` of the gather of the array and the two tables as the region finds them. -/
theorem flushed2_2 (hO : Ok2 V) (c : Dev nD) (t : Fin (cfgM2 V hO).N) :
    (dat2 V hO c).flushed 2 t
      = (((cfgM2 V hO).win 2).blk t).view.read (Elt F) (GB (V c main_v1) (tbl2 V 0) (tbl2 V 1)) := by
  show ((cfgM2 V hO).win 2).cut ((cfgM2 V hO).grid.coords t) ((dat2 V hO c).after 2 t) = _
  rw [after2_2]
  unfold out2_2
  rw [View.canon_unit_zero hz2v]
  simp only [View.ld_unit_zero (S := S1x1x128) hz2v]
  rw [pay2_eq]
  have ht : t.val < 32768 := t.isLt
  obtain ⟨a0, a1, a2⟩ := index2_0 (adm2 V hO) (tbl2 V) rfl t ⟨t.val, ht⟩ rfl
  obtain ⟨b0, b1, b2⟩ := index2_1 (adm2 V hO) (tbl2 V) rfl t ⟨t.val, ht⟩ rfl
  obtain ⟨c0, c1, c2⟩ := index2_2 (adm2 V hO) t
  funext j
  have hj0 : (j (0 : Fin 3)).val = 0 := by have h : (j (0 : Fin 3)).val < 1 := (j (0 : Fin 3)).isLt; omega
  show FloatOps.addf (V c main_v1 ((((cfgM2 V hO).win 0).blk t).view.emb j)) (V c main_v1 ((((cfgM2 V hO).win 1).blk t).view.emb j))
    = GB (V c main_v1) (tbl2 V 0) (tbl2 V 1) ((((cfgM2 V hO).win 2).blk t).view.emb j)
  refine (GB_eq (V c main_v1) (tbl2 V 0) (tbl2 V 1) ((((cfgM2 V hO).win 2).blk t).view.emb j) ⟨t.val, ht⟩ ?_
    ((((cfgM2 V hO).win 0).blk t).view.emb j) ((((cfgM2 V hO).win 1).blk t).view.emb j) ?_ ?_ ?_ ?_).symm
  · show ((cfgM2 V hO).win 2).index t (0 : Fin 3) * 1 + 1 * (j (0 : Fin 3)).val = t.val
    rw [c0, hj0]; omega
  · show ((cfgM2 V hO).win 0).index t (0 : Fin 3) * 1 + 1 * (j (0 : Fin 3)).val = _
    rw [a0, hj0, Nat.mul_one, Nat.mul_zero, Nat.add_zero]
  · show ((cfgM2 V hO).win 0).index t (2 : Fin 3) * 128 + 1 * (j (2 : Fin 3)).val = ((cfgM2 V hO).win 2).index t (2 : Fin 3) * 128 + 1 * (j (2 : Fin 3)).val
    rw [a2, c2]
  · show ((cfgM2 V hO).win 1).index t (0 : Fin 3) * 1 + 1 * (j (0 : Fin 3)).val = _
    rw [b0, hj0, Nat.mul_one, Nat.mul_zero, Nat.add_zero]
  · show ((cfgM2 V hO).win 1).index t (2 : Fin 3) * 128 + 1 * (j (2 : Fin 3)).val = ((cfgM2 V hO).win 2).index t (2 : Fin 3) * 128 + 1 * (j (2 : Fin 3)).val
    rw [b2, c2]

set_option backward.isDefEq.respectTransparency.types false in
/-- An index of the output array is in point `t`'s block iff each coordinate is in the block's range on its axis. -/
theorem mem_blk2_2 (hO : Ok2 V) (t : Fin (cfgM2 V hO).N) (i : (⟨3, ![32768, 1, 128]⟩ : Shape).Idx) :
    i ∈ (((cfgM2 V hO).win 2).blk t).view.set ↔ ∀ a : Fin 3, ((cfgM2 V hO).win 2).index t a * S1x1x128.size a ≤ (i a).val
      ∧ (i a).val < ((cfgM2 V hO).win 2).index t a * S1x1x128.size a + S1x1x128.size a := by
  show i ∈ ((View.whole main_v28).slice (((cfgM2 V hO).win 2).rect t)).set ↔ _
  rw [View.set_slice_whole]
  exact Rect.mem_set_unit

/-- The output's blocks tile its array: row `j` is the block of point `j`. -/
theorem cover2v (hO : Ok2 V) (i : (⟨3, ![32768, 1, 128]⟩ : Shape).Idx) :
    ∃ t : Fin (cfgM2 V hO).N, ((cfgM2 V hO).win 2).flush t = true ∧ i ∈ (((cfgM2 V hO).win 2).blk t).view.set := by
  have h0 : (i 0).val < 32768 := (i 0).isLt
  have h1 : (i 1).val < 1 := (i 1).isLt
  have h2 : (i 2).val < 128 := (i 2).isLt
  refine ⟨⟨(i 0).val, h0⟩, flush2_2 (adm2 V hO) _, ?_⟩
  obtain ⟨c0, c1, c2⟩ := index2_2 (adm2 V hO) ⟨(i 0).val, h0⟩
  rw [mem_blk2_2]
  intro a
  match a with
  | ⟨0, _⟩ => show ((cfgM2 V hO).win 2).index ⟨(i 0).val, h0⟩ (0 : Fin 3) * 1 ≤ (i 0).val ∧ (i 0).val < ((cfgM2 V hO).win 2).index ⟨(i 0).val, h0⟩ (0 : Fin 3) * 1 + 1; rw [c0]; show (i 0).val * 1 ≤ (i 0).val ∧ (i 0).val < (i 0).val * 1 + 1; omega
  | ⟨1, _⟩ => show ((cfgM2 V hO).win 2).index ⟨(i 0).val, h0⟩ (1 : Fin 3) * 1 ≤ (i 1).val ∧ (i 1).val < ((cfgM2 V hO).win 2).index ⟨(i 0).val, h0⟩ (1 : Fin 3) * 1 + 1; rw [c1]; omega
  | ⟨2, _⟩ => show ((cfgM2 V hO).win 2).index ⟨(i 0).val, h0⟩ (2 : Fin 3) * 128 ≤ (i 2).val ∧ (i 2).val < ((cfgM2 V hO).win 2).index ⟨(i 0).val, h0⟩ (2 : Fin 3) * 128 + 128; rw [c2]; omega

/-- THE OUTPUT ARRAY after the region: the gather of the array and the two tables as the region finds them. -/
theorem arrAt2_2 (hO : Ok2 V) (c : Dev nD) :
    (dat2 V hO c).arrAt 2 (cfgM2 V hO).N = GB (V c main_v1) (tbl2 V 0) (tbl2 V 1) :=
  (dat2 V hO c).arrAt_eq_of_cover 2 (GB (V c main_v1) (tbl2 V 0) (tbl2 V 1)) (fun t _ => flushed2_2 V hO c t) (cover2v V hO)
end

end Cert.KernelIdeal.GenP

end
-- ==== Proof.KernelIdeal.RB3Val.lean ====
/- The value of a row-gather region's output array after the region: each of its rows the sum of the two rows of the
   gathered array that the region's two tables name. -/
import proofs.«175043_j76819785056407_2_alg».proof.Proof.KernelIdeal.RB3
import proofs.«175043_j76819785056407_2_alg».proof.Proof.KernelIdeal.GatherSpec
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

theorem hz3v : (![0, 0, 0] : Fin 3 → Nat) = fun _ => 0 := funext fun a => by fin_cases a <;> rfl

/-- The body's payload: the two loaded rows added lane by lane (the two re-shapes are the identity). -/
theorem pay3_eq (x0 x1 : Vec F S1x1x128 .f32) : k3_pay1 x0 x1 = addf x0 x1 := by
  unfold k3_pay1
  rw [shapeCast_self, shapeCast_self]

/-! ## The grid and the index maps, at ANY admitted contents of the two tables -/

/-- The grid has one axis: the point's one coordinate is the point. -/
theorem coords3v (a : (pcfg3 (F := F)).Adm) (t : Fin (cfg3 a).N) : (((cfg3 a).grid.coords t) 0).val = t.val := by
  have ht : t.val < 32768 := t.isLt
  show t.val / 1 % 32768 = t.val
  omega

/-- The one element of a table that the one-word rectangle at offset `off` holds is the table's position `off`. -/
theorem tpos3 (off : Nat) (inb : ∀ a, (![off] : Fin 1 → Nat) a + S1.size a ≤ S32768.size a) (h : 0 < S1.numel)
    (n : Fin 32768) (hoff : off = n.val) :
    (Rect.unit (s := S32768) ![off] S1.size inb).emb (Shape.Idx.first h) = ValueIdx.ix1 n := by
  funext a
  apply Fin.ext
  match a with
  | ⟨0, _⟩ => show off + 1 * 0 = n.val; omega

/-- A grid coordinate below 2^32 survives the round trip through a 32-bit word. -/
theorem word3v (i : grid3.Coords) (n : Nat) (hn : (i 0).val = n) (hlt : n < 32768) : (BitVec.ofNat 32 (i 0).val).toNat = n := by
  rw [BitVec.toNat_ofNat, hn]
  omega

/-- An input window's index map at grid coordinate `n`: the row number table `k` holds at position `n`, then 0, 0. -/
theorem tf3_0 (hinb : ∀ i : grid3.Coords, ∀ a, (k3_off1 i) a + S1.size a ≤ S32768.size a) (hnum : S1.numel = 1)
    (pf : pre3.Contents (Elt F)) (i : grid3.Coords) (n : Fin 32768) (hn : (i 0).val = n.val) :
    cc3_transform_0 hinb hnum pf i (0 : Fin 3) = (pf 0 (ValueIdx.ix1 n) : BitVec 32).toNat
      ∧ cc3_transform_0 hinb hnum pf i (1 : Fin 3) = 0 ∧ cc3_transform_0 hinb hnum pf i (2 : Fin 3) = 0 :=
  ⟨congrArg (fun k : S32768.Idx => (pf 0 k : BitVec 32).toNat)
      (tpos3 (BitVec.ofNat 32 (i 0).val).toNat (hinb i) (hnum.symm ▸ Nat.one_pos) n (word3v i n.val hn n.isLt)), rfl, rfl⟩
theorem tf3_1 (hinb : ∀ i : grid3.Coords, ∀ a, (k3_off1 i) a + S1.size a ≤ S32768.size a) (hnum : S1.numel = 1)
    (pf : pre3.Contents (Elt F)) (i : grid3.Coords) (n : Fin 32768) (hn : (i 0).val = n.val) :
    cc3_transform_1 hinb hnum pf i (0 : Fin 3) = (pf 1 (ValueIdx.ix1 n) : BitVec 32).toNat
      ∧ cc3_transform_1 hinb hnum pf i (1 : Fin 3) = 0 ∧ cc3_transform_1 hinb hnum pf i (2 : Fin 3) = 0 :=
  ⟨congrArg (fun k : S32768.Idx => (pf 1 k : BitVec 32).toNat)
      (tpos3 (BitVec.ofNat 32 (i 0).val).toNat (hinb i) (hnum.symm ▸ Nat.one_pos) n (word3v i n.val hn n.isLt)), rfl, rfl⟩
/-- The output window's index map: the grid coordinate, then 0, 0. -/
theorem tf3_2 (i : grid3.Coords) (n : Nat) (hn : (i 0).val = n) (hlt : n < 32768) :
    cc3_transform_2 i (0 : Fin 3) = n ∧ cc3_transform_2 i (1 : Fin 3) = 0 ∧ cc3_transform_2 i (2 : Fin 3) = 0 :=
  ⟨word3v i n hn hlt, rfl, rfl⟩

/-- The three windows' block indices at point `t`, the tables' contents `pf` a variable: input window `k` sits at the row
    table `k` names for `t`; the output window at row `t`. -/
theorem index3_0 (a : (pcfg3 (F := F)).Adm) (pf : pre3.Contents (Elt F)) (hpf : a.1 = pf) (t : Fin (cfg3 a).N)
    (n : Fin 32768) (hn : t.val = n.val) :
    ((cfg3 a).win 0).index t (0 : Fin 3) = (pf 0 (ValueIdx.ix1 n) : BitVec 32).toNat
      ∧ ((cfg3 a).win 0).index t (1 : Fin 3) = 0 ∧ ((cfg3 a).win 0).index t (2 : Fin 3) = 0 := by
  subst hpf
  exact tf3_0 _ _ a.1 ((cfg3 a).grid.coords t) n ((coords3v a t).trans hn)
theorem index3_1 (a : (pcfg3 (F := F)).Adm) (pf : pre3.Contents (Elt F)) (hpf : a.1 = pf) (t : Fin (cfg3 a).N)
    (n : Fin 32768) (hn : t.val = n.val) :
    ((cfg3 a).win 1).index t (0 : Fin 3) = (pf 1 (ValueIdx.ix1 n) : BitVec 32).toNat
      ∧ ((cfg3 a).win 1).index t (1 : Fin 3) = 0 ∧ ((cfg3 a).win 1).index t (2 : Fin 3) = 0 := by
  subst hpf
  exact tf3_1 _ _ a.1 ((cfg3 a).grid.coords t) n ((coords3v a t).trans hn)
theorem index3_2 (a : (pcfg3 (F := F)).Adm) (t : Fin (cfg3 a).N) :
    ((cfg3 a).win 2).index t (0 : Fin 3) = t.val
      ∧ ((cfg3 a).win 2).index t (1 : Fin 3) = 0 ∧ ((cfg3 a).win 2).index t (2 : Fin 3) = 0 :=
  tf3_2 ((cfg3 a).grid.coords t) t.val (coords3v a t) t.isLt

/-- The output window is written back at every point: its block index, the point, changes at every step. -/
theorem flush3_2 (a : (pcfg3 (F := F)).Adm) (t : Fin (cfg3 a).N) : ((cfg3 a).win 2).flush t = true := by
  have ht : t.val < 32768 := t.isLt
  rw [Window.flush_out _ rfl]
  by_cases h : t.val + 1 = 32768
  · exact Or.inl h
  · have h' : t.val + 1 < 32768 := by omega
    refine Or.inr ⟨h', fun e => ?_⟩
    have e1 : ((cfg3 a).win 2).index ⟨t.val + 1, h'⟩ (0 : Fin 3) = t.val + 1 := (index3_2 a ⟨t.val + 1, h'⟩).1
    have e2 : ((cfg3 a).win 2).index t (0 : Fin 3) = t.val := (index3_2 a t).1
    have e0 : ((cfg3 a).win 2).index ⟨t.val + 1, h'⟩ (0 : Fin 3) = ((cfg3 a).win 2).index t (0 : Fin 3) := congrFun e (0 : Fin 3)
    rw [e1, e2] at e0
    omega

/-! ## From the blocks to the array -/

section
variable (V : (c : Dev nD) → (b : Ref sig .tc) → Buf (Elt F) ((c : Thread nD τ).loc b))

set_option backward.isDefEq.respectTransparency.types false in
/-- WHAT POINT `t` WRITES BACK is block `t` of the gather of the array and the two tables as the region finds them. -/
theorem flushed3_2 (hO : Ok3 V) (c : Dev nD) (t : Fin (cfgM3 V hO).N) :
    (dat3 V hO c).flushed 2 t
      = (((cfgM3 V hO).win 2).blk t).view.read (Elt F) (GB (V c main_v1) (tbl3 V 0) (tbl3 V 1)) := by
  show ((cfgM3 V hO).win 2).cut ((cfgM3 V hO).grid.coords t) ((dat3 V hO c).after 2 t) = _
  rw [after3_2]
  unfold out3_2
  rw [View.canon_unit_zero hz3v]
  simp only [View.ld_unit_zero (S := S1x1x128) hz3v]
  rw [pay3_eq]
  have ht : t.val < 32768 := t.isLt
  obtain ⟨a0, a1, a2⟩ := index3_0 (adm3 V hO) (tbl3 V) rfl t ⟨t.val, ht⟩ rfl
  obtain ⟨b0, b1, b2⟩ := index3_1 (adm3 V hO) (tbl3 V) rfl t ⟨t.val, ht⟩ rfl
  obtain ⟨c0, c1, c2⟩ := index3_2 (adm3 V hO) t
  funext j
  have hj0 : (j (0 : Fin 3)).val = 0 := by have h : (j (0 : Fin 3)).val < 1 := (j (0 : Fin 3)).isLt; omega
  show FloatOps.addf (V c main_v1 ((((cfgM3 V hO).win 0).blk t).view.emb j)) (V c main_v1 ((((cfgM3 V hO).win 1).blk t).view.emb j))
    = GB (V c main_v1) (tbl3 V 0) (tbl3 V 1) ((((cfgM3 V hO).win 2).blk t).view.emb j)
  refine (GB_eq (V c main_v1) (tbl3 V 0) (tbl3 V 1) ((((cfgM3 V hO).win 2).blk t).view.emb j) ⟨t.val, ht⟩ ?_
    ((((cfgM3 V hO).win 0).blk t).view.emb j) ((((cfgM3 V hO).win 1).blk t).view.emb j) ?_ ?_ ?_ ?_).symm
  · show ((cfgM3 V hO).win 2).index t (0 : Fin 3) * 1 + 1 * (j (0 : Fin 3)).val = t.val
    rw [c0, hj0]; omega
  · show ((cfgM3 V hO).win 0).index t (0 : Fin 3) * 1 + 1 * (j (0 : Fin 3)).val = _
    rw [a0, hj0, Nat.mul_one, Nat.mul_zero, Nat.add_zero]
  · show ((cfgM3 V hO).win 0).index t (2 : Fin 3) * 128 + 1 * (j (2 : Fin 3)).val = ((cfgM3 V hO).win 2).index t (2 : Fin 3) * 128 + 1 * (j (2 : Fin 3)).val
    rw [a2, c2]
  · show ((cfgM3 V hO).win 1).index t (0 : Fin 3) * 1 + 1 * (j (0 : Fin 3)).val = _
    rw [b0, hj0, Nat.mul_one, Nat.mul_zero, Nat.add_zero]
  · show ((cfgM3 V hO).win 1).index t (2 : Fin 3) * 128 + 1 * (j (2 : Fin 3)).val = ((cfgM3 V hO).win 2).index t (2 : Fin 3) * 128 + 1 * (j (2 : Fin 3)).val
    rw [b2, c2]

set_option backward.isDefEq.respectTransparency.types false in
/-- An index of the output array is in point `t`'s block iff each coordinate is in the block's range on its axis. -/
theorem mem_blk3_2 (hO : Ok3 V) (t : Fin (cfgM3 V hO).N) (i : (⟨3, ![32768, 1, 128]⟩ : Shape).Idx) :
    i ∈ (((cfgM3 V hO).win 2).blk t).view.set ↔ ∀ a : Fin 3, ((cfgM3 V hO).win 2).index t a * S1x1x128.size a ≤ (i a).val
      ∧ (i a).val < ((cfgM3 V hO).win 2).index t a * S1x1x128.size a + S1x1x128.size a := by
  show i ∈ ((View.whole main_v32).slice (((cfgM3 V hO).win 2).rect t)).set ↔ _
  rw [View.set_slice_whole]
  exact Rect.mem_set_unit

/-- The output's blocks tile its array: row `j` is the block of point `j`. -/
theorem cover3v (hO : Ok3 V) (i : (⟨3, ![32768, 1, 128]⟩ : Shape).Idx) :
    ∃ t : Fin (cfgM3 V hO).N, ((cfgM3 V hO).win 2).flush t = true ∧ i ∈ (((cfgM3 V hO).win 2).blk t).view.set := by
  have h0 : (i 0).val < 32768 := (i 0).isLt
  have h1 : (i 1).val < 1 := (i 1).isLt
  have h2 : (i 2).val < 128 := (i 2).isLt
  refine ⟨⟨(i 0).val, h0⟩, flush3_2 (adm3 V hO) _, ?_⟩
  obtain ⟨c0, c1, c2⟩ := index3_2 (adm3 V hO) ⟨(i 0).val, h0⟩
  rw [mem_blk3_2]
  intro a
  match a with
  | ⟨0, _⟩ => show ((cfgM3 V hO).win 2).index ⟨(i 0).val, h0⟩ (0 : Fin 3) * 1 ≤ (i 0).val ∧ (i 0).val < ((cfgM3 V hO).win 2).index ⟨(i 0).val, h0⟩ (0 : Fin 3) * 1 + 1; rw [c0]; show (i 0).val * 1 ≤ (i 0).val ∧ (i 0).val < (i 0).val * 1 + 1; omega
  | ⟨1, _⟩ => show ((cfgM3 V hO).win 2).index ⟨(i 0).val, h0⟩ (1 : Fin 3) * 1 ≤ (i 1).val ∧ (i 1).val < ((cfgM3 V hO).win 2).index ⟨(i 0).val, h0⟩ (1 : Fin 3) * 1 + 1; rw [c1]; omega
  | ⟨2, _⟩ => show ((cfgM3 V hO).win 2).index ⟨(i 0).val, h0⟩ (2 : Fin 3) * 128 ≤ (i 2).val ∧ (i 2).val < ((cfgM3 V hO).win 2).index ⟨(i 0).val, h0⟩ (2 : Fin 3) * 128 + 128; rw [c2]; omega

/-- THE OUTPUT ARRAY after the region: the gather of the array and the two tables as the region finds them. -/
theorem arrAt3_2 (hO : Ok3 V) (c : Dev nD) :
    (dat3 V hO c).arrAt 2 (cfgM3 V hO).N = GB (V c main_v1) (tbl3 V 0) (tbl3 V 1) :=
  (dat3 V hO c).arrAt_eq_of_cover 2 (GB (V c main_v1) (tbl3 V 0) (tbl3 V 1)) (fun t _ => flushed3_2 V hO c t) (cover3v V hO)
end

end Cert.KernelIdeal.GenP

end
-- ==== Proof.KernelIdeal.RB4Val.lean ====
/- The value of a row-gather region's output array after the region: each of its rows the sum of the two rows of the
   gathered array that the region's two tables name. -/
import proofs.«175043_j76819785056407_2_alg».proof.Proof.KernelIdeal.RB4
import proofs.«175043_j76819785056407_2_alg».proof.Proof.KernelIdeal.GatherSpec
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

theorem hz4v : (![0, 0, 0] : Fin 3 → Nat) = fun _ => 0 := funext fun a => by fin_cases a <;> rfl

/-- The body's payload: the two loaded rows added lane by lane (the two re-shapes are the identity). -/
theorem pay4_eq (x0 x1 : Vec F S1x1x128 .f32) : k4_pay1 x0 x1 = addf x0 x1 := by
  unfold k4_pay1
  rw [shapeCast_self, shapeCast_self]

/-! ## The grid and the index maps, at ANY admitted contents of the two tables -/

/-- The grid has one axis: the point's one coordinate is the point. -/
theorem coords4v (a : (pcfg4 (F := F)).Adm) (t : Fin (cfg4 a).N) : (((cfg4 a).grid.coords t) 0).val = t.val := by
  have ht : t.val < 32768 := t.isLt
  show t.val / 1 % 32768 = t.val
  omega

/-- The one element of a table that the one-word rectangle at offset `off` holds is the table's position `off`. -/
theorem tpos4 (off : Nat) (inb : ∀ a, (![off] : Fin 1 → Nat) a + S1.size a ≤ S32768.size a) (h : 0 < S1.numel)
    (n : Fin 32768) (hoff : off = n.val) :
    (Rect.unit (s := S32768) ![off] S1.size inb).emb (Shape.Idx.first h) = ValueIdx.ix1 n := by
  funext a
  apply Fin.ext
  match a with
  | ⟨0, _⟩ => show off + 1 * 0 = n.val; omega

/-- A grid coordinate below 2^32 survives the round trip through a 32-bit word. -/
theorem word4v (i : grid4.Coords) (n : Nat) (hn : (i 0).val = n) (hlt : n < 32768) : (BitVec.ofNat 32 (i 0).val).toNat = n := by
  rw [BitVec.toNat_ofNat, hn]
  omega

/-- An input window's index map at grid coordinate `n`: the row number table `k` holds at position `n`, then 0, 0. -/
theorem tf4_0 (hinb : ∀ i : grid4.Coords, ∀ a, (k4_off1 i) a + S1.size a ≤ S32768.size a) (hnum : S1.numel = 1)
    (pf : pre4.Contents (Elt F)) (i : grid4.Coords) (n : Fin 32768) (hn : (i 0).val = n.val) :
    cc4_transform_0 hinb hnum pf i (0 : Fin 3) = (pf 0 (ValueIdx.ix1 n) : BitVec 32).toNat
      ∧ cc4_transform_0 hinb hnum pf i (1 : Fin 3) = 0 ∧ cc4_transform_0 hinb hnum pf i (2 : Fin 3) = 0 :=
  ⟨congrArg (fun k : S32768.Idx => (pf 0 k : BitVec 32).toNat)
      (tpos4 (BitVec.ofNat 32 (i 0).val).toNat (hinb i) (hnum.symm ▸ Nat.one_pos) n (word4v i n.val hn n.isLt)), rfl, rfl⟩
theorem tf4_1 (hinb : ∀ i : grid4.Coords, ∀ a, (k4_off1 i) a + S1.size a ≤ S32768.size a) (hnum : S1.numel = 1)
    (pf : pre4.Contents (Elt F)) (i : grid4.Coords) (n : Fin 32768) (hn : (i 0).val = n.val) :
    cc4_transform_1 hinb hnum pf i (0 : Fin 3) = (pf 1 (ValueIdx.ix1 n) : BitVec 32).toNat
      ∧ cc4_transform_1 hinb hnum pf i (1 : Fin 3) = 0 ∧ cc4_transform_1 hinb hnum pf i (2 : Fin 3) = 0 :=
  ⟨congrArg (fun k : S32768.Idx => (pf 1 k : BitVec 32).toNat)
      (tpos4 (BitVec.ofNat 32 (i 0).val).toNat (hinb i) (hnum.symm ▸ Nat.one_pos) n (word4v i n.val hn n.isLt)), rfl, rfl⟩
/-- The output window's index map: the grid coordinate, then 0, 0. -/
theorem tf4_2 (i : grid4.Coords) (n : Nat) (hn : (i 0).val = n) (hlt : n < 32768) :
    cc4_transform_2 i (0 : Fin 3) = n ∧ cc4_transform_2 i (1 : Fin 3) = 0 ∧ cc4_transform_2 i (2 : Fin 3) = 0 :=
  ⟨word4v i n hn hlt, rfl, rfl⟩

/-- The three windows' block indices at point `t`, the tables' contents `pf` a variable: input window `k` sits at the row
    table `k` names for `t`; the output window at row `t`. -/
theorem index4_0 (a : (pcfg4 (F := F)).Adm) (pf : pre4.Contents (Elt F)) (hpf : a.1 = pf) (t : Fin (cfg4 a).N)
    (n : Fin 32768) (hn : t.val = n.val) :
    ((cfg4 a).win 0).index t (0 : Fin 3) = (pf 0 (ValueIdx.ix1 n) : BitVec 32).toNat
      ∧ ((cfg4 a).win 0).index t (1 : Fin 3) = 0 ∧ ((cfg4 a).win 0).index t (2 : Fin 3) = 0 := by
  subst hpf
  exact tf4_0 _ _ a.1 ((cfg4 a).grid.coords t) n ((coords4v a t).trans hn)
theorem index4_1 (a : (pcfg4 (F := F)).Adm) (pf : pre4.Contents (Elt F)) (hpf : a.1 = pf) (t : Fin (cfg4 a).N)
    (n : Fin 32768) (hn : t.val = n.val) :
    ((cfg4 a).win 1).index t (0 : Fin 3) = (pf 1 (ValueIdx.ix1 n) : BitVec 32).toNat
      ∧ ((cfg4 a).win 1).index t (1 : Fin 3) = 0 ∧ ((cfg4 a).win 1).index t (2 : Fin 3) = 0 := by
  subst hpf
  exact tf4_1 _ _ a.1 ((cfg4 a).grid.coords t) n ((coords4v a t).trans hn)
theorem index4_2 (a : (pcfg4 (F := F)).Adm) (t : Fin (cfg4 a).N) :
    ((cfg4 a).win 2).index t (0 : Fin 3) = t.val
      ∧ ((cfg4 a).win 2).index t (1 : Fin 3) = 0 ∧ ((cfg4 a).win 2).index t (2 : Fin 3) = 0 :=
  tf4_2 ((cfg4 a).grid.coords t) t.val (coords4v a t) t.isLt

/-- The output window is written back at every point: its block index, the point, changes at every step. -/
theorem flush4_2 (a : (pcfg4 (F := F)).Adm) (t : Fin (cfg4 a).N) : ((cfg4 a).win 2).flush t = true := by
  have ht : t.val < 32768 := t.isLt
  rw [Window.flush_out _ rfl]
  by_cases h : t.val + 1 = 32768
  · exact Or.inl h
  · have h' : t.val + 1 < 32768 := by omega
    refine Or.inr ⟨h', fun e => ?_⟩
    have e1 : ((cfg4 a).win 2).index ⟨t.val + 1, h'⟩ (0 : Fin 3) = t.val + 1 := (index4_2 a ⟨t.val + 1, h'⟩).1
    have e2 : ((cfg4 a).win 2).index t (0 : Fin 3) = t.val := (index4_2 a t).1
    have e0 : ((cfg4 a).win 2).index ⟨t.val + 1, h'⟩ (0 : Fin 3) = ((cfg4 a).win 2).index t (0 : Fin 3) := congrFun e (0 : Fin 3)
    rw [e1, e2] at e0
    omega

/-! ## From the blocks to the array -/

section
variable (V : (c : Dev nD) → (b : Ref sig .tc) → Buf (Elt F) ((c : Thread nD τ).loc b))

set_option backward.isDefEq.respectTransparency.types false in
/-- WHAT POINT `t` WRITES BACK is block `t` of the gather of the array and the two tables as the region finds them. -/
theorem flushed4_2 (hO : Ok4 V) (c : Dev nD) (t : Fin (cfgM4 V hO).N) :
    (dat4 V hO c).flushed 2 t
      = (((cfgM4 V hO).win 2).blk t).view.read (Elt F) (GB (V c main_v1) (tbl4 V 0) (tbl4 V 1)) := by
  show ((cfgM4 V hO).win 2).cut ((cfgM4 V hO).grid.coords t) ((dat4 V hO c).after 2 t) = _
  rw [after4_2]
  unfold out4_2
  rw [View.canon_unit_zero hz4v]
  simp only [View.ld_unit_zero (S := S1x1x128) hz4v]
  rw [pay4_eq]
  have ht : t.val < 32768 := t.isLt
  obtain ⟨a0, a1, a2⟩ := index4_0 (adm4 V hO) (tbl4 V) rfl t ⟨t.val, ht⟩ rfl
  obtain ⟨b0, b1, b2⟩ := index4_1 (adm4 V hO) (tbl4 V) rfl t ⟨t.val, ht⟩ rfl
  obtain ⟨c0, c1, c2⟩ := index4_2 (adm4 V hO) t
  funext j
  have hj0 : (j (0 : Fin 3)).val = 0 := by have h : (j (0 : Fin 3)).val < 1 := (j (0 : Fin 3)).isLt; omega
  show FloatOps.addf (V c main_v1 ((((cfgM4 V hO).win 0).blk t).view.emb j)) (V c main_v1 ((((cfgM4 V hO).win 1).blk t).view.emb j))
    = GB (V c main_v1) (tbl4 V 0) (tbl4 V 1) ((((cfgM4 V hO).win 2).blk t).view.emb j)
  refine (GB_eq (V c main_v1) (tbl4 V 0) (tbl4 V 1) ((((cfgM4 V hO).win 2).blk t).view.emb j) ⟨t.val, ht⟩ ?_
    ((((cfgM4 V hO).win 0).blk t).view.emb j) ((((cfgM4 V hO).win 1).blk t).view.emb j) ?_ ?_ ?_ ?_).symm
  · show ((cfgM4 V hO).win 2).index t (0 : Fin 3) * 1 + 1 * (j (0 : Fin 3)).val = t.val
    rw [c0, hj0]; omega
  · show ((cfgM4 V hO).win 0).index t (0 : Fin 3) * 1 + 1 * (j (0 : Fin 3)).val = _
    rw [a0, hj0, Nat.mul_one, Nat.mul_zero, Nat.add_zero]
  · show ((cfgM4 V hO).win 0).index t (2 : Fin 3) * 128 + 1 * (j (2 : Fin 3)).val = ((cfgM4 V hO).win 2).index t (2 : Fin 3) * 128 + 1 * (j (2 : Fin 3)).val
    rw [a2, c2]
  · show ((cfgM4 V hO).win 1).index t (0 : Fin 3) * 1 + 1 * (j (0 : Fin 3)).val = _
    rw [b0, hj0, Nat.mul_one, Nat.mul_zero, Nat.add_zero]
  · show ((cfgM4 V hO).win 1).index t (2 : Fin 3) * 128 + 1 * (j (2 : Fin 3)).val = ((cfgM4 V hO).win 2).index t (2 : Fin 3) * 128 + 1 * (j (2 : Fin 3)).val
    rw [b2, c2]

set_option backward.isDefEq.respectTransparency.types false in
/-- An index of the output array is in point `t`'s block iff each coordinate is in the block's range on its axis. -/
theorem mem_blk4_2 (hO : Ok4 V) (t : Fin (cfgM4 V hO).N) (i : (⟨3, ![32768, 1, 128]⟩ : Shape).Idx) :
    i ∈ (((cfgM4 V hO).win 2).blk t).view.set ↔ ∀ a : Fin 3, ((cfgM4 V hO).win 2).index t a * S1x1x128.size a ≤ (i a).val
      ∧ (i a).val < ((cfgM4 V hO).win 2).index t a * S1x1x128.size a + S1x1x128.size a := by
  show i ∈ ((View.whole main_v36).slice (((cfgM4 V hO).win 2).rect t)).set ↔ _
  rw [View.set_slice_whole]
  exact Rect.mem_set_unit

/-- The output's blocks tile its array: row `j` is the block of point `j`. -/
theorem cover4v (hO : Ok4 V) (i : (⟨3, ![32768, 1, 128]⟩ : Shape).Idx) :
    ∃ t : Fin (cfgM4 V hO).N, ((cfgM4 V hO).win 2).flush t = true ∧ i ∈ (((cfgM4 V hO).win 2).blk t).view.set := by
  have h0 : (i 0).val < 32768 := (i 0).isLt
  have h1 : (i 1).val < 1 := (i 1).isLt
  have h2 : (i 2).val < 128 := (i 2).isLt
  refine ⟨⟨(i 0).val, h0⟩, flush4_2 (adm4 V hO) _, ?_⟩
  obtain ⟨c0, c1, c2⟩ := index4_2 (adm4 V hO) ⟨(i 0).val, h0⟩
  rw [mem_blk4_2]
  intro a
  match a with
  | ⟨0, _⟩ => show ((cfgM4 V hO).win 2).index ⟨(i 0).val, h0⟩ (0 : Fin 3) * 1 ≤ (i 0).val ∧ (i 0).val < ((cfgM4 V hO).win 2).index ⟨(i 0).val, h0⟩ (0 : Fin 3) * 1 + 1; rw [c0]; show (i 0).val * 1 ≤ (i 0).val ∧ (i 0).val < (i 0).val * 1 + 1; omega
  | ⟨1, _⟩ => show ((cfgM4 V hO).win 2).index ⟨(i 0).val, h0⟩ (1 : Fin 3) * 1 ≤ (i 1).val ∧ (i 1).val < ((cfgM4 V hO).win 2).index ⟨(i 0).val, h0⟩ (1 : Fin 3) * 1 + 1; rw [c1]; omega
  | ⟨2, _⟩ => show ((cfgM4 V hO).win 2).index ⟨(i 0).val, h0⟩ (2 : Fin 3) * 128 ≤ (i 2).val ∧ (i 2).val < ((cfgM4 V hO).win 2).index ⟨(i 0).val, h0⟩ (2 : Fin 3) * 128 + 128; rw [c2]; omega

/-- THE OUTPUT ARRAY after the region: the gather of the array and the two tables as the region finds them. -/
theorem arrAt4_2 (hO : Ok4 V) (c : Dev nD) :
    (dat4 V hO c).arrAt 2 (cfgM4 V hO).N = GB (V c main_v1) (tbl4 V 0) (tbl4 V 1) :=
  (dat4 V hO c).arrAt_eq_of_cover 2 (GB (V c main_v1) (tbl4 V 0) (tbl4 V 1)) (fun t _ => flushed4_2 V hO c t) (cover4v V hO)
end

end Cert.KernelIdeal.GenP

end
-- ==== Proof.KernelIdeal.RB5Val.lean ====
/- The value of a row-gather region's output array after the region: each of its rows the sum of the two rows of the
   gathered array that the region's two tables name. -/
import proofs.«175043_j76819785056407_2_alg».proof.Proof.KernelIdeal.RB5
import proofs.«175043_j76819785056407_2_alg».proof.Proof.KernelIdeal.GatherSpec
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

theorem hz5v : (![0, 0, 0] : Fin 3 → Nat) = fun _ => 0 := funext fun a => by fin_cases a <;> rfl

/-- The body's payload: the two loaded rows added lane by lane (the two re-shapes are the identity). -/
theorem pay5_eq (x0 x1 : Vec F S1x1x128 .f32) : k5_pay1 x0 x1 = addf x0 x1 := by
  unfold k5_pay1
  rw [shapeCast_self, shapeCast_self]

/-! ## The grid and the index maps, at ANY admitted contents of the two tables -/

/-- The grid has one axis: the point's one coordinate is the point. -/
theorem coords5v (a : (pcfg5 (F := F)).Adm) (t : Fin (cfg5 a).N) : (((cfg5 a).grid.coords t) 0).val = t.val := by
  have ht : t.val < 32768 := t.isLt
  show t.val / 1 % 32768 = t.val
  omega

/-- The one element of a table that the one-word rectangle at offset `off` holds is the table's position `off`. -/
theorem tpos5 (off : Nat) (inb : ∀ a, (![off] : Fin 1 → Nat) a + S1.size a ≤ S32768.size a) (h : 0 < S1.numel)
    (n : Fin 32768) (hoff : off = n.val) :
    (Rect.unit (s := S32768) ![off] S1.size inb).emb (Shape.Idx.first h) = ValueIdx.ix1 n := by
  funext a
  apply Fin.ext
  match a with
  | ⟨0, _⟩ => show off + 1 * 0 = n.val; omega

/-- A grid coordinate below 2^32 survives the round trip through a 32-bit word. -/
theorem word5v (i : grid5.Coords) (n : Nat) (hn : (i 0).val = n) (hlt : n < 32768) : (BitVec.ofNat 32 (i 0).val).toNat = n := by
  rw [BitVec.toNat_ofNat, hn]
  omega

/-- An input window's index map at grid coordinate `n`: the row number table `k` holds at position `n`, then 0, 0. -/
theorem tf5_0 (hinb : ∀ i : grid5.Coords, ∀ a, (k5_off1 i) a + S1.size a ≤ S32768.size a) (hnum : S1.numel = 1)
    (pf : pre5.Contents (Elt F)) (i : grid5.Coords) (n : Fin 32768) (hn : (i 0).val = n.val) :
    cc5_transform_0 hinb hnum pf i (0 : Fin 3) = (pf 0 (ValueIdx.ix1 n) : BitVec 32).toNat
      ∧ cc5_transform_0 hinb hnum pf i (1 : Fin 3) = 0 ∧ cc5_transform_0 hinb hnum pf i (2 : Fin 3) = 0 :=
  ⟨congrArg (fun k : S32768.Idx => (pf 0 k : BitVec 32).toNat)
      (tpos5 (BitVec.ofNat 32 (i 0).val).toNat (hinb i) (hnum.symm ▸ Nat.one_pos) n (word5v i n.val hn n.isLt)), rfl, rfl⟩
theorem tf5_1 (hinb : ∀ i : grid5.Coords, ∀ a, (k5_off1 i) a + S1.size a ≤ S32768.size a) (hnum : S1.numel = 1)
    (pf : pre5.Contents (Elt F)) (i : grid5.Coords) (n : Fin 32768) (hn : (i 0).val = n.val) :
    cc5_transform_1 hinb hnum pf i (0 : Fin 3) = (pf 1 (ValueIdx.ix1 n) : BitVec 32).toNat
      ∧ cc5_transform_1 hinb hnum pf i (1 : Fin 3) = 0 ∧ cc5_transform_1 hinb hnum pf i (2 : Fin 3) = 0 :=
  ⟨congrArg (fun k : S32768.Idx => (pf 1 k : BitVec 32).toNat)
      (tpos5 (BitVec.ofNat 32 (i 0).val).toNat (hinb i) (hnum.symm ▸ Nat.one_pos) n (word5v i n.val hn n.isLt)), rfl, rfl⟩
/-- The output window's index map: the grid coordinate, then 0, 0. -/
theorem tf5_2 (i : grid5.Coords) (n : Nat) (hn : (i 0).val = n) (hlt : n < 32768) :
    cc5_transform_2 i (0 : Fin 3) = n ∧ cc5_transform_2 i (1 : Fin 3) = 0 ∧ cc5_transform_2 i (2 : Fin 3) = 0 :=
  ⟨word5v i n hn hlt, rfl, rfl⟩

/-- The three windows' block indices at point `t`, the tables' contents `pf` a variable: input window `k` sits at the row
    table `k` names for `t`; the output window at row `t`. -/
theorem index5_0 (a : (pcfg5 (F := F)).Adm) (pf : pre5.Contents (Elt F)) (hpf : a.1 = pf) (t : Fin (cfg5 a).N)
    (n : Fin 32768) (hn : t.val = n.val) :
    ((cfg5 a).win 0).index t (0 : Fin 3) = (pf 0 (ValueIdx.ix1 n) : BitVec 32).toNat
      ∧ ((cfg5 a).win 0).index t (1 : Fin 3) = 0 ∧ ((cfg5 a).win 0).index t (2 : Fin 3) = 0 := by
  subst hpf
  exact tf5_0 _ _ a.1 ((cfg5 a).grid.coords t) n ((coords5v a t).trans hn)
theorem index5_1 (a : (pcfg5 (F := F)).Adm) (pf : pre5.Contents (Elt F)) (hpf : a.1 = pf) (t : Fin (cfg5 a).N)
    (n : Fin 32768) (hn : t.val = n.val) :
    ((cfg5 a).win 1).index t (0 : Fin 3) = (pf 1 (ValueIdx.ix1 n) : BitVec 32).toNat
      ∧ ((cfg5 a).win 1).index t (1 : Fin 3) = 0 ∧ ((cfg5 a).win 1).index t (2 : Fin 3) = 0 := by
  subst hpf
  exact tf5_1 _ _ a.1 ((cfg5 a).grid.coords t) n ((coords5v a t).trans hn)
theorem index5_2 (a : (pcfg5 (F := F)).Adm) (t : Fin (cfg5 a).N) :
    ((cfg5 a).win 2).index t (0 : Fin 3) = t.val
      ∧ ((cfg5 a).win 2).index t (1 : Fin 3) = 0 ∧ ((cfg5 a).win 2).index t (2 : Fin 3) = 0 :=
  tf5_2 ((cfg5 a).grid.coords t) t.val (coords5v a t) t.isLt

/-- The output window is written back at every point: its block index, the point, changes at every step. -/
theorem flush5_2 (a : (pcfg5 (F := F)).Adm) (t : Fin (cfg5 a).N) : ((cfg5 a).win 2).flush t = true := by
  have ht : t.val < 32768 := t.isLt
  rw [Window.flush_out _ rfl]
  by_cases h : t.val + 1 = 32768
  · exact Or.inl h
  · have h' : t.val + 1 < 32768 := by omega
    refine Or.inr ⟨h', fun e => ?_⟩
    have e1 : ((cfg5 a).win 2).index ⟨t.val + 1, h'⟩ (0 : Fin 3) = t.val + 1 := (index5_2 a ⟨t.val + 1, h'⟩).1
    have e2 : ((cfg5 a).win 2).index t (0 : Fin 3) = t.val := (index5_2 a t).1
    have e0 : ((cfg5 a).win 2).index ⟨t.val + 1, h'⟩ (0 : Fin 3) = ((cfg5 a).win 2).index t (0 : Fin 3) := congrFun e (0 : Fin 3)
    rw [e1, e2] at e0
    omega

/-! ## From the blocks to the array -/

section
variable (V : (c : Dev nD) → (b : Ref sig .tc) → Buf (Elt F) ((c : Thread nD τ).loc b))

set_option backward.isDefEq.respectTransparency.types false in
/-- WHAT POINT `t` WRITES BACK is block `t` of the gather of the array and the two tables as the region finds them. -/
theorem flushed5_2 (hO : Ok5 V) (c : Dev nD) (t : Fin (cfgM5 V hO).N) :
    (dat5 V hO c).flushed 2 t
      = (((cfgM5 V hO).win 2).blk t).view.read (Elt F) (GB (V c main_v1) (tbl5 V 0) (tbl5 V 1)) := by
  show ((cfgM5 V hO).win 2).cut ((cfgM5 V hO).grid.coords t) ((dat5 V hO c).after 2 t) = _
  rw [after5_2]
  unfold out5_2
  rw [View.canon_unit_zero hz5v]
  simp only [View.ld_unit_zero (S := S1x1x128) hz5v]
  rw [pay5_eq]
  have ht : t.val < 32768 := t.isLt
  obtain ⟨a0, a1, a2⟩ := index5_0 (adm5 V hO) (tbl5 V) rfl t ⟨t.val, ht⟩ rfl
  obtain ⟨b0, b1, b2⟩ := index5_1 (adm5 V hO) (tbl5 V) rfl t ⟨t.val, ht⟩ rfl
  obtain ⟨c0, c1, c2⟩ := index5_2 (adm5 V hO) t
  funext j
  have hj0 : (j (0 : Fin 3)).val = 0 := by have h : (j (0 : Fin 3)).val < 1 := (j (0 : Fin 3)).isLt; omega
  show FloatOps.addf (V c main_v1 ((((cfgM5 V hO).win 0).blk t).view.emb j)) (V c main_v1 ((((cfgM5 V hO).win 1).blk t).view.emb j))
    = GB (V c main_v1) (tbl5 V 0) (tbl5 V 1) ((((cfgM5 V hO).win 2).blk t).view.emb j)
  refine (GB_eq (V c main_v1) (tbl5 V 0) (tbl5 V 1) ((((cfgM5 V hO).win 2).blk t).view.emb j) ⟨t.val, ht⟩ ?_
    ((((cfgM5 V hO).win 0).blk t).view.emb j) ((((cfgM5 V hO).win 1).blk t).view.emb j) ?_ ?_ ?_ ?_).symm
  · show ((cfgM5 V hO).win 2).index t (0 : Fin 3) * 1 + 1 * (j (0 : Fin 3)).val = t.val
    rw [c0, hj0]; omega
  · show ((cfgM5 V hO).win 0).index t (0 : Fin 3) * 1 + 1 * (j (0 : Fin 3)).val = _
    rw [a0, hj0, Nat.mul_one, Nat.mul_zero, Nat.add_zero]
  · show ((cfgM5 V hO).win 0).index t (2 : Fin 3) * 128 + 1 * (j (2 : Fin 3)).val = ((cfgM5 V hO).win 2).index t (2 : Fin 3) * 128 + 1 * (j (2 : Fin 3)).val
    rw [a2, c2]
  · show ((cfgM5 V hO).win 1).index t (0 : Fin 3) * 1 + 1 * (j (0 : Fin 3)).val = _
    rw [b0, hj0, Nat.mul_one, Nat.mul_zero, Nat.add_zero]
  · show ((cfgM5 V hO).win 1).index t (2 : Fin 3) * 128 + 1 * (j (2 : Fin 3)).val = ((cfgM5 V hO).win 2).index t (2 : Fin 3) * 128 + 1 * (j (2 : Fin 3)).val
    rw [b2, c2]

set_option backward.isDefEq.respectTransparency.types false in
/-- An index of the output array is in point `t`'s block iff each coordinate is in the block's range on its axis. -/
theorem mem_blk5_2 (hO : Ok5 V) (t : Fin (cfgM5 V hO).N) (i : (⟨3, ![32768, 1, 128]⟩ : Shape).Idx) :
    i ∈ (((cfgM5 V hO).win 2).blk t).view.set ↔ ∀ a : Fin 3, ((cfgM5 V hO).win 2).index t a * S1x1x128.size a ≤ (i a).val
      ∧ (i a).val < ((cfgM5 V hO).win 2).index t a * S1x1x128.size a + S1x1x128.size a := by
  show i ∈ ((View.whole main_v40).slice (((cfgM5 V hO).win 2).rect t)).set ↔ _
  rw [View.set_slice_whole]
  exact Rect.mem_set_unit

/-- The output's blocks tile its array: row `j` is the block of point `j`. -/
theorem cover5v (hO : Ok5 V) (i : (⟨3, ![32768, 1, 128]⟩ : Shape).Idx) :
    ∃ t : Fin (cfgM5 V hO).N, ((cfgM5 V hO).win 2).flush t = true ∧ i ∈ (((cfgM5 V hO).win 2).blk t).view.set := by
  have h0 : (i 0).val < 32768 := (i 0).isLt
  have h1 : (i 1).val < 1 := (i 1).isLt
  have h2 : (i 2).val < 128 := (i 2).isLt
  refine ⟨⟨(i 0).val, h0⟩, flush5_2 (adm5 V hO) _, ?_⟩
  obtain ⟨c0, c1, c2⟩ := index5_2 (adm5 V hO) ⟨(i 0).val, h0⟩
  rw [mem_blk5_2]
  intro a
  match a with
  | ⟨0, _⟩ => show ((cfgM5 V hO).win 2).index ⟨(i 0).val, h0⟩ (0 : Fin 3) * 1 ≤ (i 0).val ∧ (i 0).val < ((cfgM5 V hO).win 2).index ⟨(i 0).val, h0⟩ (0 : Fin 3) * 1 + 1; rw [c0]; show (i 0).val * 1 ≤ (i 0).val ∧ (i 0).val < (i 0).val * 1 + 1; omega
  | ⟨1, _⟩ => show ((cfgM5 V hO).win 2).index ⟨(i 0).val, h0⟩ (1 : Fin 3) * 1 ≤ (i 1).val ∧ (i 1).val < ((cfgM5 V hO).win 2).index ⟨(i 0).val, h0⟩ (1 : Fin 3) * 1 + 1; rw [c1]; omega
  | ⟨2, _⟩ => show ((cfgM5 V hO).win 2).index ⟨(i 0).val, h0⟩ (2 : Fin 3) * 128 ≤ (i 2).val ∧ (i 2).val < ((cfgM5 V hO).win 2).index ⟨(i 0).val, h0⟩ (2 : Fin 3) * 128 + 128; rw [c2]; omega

/-- THE OUTPUT ARRAY after the region: the gather of the array and the two tables as the region finds them. -/
theorem arrAt5_2 (hO : Ok5 V) (c : Dev nD) :
    (dat5 V hO c).arrAt 2 (cfgM5 V hO).N = GB (V c main_v1) (tbl5 V 0) (tbl5 V 1) :=
  (dat5 V hO c).arrAt_eq_of_cover 2 (GB (V c main_v1) (tbl5 V 0) (tbl5 V 1)) (fun t _ => flushed5_2 V hO c t) (cover5v V hO)
end

end Cert.KernelIdeal.GenP

end
-- ==== Proof.KernelIdeal.RB6Val.lean ====
/- The value of a row-gather region's output array after the region: each of its rows the sum of the two rows of the
   gathered array that the region's two tables name. -/
import proofs.«175043_j76819785056407_2_alg».proof.Proof.KernelIdeal.RB6
import proofs.«175043_j76819785056407_2_alg».proof.Proof.KernelIdeal.GatherSpec
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

theorem hz6v : (![0, 0, 0] : Fin 3 → Nat) = fun _ => 0 := funext fun a => by fin_cases a <;> rfl

/-- The body's payload: the two loaded rows added lane by lane (the two re-shapes are the identity). -/
theorem pay6_eq (x0 x1 : Vec F S1x1x128 .f32) : k6_pay1 x0 x1 = addf x0 x1 := by
  unfold k6_pay1
  rw [shapeCast_self, shapeCast_self]

/-! ## The grid and the index maps, at ANY admitted contents of the two tables -/

/-- The grid has one axis: the point's one coordinate is the point. -/
theorem coords6v (a : (pcfg6 (F := F)).Adm) (t : Fin (cfg6 a).N) : (((cfg6 a).grid.coords t) 0).val = t.val := by
  have ht : t.val < 32768 := t.isLt
  show t.val / 1 % 32768 = t.val
  omega

/-- The one element of a table that the one-word rectangle at offset `off` holds is the table's position `off`. -/
theorem tpos6 (off : Nat) (inb : ∀ a, (![off] : Fin 1 → Nat) a + S1.size a ≤ S32768.size a) (h : 0 < S1.numel)
    (n : Fin 32768) (hoff : off = n.val) :
    (Rect.unit (s := S32768) ![off] S1.size inb).emb (Shape.Idx.first h) = ValueIdx.ix1 n := by
  funext a
  apply Fin.ext
  match a with
  | ⟨0, _⟩ => show off + 1 * 0 = n.val; omega

/-- A grid coordinate below 2^32 survives the round trip through a 32-bit word. -/
theorem word6v (i : grid6.Coords) (n : Nat) (hn : (i 0).val = n) (hlt : n < 32768) : (BitVec.ofNat 32 (i 0).val).toNat = n := by
  rw [BitVec.toNat_ofNat, hn]
  omega

/-- An input window's index map at grid coordinate `n`: the row number table `k` holds at position `n`, then 0, 0. -/
theorem tf6_0 (hinb : ∀ i : grid6.Coords, ∀ a, (k6_off1 i) a + S1.size a ≤ S32768.size a) (hnum : S1.numel = 1)
    (pf : pre6.Contents (Elt F)) (i : grid6.Coords) (n : Fin 32768) (hn : (i 0).val = n.val) :
    cc6_transform_0 hinb hnum pf i (0 : Fin 3) = (pf 0 (ValueIdx.ix1 n) : BitVec 32).toNat
      ∧ cc6_transform_0 hinb hnum pf i (1 : Fin 3) = 0 ∧ cc6_transform_0 hinb hnum pf i (2 : Fin 3) = 0 :=
  ⟨congrArg (fun k : S32768.Idx => (pf 0 k : BitVec 32).toNat)
      (tpos6 (BitVec.ofNat 32 (i 0).val).toNat (hinb i) (hnum.symm ▸ Nat.one_pos) n (word6v i n.val hn n.isLt)), rfl, rfl⟩
theorem tf6_1 (hinb : ∀ i : grid6.Coords, ∀ a, (k6_off1 i) a + S1.size a ≤ S32768.size a) (hnum : S1.numel = 1)
    (pf : pre6.Contents (Elt F)) (i : grid6.Coords) (n : Fin 32768) (hn : (i 0).val = n.val) :
    cc6_transform_1 hinb hnum pf i (0 : Fin 3) = (pf 1 (ValueIdx.ix1 n) : BitVec 32).toNat
      ∧ cc6_transform_1 hinb hnum pf i (1 : Fin 3) = 0 ∧ cc6_transform_1 hinb hnum pf i (2 : Fin 3) = 0 :=
  ⟨congrArg (fun k : S32768.Idx => (pf 1 k : BitVec 32).toNat)
      (tpos6 (BitVec.ofNat 32 (i 0).val).toNat (hinb i) (hnum.symm ▸ Nat.one_pos) n (word6v i n.val hn n.isLt)), rfl, rfl⟩
/-- The output window's index map: the grid coordinate, then 0, 0. -/
theorem tf6_2 (i : grid6.Coords) (n : Nat) (hn : (i 0).val = n) (hlt : n < 32768) :
    cc6_transform_2 i (0 : Fin 3) = n ∧ cc6_transform_2 i (1 : Fin 3) = 0 ∧ cc6_transform_2 i (2 : Fin 3) = 0 :=
  ⟨word6v i n hn hlt, rfl, rfl⟩

/-- The three windows' block indices at point `t`, the tables' contents `pf` a variable: input window `k` sits at the row
    table `k` names for `t`; the output window at row `t`. -/
theorem index6_0 (a : (pcfg6 (F := F)).Adm) (pf : pre6.Contents (Elt F)) (hpf : a.1 = pf) (t : Fin (cfg6 a).N)
    (n : Fin 32768) (hn : t.val = n.val) :
    ((cfg6 a).win 0).index t (0 : Fin 3) = (pf 0 (ValueIdx.ix1 n) : BitVec 32).toNat
      ∧ ((cfg6 a).win 0).index t (1 : Fin 3) = 0 ∧ ((cfg6 a).win 0).index t (2 : Fin 3) = 0 := by
  subst hpf
  exact tf6_0 _ _ a.1 ((cfg6 a).grid.coords t) n ((coords6v a t).trans hn)
theorem index6_1 (a : (pcfg6 (F := F)).Adm) (pf : pre6.Contents (Elt F)) (hpf : a.1 = pf) (t : Fin (cfg6 a).N)
    (n : Fin 32768) (hn : t.val = n.val) :
    ((cfg6 a).win 1).index t (0 : Fin 3) = (pf 1 (ValueIdx.ix1 n) : BitVec 32).toNat
      ∧ ((cfg6 a).win 1).index t (1 : Fin 3) = 0 ∧ ((cfg6 a).win 1).index t (2 : Fin 3) = 0 := by
  subst hpf
  exact tf6_1 _ _ a.1 ((cfg6 a).grid.coords t) n ((coords6v a t).trans hn)
theorem index6_2 (a : (pcfg6 (F := F)).Adm) (t : Fin (cfg6 a).N) :
    ((cfg6 a).win 2).index t (0 : Fin 3) = t.val
      ∧ ((cfg6 a).win 2).index t (1 : Fin 3) = 0 ∧ ((cfg6 a).win 2).index t (2 : Fin 3) = 0 :=
  tf6_2 ((cfg6 a).grid.coords t) t.val (coords6v a t) t.isLt

/-- The output window is written back at every point: its block index, the point, changes at every step. -/
theorem flush6_2 (a : (pcfg6 (F := F)).Adm) (t : Fin (cfg6 a).N) : ((cfg6 a).win 2).flush t = true := by
  have ht : t.val < 32768 := t.isLt
  rw [Window.flush_out _ rfl]
  by_cases h : t.val + 1 = 32768
  · exact Or.inl h
  · have h' : t.val + 1 < 32768 := by omega
    refine Or.inr ⟨h', fun e => ?_⟩
    have e1 : ((cfg6 a).win 2).index ⟨t.val + 1, h'⟩ (0 : Fin 3) = t.val + 1 := (index6_2 a ⟨t.val + 1, h'⟩).1
    have e2 : ((cfg6 a).win 2).index t (0 : Fin 3) = t.val := (index6_2 a t).1
    have e0 : ((cfg6 a).win 2).index ⟨t.val + 1, h'⟩ (0 : Fin 3) = ((cfg6 a).win 2).index t (0 : Fin 3) := congrFun e (0 : Fin 3)
    rw [e1, e2] at e0
    omega

/-! ## From the blocks to the array -/

section
variable (V : (c : Dev nD) → (b : Ref sig .tc) → Buf (Elt F) ((c : Thread nD τ).loc b))

set_option backward.isDefEq.respectTransparency.types false in
/-- WHAT POINT `t` WRITES BACK is block `t` of the gather of the array and the two tables as the region finds them. -/
theorem flushed6_2 (hO : Ok6 V) (c : Dev nD) (t : Fin (cfgM6 V hO).N) :
    (dat6 V hO c).flushed 2 t
      = (((cfgM6 V hO).win 2).blk t).view.read (Elt F) (GB (V c main_v1) (tbl6 V 0) (tbl6 V 1)) := by
  show ((cfgM6 V hO).win 2).cut ((cfgM6 V hO).grid.coords t) ((dat6 V hO c).after 2 t) = _
  rw [after6_2]
  unfold out6_2
  rw [View.canon_unit_zero hz6v]
  simp only [View.ld_unit_zero (S := S1x1x128) hz6v]
  rw [pay6_eq]
  have ht : t.val < 32768 := t.isLt
  obtain ⟨a0, a1, a2⟩ := index6_0 (adm6 V hO) (tbl6 V) rfl t ⟨t.val, ht⟩ rfl
  obtain ⟨b0, b1, b2⟩ := index6_1 (adm6 V hO) (tbl6 V) rfl t ⟨t.val, ht⟩ rfl
  obtain ⟨c0, c1, c2⟩ := index6_2 (adm6 V hO) t
  funext j
  have hj0 : (j (0 : Fin 3)).val = 0 := by have h : (j (0 : Fin 3)).val < 1 := (j (0 : Fin 3)).isLt; omega
  show FloatOps.addf (V c main_v1 ((((cfgM6 V hO).win 0).blk t).view.emb j)) (V c main_v1 ((((cfgM6 V hO).win 1).blk t).view.emb j))
    = GB (V c main_v1) (tbl6 V 0) (tbl6 V 1) ((((cfgM6 V hO).win 2).blk t).view.emb j)
  refine (GB_eq (V c main_v1) (tbl6 V 0) (tbl6 V 1) ((((cfgM6 V hO).win 2).blk t).view.emb j) ⟨t.val, ht⟩ ?_
    ((((cfgM6 V hO).win 0).blk t).view.emb j) ((((cfgM6 V hO).win 1).blk t).view.emb j) ?_ ?_ ?_ ?_).symm
  · show ((cfgM6 V hO).win 2).index t (0 : Fin 3) * 1 + 1 * (j (0 : Fin 3)).val = t.val
    rw [c0, hj0]; omega
  · show ((cfgM6 V hO).win 0).index t (0 : Fin 3) * 1 + 1 * (j (0 : Fin 3)).val = _
    rw [a0, hj0, Nat.mul_one, Nat.mul_zero, Nat.add_zero]
  · show ((cfgM6 V hO).win 0).index t (2 : Fin 3) * 128 + 1 * (j (2 : Fin 3)).val = ((cfgM6 V hO).win 2).index t (2 : Fin 3) * 128 + 1 * (j (2 : Fin 3)).val
    rw [a2, c2]
  · show ((cfgM6 V hO).win 1).index t (0 : Fin 3) * 1 + 1 * (j (0 : Fin 3)).val = _
    rw [b0, hj0, Nat.mul_one, Nat.mul_zero, Nat.add_zero]
  · show ((cfgM6 V hO).win 1).index t (2 : Fin 3) * 128 + 1 * (j (2 : Fin 3)).val = ((cfgM6 V hO).win 2).index t (2 : Fin 3) * 128 + 1 * (j (2 : Fin 3)).val
    rw [b2, c2]

set_option backward.isDefEq.respectTransparency.types false in
/-- An index of the output array is in point `t`'s block iff each coordinate is in the block's range on its axis. -/
theorem mem_blk6_2 (hO : Ok6 V) (t : Fin (cfgM6 V hO).N) (i : (⟨3, ![32768, 1, 128]⟩ : Shape).Idx) :
    i ∈ (((cfgM6 V hO).win 2).blk t).view.set ↔ ∀ a : Fin 3, ((cfgM6 V hO).win 2).index t a * S1x1x128.size a ≤ (i a).val
      ∧ (i a).val < ((cfgM6 V hO).win 2).index t a * S1x1x128.size a + S1x1x128.size a := by
  show i ∈ ((View.whole main_v44).slice (((cfgM6 V hO).win 2).rect t)).set ↔ _
  rw [View.set_slice_whole]
  exact Rect.mem_set_unit

/-- The output's blocks tile its array: row `j` is the block of point `j`. -/
theorem cover6v (hO : Ok6 V) (i : (⟨3, ![32768, 1, 128]⟩ : Shape).Idx) :
    ∃ t : Fin (cfgM6 V hO).N, ((cfgM6 V hO).win 2).flush t = true ∧ i ∈ (((cfgM6 V hO).win 2).blk t).view.set := by
  have h0 : (i 0).val < 32768 := (i 0).isLt
  have h1 : (i 1).val < 1 := (i 1).isLt
  have h2 : (i 2).val < 128 := (i 2).isLt
  refine ⟨⟨(i 0).val, h0⟩, flush6_2 (adm6 V hO) _, ?_⟩
  obtain ⟨c0, c1, c2⟩ := index6_2 (adm6 V hO) ⟨(i 0).val, h0⟩
  rw [mem_blk6_2]
  intro a
  match a with
  | ⟨0, _⟩ => show ((cfgM6 V hO).win 2).index ⟨(i 0).val, h0⟩ (0 : Fin 3) * 1 ≤ (i 0).val ∧ (i 0).val < ((cfgM6 V hO).win 2).index ⟨(i 0).val, h0⟩ (0 : Fin 3) * 1 + 1; rw [c0]; show (i 0).val * 1 ≤ (i 0).val ∧ (i 0).val < (i 0).val * 1 + 1; omega
  | ⟨1, _⟩ => show ((cfgM6 V hO).win 2).index ⟨(i 0).val, h0⟩ (1 : Fin 3) * 1 ≤ (i 1).val ∧ (i 1).val < ((cfgM6 V hO).win 2).index ⟨(i 0).val, h0⟩ (1 : Fin 3) * 1 + 1; rw [c1]; omega
  | ⟨2, _⟩ => show ((cfgM6 V hO).win 2).index ⟨(i 0).val, h0⟩ (2 : Fin 3) * 128 ≤ (i 2).val ∧ (i 2).val < ((cfgM6 V hO).win 2).index ⟨(i 0).val, h0⟩ (2 : Fin 3) * 128 + 128; rw [c2]; omega

/-- THE OUTPUT ARRAY after the region: the gather of the array and the two tables as the region finds them. -/
theorem arrAt6_2 (hO : Ok6 V) (c : Dev nD) :
    (dat6 V hO c).arrAt 2 (cfgM6 V hO).N = GB (V c main_v1) (tbl6 V 0) (tbl6 V 1) :=
  (dat6 V hO c).arrAt_eq_of_cover 2 (GB (V c main_v1) (tbl6 V 0) (tbl6 V 1)) (fun t _ => flushed6_2 V hO c t) (cover6v V hO)
end

end Cert.KernelIdeal.GenP

end
-- ==== Proof.KernelIdeal.RB7Val.lean ====
/- The value of a row-gather region's output array after the region: each of its rows the sum of the two rows of the
   gathered array that the region's two tables name. -/
import proofs.«175043_j76819785056407_2_alg».proof.Proof.KernelIdeal.RB7
import proofs.«175043_j76819785056407_2_alg».proof.Proof.KernelIdeal.GatherSpec
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

theorem hz7v : (![0, 0, 0] : Fin 3 → Nat) = fun _ => 0 := funext fun a => by fin_cases a <;> rfl

/-- The body's payload: the two loaded rows added lane by lane (the two re-shapes are the identity). -/
theorem pay7_eq (x0 x1 : Vec F S1x1x128 .f32) : k7_pay1 x0 x1 = addf x0 x1 := by
  unfold k7_pay1
  rw [shapeCast_self, shapeCast_self]

/-! ## The grid and the index maps, at ANY admitted contents of the two tables -/

/-- The grid has one axis: the point's one coordinate is the point. -/
theorem coords7v (a : (pcfg7 (F := F)).Adm) (t : Fin (cfg7 a).N) : (((cfg7 a).grid.coords t) 0).val = t.val := by
  have ht : t.val < 32768 := t.isLt
  show t.val / 1 % 32768 = t.val
  omega

/-- The one element of a table that the one-word rectangle at offset `off` holds is the table's position `off`. -/
theorem tpos7 (off : Nat) (inb : ∀ a, (![off] : Fin 1 → Nat) a + S1.size a ≤ S32768.size a) (h : 0 < S1.numel)
    (n : Fin 32768) (hoff : off = n.val) :
    (Rect.unit (s := S32768) ![off] S1.size inb).emb (Shape.Idx.first h) = ValueIdx.ix1 n := by
  funext a
  apply Fin.ext
  match a with
  | ⟨0, _⟩ => show off + 1 * 0 = n.val; omega

/-- A grid coordinate below 2^32 survives the round trip through a 32-bit word. -/
theorem word7v (i : grid7.Coords) (n : Nat) (hn : (i 0).val = n) (hlt : n < 32768) : (BitVec.ofNat 32 (i 0).val).toNat = n := by
  rw [BitVec.toNat_ofNat, hn]
  omega

/-- An input window's index map at grid coordinate `n`: the row number table `k` holds at position `n`, then 0, 0. -/
theorem tf7_0 (hinb : ∀ i : grid7.Coords, ∀ a, (k7_off1 i) a + S1.size a ≤ S32768.size a) (hnum : S1.numel = 1)
    (pf : pre7.Contents (Elt F)) (i : grid7.Coords) (n : Fin 32768) (hn : (i 0).val = n.val) :
    cc7_transform_0 hinb hnum pf i (0 : Fin 3) = (pf 0 (ValueIdx.ix1 n) : BitVec 32).toNat
      ∧ cc7_transform_0 hinb hnum pf i (1 : Fin 3) = 0 ∧ cc7_transform_0 hinb hnum pf i (2 : Fin 3) = 0 :=
  ⟨congrArg (fun k : S32768.Idx => (pf 0 k : BitVec 32).toNat)
      (tpos7 (BitVec.ofNat 32 (i 0).val).toNat (hinb i) (hnum.symm ▸ Nat.one_pos) n (word7v i n.val hn n.isLt)), rfl, rfl⟩
theorem tf7_1 (hinb : ∀ i : grid7.Coords, ∀ a, (k7_off1 i) a + S1.size a ≤ S32768.size a) (hnum : S1.numel = 1)
    (pf : pre7.Contents (Elt F)) (i : grid7.Coords) (n : Fin 32768) (hn : (i 0).val = n.val) :
    cc7_transform_1 hinb hnum pf i (0 : Fin 3) = (pf 1 (ValueIdx.ix1 n) : BitVec 32).toNat
      ∧ cc7_transform_1 hinb hnum pf i (1 : Fin 3) = 0 ∧ cc7_transform_1 hinb hnum pf i (2 : Fin 3) = 0 :=
  ⟨congrArg (fun k : S32768.Idx => (pf 1 k : BitVec 32).toNat)
      (tpos7 (BitVec.ofNat 32 (i 0).val).toNat (hinb i) (hnum.symm ▸ Nat.one_pos) n (word7v i n.val hn n.isLt)), rfl, rfl⟩
/-- The output window's index map: the grid coordinate, then 0, 0. -/
theorem tf7_2 (i : grid7.Coords) (n : Nat) (hn : (i 0).val = n) (hlt : n < 32768) :
    cc7_transform_2 i (0 : Fin 3) = n ∧ cc7_transform_2 i (1 : Fin 3) = 0 ∧ cc7_transform_2 i (2 : Fin 3) = 0 :=
  ⟨word7v i n hn hlt, rfl, rfl⟩

/-- The three windows' block indices at point `t`, the tables' contents `pf` a variable: input window `k` sits at the row
    table `k` names for `t`; the output window at row `t`. -/
theorem index7_0 (a : (pcfg7 (F := F)).Adm) (pf : pre7.Contents (Elt F)) (hpf : a.1 = pf) (t : Fin (cfg7 a).N)
    (n : Fin 32768) (hn : t.val = n.val) :
    ((cfg7 a).win 0).index t (0 : Fin 3) = (pf 0 (ValueIdx.ix1 n) : BitVec 32).toNat
      ∧ ((cfg7 a).win 0).index t (1 : Fin 3) = 0 ∧ ((cfg7 a).win 0).index t (2 : Fin 3) = 0 := by
  subst hpf
  exact tf7_0 _ _ a.1 ((cfg7 a).grid.coords t) n ((coords7v a t).trans hn)
theorem index7_1 (a : (pcfg7 (F := F)).Adm) (pf : pre7.Contents (Elt F)) (hpf : a.1 = pf) (t : Fin (cfg7 a).N)
    (n : Fin 32768) (hn : t.val = n.val) :
    ((cfg7 a).win 1).index t (0 : Fin 3) = (pf 1 (ValueIdx.ix1 n) : BitVec 32).toNat
      ∧ ((cfg7 a).win 1).index t (1 : Fin 3) = 0 ∧ ((cfg7 a).win 1).index t (2 : Fin 3) = 0 := by
  subst hpf
  exact tf7_1 _ _ a.1 ((cfg7 a).grid.coords t) n ((coords7v a t).trans hn)
theorem index7_2 (a : (pcfg7 (F := F)).Adm) (t : Fin (cfg7 a).N) :
    ((cfg7 a).win 2).index t (0 : Fin 3) = t.val
      ∧ ((cfg7 a).win 2).index t (1 : Fin 3) = 0 ∧ ((cfg7 a).win 2).index t (2 : Fin 3) = 0 :=
  tf7_2 ((cfg7 a).grid.coords t) t.val (coords7v a t) t.isLt

/-- The output window is written back at every point: its block index, the point, changes at every step. -/
theorem flush7_2 (a : (pcfg7 (F := F)).Adm) (t : Fin (cfg7 a).N) : ((cfg7 a).win 2).flush t = true := by
  have ht : t.val < 32768 := t.isLt
  rw [Window.flush_out _ rfl]
  by_cases h : t.val + 1 = 32768
  · exact Or.inl h
  · have h' : t.val + 1 < 32768 := by omega
    refine Or.inr ⟨h', fun e => ?_⟩
    have e1 : ((cfg7 a).win 2).index ⟨t.val + 1, h'⟩ (0 : Fin 3) = t.val + 1 := (index7_2 a ⟨t.val + 1, h'⟩).1
    have e2 : ((cfg7 a).win 2).index t (0 : Fin 3) = t.val := (index7_2 a t).1
    have e0 : ((cfg7 a).win 2).index ⟨t.val + 1, h'⟩ (0 : Fin 3) = ((cfg7 a).win 2).index t (0 : Fin 3) := congrFun e (0 : Fin 3)
    rw [e1, e2] at e0
    omega

/-! ## From the blocks to the array -/

section
variable (V : (c : Dev nD) → (b : Ref sig .tc) → Buf (Elt F) ((c : Thread nD τ).loc b))

set_option backward.isDefEq.respectTransparency.types false in
/-- WHAT POINT `t` WRITES BACK is block `t` of the gather of the array and the two tables as the region finds them. -/
theorem flushed7_2 (hO : Ok7 V) (c : Dev nD) (t : Fin (cfgM7 V hO).N) :
    (dat7 V hO c).flushed 2 t
      = (((cfgM7 V hO).win 2).blk t).view.read (Elt F) (GB (V c main_v1) (tbl7 V 0) (tbl7 V 1)) := by
  show ((cfgM7 V hO).win 2).cut ((cfgM7 V hO).grid.coords t) ((dat7 V hO c).after 2 t) = _
  rw [after7_2]
  unfold out7_2
  rw [View.canon_unit_zero hz7v]
  simp only [View.ld_unit_zero (S := S1x1x128) hz7v]
  rw [pay7_eq]
  have ht : t.val < 32768 := t.isLt
  obtain ⟨a0, a1, a2⟩ := index7_0 (adm7 V hO) (tbl7 V) rfl t ⟨t.val, ht⟩ rfl
  obtain ⟨b0, b1, b2⟩ := index7_1 (adm7 V hO) (tbl7 V) rfl t ⟨t.val, ht⟩ rfl
  obtain ⟨c0, c1, c2⟩ := index7_2 (adm7 V hO) t
  funext j
  have hj0 : (j (0 : Fin 3)).val = 0 := by have h : (j (0 : Fin 3)).val < 1 := (j (0 : Fin 3)).isLt; omega
  show FloatOps.addf (V c main_v1 ((((cfgM7 V hO).win 0).blk t).view.emb j)) (V c main_v1 ((((cfgM7 V hO).win 1).blk t).view.emb j))
    = GB (V c main_v1) (tbl7 V 0) (tbl7 V 1) ((((cfgM7 V hO).win 2).blk t).view.emb j)
  refine (GB_eq (V c main_v1) (tbl7 V 0) (tbl7 V 1) ((((cfgM7 V hO).win 2).blk t).view.emb j) ⟨t.val, ht⟩ ?_
    ((((cfgM7 V hO).win 0).blk t).view.emb j) ((((cfgM7 V hO).win 1).blk t).view.emb j) ?_ ?_ ?_ ?_).symm
  · show ((cfgM7 V hO).win 2).index t (0 : Fin 3) * 1 + 1 * (j (0 : Fin 3)).val = t.val
    rw [c0, hj0]; omega
  · show ((cfgM7 V hO).win 0).index t (0 : Fin 3) * 1 + 1 * (j (0 : Fin 3)).val = _
    rw [a0, hj0, Nat.mul_one, Nat.mul_zero, Nat.add_zero]
  · show ((cfgM7 V hO).win 0).index t (2 : Fin 3) * 128 + 1 * (j (2 : Fin 3)).val = ((cfgM7 V hO).win 2).index t (2 : Fin 3) * 128 + 1 * (j (2 : Fin 3)).val
    rw [a2, c2]
  · show ((cfgM7 V hO).win 1).index t (0 : Fin 3) * 1 + 1 * (j (0 : Fin 3)).val = _
    rw [b0, hj0, Nat.mul_one, Nat.mul_zero, Nat.add_zero]
  · show ((cfgM7 V hO).win 1).index t (2 : Fin 3) * 128 + 1 * (j (2 : Fin 3)).val = ((cfgM7 V hO).win 2).index t (2 : Fin 3) * 128 + 1 * (j (2 : Fin 3)).val
    rw [b2, c2]

set_option backward.isDefEq.respectTransparency.types false in
/-- An index of the output array is in point `t`'s block iff each coordinate is in the block's range on its axis. -/
theorem mem_blk7_2 (hO : Ok7 V) (t : Fin (cfgM7 V hO).N) (i : (⟨3, ![32768, 1, 128]⟩ : Shape).Idx) :
    i ∈ (((cfgM7 V hO).win 2).blk t).view.set ↔ ∀ a : Fin 3, ((cfgM7 V hO).win 2).index t a * S1x1x128.size a ≤ (i a).val
      ∧ (i a).val < ((cfgM7 V hO).win 2).index t a * S1x1x128.size a + S1x1x128.size a := by
  show i ∈ ((View.whole main_v48).slice (((cfgM7 V hO).win 2).rect t)).set ↔ _
  rw [View.set_slice_whole]
  exact Rect.mem_set_unit

/-- The output's blocks tile its array: row `j` is the block of point `j`. -/
theorem cover7v (hO : Ok7 V) (i : (⟨3, ![32768, 1, 128]⟩ : Shape).Idx) :
    ∃ t : Fin (cfgM7 V hO).N, ((cfgM7 V hO).win 2).flush t = true ∧ i ∈ (((cfgM7 V hO).win 2).blk t).view.set := by
  have h0 : (i 0).val < 32768 := (i 0).isLt
  have h1 : (i 1).val < 1 := (i 1).isLt
  have h2 : (i 2).val < 128 := (i 2).isLt
  refine ⟨⟨(i 0).val, h0⟩, flush7_2 (adm7 V hO) _, ?_⟩
  obtain ⟨c0, c1, c2⟩ := index7_2 (adm7 V hO) ⟨(i 0).val, h0⟩
  rw [mem_blk7_2]
  intro a
  match a with
  | ⟨0, _⟩ => show ((cfgM7 V hO).win 2).index ⟨(i 0).val, h0⟩ (0 : Fin 3) * 1 ≤ (i 0).val ∧ (i 0).val < ((cfgM7 V hO).win 2).index ⟨(i 0).val, h0⟩ (0 : Fin 3) * 1 + 1; rw [c0]; show (i 0).val * 1 ≤ (i 0).val ∧ (i 0).val < (i 0).val * 1 + 1; omega
  | ⟨1, _⟩ => show ((cfgM7 V hO).win 2).index ⟨(i 0).val, h0⟩ (1 : Fin 3) * 1 ≤ (i 1).val ∧ (i 1).val < ((cfgM7 V hO).win 2).index ⟨(i 0).val, h0⟩ (1 : Fin 3) * 1 + 1; rw [c1]; omega
  | ⟨2, _⟩ => show ((cfgM7 V hO).win 2).index ⟨(i 0).val, h0⟩ (2 : Fin 3) * 128 ≤ (i 2).val ∧ (i 2).val < ((cfgM7 V hO).win 2).index ⟨(i 0).val, h0⟩ (2 : Fin 3) * 128 + 128; rw [c2]; omega

/-- THE OUTPUT ARRAY after the region: the gather of the array and the two tables as the region finds them. -/
theorem arrAt7_2 (hO : Ok7 V) (c : Dev nD) :
    (dat7 V hO c).arrAt 2 (cfgM7 V hO).N = GB (V c main_v1) (tbl7 V 0) (tbl7 V 1) :=
  (dat7 V hO c).arrAt_eq_of_cover 2 (GB (V c main_v1) (tbl7 V 0) (tbl7 V 1)) (fun t _ => flushed7_2 V hO c t) (cover7v V hO)
end

end Cert.KernelIdeal.GenP

end
-- ==== Proof.KernelIdeal.RB8Val.lean ====
/- The value of a row-gather region's output array after the region: each of its rows the sum of the two rows of the
   gathered array that the region's two tables name. -/
import proofs.«175043_j76819785056407_2_alg».proof.Proof.KernelIdeal.RB8
import proofs.«175043_j76819785056407_2_alg».proof.Proof.KernelIdeal.GatherSpec
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

theorem hz8v : (![0, 0, 0] : Fin 3 → Nat) = fun _ => 0 := funext fun a => by fin_cases a <;> rfl

/-- The body's payload: the two loaded rows added lane by lane (the two re-shapes are the identity). -/
theorem pay8_eq (x0 x1 : Vec F S1x1x128 .f32) : k8_pay1 x0 x1 = addf x0 x1 := by
  unfold k8_pay1
  rw [shapeCast_self, shapeCast_self]

/-! ## The grid and the index maps, at ANY admitted contents of the two tables -/

/-- The grid has one axis: the point's one coordinate is the point. -/
theorem coords8v (a : (pcfg8 (F := F)).Adm) (t : Fin (cfg8 a).N) : (((cfg8 a).grid.coords t) 0).val = t.val := by
  have ht : t.val < 32768 := t.isLt
  show t.val / 1 % 32768 = t.val
  omega

/-- The one element of a table that the one-word rectangle at offset `off` holds is the table's position `off`. -/
theorem tpos8 (off : Nat) (inb : ∀ a, (![off] : Fin 1 → Nat) a + S1.size a ≤ S32768.size a) (h : 0 < S1.numel)
    (n : Fin 32768) (hoff : off = n.val) :
    (Rect.unit (s := S32768) ![off] S1.size inb).emb (Shape.Idx.first h) = ValueIdx.ix1 n := by
  funext a
  apply Fin.ext
  match a with
  | ⟨0, _⟩ => show off + 1 * 0 = n.val; omega

/-- A grid coordinate below 2^32 survives the round trip through a 32-bit word. -/
theorem word8v (i : grid8.Coords) (n : Nat) (hn : (i 0).val = n) (hlt : n < 32768) : (BitVec.ofNat 32 (i 0).val).toNat = n := by
  rw [BitVec.toNat_ofNat, hn]
  omega

/-- An input window's index map at grid coordinate `n`: the row number table `k` holds at position `n`, then 0, 0. -/
theorem tf8_0 (hinb : ∀ i : grid8.Coords, ∀ a, (k8_off1 i) a + S1.size a ≤ S32768.size a) (hnum : S1.numel = 1)
    (pf : pre8.Contents (Elt F)) (i : grid8.Coords) (n : Fin 32768) (hn : (i 0).val = n.val) :
    cc8_transform_0 hinb hnum pf i (0 : Fin 3) = (pf 0 (ValueIdx.ix1 n) : BitVec 32).toNat
      ∧ cc8_transform_0 hinb hnum pf i (1 : Fin 3) = 0 ∧ cc8_transform_0 hinb hnum pf i (2 : Fin 3) = 0 :=
  ⟨congrArg (fun k : S32768.Idx => (pf 0 k : BitVec 32).toNat)
      (tpos8 (BitVec.ofNat 32 (i 0).val).toNat (hinb i) (hnum.symm ▸ Nat.one_pos) n (word8v i n.val hn n.isLt)), rfl, rfl⟩
theorem tf8_1 (hinb : ∀ i : grid8.Coords, ∀ a, (k8_off1 i) a + S1.size a ≤ S32768.size a) (hnum : S1.numel = 1)
    (pf : pre8.Contents (Elt F)) (i : grid8.Coords) (n : Fin 32768) (hn : (i 0).val = n.val) :
    cc8_transform_1 hinb hnum pf i (0 : Fin 3) = (pf 1 (ValueIdx.ix1 n) : BitVec 32).toNat
      ∧ cc8_transform_1 hinb hnum pf i (1 : Fin 3) = 0 ∧ cc8_transform_1 hinb hnum pf i (2 : Fin 3) = 0 :=
  ⟨congrArg (fun k : S32768.Idx => (pf 1 k : BitVec 32).toNat)
      (tpos8 (BitVec.ofNat 32 (i 0).val).toNat (hinb i) (hnum.symm ▸ Nat.one_pos) n (word8v i n.val hn n.isLt)), rfl, rfl⟩
/-- The output window's index map: the grid coordinate, then 0, 0. -/
theorem tf8_2 (i : grid8.Coords) (n : Nat) (hn : (i 0).val = n) (hlt : n < 32768) :
    cc8_transform_2 i (0 : Fin 3) = n ∧ cc8_transform_2 i (1 : Fin 3) = 0 ∧ cc8_transform_2 i (2 : Fin 3) = 0 :=
  ⟨word8v i n hn hlt, rfl, rfl⟩

/-- The three windows' block indices at point `t`, the tables' contents `pf` a variable: input window `k` sits at the row
    table `k` names for `t`; the output window at row `t`. -/
theorem index8_0 (a : (pcfg8 (F := F)).Adm) (pf : pre8.Contents (Elt F)) (hpf : a.1 = pf) (t : Fin (cfg8 a).N)
    (n : Fin 32768) (hn : t.val = n.val) :
    ((cfg8 a).win 0).index t (0 : Fin 3) = (pf 0 (ValueIdx.ix1 n) : BitVec 32).toNat
      ∧ ((cfg8 a).win 0).index t (1 : Fin 3) = 0 ∧ ((cfg8 a).win 0).index t (2 : Fin 3) = 0 := by
  subst hpf
  exact tf8_0 _ _ a.1 ((cfg8 a).grid.coords t) n ((coords8v a t).trans hn)
theorem index8_1 (a : (pcfg8 (F := F)).Adm) (pf : pre8.Contents (Elt F)) (hpf : a.1 = pf) (t : Fin (cfg8 a).N)
    (n : Fin 32768) (hn : t.val = n.val) :
    ((cfg8 a).win 1).index t (0 : Fin 3) = (pf 1 (ValueIdx.ix1 n) : BitVec 32).toNat
      ∧ ((cfg8 a).win 1).index t (1 : Fin 3) = 0 ∧ ((cfg8 a).win 1).index t (2 : Fin 3) = 0 := by
  subst hpf
  exact tf8_1 _ _ a.1 ((cfg8 a).grid.coords t) n ((coords8v a t).trans hn)
theorem index8_2 (a : (pcfg8 (F := F)).Adm) (t : Fin (cfg8 a).N) :
    ((cfg8 a).win 2).index t (0 : Fin 3) = t.val
      ∧ ((cfg8 a).win 2).index t (1 : Fin 3) = 0 ∧ ((cfg8 a).win 2).index t (2 : Fin 3) = 0 :=
  tf8_2 ((cfg8 a).grid.coords t) t.val (coords8v a t) t.isLt

/-- The output window is written back at every point: its block index, the point, changes at every step. -/
theorem flush8_2 (a : (pcfg8 (F := F)).Adm) (t : Fin (cfg8 a).N) : ((cfg8 a).win 2).flush t = true := by
  have ht : t.val < 32768 := t.isLt
  rw [Window.flush_out _ rfl]
  by_cases h : t.val + 1 = 32768
  · exact Or.inl h
  · have h' : t.val + 1 < 32768 := by omega
    refine Or.inr ⟨h', fun e => ?_⟩
    have e1 : ((cfg8 a).win 2).index ⟨t.val + 1, h'⟩ (0 : Fin 3) = t.val + 1 := (index8_2 a ⟨t.val + 1, h'⟩).1
    have e2 : ((cfg8 a).win 2).index t (0 : Fin 3) = t.val := (index8_2 a t).1
    have e0 : ((cfg8 a).win 2).index ⟨t.val + 1, h'⟩ (0 : Fin 3) = ((cfg8 a).win 2).index t (0 : Fin 3) := congrFun e (0 : Fin 3)
    rw [e1, e2] at e0
    omega

/-! ## From the blocks to the array -/

section
variable (V : (c : Dev nD) → (b : Ref sig .tc) → Buf (Elt F) ((c : Thread nD τ).loc b))

set_option backward.isDefEq.respectTransparency.types false in
/-- WHAT POINT `t` WRITES BACK is block `t` of the gather of the array and the two tables as the region finds them. -/
theorem flushed8_2 (hO : Ok8 V) (c : Dev nD) (t : Fin (cfgM8 V hO).N) :
    (dat8 V hO c).flushed 2 t
      = (((cfgM8 V hO).win 2).blk t).view.read (Elt F) (GB (V c main_v1) (tbl8 V 0) (tbl8 V 1)) := by
  show ((cfgM8 V hO).win 2).cut ((cfgM8 V hO).grid.coords t) ((dat8 V hO c).after 2 t) = _
  rw [after8_2]
  unfold out8_2
  rw [View.canon_unit_zero hz8v]
  simp only [View.ld_unit_zero (S := S1x1x128) hz8v]
  rw [pay8_eq]
  have ht : t.val < 32768 := t.isLt
  obtain ⟨a0, a1, a2⟩ := index8_0 (adm8 V hO) (tbl8 V) rfl t ⟨t.val, ht⟩ rfl
  obtain ⟨b0, b1, b2⟩ := index8_1 (adm8 V hO) (tbl8 V) rfl t ⟨t.val, ht⟩ rfl
  obtain ⟨c0, c1, c2⟩ := index8_2 (adm8 V hO) t
  funext j
  have hj0 : (j (0 : Fin 3)).val = 0 := by have h : (j (0 : Fin 3)).val < 1 := (j (0 : Fin 3)).isLt; omega
  show FloatOps.addf (V c main_v1 ((((cfgM8 V hO).win 0).blk t).view.emb j)) (V c main_v1 ((((cfgM8 V hO).win 1).blk t).view.emb j))
    = GB (V c main_v1) (tbl8 V 0) (tbl8 V 1) ((((cfgM8 V hO).win 2).blk t).view.emb j)
  refine (GB_eq (V c main_v1) (tbl8 V 0) (tbl8 V 1) ((((cfgM8 V hO).win 2).blk t).view.emb j) ⟨t.val, ht⟩ ?_
    ((((cfgM8 V hO).win 0).blk t).view.emb j) ((((cfgM8 V hO).win 1).blk t).view.emb j) ?_ ?_ ?_ ?_).symm
  · show ((cfgM8 V hO).win 2).index t (0 : Fin 3) * 1 + 1 * (j (0 : Fin 3)).val = t.val
    rw [c0, hj0]; omega
  · show ((cfgM8 V hO).win 0).index t (0 : Fin 3) * 1 + 1 * (j (0 : Fin 3)).val = _
    rw [a0, hj0, Nat.mul_one, Nat.mul_zero, Nat.add_zero]
  · show ((cfgM8 V hO).win 0).index t (2 : Fin 3) * 128 + 1 * (j (2 : Fin 3)).val = ((cfgM8 V hO).win 2).index t (2 : Fin 3) * 128 + 1 * (j (2 : Fin 3)).val
    rw [a2, c2]
  · show ((cfgM8 V hO).win 1).index t (0 : Fin 3) * 1 + 1 * (j (0 : Fin 3)).val = _
    rw [b0, hj0, Nat.mul_one, Nat.mul_zero, Nat.add_zero]
  · show ((cfgM8 V hO).win 1).index t (2 : Fin 3) * 128 + 1 * (j (2 : Fin 3)).val = ((cfgM8 V hO).win 2).index t (2 : Fin 3) * 128 + 1 * (j (2 : Fin 3)).val
    rw [b2, c2]

set_option backward.isDefEq.respectTransparency.types false in
/-- An index of the output array is in point `t`'s block iff each coordinate is in the block's range on its axis. -/
theorem mem_blk8_2 (hO : Ok8 V) (t : Fin (cfgM8 V hO).N) (i : (⟨3, ![32768, 1, 128]⟩ : Shape).Idx) :
    i ∈ (((cfgM8 V hO).win 2).blk t).view.set ↔ ∀ a : Fin 3, ((cfgM8 V hO).win 2).index t a * S1x1x128.size a ≤ (i a).val
      ∧ (i a).val < ((cfgM8 V hO).win 2).index t a * S1x1x128.size a + S1x1x128.size a := by
  show i ∈ ((View.whole main_v52).slice (((cfgM8 V hO).win 2).rect t)).set ↔ _
  rw [View.set_slice_whole]
  exact Rect.mem_set_unit

/-- The output's blocks tile its array: row `j` is the block of point `j`. -/
theorem cover8v (hO : Ok8 V) (i : (⟨3, ![32768, 1, 128]⟩ : Shape).Idx) :
    ∃ t : Fin (cfgM8 V hO).N, ((cfgM8 V hO).win 2).flush t = true ∧ i ∈ (((cfgM8 V hO).win 2).blk t).view.set := by
  have h0 : (i 0).val < 32768 := (i 0).isLt
  have h1 : (i 1).val < 1 := (i 1).isLt
  have h2 : (i 2).val < 128 := (i 2).isLt
  refine ⟨⟨(i 0).val, h0⟩, flush8_2 (adm8 V hO) _, ?_⟩
  obtain ⟨c0, c1, c2⟩ := index8_2 (adm8 V hO) ⟨(i 0).val, h0⟩
  rw [mem_blk8_2]
  intro a
  match a with
  | ⟨0, _⟩ => show ((cfgM8 V hO).win 2).index ⟨(i 0).val, h0⟩ (0 : Fin 3) * 1 ≤ (i 0).val ∧ (i 0).val < ((cfgM8 V hO).win 2).index ⟨(i 0).val, h0⟩ (0 : Fin 3) * 1 + 1; rw [c0]; show (i 0).val * 1 ≤ (i 0).val ∧ (i 0).val < (i 0).val * 1 + 1; omega
  | ⟨1, _⟩ => show ((cfgM8 V hO).win 2).index ⟨(i 0).val, h0⟩ (1 : Fin 3) * 1 ≤ (i 1).val ∧ (i 1).val < ((cfgM8 V hO).win 2).index ⟨(i 0).val, h0⟩ (1 : Fin 3) * 1 + 1; rw [c1]; omega
  | ⟨2, _⟩ => show ((cfgM8 V hO).win 2).index ⟨(i 0).val, h0⟩ (2 : Fin 3) * 128 ≤ (i 2).val ∧ (i 2).val < ((cfgM8 V hO).win 2).index ⟨(i 0).val, h0⟩ (2 : Fin 3) * 128 + 128; rw [c2]; omega

/-- THE OUTPUT ARRAY after the region: the gather of the array and the two tables as the region finds them. -/
theorem arrAt8_2 (hO : Ok8 V) (c : Dev nD) :
    (dat8 V hO c).arrAt 2 (cfgM8 V hO).N = GB (V c main_v1) (tbl8 V 0) (tbl8 V 1) :=
  (dat8 V hO c).arrAt_eq_of_cover 2 (GB (V c main_v1) (tbl8 V 0) (tbl8 V 1)) (fun t _ => flushed8_2 V hO c t) (cover8v V hO)
end

end Cert.KernelIdeal.GenP

end
-- ==== Proof.KernelIdeal.RB9Val.lean ====
/- The value of a row-gather region's output array after the region: each of its rows the sum of the two rows of the
   gathered array that the region's two tables name. -/
import proofs.«175043_j76819785056407_2_alg».proof.Proof.KernelIdeal.RB9
import proofs.«175043_j76819785056407_2_alg».proof.Proof.KernelIdeal.GatherSpec
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

theorem hz9v : (![0, 0, 0] : Fin 3 → Nat) = fun _ => 0 := funext fun a => by fin_cases a <;> rfl

/-- The body's payload: the two loaded rows added lane by lane (the two re-shapes are the identity). -/
theorem pay9_eq (x0 x1 : Vec F S1x1x128 .f32) : k9_pay1 x0 x1 = addf x0 x1 := by
  unfold k9_pay1
  rw [shapeCast_self, shapeCast_self]

/-! ## The grid and the index maps, at ANY admitted contents of the two tables -/

/-- The grid has one axis: the point's one coordinate is the point. -/
theorem coords9v (a : (pcfg9 (F := F)).Adm) (t : Fin (cfg9 a).N) : (((cfg9 a).grid.coords t) 0).val = t.val := by
  have ht : t.val < 32768 := t.isLt
  show t.val / 1 % 32768 = t.val
  omega

/-- The one element of a table that the one-word rectangle at offset `off` holds is the table's position `off`. -/
theorem tpos9 (off : Nat) (inb : ∀ a, (![off] : Fin 1 → Nat) a + S1.size a ≤ S32768.size a) (h : 0 < S1.numel)
    (n : Fin 32768) (hoff : off = n.val) :
    (Rect.unit (s := S32768) ![off] S1.size inb).emb (Shape.Idx.first h) = ValueIdx.ix1 n := by
  funext a
  apply Fin.ext
  match a with
  | ⟨0, _⟩ => show off + 1 * 0 = n.val; omega

/-- A grid coordinate below 2^32 survives the round trip through a 32-bit word. -/
theorem word9v (i : grid9.Coords) (n : Nat) (hn : (i 0).val = n) (hlt : n < 32768) : (BitVec.ofNat 32 (i 0).val).toNat = n := by
  rw [BitVec.toNat_ofNat, hn]
  omega

/-- An input window's index map at grid coordinate `n`: the row number table `k` holds at position `n`, then 0, 0. -/
theorem tf9_0 (hinb : ∀ i : grid9.Coords, ∀ a, (k9_off1 i) a + S1.size a ≤ S32768.size a) (hnum : S1.numel = 1)
    (pf : pre9.Contents (Elt F)) (i : grid9.Coords) (n : Fin 32768) (hn : (i 0).val = n.val) :
    cc9_transform_0 hinb hnum pf i (0 : Fin 3) = (pf 0 (ValueIdx.ix1 n) : BitVec 32).toNat
      ∧ cc9_transform_0 hinb hnum pf i (1 : Fin 3) = 0 ∧ cc9_transform_0 hinb hnum pf i (2 : Fin 3) = 0 :=
  ⟨congrArg (fun k : S32768.Idx => (pf 0 k : BitVec 32).toNat)
      (tpos9 (BitVec.ofNat 32 (i 0).val).toNat (hinb i) (hnum.symm ▸ Nat.one_pos) n (word9v i n.val hn n.isLt)), rfl, rfl⟩
theorem tf9_1 (hinb : ∀ i : grid9.Coords, ∀ a, (k9_off1 i) a + S1.size a ≤ S32768.size a) (hnum : S1.numel = 1)
    (pf : pre9.Contents (Elt F)) (i : grid9.Coords) (n : Fin 32768) (hn : (i 0).val = n.val) :
    cc9_transform_1 hinb hnum pf i (0 : Fin 3) = (pf 1 (ValueIdx.ix1 n) : BitVec 32).toNat
      ∧ cc9_transform_1 hinb hnum pf i (1 : Fin 3) = 0 ∧ cc9_transform_1 hinb hnum pf i (2 : Fin 3) = 0 :=
  ⟨congrArg (fun k : S32768.Idx => (pf 1 k : BitVec 32).toNat)
      (tpos9 (BitVec.ofNat 32 (i 0).val).toNat (hinb i) (hnum.symm ▸ Nat.one_pos) n (word9v i n.val hn n.isLt)), rfl, rfl⟩
/-- The output window's index map: the grid coordinate, then 0, 0. -/
theorem tf9_2 (i : grid9.Coords) (n : Nat) (hn : (i 0).val = n) (hlt : n < 32768) :
    cc9_transform_2 i (0 : Fin 3) = n ∧ cc9_transform_2 i (1 : Fin 3) = 0 ∧ cc9_transform_2 i (2 : Fin 3) = 0 :=
  ⟨word9v i n hn hlt, rfl, rfl⟩

/-- The three windows' block indices at point `t`, the tables' contents `pf` a variable: input window `k` sits at the row
    table `k` names for `t`; the output window at row `t`. -/
theorem index9_0 (a : (pcfg9 (F := F)).Adm) (pf : pre9.Contents (Elt F)) (hpf : a.1 = pf) (t : Fin (cfg9 a).N)
    (n : Fin 32768) (hn : t.val = n.val) :
    ((cfg9 a).win 0).index t (0 : Fin 3) = (pf 0 (ValueIdx.ix1 n) : BitVec 32).toNat
      ∧ ((cfg9 a).win 0).index t (1 : Fin 3) = 0 ∧ ((cfg9 a).win 0).index t (2 : Fin 3) = 0 := by
  subst hpf
  exact tf9_0 _ _ a.1 ((cfg9 a).grid.coords t) n ((coords9v a t).trans hn)
theorem index9_1 (a : (pcfg9 (F := F)).Adm) (pf : pre9.Contents (Elt F)) (hpf : a.1 = pf) (t : Fin (cfg9 a).N)
    (n : Fin 32768) (hn : t.val = n.val) :
    ((cfg9 a).win 1).index t (0 : Fin 3) = (pf 1 (ValueIdx.ix1 n) : BitVec 32).toNat
      ∧ ((cfg9 a).win 1).index t (1 : Fin 3) = 0 ∧ ((cfg9 a).win 1).index t (2 : Fin 3) = 0 := by
  subst hpf
  exact tf9_1 _ _ a.1 ((cfg9 a).grid.coords t) n ((coords9v a t).trans hn)
theorem index9_2 (a : (pcfg9 (F := F)).Adm) (t : Fin (cfg9 a).N) :
    ((cfg9 a).win 2).index t (0 : Fin 3) = t.val
      ∧ ((cfg9 a).win 2).index t (1 : Fin 3) = 0 ∧ ((cfg9 a).win 2).index t (2 : Fin 3) = 0 :=
  tf9_2 ((cfg9 a).grid.coords t) t.val (coords9v a t) t.isLt

/-- The output window is written back at every point: its block index, the point, changes at every step. -/
theorem flush9_2 (a : (pcfg9 (F := F)).Adm) (t : Fin (cfg9 a).N) : ((cfg9 a).win 2).flush t = true := by
  have ht : t.val < 32768 := t.isLt
  rw [Window.flush_out _ rfl]
  by_cases h : t.val + 1 = 32768
  · exact Or.inl h
  · have h' : t.val + 1 < 32768 := by omega
    refine Or.inr ⟨h', fun e => ?_⟩
    have e1 : ((cfg9 a).win 2).index ⟨t.val + 1, h'⟩ (0 : Fin 3) = t.val + 1 := (index9_2 a ⟨t.val + 1, h'⟩).1
    have e2 : ((cfg9 a).win 2).index t (0 : Fin 3) = t.val := (index9_2 a t).1
    have e0 : ((cfg9 a).win 2).index ⟨t.val + 1, h'⟩ (0 : Fin 3) = ((cfg9 a).win 2).index t (0 : Fin 3) := congrFun e (0 : Fin 3)
    rw [e1, e2] at e0
    omega

/-! ## From the blocks to the array -/

section
variable (V : (c : Dev nD) → (b : Ref sig .tc) → Buf (Elt F) ((c : Thread nD τ).loc b))

set_option backward.isDefEq.respectTransparency.types false in
/-- WHAT POINT `t` WRITES BACK is block `t` of the gather of the array and the two tables as the region finds them. -/
theorem flushed9_2 (hO : Ok9 V) (c : Dev nD) (t : Fin (cfgM9 V hO).N) :
    (dat9 V hO c).flushed 2 t
      = (((cfgM9 V hO).win 2).blk t).view.read (Elt F) (GB (V c main_v1) (tbl9 V 0) (tbl9 V 1)) := by
  show ((cfgM9 V hO).win 2).cut ((cfgM9 V hO).grid.coords t) ((dat9 V hO c).after 2 t) = _
  rw [after9_2]
  unfold out9_2
  rw [View.canon_unit_zero hz9v]
  simp only [View.ld_unit_zero (S := S1x1x128) hz9v]
  rw [pay9_eq]
  have ht : t.val < 32768 := t.isLt
  obtain ⟨a0, a1, a2⟩ := index9_0 (adm9 V hO) (tbl9 V) rfl t ⟨t.val, ht⟩ rfl
  obtain ⟨b0, b1, b2⟩ := index9_1 (adm9 V hO) (tbl9 V) rfl t ⟨t.val, ht⟩ rfl
  obtain ⟨c0, c1, c2⟩ := index9_2 (adm9 V hO) t
  funext j
  have hj0 : (j (0 : Fin 3)).val = 0 := by have h : (j (0 : Fin 3)).val < 1 := (j (0 : Fin 3)).isLt; omega
  show FloatOps.addf (V c main_v1 ((((cfgM9 V hO).win 0).blk t).view.emb j)) (V c main_v1 ((((cfgM9 V hO).win 1).blk t).view.emb j))
    = GB (V c main_v1) (tbl9 V 0) (tbl9 V 1) ((((cfgM9 V hO).win 2).blk t).view.emb j)
  refine (GB_eq (V c main_v1) (tbl9 V 0) (tbl9 V 1) ((((cfgM9 V hO).win 2).blk t).view.emb j) ⟨t.val, ht⟩ ?_
    ((((cfgM9 V hO).win 0).blk t).view.emb j) ((((cfgM9 V hO).win 1).blk t).view.emb j) ?_ ?_ ?_ ?_).symm
  · show ((cfgM9 V hO).win 2).index t (0 : Fin 3) * 1 + 1 * (j (0 : Fin 3)).val = t.val
    rw [c0, hj0]; omega
  · show ((cfgM9 V hO).win 0).index t (0 : Fin 3) * 1 + 1 * (j (0 : Fin 3)).val = _
    rw [a0, hj0, Nat.mul_one, Nat.mul_zero, Nat.add_zero]
  · show ((cfgM9 V hO).win 0).index t (2 : Fin 3) * 128 + 1 * (j (2 : Fin 3)).val = ((cfgM9 V hO).win 2).index t (2 : Fin 3) * 128 + 1 * (j (2 : Fin 3)).val
    rw [a2, c2]
  · show ((cfgM9 V hO).win 1).index t (0 : Fin 3) * 1 + 1 * (j (0 : Fin 3)).val = _
    rw [b0, hj0, Nat.mul_one, Nat.mul_zero, Nat.add_zero]
  · show ((cfgM9 V hO).win 1).index t (2 : Fin 3) * 128 + 1 * (j (2 : Fin 3)).val = ((cfgM9 V hO).win 2).index t (2 : Fin 3) * 128 + 1 * (j (2 : Fin 3)).val
    rw [b2, c2]

set_option backward.isDefEq.respectTransparency.types false in
/-- An index of the output array is in point `t`'s block iff each coordinate is in the block's range on its axis. -/
theorem mem_blk9_2 (hO : Ok9 V) (t : Fin (cfgM9 V hO).N) (i : (⟨3, ![32768, 1, 128]⟩ : Shape).Idx) :
    i ∈ (((cfgM9 V hO).win 2).blk t).view.set ↔ ∀ a : Fin 3, ((cfgM9 V hO).win 2).index t a * S1x1x128.size a ≤ (i a).val
      ∧ (i a).val < ((cfgM9 V hO).win 2).index t a * S1x1x128.size a + S1x1x128.size a := by
  show i ∈ ((View.whole main_v56).slice (((cfgM9 V hO).win 2).rect t)).set ↔ _
  rw [View.set_slice_whole]
  exact Rect.mem_set_unit

/-- The output's blocks tile its array: row `j` is the block of point `j`. -/
theorem cover9v (hO : Ok9 V) (i : (⟨3, ![32768, 1, 128]⟩ : Shape).Idx) :
    ∃ t : Fin (cfgM9 V hO).N, ((cfgM9 V hO).win 2).flush t = true ∧ i ∈ (((cfgM9 V hO).win 2).blk t).view.set := by
  have h0 : (i 0).val < 32768 := (i 0).isLt
  have h1 : (i 1).val < 1 := (i 1).isLt
  have h2 : (i 2).val < 128 := (i 2).isLt
  refine ⟨⟨(i 0).val, h0⟩, flush9_2 (adm9 V hO) _, ?_⟩
  obtain ⟨c0, c1, c2⟩ := index9_2 (adm9 V hO) ⟨(i 0).val, h0⟩
  rw [mem_blk9_2]
  intro a
  match a with
  | ⟨0, _⟩ => show ((cfgM9 V hO).win 2).index ⟨(i 0).val, h0⟩ (0 : Fin 3) * 1 ≤ (i 0).val ∧ (i 0).val < ((cfgM9 V hO).win 2).index ⟨(i 0).val, h0⟩ (0 : Fin 3) * 1 + 1; rw [c0]; show (i 0).val * 1 ≤ (i 0).val ∧ (i 0).val < (i 0).val * 1 + 1; omega
  | ⟨1, _⟩ => show ((cfgM9 V hO).win 2).index ⟨(i 0).val, h0⟩ (1 : Fin 3) * 1 ≤ (i 1).val ∧ (i 1).val < ((cfgM9 V hO).win 2).index ⟨(i 0).val, h0⟩ (1 : Fin 3) * 1 + 1; rw [c1]; omega
  | ⟨2, _⟩ => show ((cfgM9 V hO).win 2).index ⟨(i 0).val, h0⟩ (2 : Fin 3) * 128 ≤ (i 2).val ∧ (i 2).val < ((cfgM9 V hO).win 2).index ⟨(i 0).val, h0⟩ (2 : Fin 3) * 128 + 128; rw [c2]; omega

/-- THE OUTPUT ARRAY after the region: the gather of the array and the two tables as the region finds them. -/
theorem arrAt9_2 (hO : Ok9 V) (c : Dev nD) :
    (dat9 V hO c).arrAt 2 (cfgM9 V hO).N = GB (V c main_v1) (tbl9 V 0) (tbl9 V 1) :=
  (dat9 V hO c).arrAt_eq_of_cover 2 (GB (V c main_v1) (tbl9 V 0) (tbl9 V 1)) (fun t _ => flushed9_2 V hO c t) (cover9v V hO)
end

end Cert.KernelIdeal.GenP

end
-- ==== Proof.KernelIdeal.RB10Val.lean ====
/- The value of a row-gather region's output array after the region: each of its rows the sum of the two rows of the
   gathered array that the region's two tables name. -/
import proofs.«175043_j76819785056407_2_alg».proof.Proof.KernelIdeal.RB10
import proofs.«175043_j76819785056407_2_alg».proof.Proof.KernelIdeal.GatherSpec
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

theorem hz10v : (![0, 0, 0] : Fin 3 → Nat) = fun _ => 0 := funext fun a => by fin_cases a <;> rfl

/-- The body's payload: the two loaded rows added lane by lane (the two re-shapes are the identity). -/
theorem pay10_eq (x0 x1 : Vec F S1x1x128 .f32) : k10_pay1 x0 x1 = addf x0 x1 := by
  unfold k10_pay1
  rw [shapeCast_self, shapeCast_self]

/-! ## The grid and the index maps, at ANY admitted contents of the two tables -/

/-- The grid has one axis: the point's one coordinate is the point. -/
theorem coords10v (a : (pcfg10 (F := F)).Adm) (t : Fin (cfg10 a).N) : (((cfg10 a).grid.coords t) 0).val = t.val := by
  have ht : t.val < 32768 := t.isLt
  show t.val / 1 % 32768 = t.val
  omega

/-- The one element of a table that the one-word rectangle at offset `off` holds is the table's position `off`. -/
theorem tpos10 (off : Nat) (inb : ∀ a, (![off] : Fin 1 → Nat) a + S1.size a ≤ S32768.size a) (h : 0 < S1.numel)
    (n : Fin 32768) (hoff : off = n.val) :
    (Rect.unit (s := S32768) ![off] S1.size inb).emb (Shape.Idx.first h) = ValueIdx.ix1 n := by
  funext a
  apply Fin.ext
  match a with
  | ⟨0, _⟩ => show off + 1 * 0 = n.val; omega

/-- A grid coordinate below 2^32 survives the round trip through a 32-bit word. -/
theorem word10v (i : grid10.Coords) (n : Nat) (hn : (i 0).val = n) (hlt : n < 32768) : (BitVec.ofNat 32 (i 0).val).toNat = n := by
  rw [BitVec.toNat_ofNat, hn]
  omega

/-- An input window's index map at grid coordinate `n`: the row number table `k` holds at position `n`, then 0, 0. -/
theorem tf10_0 (hinb : ∀ i : grid10.Coords, ∀ a, (k10_off1 i) a + S1.size a ≤ S32768.size a) (hnum : S1.numel = 1)
    (pf : pre10.Contents (Elt F)) (i : grid10.Coords) (n : Fin 32768) (hn : (i 0).val = n.val) :
    cc10_transform_0 hinb hnum pf i (0 : Fin 3) = (pf 0 (ValueIdx.ix1 n) : BitVec 32).toNat
      ∧ cc10_transform_0 hinb hnum pf i (1 : Fin 3) = 0 ∧ cc10_transform_0 hinb hnum pf i (2 : Fin 3) = 0 :=
  ⟨congrArg (fun k : S32768.Idx => (pf 0 k : BitVec 32).toNat)
      (tpos10 (BitVec.ofNat 32 (i 0).val).toNat (hinb i) (hnum.symm ▸ Nat.one_pos) n (word10v i n.val hn n.isLt)), rfl, rfl⟩
theorem tf10_1 (hinb : ∀ i : grid10.Coords, ∀ a, (k10_off1 i) a + S1.size a ≤ S32768.size a) (hnum : S1.numel = 1)
    (pf : pre10.Contents (Elt F)) (i : grid10.Coords) (n : Fin 32768) (hn : (i 0).val = n.val) :
    cc10_transform_1 hinb hnum pf i (0 : Fin 3) = (pf 1 (ValueIdx.ix1 n) : BitVec 32).toNat
      ∧ cc10_transform_1 hinb hnum pf i (1 : Fin 3) = 0 ∧ cc10_transform_1 hinb hnum pf i (2 : Fin 3) = 0 :=
  ⟨congrArg (fun k : S32768.Idx => (pf 1 k : BitVec 32).toNat)
      (tpos10 (BitVec.ofNat 32 (i 0).val).toNat (hinb i) (hnum.symm ▸ Nat.one_pos) n (word10v i n.val hn n.isLt)), rfl, rfl⟩
/-- The output window's index map: the grid coordinate, then 0, 0. -/
theorem tf10_2 (i : grid10.Coords) (n : Nat) (hn : (i 0).val = n) (hlt : n < 32768) :
    cc10_transform_2 i (0 : Fin 3) = n ∧ cc10_transform_2 i (1 : Fin 3) = 0 ∧ cc10_transform_2 i (2 : Fin 3) = 0 :=
  ⟨word10v i n hn hlt, rfl, rfl⟩

/-- The three windows' block indices at point `t`, the tables' contents `pf` a variable: input window `k` sits at the row
    table `k` names for `t`; the output window at row `t`. -/
theorem index10_0 (a : (pcfg10 (F := F)).Adm) (pf : pre10.Contents (Elt F)) (hpf : a.1 = pf) (t : Fin (cfg10 a).N)
    (n : Fin 32768) (hn : t.val = n.val) :
    ((cfg10 a).win 0).index t (0 : Fin 3) = (pf 0 (ValueIdx.ix1 n) : BitVec 32).toNat
      ∧ ((cfg10 a).win 0).index t (1 : Fin 3) = 0 ∧ ((cfg10 a).win 0).index t (2 : Fin 3) = 0 := by
  subst hpf
  exact tf10_0 _ _ a.1 ((cfg10 a).grid.coords t) n ((coords10v a t).trans hn)
theorem index10_1 (a : (pcfg10 (F := F)).Adm) (pf : pre10.Contents (Elt F)) (hpf : a.1 = pf) (t : Fin (cfg10 a).N)
    (n : Fin 32768) (hn : t.val = n.val) :
    ((cfg10 a).win 1).index t (0 : Fin 3) = (pf 1 (ValueIdx.ix1 n) : BitVec 32).toNat
      ∧ ((cfg10 a).win 1).index t (1 : Fin 3) = 0 ∧ ((cfg10 a).win 1).index t (2 : Fin 3) = 0 := by
  subst hpf
  exact tf10_1 _ _ a.1 ((cfg10 a).grid.coords t) n ((coords10v a t).trans hn)
theorem index10_2 (a : (pcfg10 (F := F)).Adm) (t : Fin (cfg10 a).N) :
    ((cfg10 a).win 2).index t (0 : Fin 3) = t.val
      ∧ ((cfg10 a).win 2).index t (1 : Fin 3) = 0 ∧ ((cfg10 a).win 2).index t (2 : Fin 3) = 0 :=
  tf10_2 ((cfg10 a).grid.coords t) t.val (coords10v a t) t.isLt

/-- The output window is written back at every point: its block index, the point, changes at every step. -/
theorem flush10_2 (a : (pcfg10 (F := F)).Adm) (t : Fin (cfg10 a).N) : ((cfg10 a).win 2).flush t = true := by
  have ht : t.val < 32768 := t.isLt
  rw [Window.flush_out _ rfl]
  by_cases h : t.val + 1 = 32768
  · exact Or.inl h
  · have h' : t.val + 1 < 32768 := by omega
    refine Or.inr ⟨h', fun e => ?_⟩
    have e1 : ((cfg10 a).win 2).index ⟨t.val + 1, h'⟩ (0 : Fin 3) = t.val + 1 := (index10_2 a ⟨t.val + 1, h'⟩).1
    have e2 : ((cfg10 a).win 2).index t (0 : Fin 3) = t.val := (index10_2 a t).1
    have e0 : ((cfg10 a).win 2).index ⟨t.val + 1, h'⟩ (0 : Fin 3) = ((cfg10 a).win 2).index t (0 : Fin 3) := congrFun e (0 : Fin 3)
    rw [e1, e2] at e0
    omega

/-! ## From the blocks to the array -/

section
variable (V : (c : Dev nD) → (b : Ref sig .tc) → Buf (Elt F) ((c : Thread nD τ).loc b))

set_option backward.isDefEq.respectTransparency.types false in
/-- WHAT POINT `t` WRITES BACK is block `t` of the gather of the array and the two tables as the region finds them. -/
theorem flushed10_2 (hO : Ok10 V) (c : Dev nD) (t : Fin (cfgM10 V hO).N) :
    (dat10 V hO c).flushed 2 t
      = (((cfgM10 V hO).win 2).blk t).view.read (Elt F) (GB (V c main_v1) (tbl10 V 0) (tbl10 V 1)) := by
  show ((cfgM10 V hO).win 2).cut ((cfgM10 V hO).grid.coords t) ((dat10 V hO c).after 2 t) = _
  rw [after10_2]
  unfold out10_2
  rw [View.canon_unit_zero hz10v]
  simp only [View.ld_unit_zero (S := S1x1x128) hz10v]
  rw [pay10_eq]
  have ht : t.val < 32768 := t.isLt
  obtain ⟨a0, a1, a2⟩ := index10_0 (adm10 V hO) (tbl10 V) rfl t ⟨t.val, ht⟩ rfl
  obtain ⟨b0, b1, b2⟩ := index10_1 (adm10 V hO) (tbl10 V) rfl t ⟨t.val, ht⟩ rfl
  obtain ⟨c0, c1, c2⟩ := index10_2 (adm10 V hO) t
  funext j
  have hj0 : (j (0 : Fin 3)).val = 0 := by have h : (j (0 : Fin 3)).val < 1 := (j (0 : Fin 3)).isLt; omega
  show FloatOps.addf (V c main_v1 ((((cfgM10 V hO).win 0).blk t).view.emb j)) (V c main_v1 ((((cfgM10 V hO).win 1).blk t).view.emb j))
    = GB (V c main_v1) (tbl10 V 0) (tbl10 V 1) ((((cfgM10 V hO).win 2).blk t).view.emb j)
  refine (GB_eq (V c main_v1) (tbl10 V 0) (tbl10 V 1) ((((cfgM10 V hO).win 2).blk t).view.emb j) ⟨t.val, ht⟩ ?_
    ((((cfgM10 V hO).win 0).blk t).view.emb j) ((((cfgM10 V hO).win 1).blk t).view.emb j) ?_ ?_ ?_ ?_).symm
  · show ((cfgM10 V hO).win 2).index t (0 : Fin 3) * 1 + 1 * (j (0 : Fin 3)).val = t.val
    rw [c0, hj0]; omega
  · show ((cfgM10 V hO).win 0).index t (0 : Fin 3) * 1 + 1 * (j (0 : Fin 3)).val = _
    rw [a0, hj0, Nat.mul_one, Nat.mul_zero, Nat.add_zero]
  · show ((cfgM10 V hO).win 0).index t (2 : Fin 3) * 128 + 1 * (j (2 : Fin 3)).val = ((cfgM10 V hO).win 2).index t (2 : Fin 3) * 128 + 1 * (j (2 : Fin 3)).val
    rw [a2, c2]
  · show ((cfgM10 V hO).win 1).index t (0 : Fin 3) * 1 + 1 * (j (0 : Fin 3)).val = _
    rw [b0, hj0, Nat.mul_one, Nat.mul_zero, Nat.add_zero]
  · show ((cfgM10 V hO).win 1).index t (2 : Fin 3) * 128 + 1 * (j (2 : Fin 3)).val = ((cfgM10 V hO).win 2).index t (2 : Fin 3) * 128 + 1 * (j (2 : Fin 3)).val
    rw [b2, c2]

set_option backward.isDefEq.respectTransparency.types false in
/-- An index of the output array is in point `t`'s block iff each coordinate is in the block's range on its axis. -/
theorem mem_blk10_2 (hO : Ok10 V) (t : Fin (cfgM10 V hO).N) (i : (⟨3, ![32768, 1, 128]⟩ : Shape).Idx) :
    i ∈ (((cfgM10 V hO).win 2).blk t).view.set ↔ ∀ a : Fin 3, ((cfgM10 V hO).win 2).index t a * S1x1x128.size a ≤ (i a).val
      ∧ (i a).val < ((cfgM10 V hO).win 2).index t a * S1x1x128.size a + S1x1x128.size a := by
  show i ∈ ((View.whole main_v60).slice (((cfgM10 V hO).win 2).rect t)).set ↔ _
  rw [View.set_slice_whole]
  exact Rect.mem_set_unit

/-- The output's blocks tile its array: row `j` is the block of point `j`. -/
theorem cover10v (hO : Ok10 V) (i : (⟨3, ![32768, 1, 128]⟩ : Shape).Idx) :
    ∃ t : Fin (cfgM10 V hO).N, ((cfgM10 V hO).win 2).flush t = true ∧ i ∈ (((cfgM10 V hO).win 2).blk t).view.set := by
  have h0 : (i 0).val < 32768 := (i 0).isLt
  have h1 : (i 1).val < 1 := (i 1).isLt
  have h2 : (i 2).val < 128 := (i 2).isLt
  refine ⟨⟨(i 0).val, h0⟩, flush10_2 (adm10 V hO) _, ?_⟩
  obtain ⟨c0, c1, c2⟩ := index10_2 (adm10 V hO) ⟨(i 0).val, h0⟩
  rw [mem_blk10_2]
  intro a
  match a with
  | ⟨0, _⟩ => show ((cfgM10 V hO).win 2).index ⟨(i 0).val, h0⟩ (0 : Fin 3) * 1 ≤ (i 0).val ∧ (i 0).val < ((cfgM10 V hO).win 2).index ⟨(i 0).val, h0⟩ (0 : Fin 3) * 1 + 1; rw [c0]; show (i 0).val * 1 ≤ (i 0).val ∧ (i 0).val < (i 0).val * 1 + 1; omega
  | ⟨1, _⟩ => show ((cfgM10 V hO).win 2).index ⟨(i 0).val, h0⟩ (1 : Fin 3) * 1 ≤ (i 1).val ∧ (i 1).val < ((cfgM10 V hO).win 2).index ⟨(i 0).val, h0⟩ (1 : Fin 3) * 1 + 1; rw [c1]; omega
  | ⟨2, _⟩ => show ((cfgM10 V hO).win 2).index ⟨(i 0).val, h0⟩ (2 : Fin 3) * 128 ≤ (i 2).val ∧ (i 2).val < ((cfgM10 V hO).win 2).index ⟨(i 0).val, h0⟩ (2 : Fin 3) * 128 + 128; rw [c2]; omega

/-- THE OUTPUT ARRAY after the region: the gather of the array and the two tables as the region finds them. -/
theorem arrAt10_2 (hO : Ok10 V) (c : Dev nD) :
    (dat10 V hO c).arrAt 2 (cfgM10 V hO).N = GB (V c main_v1) (tbl10 V 0) (tbl10 V 1) :=
  (dat10 V hO c).arrAt_eq_of_cover 2 (GB (V c main_v1) (tbl10 V 0) (tbl10 V 1)) (fun t _ => flushed10_2 V hO c t) (cover10v V hO)
end

end Cert.KernelIdeal.GenP

end
-- ==== Proof.KernelIdeal.RB11Val.lean ====
/- The value of a row-gather region's output array after the region: each of its rows the sum of the two rows of the
   gathered array that the region's two tables name. -/
import proofs.«175043_j76819785056407_2_alg».proof.Proof.KernelIdeal.RB11
import proofs.«175043_j76819785056407_2_alg».proof.Proof.KernelIdeal.GatherSpec
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

theorem hz11v : (![0, 0, 0] : Fin 3 → Nat) = fun _ => 0 := funext fun a => by fin_cases a <;> rfl

/-- The body's payload: the two loaded rows added lane by lane (the two re-shapes are the identity). -/
theorem pay11_eq (x0 x1 : Vec F S1x1x128 .f32) : k11_pay1 x0 x1 = addf x0 x1 := by
  unfold k11_pay1
  rw [shapeCast_self, shapeCast_self]

/-! ## The grid and the index maps, at ANY admitted contents of the two tables -/

/-- The grid has one axis: the point's one coordinate is the point. -/
theorem coords11v (a : (pcfg11 (F := F)).Adm) (t : Fin (cfg11 a).N) : (((cfg11 a).grid.coords t) 0).val = t.val := by
  have ht : t.val < 32768 := t.isLt
  show t.val / 1 % 32768 = t.val
  omega

/-- The one element of a table that the one-word rectangle at offset `off` holds is the table's position `off`. -/
theorem tpos11 (off : Nat) (inb : ∀ a, (![off] : Fin 1 → Nat) a + S1.size a ≤ S32768.size a) (h : 0 < S1.numel)
    (n : Fin 32768) (hoff : off = n.val) :
    (Rect.unit (s := S32768) ![off] S1.size inb).emb (Shape.Idx.first h) = ValueIdx.ix1 n := by
  funext a
  apply Fin.ext
  match a with
  | ⟨0, _⟩ => show off + 1 * 0 = n.val; omega

/-- A grid coordinate below 2^32 survives the round trip through a 32-bit word. -/
theorem word11v (i : grid11.Coords) (n : Nat) (hn : (i 0).val = n) (hlt : n < 32768) : (BitVec.ofNat 32 (i 0).val).toNat = n := by
  rw [BitVec.toNat_ofNat, hn]
  omega

/-- An input window's index map at grid coordinate `n`: the row number table `k` holds at position `n`, then 0, 0. -/
theorem tf11_0 (hinb : ∀ i : grid11.Coords, ∀ a, (k11_off1 i) a + S1.size a ≤ S32768.size a) (hnum : S1.numel = 1)
    (pf : pre11.Contents (Elt F)) (i : grid11.Coords) (n : Fin 32768) (hn : (i 0).val = n.val) :
    cc11_transform_0 hinb hnum pf i (0 : Fin 3) = (pf 0 (ValueIdx.ix1 n) : BitVec 32).toNat
      ∧ cc11_transform_0 hinb hnum pf i (1 : Fin 3) = 0 ∧ cc11_transform_0 hinb hnum pf i (2 : Fin 3) = 0 :=
  ⟨congrArg (fun k : S32768.Idx => (pf 0 k : BitVec 32).toNat)
      (tpos11 (BitVec.ofNat 32 (i 0).val).toNat (hinb i) (hnum.symm ▸ Nat.one_pos) n (word11v i n.val hn n.isLt)), rfl, rfl⟩
theorem tf11_1 (hinb : ∀ i : grid11.Coords, ∀ a, (k11_off1 i) a + S1.size a ≤ S32768.size a) (hnum : S1.numel = 1)
    (pf : pre11.Contents (Elt F)) (i : grid11.Coords) (n : Fin 32768) (hn : (i 0).val = n.val) :
    cc11_transform_1 hinb hnum pf i (0 : Fin 3) = (pf 1 (ValueIdx.ix1 n) : BitVec 32).toNat
      ∧ cc11_transform_1 hinb hnum pf i (1 : Fin 3) = 0 ∧ cc11_transform_1 hinb hnum pf i (2 : Fin 3) = 0 :=
  ⟨congrArg (fun k : S32768.Idx => (pf 1 k : BitVec 32).toNat)
      (tpos11 (BitVec.ofNat 32 (i 0).val).toNat (hinb i) (hnum.symm ▸ Nat.one_pos) n (word11v i n.val hn n.isLt)), rfl, rfl⟩
/-- The output window's index map: the grid coordinate, then 0, 0. -/
theorem tf11_2 (i : grid11.Coords) (n : Nat) (hn : (i 0).val = n) (hlt : n < 32768) :
    cc11_transform_2 i (0 : Fin 3) = n ∧ cc11_transform_2 i (1 : Fin 3) = 0 ∧ cc11_transform_2 i (2 : Fin 3) = 0 :=
  ⟨word11v i n hn hlt, rfl, rfl⟩

/-- The three windows' block indices at point `t`, the tables' contents `pf` a variable: input window `k` sits at the row
    table `k` names for `t`; the output window at row `t`. -/
theorem index11_0 (a : (pcfg11 (F := F)).Adm) (pf : pre11.Contents (Elt F)) (hpf : a.1 = pf) (t : Fin (cfg11 a).N)
    (n : Fin 32768) (hn : t.val = n.val) :
    ((cfg11 a).win 0).index t (0 : Fin 3) = (pf 0 (ValueIdx.ix1 n) : BitVec 32).toNat
      ∧ ((cfg11 a).win 0).index t (1 : Fin 3) = 0 ∧ ((cfg11 a).win 0).index t (2 : Fin 3) = 0 := by
  subst hpf
  exact tf11_0 _ _ a.1 ((cfg11 a).grid.coords t) n ((coords11v a t).trans hn)
theorem index11_1 (a : (pcfg11 (F := F)).Adm) (pf : pre11.Contents (Elt F)) (hpf : a.1 = pf) (t : Fin (cfg11 a).N)
    (n : Fin 32768) (hn : t.val = n.val) :
    ((cfg11 a).win 1).index t (0 : Fin 3) = (pf 1 (ValueIdx.ix1 n) : BitVec 32).toNat
      ∧ ((cfg11 a).win 1).index t (1 : Fin 3) = 0 ∧ ((cfg11 a).win 1).index t (2 : Fin 3) = 0 := by
  subst hpf
  exact tf11_1 _ _ a.1 ((cfg11 a).grid.coords t) n ((coords11v a t).trans hn)
theorem index11_2 (a : (pcfg11 (F := F)).Adm) (t : Fin (cfg11 a).N) :
    ((cfg11 a).win 2).index t (0 : Fin 3) = t.val
      ∧ ((cfg11 a).win 2).index t (1 : Fin 3) = 0 ∧ ((cfg11 a).win 2).index t (2 : Fin 3) = 0 :=
  tf11_2 ((cfg11 a).grid.coords t) t.val (coords11v a t) t.isLt

/-- The output window is written back at every point: its block index, the point, changes at every step. -/
theorem flush11_2 (a : (pcfg11 (F := F)).Adm) (t : Fin (cfg11 a).N) : ((cfg11 a).win 2).flush t = true := by
  have ht : t.val < 32768 := t.isLt
  rw [Window.flush_out _ rfl]
  by_cases h : t.val + 1 = 32768
  · exact Or.inl h
  · have h' : t.val + 1 < 32768 := by omega
    refine Or.inr ⟨h', fun e => ?_⟩
    have e1 : ((cfg11 a).win 2).index ⟨t.val + 1, h'⟩ (0 : Fin 3) = t.val + 1 := (index11_2 a ⟨t.val + 1, h'⟩).1
    have e2 : ((cfg11 a).win 2).index t (0 : Fin 3) = t.val := (index11_2 a t).1
    have e0 : ((cfg11 a).win 2).index ⟨t.val + 1, h'⟩ (0 : Fin 3) = ((cfg11 a).win 2).index t (0 : Fin 3) := congrFun e (0 : Fin 3)
    rw [e1, e2] at e0
    omega

/-! ## From the blocks to the array -/

section
variable (V : (c : Dev nD) → (b : Ref sig .tc) → Buf (Elt F) ((c : Thread nD τ).loc b))

set_option backward.isDefEq.respectTransparency.types false in
/-- WHAT POINT `t` WRITES BACK is block `t` of the gather of the array and the two tables as the region finds them. -/
theorem flushed11_2 (hO : Ok11 V) (c : Dev nD) (t : Fin (cfgM11 V hO).N) :
    (dat11 V hO c).flushed 2 t
      = (((cfgM11 V hO).win 2).blk t).view.read (Elt F) (GB (V c main_v1) (tbl11 V 0) (tbl11 V 1)) := by
  show ((cfgM11 V hO).win 2).cut ((cfgM11 V hO).grid.coords t) ((dat11 V hO c).after 2 t) = _
  rw [after11_2]
  unfold out11_2
  rw [View.canon_unit_zero hz11v]
  simp only [View.ld_unit_zero (S := S1x1x128) hz11v]
  rw [pay11_eq]
  have ht : t.val < 32768 := t.isLt
  obtain ⟨a0, a1, a2⟩ := index11_0 (adm11 V hO) (tbl11 V) rfl t ⟨t.val, ht⟩ rfl
  obtain ⟨b0, b1, b2⟩ := index11_1 (adm11 V hO) (tbl11 V) rfl t ⟨t.val, ht⟩ rfl
  obtain ⟨c0, c1, c2⟩ := index11_2 (adm11 V hO) t
  funext j
  have hj0 : (j (0 : Fin 3)).val = 0 := by have h : (j (0 : Fin 3)).val < 1 := (j (0 : Fin 3)).isLt; omega
  show FloatOps.addf (V c main_v1 ((((cfgM11 V hO).win 0).blk t).view.emb j)) (V c main_v1 ((((cfgM11 V hO).win 1).blk t).view.emb j))
    = GB (V c main_v1) (tbl11 V 0) (tbl11 V 1) ((((cfgM11 V hO).win 2).blk t).view.emb j)
  refine (GB_eq (V c main_v1) (tbl11 V 0) (tbl11 V 1) ((((cfgM11 V hO).win 2).blk t).view.emb j) ⟨t.val, ht⟩ ?_
    ((((cfgM11 V hO).win 0).blk t).view.emb j) ((((cfgM11 V hO).win 1).blk t).view.emb j) ?_ ?_ ?_ ?_).symm
  · show ((cfgM11 V hO).win 2).index t (0 : Fin 3) * 1 + 1 * (j (0 : Fin 3)).val = t.val
    rw [c0, hj0]; omega
  · show ((cfgM11 V hO).win 0).index t (0 : Fin 3) * 1 + 1 * (j (0 : Fin 3)).val = _
    rw [a0, hj0, Nat.mul_one, Nat.mul_zero, Nat.add_zero]
  · show ((cfgM11 V hO).win 0).index t (2 : Fin 3) * 128 + 1 * (j (2 : Fin 3)).val = ((cfgM11 V hO).win 2).index t (2 : Fin 3) * 128 + 1 * (j (2 : Fin 3)).val
    rw [a2, c2]
  · show ((cfgM11 V hO).win 1).index t (0 : Fin 3) * 1 + 1 * (j (0 : Fin 3)).val = _
    rw [b0, hj0, Nat.mul_one, Nat.mul_zero, Nat.add_zero]
  · show ((cfgM11 V hO).win 1).index t (2 : Fin 3) * 128 + 1 * (j (2 : Fin 3)).val = ((cfgM11 V hO).win 2).index t (2 : Fin 3) * 128 + 1 * (j (2 : Fin 3)).val
    rw [b2, c2]

set_option backward.isDefEq.respectTransparency.types false in
/-- An index of the output array is in point `t`'s block iff each coordinate is in the block's range on its axis. -/
theorem mem_blk11_2 (hO : Ok11 V) (t : Fin (cfgM11 V hO).N) (i : (⟨3, ![32768, 1, 128]⟩ : Shape).Idx) :
    i ∈ (((cfgM11 V hO).win 2).blk t).view.set ↔ ∀ a : Fin 3, ((cfgM11 V hO).win 2).index t a * S1x1x128.size a ≤ (i a).val
      ∧ (i a).val < ((cfgM11 V hO).win 2).index t a * S1x1x128.size a + S1x1x128.size a := by
  show i ∈ ((View.whole main_v64).slice (((cfgM11 V hO).win 2).rect t)).set ↔ _
  rw [View.set_slice_whole]
  exact Rect.mem_set_unit

/-- The output's blocks tile its array: row `j` is the block of point `j`. -/
theorem cover11v (hO : Ok11 V) (i : (⟨3, ![32768, 1, 128]⟩ : Shape).Idx) :
    ∃ t : Fin (cfgM11 V hO).N, ((cfgM11 V hO).win 2).flush t = true ∧ i ∈ (((cfgM11 V hO).win 2).blk t).view.set := by
  have h0 : (i 0).val < 32768 := (i 0).isLt
  have h1 : (i 1).val < 1 := (i 1).isLt
  have h2 : (i 2).val < 128 := (i 2).isLt
  refine ⟨⟨(i 0).val, h0⟩, flush11_2 (adm11 V hO) _, ?_⟩
  obtain ⟨c0, c1, c2⟩ := index11_2 (adm11 V hO) ⟨(i 0).val, h0⟩
  rw [mem_blk11_2]
  intro a
  match a with
  | ⟨0, _⟩ => show ((cfgM11 V hO).win 2).index ⟨(i 0).val, h0⟩ (0 : Fin 3) * 1 ≤ (i 0).val ∧ (i 0).val < ((cfgM11 V hO).win 2).index ⟨(i 0).val, h0⟩ (0 : Fin 3) * 1 + 1; rw [c0]; show (i 0).val * 1 ≤ (i 0).val ∧ (i 0).val < (i 0).val * 1 + 1; omega
  | ⟨1, _⟩ => show ((cfgM11 V hO).win 2).index ⟨(i 0).val, h0⟩ (1 : Fin 3) * 1 ≤ (i 1).val ∧ (i 1).val < ((cfgM11 V hO).win 2).index ⟨(i 0).val, h0⟩ (1 : Fin 3) * 1 + 1; rw [c1]; omega
  | ⟨2, _⟩ => show ((cfgM11 V hO).win 2).index ⟨(i 0).val, h0⟩ (2 : Fin 3) * 128 ≤ (i 2).val ∧ (i 2).val < ((cfgM11 V hO).win 2).index ⟨(i 0).val, h0⟩ (2 : Fin 3) * 128 + 128; rw [c2]; omega

/-- THE OUTPUT ARRAY after the region: the gather of the array and the two tables as the region finds them. -/
theorem arrAt11_2 (hO : Ok11 V) (c : Dev nD) :
    (dat11 V hO c).arrAt 2 (cfgM11 V hO).N = GB (V c main_v1) (tbl11 V 0) (tbl11 V 1) :=
  (dat11 V hO c).arrAt_eq_of_cover 2 (GB (V c main_v1) (tbl11 V 0) (tbl11 V 1)) (fun t _ => flushed11_2 V hO c t) (cover11v V hO)
end

end Cert.KernelIdeal.GenP

end
-- ==== Proof.KernelIdeal.RB12Val.lean ====
/- The value of a row-gather region's output array after the region: each of its rows the sum of the two rows of the
   gathered array that the region's two tables name. -/
import proofs.«175043_j76819785056407_2_alg».proof.Proof.KernelIdeal.RB12
import proofs.«175043_j76819785056407_2_alg».proof.Proof.KernelIdeal.GatherSpec
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

theorem hz12v : (![0, 0, 0] : Fin 3 → Nat) = fun _ => 0 := funext fun a => by fin_cases a <;> rfl

/-- The body's payload: the two loaded rows added lane by lane (the two re-shapes are the identity). -/
theorem pay12_eq (x0 x1 : Vec F S1x1x128 .f32) : k12_pay1 x0 x1 = addf x0 x1 := by
  unfold k12_pay1
  rw [shapeCast_self, shapeCast_self]

/-! ## The grid and the index maps, at ANY admitted contents of the two tables -/

/-- The grid has one axis: the point's one coordinate is the point. -/
theorem coords12v (a : (pcfg12 (F := F)).Adm) (t : Fin (cfg12 a).N) : (((cfg12 a).grid.coords t) 0).val = t.val := by
  have ht : t.val < 32768 := t.isLt
  show t.val / 1 % 32768 = t.val
  omega

/-- The one element of a table that the one-word rectangle at offset `off` holds is the table's position `off`. -/
theorem tpos12 (off : Nat) (inb : ∀ a, (![off] : Fin 1 → Nat) a + S1.size a ≤ S32768.size a) (h : 0 < S1.numel)
    (n : Fin 32768) (hoff : off = n.val) :
    (Rect.unit (s := S32768) ![off] S1.size inb).emb (Shape.Idx.first h) = ValueIdx.ix1 n := by
  funext a
  apply Fin.ext
  match a with
  | ⟨0, _⟩ => show off + 1 * 0 = n.val; omega

/-- A grid coordinate below 2^32 survives the round trip through a 32-bit word. -/
theorem word12v (i : grid12.Coords) (n : Nat) (hn : (i 0).val = n) (hlt : n < 32768) : (BitVec.ofNat 32 (i 0).val).toNat = n := by
  rw [BitVec.toNat_ofNat, hn]
  omega

/-- An input window's index map at grid coordinate `n`: the row number table `k` holds at position `n`, then 0, 0. -/
theorem tf12_0 (hinb : ∀ i : grid12.Coords, ∀ a, (k12_off1 i) a + S1.size a ≤ S32768.size a) (hnum : S1.numel = 1)
    (pf : pre12.Contents (Elt F)) (i : grid12.Coords) (n : Fin 32768) (hn : (i 0).val = n.val) :
    cc12_transform_0 hinb hnum pf i (0 : Fin 3) = (pf 0 (ValueIdx.ix1 n) : BitVec 32).toNat
      ∧ cc12_transform_0 hinb hnum pf i (1 : Fin 3) = 0 ∧ cc12_transform_0 hinb hnum pf i (2 : Fin 3) = 0 :=
  ⟨congrArg (fun k : S32768.Idx => (pf 0 k : BitVec 32).toNat)
      (tpos12 (BitVec.ofNat 32 (i 0).val).toNat (hinb i) (hnum.symm ▸ Nat.one_pos) n (word12v i n.val hn n.isLt)), rfl, rfl⟩
theorem tf12_1 (hinb : ∀ i : grid12.Coords, ∀ a, (k12_off1 i) a + S1.size a ≤ S32768.size a) (hnum : S1.numel = 1)
    (pf : pre12.Contents (Elt F)) (i : grid12.Coords) (n : Fin 32768) (hn : (i 0).val = n.val) :
    cc12_transform_1 hinb hnum pf i (0 : Fin 3) = (pf 1 (ValueIdx.ix1 n) : BitVec 32).toNat
      ∧ cc12_transform_1 hinb hnum pf i (1 : Fin 3) = 0 ∧ cc12_transform_1 hinb hnum pf i (2 : Fin 3) = 0 :=
  ⟨congrArg (fun k : S32768.Idx => (pf 1 k : BitVec 32).toNat)
      (tpos12 (BitVec.ofNat 32 (i 0).val).toNat (hinb i) (hnum.symm ▸ Nat.one_pos) n (word12v i n.val hn n.isLt)), rfl, rfl⟩
/-- The output window's index map: the grid coordinate, then 0, 0. -/
theorem tf12_2 (i : grid12.Coords) (n : Nat) (hn : (i 0).val = n) (hlt : n < 32768) :
    cc12_transform_2 i (0 : Fin 3) = n ∧ cc12_transform_2 i (1 : Fin 3) = 0 ∧ cc12_transform_2 i (2 : Fin 3) = 0 :=
  ⟨word12v i n hn hlt, rfl, rfl⟩

/-- The three windows' block indices at point `t`, the tables' contents `pf` a variable: input window `k` sits at the row
    table `k` names for `t`; the output window at row `t`. -/
theorem index12_0 (a : (pcfg12 (F := F)).Adm) (pf : pre12.Contents (Elt F)) (hpf : a.1 = pf) (t : Fin (cfg12 a).N)
    (n : Fin 32768) (hn : t.val = n.val) :
    ((cfg12 a).win 0).index t (0 : Fin 3) = (pf 0 (ValueIdx.ix1 n) : BitVec 32).toNat
      ∧ ((cfg12 a).win 0).index t (1 : Fin 3) = 0 ∧ ((cfg12 a).win 0).index t (2 : Fin 3) = 0 := by
  subst hpf
  exact tf12_0 _ _ a.1 ((cfg12 a).grid.coords t) n ((coords12v a t).trans hn)
theorem index12_1 (a : (pcfg12 (F := F)).Adm) (pf : pre12.Contents (Elt F)) (hpf : a.1 = pf) (t : Fin (cfg12 a).N)
    (n : Fin 32768) (hn : t.val = n.val) :
    ((cfg12 a).win 1).index t (0 : Fin 3) = (pf 1 (ValueIdx.ix1 n) : BitVec 32).toNat
      ∧ ((cfg12 a).win 1).index t (1 : Fin 3) = 0 ∧ ((cfg12 a).win 1).index t (2 : Fin 3) = 0 := by
  subst hpf
  exact tf12_1 _ _ a.1 ((cfg12 a).grid.coords t) n ((coords12v a t).trans hn)
theorem index12_2 (a : (pcfg12 (F := F)).Adm) (t : Fin (cfg12 a).N) :
    ((cfg12 a).win 2).index t (0 : Fin 3) = t.val
      ∧ ((cfg12 a).win 2).index t (1 : Fin 3) = 0 ∧ ((cfg12 a).win 2).index t (2 : Fin 3) = 0 :=
  tf12_2 ((cfg12 a).grid.coords t) t.val (coords12v a t) t.isLt

/-- The output window is written back at every point: its block index, the point, changes at every step. -/
theorem flush12_2 (a : (pcfg12 (F := F)).Adm) (t : Fin (cfg12 a).N) : ((cfg12 a).win 2).flush t = true := by
  have ht : t.val < 32768 := t.isLt
  rw [Window.flush_out _ rfl]
  by_cases h : t.val + 1 = 32768
  · exact Or.inl h
  · have h' : t.val + 1 < 32768 := by omega
    refine Or.inr ⟨h', fun e => ?_⟩
    have e1 : ((cfg12 a).win 2).index ⟨t.val + 1, h'⟩ (0 : Fin 3) = t.val + 1 := (index12_2 a ⟨t.val + 1, h'⟩).1
    have e2 : ((cfg12 a).win 2).index t (0 : Fin 3) = t.val := (index12_2 a t).1
    have e0 : ((cfg12 a).win 2).index ⟨t.val + 1, h'⟩ (0 : Fin 3) = ((cfg12 a).win 2).index t (0 : Fin 3) := congrFun e (0 : Fin 3)
    rw [e1, e2] at e0
    omega

/-! ## From the blocks to the array -/

section
variable (V : (c : Dev nD) → (b : Ref sig .tc) → Buf (Elt F) ((c : Thread nD τ).loc b))

set_option backward.isDefEq.respectTransparency.types false in
/-- WHAT POINT `t` WRITES BACK is block `t` of the gather of the array and the two tables as the region finds them. -/
theorem flushed12_2 (hO : Ok12 V) (c : Dev nD) (t : Fin (cfgM12 V hO).N) :
    (dat12 V hO c).flushed 2 t
      = (((cfgM12 V hO).win 2).blk t).view.read (Elt F) (GB (V c main_v1) (tbl12 V 0) (tbl12 V 1)) := by
  show ((cfgM12 V hO).win 2).cut ((cfgM12 V hO).grid.coords t) ((dat12 V hO c).after 2 t) = _
  rw [after12_2]
  unfold out12_2
  rw [View.canon_unit_zero hz12v]
  simp only [View.ld_unit_zero (S := S1x1x128) hz12v]
  rw [pay12_eq]
  have ht : t.val < 32768 := t.isLt
  obtain ⟨a0, a1, a2⟩ := index12_0 (adm12 V hO) (tbl12 V) rfl t ⟨t.val, ht⟩ rfl
  obtain ⟨b0, b1, b2⟩ := index12_1 (adm12 V hO) (tbl12 V) rfl t ⟨t.val, ht⟩ rfl
  obtain ⟨c0, c1, c2⟩ := index12_2 (adm12 V hO) t
  funext j
  have hj0 : (j (0 : Fin 3)).val = 0 := by have h : (j (0 : Fin 3)).val < 1 := (j (0 : Fin 3)).isLt; omega
  show FloatOps.addf (V c main_v1 ((((cfgM12 V hO).win 0).blk t).view.emb j)) (V c main_v1 ((((cfgM12 V hO).win 1).blk t).view.emb j))
    = GB (V c main_v1) (tbl12 V 0) (tbl12 V 1) ((((cfgM12 V hO).win 2).blk t).view.emb j)
  refine (GB_eq (V c main_v1) (tbl12 V 0) (tbl12 V 1) ((((cfgM12 V hO).win 2).blk t).view.emb j) ⟨t.val, ht⟩ ?_
    ((((cfgM12 V hO).win 0).blk t).view.emb j) ((((cfgM12 V hO).win 1).blk t).view.emb j) ?_ ?_ ?_ ?_).symm
  · show ((cfgM12 V hO).win 2).index t (0 : Fin 3) * 1 + 1 * (j (0 : Fin 3)).val = t.val
    rw [c0, hj0]; omega
  · show ((cfgM12 V hO).win 0).index t (0 : Fin 3) * 1 + 1 * (j (0 : Fin 3)).val = _
    rw [a0, hj0, Nat.mul_one, Nat.mul_zero, Nat.add_zero]
  · show ((cfgM12 V hO).win 0).index t (2 : Fin 3) * 128 + 1 * (j (2 : Fin 3)).val = ((cfgM12 V hO).win 2).index t (2 : Fin 3) * 128 + 1 * (j (2 : Fin 3)).val
    rw [a2, c2]
  · show ((cfgM12 V hO).win 1).index t (0 : Fin 3) * 1 + 1 * (j (0 : Fin 3)).val = _
    rw [b0, hj0, Nat.mul_one, Nat.mul_zero, Nat.add_zero]
  · show ((cfgM12 V hO).win 1).index t (2 : Fin 3) * 128 + 1 * (j (2 : Fin 3)).val = ((cfgM12 V hO).win 2).index t (2 : Fin 3) * 128 + 1 * (j (2 : Fin 3)).val
    rw [b2, c2]

set_option backward.isDefEq.respectTransparency.types false in
/-- An index of the output array is in point `t`'s block iff each coordinate is in the block's range on its axis. -/
theorem mem_blk12_2 (hO : Ok12 V) (t : Fin (cfgM12 V hO).N) (i : (⟨3, ![32768, 1, 128]⟩ : Shape).Idx) :
    i ∈ (((cfgM12 V hO).win 2).blk t).view.set ↔ ∀ a : Fin 3, ((cfgM12 V hO).win 2).index t a * S1x1x128.size a ≤ (i a).val
      ∧ (i a).val < ((cfgM12 V hO).win 2).index t a * S1x1x128.size a + S1x1x128.size a := by
  show i ∈ ((View.whole main_v68).slice (((cfgM12 V hO).win 2).rect t)).set ↔ _
  rw [View.set_slice_whole]
  exact Rect.mem_set_unit

/-- The output's blocks tile its array: row `j` is the block of point `j`. -/
theorem cover12v (hO : Ok12 V) (i : (⟨3, ![32768, 1, 128]⟩ : Shape).Idx) :
    ∃ t : Fin (cfgM12 V hO).N, ((cfgM12 V hO).win 2).flush t = true ∧ i ∈ (((cfgM12 V hO).win 2).blk t).view.set := by
  have h0 : (i 0).val < 32768 := (i 0).isLt
  have h1 : (i 1).val < 1 := (i 1).isLt
  have h2 : (i 2).val < 128 := (i 2).isLt
  refine ⟨⟨(i 0).val, h0⟩, flush12_2 (adm12 V hO) _, ?_⟩
  obtain ⟨c0, c1, c2⟩ := index12_2 (adm12 V hO) ⟨(i 0).val, h0⟩
  rw [mem_blk12_2]
  intro a
  match a with
  | ⟨0, _⟩ => show ((cfgM12 V hO).win 2).index ⟨(i 0).val, h0⟩ (0 : Fin 3) * 1 ≤ (i 0).val ∧ (i 0).val < ((cfgM12 V hO).win 2).index ⟨(i 0).val, h0⟩ (0 : Fin 3) * 1 + 1; rw [c0]; show (i 0).val * 1 ≤ (i 0).val ∧ (i 0).val < (i 0).val * 1 + 1; omega
  | ⟨1, _⟩ => show ((cfgM12 V hO).win 2).index ⟨(i 0).val, h0⟩ (1 : Fin 3) * 1 ≤ (i 1).val ∧ (i 1).val < ((cfgM12 V hO).win 2).index ⟨(i 0).val, h0⟩ (1 : Fin 3) * 1 + 1; rw [c1]; omega
  | ⟨2, _⟩ => show ((cfgM12 V hO).win 2).index ⟨(i 0).val, h0⟩ (2 : Fin 3) * 128 ≤ (i 2).val ∧ (i 2).val < ((cfgM12 V hO).win 2).index ⟨(i 0).val, h0⟩ (2 : Fin 3) * 128 + 128; rw [c2]; omega

/-- THE OUTPUT ARRAY after the region: the gather of the array and the two tables as the region finds them. -/
theorem arrAt12_2 (hO : Ok12 V) (c : Dev nD) :
    (dat12 V hO c).arrAt 2 (cfgM12 V hO).N = GB (V c main_v1) (tbl12 V 0) (tbl12 V 1) :=
  (dat12 V hO c).arrAt_eq_of_cover 2 (GB (V c main_v1) (tbl12 V 0) (tbl12 V 1)) (fun t _ => flushed12_2 V hO c t) (cover12v V hO)
end

end Cert.KernelIdeal.GenP

end
-- ==== Proof.KernelIdeal.RB13Val.lean ====
/- The value of a row-gather region's output array after the region: each of its rows the sum of the two rows of the
   gathered array that the region's two tables name. -/
import proofs.«175043_j76819785056407_2_alg».proof.Proof.KernelIdeal.RB13
import proofs.«175043_j76819785056407_2_alg».proof.Proof.KernelIdeal.GatherSpec
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

theorem hz13v : (![0, 0, 0] : Fin 3 → Nat) = fun _ => 0 := funext fun a => by fin_cases a <;> rfl

/-- The body's payload: the two loaded rows added lane by lane (the two re-shapes are the identity). -/
theorem pay13_eq (x0 x1 : Vec F S1x1x128 .f32) : k13_pay1 x0 x1 = addf x0 x1 := by
  unfold k13_pay1
  rw [shapeCast_self, shapeCast_self]

/-! ## The grid and the index maps, at ANY admitted contents of the two tables -/

/-- The grid has one axis: the point's one coordinate is the point. -/
theorem coords13v (a : (pcfg13 (F := F)).Adm) (t : Fin (cfg13 a).N) : (((cfg13 a).grid.coords t) 0).val = t.val := by
  have ht : t.val < 32768 := t.isLt
  show t.val / 1 % 32768 = t.val
  omega

/-- The one element of a table that the one-word rectangle at offset `off` holds is the table's position `off`. -/
theorem tpos13 (off : Nat) (inb : ∀ a, (![off] : Fin 1 → Nat) a + S1.size a ≤ S32768.size a) (h : 0 < S1.numel)
    (n : Fin 32768) (hoff : off = n.val) :
    (Rect.unit (s := S32768) ![off] S1.size inb).emb (Shape.Idx.first h) = ValueIdx.ix1 n := by
  funext a
  apply Fin.ext
  match a with
  | ⟨0, _⟩ => show off + 1 * 0 = n.val; omega

/-- A grid coordinate below 2^32 survives the round trip through a 32-bit word. -/
theorem word13v (i : grid13.Coords) (n : Nat) (hn : (i 0).val = n) (hlt : n < 32768) : (BitVec.ofNat 32 (i 0).val).toNat = n := by
  rw [BitVec.toNat_ofNat, hn]
  omega

/-- An input window's index map at grid coordinate `n`: the row number table `k` holds at position `n`, then 0, 0. -/
theorem tf13_0 (hinb : ∀ i : grid13.Coords, ∀ a, (k13_off1 i) a + S1.size a ≤ S32768.size a) (hnum : S1.numel = 1)
    (pf : pre13.Contents (Elt F)) (i : grid13.Coords) (n : Fin 32768) (hn : (i 0).val = n.val) :
    cc13_transform_0 hinb hnum pf i (0 : Fin 3) = (pf 0 (ValueIdx.ix1 n) : BitVec 32).toNat
      ∧ cc13_transform_0 hinb hnum pf i (1 : Fin 3) = 0 ∧ cc13_transform_0 hinb hnum pf i (2 : Fin 3) = 0 :=
  ⟨congrArg (fun k : S32768.Idx => (pf 0 k : BitVec 32).toNat)
      (tpos13 (BitVec.ofNat 32 (i 0).val).toNat (hinb i) (hnum.symm ▸ Nat.one_pos) n (word13v i n.val hn n.isLt)), rfl, rfl⟩
theorem tf13_1 (hinb : ∀ i : grid13.Coords, ∀ a, (k13_off1 i) a + S1.size a ≤ S32768.size a) (hnum : S1.numel = 1)
    (pf : pre13.Contents (Elt F)) (i : grid13.Coords) (n : Fin 32768) (hn : (i 0).val = n.val) :
    cc13_transform_1 hinb hnum pf i (0 : Fin 3) = (pf 1 (ValueIdx.ix1 n) : BitVec 32).toNat
      ∧ cc13_transform_1 hinb hnum pf i (1 : Fin 3) = 0 ∧ cc13_transform_1 hinb hnum pf i (2 : Fin 3) = 0 :=
  ⟨congrArg (fun k : S32768.Idx => (pf 1 k : BitVec 32).toNat)
      (tpos13 (BitVec.ofNat 32 (i 0).val).toNat (hinb i) (hnum.symm ▸ Nat.one_pos) n (word13v i n.val hn n.isLt)), rfl, rfl⟩
/-- The output window's index map: the grid coordinate, then 0, 0. -/
theorem tf13_2 (i : grid13.Coords) (n : Nat) (hn : (i 0).val = n) (hlt : n < 32768) :
    cc13_transform_2 i (0 : Fin 3) = n ∧ cc13_transform_2 i (1 : Fin 3) = 0 ∧ cc13_transform_2 i (2 : Fin 3) = 0 :=
  ⟨word13v i n hn hlt, rfl, rfl⟩

/-- The three windows' block indices at point `t`, the tables' contents `pf` a variable: input window `k` sits at the row
    table `k` names for `t`; the output window at row `t`. -/
theorem index13_0 (a : (pcfg13 (F := F)).Adm) (pf : pre13.Contents (Elt F)) (hpf : a.1 = pf) (t : Fin (cfg13 a).N)
    (n : Fin 32768) (hn : t.val = n.val) :
    ((cfg13 a).win 0).index t (0 : Fin 3) = (pf 0 (ValueIdx.ix1 n) : BitVec 32).toNat
      ∧ ((cfg13 a).win 0).index t (1 : Fin 3) = 0 ∧ ((cfg13 a).win 0).index t (2 : Fin 3) = 0 := by
  subst hpf
  exact tf13_0 _ _ a.1 ((cfg13 a).grid.coords t) n ((coords13v a t).trans hn)
theorem index13_1 (a : (pcfg13 (F := F)).Adm) (pf : pre13.Contents (Elt F)) (hpf : a.1 = pf) (t : Fin (cfg13 a).N)
    (n : Fin 32768) (hn : t.val = n.val) :
    ((cfg13 a).win 1).index t (0 : Fin 3) = (pf 1 (ValueIdx.ix1 n) : BitVec 32).toNat
      ∧ ((cfg13 a).win 1).index t (1 : Fin 3) = 0 ∧ ((cfg13 a).win 1).index t (2 : Fin 3) = 0 := by
  subst hpf
  exact tf13_1 _ _ a.1 ((cfg13 a).grid.coords t) n ((coords13v a t).trans hn)
theorem index13_2 (a : (pcfg13 (F := F)).Adm) (t : Fin (cfg13 a).N) :
    ((cfg13 a).win 2).index t (0 : Fin 3) = t.val
      ∧ ((cfg13 a).win 2).index t (1 : Fin 3) = 0 ∧ ((cfg13 a).win 2).index t (2 : Fin 3) = 0 :=
  tf13_2 ((cfg13 a).grid.coords t) t.val (coords13v a t) t.isLt

/-- The output window is written back at every point: its block index, the point, changes at every step. -/
theorem flush13_2 (a : (pcfg13 (F := F)).Adm) (t : Fin (cfg13 a).N) : ((cfg13 a).win 2).flush t = true := by
  have ht : t.val < 32768 := t.isLt
  rw [Window.flush_out _ rfl]
  by_cases h : t.val + 1 = 32768
  · exact Or.inl h
  · have h' : t.val + 1 < 32768 := by omega
    refine Or.inr ⟨h', fun e => ?_⟩
    have e1 : ((cfg13 a).win 2).index ⟨t.val + 1, h'⟩ (0 : Fin 3) = t.val + 1 := (index13_2 a ⟨t.val + 1, h'⟩).1
    have e2 : ((cfg13 a).win 2).index t (0 : Fin 3) = t.val := (index13_2 a t).1
    have e0 : ((cfg13 a).win 2).index ⟨t.val + 1, h'⟩ (0 : Fin 3) = ((cfg13 a).win 2).index t (0 : Fin 3) := congrFun e (0 : Fin 3)
    rw [e1, e2] at e0
    omega

/-! ## From the blocks to the array -/

section
variable (V : (c : Dev nD) → (b : Ref sig .tc) → Buf (Elt F) ((c : Thread nD τ).loc b))

set_option backward.isDefEq.respectTransparency.types false in
/-- WHAT POINT `t` WRITES BACK is block `t` of the gather of the array and the two tables as the region finds them. -/
theorem flushed13_2 (hO : Ok13 V) (c : Dev nD) (t : Fin (cfgM13 V hO).N) :
    (dat13 V hO c).flushed 2 t
      = (((cfgM13 V hO).win 2).blk t).view.read (Elt F) (GB (V c main_v1) (tbl13 V 0) (tbl13 V 1)) := by
  show ((cfgM13 V hO).win 2).cut ((cfgM13 V hO).grid.coords t) ((dat13 V hO c).after 2 t) = _
  rw [after13_2]
  unfold out13_2
  rw [View.canon_unit_zero hz13v]
  simp only [View.ld_unit_zero (S := S1x1x128) hz13v]
  rw [pay13_eq]
  have ht : t.val < 32768 := t.isLt
  obtain ⟨a0, a1, a2⟩ := index13_0 (adm13 V hO) (tbl13 V) rfl t ⟨t.val, ht⟩ rfl
  obtain ⟨b0, b1, b2⟩ := index13_1 (adm13 V hO) (tbl13 V) rfl t ⟨t.val, ht⟩ rfl
  obtain ⟨c0, c1, c2⟩ := index13_2 (adm13 V hO) t
  funext j
  have hj0 : (j (0 : Fin 3)).val = 0 := by have h : (j (0 : Fin 3)).val < 1 := (j (0 : Fin 3)).isLt; omega
  show FloatOps.addf (V c main_v1 ((((cfgM13 V hO).win 0).blk t).view.emb j)) (V c main_v1 ((((cfgM13 V hO).win 1).blk t).view.emb j))
    = GB (V c main_v1) (tbl13 V 0) (tbl13 V 1) ((((cfgM13 V hO).win 2).blk t).view.emb j)
  refine (GB_eq (V c main_v1) (tbl13 V 0) (tbl13 V 1) ((((cfgM13 V hO).win 2).blk t).view.emb j) ⟨t.val, ht⟩ ?_
    ((((cfgM13 V hO).win 0).blk t).view.emb j) ((((cfgM13 V hO).win 1).blk t).view.emb j) ?_ ?_ ?_ ?_).symm
  · show ((cfgM13 V hO).win 2).index t (0 : Fin 3) * 1 + 1 * (j (0 : Fin 3)).val = t.val
    rw [c0, hj0]; omega
  · show ((cfgM13 V hO).win 0).index t (0 : Fin 3) * 1 + 1 * (j (0 : Fin 3)).val = _
    rw [a0, hj0, Nat.mul_one, Nat.mul_zero, Nat.add_zero]
  · show ((cfgM13 V hO).win 0).index t (2 : Fin 3) * 128 + 1 * (j (2 : Fin 3)).val = ((cfgM13 V hO).win 2).index t (2 : Fin 3) * 128 + 1 * (j (2 : Fin 3)).val
    rw [a2, c2]
  · show ((cfgM13 V hO).win 1).index t (0 : Fin 3) * 1 + 1 * (j (0 : Fin 3)).val = _
    rw [b0, hj0, Nat.mul_one, Nat.mul_zero, Nat.add_zero]
  · show ((cfgM13 V hO).win 1).index t (2 : Fin 3) * 128 + 1 * (j (2 : Fin 3)).val = ((cfgM13 V hO).win 2).index t (2 : Fin 3) * 128 + 1 * (j (2 : Fin 3)).val
    rw [b2, c2]

set_option backward.isDefEq.respectTransparency.types false in
/-- An index of the output array is in point `t`'s block iff each coordinate is in the block's range on its axis. -/
theorem mem_blk13_2 (hO : Ok13 V) (t : Fin (cfgM13 V hO).N) (i : (⟨3, ![32768, 1, 128]⟩ : Shape).Idx) :
    i ∈ (((cfgM13 V hO).win 2).blk t).view.set ↔ ∀ a : Fin 3, ((cfgM13 V hO).win 2).index t a * S1x1x128.size a ≤ (i a).val
      ∧ (i a).val < ((cfgM13 V hO).win 2).index t a * S1x1x128.size a + S1x1x128.size a := by
  show i ∈ ((View.whole main_v72).slice (((cfgM13 V hO).win 2).rect t)).set ↔ _
  rw [View.set_slice_whole]
  exact Rect.mem_set_unit

/-- The output's blocks tile its array: row `j` is the block of point `j`. -/
theorem cover13v (hO : Ok13 V) (i : (⟨3, ![32768, 1, 128]⟩ : Shape).Idx) :
    ∃ t : Fin (cfgM13 V hO).N, ((cfgM13 V hO).win 2).flush t = true ∧ i ∈ (((cfgM13 V hO).win 2).blk t).view.set := by
  have h0 : (i 0).val < 32768 := (i 0).isLt
  have h1 : (i 1).val < 1 := (i 1).isLt
  have h2 : (i 2).val < 128 := (i 2).isLt
  refine ⟨⟨(i 0).val, h0⟩, flush13_2 (adm13 V hO) _, ?_⟩
  obtain ⟨c0, c1, c2⟩ := index13_2 (adm13 V hO) ⟨(i 0).val, h0⟩
  rw [mem_blk13_2]
  intro a
  match a with
  | ⟨0, _⟩ => show ((cfgM13 V hO).win 2).index ⟨(i 0).val, h0⟩ (0 : Fin 3) * 1 ≤ (i 0).val ∧ (i 0).val < ((cfgM13 V hO).win 2).index ⟨(i 0).val, h0⟩ (0 : Fin 3) * 1 + 1; rw [c0]; show (i 0).val * 1 ≤ (i 0).val ∧ (i 0).val < (i 0).val * 1 + 1; omega
  | ⟨1, _⟩ => show ((cfgM13 V hO).win 2).index ⟨(i 0).val, h0⟩ (1 : Fin 3) * 1 ≤ (i 1).val ∧ (i 1).val < ((cfgM13 V hO).win 2).index ⟨(i 0).val, h0⟩ (1 : Fin 3) * 1 + 1; rw [c1]; omega
  | ⟨2, _⟩ => show ((cfgM13 V hO).win 2).index ⟨(i 0).val, h0⟩ (2 : Fin 3) * 128 ≤ (i 2).val ∧ (i 2).val < ((cfgM13 V hO).win 2).index ⟨(i 0).val, h0⟩ (2 : Fin 3) * 128 + 128; rw [c2]; omega

/-- THE OUTPUT ARRAY after the region: the gather of the array and the two tables as the region finds them. -/
theorem arrAt13_2 (hO : Ok13 V) (c : Dev nD) :
    (dat13 V hO c).arrAt 2 (cfgM13 V hO).N = GB (V c main_v1) (tbl13 V 0) (tbl13 V 1) :=
  (dat13 V hO c).arrAt_eq_of_cover 2 (GB (V c main_v1) (tbl13 V 0) (tbl13 V 1)) (fun t _ => flushed13_2 V hO c t) (cover13v V hO)
end

end Cert.KernelIdeal.GenP

end
-- ==== Proof.KernelIdeal.RB14Val.lean ====
/- The value of a row-gather region's output array after the region: each of its rows the sum of the two rows of the
   gathered array that the region's two tables name. -/
import proofs.«175043_j76819785056407_2_alg».proof.Proof.KernelIdeal.RB14
import proofs.«175043_j76819785056407_2_alg».proof.Proof.KernelIdeal.GatherSpec
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

theorem hz14v : (![0, 0, 0] : Fin 3 → Nat) = fun _ => 0 := funext fun a => by fin_cases a <;> rfl

/-- The body's payload: the two loaded rows added lane by lane (the two re-shapes are the identity). -/
theorem pay14_eq (x0 x1 : Vec F S1x1x128 .f32) : k14_pay1 x0 x1 = addf x0 x1 := by
  unfold k14_pay1
  rw [shapeCast_self, shapeCast_self]

/-! ## The grid and the index maps, at ANY admitted contents of the two tables -/

/-- The grid has one axis: the point's one coordinate is the point. -/
theorem coords14v (a : (pcfg14 (F := F)).Adm) (t : Fin (cfg14 a).N) : (((cfg14 a).grid.coords t) 0).val = t.val := by
  have ht : t.val < 32768 := t.isLt
  show t.val / 1 % 32768 = t.val
  omega

/-- The one element of a table that the one-word rectangle at offset `off` holds is the table's position `off`. -/
theorem tpos14 (off : Nat) (inb : ∀ a, (![off] : Fin 1 → Nat) a + S1.size a ≤ S32768.size a) (h : 0 < S1.numel)
    (n : Fin 32768) (hoff : off = n.val) :
    (Rect.unit (s := S32768) ![off] S1.size inb).emb (Shape.Idx.first h) = ValueIdx.ix1 n := by
  funext a
  apply Fin.ext
  match a with
  | ⟨0, _⟩ => show off + 1 * 0 = n.val; omega

/-- A grid coordinate below 2^32 survives the round trip through a 32-bit word. -/
theorem word14v (i : grid14.Coords) (n : Nat) (hn : (i 0).val = n) (hlt : n < 32768) : (BitVec.ofNat 32 (i 0).val).toNat = n := by
  rw [BitVec.toNat_ofNat, hn]
  omega

/-- An input window's index map at grid coordinate `n`: the row number table `k` holds at position `n`, then 0, 0. -/
theorem tf14_0 (hinb : ∀ i : grid14.Coords, ∀ a, (k14_off1 i) a + S1.size a ≤ S32768.size a) (hnum : S1.numel = 1)
    (pf : pre14.Contents (Elt F)) (i : grid14.Coords) (n : Fin 32768) (hn : (i 0).val = n.val) :
    cc14_transform_0 hinb hnum pf i (0 : Fin 3) = (pf 0 (ValueIdx.ix1 n) : BitVec 32).toNat
      ∧ cc14_transform_0 hinb hnum pf i (1 : Fin 3) = 0 ∧ cc14_transform_0 hinb hnum pf i (2 : Fin 3) = 0 :=
  ⟨congrArg (fun k : S32768.Idx => (pf 0 k : BitVec 32).toNat)
      (tpos14 (BitVec.ofNat 32 (i 0).val).toNat (hinb i) (hnum.symm ▸ Nat.one_pos) n (word14v i n.val hn n.isLt)), rfl, rfl⟩
theorem tf14_1 (hinb : ∀ i : grid14.Coords, ∀ a, (k14_off1 i) a + S1.size a ≤ S32768.size a) (hnum : S1.numel = 1)
    (pf : pre14.Contents (Elt F)) (i : grid14.Coords) (n : Fin 32768) (hn : (i 0).val = n.val) :
    cc14_transform_1 hinb hnum pf i (0 : Fin 3) = (pf 1 (ValueIdx.ix1 n) : BitVec 32).toNat
      ∧ cc14_transform_1 hinb hnum pf i (1 : Fin 3) = 0 ∧ cc14_transform_1 hinb hnum pf i (2 : Fin 3) = 0 :=
  ⟨congrArg (fun k : S32768.Idx => (pf 1 k : BitVec 32).toNat)
      (tpos14 (BitVec.ofNat 32 (i 0).val).toNat (hinb i) (hnum.symm ▸ Nat.one_pos) n (word14v i n.val hn n.isLt)), rfl, rfl⟩
/-- The output window's index map: the grid coordinate, then 0, 0. -/
theorem tf14_2 (i : grid14.Coords) (n : Nat) (hn : (i 0).val = n) (hlt : n < 32768) :
    cc14_transform_2 i (0 : Fin 3) = n ∧ cc14_transform_2 i (1 : Fin 3) = 0 ∧ cc14_transform_2 i (2 : Fin 3) = 0 :=
  ⟨word14v i n hn hlt, rfl, rfl⟩

/-- The three windows' block indices at point `t`, the tables' contents `pf` a variable: input window `k` sits at the row
    table `k` names for `t`; the output window at row `t`. -/
theorem index14_0 (a : (pcfg14 (F := F)).Adm) (pf : pre14.Contents (Elt F)) (hpf : a.1 = pf) (t : Fin (cfg14 a).N)
    (n : Fin 32768) (hn : t.val = n.val) :
    ((cfg14 a).win 0).index t (0 : Fin 3) = (pf 0 (ValueIdx.ix1 n) : BitVec 32).toNat
      ∧ ((cfg14 a).win 0).index t (1 : Fin 3) = 0 ∧ ((cfg14 a).win 0).index t (2 : Fin 3) = 0 := by
  subst hpf
  exact tf14_0 _ _ a.1 ((cfg14 a).grid.coords t) n ((coords14v a t).trans hn)
theorem index14_1 (a : (pcfg14 (F := F)).Adm) (pf : pre14.Contents (Elt F)) (hpf : a.1 = pf) (t : Fin (cfg14 a).N)
    (n : Fin 32768) (hn : t.val = n.val) :
    ((cfg14 a).win 1).index t (0 : Fin 3) = (pf 1 (ValueIdx.ix1 n) : BitVec 32).toNat
      ∧ ((cfg14 a).win 1).index t (1 : Fin 3) = 0 ∧ ((cfg14 a).win 1).index t (2 : Fin 3) = 0 := by
  subst hpf
  exact tf14_1 _ _ a.1 ((cfg14 a).grid.coords t) n ((coords14v a t).trans hn)
theorem index14_2 (a : (pcfg14 (F := F)).Adm) (t : Fin (cfg14 a).N) :
    ((cfg14 a).win 2).index t (0 : Fin 3) = t.val
      ∧ ((cfg14 a).win 2).index t (1 : Fin 3) = 0 ∧ ((cfg14 a).win 2).index t (2 : Fin 3) = 0 :=
  tf14_2 ((cfg14 a).grid.coords t) t.val (coords14v a t) t.isLt

/-- The output window is written back at every point: its block index, the point, changes at every step. -/
theorem flush14_2 (a : (pcfg14 (F := F)).Adm) (t : Fin (cfg14 a).N) : ((cfg14 a).win 2).flush t = true := by
  have ht : t.val < 32768 := t.isLt
  rw [Window.flush_out _ rfl]
  by_cases h : t.val + 1 = 32768
  · exact Or.inl h
  · have h' : t.val + 1 < 32768 := by omega
    refine Or.inr ⟨h', fun e => ?_⟩
    have e1 : ((cfg14 a).win 2).index ⟨t.val + 1, h'⟩ (0 : Fin 3) = t.val + 1 := (index14_2 a ⟨t.val + 1, h'⟩).1
    have e2 : ((cfg14 a).win 2).index t (0 : Fin 3) = t.val := (index14_2 a t).1
    have e0 : ((cfg14 a).win 2).index ⟨t.val + 1, h'⟩ (0 : Fin 3) = ((cfg14 a).win 2).index t (0 : Fin 3) := congrFun e (0 : Fin 3)
    rw [e1, e2] at e0
    omega

/-! ## From the blocks to the array -/

section
variable (V : (c : Dev nD) → (b : Ref sig .tc) → Buf (Elt F) ((c : Thread nD τ).loc b))

set_option backward.isDefEq.respectTransparency.types false in
/-- WHAT POINT `t` WRITES BACK is block `t` of the gather of the array and the two tables as the region finds them. -/
theorem flushed14_2 (hO : Ok14 V) (c : Dev nD) (t : Fin (cfgM14 V hO).N) :
    (dat14 V hO c).flushed 2 t
      = (((cfgM14 V hO).win 2).blk t).view.read (Elt F) (GB (V c main_v1) (tbl14 V 0) (tbl14 V 1)) := by
  show ((cfgM14 V hO).win 2).cut ((cfgM14 V hO).grid.coords t) ((dat14 V hO c).after 2 t) = _
  rw [after14_2]
  unfold out14_2
  rw [View.canon_unit_zero hz14v]
  simp only [View.ld_unit_zero (S := S1x1x128) hz14v]
  rw [pay14_eq]
  have ht : t.val < 32768 := t.isLt
  obtain ⟨a0, a1, a2⟩ := index14_0 (adm14 V hO) (tbl14 V) rfl t ⟨t.val, ht⟩ rfl
  obtain ⟨b0, b1, b2⟩ := index14_1 (adm14 V hO) (tbl14 V) rfl t ⟨t.val, ht⟩ rfl
  obtain ⟨c0, c1, c2⟩ := index14_2 (adm14 V hO) t
  funext j
  have hj0 : (j (0 : Fin 3)).val = 0 := by have h : (j (0 : Fin 3)).val < 1 := (j (0 : Fin 3)).isLt; omega
  show FloatOps.addf (V c main_v1 ((((cfgM14 V hO).win 0).blk t).view.emb j)) (V c main_v1 ((((cfgM14 V hO).win 1).blk t).view.emb j))
    = GB (V c main_v1) (tbl14 V 0) (tbl14 V 1) ((((cfgM14 V hO).win 2).blk t).view.emb j)
  refine (GB_eq (V c main_v1) (tbl14 V 0) (tbl14 V 1) ((((cfgM14 V hO).win 2).blk t).view.emb j) ⟨t.val, ht⟩ ?_
    ((((cfgM14 V hO).win 0).blk t).view.emb j) ((((cfgM14 V hO).win 1).blk t).view.emb j) ?_ ?_ ?_ ?_).symm
  · show ((cfgM14 V hO).win 2).index t (0 : Fin 3) * 1 + 1 * (j (0 : Fin 3)).val = t.val
    rw [c0, hj0]; omega
  · show ((cfgM14 V hO).win 0).index t (0 : Fin 3) * 1 + 1 * (j (0 : Fin 3)).val = _
    rw [a0, hj0, Nat.mul_one, Nat.mul_zero, Nat.add_zero]
  · show ((cfgM14 V hO).win 0).index t (2 : Fin 3) * 128 + 1 * (j (2 : Fin 3)).val = ((cfgM14 V hO).win 2).index t (2 : Fin 3) * 128 + 1 * (j (2 : Fin 3)).val
    rw [a2, c2]
  · show ((cfgM14 V hO).win 1).index t (0 : Fin 3) * 1 + 1 * (j (0 : Fin 3)).val = _
    rw [b0, hj0, Nat.mul_one, Nat.mul_zero, Nat.add_zero]
  · show ((cfgM14 V hO).win 1).index t (2 : Fin 3) * 128 + 1 * (j (2 : Fin 3)).val = ((cfgM14 V hO).win 2).index t (2 : Fin 3) * 128 + 1 * (j (2 : Fin 3)).val
    rw [b2, c2]

set_option backward.isDefEq.respectTransparency.types false in
/-- An index of the output array is in point `t`'s block iff each coordinate is in the block's range on its axis. -/
theorem mem_blk14_2 (hO : Ok14 V) (t : Fin (cfgM14 V hO).N) (i : (⟨3, ![32768, 1, 128]⟩ : Shape).Idx) :
    i ∈ (((cfgM14 V hO).win 2).blk t).view.set ↔ ∀ a : Fin 3, ((cfgM14 V hO).win 2).index t a * S1x1x128.size a ≤ (i a).val
      ∧ (i a).val < ((cfgM14 V hO).win 2).index t a * S1x1x128.size a + S1x1x128.size a := by
  show i ∈ ((View.whole main_v76).slice (((cfgM14 V hO).win 2).rect t)).set ↔ _
  rw [View.set_slice_whole]
  exact Rect.mem_set_unit

/-- The output's blocks tile its array: row `j` is the block of point `j`. -/
theorem cover14v (hO : Ok14 V) (i : (⟨3, ![32768, 1, 128]⟩ : Shape).Idx) :
    ∃ t : Fin (cfgM14 V hO).N, ((cfgM14 V hO).win 2).flush t = true ∧ i ∈ (((cfgM14 V hO).win 2).blk t).view.set := by
  have h0 : (i 0).val < 32768 := (i 0).isLt
  have h1 : (i 1).val < 1 := (i 1).isLt
  have h2 : (i 2).val < 128 := (i 2).isLt
  refine ⟨⟨(i 0).val, h0⟩, flush14_2 (adm14 V hO) _, ?_⟩
  obtain ⟨c0, c1, c2⟩ := index14_2 (adm14 V hO) ⟨(i 0).val, h0⟩
  rw [mem_blk14_2]
  intro a
  match a with
  | ⟨0, _⟩ => show ((cfgM14 V hO).win 2).index ⟨(i 0).val, h0⟩ (0 : Fin 3) * 1 ≤ (i 0).val ∧ (i 0).val < ((cfgM14 V hO).win 2).index ⟨(i 0).val, h0⟩ (0 : Fin 3) * 1 + 1; rw [c0]; show (i 0).val * 1 ≤ (i 0).val ∧ (i 0).val < (i 0).val * 1 + 1; omega
  | ⟨1, _⟩ => show ((cfgM14 V hO).win 2).index ⟨(i 0).val, h0⟩ (1 : Fin 3) * 1 ≤ (i 1).val ∧ (i 1).val < ((cfgM14 V hO).win 2).index ⟨(i 0).val, h0⟩ (1 : Fin 3) * 1 + 1; rw [c1]; omega
  | ⟨2, _⟩ => show ((cfgM14 V hO).win 2).index ⟨(i 0).val, h0⟩ (2 : Fin 3) * 128 ≤ (i 2).val ∧ (i 2).val < ((cfgM14 V hO).win 2).index ⟨(i 0).val, h0⟩ (2 : Fin 3) * 128 + 128; rw [c2]; omega

/-- THE OUTPUT ARRAY after the region: the gather of the array and the two tables as the region finds them. -/
theorem arrAt14_2 (hO : Ok14 V) (c : Dev nD) :
    (dat14 V hO c).arrAt 2 (cfgM14 V hO).N = GB (V c main_v1) (tbl14 V 0) (tbl14 V 1) :=
  (dat14 V hO c).arrAt_eq_of_cover 2 (GB (V c main_v1) (tbl14 V 0) (tbl14 V 1)) (fun t _ => flushed14_2 V hO c t) (cover14v V hO)
end

end Cert.KernelIdeal.GenP

end
-- ==== Proof.KernelIdeal.RB15Val.lean ====
/- The value of a row-gather region's output array after the region: each of its rows the sum of the two rows of the
   gathered array that the region's two tables name. -/
import proofs.«175043_j76819785056407_2_alg».proof.Proof.KernelIdeal.RB15
import proofs.«175043_j76819785056407_2_alg».proof.Proof.KernelIdeal.GatherSpec
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

theorem hz15v : (![0, 0, 0] : Fin 3 → Nat) = fun _ => 0 := funext fun a => by fin_cases a <;> rfl

/-- The body's payload: the two loaded rows added lane by lane (the two re-shapes are the identity). -/
theorem pay15_eq (x0 x1 : Vec F S1x1x128 .f32) : k15_pay1 x0 x1 = addf x0 x1 := by
  unfold k15_pay1
  rw [shapeCast_self, shapeCast_self]

/-! ## The grid and the index maps, at ANY admitted contents of the two tables -/

/-- The grid has one axis: the point's one coordinate is the point. -/
theorem coords15v (a : (pcfg15 (F := F)).Adm) (t : Fin (cfg15 a).N) : (((cfg15 a).grid.coords t) 0).val = t.val := by
  have ht : t.val < 32768 := t.isLt
  show t.val / 1 % 32768 = t.val
  omega

/-- The one element of a table that the one-word rectangle at offset `off` holds is the table's position `off`. -/
theorem tpos15 (off : Nat) (inb : ∀ a, (![off] : Fin 1 → Nat) a + S1.size a ≤ S32768.size a) (h : 0 < S1.numel)
    (n : Fin 32768) (hoff : off = n.val) :
    (Rect.unit (s := S32768) ![off] S1.size inb).emb (Shape.Idx.first h) = ValueIdx.ix1 n := by
  funext a
  apply Fin.ext
  match a with
  | ⟨0, _⟩ => show off + 1 * 0 = n.val; omega

/-- A grid coordinate below 2^32 survives the round trip through a 32-bit word. -/
theorem word15v (i : grid15.Coords) (n : Nat) (hn : (i 0).val = n) (hlt : n < 32768) : (BitVec.ofNat 32 (i 0).val).toNat = n := by
  rw [BitVec.toNat_ofNat, hn]
  omega

/-- An input window's index map at grid coordinate `n`: the row number table `k` holds at position `n`, then 0, 0. -/
theorem tf15_0 (hinb : ∀ i : grid15.Coords, ∀ a, (k15_off1 i) a + S1.size a ≤ S32768.size a) (hnum : S1.numel = 1)
    (pf : pre15.Contents (Elt F)) (i : grid15.Coords) (n : Fin 32768) (hn : (i 0).val = n.val) :
    cc15_transform_0 hinb hnum pf i (0 : Fin 3) = (pf 0 (ValueIdx.ix1 n) : BitVec 32).toNat
      ∧ cc15_transform_0 hinb hnum pf i (1 : Fin 3) = 0 ∧ cc15_transform_0 hinb hnum pf i (2 : Fin 3) = 0 :=
  ⟨congrArg (fun k : S32768.Idx => (pf 0 k : BitVec 32).toNat)
      (tpos15 (BitVec.ofNat 32 (i 0).val).toNat (hinb i) (hnum.symm ▸ Nat.one_pos) n (word15v i n.val hn n.isLt)), rfl, rfl⟩
theorem tf15_1 (hinb : ∀ i : grid15.Coords, ∀ a, (k15_off1 i) a + S1.size a ≤ S32768.size a) (hnum : S1.numel = 1)
    (pf : pre15.Contents (Elt F)) (i : grid15.Coords) (n : Fin 32768) (hn : (i 0).val = n.val) :
    cc15_transform_1 hinb hnum pf i (0 : Fin 3) = (pf 1 (ValueIdx.ix1 n) : BitVec 32).toNat
      ∧ cc15_transform_1 hinb hnum pf i (1 : Fin 3) = 0 ∧ cc15_transform_1 hinb hnum pf i (2 : Fin 3) = 0 :=
  ⟨congrArg (fun k : S32768.Idx => (pf 1 k : BitVec 32).toNat)
      (tpos15 (BitVec.ofNat 32 (i 0).val).toNat (hinb i) (hnum.symm ▸ Nat.one_pos) n (word15v i n.val hn n.isLt)), rfl, rfl⟩
/-- The output window's index map: the grid coordinate, then 0, 0. -/
theorem tf15_2 (i : grid15.Coords) (n : Nat) (hn : (i 0).val = n) (hlt : n < 32768) :
    cc15_transform_2 i (0 : Fin 3) = n ∧ cc15_transform_2 i (1 : Fin 3) = 0 ∧ cc15_transform_2 i (2 : Fin 3) = 0 :=
  ⟨word15v i n hn hlt, rfl, rfl⟩

/-- The three windows' block indices at point `t`, the tables' contents `pf` a variable: input window `k` sits at the row
    table `k` names for `t`; the output window at row `t`. -/
theorem index15_0 (a : (pcfg15 (F := F)).Adm) (pf : pre15.Contents (Elt F)) (hpf : a.1 = pf) (t : Fin (cfg15 a).N)
    (n : Fin 32768) (hn : t.val = n.val) :
    ((cfg15 a).win 0).index t (0 : Fin 3) = (pf 0 (ValueIdx.ix1 n) : BitVec 32).toNat
      ∧ ((cfg15 a).win 0).index t (1 : Fin 3) = 0 ∧ ((cfg15 a).win 0).index t (2 : Fin 3) = 0 := by
  subst hpf
  exact tf15_0 _ _ a.1 ((cfg15 a).grid.coords t) n ((coords15v a t).trans hn)
theorem index15_1 (a : (pcfg15 (F := F)).Adm) (pf : pre15.Contents (Elt F)) (hpf : a.1 = pf) (t : Fin (cfg15 a).N)
    (n : Fin 32768) (hn : t.val = n.val) :
    ((cfg15 a).win 1).index t (0 : Fin 3) = (pf 1 (ValueIdx.ix1 n) : BitVec 32).toNat
      ∧ ((cfg15 a).win 1).index t (1 : Fin 3) = 0 ∧ ((cfg15 a).win 1).index t (2 : Fin 3) = 0 := by
  subst hpf
  exact tf15_1 _ _ a.1 ((cfg15 a).grid.coords t) n ((coords15v a t).trans hn)
theorem index15_2 (a : (pcfg15 (F := F)).Adm) (t : Fin (cfg15 a).N) :
    ((cfg15 a).win 2).index t (0 : Fin 3) = t.val
      ∧ ((cfg15 a).win 2).index t (1 : Fin 3) = 0 ∧ ((cfg15 a).win 2).index t (2 : Fin 3) = 0 :=
  tf15_2 ((cfg15 a).grid.coords t) t.val (coords15v a t) t.isLt

/-- The output window is written back at every point: its block index, the point, changes at every step. -/
theorem flush15_2 (a : (pcfg15 (F := F)).Adm) (t : Fin (cfg15 a).N) : ((cfg15 a).win 2).flush t = true := by
  have ht : t.val < 32768 := t.isLt
  rw [Window.flush_out _ rfl]
  by_cases h : t.val + 1 = 32768
  · exact Or.inl h
  · have h' : t.val + 1 < 32768 := by omega
    refine Or.inr ⟨h', fun e => ?_⟩
    have e1 : ((cfg15 a).win 2).index ⟨t.val + 1, h'⟩ (0 : Fin 3) = t.val + 1 := (index15_2 a ⟨t.val + 1, h'⟩).1
    have e2 : ((cfg15 a).win 2).index t (0 : Fin 3) = t.val := (index15_2 a t).1
    have e0 : ((cfg15 a).win 2).index ⟨t.val + 1, h'⟩ (0 : Fin 3) = ((cfg15 a).win 2).index t (0 : Fin 3) := congrFun e (0 : Fin 3)
    rw [e1, e2] at e0
    omega

/-! ## From the blocks to the array -/

section
variable (V : (c : Dev nD) → (b : Ref sig .tc) → Buf (Elt F) ((c : Thread nD τ).loc b))

set_option backward.isDefEq.respectTransparency.types false in
/-- WHAT POINT `t` WRITES BACK is block `t` of the gather of the array and the two tables as the region finds them. -/
theorem flushed15_2 (hO : Ok15 V) (c : Dev nD) (t : Fin (cfgM15 V hO).N) :
    (dat15 V hO c).flushed 2 t
      = (((cfgM15 V hO).win 2).blk t).view.read (Elt F) (GB (V c main_v1) (tbl15 V 0) (tbl15 V 1)) := by
  show ((cfgM15 V hO).win 2).cut ((cfgM15 V hO).grid.coords t) ((dat15 V hO c).after 2 t) = _
  rw [after15_2]
  unfold out15_2
  rw [View.canon_unit_zero hz15v]
  simp only [View.ld_unit_zero (S := S1x1x128) hz15v]
  rw [pay15_eq]
  have ht : t.val < 32768 := t.isLt
  obtain ⟨a0, a1, a2⟩ := index15_0 (adm15 V hO) (tbl15 V) rfl t ⟨t.val, ht⟩ rfl
  obtain ⟨b0, b1, b2⟩ := index15_1 (adm15 V hO) (tbl15 V) rfl t ⟨t.val, ht⟩ rfl
  obtain ⟨c0, c1, c2⟩ := index15_2 (adm15 V hO) t
  funext j
  have hj0 : (j (0 : Fin 3)).val = 0 := by have h : (j (0 : Fin 3)).val < 1 := (j (0 : Fin 3)).isLt; omega
  show FloatOps.addf (V c main_v1 ((((cfgM15 V hO).win 0).blk t).view.emb j)) (V c main_v1 ((((cfgM15 V hO).win 1).blk t).view.emb j))
    = GB (V c main_v1) (tbl15 V 0) (tbl15 V 1) ((((cfgM15 V hO).win 2).blk t).view.emb j)
  refine (GB_eq (V c main_v1) (tbl15 V 0) (tbl15 V 1) ((((cfgM15 V hO).win 2).blk t).view.emb j) ⟨t.val, ht⟩ ?_
    ((((cfgM15 V hO).win 0).blk t).view.emb j) ((((cfgM15 V hO).win 1).blk t).view.emb j) ?_ ?_ ?_ ?_).symm
  · show ((cfgM15 V hO).win 2).index t (0 : Fin 3) * 1 + 1 * (j (0 : Fin 3)).val = t.val
    rw [c0, hj0]; omega
  · show ((cfgM15 V hO).win 0).index t (0 : Fin 3) * 1 + 1 * (j (0 : Fin 3)).val = _
    rw [a0, hj0, Nat.mul_one, Nat.mul_zero, Nat.add_zero]
  · show ((cfgM15 V hO).win 0).index t (2 : Fin 3) * 128 + 1 * (j (2 : Fin 3)).val = ((cfgM15 V hO).win 2).index t (2 : Fin 3) * 128 + 1 * (j (2 : Fin 3)).val
    rw [a2, c2]
  · show ((cfgM15 V hO).win 1).index t (0 : Fin 3) * 1 + 1 * (j (0 : Fin 3)).val = _
    rw [b0, hj0, Nat.mul_one, Nat.mul_zero, Nat.add_zero]
  · show ((cfgM15 V hO).win 1).index t (2 : Fin 3) * 128 + 1 * (j (2 : Fin 3)).val = ((cfgM15 V hO).win 2).index t (2 : Fin 3) * 128 + 1 * (j (2 : Fin 3)).val
    rw [b2, c2]

set_option backward.isDefEq.respectTransparency.types false in
/-- An index of the output array is in point `t`'s block iff each coordinate is in the block's range on its axis. -/
theorem mem_blk15_2 (hO : Ok15 V) (t : Fin (cfgM15 V hO).N) (i : (⟨3, ![32768, 1, 128]⟩ : Shape).Idx) :
    i ∈ (((cfgM15 V hO).win 2).blk t).view.set ↔ ∀ a : Fin 3, ((cfgM15 V hO).win 2).index t a * S1x1x128.size a ≤ (i a).val
      ∧ (i a).val < ((cfgM15 V hO).win 2).index t a * S1x1x128.size a + S1x1x128.size a := by
  show i ∈ ((View.whole main_v80).slice (((cfgM15 V hO).win 2).rect t)).set ↔ _
  rw [View.set_slice_whole]
  exact Rect.mem_set_unit

/-- The output's blocks tile its array: row `j` is the block of point `j`. -/
theorem cover15v (hO : Ok15 V) (i : (⟨3, ![32768, 1, 128]⟩ : Shape).Idx) :
    ∃ t : Fin (cfgM15 V hO).N, ((cfgM15 V hO).win 2).flush t = true ∧ i ∈ (((cfgM15 V hO).win 2).blk t).view.set := by
  have h0 : (i 0).val < 32768 := (i 0).isLt
  have h1 : (i 1).val < 1 := (i 1).isLt
  have h2 : (i 2).val < 128 := (i 2).isLt
  refine ⟨⟨(i 0).val, h0⟩, flush15_2 (adm15 V hO) _, ?_⟩
  obtain ⟨c0, c1, c2⟩ := index15_2 (adm15 V hO) ⟨(i 0).val, h0⟩
  rw [mem_blk15_2]
  intro a
  match a with
  | ⟨0, _⟩ => show ((cfgM15 V hO).win 2).index ⟨(i 0).val, h0⟩ (0 : Fin 3) * 1 ≤ (i 0).val ∧ (i 0).val < ((cfgM15 V hO).win 2).index ⟨(i 0).val, h0⟩ (0 : Fin 3) * 1 + 1; rw [c0]; show (i 0).val * 1 ≤ (i 0).val ∧ (i 0).val < (i 0).val * 1 + 1; omega
  | ⟨1, _⟩ => show ((cfgM15 V hO).win 2).index ⟨(i 0).val, h0⟩ (1 : Fin 3) * 1 ≤ (i 1).val ∧ (i 1).val < ((cfgM15 V hO).win 2).index ⟨(i 0).val, h0⟩ (1 : Fin 3) * 1 + 1; rw [c1]; omega
  | ⟨2, _⟩ => show ((cfgM15 V hO).win 2).index ⟨(i 0).val, h0⟩ (2 : Fin 3) * 128 ≤ (i 2).val ∧ (i 2).val < ((cfgM15 V hO).win 2).index ⟨(i 0).val, h0⟩ (2 : Fin 3) * 128 + 128; rw [c2]; omega

/-- THE OUTPUT ARRAY after the region: the gather of the array and the two tables as the region finds them. -/
theorem arrAt15_2 (hO : Ok15 V) (c : Dev nD) :
    (dat15 V hO c).arrAt 2 (cfgM15 V hO).N = GB (V c main_v1) (tbl15 V 0) (tbl15 V 1) :=
  (dat15 V hO c).arrAt_eq_of_cover 2 (GB (V c main_v1) (tbl15 V 0) (tbl15 V 1)) (fun t _ => flushed15_2 V hO c t) (cover15v V hO)
end

end Cert.KernelIdeal.GenP

end
-- ==== Proof.KernelIdeal.KVal.lean ====
/-
  The chain of the buffers' contents, read at the buffers the result depends on: each buffer holds the term the
  composition of the host operations and the regions' closed forms gives it, so the last buffer holds the composed result.
  Region 0's two outputs are its closed forms of the first argument; the first host stretch makes of them, and of the two
  index arguments, the vertex-major array with a unit axis, the two gathered endpoint arrays and the first pair of tables;
  gather region K, entered at contents that still hold those arrays, leaves the row gather of its two tables; the next
  host stretch drops its unit axis and cuts the next pair of tables; the sixteenth stretch joins the fifteen results, the
  last region transposes the join, and the last host operation joins region 0's first output with it.
-/
import proofs.«175043_j76819785056407_2_alg».proof.Proof.KernelIdeal.Keep
import proofs.«175043_j76819785056407_2_alg».proof.Proof.KernelIdeal.KG
import proofs.«175043_j76819785056407_2_alg».proof.Proof.KernelIdeal.R0Val
import proofs.«175043_j76819785056407_2_alg».proof.Proof.KernelIdeal.R16Val
import proofs.«175043_j76819785056407_2_alg».proof.Proof.KernelIdeal.RB1Val
import proofs.«175043_j76819785056407_2_alg».proof.Proof.KernelIdeal.RB2Val
import proofs.«175043_j76819785056407_2_alg».proof.Proof.KernelIdeal.RB3Val
import proofs.«175043_j76819785056407_2_alg».proof.Proof.KernelIdeal.RB4Val
import proofs.«175043_j76819785056407_2_alg».proof.Proof.KernelIdeal.RB5Val
import proofs.«175043_j76819785056407_2_alg».proof.Proof.KernelIdeal.RB6Val
import proofs.«175043_j76819785056407_2_alg».proof.Proof.KernelIdeal.RB7Val
import proofs.«175043_j76819785056407_2_alg».proof.Proof.KernelIdeal.RB8Val
import proofs.«175043_j76819785056407_2_alg».proof.Proof.KernelIdeal.RB9Val
import proofs.«175043_j76819785056407_2_alg».proof.Proof.KernelIdeal.RB10Val
import proofs.«175043_j76819785056407_2_alg».proof.Proof.KernelIdeal.RB11Val
import proofs.«175043_j76819785056407_2_alg».proof.Proof.KernelIdeal.RB12Val
import proofs.«175043_j76819785056407_2_alg».proof.Proof.KernelIdeal.RB13Val
import proofs.«175043_j76819785056407_2_alg».proof.Proof.KernelIdeal.RB14Val
import proofs.«175043_j76819785056407_2_alg».proof.Proof.KernelIdeal.RB15Val

set_option maxRecDepth 65536

noncomputable section

namespace Cert.KernelIdeal.GenP

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ)

/-! ## After region 0 -/

theorem W1_arg1 (c : Dev nD) : W1 m c main_arg1 = m ((c : Thread nD τ).loc main_arg1) := by
  unfold W1
  rw [Function.update_of_ne (StableHlo.devRef_ne_of_ne (by decide : (main_arg1 : Ref sig .tc) ≠ main_v0_1)),
    Function.update_of_ne (StableHlo.devRef_ne_of_ne (by decide : (main_arg1 : Ref sig .tc) ≠ main_v0_0))]
  rfl

theorem W1_arg2 (c : Dev nD) : W1 m c main_arg2 = m ((c : Thread nD τ).loc main_arg2) := by
  unfold W1
  rw [Function.update_of_ne (StableHlo.devRef_ne_of_ne (by decide : (main_arg2 : Ref sig .tc) ≠ main_v0_1)),
    Function.update_of_ne (StableHlo.devRef_ne_of_ne (by decide : (main_arg2 : Ref sig .tc) ≠ main_v0_0))]
  rfl

theorem W1_v0_0 (c : Dev nD) : W1 m c main_v0_0 = G0_1 (F := Ideal) (m ((c : Thread nD τ).loc main_arg0)) := by
  unfold W1
  rw [Function.update_of_ne (StableHlo.devRef_ne_of_ne (by decide : (main_v0_0 : Ref sig .tc) ≠ main_v0_1)),
    Function.update_self, arrAt0_1]
  rfl

theorem W1_v0_1 (c : Dev nD) : W1 m c main_v0_1 = G0_2 (F := Ideal) (m ((c : Thread nD τ).loc main_arg0)) := by
  unfold W1
  rw [Function.update_self, arrAt0_2]
  rfl

/-! ## After the first host stretch -/

theorem W2_v1 (c : Dev nD) : W2 m c main_v1 = kg_v1 (m ((c : Thread nD τ).loc main_arg0)) := by
  unfold W2
  after_results
  rw [W1_v0_1]
  rfl

theorem W2_v14 (c : Dev nD) : W2 m c main_v14 = kg_v14 (m ((c : Thread nD τ).loc main_arg1)) (m ((c : Thread nD τ).loc main_arg2)) := by
  unfold W2
  after_results
  rw [W1_arg1, W1_arg2]
  rfl

theorem W2_v21 (c : Dev nD) : W2 m c main_v21 = kg_v21 (m ((c : Thread nD τ).loc main_arg1)) (m ((c : Thread nD τ).loc main_arg2)) := by
  unfold W2
  after_results
  rw [W1_arg1, W1_arg2]
  rfl

theorem W2_v22 (c : Dev nD) : W2 m c main_v22 = kg_v22 (m ((c : Thread nD τ).loc main_arg1)) (m ((c : Thread nD τ).loc main_arg2)) := by
  unfold W2
  after_results
  rw [W1_arg1, W1_arg2]
  rfl

theorem W2_v23 (c : Dev nD) : W2 m c main_v23 = kg_v23 (m ((c : Thread nD τ).loc main_arg1)) (m ((c : Thread nD τ).loc main_arg2)) := by
  unfold W2
  after_results
  rw [W1_arg1, W1_arg2]
  rfl

/-! ## Gather region 1 -/

theorem W3_v24 (hO1 : Ok1 (VW (W2 m))) (c : Dev nD) :
    W3 m c main_v24 = kg_v24 (m ((c : Thread nD τ).loc main_arg0)) (m ((c : Thread nD τ).loc main_arg1)) (m ((c : Thread nD τ).loc main_arg2)) := by
  obtain rfl : c = 0 := Subsingleton.elim _ _
  refine (congrFun (W3_pos m hO1 0) main_v24).trans ?_
  refine (Function.update_self _ _ _).trans ?_
  refine (arrAt1_2 (VW (W2 m)) hO1 0).trans ?_
  show GB (F := Ideal) (W2 m 0 main_v1) (W2 m 0 main_v22) (W2 m 0 main_v23) = _
  rw [W2_v1, W2_v22, W2_v23]
  rfl

/-! ## After host stretch 2 -/

theorem W4_v25 (hO1 : Ok1 (VW (W2 m))) (c : Dev nD) :
    W4 m c main_v25 = kg_v25 (m ((c : Thread nD τ).loc main_arg0)) (m ((c : Thread nD τ).loc main_arg1)) (m ((c : Thread nD τ).loc main_arg2)) := by
  unfold W4
  after_results
  rw [W3_v24 m hO1]
  rfl

theorem W4_v26 (c : Dev nD) : W4 m c main_v26 = kg_v26 (m ((c : Thread nD τ).loc main_arg1)) (m ((c : Thread nD τ).loc main_arg2)) := by
  unfold W4
  after_results
  rw [keep_v14_2 m c, W2_v14]
  rfl

theorem W4_v27 (c : Dev nD) : W4 m c main_v27 = kg_v27 (m ((c : Thread nD τ).loc main_arg1)) (m ((c : Thread nD τ).loc main_arg2)) := by
  unfold W4
  after_results
  rw [keep_v21_2 m c, W2_v21]
  rfl

theorem W31_v25 (hO1 : Ok1 (VW (W2 m))) (c : Dev nD) :
    W31 m c main_v25 = kg_v25 (m ((c : Thread nD τ).loc main_arg0)) (m ((c : Thread nD τ).loc main_arg1)) (m ((c : Thread nD τ).loc main_arg2)) :=
  (keep_r_1 m c).trans (W4_v25 m hO1 c)

/-! ## Gather region 2 -/

theorem W5_v28 (hO2 : Ok2 (VW (W4 m))) (c : Dev nD) :
    W5 m c main_v28 = kg_v28 (m ((c : Thread nD τ).loc main_arg0)) (m ((c : Thread nD τ).loc main_arg1)) (m ((c : Thread nD τ).loc main_arg2)) := by
  obtain rfl : c = 0 := Subsingleton.elim _ _
  refine (congrFun (W5_pos m hO2 0) main_v28).trans ?_
  refine (Function.update_self _ _ _).trans ?_
  refine (arrAt2_2 (VW (W4 m)) hO2 0).trans ?_
  show GB (F := Ideal) (W4 m 0 main_v1) (W4 m 0 main_v26) (W4 m 0 main_v27) = _
  rw [keep_v1_2 m 0, W2_v1, W4_v26, W4_v27]
  rfl

/-! ## After host stretch 3 -/

theorem W6_v29 (hO2 : Ok2 (VW (W4 m))) (c : Dev nD) :
    W6 m c main_v29 = kg_v29 (m ((c : Thread nD τ).loc main_arg0)) (m ((c : Thread nD τ).loc main_arg1)) (m ((c : Thread nD τ).loc main_arg2)) := by
  unfold W6
  after_results
  rw [W5_v28 m hO2]
  rfl

theorem W6_v30 (c : Dev nD) : W6 m c main_v30 = kg_v30 (m ((c : Thread nD τ).loc main_arg1)) (m ((c : Thread nD τ).loc main_arg2)) := by
  unfold W6
  after_results
  rw [keep_v14_3 m c, W2_v14]
  rfl

theorem W6_v31 (c : Dev nD) : W6 m c main_v31 = kg_v31 (m ((c : Thread nD τ).loc main_arg1)) (m ((c : Thread nD τ).loc main_arg2)) := by
  unfold W6
  after_results
  rw [keep_v21_3 m c, W2_v21]
  rfl

theorem W31_v29 (hO2 : Ok2 (VW (W4 m))) (c : Dev nD) :
    W31 m c main_v29 = kg_v29 (m ((c : Thread nD τ).loc main_arg0)) (m ((c : Thread nD τ).loc main_arg1)) (m ((c : Thread nD τ).loc main_arg2)) :=
  (keep_r_2 m c).trans (W6_v29 m hO2 c)

/-! ## Gather region 3 -/

theorem W7_v32 (hO3 : Ok3 (VW (W6 m))) (c : Dev nD) :
    W7 m c main_v32 = kg_v32 (m ((c : Thread nD τ).loc main_arg0)) (m ((c : Thread nD τ).loc main_arg1)) (m ((c : Thread nD τ).loc main_arg2)) := by
  obtain rfl : c = 0 := Subsingleton.elim _ _
  refine (congrFun (W7_pos m hO3 0) main_v32).trans ?_
  refine (Function.update_self _ _ _).trans ?_
  refine (arrAt3_2 (VW (W6 m)) hO3 0).trans ?_
  show GB (F := Ideal) (W6 m 0 main_v1) (W6 m 0 main_v30) (W6 m 0 main_v31) = _
  rw [keep_v1_3 m 0, W2_v1, W6_v30, W6_v31]
  rfl

/-! ## After host stretch 4 -/

theorem W8_v33 (hO3 : Ok3 (VW (W6 m))) (c : Dev nD) :
    W8 m c main_v33 = kg_v33 (m ((c : Thread nD τ).loc main_arg0)) (m ((c : Thread nD τ).loc main_arg1)) (m ((c : Thread nD τ).loc main_arg2)) := by
  unfold W8
  after_results
  rw [W7_v32 m hO3]
  rfl

theorem W8_v34 (c : Dev nD) : W8 m c main_v34 = kg_v34 (m ((c : Thread nD τ).loc main_arg1)) (m ((c : Thread nD τ).loc main_arg2)) := by
  unfold W8
  after_results
  rw [keep_v14_4 m c, W2_v14]
  rfl

theorem W8_v35 (c : Dev nD) : W8 m c main_v35 = kg_v35 (m ((c : Thread nD τ).loc main_arg1)) (m ((c : Thread nD τ).loc main_arg2)) := by
  unfold W8
  after_results
  rw [keep_v21_4 m c, W2_v21]
  rfl

theorem W31_v33 (hO3 : Ok3 (VW (W6 m))) (c : Dev nD) :
    W31 m c main_v33 = kg_v33 (m ((c : Thread nD τ).loc main_arg0)) (m ((c : Thread nD τ).loc main_arg1)) (m ((c : Thread nD τ).loc main_arg2)) :=
  (keep_r_3 m c).trans (W8_v33 m hO3 c)

/-! ## Gather region 4 -/

theorem W9_v36 (hO4 : Ok4 (VW (W8 m))) (c : Dev nD) :
    W9 m c main_v36 = kg_v36 (m ((c : Thread nD τ).loc main_arg0)) (m ((c : Thread nD τ).loc main_arg1)) (m ((c : Thread nD τ).loc main_arg2)) := by
  obtain rfl : c = 0 := Subsingleton.elim _ _
  refine (congrFun (W9_pos m hO4 0) main_v36).trans ?_
  refine (Function.update_self _ _ _).trans ?_
  refine (arrAt4_2 (VW (W8 m)) hO4 0).trans ?_
  show GB (F := Ideal) (W8 m 0 main_v1) (W8 m 0 main_v34) (W8 m 0 main_v35) = _
  rw [keep_v1_4 m 0, W2_v1, W8_v34, W8_v35]
  rfl

/-! ## After host stretch 5 -/

theorem W10_v37 (hO4 : Ok4 (VW (W8 m))) (c : Dev nD) :
    W10 m c main_v37 = kg_v37 (m ((c : Thread nD τ).loc main_arg0)) (m ((c : Thread nD τ).loc main_arg1)) (m ((c : Thread nD τ).loc main_arg2)) := by
  unfold W10
  after_results
  rw [W9_v36 m hO4]
  rfl

theorem W10_v38 (c : Dev nD) : W10 m c main_v38 = kg_v38 (m ((c : Thread nD τ).loc main_arg1)) (m ((c : Thread nD τ).loc main_arg2)) := by
  unfold W10
  after_results
  rw [keep_v14_5 m c, W2_v14]
  rfl

theorem W10_v39 (c : Dev nD) : W10 m c main_v39 = kg_v39 (m ((c : Thread nD τ).loc main_arg1)) (m ((c : Thread nD τ).loc main_arg2)) := by
  unfold W10
  after_results
  rw [keep_v21_5 m c, W2_v21]
  rfl

theorem W31_v37 (hO4 : Ok4 (VW (W8 m))) (c : Dev nD) :
    W31 m c main_v37 = kg_v37 (m ((c : Thread nD τ).loc main_arg0)) (m ((c : Thread nD τ).loc main_arg1)) (m ((c : Thread nD τ).loc main_arg2)) :=
  (keep_r_4 m c).trans (W10_v37 m hO4 c)

/-! ## Gather region 5 -/

theorem W11_v40 (hO5 : Ok5 (VW (W10 m))) (c : Dev nD) :
    W11 m c main_v40 = kg_v40 (m ((c : Thread nD τ).loc main_arg0)) (m ((c : Thread nD τ).loc main_arg1)) (m ((c : Thread nD τ).loc main_arg2)) := by
  obtain rfl : c = 0 := Subsingleton.elim _ _
  refine (congrFun (W11_pos m hO5 0) main_v40).trans ?_
  refine (Function.update_self _ _ _).trans ?_
  refine (arrAt5_2 (VW (W10 m)) hO5 0).trans ?_
  show GB (F := Ideal) (W10 m 0 main_v1) (W10 m 0 main_v38) (W10 m 0 main_v39) = _
  rw [keep_v1_5 m 0, W2_v1, W10_v38, W10_v39]
  rfl

/-! ## After host stretch 6 -/

theorem W12_v41 (hO5 : Ok5 (VW (W10 m))) (c : Dev nD) :
    W12 m c main_v41 = kg_v41 (m ((c : Thread nD τ).loc main_arg0)) (m ((c : Thread nD τ).loc main_arg1)) (m ((c : Thread nD τ).loc main_arg2)) := by
  unfold W12
  after_results
  rw [W11_v40 m hO5]
  rfl

theorem W12_v42 (c : Dev nD) : W12 m c main_v42 = kg_v42 (m ((c : Thread nD τ).loc main_arg1)) (m ((c : Thread nD τ).loc main_arg2)) := by
  unfold W12
  after_results
  rw [keep_v14_6 m c, W2_v14]
  rfl

theorem W12_v43 (c : Dev nD) : W12 m c main_v43 = kg_v43 (m ((c : Thread nD τ).loc main_arg1)) (m ((c : Thread nD τ).loc main_arg2)) := by
  unfold W12
  after_results
  rw [keep_v21_6 m c, W2_v21]
  rfl

theorem W31_v41 (hO5 : Ok5 (VW (W10 m))) (c : Dev nD) :
    W31 m c main_v41 = kg_v41 (m ((c : Thread nD τ).loc main_arg0)) (m ((c : Thread nD τ).loc main_arg1)) (m ((c : Thread nD τ).loc main_arg2)) :=
  (keep_r_5 m c).trans (W12_v41 m hO5 c)

/-! ## Gather region 6 -/

theorem W13_v44 (hO6 : Ok6 (VW (W12 m))) (c : Dev nD) :
    W13 m c main_v44 = kg_v44 (m ((c : Thread nD τ).loc main_arg0)) (m ((c : Thread nD τ).loc main_arg1)) (m ((c : Thread nD τ).loc main_arg2)) := by
  obtain rfl : c = 0 := Subsingleton.elim _ _
  refine (congrFun (W13_pos m hO6 0) main_v44).trans ?_
  refine (Function.update_self _ _ _).trans ?_
  refine (arrAt6_2 (VW (W12 m)) hO6 0).trans ?_
  show GB (F := Ideal) (W12 m 0 main_v1) (W12 m 0 main_v42) (W12 m 0 main_v43) = _
  rw [keep_v1_6 m 0, W2_v1, W12_v42, W12_v43]
  rfl

/-! ## After host stretch 7 -/

theorem W14_v45 (hO6 : Ok6 (VW (W12 m))) (c : Dev nD) :
    W14 m c main_v45 = kg_v45 (m ((c : Thread nD τ).loc main_arg0)) (m ((c : Thread nD τ).loc main_arg1)) (m ((c : Thread nD τ).loc main_arg2)) := by
  unfold W14
  after_results
  rw [W13_v44 m hO6]
  rfl

theorem W14_v46 (c : Dev nD) : W14 m c main_v46 = kg_v46 (m ((c : Thread nD τ).loc main_arg1)) (m ((c : Thread nD τ).loc main_arg2)) := by
  unfold W14
  after_results
  rw [keep_v14_7 m c, W2_v14]
  rfl

theorem W14_v47 (c : Dev nD) : W14 m c main_v47 = kg_v47 (m ((c : Thread nD τ).loc main_arg1)) (m ((c : Thread nD τ).loc main_arg2)) := by
  unfold W14
  after_results
  rw [keep_v21_7 m c, W2_v21]
  rfl

theorem W31_v45 (hO6 : Ok6 (VW (W12 m))) (c : Dev nD) :
    W31 m c main_v45 = kg_v45 (m ((c : Thread nD τ).loc main_arg0)) (m ((c : Thread nD τ).loc main_arg1)) (m ((c : Thread nD τ).loc main_arg2)) :=
  (keep_r_6 m c).trans (W14_v45 m hO6 c)

/-! ## Gather region 7 -/

theorem W15_v48 (hO7 : Ok7 (VW (W14 m))) (c : Dev nD) :
    W15 m c main_v48 = kg_v48 (m ((c : Thread nD τ).loc main_arg0)) (m ((c : Thread nD τ).loc main_arg1)) (m ((c : Thread nD τ).loc main_arg2)) := by
  obtain rfl : c = 0 := Subsingleton.elim _ _
  refine (congrFun (W15_pos m hO7 0) main_v48).trans ?_
  refine (Function.update_self _ _ _).trans ?_
  refine (arrAt7_2 (VW (W14 m)) hO7 0).trans ?_
  show GB (F := Ideal) (W14 m 0 main_v1) (W14 m 0 main_v46) (W14 m 0 main_v47) = _
  rw [keep_v1_7 m 0, W2_v1, W14_v46, W14_v47]
  rfl

/-! ## After host stretch 8 -/

theorem W16_v49 (hO7 : Ok7 (VW (W14 m))) (c : Dev nD) :
    W16 m c main_v49 = kg_v49 (m ((c : Thread nD τ).loc main_arg0)) (m ((c : Thread nD τ).loc main_arg1)) (m ((c : Thread nD τ).loc main_arg2)) := by
  unfold W16
  after_results
  rw [W15_v48 m hO7]
  rfl

theorem W16_v50 (c : Dev nD) : W16 m c main_v50 = kg_v50 (m ((c : Thread nD τ).loc main_arg1)) (m ((c : Thread nD τ).loc main_arg2)) := by
  unfold W16
  after_results
  rw [keep_v14_8 m c, W2_v14]
  rfl

theorem W16_v51 (c : Dev nD) : W16 m c main_v51 = kg_v51 (m ((c : Thread nD τ).loc main_arg1)) (m ((c : Thread nD τ).loc main_arg2)) := by
  unfold W16
  after_results
  rw [keep_v21_8 m c, W2_v21]
  rfl

theorem W31_v49 (hO7 : Ok7 (VW (W14 m))) (c : Dev nD) :
    W31 m c main_v49 = kg_v49 (m ((c : Thread nD τ).loc main_arg0)) (m ((c : Thread nD τ).loc main_arg1)) (m ((c : Thread nD τ).loc main_arg2)) :=
  (keep_r_7 m c).trans (W16_v49 m hO7 c)

/-! ## Gather region 8 -/

theorem W17_v52 (hO8 : Ok8 (VW (W16 m))) (c : Dev nD) :
    W17 m c main_v52 = kg_v52 (m ((c : Thread nD τ).loc main_arg0)) (m ((c : Thread nD τ).loc main_arg1)) (m ((c : Thread nD τ).loc main_arg2)) := by
  obtain rfl : c = 0 := Subsingleton.elim _ _
  refine (congrFun (W17_pos m hO8 0) main_v52).trans ?_
  refine (Function.update_self _ _ _).trans ?_
  refine (arrAt8_2 (VW (W16 m)) hO8 0).trans ?_
  show GB (F := Ideal) (W16 m 0 main_v1) (W16 m 0 main_v50) (W16 m 0 main_v51) = _
  rw [keep_v1_8 m 0, W2_v1, W16_v50, W16_v51]
  rfl

/-! ## After host stretch 9 -/

theorem W18_v53 (hO8 : Ok8 (VW (W16 m))) (c : Dev nD) :
    W18 m c main_v53 = kg_v53 (m ((c : Thread nD τ).loc main_arg0)) (m ((c : Thread nD τ).loc main_arg1)) (m ((c : Thread nD τ).loc main_arg2)) := by
  unfold W18
  after_results
  rw [W17_v52 m hO8]
  rfl

theorem W18_v54 (c : Dev nD) : W18 m c main_v54 = kg_v54 (m ((c : Thread nD τ).loc main_arg1)) (m ((c : Thread nD τ).loc main_arg2)) := by
  unfold W18
  after_results
  rw [keep_v14_9 m c, W2_v14]
  rfl

theorem W18_v55 (c : Dev nD) : W18 m c main_v55 = kg_v55 (m ((c : Thread nD τ).loc main_arg1)) (m ((c : Thread nD τ).loc main_arg2)) := by
  unfold W18
  after_results
  rw [keep_v21_9 m c, W2_v21]
  rfl

theorem W31_v53 (hO8 : Ok8 (VW (W16 m))) (c : Dev nD) :
    W31 m c main_v53 = kg_v53 (m ((c : Thread nD τ).loc main_arg0)) (m ((c : Thread nD τ).loc main_arg1)) (m ((c : Thread nD τ).loc main_arg2)) :=
  (keep_r_8 m c).trans (W18_v53 m hO8 c)

/-! ## Gather region 9 -/

theorem W19_v56 (hO9 : Ok9 (VW (W18 m))) (c : Dev nD) :
    W19 m c main_v56 = kg_v56 (m ((c : Thread nD τ).loc main_arg0)) (m ((c : Thread nD τ).loc main_arg1)) (m ((c : Thread nD τ).loc main_arg2)) := by
  obtain rfl : c = 0 := Subsingleton.elim _ _
  refine (congrFun (W19_pos m hO9 0) main_v56).trans ?_
  refine (Function.update_self _ _ _).trans ?_
  refine (arrAt9_2 (VW (W18 m)) hO9 0).trans ?_
  show GB (F := Ideal) (W18 m 0 main_v1) (W18 m 0 main_v54) (W18 m 0 main_v55) = _
  rw [keep_v1_9 m 0, W2_v1, W18_v54, W18_v55]
  rfl

/-! ## After host stretch 10 -/

theorem W20_v57 (hO9 : Ok9 (VW (W18 m))) (c : Dev nD) :
    W20 m c main_v57 = kg_v57 (m ((c : Thread nD τ).loc main_arg0)) (m ((c : Thread nD τ).loc main_arg1)) (m ((c : Thread nD τ).loc main_arg2)) := by
  unfold W20
  after_results
  rw [W19_v56 m hO9]
  rfl

theorem W20_v58 (c : Dev nD) : W20 m c main_v58 = kg_v58 (m ((c : Thread nD τ).loc main_arg1)) (m ((c : Thread nD τ).loc main_arg2)) := by
  unfold W20
  after_results
  rw [keep_v14_10 m c, W2_v14]
  rfl

theorem W20_v59 (c : Dev nD) : W20 m c main_v59 = kg_v59 (m ((c : Thread nD τ).loc main_arg1)) (m ((c : Thread nD τ).loc main_arg2)) := by
  unfold W20
  after_results
  rw [keep_v21_10 m c, W2_v21]
  rfl

theorem W31_v57 (hO9 : Ok9 (VW (W18 m))) (c : Dev nD) :
    W31 m c main_v57 = kg_v57 (m ((c : Thread nD τ).loc main_arg0)) (m ((c : Thread nD τ).loc main_arg1)) (m ((c : Thread nD τ).loc main_arg2)) :=
  (keep_r_9 m c).trans (W20_v57 m hO9 c)

/-! ## Gather region 10 -/

theorem W21_v60 (hO10 : Ok10 (VW (W20 m))) (c : Dev nD) :
    W21 m c main_v60 = kg_v60 (m ((c : Thread nD τ).loc main_arg0)) (m ((c : Thread nD τ).loc main_arg1)) (m ((c : Thread nD τ).loc main_arg2)) := by
  obtain rfl : c = 0 := Subsingleton.elim _ _
  refine (congrFun (W21_pos m hO10 0) main_v60).trans ?_
  refine (Function.update_self _ _ _).trans ?_
  refine (arrAt10_2 (VW (W20 m)) hO10 0).trans ?_
  show GB (F := Ideal) (W20 m 0 main_v1) (W20 m 0 main_v58) (W20 m 0 main_v59) = _
  rw [keep_v1_10 m 0, W2_v1, W20_v58, W20_v59]
  rfl

/-! ## After host stretch 11 -/

theorem W22_v61 (hO10 : Ok10 (VW (W20 m))) (c : Dev nD) :
    W22 m c main_v61 = kg_v61 (m ((c : Thread nD τ).loc main_arg0)) (m ((c : Thread nD τ).loc main_arg1)) (m ((c : Thread nD τ).loc main_arg2)) := by
  unfold W22
  after_results
  rw [W21_v60 m hO10]
  rfl

theorem W22_v62 (c : Dev nD) : W22 m c main_v62 = kg_v62 (m ((c : Thread nD τ).loc main_arg1)) (m ((c : Thread nD τ).loc main_arg2)) := by
  unfold W22
  after_results
  rw [keep_v14_11 m c, W2_v14]
  rfl

theorem W22_v63 (c : Dev nD) : W22 m c main_v63 = kg_v63 (m ((c : Thread nD τ).loc main_arg1)) (m ((c : Thread nD τ).loc main_arg2)) := by
  unfold W22
  after_results
  rw [keep_v21_11 m c, W2_v21]
  rfl

theorem W31_v61 (hO10 : Ok10 (VW (W20 m))) (c : Dev nD) :
    W31 m c main_v61 = kg_v61 (m ((c : Thread nD τ).loc main_arg0)) (m ((c : Thread nD τ).loc main_arg1)) (m ((c : Thread nD τ).loc main_arg2)) :=
  (keep_r_10 m c).trans (W22_v61 m hO10 c)

/-! ## Gather region 11 -/

theorem W23_v64 (hO11 : Ok11 (VW (W22 m))) (c : Dev nD) :
    W23 m c main_v64 = kg_v64 (m ((c : Thread nD τ).loc main_arg0)) (m ((c : Thread nD τ).loc main_arg1)) (m ((c : Thread nD τ).loc main_arg2)) := by
  obtain rfl : c = 0 := Subsingleton.elim _ _
  refine (congrFun (W23_pos m hO11 0) main_v64).trans ?_
  refine (Function.update_self _ _ _).trans ?_
  refine (arrAt11_2 (VW (W22 m)) hO11 0).trans ?_
  show GB (F := Ideal) (W22 m 0 main_v1) (W22 m 0 main_v62) (W22 m 0 main_v63) = _
  rw [keep_v1_11 m 0, W2_v1, W22_v62, W22_v63]
  rfl

/-! ## After host stretch 12 -/

theorem W24_v65 (hO11 : Ok11 (VW (W22 m))) (c : Dev nD) :
    W24 m c main_v65 = kg_v65 (m ((c : Thread nD τ).loc main_arg0)) (m ((c : Thread nD τ).loc main_arg1)) (m ((c : Thread nD τ).loc main_arg2)) := by
  unfold W24
  after_results
  rw [W23_v64 m hO11]
  rfl

theorem W24_v66 (c : Dev nD) : W24 m c main_v66 = kg_v66 (m ((c : Thread nD τ).loc main_arg1)) (m ((c : Thread nD τ).loc main_arg2)) := by
  unfold W24
  after_results
  rw [keep_v14_12 m c, W2_v14]
  rfl

theorem W24_v67 (c : Dev nD) : W24 m c main_v67 = kg_v67 (m ((c : Thread nD τ).loc main_arg1)) (m ((c : Thread nD τ).loc main_arg2)) := by
  unfold W24
  after_results
  rw [keep_v21_12 m c, W2_v21]
  rfl

theorem W31_v65 (hO11 : Ok11 (VW (W22 m))) (c : Dev nD) :
    W31 m c main_v65 = kg_v65 (m ((c : Thread nD τ).loc main_arg0)) (m ((c : Thread nD τ).loc main_arg1)) (m ((c : Thread nD τ).loc main_arg2)) :=
  (keep_r_11 m c).trans (W24_v65 m hO11 c)

/-! ## Gather region 12 -/

theorem W25_v68 (hO12 : Ok12 (VW (W24 m))) (c : Dev nD) :
    W25 m c main_v68 = kg_v68 (m ((c : Thread nD τ).loc main_arg0)) (m ((c : Thread nD τ).loc main_arg1)) (m ((c : Thread nD τ).loc main_arg2)) := by
  obtain rfl : c = 0 := Subsingleton.elim _ _
  refine (congrFun (W25_pos m hO12 0) main_v68).trans ?_
  refine (Function.update_self _ _ _).trans ?_
  refine (arrAt12_2 (VW (W24 m)) hO12 0).trans ?_
  show GB (F := Ideal) (W24 m 0 main_v1) (W24 m 0 main_v66) (W24 m 0 main_v67) = _
  rw [keep_v1_12 m 0, W2_v1, W24_v66, W24_v67]
  rfl

/-! ## After host stretch 13 -/

theorem W26_v69 (hO12 : Ok12 (VW (W24 m))) (c : Dev nD) :
    W26 m c main_v69 = kg_v69 (m ((c : Thread nD τ).loc main_arg0)) (m ((c : Thread nD τ).loc main_arg1)) (m ((c : Thread nD τ).loc main_arg2)) := by
  unfold W26
  after_results
  rw [W25_v68 m hO12]
  rfl

theorem W26_v70 (c : Dev nD) : W26 m c main_v70 = kg_v70 (m ((c : Thread nD τ).loc main_arg1)) (m ((c : Thread nD τ).loc main_arg2)) := by
  unfold W26
  after_results
  rw [keep_v14_13 m c, W2_v14]
  rfl

theorem W26_v71 (c : Dev nD) : W26 m c main_v71 = kg_v71 (m ((c : Thread nD τ).loc main_arg1)) (m ((c : Thread nD τ).loc main_arg2)) := by
  unfold W26
  after_results
  rw [keep_v21_13 m c, W2_v21]
  rfl

theorem W31_v69 (hO12 : Ok12 (VW (W24 m))) (c : Dev nD) :
    W31 m c main_v69 = kg_v69 (m ((c : Thread nD τ).loc main_arg0)) (m ((c : Thread nD τ).loc main_arg1)) (m ((c : Thread nD τ).loc main_arg2)) :=
  (keep_r_12 m c).trans (W26_v69 m hO12 c)

/-! ## Gather region 13 -/

theorem W27_v72 (hO13 : Ok13 (VW (W26 m))) (c : Dev nD) :
    W27 m c main_v72 = kg_v72 (m ((c : Thread nD τ).loc main_arg0)) (m ((c : Thread nD τ).loc main_arg1)) (m ((c : Thread nD τ).loc main_arg2)) := by
  obtain rfl : c = 0 := Subsingleton.elim _ _
  refine (congrFun (W27_pos m hO13 0) main_v72).trans ?_
  refine (Function.update_self _ _ _).trans ?_
  refine (arrAt13_2 (VW (W26 m)) hO13 0).trans ?_
  show GB (F := Ideal) (W26 m 0 main_v1) (W26 m 0 main_v70) (W26 m 0 main_v71) = _
  rw [keep_v1_13 m 0, W2_v1, W26_v70, W26_v71]
  rfl

/-! ## After host stretch 14 -/

theorem W28_v73 (hO13 : Ok13 (VW (W26 m))) (c : Dev nD) :
    W28 m c main_v73 = kg_v73 (m ((c : Thread nD τ).loc main_arg0)) (m ((c : Thread nD τ).loc main_arg1)) (m ((c : Thread nD τ).loc main_arg2)) := by
  unfold W28
  after_results
  rw [W27_v72 m hO13]
  rfl

theorem W28_v74 (c : Dev nD) : W28 m c main_v74 = kg_v74 (m ((c : Thread nD τ).loc main_arg1)) (m ((c : Thread nD τ).loc main_arg2)) := by
  unfold W28
  after_results
  rw [keep_v14_14 m c, W2_v14]
  rfl

theorem W28_v75 (c : Dev nD) : W28 m c main_v75 = kg_v75 (m ((c : Thread nD τ).loc main_arg1)) (m ((c : Thread nD τ).loc main_arg2)) := by
  unfold W28
  after_results
  rw [keep_v21_14 m c, W2_v21]
  rfl

theorem W31_v73 (hO13 : Ok13 (VW (W26 m))) (c : Dev nD) :
    W31 m c main_v73 = kg_v73 (m ((c : Thread nD τ).loc main_arg0)) (m ((c : Thread nD τ).loc main_arg1)) (m ((c : Thread nD τ).loc main_arg2)) :=
  (keep_r_13 m c).trans (W28_v73 m hO13 c)

/-! ## Gather region 14 -/

theorem W29_v76 (hO14 : Ok14 (VW (W28 m))) (c : Dev nD) :
    W29 m c main_v76 = kg_v76 (m ((c : Thread nD τ).loc main_arg0)) (m ((c : Thread nD τ).loc main_arg1)) (m ((c : Thread nD τ).loc main_arg2)) := by
  obtain rfl : c = 0 := Subsingleton.elim _ _
  refine (congrFun (W29_pos m hO14 0) main_v76).trans ?_
  refine (Function.update_self _ _ _).trans ?_
  refine (arrAt14_2 (VW (W28 m)) hO14 0).trans ?_
  show GB (F := Ideal) (W28 m 0 main_v1) (W28 m 0 main_v74) (W28 m 0 main_v75) = _
  rw [keep_v1_14 m 0, W2_v1, W28_v74, W28_v75]
  rfl

/-! ## After host stretch 15 -/

theorem W30_v77 (hO14 : Ok14 (VW (W28 m))) (c : Dev nD) :
    W30 m c main_v77 = kg_v77 (m ((c : Thread nD τ).loc main_arg0)) (m ((c : Thread nD τ).loc main_arg1)) (m ((c : Thread nD τ).loc main_arg2)) := by
  unfold W30
  after_results
  rw [W29_v76 m hO14]
  rfl

theorem W30_v78 (c : Dev nD) : W30 m c main_v78 = kg_v78 (m ((c : Thread nD τ).loc main_arg1)) (m ((c : Thread nD τ).loc main_arg2)) := by
  unfold W30
  after_results
  rw [keep_v14_15 m c, W2_v14]
  rfl

theorem W30_v79 (c : Dev nD) : W30 m c main_v79 = kg_v79 (m ((c : Thread nD τ).loc main_arg1)) (m ((c : Thread nD τ).loc main_arg2)) := by
  unfold W30
  after_results
  rw [keep_v21_15 m c, W2_v21]
  rfl

theorem W31_v77 (hO14 : Ok14 (VW (W28 m))) (c : Dev nD) :
    W31 m c main_v77 = kg_v77 (m ((c : Thread nD τ).loc main_arg0)) (m ((c : Thread nD τ).loc main_arg1)) (m ((c : Thread nD τ).loc main_arg2)) :=
  (keep_r_14 m c).trans (W30_v77 m hO14 c)

/-! ## Gather region 15 -/

theorem W31_v80 (hO15 : Ok15 (VW (W30 m))) (c : Dev nD) :
    W31 m c main_v80 = kg_v80 (m ((c : Thread nD τ).loc main_arg0)) (m ((c : Thread nD τ).loc main_arg1)) (m ((c : Thread nD τ).loc main_arg2)) := by
  obtain rfl : c = 0 := Subsingleton.elim _ _
  refine (congrFun (W31_pos m hO15 0) main_v80).trans ?_
  refine (Function.update_self _ _ _).trans ?_
  refine (arrAt15_2 (VW (W30 m)) hO15 0).trans ?_
  show GB (F := Ideal) (W30 m 0 main_v1) (W30 m 0 main_v78) (W30 m 0 main_v79) = _
  rw [keep_v1_15 m 0, W2_v1, W30_v78, W30_v79]
  rfl

/-! ## After host stretch 16: the join -/

theorem W32_v82 (hO1 : Ok1 (VW (W2 m))) (hO2 : Ok2 (VW (W4 m))) (hO3 : Ok3 (VW (W6 m))) (hO4 : Ok4 (VW (W8 m))) (hO5 : Ok5 (VW (W10 m))) (hO6 : Ok6 (VW (W12 m))) (hO7 : Ok7 (VW (W14 m))) (hO8 : Ok8 (VW (W16 m))) (hO9 : Ok9 (VW (W18 m))) (hO10 : Ok10 (VW (W20 m))) (hO11 : Ok11 (VW (W22 m))) (hO12 : Ok12 (VW (W24 m))) (hO13 : Ok13 (VW (W26 m))) (hO14 : Ok14 (VW (W28 m))) (hO15 : Ok15 (VW (W30 m))) (c : Dev nD) :
    W32 m c main_v82 = kg_v82 (m ((c : Thread nD τ).loc main_arg0)) (m ((c : Thread nD τ).loc main_arg1)) (m ((c : Thread nD τ).loc main_arg2)) := by
  have key : ∀ R : Valuation τ sig (Elt Ideal),
      R main_v25 = kg_v25 (m ((c : Thread nD τ).loc main_arg0)) (m ((c : Thread nD τ).loc main_arg1)) (m ((c : Thread nD τ).loc main_arg2)) →
      R main_v29 = kg_v29 (m ((c : Thread nD τ).loc main_arg0)) (m ((c : Thread nD τ).loc main_arg1)) (m ((c : Thread nD τ).loc main_arg2)) →
      R main_v33 = kg_v33 (m ((c : Thread nD τ).loc main_arg0)) (m ((c : Thread nD τ).loc main_arg1)) (m ((c : Thread nD τ).loc main_arg2)) →
      R main_v37 = kg_v37 (m ((c : Thread nD τ).loc main_arg0)) (m ((c : Thread nD τ).loc main_arg1)) (m ((c : Thread nD τ).loc main_arg2)) →
      R main_v41 = kg_v41 (m ((c : Thread nD τ).loc main_arg0)) (m ((c : Thread nD τ).loc main_arg1)) (m ((c : Thread nD τ).loc main_arg2)) →
      R main_v45 = kg_v45 (m ((c : Thread nD τ).loc main_arg0)) (m ((c : Thread nD τ).loc main_arg1)) (m ((c : Thread nD τ).loc main_arg2)) →
      R main_v49 = kg_v49 (m ((c : Thread nD τ).loc main_arg0)) (m ((c : Thread nD τ).loc main_arg1)) (m ((c : Thread nD τ).loc main_arg2)) →
      R main_v53 = kg_v53 (m ((c : Thread nD τ).loc main_arg0)) (m ((c : Thread nD τ).loc main_arg1)) (m ((c : Thread nD τ).loc main_arg2)) →
      R main_v57 = kg_v57 (m ((c : Thread nD τ).loc main_arg0)) (m ((c : Thread nD τ).loc main_arg1)) (m ((c : Thread nD τ).loc main_arg2)) →
      R main_v61 = kg_v61 (m ((c : Thread nD τ).loc main_arg0)) (m ((c : Thread nD τ).loc main_arg1)) (m ((c : Thread nD τ).loc main_arg2)) →
      R main_v65 = kg_v65 (m ((c : Thread nD τ).loc main_arg0)) (m ((c : Thread nD τ).loc main_arg1)) (m ((c : Thread nD τ).loc main_arg2)) →
      R main_v69 = kg_v69 (m ((c : Thread nD τ).loc main_arg0)) (m ((c : Thread nD τ).loc main_arg1)) (m ((c : Thread nD τ).loc main_arg2)) →
      R main_v73 = kg_v73 (m ((c : Thread nD τ).loc main_arg0)) (m ((c : Thread nD τ).loc main_arg1)) (m ((c : Thread nD τ).loc main_arg2)) →
      R main_v77 = kg_v77 (m ((c : Thread nD τ).loc main_arg0)) (m ((c : Thread nD τ).loc main_arg1)) (m ((c : Thread nD τ).loc main_arg2)) →
      R main_v81 = kg_v81 (m ((c : Thread nD τ).loc main_arg0)) (m ((c : Thread nD τ).loc main_arg1)) (m ((c : Thread nD τ).loc main_arg2)) →
      concatenate S491520x128 0 [⟨S32768x128, R main_v25⟩, ⟨S32768x128, R main_v29⟩, ⟨S32768x128, R main_v33⟩, ⟨S32768x128, R main_v37⟩, ⟨S32768x128, R main_v41⟩, ⟨S32768x128, R main_v45⟩, ⟨S32768x128, R main_v49⟩, ⟨S32768x128, R main_v53⟩, ⟨S32768x128, R main_v57⟩, ⟨S32768x128, R main_v61⟩, ⟨S32768x128, R main_v65⟩, ⟨S32768x128, R main_v69⟩, ⟨S32768x128, R main_v73⟩, ⟨S32768x128, R main_v77⟩, ⟨S32768x128, R main_v81⟩]
          concatenates_S32768x128_S32768x128_S32768x128_S32768x128_S32768x128_S32768x128_S32768x128_S32768x128_S32768x128_S32768x128_S32768x128_S32768x128_S32768x128_S32768x128_S32768x128_S491520x128_d0
        = kg_v82 (m ((c : Thread nD τ).loc main_arg0)) (m ((c : Thread nD τ).loc main_arg1)) (m ((c : Thread nD τ).loc main_arg2)) := by
    intro R h25 h29 h33 h37 h41 h45 h49 h53 h57 h61 h65 h69 h73 h77 h81
    rw [h25, h29, h33, h37, h41, h45, h49, h53, h57, h61, h65, h69, h73, h77, h81]
    rfl
  unfold W32
  simp only [after_cons, after_nil]
  rw [nary_result]
  refine key ((StableHlo.reshape (τ := τ) (Val := Elt Ideal) main_v80 main_v81 rfl shapeCasts_S32768x1x128_S32768x128).result (W31 m c))
    ?_ ?_ ?_ ?_ ?_ ?_ ?_ ?_ ?_ ?_ ?_ ?_ ?_ ?_ ?_
  · rw [reshape_result_ne (h := (by decide : (main_v25 : Ref sig .tc) ≠ main_v81))]
    exact W31_v25 m hO1 c
  · rw [reshape_result_ne (h := (by decide : (main_v29 : Ref sig .tc) ≠ main_v81))]
    exact W31_v29 m hO2 c
  · rw [reshape_result_ne (h := (by decide : (main_v33 : Ref sig .tc) ≠ main_v81))]
    exact W31_v33 m hO3 c
  · rw [reshape_result_ne (h := (by decide : (main_v37 : Ref sig .tc) ≠ main_v81))]
    exact W31_v37 m hO4 c
  · rw [reshape_result_ne (h := (by decide : (main_v41 : Ref sig .tc) ≠ main_v81))]
    exact W31_v41 m hO5 c
  · rw [reshape_result_ne (h := (by decide : (main_v45 : Ref sig .tc) ≠ main_v81))]
    exact W31_v45 m hO6 c
  · rw [reshape_result_ne (h := (by decide : (main_v49 : Ref sig .tc) ≠ main_v81))]
    exact W31_v49 m hO7 c
  · rw [reshape_result_ne (h := (by decide : (main_v53 : Ref sig .tc) ≠ main_v81))]
    exact W31_v53 m hO8 c
  · rw [reshape_result_ne (h := (by decide : (main_v57 : Ref sig .tc) ≠ main_v81))]
    exact W31_v57 m hO9 c
  · rw [reshape_result_ne (h := (by decide : (main_v61 : Ref sig .tc) ≠ main_v81))]
    exact W31_v61 m hO10 c
  · rw [reshape_result_ne (h := (by decide : (main_v65 : Ref sig .tc) ≠ main_v81))]
    exact W31_v65 m hO11 c
  · rw [reshape_result_ne (h := (by decide : (main_v69 : Ref sig .tc) ≠ main_v81))]
    exact W31_v69 m hO12 c
  · rw [reshape_result_ne (h := (by decide : (main_v73 : Ref sig .tc) ≠ main_v81))]
    exact W31_v73 m hO13 c
  · rw [reshape_result_ne (h := (by decide : (main_v77 : Ref sig .tc) ≠ main_v81))]
    exact W31_v77 m hO14 c
  · rw [reshape_result, W31_v80 m hO15 c]
    rfl

/-! ## After region 16, and the last host operation -/

theorem W33_v83 (hO1 : Ok1 (VW (W2 m))) (hO2 : Ok2 (VW (W4 m))) (hO3 : Ok3 (VW (W6 m))) (hO4 : Ok4 (VW (W8 m))) (hO5 : Ok5 (VW (W10 m))) (hO6 : Ok6 (VW (W12 m))) (hO7 : Ok7 (VW (W14 m))) (hO8 : Ok8 (VW (W16 m))) (hO9 : Ok9 (VW (W18 m))) (hO10 : Ok10 (VW (W20 m))) (hO11 : Ok11 (VW (W22 m))) (hO12 : Ok12 (VW (W24 m))) (hO13 : Ok13 (VW (W26 m))) (hO14 : Ok14 (VW (W28 m))) (hO15 : Ok15 (VW (W30 m))) (c : Dev nD) :
    W33 m c main_v83 = kg_v83 (m ((c : Thread nD τ).loc main_arg0)) (m ((c : Thread nD τ).loc main_arg1)) (m ((c : Thread nD τ).loc main_arg2)) := by
  unfold W33
  rw [Function.update_self, arrAt16_1]
  show G16 (F := Ideal) (W32 m c main_v82) = _
  rw [W32_v82 m hO1 hO2 hO3 hO4 hO5 hO6 hO7 hO8 hO9 hO10 hO11 hO12 hO13 hO14 hO15 c]
  rfl

theorem W33_v0_0 (c : Dev nD) : W33 m c main_v0_0 = G0_1 (F := Ideal) (m ((c : Thread nD τ).loc main_arg0)) :=
  (keep_v0_0 m c).trans (W1_v0_0 m c)

/-- The result buffer at the end of the chain holds the composed result of the three arguments. -/
theorem W34_v84 (hO1 : Ok1 (VW (W2 m))) (hO2 : Ok2 (VW (W4 m))) (hO3 : Ok3 (VW (W6 m))) (hO4 : Ok4 (VW (W8 m))) (hO5 : Ok5 (VW (W10 m))) (hO6 : Ok6 (VW (W12 m))) (hO7 : Ok7 (VW (W14 m))) (hO8 : Ok8 (VW (W16 m))) (hO9 : Ok9 (VW (W18 m))) (hO10 : Ok10 (VW (W20 m))) (hO11 : Ok11 (VW (W22 m))) (hO12 : Ok12 (VW (W24 m))) (hO13 : Ok13 (VW (W26 m))) (hO14 : Ok14 (VW (W28 m))) (hO15 : Ok15 (VW (W30 m))) (c : Dev nD) :
    W34 m c main_v84 = KG (m ((c : Thread nD τ).loc main_arg0)) (m ((c : Thread nD τ).loc main_arg1)) (m ((c : Thread nD τ).loc main_arg2)) := by
  unfold W34
  after_results
  rw [W33_v0_0, W33_v83 m hO1 hO2 hO3 hO4 hO5 hO6 hO7 hO8 hO9 hO10 hO11 hO12 hO13 hO14 hO15 c]
  rfl

end Cert.KernelIdeal.GenP

end
-- ==== Proof.lean ====
/- The certificate's claim.  The program computes, along its last axis, first the average of the first two channel quarters
   of the input, then, reordered by a table of edge numbers, the sums of the two endpoint columns of the quarter-scaled sum of the
   last two channel quarters.  The kernel does it in seventeen pipelined regions: one that averages and transposes, fifteen that
   gather one row per grid point through two tables of row numbers, one that transposes back.  The frames hold when every endpoint
   index lies inside the vertex axis (the tables then name rows inside the gathered array); under that range the kernel's composed
   value and the reference's are the same function of the three arguments on the extended reals: the only arithmetic difference is
   one product by a quarter against two products by a half, equal by associativity of the product. -/
import proofs.«175043_j76819785056407_2_alg».proof.Defs
import proofs.«175043_j76819785056407_2_alg».proof.Proof.Gen.Kernel
import proofs.«175043_j76819785056407_2_alg».proof.Proof.Gen.KernelIdeal
import proofs.«175043_j76819785056407_2_alg».proof.Proof.Gen.ReferenceIdeal
import proofs.«175043_j76819785056407_2_alg».proof.Proof.Gen.Pre_finite_inputs
import proofs.«175043_j76819785056407_2_alg».proof.Proof.Gen.ReferenceIdeal.Run
import proofs.«175043_j76819785056407_2_alg».proof.Proof.Gen.ReferenceIdeal.Read
import proofs.«175043_j76819785056407_2_alg».proof.Proof.PreRange
import proofs.«175043_j76819785056407_2_alg».proof.Proof.RefValue
import proofs.«175043_j76819785056407_2_alg».proof.Proof.Kernel.OkChain
import proofs.«175043_j76819785056407_2_alg».proof.Proof.KernelIdeal.OkChain
import proofs.«175043_j76819785056407_2_alg».proof.Proof.KernelIdeal.KVal
import Idealize.ShloMosaic.Adequacy
import Idealize.ShloMosaic.Init

set_option maxRecDepth 65536

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level program runs and leaves its arguments: the run of the seventeen regions, the result dropped. -/
theorem frame_k : Cert.frame_Kernel := fun m ρ hpre => by
  have hin := fun (c : Dev Cert.Kernel.nD) => Cert.Proof.PreRange.idx_range _ _ _ (hpre c)
  exact (θ_run (Cert.Kernel.defs (F := Bits)) _ _).mono (fun _ h c => (h c).2)
    (Cert.Kernel.GenP.run_main m (Cert.Kernel.GenP.okc_1 m hin) (Cert.Kernel.GenP.okc_2 m hin) (Cert.Kernel.GenP.okc_3 m hin) (Cert.Kernel.GenP.okc_4 m hin) (Cert.Kernel.GenP.okc_5 m hin) (Cert.Kernel.GenP.okc_6 m hin) (Cert.Kernel.GenP.okc_7 m hin) (Cert.Kernel.GenP.okc_8 m hin) (Cert.Kernel.GenP.okc_9 m hin) (Cert.Kernel.GenP.okc_10 m hin) (Cert.Kernel.GenP.okc_11 m hin) (Cert.Kernel.GenP.okc_12 m hin) (Cert.Kernel.GenP.okc_13 m hin) (Cert.Kernel.GenP.okc_14 m hin) (Cert.Kernel.GenP.okc_15 m hin) ρ)

/-- The idealized program likewise. -/
theorem frame_ki : Cert.frame_KernelIdeal := fun m ρ hpre => by
  have hin := fun (c : Dev Cert.KernelIdeal.nD) => Cert.Proof.PreRange.idx_range _ _ _ (hpre c)
  exact (θ_run (Cert.KernelIdeal.defs (F := Ideal)) _ _).mono (fun _ h c => (h c).2)
    (Cert.KernelIdeal.GenP.run_main m (Cert.KernelIdeal.GenP.okc_1 m hin) (Cert.KernelIdeal.GenP.okc_2 m hin) (Cert.KernelIdeal.GenP.okc_3 m hin) (Cert.KernelIdeal.GenP.okc_4 m hin) (Cert.KernelIdeal.GenP.okc_5 m hin) (Cert.KernelIdeal.GenP.okc_6 m hin) (Cert.KernelIdeal.GenP.okc_7 m hin) (Cert.KernelIdeal.GenP.okc_8 m hin) (Cert.KernelIdeal.GenP.okc_9 m hin) (Cert.KernelIdeal.GenP.okc_10 m hin) (Cert.KernelIdeal.GenP.okc_11 m hin) (Cert.KernelIdeal.GenP.okc_12 m hin) (Cert.KernelIdeal.GenP.okc_13 m hin) (Cert.KernelIdeal.GenP.okc_14 m hin) (Cert.KernelIdeal.GenP.okc_15 m hin) ρ)

/-- The reference runs and leaves its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's function of the arguments in their result buffers. -/
theorem algebraic : Cert.algebraic_KernelIdeal_ReferenceIdeal := by
  intro m ρ m' ρ' hpre hagree
  have hin := fun (c : Dev Cert.KernelIdeal.nD) => Cert.Proof.PreRange.idx_range _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run (Cert.KernelIdeal.defs (F := Ideal)) _ _).mono
      (fun _ h c => ⟨((h c).1.trans (Cert.KernelIdeal.GenP.W34_v84 m (Cert.KernelIdeal.GenP.okc_1 m hin) (Cert.KernelIdeal.GenP.okc_2 m hin) (Cert.KernelIdeal.GenP.okc_3 m hin) (Cert.KernelIdeal.GenP.okc_4 m hin) (Cert.KernelIdeal.GenP.okc_5 m hin) (Cert.KernelIdeal.GenP.okc_6 m hin) (Cert.KernelIdeal.GenP.okc_7 m hin) (Cert.KernelIdeal.GenP.okc_8 m hin) (Cert.KernelIdeal.GenP.okc_9 m hin) (Cert.KernelIdeal.GenP.okc_10 m hin) (Cert.KernelIdeal.GenP.okc_11 m hin) (Cert.KernelIdeal.GenP.okc_12 m hin) (Cert.KernelIdeal.GenP.okc_13 m hin) (Cert.KernelIdeal.GenP.okc_14 m hin) (Cert.KernelIdeal.GenP.okc_15 m hin) c)).trans
          (Cert.KernelIdeal.GenP.KG_eq_G _ _ _ (hin c)), (h c).2⟩)
      (Cert.KernelIdeal.GenP.run_main m (Cert.KernelIdeal.GenP.okc_1 m hin) (Cert.KernelIdeal.GenP.okc_2 m hin) (Cert.KernelIdeal.GenP.okc_3 m hin) (Cert.KernelIdeal.GenP.okc_4 m hin) (Cert.KernelIdeal.GenP.okc_5 m hin) (Cert.KernelIdeal.GenP.okc_6 m hin) (Cert.KernelIdeal.GenP.okc_7 m hin) (Cert.KernelIdeal.GenP.okc_8 m hin) (Cert.KernelIdeal.GenP.okc_9 m hin) (Cert.KernelIdeal.GenP.okc_10 m hin) (Cert.KernelIdeal.GenP.okc_11 m hin) (Cert.KernelIdeal.GenP.okc_12 m hin) (Cert.KernelIdeal.GenP.okc_13 m hin) (Cert.KernelIdeal.GenP.okc_14 m hin) (Cert.KernelIdeal.GenP.okc_15 m hin) ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v39_eq, Cert.ReferenceIdeal.RefValue.ref_eq_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
